-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x50 : Shape := ⟨2, ![1024, 50]⟩
abbrev S100000x128 : Shape := ⟨2, ![100000, 128]⟩
abbrev S128x100000 : Shape := ⟨2, ![128, 100000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_
  bcast_S_S100000 : S_.BroadcastsInDim S100000 (![] : Fin 0 → Fin S100000.rank)
  reducesTo_S100000_S_d0 : S100000.ReducesTo [0] S_
  bcast_S_S1024x50 : S_.BroadcastsInDim S1024x50 (![] : Fin 0 → Fin S1024x50.rank)
  reducesTo_S1024x50_S_d0_1 : S1024x50.ReducesTo [0, 1] S_

variable [Facts]

def fn_part1 {F : FTy → Type} [FloatOps F] (main_arg0 : IVec S1024x50 32) (main_v13 : IVec S_ 1) (main_v15 : IVec S1024x50 1) (main_c_5 : IVec S_ 32) : IVec S_ 1 :=
  let main_v16 : IVec S1024x50 32 := broadcastInDim S1024x50 ![] bcast_S_S1024x50 main_c_5
  let main_v17 : IVec S1024x50 1 := cmpi .sle main_arg0 main_v16
  let main_v18 : IVec S1024x50 1 := andi main_v15 main_v17
  let main_c_6 : IVec S_ 1 := constantI S_ 1 1#1
  let main_v19 : IVec S_ 1 := (fun x v => Host.reduce IntOp.andi x v reducesTo_S1024x50_S_d0_1 h_S_) main_v18 main_c_6
  let main_v20 : IVec S_ 1 := andi main_v13 main_v19
  main_v20

def fn {F : FTy → Type} [FloatOps F] (main_arg0 : IVec S1024x50 32) (main_arg1 : FVec F S100000x128 .f32) (main_arg2 : FVec F S128x100000 .f32) (main_arg3 : FVec F S100000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x100000 .f32 := Host.absf main_arg2
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S1024x50 32 := broadcastInDim S1024x50 ![] bcast_S_S1024x50 main_c_4
  let main_v15 : IVec S1024x50 1 := cmpi .sge main_arg0 main_v14
  let main_c_5 : IVec S_ 32 := constantI S_ 32 99999#32
  fn_part1 (F := F) main_arg0 main_v13 main_v15 main_c_5
-- ==== Kernel.lean ====
abbrev S1024x50 : Shape := ⟨2, ![1024, 50]⟩
abbrev S100000x128 : Shape := ⟨2, ![100000, 128]⟩
abbrev S128x100000 : Shape := ⟨2, ![128, 100000]⟩
abbrev S100000 : Shape := ⟨1, ![100000]⟩
abbrev S1024x128 : Shape := ⟨2, ![1024, 128]⟩
abbrev S32x50 : Shape := ⟨2, ![32, 50]⟩
abbrev S4x50x128 : Shape := ⟨3, ![4, 50, 128]⟩
abbrev S32x128 : Shape := ⟨2, ![32, 128]⟩
abbrev S4 : Shape := ⟨1, ![4]⟩
abbrev S_ : Shape := ⟨0, ![]⟩
abbrev S1x50x128 : Shape := ⟨3, ![1, 50, 128]⟩
abbrev S50x128 : Shape := ⟨2, ![50, 128]⟩
abbrev S1x50 : Shape := ⟨2, ![1, 50]⟩
abbrev S50 : Shape := ⟨1, ![50]⟩
abbrev S1 : Shape := ⟨1, ![1]⟩
abbrev S1x1x16 : Shape := ⟨3, ![1, 1, 16]⟩
abbrev S16 : Shape := ⟨1, ![16]⟩
abbrev S1x16 : Shape := ⟨2, ![1, 16]⟩
abbrev S20x1x5000 : Shape := ⟨3, ![20, 1, 5000]⟩
abbrev S100000x1024 : Shape := ⟨2, ![100000, 1024]⟩
abbrev S5000x128 : Shape := ⟨2, ![5000, 128]⟩
abbrev S1x1x5000 : Shape := ⟨3, ![1, 1, 5000]⟩
abbrev S5000x1024 : Shape := ⟨2, ![5000, 1024]⟩
abbrev S5000x1 : Shape := ⟨2, ![5000, 1]⟩
abbrev S1024x100000 : Shape := ⟨2, ![1024, 100000]⟩

abbrev nBuf : Table → Nat
  | .hbm => 9
  | .local .tc .vmem => 7
  | .local .scVector .vmem => 3
  | _ => 0

abbrev bufTy : (tb : Table) → Fin (nBuf tb) → BufTy
  | .hbm, ⟨0, _⟩ => ⟨S1024x50, .i32⟩
  | .hbm, ⟨1, _⟩ => ⟨S100000x128, .f32⟩
  | .hbm, ⟨2, _⟩ => ⟨S128x100000, .f32⟩
  | .hbm, ⟨3, _⟩ => ⟨S100000, .f32⟩
  | .hbm, ⟨4, _⟩ => ⟨S1024x128, .f32⟩
  | .hbm, ⟨5, _⟩ => ⟨S100000x128, .f32⟩
  | .hbm, ⟨6, _⟩ => ⟨S20x1x5000, .f32⟩
  | .hbm, ⟨7, _⟩ => ⟨S100000x1024, .f32⟩
  | .hbm, ⟨8, _⟩ => ⟨S1024x100000, .f32⟩
  | .local .tc .vmem, ⟨0, _⟩ => ⟨S5000x128, .f32⟩
  | .local .tc .vmem, ⟨1, _⟩ => ⟨S5000x128, .f32⟩
  | .local .tc .vmem, ⟨2, _⟩ => ⟨S1024x128, .f32⟩
  | .local .tc .vmem, ⟨3, _⟩ => ⟨S1x1x5000, .f32⟩
  | .local .tc .vmem, ⟨4, _⟩ => ⟨S1x1x5000, .f32⟩
  | .local .tc .vmem, ⟨5, _⟩ => ⟨S5000x1024, .f32⟩
  | .local .tc .vmem, ⟨6, _⟩ => ⟨S5000x1024, .f32⟩
  | .local .scVector .vmem, ⟨0, _⟩ => ⟨S32x50, .i32⟩
  | .local .scVector .vmem, ⟨1, _⟩ => ⟨S4x50x128, .f32⟩
  | .local .scVector .vmem, ⟨2, _⟩ => ⟨S32x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg1_scv : Ref sig .scVector := ⟨.hbm, 1, rfl⟩
abbrev main_arg0_scv : Ref sig .scVector := ⟨.hbm, 0, rfl⟩
abbrev main_v0_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_27_r0 : BitVec 32 := 0#32
  ![v2.toNat, 0]
@[reducible] def k0_t1_loop : Scf.Loop 32 :=
  let c0_i32_23 : BitVec 32 := 0#32
  let c32_i32_24 : BitVec 32 := 32#32
  let v24 : BitVec 32 := Scalar.addi c0_i32_23 c32_i32_24
  let c1_i32_25 : BitVec 32 := 1#32
  ⟨c0_i32_23, v24, c1_i32_25⟩
def k0_off2 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let c0_i32_27 : BitVec 32 := 0#32
  let c0_i32_28 : BitVec 32 := 0#32
  ![v25.toNat, 0, 0]
def k0_off3 (k0_t1 : Fin k0_t1_loop.trips) : Fin 2 → Nat :=
  let c0_i32_23 : BitVec 32 := 0#32
  let c1_i32_25 : BitVec 32 := 1#32
  let arg9 : BitVec 32 := Scf.iv c0_i32_23 c1_i32_25 k0_t1
  let c0_i32_29 : BitVec 32 := 0#32
  ![arg9.toNat, 0]
def k0_off4 (k0_t1 : Fin k0_t1_loop.trips) : Fin 1 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  ![v25.toNat]
def k0_cond1 (k0_t1 : Fin k0_t1_loop.trips) : BitVec 1 :=
  let c0_i32_23 : BitVec 32 := 0#32
  let c1_i32_25 : BitVec 32 := 1#32
  let arg9 : BitVec 32 := Scf.iv c0_i32_23 c1_i32_25 k0_t1
  let c4_i32_32 : BitVec 32 := 4#32
  let v33 : BitVec 32 := Scalar.addi arg9 c4_i32_32
  let c1_i32_33 : BitVec 32 := 1#32
  let v34 : BitVec 32 := Scalar.subi v33 c1_i32_33
  let c32_i32_34 : BitVec 32 := 32#32
  let v35 : BitVec 1 := Scalar.cmpi .slt v34 c32_i32_34
  let v36 : BitVec 32 := Scalar.extui v35
  let c0_i32_35 : BitVec 32 := 0#32
  let v37 : BitVec 1 := Scalar.cmpi .ne v36 c0_i32_35
  v37

def k0_off5 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32_32 : BitVec 32 := 4#32
  let v33 : BitVec 32 := Scalar.addi arg9 c4_i32_32
  let c1_i32_33 : BitVec 32 := 1#32
  let v34 : BitVec 32 := Scalar.subi v33 c1_i32_33
  let c4_i32_798 : BitVec 32 := 4#32
  let v2078 : BitVec 32 := Scalar.remsi v34 c4_i32_798
  let c0_i32_799 : BitVec 32 := 0#32
  let c0_i32_800 : BitVec 32 := 0#32
  ![v2078.toNat, 0, 0]
def k0_off6 (k0_t1 : Fin k0_t1_loop.trips) : Fin 2 → Nat :=
  let c0_i32_23 : BitVec 32 := 0#32
  let c1_i32_25 : BitVec 32 := 1#32
  let arg9 : BitVec 32 := Scf.iv c0_i32_23 c1_i32_25 k0_t1
  let c4_i32_32 : BitVec 32 := 4#32
  let v33 : BitVec 32 := Scalar.addi arg9 c4_i32_32
  let c1_i32_33 : BitVec 32 := 1#32
  let v34 : BitVec 32 := Scalar.subi v33 c1_i32_33
  let c0_i32_801 : BitVec 32 := 0#32
  ![v34.toNat, 0]
def k0_off7 (k0_t1 : Fin k0_t1_loop.trips) : Fin 1 → Nat :=
  let c0_i32_23 : BitVec 32 := 0#32
  let c1_i32_25 : BitVec 32 := 1#32
  let arg9 : BitVec 32 := Scf.iv c0_i32_23 c1_i32_25 k0_t1
  let c4_i32_32 : BitVec 32 := 4#32
  let v33 : BitVec 32 := Scalar.addi arg9 c4_i32_32
  let c1_i32_33 : BitVec 32 := 1#32
  let v34 : BitVec 32 := Scalar.subi v33 c1_i32_33
  let c4_i32_798 : BitVec 32 := 4#32
  let v2078 : BitVec 32 := Scalar.remsi v34 c4_i32_798
  ![v2078.toNat]
def k0_off8 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v38 : Index := Scalar.indexCast v25
  let c0_i32_36 : BitVec 32 := 0#32
  let v39 : Index := Scalar.indexCast c0_i32_36
  let c0 : Index := 0#32
  ![v38.toNat, 0, 0]
def k0_off9 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v42 : Index := Scalar.indexCast v25
  let c1_i32_37 : BitVec 32 := 1#32
  let v43 : Index := Scalar.indexCast c1_i32_37
  let c0_38 : Index := 0#32
  ![v42.toNat, 1, 0]
def k0_off10 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v47 : Index := Scalar.indexCast v25
  let c2_i32_39 : BitVec 32 := 2#32
  let v48 : Index := Scalar.indexCast c2_i32_39
  let c0_40 : Index := 0#32
  ![v47.toNat, 2, 0]
def k0_off11 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v52 : Index := Scalar.indexCast v25
  let c3_i32 : BitVec 32 := 3#32
  let v53 : Index := Scalar.indexCast c3_i32
  let c0_41 : Index := 0#32
  ![v52.toNat, 3, 0]
def k0_off12 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v57 : Index := Scalar.indexCast v25
  let c4_i32_42 : BitVec 32 := 4#32
  let v58 : Index := Scalar.indexCast c4_i32_42
  let c0_43 : Index := 0#32
  ![v57.toNat, 4, 0]
def k0_off13 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v62 : Index := Scalar.indexCast v25
  let c5_i32 : BitVec 32 := 5#32
  let v63 : Index := Scalar.indexCast c5_i32
  let c0_44 : Index := 0#32
  ![v62.toNat, 5, 0]
def k0_off14 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v67 : Index := Scalar.indexCast v25
  let c6_i32 : BitVec 32 := 6#32
  let v68 : Index := Scalar.indexCast c6_i32
  let c0_45 : Index := 0#32
  ![v67.toNat, 6, 0]
def k0_off15 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v72 : Index := Scalar.indexCast v25
  let c7_i32 : BitVec 32 := 7#32
  let v73 : Index := Scalar.indexCast c7_i32
  let c0_46 : Index := 0#32
  ![v72.toNat, 7, 0]
def k0_off16 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v77 : Index := Scalar.indexCast v25
  let c8_i32 : BitVec 32 := 8#32
  let v78 : Index := Scalar.indexCast c8_i32
  let c0_47 : Index := 0#32
  ![v77.toNat, 8, 0]
def k0_off17 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v82 : Index := Scalar.indexCast v25
  let c9_i32 : BitVec 32 := 9#32
  let v83 : Index := Scalar.indexCast c9_i32
  let c0_48 : Index := 0#32
  ![v82.toNat, 9, 0]
def k0_off18 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v87 : Index := Scalar.indexCast v25
  let c10_i32 : BitVec 32 := 10#32
  let v88 : Index := Scalar.indexCast c10_i32
  let c0_49 : Index := 0#32
  ![v87.toNat, 10, 0]
def k0_off19 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v92 : Index := Scalar.indexCast v25
  let c11_i32 : BitVec 32 := 11#32
  let v93 : Index := Scalar.indexCast c11_i32
  let c0_50 : Index := 0#32
  ![v92.toNat, 11, 0]
def k0_off20 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v97 : Index := Scalar.indexCast v25
  let c12_i32 : BitVec 32 := 12#32
  let v98 : Index := Scalar.indexCast c12_i32
  let c0_51 : Index := 0#32
  ![v97.toNat, 12, 0]
def k0_off21 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v102 : Index := Scalar.indexCast v25
  let c13_i32 : BitVec 32 := 13#32
  let v103 : Index := Scalar.indexCast c13_i32
  let c0_52 : Index := 0#32
  ![v102.toNat, 13, 0]
def k0_off22 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v107 : Index := Scalar.indexCast v25
  let c14_i32 : BitVec 32 := 14#32
  let v108 : Index := Scalar.indexCast c14_i32
  let c0_53 : Index := 0#32
  ![v107.toNat, 14, 0]
def k0_off23 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v112 : Index := Scalar.indexCast v25
  let c15_i32 : BitVec 32 := 15#32
  let v113 : Index := Scalar.indexCast c15_i32
  let c0_54 : Index := 0#32
  ![v112.toNat, 15, 0]
def k0_off24 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v117 : Index := Scalar.indexCast v25
  let c16_i32 : BitVec 32 := 16#32
  let v118 : Index := Scalar.indexCast c16_i32
  let c0_55 : Index := 0#32
  ![v117.toNat, 16, 0]
def k0_off25 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v122 : Index := Scalar.indexCast v25
  let c17_i32 : BitVec 32 := 17#32
  let v123 : Index := Scalar.indexCast c17_i32
  let c0_56 : Index := 0#32
  ![v122.toNat, 17, 0]
def k0_off26 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v127 : Index := Scalar.indexCast v25
  let c18_i32 : BitVec 32 := 18#32
  let v128 : Index := Scalar.indexCast c18_i32
  let c0_57 : Index := 0#32
  ![v127.toNat, 18, 0]
def k0_off27 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v132 : Index := Scalar.indexCast v25
  let c19_i32 : BitVec 32 := 19#32
  let v133 : Index := Scalar.indexCast c19_i32
  let c0_58 : Index := 0#32
  ![v132.toNat, 19, 0]
def k0_off28 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v137 : Index := Scalar.indexCast v25
  let c20_i32 : BitVec 32 := 20#32
  let v138 : Index := Scalar.indexCast c20_i32
  let c0_59 : Index := 0#32
  ![v137.toNat, 20, 0]
def k0_off29 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v142 : Index := Scalar.indexCast v25
  let c21_i32 : BitVec 32 := 21#32
  let v143 : Index := Scalar.indexCast c21_i32
  let c0_60 : Index := 0#32
  ![v142.toNat, 21, 0]
def k0_off30 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v147 : Index := Scalar.indexCast v25
  let c22_i32 : BitVec 32 := 22#32
  let v148 : Index := Scalar.indexCast c22_i32
  let c0_61 : Index := 0#32
  ![v147.toNat, 22, 0]
def k0_off31 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v152 : Index := Scalar.indexCast v25
  let c23_i32 : BitVec 32 := 23#32
  let v153 : Index := Scalar.indexCast c23_i32
  let c0_62 : Index := 0#32
  ![v152.toNat, 23, 0]
def k0_off32 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v157 : Index := Scalar.indexCast v25
  let c24_i32 : BitVec 32 := 24#32
  let v158 : Index := Scalar.indexCast c24_i32
  let c0_63 : Index := 0#32
  ![v157.toNat, 24, 0]
def k0_off33 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v162 : Index := Scalar.indexCast v25
  let c25_i32 : BitVec 32 := 25#32
  let v163 : Index := Scalar.indexCast c25_i32
  let c0_64 : Index := 0#32
  ![v162.toNat, 25, 0]
def k0_off34 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v167 : Index := Scalar.indexCast v25
  let c26_i32 : BitVec 32 := 26#32
  let v168 : Index := Scalar.indexCast c26_i32
  let c0_65 : Index := 0#32
  ![v167.toNat, 26, 0]
def k0_off35 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v172 : Index := Scalar.indexCast v25
  let c27_i32 : BitVec 32 := 27#32
  let v173 : Index := Scalar.indexCast c27_i32
  let c0_66 : Index := 0#32
  ![v172.toNat, 27, 0]
def k0_off36 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v177 : Index := Scalar.indexCast v25
  let c28_i32 : BitVec 32 := 28#32
  let v178 : Index := Scalar.indexCast c28_i32
  let c0_67 : Index := 0#32
  ![v177.toNat, 28, 0]
def k0_off37 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v182 : Index := Scalar.indexCast v25
  let c29_i32 : BitVec 32 := 29#32
  let v183 : Index := Scalar.indexCast c29_i32
  let c0_68 : Index := 0#32
  ![v182.toNat, 29, 0]
def k0_off38 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v187 : Index := Scalar.indexCast v25
  let c30_i32 : BitVec 32 := 30#32
  let v188 : Index := Scalar.indexCast c30_i32
  let c0_69 : Index := 0#32
  ![v187.toNat, 30, 0]
def k0_off39 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v192 : Index := Scalar.indexCast v25
  let c31_i32 : BitVec 32 := 31#32
  let v193 : Index := Scalar.indexCast c31_i32
  let c0_70 : Index := 0#32
  ![v192.toNat, 31, 0]
def k0_off40 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v197 : Index := Scalar.indexCast v25
  let c32_i32_71 : BitVec 32 := 32#32
  let v198 : Index := Scalar.indexCast c32_i32_71
  let c0_72 : Index := 0#32
  ![v197.toNat, 32, 0]
def k0_off41 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v202 : Index := Scalar.indexCast v25
  let c33_i32 : BitVec 32 := 33#32
  let v203 : Index := Scalar.indexCast c33_i32
  let c0_73 : Index := 0#32
  ![v202.toNat, 33, 0]
def k0_off42 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v207 : Index := Scalar.indexCast v25
  let c34_i32 : BitVec 32 := 34#32
  let v208 : Index := Scalar.indexCast c34_i32
  let c0_74 : Index := 0#32
  ![v207.toNat, 34, 0]
def k0_off43 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v212 : Index := Scalar.indexCast v25
  let c35_i32 : BitVec 32 := 35#32
  let v213 : Index := Scalar.indexCast c35_i32
  let c0_75 : Index := 0#32
  ![v212.toNat, 35, 0]
def k0_off44 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v217 : Index := Scalar.indexCast v25
  let c36_i32 : BitVec 32 := 36#32
  let v218 : Index := Scalar.indexCast c36_i32
  let c0_76 : Index := 0#32
  ![v217.toNat, 36, 0]
def k0_off45 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v222 : Index := Scalar.indexCast v25
  let c37_i32 : BitVec 32 := 37#32
  let v223 : Index := Scalar.indexCast c37_i32
  let c0_77 : Index := 0#32
  ![v222.toNat, 37, 0]
def k0_off46 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v227 : Index := Scalar.indexCast v25
  let c38_i32 : BitVec 32 := 38#32
  let v228 : Index := Scalar.indexCast c38_i32
  let c0_78 : Index := 0#32
  ![v227.toNat, 38, 0]
def k0_off47 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v232 : Index := Scalar.indexCast v25
  let c39_i32 : BitVec 32 := 39#32
  let v233 : Index := Scalar.indexCast c39_i32
  let c0_79 : Index := 0#32
  ![v232.toNat, 39, 0]
def k0_off48 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v237 : Index := Scalar.indexCast v25
  let c40_i32 : BitVec 32 := 40#32
  let v238 : Index := Scalar.indexCast c40_i32
  let c0_80 : Index := 0#32
  ![v237.toNat, 40, 0]
def k0_off49 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v242 : Index := Scalar.indexCast v25
  let c41_i32 : BitVec 32 := 41#32
  let v243 : Index := Scalar.indexCast c41_i32
  let c0_81 : Index := 0#32
  ![v242.toNat, 41, 0]
def k0_off50 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v247 : Index := Scalar.indexCast v25
  let c42_i32 : BitVec 32 := 42#32
  let v248 : Index := Scalar.indexCast c42_i32
  let c0_82 : Index := 0#32
  ![v247.toNat, 42, 0]
def k0_off51 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v252 : Index := Scalar.indexCast v25
  let c43_i32 : BitVec 32 := 43#32
  let v253 : Index := Scalar.indexCast c43_i32
  let c0_83 : Index := 0#32
  ![v252.toNat, 43, 0]
def k0_off52 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v257 : Index := Scalar.indexCast v25
  let c44_i32 : BitVec 32 := 44#32
  let v258 : Index := Scalar.indexCast c44_i32
  let c0_84 : Index := 0#32
  ![v257.toNat, 44, 0]
def k0_off53 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v262 : Index := Scalar.indexCast v25
  let c45_i32 : BitVec 32 := 45#32
  let v263 : Index := Scalar.indexCast c45_i32
  let c0_85 : Index := 0#32
  ![v262.toNat, 45, 0]
def k0_off54 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v267 : Index := Scalar.indexCast v25
  let c46_i32 : BitVec 32 := 46#32
  let v268 : Index := Scalar.indexCast c46_i32
  let c0_86 : Index := 0#32
  ![v267.toNat, 46, 0]
def k0_off55 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v272 : Index := Scalar.indexCast v25
  let c47_i32 : BitVec 32 := 47#32
  let v273 : Index := Scalar.indexCast c47_i32
  let c0_87 : Index := 0#32
  ![v272.toNat, 47, 0]
def k0_off56 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v277 : Index := Scalar.indexCast v25
  let c48_i32 : BitVec 32 := 48#32
  let v278 : Index := Scalar.indexCast c48_i32
  let c0_88 : Index := 0#32
  ![v277.toNat, 48, 0]
def k0_off57 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v282 : Index := Scalar.indexCast v25
  let c49_i32 : BitVec 32 := 49#32
  let v283 : Index := Scalar.indexCast c49_i32
  let c0_89 : Index := 0#32
  ![v282.toNat, 49, 0]
def k0_off58 (k0_t1 : Fin k0_t1_loop.trips) : Fin 2 → Nat :=
  let c0_i32_23 : BitVec 32 := 0#32
  let c1_i32_25 : BitVec 32 := 1#32
  let arg9 : BitVec 32 := Scf.iv c0_i32_23 c1_i32_25 k0_t1
  let v289 : Index := Scalar.indexCast arg9
  let c0_90 : Index := 0#32
  ![v289.toNat, 0]
def k0_off59 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v293 : Index := Scalar.indexCast v25
  let c0_i32_91 : BitVec 32 := 0#32
  let v294 : Index := Scalar.indexCast c0_i32_91
  let c16 : Index := 16#32
  ![v293.toNat, 0, 16]
def k0_off60 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v297 : Index := Scalar.indexCast v25
  let c1_i32_92 : BitVec 32 := 1#32
  let v298 : Index := Scalar.indexCast c1_i32_92
  let c16_93 : Index := 16#32
  ![v297.toNat, 1, 16]
def k0_off61 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v302 : Index := Scalar.indexCast v25
  let c2_i32_94 : BitVec 32 := 2#32
  let v303 : Index := Scalar.indexCast c2_i32_94
  let c16_95 : Index := 16#32
  ![v302.toNat, 2, 16]
def k0_off62 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v307 : Index := Scalar.indexCast v25
  let c3_i32_96 : BitVec 32 := 3#32
  let v308 : Index := Scalar.indexCast c3_i32_96
  let c16_97 : Index := 16#32
  ![v307.toNat, 3, 16]
def k0_off63 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v312 : Index := Scalar.indexCast v25
  let c4_i32_98 : BitVec 32 := 4#32
  let v313 : Index := Scalar.indexCast c4_i32_98
  let c16_99 : Index := 16#32
  ![v312.toNat, 4, 16]
def k0_off64 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v317 : Index := Scalar.indexCast v25
  let c5_i32_100 : BitVec 32 := 5#32
  let v318 : Index := Scalar.indexCast c5_i32_100
  let c16_101 : Index := 16#32
  ![v317.toNat, 5, 16]
def k0_off65 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v322 : Index := Scalar.indexCast v25
  let c6_i32_102 : BitVec 32 := 6#32
  let v323 : Index := Scalar.indexCast c6_i32_102
  let c16_103 : Index := 16#32
  ![v322.toNat, 6, 16]
def k0_off66 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v327 : Index := Scalar.indexCast v25
  let c7_i32_104 : BitVec 32 := 7#32
  let v328 : Index := Scalar.indexCast c7_i32_104
  let c16_105 : Index := 16#32
  ![v327.toNat, 7, 16]
def k0_off67 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v332 : Index := Scalar.indexCast v25
  let c8_i32_106 : BitVec 32 := 8#32
  let v333 : Index := Scalar.indexCast c8_i32_106
  let c16_107 : Index := 16#32
  ![v332.toNat, 8, 16]
def k0_off68 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v337 : Index := Scalar.indexCast v25
  let c9_i32_108 : BitVec 32 := 9#32
  let v338 : Index := Scalar.indexCast c9_i32_108
  let c16_109 : Index := 16#32
  ![v337.toNat, 9, 16]
def k0_off69 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v342 : Index := Scalar.indexCast v25
  let c10_i32_110 : BitVec 32 := 10#32
  let v343 : Index := Scalar.indexCast c10_i32_110
  let c16_111 : Index := 16#32
  ![v342.toNat, 10, 16]
def k0_off70 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v347 : Index := Scalar.indexCast v25
  let c11_i32_112 : BitVec 32 := 11#32
  let v348 : Index := Scalar.indexCast c11_i32_112
  let c16_113 : Index := 16#32
  ![v347.toNat, 11, 16]
def k0_off71 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v352 : Index := Scalar.indexCast v25
  let c12_i32_114 : BitVec 32 := 12#32
  let v353 : Index := Scalar.indexCast c12_i32_114
  let c16_115 : Index := 16#32
  ![v352.toNat, 12, 16]
def k0_off72 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v357 : Index := Scalar.indexCast v25
  let c13_i32_116 : BitVec 32 := 13#32
  let v358 : Index := Scalar.indexCast c13_i32_116
  let c16_117 : Index := 16#32
  ![v357.toNat, 13, 16]
def k0_off73 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v362 : Index := Scalar.indexCast v25
  let c14_i32_118 : BitVec 32 := 14#32
  let v363 : Index := Scalar.indexCast c14_i32_118
  let c16_119 : Index := 16#32
  ![v362.toNat, 14, 16]
def k0_off74 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v367 : Index := Scalar.indexCast v25
  let c15_i32_120 : BitVec 32 := 15#32
  let v368 : Index := Scalar.indexCast c15_i32_120
  let c16_121 : Index := 16#32
  ![v367.toNat, 15, 16]
def k0_off75 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v372 : Index := Scalar.indexCast v25
  let c16_i32_122 : BitVec 32 := 16#32
  let v373 : Index := Scalar.indexCast c16_i32_122
  let c16_123 : Index := 16#32
  ![v372.toNat, 16, 16]
def k0_off76 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v377 : Index := Scalar.indexCast v25
  let c17_i32_124 : BitVec 32 := 17#32
  let v378 : Index := Scalar.indexCast c17_i32_124
  let c16_125 : Index := 16#32
  ![v377.toNat, 17, 16]
def k0_off77 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v382 : Index := Scalar.indexCast v25
  let c18_i32_126 : BitVec 32 := 18#32
  let v383 : Index := Scalar.indexCast c18_i32_126
  let c16_127 : Index := 16#32
  ![v382.toNat, 18, 16]
def k0_off78 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v387 : Index := Scalar.indexCast v25
  let c19_i32_128 : BitVec 32 := 19#32
  let v388 : Index := Scalar.indexCast c19_i32_128
  let c16_129 : Index := 16#32
  ![v387.toNat, 19, 16]
def k0_off79 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v392 : Index := Scalar.indexCast v25
  let c20_i32_130 : BitVec 32 := 20#32
  let v393 : Index := Scalar.indexCast c20_i32_130
  let c16_131 : Index := 16#32
  ![v392.toNat, 20, 16]
def k0_off80 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v397 : Index := Scalar.indexCast v25
  let c21_i32_132 : BitVec 32 := 21#32
  let v398 : Index := Scalar.indexCast c21_i32_132
  let c16_133 : Index := 16#32
  ![v397.toNat, 21, 16]
def k0_off81 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v402 : Index := Scalar.indexCast v25
  let c22_i32_134 : BitVec 32 := 22#32
  let v403 : Index := Scalar.indexCast c22_i32_134
  let c16_135 : Index := 16#32
  ![v402.toNat, 22, 16]
def k0_off82 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v407 : Index := Scalar.indexCast v25
  let c23_i32_136 : BitVec 32 := 23#32
  let v408 : Index := Scalar.indexCast c23_i32_136
  let c16_137 : Index := 16#32
  ![v407.toNat, 23, 16]
def k0_off83 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v412 : Index := Scalar.indexCast v25
  let c24_i32_138 : BitVec 32 := 24#32
  let v413 : Index := Scalar.indexCast c24_i32_138
  let c16_139 : Index := 16#32
  ![v412.toNat, 24, 16]
def k0_off84 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v417 : Index := Scalar.indexCast v25
  let c25_i32_140 : BitVec 32 := 25#32
  let v418 : Index := Scalar.indexCast c25_i32_140
  let c16_141 : Index := 16#32
  ![v417.toNat, 25, 16]
def k0_off85 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v422 : Index := Scalar.indexCast v25
  let c26_i32_142 : BitVec 32 := 26#32
  let v423 : Index := Scalar.indexCast c26_i32_142
  let c16_143 : Index := 16#32
  ![v422.toNat, 26, 16]
def k0_off86 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v427 : Index := Scalar.indexCast v25
  let c27_i32_144 : BitVec 32 := 27#32
  let v428 : Index := Scalar.indexCast c27_i32_144
  let c16_145 : Index := 16#32
  ![v427.toNat, 27, 16]
def k0_off87 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v432 : Index := Scalar.indexCast v25
  let c28_i32_146 : BitVec 32 := 28#32
  let v433 : Index := Scalar.indexCast c28_i32_146
  let c16_147 : Index := 16#32
  ![v432.toNat, 28, 16]
def k0_off88 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v437 : Index := Scalar.indexCast v25
  let c29_i32_148 : BitVec 32 := 29#32
  let v438 : Index := Scalar.indexCast c29_i32_148
  let c16_149 : Index := 16#32
  ![v437.toNat, 29, 16]
def k0_off89 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v442 : Index := Scalar.indexCast v25
  let c30_i32_150 : BitVec 32 := 30#32
  let v443 : Index := Scalar.indexCast c30_i32_150
  let c16_151 : Index := 16#32
  ![v442.toNat, 30, 16]
def k0_off90 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v447 : Index := Scalar.indexCast v25
  let c31_i32_152 : BitVec 32 := 31#32
  let v448 : Index := Scalar.indexCast c31_i32_152
  let c16_153 : Index := 16#32
  ![v447.toNat, 31, 16]
def k0_off91 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v452 : Index := Scalar.indexCast v25
  let c32_i32_154 : BitVec 32 := 32#32
  let v453 : Index := Scalar.indexCast c32_i32_154
  let c16_155 : Index := 16#32
  ![v452.toNat, 32, 16]
def k0_off92 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v457 : Index := Scalar.indexCast v25
  let c33_i32_156 : BitVec 32 := 33#32
  let v458 : Index := Scalar.indexCast c33_i32_156
  let c16_157 : Index := 16#32
  ![v457.toNat, 33, 16]
def k0_off93 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v462 : Index := Scalar.indexCast v25
  let c34_i32_158 : BitVec 32 := 34#32
  let v463 : Index := Scalar.indexCast c34_i32_158
  let c16_159 : Index := 16#32
  ![v462.toNat, 34, 16]
def k0_off94 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v467 : Index := Scalar.indexCast v25
  let c35_i32_160 : BitVec 32 := 35#32
  let v468 : Index := Scalar.indexCast c35_i32_160
  let c16_161 : Index := 16#32
  ![v467.toNat, 35, 16]
def k0_off95 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v472 : Index := Scalar.indexCast v25
  let c36_i32_162 : BitVec 32 := 36#32
  let v473 : Index := Scalar.indexCast c36_i32_162
  let c16_163 : Index := 16#32
  ![v472.toNat, 36, 16]
def k0_off96 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v477 : Index := Scalar.indexCast v25
  let c37_i32_164 : BitVec 32 := 37#32
  let v478 : Index := Scalar.indexCast c37_i32_164
  let c16_165 : Index := 16#32
  ![v477.toNat, 37, 16]
def k0_off97 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v482 : Index := Scalar.indexCast v25
  let c38_i32_166 : BitVec 32 := 38#32
  let v483 : Index := Scalar.indexCast c38_i32_166
  let c16_167 : Index := 16#32
  ![v482.toNat, 38, 16]
def k0_off98 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v487 : Index := Scalar.indexCast v25
  let c39_i32_168 : BitVec 32 := 39#32
  let v488 : Index := Scalar.indexCast c39_i32_168
  let c16_169 : Index := 16#32
  ![v487.toNat, 39, 16]
def k0_off99 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v492 : Index := Scalar.indexCast v25
  let c40_i32_170 : BitVec 32 := 40#32
  let v493 : Index := Scalar.indexCast c40_i32_170
  let c16_171 : Index := 16#32
  ![v492.toNat, 40, 16]
def k0_off100 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v497 : Index := Scalar.indexCast v25
  let c41_i32_172 : BitVec 32 := 41#32
  let v498 : Index := Scalar.indexCast c41_i32_172
  let c16_173 : Index := 16#32
  ![v497.toNat, 41, 16]
def k0_off101 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v502 : Index := Scalar.indexCast v25
  let c42_i32_174 : BitVec 32 := 42#32
  let v503 : Index := Scalar.indexCast c42_i32_174
  let c16_175 : Index := 16#32
  ![v502.toNat, 42, 16]
def k0_off102 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v507 : Index := Scalar.indexCast v25
  let c43_i32_176 : BitVec 32 := 43#32
  let v508 : Index := Scalar.indexCast c43_i32_176
  let c16_177 : Index := 16#32
  ![v507.toNat, 43, 16]
def k0_off103 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v512 : Index := Scalar.indexCast v25
  let c44_i32_178 : BitVec 32 := 44#32
  let v513 : Index := Scalar.indexCast c44_i32_178
  let c16_179 : Index := 16#32
  ![v512.toNat, 44, 16]
def k0_off104 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v517 : Index := Scalar.indexCast v25
  let c45_i32_180 : BitVec 32 := 45#32
  let v518 : Index := Scalar.indexCast c45_i32_180
  let c16_181 : Index := 16#32
  ![v517.toNat, 45, 16]
def k0_off105 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v522 : Index := Scalar.indexCast v25
  let c46_i32_182 : BitVec 32 := 46#32
  let v523 : Index := Scalar.indexCast c46_i32_182
  let c16_183 : Index := 16#32
  ![v522.toNat, 46, 16]
def k0_off106 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v527 : Index := Scalar.indexCast v25
  let c47_i32_184 : BitVec 32 := 47#32
  let v528 : Index := Scalar.indexCast c47_i32_184
  let c16_185 : Index := 16#32
  ![v527.toNat, 47, 16]
def k0_off107 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v532 : Index := Scalar.indexCast v25
  let c48_i32_186 : BitVec 32 := 48#32
  let v533 : Index := Scalar.indexCast c48_i32_186
  let c16_187 : Index := 16#32
  ![v532.toNat, 48, 16]
def k0_off108 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v537 : Index := Scalar.indexCast v25
  let c49_i32_188 : BitVec 32 := 49#32
  let v538 : Index := Scalar.indexCast c49_i32_188
  let c16_189 : Index := 16#32
  ![v537.toNat, 49, 16]
def k0_off109 (k0_t1 : Fin k0_t1_loop.trips) : Fin 2 → Nat :=
  let c0_i32_23 : BitVec 32 := 0#32
  let c1_i32_25 : BitVec 32 := 1#32
  let arg9 : BitVec 32 := Scf.iv c0_i32_23 c1_i32_25 k0_t1
  let v544 : Index := Scalar.indexCast arg9
  let c16_191 : Index := 16#32
  ![v544.toNat, 16]
def k0_off110 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v548 : Index := Scalar.indexCast v25
  let c0_i32_192 : BitVec 32 := 0#32
  let v549 : Index := Scalar.indexCast c0_i32_192
  let c32 : Index := 32#32
  ![v548.toNat, 0, 32]
def k0_off111 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v552 : Index := Scalar.indexCast v25
  let c1_i32_193 : BitVec 32 := 1#32
  let v553 : Index := Scalar.indexCast c1_i32_193
  let c32_194 : Index := 32#32
  ![v552.toNat, 1, 32]
def k0_off112 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v557 : Index := Scalar.indexCast v25
  let c2_i32_195 : BitVec 32 := 2#32
  let v558 : Index := Scalar.indexCast c2_i32_195
  let c32_196 : Index := 32#32
  ![v557.toNat, 2, 32]
def k0_off113 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v562 : Index := Scalar.indexCast v25
  let c3_i32_197 : BitVec 32 := 3#32
  let v563 : Index := Scalar.indexCast c3_i32_197
  let c32_198 : Index := 32#32
  ![v562.toNat, 3, 32]
def k0_off114 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v567 : Index := Scalar.indexCast v25
  let c4_i32_199 : BitVec 32 := 4#32
  let v568 : Index := Scalar.indexCast c4_i32_199
  let c32_200 : Index := 32#32
  ![v567.toNat, 4, 32]
def k0_off115 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v572 : Index := Scalar.indexCast v25
  let c5_i32_201 : BitVec 32 := 5#32
  let v573 : Index := Scalar.indexCast c5_i32_201
  let c32_202 : Index := 32#32
  ![v572.toNat, 5, 32]
def k0_off116 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v577 : Index := Scalar.indexCast v25
  let c6_i32_203 : BitVec 32 := 6#32
  let v578 : Index := Scalar.indexCast c6_i32_203
  let c32_204 : Index := 32#32
  ![v577.toNat, 6, 32]
def k0_off117 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v582 : Index := Scalar.indexCast v25
  let c7_i32_205 : BitVec 32 := 7#32
  let v583 : Index := Scalar.indexCast c7_i32_205
  let c32_206 : Index := 32#32
  ![v582.toNat, 7, 32]
def k0_off118 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v587 : Index := Scalar.indexCast v25
  let c8_i32_207 : BitVec 32 := 8#32
  let v588 : Index := Scalar.indexCast c8_i32_207
  let c32_208 : Index := 32#32
  ![v587.toNat, 8, 32]
def k0_off119 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v592 : Index := Scalar.indexCast v25
  let c9_i32_209 : BitVec 32 := 9#32
  let v593 : Index := Scalar.indexCast c9_i32_209
  let c32_210 : Index := 32#32
  ![v592.toNat, 9, 32]
def k0_off120 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v597 : Index := Scalar.indexCast v25
  let c10_i32_211 : BitVec 32 := 10#32
  let v598 : Index := Scalar.indexCast c10_i32_211
  let c32_212 : Index := 32#32
  ![v597.toNat, 10, 32]
def k0_off121 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v602 : Index := Scalar.indexCast v25
  let c11_i32_213 : BitVec 32 := 11#32
  let v603 : Index := Scalar.indexCast c11_i32_213
  let c32_214 : Index := 32#32
  ![v602.toNat, 11, 32]
def k0_off122 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v607 : Index := Scalar.indexCast v25
  let c12_i32_215 : BitVec 32 := 12#32
  let v608 : Index := Scalar.indexCast c12_i32_215
  let c32_216 : Index := 32#32
  ![v607.toNat, 12, 32]
def k0_off123 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v612 : Index := Scalar.indexCast v25
  let c13_i32_217 : BitVec 32 := 13#32
  let v613 : Index := Scalar.indexCast c13_i32_217
  let c32_218 : Index := 32#32
  ![v612.toNat, 13, 32]
def k0_off124 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v617 : Index := Scalar.indexCast v25
  let c14_i32_219 : BitVec 32 := 14#32
  let v618 : Index := Scalar.indexCast c14_i32_219
  let c32_220 : Index := 32#32
  ![v617.toNat, 14, 32]
def k0_off125 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v622 : Index := Scalar.indexCast v25
  let c15_i32_221 : BitVec 32 := 15#32
  let v623 : Index := Scalar.indexCast c15_i32_221
  let c32_222 : Index := 32#32
  ![v622.toNat, 15, 32]
def k0_off126 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v627 : Index := Scalar.indexCast v25
  let c16_i32_223 : BitVec 32 := 16#32
  let v628 : Index := Scalar.indexCast c16_i32_223
  let c32_224 : Index := 32#32
  ![v627.toNat, 16, 32]
def k0_off127 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v632 : Index := Scalar.indexCast v25
  let c17_i32_225 : BitVec 32 := 17#32
  let v633 : Index := Scalar.indexCast c17_i32_225
  let c32_226 : Index := 32#32
  ![v632.toNat, 17, 32]
def k0_off128 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v637 : Index := Scalar.indexCast v25
  let c18_i32_227 : BitVec 32 := 18#32
  let v638 : Index := Scalar.indexCast c18_i32_227
  let c32_228 : Index := 32#32
  ![v637.toNat, 18, 32]
def k0_off129 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v642 : Index := Scalar.indexCast v25
  let c19_i32_229 : BitVec 32 := 19#32
  let v643 : Index := Scalar.indexCast c19_i32_229
  let c32_230 : Index := 32#32
  ![v642.toNat, 19, 32]
def k0_off130 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v647 : Index := Scalar.indexCast v25
  let c20_i32_231 : BitVec 32 := 20#32
  let v648 : Index := Scalar.indexCast c20_i32_231
  let c32_232 : Index := 32#32
  ![v647.toNat, 20, 32]
def k0_off131 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v652 : Index := Scalar.indexCast v25
  let c21_i32_233 : BitVec 32 := 21#32
  let v653 : Index := Scalar.indexCast c21_i32_233
  let c32_234 : Index := 32#32
  ![v652.toNat, 21, 32]
def k0_off132 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v657 : Index := Scalar.indexCast v25
  let c22_i32_235 : BitVec 32 := 22#32
  let v658 : Index := Scalar.indexCast c22_i32_235
  let c32_236 : Index := 32#32
  ![v657.toNat, 22, 32]
def k0_off133 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v662 : Index := Scalar.indexCast v25
  let c23_i32_237 : BitVec 32 := 23#32
  let v663 : Index := Scalar.indexCast c23_i32_237
  let c32_238 : Index := 32#32
  ![v662.toNat, 23, 32]
def k0_off134 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v667 : Index := Scalar.indexCast v25
  let c24_i32_239 : BitVec 32 := 24#32
  let v668 : Index := Scalar.indexCast c24_i32_239
  let c32_240 : Index := 32#32
  ![v667.toNat, 24, 32]
def k0_off135 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v672 : Index := Scalar.indexCast v25
  let c25_i32_241 : BitVec 32 := 25#32
  let v673 : Index := Scalar.indexCast c25_i32_241
  let c32_242 : Index := 32#32
  ![v672.toNat, 25, 32]
def k0_off136 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v677 : Index := Scalar.indexCast v25
  let c26_i32_243 : BitVec 32 := 26#32
  let v678 : Index := Scalar.indexCast c26_i32_243
  let c32_244 : Index := 32#32
  ![v677.toNat, 26, 32]
def k0_off137 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v682 : Index := Scalar.indexCast v25
  let c27_i32_245 : BitVec 32 := 27#32
  let v683 : Index := Scalar.indexCast c27_i32_245
  let c32_246 : Index := 32#32
  ![v682.toNat, 27, 32]
def k0_off138 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v687 : Index := Scalar.indexCast v25
  let c28_i32_247 : BitVec 32 := 28#32
  let v688 : Index := Scalar.indexCast c28_i32_247
  let c32_248 : Index := 32#32
  ![v687.toNat, 28, 32]
def k0_off139 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v692 : Index := Scalar.indexCast v25
  let c29_i32_249 : BitVec 32 := 29#32
  let v693 : Index := Scalar.indexCast c29_i32_249
  let c32_250 : Index := 32#32
  ![v692.toNat, 29, 32]
def k0_off140 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v697 : Index := Scalar.indexCast v25
  let c30_i32_251 : BitVec 32 := 30#32
  let v698 : Index := Scalar.indexCast c30_i32_251
  let c32_252 : Index := 32#32
  ![v697.toNat, 30, 32]
def k0_off141 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v702 : Index := Scalar.indexCast v25
  let c31_i32_253 : BitVec 32 := 31#32
  let v703 : Index := Scalar.indexCast c31_i32_253
  let c32_254 : Index := 32#32
  ![v702.toNat, 31, 32]
def k0_off142 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v707 : Index := Scalar.indexCast v25
  let c32_i32_255 : BitVec 32 := 32#32
  let v708 : Index := Scalar.indexCast c32_i32_255
  let c32_256 : Index := 32#32
  ![v707.toNat, 32, 32]
def k0_off143 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v712 : Index := Scalar.indexCast v25
  let c33_i32_257 : BitVec 32 := 33#32
  let v713 : Index := Scalar.indexCast c33_i32_257
  let c32_258 : Index := 32#32
  ![v712.toNat, 33, 32]
def k0_off144 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v717 : Index := Scalar.indexCast v25
  let c34_i32_259 : BitVec 32 := 34#32
  let v718 : Index := Scalar.indexCast c34_i32_259
  let c32_260 : Index := 32#32
  ![v717.toNat, 34, 32]
def k0_off145 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v722 : Index := Scalar.indexCast v25
  let c35_i32_261 : BitVec 32 := 35#32
  let v723 : Index := Scalar.indexCast c35_i32_261
  let c32_262 : Index := 32#32
  ![v722.toNat, 35, 32]
def k0_off146 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v727 : Index := Scalar.indexCast v25
  let c36_i32_263 : BitVec 32 := 36#32
  let v728 : Index := Scalar.indexCast c36_i32_263
  let c32_264 : Index := 32#32
  ![v727.toNat, 36, 32]
def k0_off147 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v732 : Index := Scalar.indexCast v25
  let c37_i32_265 : BitVec 32 := 37#32
  let v733 : Index := Scalar.indexCast c37_i32_265
  let c32_266 : Index := 32#32
  ![v732.toNat, 37, 32]
def k0_off148 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v737 : Index := Scalar.indexCast v25
  let c38_i32_267 : BitVec 32 := 38#32
  let v738 : Index := Scalar.indexCast c38_i32_267
  let c32_268 : Index := 32#32
  ![v737.toNat, 38, 32]
def k0_off149 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v742 : Index := Scalar.indexCast v25
  let c39_i32_269 : BitVec 32 := 39#32
  let v743 : Index := Scalar.indexCast c39_i32_269
  let c32_270 : Index := 32#32
  ![v742.toNat, 39, 32]
def k0_off150 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v747 : Index := Scalar.indexCast v25
  let c40_i32_271 : BitVec 32 := 40#32
  let v748 : Index := Scalar.indexCast c40_i32_271
  let c32_272 : Index := 32#32
  ![v747.toNat, 40, 32]
def k0_off151 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v752 : Index := Scalar.indexCast v25
  let c41_i32_273 : BitVec 32 := 41#32
  let v753 : Index := Scalar.indexCast c41_i32_273
  let c32_274 : Index := 32#32
  ![v752.toNat, 41, 32]
def k0_off152 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v757 : Index := Scalar.indexCast v25
  let c42_i32_275 : BitVec 32 := 42#32
  let v758 : Index := Scalar.indexCast c42_i32_275
  let c32_276 : Index := 32#32
  ![v757.toNat, 42, 32]
def k0_off153 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v762 : Index := Scalar.indexCast v25
  let c43_i32_277 : BitVec 32 := 43#32
  let v763 : Index := Scalar.indexCast c43_i32_277
  let c32_278 : Index := 32#32
  ![v762.toNat, 43, 32]
def k0_off154 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v767 : Index := Scalar.indexCast v25
  let c44_i32_279 : BitVec 32 := 44#32
  let v768 : Index := Scalar.indexCast c44_i32_279
  let c32_280 : Index := 32#32
  ![v767.toNat, 44, 32]
def k0_off155 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v772 : Index := Scalar.indexCast v25
  let c45_i32_281 : BitVec 32 := 45#32
  let v773 : Index := Scalar.indexCast c45_i32_281
  let c32_282 : Index := 32#32
  ![v772.toNat, 45, 32]
def k0_off156 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v777 : Index := Scalar.indexCast v25
  let c46_i32_283 : BitVec 32 := 46#32
  let v778 : Index := Scalar.indexCast c46_i32_283
  let c32_284 : Index := 32#32
  ![v777.toNat, 46, 32]
def k0_off157 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v782 : Index := Scalar.indexCast v25
  let c47_i32_285 : BitVec 32 := 47#32
  let v783 : Index := Scalar.indexCast c47_i32_285
  let c32_286 : Index := 32#32
  ![v782.toNat, 47, 32]
def k0_off158 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v787 : Index := Scalar.indexCast v25
  let c48_i32_287 : BitVec 32 := 48#32
  let v788 : Index := Scalar.indexCast c48_i32_287
  let c32_288 : Index := 32#32
  ![v787.toNat, 48, 32]
def k0_off159 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v792 : Index := Scalar.indexCast v25
  let c49_i32_289 : BitVec 32 := 49#32
  let v793 : Index := Scalar.indexCast c49_i32_289
  let c32_290 : Index := 32#32
  ![v792.toNat, 49, 32]
def k0_off160 (k0_t1 : Fin k0_t1_loop.trips) : Fin 2 → Nat :=
  let c0_i32_23 : BitVec 32 := 0#32
  let c1_i32_25 : BitVec 32 := 1#32
  let arg9 : BitVec 32 := Scf.iv c0_i32_23 c1_i32_25 k0_t1
  let v799 : Index := Scalar.indexCast arg9
  let c32_292 : Index := 32#32
  ![v799.toNat, 32]
def k0_off161 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v803 : Index := Scalar.indexCast v25
  let c0_i32_293 : BitVec 32 := 0#32
  let v804 : Index := Scalar.indexCast c0_i32_293
  let c48 : Index := 48#32
  ![v803.toNat, 0, 48]
def k0_off162 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v807 : Index := Scalar.indexCast v25
  let c1_i32_294 : BitVec 32 := 1#32
  let v808 : Index := Scalar.indexCast c1_i32_294
  let c48_295 : Index := 48#32
  ![v807.toNat, 1, 48]
def k0_off163 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v812 : Index := Scalar.indexCast v25
  let c2_i32_296 : BitVec 32 := 2#32
  let v813 : Index := Scalar.indexCast c2_i32_296
  let c48_297 : Index := 48#32
  ![v812.toNat, 2, 48]
def k0_off164 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v817 : Index := Scalar.indexCast v25
  let c3_i32_298 : BitVec 32 := 3#32
  let v818 : Index := Scalar.indexCast c3_i32_298
  let c48_299 : Index := 48#32
  ![v817.toNat, 3, 48]
def k0_off165 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v822 : Index := Scalar.indexCast v25
  let c4_i32_300 : BitVec 32 := 4#32
  let v823 : Index := Scalar.indexCast c4_i32_300
  let c48_301 : Index := 48#32
  ![v822.toNat, 4, 48]
def k0_off166 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v827 : Index := Scalar.indexCast v25
  let c5_i32_302 : BitVec 32 := 5#32
  let v828 : Index := Scalar.indexCast c5_i32_302
  let c48_303 : Index := 48#32
  ![v827.toNat, 5, 48]
def k0_off167 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v832 : Index := Scalar.indexCast v25
  let c6_i32_304 : BitVec 32 := 6#32
  let v833 : Index := Scalar.indexCast c6_i32_304
  let c48_305 : Index := 48#32
  ![v832.toNat, 6, 48]
def k0_off168 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v837 : Index := Scalar.indexCast v25
  let c7_i32_306 : BitVec 32 := 7#32
  let v838 : Index := Scalar.indexCast c7_i32_306
  let c48_307 : Index := 48#32
  ![v837.toNat, 7, 48]
def k0_off169 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v842 : Index := Scalar.indexCast v25
  let c8_i32_308 : BitVec 32 := 8#32
  let v843 : Index := Scalar.indexCast c8_i32_308
  let c48_309 : Index := 48#32
  ![v842.toNat, 8, 48]
def k0_off170 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v847 : Index := Scalar.indexCast v25
  let c9_i32_310 : BitVec 32 := 9#32
  let v848 : Index := Scalar.indexCast c9_i32_310
  let c48_311 : Index := 48#32
  ![v847.toNat, 9, 48]
def k0_off171 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v852 : Index := Scalar.indexCast v25
  let c10_i32_312 : BitVec 32 := 10#32
  let v853 : Index := Scalar.indexCast c10_i32_312
  let c48_313 : Index := 48#32
  ![v852.toNat, 10, 48]
def k0_off172 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v857 : Index := Scalar.indexCast v25
  let c11_i32_314 : BitVec 32 := 11#32
  let v858 : Index := Scalar.indexCast c11_i32_314
  let c48_315 : Index := 48#32
  ![v857.toNat, 11, 48]
def k0_off173 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v862 : Index := Scalar.indexCast v25
  let c12_i32_316 : BitVec 32 := 12#32
  let v863 : Index := Scalar.indexCast c12_i32_316
  let c48_317 : Index := 48#32
  ![v862.toNat, 12, 48]
def k0_off174 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v867 : Index := Scalar.indexCast v25
  let c13_i32_318 : BitVec 32 := 13#32
  let v868 : Index := Scalar.indexCast c13_i32_318
  let c48_319 : Index := 48#32
  ![v867.toNat, 13, 48]
def k0_off175 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v872 : Index := Scalar.indexCast v25
  let c14_i32_320 : BitVec 32 := 14#32
  let v873 : Index := Scalar.indexCast c14_i32_320
  let c48_321 : Index := 48#32
  ![v872.toNat, 14, 48]
def k0_off176 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v877 : Index := Scalar.indexCast v25
  let c15_i32_322 : BitVec 32 := 15#32
  let v878 : Index := Scalar.indexCast c15_i32_322
  let c48_323 : Index := 48#32
  ![v877.toNat, 15, 48]
def k0_off177 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v882 : Index := Scalar.indexCast v25
  let c16_i32_324 : BitVec 32 := 16#32
  let v883 : Index := Scalar.indexCast c16_i32_324
  let c48_325 : Index := 48#32
  ![v882.toNat, 16, 48]
def k0_off178 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v887 : Index := Scalar.indexCast v25
  let c17_i32_326 : BitVec 32 := 17#32
  let v888 : Index := Scalar.indexCast c17_i32_326
  let c48_327 : Index := 48#32
  ![v887.toNat, 17, 48]
def k0_off179 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v892 : Index := Scalar.indexCast v25
  let c18_i32_328 : BitVec 32 := 18#32
  let v893 : Index := Scalar.indexCast c18_i32_328
  let c48_329 : Index := 48#32
  ![v892.toNat, 18, 48]
def k0_off180 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v897 : Index := Scalar.indexCast v25
  let c19_i32_330 : BitVec 32 := 19#32
  let v898 : Index := Scalar.indexCast c19_i32_330
  let c48_331 : Index := 48#32
  ![v897.toNat, 19, 48]
def k0_off181 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v902 : Index := Scalar.indexCast v25
  let c20_i32_332 : BitVec 32 := 20#32
  let v903 : Index := Scalar.indexCast c20_i32_332
  let c48_333 : Index := 48#32
  ![v902.toNat, 20, 48]
def k0_off182 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v907 : Index := Scalar.indexCast v25
  let c21_i32_334 : BitVec 32 := 21#32
  let v908 : Index := Scalar.indexCast c21_i32_334
  let c48_335 : Index := 48#32
  ![v907.toNat, 21, 48]
def k0_off183 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v912 : Index := Scalar.indexCast v25
  let c22_i32_336 : BitVec 32 := 22#32
  let v913 : Index := Scalar.indexCast c22_i32_336
  let c48_337 : Index := 48#32
  ![v912.toNat, 22, 48]
def k0_off184 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v917 : Index := Scalar.indexCast v25
  let c23_i32_338 : BitVec 32 := 23#32
  let v918 : Index := Scalar.indexCast c23_i32_338
  let c48_339 : Index := 48#32
  ![v917.toNat, 23, 48]
def k0_off185 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v922 : Index := Scalar.indexCast v25
  let c24_i32_340 : BitVec 32 := 24#32
  let v923 : Index := Scalar.indexCast c24_i32_340
  let c48_341 : Index := 48#32
  ![v922.toNat, 24, 48]
def k0_off186 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v927 : Index := Scalar.indexCast v25
  let c25_i32_342 : BitVec 32 := 25#32
  let v928 : Index := Scalar.indexCast c25_i32_342
  let c48_343 : Index := 48#32
  ![v927.toNat, 25, 48]
def k0_off187 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v932 : Index := Scalar.indexCast v25
  let c26_i32_344 : BitVec 32 := 26#32
  let v933 : Index := Scalar.indexCast c26_i32_344
  let c48_345 : Index := 48#32
  ![v932.toNat, 26, 48]
def k0_off188 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v937 : Index := Scalar.indexCast v25
  let c27_i32_346 : BitVec 32 := 27#32
  let v938 : Index := Scalar.indexCast c27_i32_346
  let c48_347 : Index := 48#32
  ![v937.toNat, 27, 48]
def k0_off189 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v942 : Index := Scalar.indexCast v25
  let c28_i32_348 : BitVec 32 := 28#32
  let v943 : Index := Scalar.indexCast c28_i32_348
  let c48_349 : Index := 48#32
  ![v942.toNat, 28, 48]
def k0_off190 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v947 : Index := Scalar.indexCast v25
  let c29_i32_350 : BitVec 32 := 29#32
  let v948 : Index := Scalar.indexCast c29_i32_350
  let c48_351 : Index := 48#32
  ![v947.toNat, 29, 48]
def k0_off191 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v952 : Index := Scalar.indexCast v25
  let c30_i32_352 : BitVec 32 := 30#32
  let v953 : Index := Scalar.indexCast c30_i32_352
  let c48_353 : Index := 48#32
  ![v952.toNat, 30, 48]
def k0_off192 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v957 : Index := Scalar.indexCast v25
  let c31_i32_354 : BitVec 32 := 31#32
  let v958 : Index := Scalar.indexCast c31_i32_354
  let c48_355 : Index := 48#32
  ![v957.toNat, 31, 48]
def k0_off193 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v962 : Index := Scalar.indexCast v25
  let c32_i32_356 : BitVec 32 := 32#32
  let v963 : Index := Scalar.indexCast c32_i32_356
  let c48_357 : Index := 48#32
  ![v962.toNat, 32, 48]
def k0_off194 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v967 : Index := Scalar.indexCast v25
  let c33_i32_358 : BitVec 32 := 33#32
  let v968 : Index := Scalar.indexCast c33_i32_358
  let c48_359 : Index := 48#32
  ![v967.toNat, 33, 48]
def k0_off195 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v972 : Index := Scalar.indexCast v25
  let c34_i32_360 : BitVec 32 := 34#32
  let v973 : Index := Scalar.indexCast c34_i32_360
  let c48_361 : Index := 48#32
  ![v972.toNat, 34, 48]
def k0_off196 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v977 : Index := Scalar.indexCast v25
  let c35_i32_362 : BitVec 32 := 35#32
  let v978 : Index := Scalar.indexCast c35_i32_362
  let c48_363 : Index := 48#32
  ![v977.toNat, 35, 48]
def k0_off197 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v982 : Index := Scalar.indexCast v25
  let c36_i32_364 : BitVec 32 := 36#32
  let v983 : Index := Scalar.indexCast c36_i32_364
  let c48_365 : Index := 48#32
  ![v982.toNat, 36, 48]
def k0_off198 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v987 : Index := Scalar.indexCast v25
  let c37_i32_366 : BitVec 32 := 37#32
  let v988 : Index := Scalar.indexCast c37_i32_366
  let c48_367 : Index := 48#32
  ![v987.toNat, 37, 48]
def k0_off199 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v992 : Index := Scalar.indexCast v25
  let c38_i32_368 : BitVec 32 := 38#32
  let v993 : Index := Scalar.indexCast c38_i32_368
  let c48_369 : Index := 48#32
  ![v992.toNat, 38, 48]
def k0_off200 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v997 : Index := Scalar.indexCast v25
  let c39_i32_370 : BitVec 32 := 39#32
  let v998 : Index := Scalar.indexCast c39_i32_370
  let c48_371 : Index := 48#32
  ![v997.toNat, 39, 48]
def k0_off201 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1002 : Index := Scalar.indexCast v25
  let c40_i32_372 : BitVec 32 := 40#32
  let v1003 : Index := Scalar.indexCast c40_i32_372
  let c48_373 : Index := 48#32
  ![v1002.toNat, 40, 48]
def k0_off202 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1007 : Index := Scalar.indexCast v25
  let c41_i32_374 : BitVec 32 := 41#32
  let v1008 : Index := Scalar.indexCast c41_i32_374
  let c48_375 : Index := 48#32
  ![v1007.toNat, 41, 48]
def k0_off203 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1012 : Index := Scalar.indexCast v25
  let c42_i32_376 : BitVec 32 := 42#32
  let v1013 : Index := Scalar.indexCast c42_i32_376
  let c48_377 : Index := 48#32
  ![v1012.toNat, 42, 48]
def k0_off204 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1017 : Index := Scalar.indexCast v25
  let c43_i32_378 : BitVec 32 := 43#32
  let v1018 : Index := Scalar.indexCast c43_i32_378
  let c48_379 : Index := 48#32
  ![v1017.toNat, 43, 48]
def k0_off205 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1022 : Index := Scalar.indexCast v25
  let c44_i32_380 : BitVec 32 := 44#32
  let v1023 : Index := Scalar.indexCast c44_i32_380
  let c48_381 : Index := 48#32
  ![v1022.toNat, 44, 48]
def k0_off206 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1027 : Index := Scalar.indexCast v25
  let c45_i32_382 : BitVec 32 := 45#32
  let v1028 : Index := Scalar.indexCast c45_i32_382
  let c48_383 : Index := 48#32
  ![v1027.toNat, 45, 48]
def k0_off207 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1032 : Index := Scalar.indexCast v25
  let c46_i32_384 : BitVec 32 := 46#32
  let v1033 : Index := Scalar.indexCast c46_i32_384
  let c48_385 : Index := 48#32
  ![v1032.toNat, 46, 48]
def k0_off208 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1037 : Index := Scalar.indexCast v25
  let c47_i32_386 : BitVec 32 := 47#32
  let v1038 : Index := Scalar.indexCast c47_i32_386
  let c48_387 : Index := 48#32
  ![v1037.toNat, 47, 48]
def k0_off209 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1042 : Index := Scalar.indexCast v25
  let c48_i32_388 : BitVec 32 := 48#32
  let v1043 : Index := Scalar.indexCast c48_i32_388
  let c48_389 : Index := 48#32
  ![v1042.toNat, 48, 48]
def k0_off210 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1047 : Index := Scalar.indexCast v25
  let c49_i32_390 : BitVec 32 := 49#32
  let v1048 : Index := Scalar.indexCast c49_i32_390
  let c48_391 : Index := 48#32
  ![v1047.toNat, 49, 48]
def k0_off211 (k0_t1 : Fin k0_t1_loop.trips) : Fin 2 → Nat :=
  let c0_i32_23 : BitVec 32 := 0#32
  let c1_i32_25 : BitVec 32 := 1#32
  let arg9 : BitVec 32 := Scf.iv c0_i32_23 c1_i32_25 k0_t1
  let v1054 : Index := Scalar.indexCast arg9
  let c48_393 : Index := 48#32
  ![v1054.toNat, 48]
def k0_off212 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1058 : Index := Scalar.indexCast v25
  let c0_i32_394 : BitVec 32 := 0#32
  let v1059 : Index := Scalar.indexCast c0_i32_394
  let c64 : Index := 64#32
  ![v1058.toNat, 0, 64]
def k0_off213 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1062 : Index := Scalar.indexCast v25
  let c1_i32_395 : BitVec 32 := 1#32
  let v1063 : Index := Scalar.indexCast c1_i32_395
  let c64_396 : Index := 64#32
  ![v1062.toNat, 1, 64]
def k0_off214 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1067 : Index := Scalar.indexCast v25
  let c2_i32_397 : BitVec 32 := 2#32
  let v1068 : Index := Scalar.indexCast c2_i32_397
  let c64_398 : Index := 64#32
  ![v1067.toNat, 2, 64]
def k0_off215 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1072 : Index := Scalar.indexCast v25
  let c3_i32_399 : BitVec 32 := 3#32
  let v1073 : Index := Scalar.indexCast c3_i32_399
  let c64_400 : Index := 64#32
  ![v1072.toNat, 3, 64]
def k0_off216 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1077 : Index := Scalar.indexCast v25
  let c4_i32_401 : BitVec 32 := 4#32
  let v1078 : Index := Scalar.indexCast c4_i32_401
  let c64_402 : Index := 64#32
  ![v1077.toNat, 4, 64]
def k0_off217 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1082 : Index := Scalar.indexCast v25
  let c5_i32_403 : BitVec 32 := 5#32
  let v1083 : Index := Scalar.indexCast c5_i32_403
  let c64_404 : Index := 64#32
  ![v1082.toNat, 5, 64]
def k0_off218 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1087 : Index := Scalar.indexCast v25
  let c6_i32_405 : BitVec 32 := 6#32
  let v1088 : Index := Scalar.indexCast c6_i32_405
  let c64_406 : Index := 64#32
  ![v1087.toNat, 6, 64]
def k0_off219 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1092 : Index := Scalar.indexCast v25
  let c7_i32_407 : BitVec 32 := 7#32
  let v1093 : Index := Scalar.indexCast c7_i32_407
  let c64_408 : Index := 64#32
  ![v1092.toNat, 7, 64]
def k0_off220 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1097 : Index := Scalar.indexCast v25
  let c8_i32_409 : BitVec 32 := 8#32
  let v1098 : Index := Scalar.indexCast c8_i32_409
  let c64_410 : Index := 64#32
  ![v1097.toNat, 8, 64]
def k0_off221 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1102 : Index := Scalar.indexCast v25
  let c9_i32_411 : BitVec 32 := 9#32
  let v1103 : Index := Scalar.indexCast c9_i32_411
  let c64_412 : Index := 64#32
  ![v1102.toNat, 9, 64]
def k0_off222 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1107 : Index := Scalar.indexCast v25
  let c10_i32_413 : BitVec 32 := 10#32
  let v1108 : Index := Scalar.indexCast c10_i32_413
  let c64_414 : Index := 64#32
  ![v1107.toNat, 10, 64]
def k0_off223 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1112 : Index := Scalar.indexCast v25
  let c11_i32_415 : BitVec 32 := 11#32
  let v1113 : Index := Scalar.indexCast c11_i32_415
  let c64_416 : Index := 64#32
  ![v1112.toNat, 11, 64]
def k0_off224 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1117 : Index := Scalar.indexCast v25
  let c12_i32_417 : BitVec 32 := 12#32
  let v1118 : Index := Scalar.indexCast c12_i32_417
  let c64_418 : Index := 64#32
  ![v1117.toNat, 12, 64]
def k0_off225 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1122 : Index := Scalar.indexCast v25
  let c13_i32_419 : BitVec 32 := 13#32
  let v1123 : Index := Scalar.indexCast c13_i32_419
  let c64_420 : Index := 64#32
  ![v1122.toNat, 13, 64]
def k0_off226 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1127 : Index := Scalar.indexCast v25
  let c14_i32_421 : BitVec 32 := 14#32
  let v1128 : Index := Scalar.indexCast c14_i32_421
  let c64_422 : Index := 64#32
  ![v1127.toNat, 14, 64]
def k0_off227 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1132 : Index := Scalar.indexCast v25
  let c15_i32_423 : BitVec 32 := 15#32
  let v1133 : Index := Scalar.indexCast c15_i32_423
  let c64_424 : Index := 64#32
  ![v1132.toNat, 15, 64]
def k0_off228 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1137 : Index := Scalar.indexCast v25
  let c16_i32_425 : BitVec 32 := 16#32
  let v1138 : Index := Scalar.indexCast c16_i32_425
  let c64_426 : Index := 64#32
  ![v1137.toNat, 16, 64]
def k0_off229 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1142 : Index := Scalar.indexCast v25
  let c17_i32_427 : BitVec 32 := 17#32
  let v1143 : Index := Scalar.indexCast c17_i32_427
  let c64_428 : Index := 64#32
  ![v1142.toNat, 17, 64]
def k0_off230 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1147 : Index := Scalar.indexCast v25
  let c18_i32_429 : BitVec 32 := 18#32
  let v1148 : Index := Scalar.indexCast c18_i32_429
  let c64_430 : Index := 64#32
  ![v1147.toNat, 18, 64]
def k0_off231 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1152 : Index := Scalar.indexCast v25
  let c19_i32_431 : BitVec 32 := 19#32
  let v1153 : Index := Scalar.indexCast c19_i32_431
  let c64_432 : Index := 64#32
  ![v1152.toNat, 19, 64]
def k0_off232 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1157 : Index := Scalar.indexCast v25
  let c20_i32_433 : BitVec 32 := 20#32
  let v1158 : Index := Scalar.indexCast c20_i32_433
  let c64_434 : Index := 64#32
  ![v1157.toNat, 20, 64]
def k0_off233 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1162 : Index := Scalar.indexCast v25
  let c21_i32_435 : BitVec 32 := 21#32
  let v1163 : Index := Scalar.indexCast c21_i32_435
  let c64_436 : Index := 64#32
  ![v1162.toNat, 21, 64]
def k0_off234 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1167 : Index := Scalar.indexCast v25
  let c22_i32_437 : BitVec 32 := 22#32
  let v1168 : Index := Scalar.indexCast c22_i32_437
  let c64_438 : Index := 64#32
  ![v1167.toNat, 22, 64]
def k0_off235 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1172 : Index := Scalar.indexCast v25
  let c23_i32_439 : BitVec 32 := 23#32
  let v1173 : Index := Scalar.indexCast c23_i32_439
  let c64_440 : Index := 64#32
  ![v1172.toNat, 23, 64]
def k0_off236 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1177 : Index := Scalar.indexCast v25
  let c24_i32_441 : BitVec 32 := 24#32
  let v1178 : Index := Scalar.indexCast c24_i32_441
  let c64_442 : Index := 64#32
  ![v1177.toNat, 24, 64]
def k0_off237 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1182 : Index := Scalar.indexCast v25
  let c25_i32_443 : BitVec 32 := 25#32
  let v1183 : Index := Scalar.indexCast c25_i32_443
  let c64_444 : Index := 64#32
  ![v1182.toNat, 25, 64]
def k0_off238 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1187 : Index := Scalar.indexCast v25
  let c26_i32_445 : BitVec 32 := 26#32
  let v1188 : Index := Scalar.indexCast c26_i32_445
  let c64_446 : Index := 64#32
  ![v1187.toNat, 26, 64]
def k0_off239 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1192 : Index := Scalar.indexCast v25
  let c27_i32_447 : BitVec 32 := 27#32
  let v1193 : Index := Scalar.indexCast c27_i32_447
  let c64_448 : Index := 64#32
  ![v1192.toNat, 27, 64]
def k0_off240 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1197 : Index := Scalar.indexCast v25
  let c28_i32_449 : BitVec 32 := 28#32
  let v1198 : Index := Scalar.indexCast c28_i32_449
  let c64_450 : Index := 64#32
  ![v1197.toNat, 28, 64]
def k0_off241 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1202 : Index := Scalar.indexCast v25
  let c29_i32_451 : BitVec 32 := 29#32
  let v1203 : Index := Scalar.indexCast c29_i32_451
  let c64_452 : Index := 64#32
  ![v1202.toNat, 29, 64]
def k0_off242 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1207 : Index := Scalar.indexCast v25
  let c30_i32_453 : BitVec 32 := 30#32
  let v1208 : Index := Scalar.indexCast c30_i32_453
  let c64_454 : Index := 64#32
  ![v1207.toNat, 30, 64]
def k0_off243 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1212 : Index := Scalar.indexCast v25
  let c31_i32_455 : BitVec 32 := 31#32
  let v1213 : Index := Scalar.indexCast c31_i32_455
  let c64_456 : Index := 64#32
  ![v1212.toNat, 31, 64]
def k0_off244 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1217 : Index := Scalar.indexCast v25
  let c32_i32_457 : BitVec 32 := 32#32
  let v1218 : Index := Scalar.indexCast c32_i32_457
  let c64_458 : Index := 64#32
  ![v1217.toNat, 32, 64]
def k0_off245 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1222 : Index := Scalar.indexCast v25
  let c33_i32_459 : BitVec 32 := 33#32
  let v1223 : Index := Scalar.indexCast c33_i32_459
  let c64_460 : Index := 64#32
  ![v1222.toNat, 33, 64]
def k0_off246 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1227 : Index := Scalar.indexCast v25
  let c34_i32_461 : BitVec 32 := 34#32
  let v1228 : Index := Scalar.indexCast c34_i32_461
  let c64_462 : Index := 64#32
  ![v1227.toNat, 34, 64]
def k0_off247 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1232 : Index := Scalar.indexCast v25
  let c35_i32_463 : BitVec 32 := 35#32
  let v1233 : Index := Scalar.indexCast c35_i32_463
  let c64_464 : Index := 64#32
  ![v1232.toNat, 35, 64]
def k0_off248 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1237 : Index := Scalar.indexCast v25
  let c36_i32_465 : BitVec 32 := 36#32
  let v1238 : Index := Scalar.indexCast c36_i32_465
  let c64_466 : Index := 64#32
  ![v1237.toNat, 36, 64]
def k0_off249 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1242 : Index := Scalar.indexCast v25
  let c37_i32_467 : BitVec 32 := 37#32
  let v1243 : Index := Scalar.indexCast c37_i32_467
  let c64_468 : Index := 64#32
  ![v1242.toNat, 37, 64]
def k0_off250 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1247 : Index := Scalar.indexCast v25
  let c38_i32_469 : BitVec 32 := 38#32
  let v1248 : Index := Scalar.indexCast c38_i32_469
  let c64_470 : Index := 64#32
  ![v1247.toNat, 38, 64]
def k0_off251 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1252 : Index := Scalar.indexCast v25
  let c39_i32_471 : BitVec 32 := 39#32
  let v1253 : Index := Scalar.indexCast c39_i32_471
  let c64_472 : Index := 64#32
  ![v1252.toNat, 39, 64]
def k0_off252 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1257 : Index := Scalar.indexCast v25
  let c40_i32_473 : BitVec 32 := 40#32
  let v1258 : Index := Scalar.indexCast c40_i32_473
  let c64_474 : Index := 64#32
  ![v1257.toNat, 40, 64]
def k0_off253 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1262 : Index := Scalar.indexCast v25
  let c41_i32_475 : BitVec 32 := 41#32
  let v1263 : Index := Scalar.indexCast c41_i32_475
  let c64_476 : Index := 64#32
  ![v1262.toNat, 41, 64]
def k0_off254 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1267 : Index := Scalar.indexCast v25
  let c42_i32_477 : BitVec 32 := 42#32
  let v1268 : Index := Scalar.indexCast c42_i32_477
  let c64_478 : Index := 64#32
  ![v1267.toNat, 42, 64]
def k0_off255 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1272 : Index := Scalar.indexCast v25
  let c43_i32_479 : BitVec 32 := 43#32
  let v1273 : Index := Scalar.indexCast c43_i32_479
  let c64_480 : Index := 64#32
  ![v1272.toNat, 43, 64]
def k0_off256 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1277 : Index := Scalar.indexCast v25
  let c44_i32_481 : BitVec 32 := 44#32
  let v1278 : Index := Scalar.indexCast c44_i32_481
  let c64_482 : Index := 64#32
  ![v1277.toNat, 44, 64]
def k0_off257 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1282 : Index := Scalar.indexCast v25
  let c45_i32_483 : BitVec 32 := 45#32
  let v1283 : Index := Scalar.indexCast c45_i32_483
  let c64_484 : Index := 64#32
  ![v1282.toNat, 45, 64]
def k0_off258 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1287 : Index := Scalar.indexCast v25
  let c46_i32_485 : BitVec 32 := 46#32
  let v1288 : Index := Scalar.indexCast c46_i32_485
  let c64_486 : Index := 64#32
  ![v1287.toNat, 46, 64]
def k0_off259 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1292 : Index := Scalar.indexCast v25
  let c47_i32_487 : BitVec 32 := 47#32
  let v1293 : Index := Scalar.indexCast c47_i32_487
  let c64_488 : Index := 64#32
  ![v1292.toNat, 47, 64]
def k0_off260 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1297 : Index := Scalar.indexCast v25
  let c48_i32_489 : BitVec 32 := 48#32
  let v1298 : Index := Scalar.indexCast c48_i32_489
  let c64_490 : Index := 64#32
  ![v1297.toNat, 48, 64]
def k0_off261 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1302 : Index := Scalar.indexCast v25
  let c49_i32_491 : BitVec 32 := 49#32
  let v1303 : Index := Scalar.indexCast c49_i32_491
  let c64_492 : Index := 64#32
  ![v1302.toNat, 49, 64]
def k0_off262 (k0_t1 : Fin k0_t1_loop.trips) : Fin 2 → Nat :=
  let c0_i32_23 : BitVec 32 := 0#32
  let c1_i32_25 : BitVec 32 := 1#32
  let arg9 : BitVec 32 := Scf.iv c0_i32_23 c1_i32_25 k0_t1
  let v1309 : Index := Scalar.indexCast arg9
  let c64_494 : Index := 64#32
  ![v1309.toNat, 64]
def k0_off263 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1313 : Index := Scalar.indexCast v25
  let c0_i32_495 : BitVec 32 := 0#32
  let v1314 : Index := Scalar.indexCast c0_i32_495
  let c80 : Index := 80#32
  ![v1313.toNat, 0, 80]
def k0_off264 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1317 : Index := Scalar.indexCast v25
  let c1_i32_496 : BitVec 32 := 1#32
  let v1318 : Index := Scalar.indexCast c1_i32_496
  let c80_497 : Index := 80#32
  ![v1317.toNat, 1, 80]
def k0_off265 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1322 : Index := Scalar.indexCast v25
  let c2_i32_498 : BitVec 32 := 2#32
  let v1323 : Index := Scalar.indexCast c2_i32_498
  let c80_499 : Index := 80#32
  ![v1322.toNat, 2, 80]
def k0_off266 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1327 : Index := Scalar.indexCast v25
  let c3_i32_500 : BitVec 32 := 3#32
  let v1328 : Index := Scalar.indexCast c3_i32_500
  let c80_501 : Index := 80#32
  ![v1327.toNat, 3, 80]
def k0_off267 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1332 : Index := Scalar.indexCast v25
  let c4_i32_502 : BitVec 32 := 4#32
  let v1333 : Index := Scalar.indexCast c4_i32_502
  let c80_503 : Index := 80#32
  ![v1332.toNat, 4, 80]
def k0_off268 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1337 : Index := Scalar.indexCast v25
  let c5_i32_504 : BitVec 32 := 5#32
  let v1338 : Index := Scalar.indexCast c5_i32_504
  let c80_505 : Index := 80#32
  ![v1337.toNat, 5, 80]
def k0_off269 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1342 : Index := Scalar.indexCast v25
  let c6_i32_506 : BitVec 32 := 6#32
  let v1343 : Index := Scalar.indexCast c6_i32_506
  let c80_507 : Index := 80#32
  ![v1342.toNat, 6, 80]
def k0_off270 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1347 : Index := Scalar.indexCast v25
  let c7_i32_508 : BitVec 32 := 7#32
  let v1348 : Index := Scalar.indexCast c7_i32_508
  let c80_509 : Index := 80#32
  ![v1347.toNat, 7, 80]
def k0_off271 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1352 : Index := Scalar.indexCast v25
  let c8_i32_510 : BitVec 32 := 8#32
  let v1353 : Index := Scalar.indexCast c8_i32_510
  let c80_511 : Index := 80#32
  ![v1352.toNat, 8, 80]
def k0_off272 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1357 : Index := Scalar.indexCast v25
  let c9_i32_512 : BitVec 32 := 9#32
  let v1358 : Index := Scalar.indexCast c9_i32_512
  let c80_513 : Index := 80#32
  ![v1357.toNat, 9, 80]
def k0_off273 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1362 : Index := Scalar.indexCast v25
  let c10_i32_514 : BitVec 32 := 10#32
  let v1363 : Index := Scalar.indexCast c10_i32_514
  let c80_515 : Index := 80#32
  ![v1362.toNat, 10, 80]
def k0_off274 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1367 : Index := Scalar.indexCast v25
  let c11_i32_516 : BitVec 32 := 11#32
  let v1368 : Index := Scalar.indexCast c11_i32_516
  let c80_517 : Index := 80#32
  ![v1367.toNat, 11, 80]
def k0_off275 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1372 : Index := Scalar.indexCast v25
  let c12_i32_518 : BitVec 32 := 12#32
  let v1373 : Index := Scalar.indexCast c12_i32_518
  let c80_519 : Index := 80#32
  ![v1372.toNat, 12, 80]
def k0_off276 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1377 : Index := Scalar.indexCast v25
  let c13_i32_520 : BitVec 32 := 13#32
  let v1378 : Index := Scalar.indexCast c13_i32_520
  let c80_521 : Index := 80#32
  ![v1377.toNat, 13, 80]
def k0_off277 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1382 : Index := Scalar.indexCast v25
  let c14_i32_522 : BitVec 32 := 14#32
  let v1383 : Index := Scalar.indexCast c14_i32_522
  let c80_523 : Index := 80#32
  ![v1382.toNat, 14, 80]
def k0_off278 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1387 : Index := Scalar.indexCast v25
  let c15_i32_524 : BitVec 32 := 15#32
  let v1388 : Index := Scalar.indexCast c15_i32_524
  let c80_525 : Index := 80#32
  ![v1387.toNat, 15, 80]
def k0_off279 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1392 : Index := Scalar.indexCast v25
  let c16_i32_526 : BitVec 32 := 16#32
  let v1393 : Index := Scalar.indexCast c16_i32_526
  let c80_527 : Index := 80#32
  ![v1392.toNat, 16, 80]
def k0_off280 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1397 : Index := Scalar.indexCast v25
  let c17_i32_528 : BitVec 32 := 17#32
  let v1398 : Index := Scalar.indexCast c17_i32_528
  let c80_529 : Index := 80#32
  ![v1397.toNat, 17, 80]
def k0_off281 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1402 : Index := Scalar.indexCast v25
  let c18_i32_530 : BitVec 32 := 18#32
  let v1403 : Index := Scalar.indexCast c18_i32_530
  let c80_531 : Index := 80#32
  ![v1402.toNat, 18, 80]
def k0_off282 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1407 : Index := Scalar.indexCast v25
  let c19_i32_532 : BitVec 32 := 19#32
  let v1408 : Index := Scalar.indexCast c19_i32_532
  let c80_533 : Index := 80#32
  ![v1407.toNat, 19, 80]
def k0_off283 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1412 : Index := Scalar.indexCast v25
  let c20_i32_534 : BitVec 32 := 20#32
  let v1413 : Index := Scalar.indexCast c20_i32_534
  let c80_535 : Index := 80#32
  ![v1412.toNat, 20, 80]
def k0_off284 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1417 : Index := Scalar.indexCast v25
  let c21_i32_536 : BitVec 32 := 21#32
  let v1418 : Index := Scalar.indexCast c21_i32_536
  let c80_537 : Index := 80#32
  ![v1417.toNat, 21, 80]
def k0_off285 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1422 : Index := Scalar.indexCast v25
  let c22_i32_538 : BitVec 32 := 22#32
  let v1423 : Index := Scalar.indexCast c22_i32_538
  let c80_539 : Index := 80#32
  ![v1422.toNat, 22, 80]
def k0_off286 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1427 : Index := Scalar.indexCast v25
  let c23_i32_540 : BitVec 32 := 23#32
  let v1428 : Index := Scalar.indexCast c23_i32_540
  let c80_541 : Index := 80#32
  ![v1427.toNat, 23, 80]
def k0_off287 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1432 : Index := Scalar.indexCast v25
  let c24_i32_542 : BitVec 32 := 24#32
  let v1433 : Index := Scalar.indexCast c24_i32_542
  let c80_543 : Index := 80#32
  ![v1432.toNat, 24, 80]
def k0_off288 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1437 : Index := Scalar.indexCast v25
  let c25_i32_544 : BitVec 32 := 25#32
  let v1438 : Index := Scalar.indexCast c25_i32_544
  let c80_545 : Index := 80#32
  ![v1437.toNat, 25, 80]
def k0_off289 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1442 : Index := Scalar.indexCast v25
  let c26_i32_546 : BitVec 32 := 26#32
  let v1443 : Index := Scalar.indexCast c26_i32_546
  let c80_547 : Index := 80#32
  ![v1442.toNat, 26, 80]
def k0_off290 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1447 : Index := Scalar.indexCast v25
  let c27_i32_548 : BitVec 32 := 27#32
  let v1448 : Index := Scalar.indexCast c27_i32_548
  let c80_549 : Index := 80#32
  ![v1447.toNat, 27, 80]
def k0_off291 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1452 : Index := Scalar.indexCast v25
  let c28_i32_550 : BitVec 32 := 28#32
  let v1453 : Index := Scalar.indexCast c28_i32_550
  let c80_551 : Index := 80#32
  ![v1452.toNat, 28, 80]
def k0_off292 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1457 : Index := Scalar.indexCast v25
  let c29_i32_552 : BitVec 32 := 29#32
  let v1458 : Index := Scalar.indexCast c29_i32_552
  let c80_553 : Index := 80#32
  ![v1457.toNat, 29, 80]
def k0_off293 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1462 : Index := Scalar.indexCast v25
  let c30_i32_554 : BitVec 32 := 30#32
  let v1463 : Index := Scalar.indexCast c30_i32_554
  let c80_555 : Index := 80#32
  ![v1462.toNat, 30, 80]
def k0_off294 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1467 : Index := Scalar.indexCast v25
  let c31_i32_556 : BitVec 32 := 31#32
  let v1468 : Index := Scalar.indexCast c31_i32_556
  let c80_557 : Index := 80#32
  ![v1467.toNat, 31, 80]
def k0_off295 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1472 : Index := Scalar.indexCast v25
  let c32_i32_558 : BitVec 32 := 32#32
  let v1473 : Index := Scalar.indexCast c32_i32_558
  let c80_559 : Index := 80#32
  ![v1472.toNat, 32, 80]
def k0_off296 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1477 : Index := Scalar.indexCast v25
  let c33_i32_560 : BitVec 32 := 33#32
  let v1478 : Index := Scalar.indexCast c33_i32_560
  let c80_561 : Index := 80#32
  ![v1477.toNat, 33, 80]
def k0_off297 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1482 : Index := Scalar.indexCast v25
  let c34_i32_562 : BitVec 32 := 34#32
  let v1483 : Index := Scalar.indexCast c34_i32_562
  let c80_563 : Index := 80#32
  ![v1482.toNat, 34, 80]
def k0_off298 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1487 : Index := Scalar.indexCast v25
  let c35_i32_564 : BitVec 32 := 35#32
  let v1488 : Index := Scalar.indexCast c35_i32_564
  let c80_565 : Index := 80#32
  ![v1487.toNat, 35, 80]
def k0_off299 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1492 : Index := Scalar.indexCast v25
  let c36_i32_566 : BitVec 32 := 36#32
  let v1493 : Index := Scalar.indexCast c36_i32_566
  let c80_567 : Index := 80#32
  ![v1492.toNat, 36, 80]
def k0_off300 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1497 : Index := Scalar.indexCast v25
  let c37_i32_568 : BitVec 32 := 37#32
  let v1498 : Index := Scalar.indexCast c37_i32_568
  let c80_569 : Index := 80#32
  ![v1497.toNat, 37, 80]
def k0_off301 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1502 : Index := Scalar.indexCast v25
  let c38_i32_570 : BitVec 32 := 38#32
  let v1503 : Index := Scalar.indexCast c38_i32_570
  let c80_571 : Index := 80#32
  ![v1502.toNat, 38, 80]
def k0_off302 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1507 : Index := Scalar.indexCast v25
  let c39_i32_572 : BitVec 32 := 39#32
  let v1508 : Index := Scalar.indexCast c39_i32_572
  let c80_573 : Index := 80#32
  ![v1507.toNat, 39, 80]
def k0_off303 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1512 : Index := Scalar.indexCast v25
  let c40_i32_574 : BitVec 32 := 40#32
  let v1513 : Index := Scalar.indexCast c40_i32_574
  let c80_575 : Index := 80#32
  ![v1512.toNat, 40, 80]
def k0_off304 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1517 : Index := Scalar.indexCast v25
  let c41_i32_576 : BitVec 32 := 41#32
  let v1518 : Index := Scalar.indexCast c41_i32_576
  let c80_577 : Index := 80#32
  ![v1517.toNat, 41, 80]
def k0_off305 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1522 : Index := Scalar.indexCast v25
  let c42_i32_578 : BitVec 32 := 42#32
  let v1523 : Index := Scalar.indexCast c42_i32_578
  let c80_579 : Index := 80#32
  ![v1522.toNat, 42, 80]
def k0_off306 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1527 : Index := Scalar.indexCast v25
  let c43_i32_580 : BitVec 32 := 43#32
  let v1528 : Index := Scalar.indexCast c43_i32_580
  let c80_581 : Index := 80#32
  ![v1527.toNat, 43, 80]
def k0_off307 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1532 : Index := Scalar.indexCast v25
  let c44_i32_582 : BitVec 32 := 44#32
  let v1533 : Index := Scalar.indexCast c44_i32_582
  let c80_583 : Index := 80#32
  ![v1532.toNat, 44, 80]
def k0_off308 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1537 : Index := Scalar.indexCast v25
  let c45_i32_584 : BitVec 32 := 45#32
  let v1538 : Index := Scalar.indexCast c45_i32_584
  let c80_585 : Index := 80#32
  ![v1537.toNat, 45, 80]
def k0_off309 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1542 : Index := Scalar.indexCast v25
  let c46_i32_586 : BitVec 32 := 46#32
  let v1543 : Index := Scalar.indexCast c46_i32_586
  let c80_587 : Index := 80#32
  ![v1542.toNat, 46, 80]
def k0_off310 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1547 : Index := Scalar.indexCast v25
  let c47_i32_588 : BitVec 32 := 47#32
  let v1548 : Index := Scalar.indexCast c47_i32_588
  let c80_589 : Index := 80#32
  ![v1547.toNat, 47, 80]
def k0_off311 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1552 : Index := Scalar.indexCast v25
  let c48_i32_590 : BitVec 32 := 48#32
  let v1553 : Index := Scalar.indexCast c48_i32_590
  let c80_591 : Index := 80#32
  ![v1552.toNat, 48, 80]
def k0_off312 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1557 : Index := Scalar.indexCast v25
  let c49_i32_592 : BitVec 32 := 49#32
  let v1558 : Index := Scalar.indexCast c49_i32_592
  let c80_593 : Index := 80#32
  ![v1557.toNat, 49, 80]
def k0_off313 (k0_t1 : Fin k0_t1_loop.trips) : Fin 2 → Nat :=
  let c0_i32_23 : BitVec 32 := 0#32
  let c1_i32_25 : BitVec 32 := 1#32
  let arg9 : BitVec 32 := Scf.iv c0_i32_23 c1_i32_25 k0_t1
  let v1564 : Index := Scalar.indexCast arg9
  let c80_595 : Index := 80#32
  ![v1564.toNat, 80]
def k0_off314 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1568 : Index := Scalar.indexCast v25
  let c0_i32_596 : BitVec 32 := 0#32
  let v1569 : Index := Scalar.indexCast c0_i32_596
  let c96 : Index := 96#32
  ![v1568.toNat, 0, 96]
def k0_off315 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1572 : Index := Scalar.indexCast v25
  let c1_i32_597 : BitVec 32 := 1#32
  let v1573 : Index := Scalar.indexCast c1_i32_597
  let c96_598 : Index := 96#32
  ![v1572.toNat, 1, 96]
def k0_off316 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1577 : Index := Scalar.indexCast v25
  let c2_i32_599 : BitVec 32 := 2#32
  let v1578 : Index := Scalar.indexCast c2_i32_599
  let c96_600 : Index := 96#32
  ![v1577.toNat, 2, 96]
def k0_off317 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1582 : Index := Scalar.indexCast v25
  let c3_i32_601 : BitVec 32 := 3#32
  let v1583 : Index := Scalar.indexCast c3_i32_601
  let c96_602 : Index := 96#32
  ![v1582.toNat, 3, 96]
def k0_off318 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1587 : Index := Scalar.indexCast v25
  let c4_i32_603 : BitVec 32 := 4#32
  let v1588 : Index := Scalar.indexCast c4_i32_603
  let c96_604 : Index := 96#32
  ![v1587.toNat, 4, 96]
def k0_off319 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1592 : Index := Scalar.indexCast v25
  let c5_i32_605 : BitVec 32 := 5#32
  let v1593 : Index := Scalar.indexCast c5_i32_605
  let c96_606 : Index := 96#32
  ![v1592.toNat, 5, 96]
def k0_off320 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1597 : Index := Scalar.indexCast v25
  let c6_i32_607 : BitVec 32 := 6#32
  let v1598 : Index := Scalar.indexCast c6_i32_607
  let c96_608 : Index := 96#32
  ![v1597.toNat, 6, 96]
def k0_off321 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1602 : Index := Scalar.indexCast v25
  let c7_i32_609 : BitVec 32 := 7#32
  let v1603 : Index := Scalar.indexCast c7_i32_609
  let c96_610 : Index := 96#32
  ![v1602.toNat, 7, 96]
def k0_off322 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1607 : Index := Scalar.indexCast v25
  let c8_i32_611 : BitVec 32 := 8#32
  let v1608 : Index := Scalar.indexCast c8_i32_611
  let c96_612 : Index := 96#32
  ![v1607.toNat, 8, 96]
def k0_off323 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1612 : Index := Scalar.indexCast v25
  let c9_i32_613 : BitVec 32 := 9#32
  let v1613 : Index := Scalar.indexCast c9_i32_613
  let c96_614 : Index := 96#32
  ![v1612.toNat, 9, 96]
def k0_off324 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1617 : Index := Scalar.indexCast v25
  let c10_i32_615 : BitVec 32 := 10#32
  let v1618 : Index := Scalar.indexCast c10_i32_615
  let c96_616 : Index := 96#32
  ![v1617.toNat, 10, 96]
def k0_off325 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1622 : Index := Scalar.indexCast v25
  let c11_i32_617 : BitVec 32 := 11#32
  let v1623 : Index := Scalar.indexCast c11_i32_617
  let c96_618 : Index := 96#32
  ![v1622.toNat, 11, 96]
def k0_off326 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1627 : Index := Scalar.indexCast v25
  let c12_i32_619 : BitVec 32 := 12#32
  let v1628 : Index := Scalar.indexCast c12_i32_619
  let c96_620 : Index := 96#32
  ![v1627.toNat, 12, 96]
def k0_off327 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1632 : Index := Scalar.indexCast v25
  let c13_i32_621 : BitVec 32 := 13#32
  let v1633 : Index := Scalar.indexCast c13_i32_621
  let c96_622 : Index := 96#32
  ![v1632.toNat, 13, 96]
def k0_off328 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1637 : Index := Scalar.indexCast v25
  let c14_i32_623 : BitVec 32 := 14#32
  let v1638 : Index := Scalar.indexCast c14_i32_623
  let c96_624 : Index := 96#32
  ![v1637.toNat, 14, 96]
def k0_off329 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1642 : Index := Scalar.indexCast v25
  let c15_i32_625 : BitVec 32 := 15#32
  let v1643 : Index := Scalar.indexCast c15_i32_625
  let c96_626 : Index := 96#32
  ![v1642.toNat, 15, 96]
def k0_off330 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1647 : Index := Scalar.indexCast v25
  let c16_i32_627 : BitVec 32 := 16#32
  let v1648 : Index := Scalar.indexCast c16_i32_627
  let c96_628 : Index := 96#32
  ![v1647.toNat, 16, 96]
def k0_off331 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1652 : Index := Scalar.indexCast v25
  let c17_i32_629 : BitVec 32 := 17#32
  let v1653 : Index := Scalar.indexCast c17_i32_629
  let c96_630 : Index := 96#32
  ![v1652.toNat, 17, 96]
def k0_off332 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1657 : Index := Scalar.indexCast v25
  let c18_i32_631 : BitVec 32 := 18#32
  let v1658 : Index := Scalar.indexCast c18_i32_631
  let c96_632 : Index := 96#32
  ![v1657.toNat, 18, 96]
def k0_off333 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1662 : Index := Scalar.indexCast v25
  let c19_i32_633 : BitVec 32 := 19#32
  let v1663 : Index := Scalar.indexCast c19_i32_633
  let c96_634 : Index := 96#32
  ![v1662.toNat, 19, 96]
def k0_off334 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1667 : Index := Scalar.indexCast v25
  let c20_i32_635 : BitVec 32 := 20#32
  let v1668 : Index := Scalar.indexCast c20_i32_635
  let c96_636 : Index := 96#32
  ![v1667.toNat, 20, 96]
def k0_off335 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1672 : Index := Scalar.indexCast v25
  let c21_i32_637 : BitVec 32 := 21#32
  let v1673 : Index := Scalar.indexCast c21_i32_637
  let c96_638 : Index := 96#32
  ![v1672.toNat, 21, 96]
def k0_off336 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1677 : Index := Scalar.indexCast v25
  let c22_i32_639 : BitVec 32 := 22#32
  let v1678 : Index := Scalar.indexCast c22_i32_639
  let c96_640 : Index := 96#32
  ![v1677.toNat, 22, 96]
def k0_off337 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1682 : Index := Scalar.indexCast v25
  let c23_i32_641 : BitVec 32 := 23#32
  let v1683 : Index := Scalar.indexCast c23_i32_641
  let c96_642 : Index := 96#32
  ![v1682.toNat, 23, 96]
def k0_off338 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1687 : Index := Scalar.indexCast v25
  let c24_i32_643 : BitVec 32 := 24#32
  let v1688 : Index := Scalar.indexCast c24_i32_643
  let c96_644 : Index := 96#32
  ![v1687.toNat, 24, 96]
def k0_off339 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1692 : Index := Scalar.indexCast v25
  let c25_i32_645 : BitVec 32 := 25#32
  let v1693 : Index := Scalar.indexCast c25_i32_645
  let c96_646 : Index := 96#32
  ![v1692.toNat, 25, 96]
def k0_off340 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1697 : Index := Scalar.indexCast v25
  let c26_i32_647 : BitVec 32 := 26#32
  let v1698 : Index := Scalar.indexCast c26_i32_647
  let c96_648 : Index := 96#32
  ![v1697.toNat, 26, 96]
def k0_off341 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1702 : Index := Scalar.indexCast v25
  let c27_i32_649 : BitVec 32 := 27#32
  let v1703 : Index := Scalar.indexCast c27_i32_649
  let c96_650 : Index := 96#32
  ![v1702.toNat, 27, 96]
def k0_off342 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1707 : Index := Scalar.indexCast v25
  let c28_i32_651 : BitVec 32 := 28#32
  let v1708 : Index := Scalar.indexCast c28_i32_651
  let c96_652 : Index := 96#32
  ![v1707.toNat, 28, 96]
def k0_off343 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1712 : Index := Scalar.indexCast v25
  let c29_i32_653 : BitVec 32 := 29#32
  let v1713 : Index := Scalar.indexCast c29_i32_653
  let c96_654 : Index := 96#32
  ![v1712.toNat, 29, 96]
def k0_off344 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1717 : Index := Scalar.indexCast v25
  let c30_i32_655 : BitVec 32 := 30#32
  let v1718 : Index := Scalar.indexCast c30_i32_655
  let c96_656 : Index := 96#32
  ![v1717.toNat, 30, 96]
def k0_off345 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1722 : Index := Scalar.indexCast v25
  let c31_i32_657 : BitVec 32 := 31#32
  let v1723 : Index := Scalar.indexCast c31_i32_657
  let c96_658 : Index := 96#32
  ![v1722.toNat, 31, 96]
def k0_off346 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1727 : Index := Scalar.indexCast v25
  let c32_i32_659 : BitVec 32 := 32#32
  let v1728 : Index := Scalar.indexCast c32_i32_659
  let c96_660 : Index := 96#32
  ![v1727.toNat, 32, 96]
def k0_off347 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1732 : Index := Scalar.indexCast v25
  let c33_i32_661 : BitVec 32 := 33#32
  let v1733 : Index := Scalar.indexCast c33_i32_661
  let c96_662 : Index := 96#32
  ![v1732.toNat, 33, 96]
def k0_off348 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1737 : Index := Scalar.indexCast v25
  let c34_i32_663 : BitVec 32 := 34#32
  let v1738 : Index := Scalar.indexCast c34_i32_663
  let c96_664 : Index := 96#32
  ![v1737.toNat, 34, 96]
def k0_off349 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1742 : Index := Scalar.indexCast v25
  let c35_i32_665 : BitVec 32 := 35#32
  let v1743 : Index := Scalar.indexCast c35_i32_665
  let c96_666 : Index := 96#32
  ![v1742.toNat, 35, 96]
def k0_off350 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1747 : Index := Scalar.indexCast v25
  let c36_i32_667 : BitVec 32 := 36#32
  let v1748 : Index := Scalar.indexCast c36_i32_667
  let c96_668 : Index := 96#32
  ![v1747.toNat, 36, 96]
def k0_off351 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1752 : Index := Scalar.indexCast v25
  let c37_i32_669 : BitVec 32 := 37#32
  let v1753 : Index := Scalar.indexCast c37_i32_669
  let c96_670 : Index := 96#32
  ![v1752.toNat, 37, 96]
def k0_off352 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1757 : Index := Scalar.indexCast v25
  let c38_i32_671 : BitVec 32 := 38#32
  let v1758 : Index := Scalar.indexCast c38_i32_671
  let c96_672 : Index := 96#32
  ![v1757.toNat, 38, 96]
def k0_off353 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1762 : Index := Scalar.indexCast v25
  let c39_i32_673 : BitVec 32 := 39#32
  let v1763 : Index := Scalar.indexCast c39_i32_673
  let c96_674 : Index := 96#32
  ![v1762.toNat, 39, 96]
def k0_off354 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1767 : Index := Scalar.indexCast v25
  let c40_i32_675 : BitVec 32 := 40#32
  let v1768 : Index := Scalar.indexCast c40_i32_675
  let c96_676 : Index := 96#32
  ![v1767.toNat, 40, 96]
def k0_off355 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1772 : Index := Scalar.indexCast v25
  let c41_i32_677 : BitVec 32 := 41#32
  let v1773 : Index := Scalar.indexCast c41_i32_677
  let c96_678 : Index := 96#32
  ![v1772.toNat, 41, 96]
def k0_off356 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1777 : Index := Scalar.indexCast v25
  let c42_i32_679 : BitVec 32 := 42#32
  let v1778 : Index := Scalar.indexCast c42_i32_679
  let c96_680 : Index := 96#32
  ![v1777.toNat, 42, 96]
def k0_off357 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1782 : Index := Scalar.indexCast v25
  let c43_i32_681 : BitVec 32 := 43#32
  let v1783 : Index := Scalar.indexCast c43_i32_681
  let c96_682 : Index := 96#32
  ![v1782.toNat, 43, 96]
def k0_off358 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1787 : Index := Scalar.indexCast v25
  let c44_i32_683 : BitVec 32 := 44#32
  let v1788 : Index := Scalar.indexCast c44_i32_683
  let c96_684 : Index := 96#32
  ![v1787.toNat, 44, 96]
def k0_off359 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1792 : Index := Scalar.indexCast v25
  let c45_i32_685 : BitVec 32 := 45#32
  let v1793 : Index := Scalar.indexCast c45_i32_685
  let c96_686 : Index := 96#32
  ![v1792.toNat, 45, 96]
def k0_off360 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1797 : Index := Scalar.indexCast v25
  let c46_i32_687 : BitVec 32 := 46#32
  let v1798 : Index := Scalar.indexCast c46_i32_687
  let c96_688 : Index := 96#32
  ![v1797.toNat, 46, 96]
def k0_off361 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1802 : Index := Scalar.indexCast v25
  let c47_i32_689 : BitVec 32 := 47#32
  let v1803 : Index := Scalar.indexCast c47_i32_689
  let c96_690 : Index := 96#32
  ![v1802.toNat, 47, 96]
def k0_off362 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1807 : Index := Scalar.indexCast v25
  let c48_i32_691 : BitVec 32 := 48#32
  let v1808 : Index := Scalar.indexCast c48_i32_691
  let c96_692 : Index := 96#32
  ![v1807.toNat, 48, 96]
def k0_off363 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1812 : Index := Scalar.indexCast v25
  let c49_i32_693 : BitVec 32 := 49#32
  let v1813 : Index := Scalar.indexCast c49_i32_693
  let c96_694 : Index := 96#32
  ![v1812.toNat, 49, 96]
def k0_off364 (k0_t1 : Fin k0_t1_loop.trips) : Fin 2 → Nat :=
  let c0_i32_23 : BitVec 32 := 0#32
  let c1_i32_25 : BitVec 32 := 1#32
  let arg9 : BitVec 32 := Scf.iv c0_i32_23 c1_i32_25 k0_t1
  let v1819 : Index := Scalar.indexCast arg9
  let c96_696 : Index := 96#32
  ![v1819.toNat, 96]
def k0_off365 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1823 : Index := Scalar.indexCast v25
  let c0_i32_697 : BitVec 32 := 0#32
  let v1824 : Index := Scalar.indexCast c0_i32_697
  let c112 : Index := 112#32
  ![v1823.toNat, 0, 112]
def k0_off366 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1827 : Index := Scalar.indexCast v25
  let c1_i32_698 : BitVec 32 := 1#32
  let v1828 : Index := Scalar.indexCast c1_i32_698
  let c112_699 : Index := 112#32
  ![v1827.toNat, 1, 112]
def k0_off367 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1832 : Index := Scalar.indexCast v25
  let c2_i32_700 : BitVec 32 := 2#32
  let v1833 : Index := Scalar.indexCast c2_i32_700
  let c112_701 : Index := 112#32
  ![v1832.toNat, 2, 112]
def k0_off368 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1837 : Index := Scalar.indexCast v25
  let c3_i32_702 : BitVec 32 := 3#32
  let v1838 : Index := Scalar.indexCast c3_i32_702
  let c112_703 : Index := 112#32
  ![v1837.toNat, 3, 112]
def k0_off369 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1842 : Index := Scalar.indexCast v25
  let c4_i32_704 : BitVec 32 := 4#32
  let v1843 : Index := Scalar.indexCast c4_i32_704
  let c112_705 : Index := 112#32
  ![v1842.toNat, 4, 112]
def k0_off370 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1847 : Index := Scalar.indexCast v25
  let c5_i32_706 : BitVec 32 := 5#32
  let v1848 : Index := Scalar.indexCast c5_i32_706
  let c112_707 : Index := 112#32
  ![v1847.toNat, 5, 112]
def k0_off371 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1852 : Index := Scalar.indexCast v25
  let c6_i32_708 : BitVec 32 := 6#32
  let v1853 : Index := Scalar.indexCast c6_i32_708
  let c112_709 : Index := 112#32
  ![v1852.toNat, 6, 112]
def k0_off372 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1857 : Index := Scalar.indexCast v25
  let c7_i32_710 : BitVec 32 := 7#32
  let v1858 : Index := Scalar.indexCast c7_i32_710
  let c112_711 : Index := 112#32
  ![v1857.toNat, 7, 112]
def k0_off373 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1862 : Index := Scalar.indexCast v25
  let c8_i32_712 : BitVec 32 := 8#32
  let v1863 : Index := Scalar.indexCast c8_i32_712
  let c112_713 : Index := 112#32
  ![v1862.toNat, 8, 112]
def k0_off374 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1867 : Index := Scalar.indexCast v25
  let c9_i32_714 : BitVec 32 := 9#32
  let v1868 : Index := Scalar.indexCast c9_i32_714
  let c112_715 : Index := 112#32
  ![v1867.toNat, 9, 112]
def k0_off375 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1872 : Index := Scalar.indexCast v25
  let c10_i32_716 : BitVec 32 := 10#32
  let v1873 : Index := Scalar.indexCast c10_i32_716
  let c112_717 : Index := 112#32
  ![v1872.toNat, 10, 112]
def k0_off376 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1877 : Index := Scalar.indexCast v25
  let c11_i32_718 : BitVec 32 := 11#32
  let v1878 : Index := Scalar.indexCast c11_i32_718
  let c112_719 : Index := 112#32
  ![v1877.toNat, 11, 112]
def k0_off377 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1882 : Index := Scalar.indexCast v25
  let c12_i32_720 : BitVec 32 := 12#32
  let v1883 : Index := Scalar.indexCast c12_i32_720
  let c112_721 : Index := 112#32
  ![v1882.toNat, 12, 112]
def k0_off378 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1887 : Index := Scalar.indexCast v25
  let c13_i32_722 : BitVec 32 := 13#32
  let v1888 : Index := Scalar.indexCast c13_i32_722
  let c112_723 : Index := 112#32
  ![v1887.toNat, 13, 112]
def k0_off379 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1892 : Index := Scalar.indexCast v25
  let c14_i32_724 : BitVec 32 := 14#32
  let v1893 : Index := Scalar.indexCast c14_i32_724
  let c112_725 : Index := 112#32
  ![v1892.toNat, 14, 112]
def k0_off380 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1897 : Index := Scalar.indexCast v25
  let c15_i32_726 : BitVec 32 := 15#32
  let v1898 : Index := Scalar.indexCast c15_i32_726
  let c112_727 : Index := 112#32
  ![v1897.toNat, 15, 112]
def k0_off381 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1902 : Index := Scalar.indexCast v25
  let c16_i32_728 : BitVec 32 := 16#32
  let v1903 : Index := Scalar.indexCast c16_i32_728
  let c112_729 : Index := 112#32
  ![v1902.toNat, 16, 112]
def k0_off382 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1907 : Index := Scalar.indexCast v25
  let c17_i32_730 : BitVec 32 := 17#32
  let v1908 : Index := Scalar.indexCast c17_i32_730
  let c112_731 : Index := 112#32
  ![v1907.toNat, 17, 112]
def k0_off383 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1912 : Index := Scalar.indexCast v25
  let c18_i32_732 : BitVec 32 := 18#32
  let v1913 : Index := Scalar.indexCast c18_i32_732
  let c112_733 : Index := 112#32
  ![v1912.toNat, 18, 112]
def k0_off384 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1917 : Index := Scalar.indexCast v25
  let c19_i32_734 : BitVec 32 := 19#32
  let v1918 : Index := Scalar.indexCast c19_i32_734
  let c112_735 : Index := 112#32
  ![v1917.toNat, 19, 112]
def k0_off385 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1922 : Index := Scalar.indexCast v25
  let c20_i32_736 : BitVec 32 := 20#32
  let v1923 : Index := Scalar.indexCast c20_i32_736
  let c112_737 : Index := 112#32
  ![v1922.toNat, 20, 112]
def k0_off386 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1927 : Index := Scalar.indexCast v25
  let c21_i32_738 : BitVec 32 := 21#32
  let v1928 : Index := Scalar.indexCast c21_i32_738
  let c112_739 : Index := 112#32
  ![v1927.toNat, 21, 112]
def k0_off387 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1932 : Index := Scalar.indexCast v25
  let c22_i32_740 : BitVec 32 := 22#32
  let v1933 : Index := Scalar.indexCast c22_i32_740
  let c112_741 : Index := 112#32
  ![v1932.toNat, 22, 112]
def k0_off388 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1937 : Index := Scalar.indexCast v25
  let c23_i32_742 : BitVec 32 := 23#32
  let v1938 : Index := Scalar.indexCast c23_i32_742
  let c112_743 : Index := 112#32
  ![v1937.toNat, 23, 112]
def k0_off389 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1942 : Index := Scalar.indexCast v25
  let c24_i32_744 : BitVec 32 := 24#32
  let v1943 : Index := Scalar.indexCast c24_i32_744
  let c112_745 : Index := 112#32
  ![v1942.toNat, 24, 112]
def k0_off390 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1947 : Index := Scalar.indexCast v25
  let c25_i32_746 : BitVec 32 := 25#32
  let v1948 : Index := Scalar.indexCast c25_i32_746
  let c112_747 : Index := 112#32
  ![v1947.toNat, 25, 112]
def k0_off391 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1952 : Index := Scalar.indexCast v25
  let c26_i32_748 : BitVec 32 := 26#32
  let v1953 : Index := Scalar.indexCast c26_i32_748
  let c112_749 : Index := 112#32
  ![v1952.toNat, 26, 112]
def k0_off392 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1957 : Index := Scalar.indexCast v25
  let c27_i32_750 : BitVec 32 := 27#32
  let v1958 : Index := Scalar.indexCast c27_i32_750
  let c112_751 : Index := 112#32
  ![v1957.toNat, 27, 112]
def k0_off393 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1962 : Index := Scalar.indexCast v25
  let c28_i32_752 : BitVec 32 := 28#32
  let v1963 : Index := Scalar.indexCast c28_i32_752
  let c112_753 : Index := 112#32
  ![v1962.toNat, 28, 112]
def k0_off394 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1967 : Index := Scalar.indexCast v25
  let c29_i32_754 : BitVec 32 := 29#32
  let v1968 : Index := Scalar.indexCast c29_i32_754
  let c112_755 : Index := 112#32
  ![v1967.toNat, 29, 112]
def k0_off395 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1972 : Index := Scalar.indexCast v25
  let c30_i32_756 : BitVec 32 := 30#32
  let v1973 : Index := Scalar.indexCast c30_i32_756
  let c112_757 : Index := 112#32
  ![v1972.toNat, 30, 112]
def k0_off396 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1977 : Index := Scalar.indexCast v25
  let c31_i32_758 : BitVec 32 := 31#32
  let v1978 : Index := Scalar.indexCast c31_i32_758
  let c112_759 : Index := 112#32
  ![v1977.toNat, 31, 112]
def k0_off397 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1982 : Index := Scalar.indexCast v25
  let c32_i32_760 : BitVec 32 := 32#32
  let v1983 : Index := Scalar.indexCast c32_i32_760
  let c112_761 : Index := 112#32
  ![v1982.toNat, 32, 112]
def k0_off398 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1987 : Index := Scalar.indexCast v25
  let c33_i32_762 : BitVec 32 := 33#32
  let v1988 : Index := Scalar.indexCast c33_i32_762
  let c112_763 : Index := 112#32
  ![v1987.toNat, 33, 112]
def k0_off399 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1992 : Index := Scalar.indexCast v25
  let c34_i32_764 : BitVec 32 := 34#32
  let v1993 : Index := Scalar.indexCast c34_i32_764
  let c112_765 : Index := 112#32
  ![v1992.toNat, 34, 112]
def k0_off400 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v1997 : Index := Scalar.indexCast v25
  let c35_i32_766 : BitVec 32 := 35#32
  let v1998 : Index := Scalar.indexCast c35_i32_766
  let c112_767 : Index := 112#32
  ![v1997.toNat, 35, 112]
def k0_off401 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2002 : Index := Scalar.indexCast v25
  let c36_i32_768 : BitVec 32 := 36#32
  let v2003 : Index := Scalar.indexCast c36_i32_768
  let c112_769 : Index := 112#32
  ![v2002.toNat, 36, 112]
def k0_off402 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2007 : Index := Scalar.indexCast v25
  let c37_i32_770 : BitVec 32 := 37#32
  let v2008 : Index := Scalar.indexCast c37_i32_770
  let c112_771 : Index := 112#32
  ![v2007.toNat, 37, 112]
def k0_off403 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2012 : Index := Scalar.indexCast v25
  let c38_i32_772 : BitVec 32 := 38#32
  let v2013 : Index := Scalar.indexCast c38_i32_772
  let c112_773 : Index := 112#32
  ![v2012.toNat, 38, 112]
def k0_off404 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2017 : Index := Scalar.indexCast v25
  let c39_i32_774 : BitVec 32 := 39#32
  let v2018 : Index := Scalar.indexCast c39_i32_774
  let c112_775 : Index := 112#32
  ![v2017.toNat, 39, 112]
def k0_off405 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2022 : Index := Scalar.indexCast v25
  let c40_i32_776 : BitVec 32 := 40#32
  let v2023 : Index := Scalar.indexCast c40_i32_776
  let c112_777 : Index := 112#32
  ![v2022.toNat, 40, 112]
def k0_off406 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2027 : Index := Scalar.indexCast v25
  let c41_i32_778 : BitVec 32 := 41#32
  let v2028 : Index := Scalar.indexCast c41_i32_778
  let c112_779 : Index := 112#32
  ![v2027.toNat, 41, 112]
def k0_off407 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2032 : Index := Scalar.indexCast v25
  let c42_i32_780 : BitVec 32 := 42#32
  let v2033 : Index := Scalar.indexCast c42_i32_780
  let c112_781 : Index := 112#32
  ![v2032.toNat, 42, 112]
def k0_off408 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2037 : Index := Scalar.indexCast v25
  let c43_i32_782 : BitVec 32 := 43#32
  let v2038 : Index := Scalar.indexCast c43_i32_782
  let c112_783 : Index := 112#32
  ![v2037.toNat, 43, 112]
def k0_off409 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2042 : Index := Scalar.indexCast v25
  let c44_i32_784 : BitVec 32 := 44#32
  let v2043 : Index := Scalar.indexCast c44_i32_784
  let c112_785 : Index := 112#32
  ![v2042.toNat, 44, 112]
def k0_off410 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2047 : Index := Scalar.indexCast v25
  let c45_i32_786 : BitVec 32 := 45#32
  let v2048 : Index := Scalar.indexCast c45_i32_786
  let c112_787 : Index := 112#32
  ![v2047.toNat, 45, 112]
def k0_off411 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2052 : Index := Scalar.indexCast v25
  let c46_i32_788 : BitVec 32 := 46#32
  let v2053 : Index := Scalar.indexCast c46_i32_788
  let c112_789 : Index := 112#32
  ![v2052.toNat, 46, 112]
def k0_off412 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2057 : Index := Scalar.indexCast v25
  let c47_i32_790 : BitVec 32 := 47#32
  let v2058 : Index := Scalar.indexCast c47_i32_790
  let c112_791 : Index := 112#32
  ![v2057.toNat, 47, 112]
def k0_off413 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2062 : Index := Scalar.indexCast v25
  let c48_i32_792 : BitVec 32 := 48#32
  let v2063 : Index := Scalar.indexCast c48_i32_792
  let c112_793 : Index := 112#32
  ![v2062.toNat, 48, 112]
def k0_off414 (k0_t1 : Fin k0_t1_loop.trips) : Fin 3 → Nat :=
  let c0_i32_23 : BitVec 32 := 0#32
  let c1_i32_25 : BitVec 32 := 1#32
  let arg9 : BitVec 32 := Scf.iv c0_i32_23 c1_i32_25 k0_t1
  let c4_i32 : BitVec 32 := 4#32
  let v25 : BitVec 32 := Scalar.remsi arg9 c4_i32
  let v2067 : Index := Scalar.indexCast v25
  let c49_i32_794 : BitVec 32 := 49#32
  let v2068 : Index := Scalar.indexCast c49_i32_794
  let c112_795 : Index := 112#32
  ![v2067.toNat, 49, 112]
def k0_off415 (k0_t1 : Fin k0_t1_loop.trips) : Fin 2 → Nat :=
  let c0_i32_23 : BitVec 32 := 0#32
  let c1_i32_25 : BitVec 32 := 1#32
  let arg9 : BitVec 32 := Scf.iv c0_i32_23 c1_i32_25 k0_t1
  let v2074 : Index := Scalar.indexCast arg9
  let c112_797 : Index := 112#32
  ![v2074.toNat, 112]
def k0_off416 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_27_r1 : BitVec 32 := 0#32
  ![v2.toNat, 0]
abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x5000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S4x50x128_S1x50x128_0_0_0 : ∀ a, (![0, 0, 0] : Fin 3 → Nat) a + S1x50x128.size a ≤ S4x50x128.size a
  squeezes_S1x50x128_S50x128 : S1x50x128.Squeezes S50x128
  inb_S32x50_S1x50_0_0 : ∀ a, (![0, 0] : Fin 2 → Nat) a + S1x50.size a ≤ S32x50.size a
  squeezes_S1x50_S50 : S1x50.Squeezes S50
  inb_S100000x128_S100000x128_0_0 : ∀ a, (![0, 0] : Fin 2 → Nat) a + S100000x128.size a ≤ S100000x128.size a
  inb_S4_S1_0 : ∀ a, (![0] : Fin 1 → Nat) a + S1.size a ≤ S4.size a
  squeezes_S1_S_ : S1.Squeezes S_
  gathers_S100000x128_S50x128 : S100000x128.Gathers 0 S50x128
  inb_S4x50x128_S1x50x128_1_0_0 : ∀ a, (![1, 0, 0] : Fin 3 → Nat) a + S1x50x128.size a ≤ S4x50x128.size a
  inb_S32x50_S1x50_1_0 : ∀ a, (![1, 0] : Fin 2 → Nat) a + S1x50.size a ≤ S32x50.size a
  inb_S4_S1_1 : ∀ a, (![1] : Fin 1 → Nat) a + S1.size a ≤ S4.size a
  inb_S4x50x128_S1x50x128_2_0_0 : ∀ a, (![2, 0, 0] : Fin 3 → Nat) a + S1x50x128.size a ≤ S4x50x128.size a
  inb_S32x50_S1x50_2_0 : ∀ a, (![2, 0] : Fin 2 → Nat) a + S1x50.size a ≤ S32x50.size a
  inb_S4_S1_2 : ∀ a, (![2] : Fin 1 → Nat) a + S1.size a ≤ S4.size a
  h_S1x1x16 : 0 < S1x1x16.numel
  shapeCasts_S1x1x16_S16 : S1x1x16.ShapeCasts S16
  h_S1x16 : 0 < S1x16.numel
  shapeCasts_S1x16_S16 : S1x16.ShapeCasts S16
  shapeCasts_S16_S1x16 : S16.ShapeCasts S1x16
  transposes_S128x100000_S100000x128_1_0 : S128x100000.Transposes [1, 0] S100000x128
  shapeCasts_S100000_S20x1x5000 : S100000.ShapeCasts S20x1x5000
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x1x5000 : S1x1x5000.ShapeCasts S1x1x5000
  shapeCasts_S1x1x5000_S5000x1 : S1x1x5000.ShapeCasts S5000x1
  broadcasts_S5000x1_S5000x1024 : S5000x1.Broadcasts S5000x1024
  inb_S5000x1024_S5000x1024_0_0 : ∀ a, (![0, 0] : Fin 2 → Nat) a + S5000x1024.size a ≤ S5000x1024.size a
  h_S5000x1024 : 0 < S5000x1024.numel
  transposes_S100000x1024_S1024x100000_1_0 : S100000x1024.Transposes [1, 0] S1024x100000
  dot_S5000x128_S1024x128_S5000x1024_1_1_0_0_n_n_wf : DotDims.WF S5000x128 S1024x128 S5000x1024 [1] [1] [0] [0] [] []
  hcc0_scratch3 : 0 + S4.numel ≤ 13
  hcc0_scoped0 : 4 + S_.numel ≤ 13
  hcc0_scoped1 : 5 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32x50.size a ≤ S1024x50.size a
  k0_t1_ok : k0_t1_loop.OK
  k0_off2_inb : ∀ k0_t1 : Fin k0_t1_loop.trips, ∀ a, (k0_off2 k0_t1) a + S1x50x128.size a ≤ S4x50x128.size a
  k0_off3_inb : ∀ k0_t1 : Fin k0_t1_loop.trips, ∀ a, (k0_off3 k0_t1) a + S1x50.size a ≤ S32x50.size a
  k0_off4_inb : ∀ k0_t1 : Fin k0_t1_loop.trips, ∀ a, (k0_off4 k0_t1) a + S1.size a ≤ S4.size a
  k0_off5_inb : ∀ k0_t1 : Fin k0_t1_loop.trips, ∀ (k0_h1 : k0_cond1 k0_t1 = 1#1), ∀ a, (k0_off5 k0_t1) a + S1x50x128.size a ≤ S4x50x128.size a
  k0_off6_inb : ∀ k0_t1 : Fin k0_t1_loop.trips, ∀ (k0_h1 : k0_cond1 k0_t1 = 1#1), ∀ a, (k0_off6 k0_t1) a + S1x50.size a ≤ S32x50.size a
  k0_off7_inb : ∀ k0_t1 : Fin k0_t1_loop.trips, ∀ (k0_h1 : k0_cond1 k0_t1 = 1#1), ∀ a, (k0_off7 k0_t1) a + S1.size a ≤ S4.size a
  k0_off8_inb : ∀ k0_t1 : Fin k0_t1_loop.trips, ∀ a, (k0_off8 k0_t1) a + S1x1x16.size a ≤ S4x50x128.size a
  k0_off9_inb : ∀ k0_t1 : Fin k0_t1_loop.trips, ∀ a, (k0_off9 k0_t1) a + S1x1x16.size a ≤ S4x50x128.size a
  k0_off10_inb : ∀ k0_t1 : Fin k0_t1_loop.trips, ∀ a, (k0_off10 k0_t1) a + S1x1x16.size a ≤ S4x50x128.size a
  k0_off11_inb : ∀ k0_t1 : Fin k0_t1_loop.trips, ∀ a, (k0_off11 k0_t1) a + S1x1x16.size a ≤ S4x50x128.size a
  k0_off12_inb : ∀ k0_t1 : Fin k0_t1_loop.trips, ∀ a, (k0_off12 k0_t1) a + S1x1x16.size a ≤ S4x50x128.size a
  k0_off13_inb : ∀ k0_t1 : Fin k0_t1_loop.trips, ∀ a, (k0_off13 k0_t1) a + S1x1x16.size a ≤ S4x50x128.size a
  k0_off14_inb : ∀ k0_t1 : Fin k0_t1_loop.trips, ∀ a, (k0_off14 k0_t1) a + S1x1x16.size a ≤ S4x50x128.size a
  k0_off15_inb : ∀ k0_t1 : Fin k0_t1_loop.trips, ∀ a, (k0_off15 k0_t1) a + S1x1x16.size a ≤ S4x50x128.size a
  k0_off16_inb : ∀ k0_t1 : Fin k0_t1_loop.trips, ∀ a, (k0_off16 k0_t1) a + S1x1x16.size a ≤ S4x50x128.size a
  k0_off17_inb : ∀ k0_t1 : Fin k0_t1_loop.trips, ∀ a, (k0_off17 k0_t1) a + S1x1x16.size a ≤ S4x50x128.size a
  k0_off18_inb : ∀ k0_t1 : Fin k0_t1_loop.trips, ∀ a, (k0_off18 k0_t1) a + S1x1x16.size a ≤ S4x50x128.size a
  k0_off19_inb : ∀ k0_t1 : Fin k0_t1_loop.trips, ∀ a, (k0_off19 k0_t1) a + S1x1x16.size a ≤ S4x50x128.size a
  k0_off20_inb : ∀ k0_t1 : Fin k0_t1_loop.trips, ∀ a, (k0_off20 k0_t1) a + S1x1x16.size a ≤ S4x50x128.size a
  k0_off21_inb : ∀ k0_t1 : Fin k0_t1_loop.trips, ∀ a, (k0_off21 k0_t1) a + S1x1x16.size a ≤ S4x50x128.size a
  k0_off22_inb : ∀ k0_t1 : Fin k0_t1_loop.trips, ∀ a, (k0_off22 k0_t1) a + S1x1x16.size a ≤ S4x50x128.size a
  k0_off23_inb : ∀ k0_t1 : Fin k0_t1_loop.trips, ∀ a, (k0_off23 k0_t1) a + S1x1x16.size a ≤ S4x50x128.size a
  k0_off24_inb : ∀ k0_t1 : Fin k0_t1_loop.trips, ∀ a, (k0_off24 k0_t1) a + S1x1x16.size a ≤ S4x50x128.size a
  k0_off25_inb : ∀ k0_t1 : Fin k0_t1_loop.trips, ∀ a, (k0_off25 k0_t1) a + S1x1x16.size a ≤ S4x50x128.size a
  k0_off26_inb : ∀ k0_t1 : Fin k0_t1_loop.trips, ∀ a, (k0_off26 k0_t1) a + S1x1x16.size a ≤ S4x50x128.size a
  k0_off27_inb : ∀ k0_t1 : Fin k0_t1_loop.trips, ∀ a, (k0_off27 k0_t1) a + S1x1x16.size a ≤ S4x50x128.size a
  k0_off28_inb : ∀ k0_t1 : Fin k0_t1_loop.trips, ∀ a, (k0_off28 k0_t1) a + S1x1x16.size a ≤ S4x50x128.size a
  k0_off29_inb : ∀ k0_t1 : Fin k0_t1_loop.trips, ∀ a, (k0_off29 k0_t1) a + S1x1x16.size a ≤ S4x50x128.size a
  k0_off30_inb : ∀ k0_t1 : Fin k0_t1_loop.trips, ∀ a, (k0_off30 k0_t1) a + S1x1x16.size a ≤ S4x50x128.size a
  k0_off31_inb : ∀ k0_t1 : Fin k0_t1_loop.trips, ∀ a, (k0_off31 k0_t1) a + S1x1x16.size a ≤ S4x50x128.size a
  k0_off32_inb : ∀ k0_t1 : Fin k0_t1_loop.trips, ∀ a, (k0_off32 k0_t1) a + S1x1x16.size a ≤ S4x50x128.size a
  k0_off33_inb : ∀ k0_t1 : Fin k0_t1_loop.trips, ∀ a, (k0_off33 k0_t1) a + S1x1x16.size a ≤ S4x50x128.size a
  k0_off34_inb : ∀ k0_t1 : Fin k0_t1_loop.trips, ∀ a, (k0_off34 k0_t1) a + S1x1x16.size a ≤ S4x50x128.size a
  k0_off35_inb : ∀ k0_t1 : Fin k0_t1_loop.trips, ∀ a, (k0_off35 k0_t1) a + S1x1x16.size a ≤ S4x50x128.size a
  k0_off36_inb : ∀ k0_t1 : Fin k0_t1_loop.trips, ∀ a, (k0_off36 k0_t1) a + S1x1x16.size a ≤ S4x50x128.size a
  k0_off37_inb : ∀ k0_t1 : Fin k0_t1_loop.trips, ∀ a, (k0_off37 k0_t1) a + S1x1x16.size a ≤ S4x50x128.size a
  k0_off38_inb : ∀ k0_t1 : Fin k0_t1_loop.trips, ∀ a, (k0_off38 k0_t1) a + S1x1x16.size a ≤ S4x50x128.size a
  k0_off39_inb : ∀ k0_t1 : Fin k0_t1_loop.trips, ∀ a, (k0_off39 k0_t1) a + S1x1x16.size a ≤ S4x50x128.size a
  k0_off40_inb : ∀ k0_t1 : Fin k0_t1_loop.trips, ∀ a, (k0_off40 k0_t1) a + S1x1x16.size a ≤ S4x50x128.size a
  k0_off41_inb : ∀ k0_t1 : Fin k0_t1_loop.trips, ∀ a, (k0_off41 k0_t1) a + S1x1x16.size a ≤ S4x50x128.size a
  k0_off42_inb : ∀ k0_t1 : Fin k0_t1_loop.trips, ∀ a, (k0_off42 k0_t1) a + S1x1x16.size a ≤ S4x50x128.size a
  k0_off43_inb : ∀ k0_t1 : Fin k0_t1_loop.trips, ∀ a, (k0_off43 k0_t1) a + S1x1x16.size a ≤ S4x50x128.size a
  k0_off44_inb : ∀ k0_t1 : Fin k0_t1_loop.trips, ∀ a, (k0_off44 k0_t1) a + S1x1x16.size a ≤ S4x50x128.size a
  k0_off45_inb : ∀ k0_t1 : Fin k0_t1_loop.trips, ∀ a, (k0_off45 k0_t1) a + S1x1x16.size a ≤ S4x50x128.size a
  k0_off46_inb : ∀ k0_t1 : Fin k0_t1_loop.trips, ∀ a, (k0_off46 k0_t1) a + S1x1x16.size a ≤ S4x50x128.size a
  k0_off47_inb : ∀ k0_t1 : Fin k0_t1_loop.trips, ∀ a, (k0_off47 k0_t1) a + S1x1x16.size a ≤ S4x50x128.size a
  k0_off48_inb : ∀ k0_t1 : Fin k0_t1_loop.trips, ∀ a, (k0_off48 k0_t1) a + S1x1x16.size a ≤ S4x50x128.size a
  k0_off49_inb : ∀ k0_t1 : Fin k0_t1_loop.trips, ∀ a, (k0_off49 k0_t1) a + S1x1x16.size a ≤ S4x50x128.size a
  k0_off50_inb : ∀ k0_t1 : Fin k0_t1_loop.trips, ∀ a, (k0_off50 k0_t1) a + S1x1x16.size a ≤ S4x50x128.size a
  k0_off51_inb : ∀ k0_t1 : Fin k0_t1_loop.trips, ∀ a, (k0_off51 k0_t1) a + S1x1x16.size a ≤ S4x50x128.size a
  k0_off52_inb : ∀ k0_t1 : Fin k0_t1_loop.trips, ∀ a, (k0_off52 k0_t1) a + S1x1x16.size a ≤ S4x50x128.size a
  k0_off53_inb : ∀ k0_t1 : Fin k0_t1_loop.trips, ∀ a, (k0_off53 k0_t1) a + S1x1x16.size a ≤ S4x50x128.size a
  k0_off54_inb : ∀ k0_t1 : Fin k0_t1_loop.trips, ∀ a, (k0_off54 k0_t1) a + S1x1x16.size a ≤ S4x50x128.size a
  k0_off55_inb : ∀ k0_t1 : Fin k0_t1_loop.trips, ∀ a, (k0_off55 k0_t1) a + S1x1x16.size a ≤ S4x50x128.size a
  k0_off56_inb : ∀ k0_t1 : Fin k0_t1_loop.trips, ∀ a, (k0_off56 k0_t1) a + S1x1x16.size a ≤ S4x50x128.size a
  k0_off57_inb : ∀ k0_t1 : Fin k0_t1_loop.trips, ∀ a, (k0_off57 k0_t1) a + S1x1x16.size a ≤ S4x50x128.size a
  k0_off58_inb : ∀ k0_t1 : Fin k0_t1_loop.trips, ∀ a, (k0_off58 k0_t1) a + S1x16.size a ≤ S32x128.size a
  k0_off59_inb : ∀ k0_t1 : Fin k0_t1_loop.trips, ∀ a, (k0_off59 k0_t1) a + S1x1x16.size a ≤ S4x50x128.size a
  k0_off60_inb : ∀ k0_t1 : Fin k0_t1_loop.trips, ∀ a, (k0_off60 k0_t1) a + S1x1x16.size a ≤ S4x50x128.size a
  k0_off61_inb : ∀ k0_t1 : Fin k0_t1_loop.trips, ∀ a, (k0_off61 k0_t1) a + S1x1x16.size a ≤ S4x50x128.size a
  k0_off62_inb : ∀ k0_t1 : Fin k0_t1_loop.trips, ∀ a, (k0_off62 k0_t1) a + S1x1x16.size a ≤ S4x50x128.size a
  k0_off63_inb : ∀ k0_t1 : Fin k0_t1_loop.trips, ∀ a, (k0_off63 k0_t1) a + S1x1x16.size a ≤ S4x50x128.size a
  k0_off64_inb : ∀ k0_t1 : Fin k0_t1_loop.trips, ∀ a, (k0_off64 k0_t1) a + S1x1x16.size a ≤ S4x50x128.size a
  k0_off65_inb : ∀ k0_t1 : Fin k0_t1_loop.trips, ∀ a, (k0_off65 k0_t1) a + S1x1x16.size a ≤ S4x50x128.size a
  k0_off66_inb : ∀ k0_t1 : Fin k0_t1_loop.trips, ∀ a, (k0_off66 k0_t1) a + S1x1x16.size a ≤ S4x50x128.size a
  k0_off67_inb : ∀ k0_t1 : Fin k0_t1_loop.trips, ∀ a, (k0_off67 k0_t1) a + S1x1x16.size a ≤ S4x50x128.size a
  k0_off68_inb : ∀ k0_t1 : Fin k0_t1_loop.trips, ∀ a, (k0_off68 k0_t1) a + S1x1x16.size a ≤ S4x50x128.size a
  k0_off69_inb : ∀ k0_t1 : Fin k0_t1_loop.trips, ∀ a, (k0_off69 k0_t1) a + S1x1x16.size a ≤ S4x50x128.size a
  k0_off70_inb : ∀ k0_t1 : Fin k0_t1_loop.trips, ∀ a, (k0_off70 k0_t1) a + S1x1x16.size a ≤ S4x50x128.size a
  k0_off71_inb : ∀ k0_t1 : Fin k0_t1_loop.trips, ∀ a, (k0_off71 k0_t1) a + S1x1x16.size a ≤ S4x50x128.size a
  k0_off72_inb : ∀ k0_t1 : Fin k0_t1_loop.trips, ∀ a, (k0_off72 k0_t1) a + S1x1x16.size a ≤ S4x50x128.size a
  k0_off73_inb : ∀ k0_t1 : Fin k0_t1_loop.trips, ∀ a, (k0_off73 k0_t1) a + S1x1x16.size a ≤ S4x50x128.size a
  k0_off74_inb : ∀ k0_t1 : Fin k0_t1_loop.trips, ∀ a, (k0_off74 k0_t1) a + S1x1x16.size a ≤ S4x50x128.size a
  k0_off75_inb : ∀ k0_t1 : Fin k0_t1_loop.trips, ∀ a, (k0_off75 k0_t1) a + S1x1x16.size a ≤ S4x50x128.size a
  k0_off76_inb : ∀ k0_t1 : Fin k0_t1_loop.trips, ∀ a, (k0_off76 k0_t1) a + S1x1x16.size a ≤ S4x50x128.size a
  k0_off77_inb : ∀ k0_t1 : Fin k0_t1_loop.trips, ∀ a, (k0_off77 k0_t1) a + S1x1x16.size a ≤ S4x50x128.size a
  k0_off78_inb : ∀ k0_t1 : Fin k0_t1_loop.trips, ∀ a, (k0_off78 k0_t1) a + S1x1x16.size a ≤ S4x50x128.size a
  k0_off79_inb : ∀ k0_t1 : Fin k0_t1_loop.trips, ∀ a, (k0_off79 k0_t1) a + S1x1x16.size a ≤ S4x50x128.size a
  k0_off80_inb : ∀ k0_t1 : Fin k0_t1_loop.trips, ∀ a, (k0_off80 k0_t1) a + S1x1x16.size a ≤ S4x50x128.size a
  k0_off81_inb : ∀ k0_t1 : Fin k0_t1_loop.trips, ∀ a, (k0_off81 k0_t1) a + S1x1x16.size a ≤ S4x50x128.size a
  k0_off82_inb : ∀ k0_t1 : Fin k0_t1_loop.trips, ∀ a, (k0_off82 k0_t1) a + S1x1x16.size a ≤ S4x50x128.size a
  k0_off83_inb : ∀ k0_t1 : Fin k0_t1_loop.trips, ∀ a, (k0_off83 k0_t1) a + S1x1x16.size a ≤ S4x50x128.size a
  k0_off84_inb : ∀ k0_t1 : Fin k0_t1_loop.trips, ∀ a, (k0_off84 k0_t1) a + S1x1x16.size a ≤ S4x50x128.size a
  k0_off85_inb : ∀ k0_t1 : Fin k0_t1_loop.trips, ∀ a, (k0_off85 k0_t1) a + S1x1x16.size a ≤ S4x50x128.size a
  k0_off86_inb : ∀ k0_t1 : Fin k0_t1_loop.trips, ∀ a, (k0_off86 k0_t1) a + S1x1x16.size a ≤ S4x50x128.size a
  k0_off87_inb : ∀ k0_t1 : Fin k0_t1_loop.trips, ∀ a, (k0_off87 k0_t1) a + S1x1x16.size a ≤ S4x50x128.size a
  k0_off88_inb : ∀ k0_t1 : Fin k0_t1_loop.trips, ∀ a, (k0_off88 k0_t1) a + S1x1x16.size a ≤ S4x50x128.size a
  k0_off89_inb : ∀ k0_t1 : Fin k0_t1_loop.trips, ∀ a, (k0_off89 k0_t1) a + S1x1x16.size a ≤ S4x50x128.size a
  k0_off90_inb : ∀ k0_t1 : Fin k0_t1_loop.trips, ∀ a, (k0_off90 k0_t1) a + S1x1x16.size a ≤ S4x50x128.size a
  k0_off91_inb : ∀ k0_t1 : Fin k0_t1_loop.trips, ∀ a, (k0_off91 k0_t1) a + S1x1x16.size a ≤ S4x50x128.size a
  k0_off92_inb : ∀ k0_t1 : Fin k0_t1_loop.trips, ∀ a, (k0_off92 k0_t1) a + S1x1x16.size a ≤ S4x50x128.size a
  k0_off93_inb : ∀ k0_t1 : Fin k0_t1_loop.trips, ∀ a, (k0_off93 k0_t1) a + S1x1x16.size a ≤ S4x50x128.size a
  k0_off94_inb : ∀ k0_t1 : Fin k0_t1_loop.trips, ∀ a, (k0_off94 k0_t1) a + S1x1x16.size a ≤ S4x50x128.size a
  k0_off95_inb : ∀ k0_t1 : Fin k0_t1_loop.trips, ∀ a, (k0_off95 k0_t1) a + S1x1x16.size a ≤ S4x50x128.size a
  k0_off96_inb : ∀ k0_t1 : Fin k0_t1_loop.trips, ∀ a, (k0_off96 k0_t1) a + S1x1x16.size a ≤ S4x50x128.size a
  k0_off97_inb : ∀ k0_t1 : Fin k0_t1_loop.trips, ∀ a, (k0_off97 k0_t1) a + S1x1x16.size a ≤ S4x50x128.size a
  k0_off98_inb : ∀ k0_t1 : Fin k0_t1_loop.trips, ∀ a, (k0_off98 k0_t1) a + S1x1x16.size a ≤ S4x50x128.size a
  k0_off99_inb : ∀ k0_t1 : Fin k0_t1_loop.trips, ∀ a, (k0_off99 k0_t1) a + S1x1x16.size a ≤ S4x50x128.size a
  k0_off100_inb : ∀ k0_t1 : Fin k0_t1_loop.trips, ∀ a, (k0_off100 k0_t1) a + S1x1x16.size a ≤ S4x50x128.size a
  k0_off101_inb : ∀ k0_t1 : Fin k0_t1_loop.trips, ∀ a, (k0_off101 k0_t1) a + S1x1x16.size a ≤ S4x50x128.size a
  k0_off102_inb : ∀ k0_t1 : Fin k0_t1_loop.trips, ∀ a, (k0_off102 k0_t1) a + S1x1x16.size a ≤ S4x50x128.size a
  k0_off103_inb : ∀ k0_t1 : Fin k0_t1_loop.trips, ∀ a, (k0_off103 k0_t1) a + S1x1x16.size a ≤ S4x50x128.size a
  k0_off104_inb : ∀ k0_t1 : Fin k0_t1_loop.trips, ∀ a, (k0_off104 k0_t1) a + S1x1x16.size a ≤ S4x50x128.size a
  k0_off105_inb : ∀ k0_t1 : Fin k0_t1_loop.trips, ∀ a, (k0_off105 k0_t1) a + S1x1x16.size a ≤ S4x50x128.size a
  k0_off106_inb : ∀ k0_t1 : Fin k0_t1_loop.trips, ∀ a, (k0_off106 k0_t1) a + S1x1x16.size a ≤ S4x50x128.size a
  k0_off107_inb : ∀ k0_t1 : Fin k0_t1_loop.trips, ∀ a, (k0_off107 k0_t1) a + S1x1x16.size a ≤ S4x50x128.size a
  k0_off108_inb : ∀ k0_t1 : Fin k0_t1_loop.trips, ∀ a, (k0_off108 k0_t1) a + S1x1x16.size a ≤ S4x50x128.size a
  k0_off109_inb : ∀ k0_t1 : Fin k0_t1_loop.trips, ∀ a, (k0_off109 k0_t1) a + S1x16.size a ≤ S32x128.size a
  k0_off110_inb : ∀ k0_t1 : Fin k0_t1_loop.trips, ∀ a, (k0_off110 k0_t1) a + S1x1x16.size a ≤ S4x50x128.size a
  k0_off111_inb : ∀ k0_t1 : Fin k0_t1_loop.trips, ∀ a, (k0_off111 k0_t1) a + S1x1x16.size a ≤ S4x50x128.size a
  k0_off112_inb : ∀ k0_t1 : Fin k0_t1_loop.trips, ∀ a, (k0_off112 k0_t1) a + S1x1x16.size a ≤ S4x50x128.size a
  k0_off113_inb : ∀ k0_t1 : Fin k0_t1_loop.trips, ∀ a, (k0_off113 k0_t1) a + S1x1x16.size a ≤ S4x50x128.size a
  k0_off114_inb : ∀ k0_t1 : Fin k0_t1_loop.trips, ∀ a, (k0_off114 k0_t1) a + S1x1x16.size a ≤ S4x50x128.size a
  k0_off115_inb : ∀ k0_t1 : Fin k0_t1_loop.trips, ∀ a, (k0_off115 k0_t1) a + S1x1x16.size a ≤ S4x50x128.size a
  k0_off116_inb : ∀ k0_t1 : Fin k0_t1_loop.trips, ∀ a, (k0_off116 k0_t1) a + S1x1x16.size a ≤ S4x50x128.size a
  k0_off117_inb : ∀ k0_t1 : Fin k0_t1_loop.trips, ∀ a, (k0_off117 k0_t1) a + S1x1x16.size a ≤ S4x50x128.size a
  k0_off118_inb : ∀ k0_t1 : Fin k0_t1_loop.trips, ∀ a, (k0_off118 k0_t1) a + S1x1x16.size a ≤ S4x50x128.size a
  k0_off119_inb : ∀ k0_t1 : Fin k0_t1_loop.trips, ∀ a, (k0_off119 k0_t1) a + S1x1x16.size a ≤ S4x50x128.size a
  k0_off120_inb : ∀ k0_t1 : Fin k0_t1_loop.trips, ∀ a, (k0_off120 k0_t1) a + S1x1x16.size a ≤ S4x50x128.size a
  k0_off121_inb : ∀ k0_t1 : Fin k0_t1_loop.trips, ∀ a, (k0_off121 k0_t1) a + S1x1x16.size a ≤ S4x50x128.size a
  k0_off122_inb : ∀ k0_t1 : Fin k0_t1_loop.trips, ∀ a, (k0_off122 k0_t1) a + S1x1x16.size a ≤ S4x50x128.size a
  k0_off123_inb : ∀ k0_t1 : Fin k0_t1_loop.trips, ∀ a, (k0_off123 k0_t1) a + S1x1x16.size a ≤ S4x50x128.size a
  k0_off124_inb : ∀ k0_t1 : Fin k0_t1_loop.trips, ∀ a, (k0_off124 k0_t1) a + S1x1x16.size a ≤ S4x50x128.size a
  k0_off125_inb : ∀ k0_t1 : Fin k0_t1_loop.trips, ∀ a, (k0_off125 k0_t1) a + S1x1x16.size a ≤ S4x50x128.size a
  k0_off126_inb : ∀ k0_t1 : Fin k0_t1_loop.trips, ∀ a, (k0_off126 k0_t1) a + S1x1x16.size a ≤ S4x50x128.size a
  k0_off127_inb : ∀ k0_t1 : Fin k0_t1_loop.trips, ∀ a, (k0_off127 k0_t1) a + S1x1x16.size a ≤ S4x50x128.size a
  k0_off128_inb : ∀ k0_t1 : Fin k0_t1_loop.trips, ∀ a, (k0_off128 k0_t1) a + S1x1x16.size a ≤ S4x50x128.size a
  k0_off129_inb : ∀ k0_t1 : Fin k0_t1_loop.trips, ∀ a, (k0_off129 k0_t1) a + S1x1x16.size a ≤ S4x50x128.size a
  k0_off130_inb : ∀ k0_t1 : Fin k0_t1_loop.trips, ∀ a, (k0_off130 k0_t1) a + S1x1x16.size a ≤ S4x50x128.size a
  k0_off131_inb : ∀ k0_t1 : Fin k0_t1_loop.trips, ∀ a, (k0_off131 k0_t1) a + S1x1x16.size a ≤ S4x50x128.size a
  k0_off132_inb : ∀ k0_t1 : Fin k0_t1_loop.trips, ∀ a, (k0_off132 k0_t1) a + S1x1x16.size a ≤ S4x50x128.size a
  k0_off133_inb : ∀ k0_t1 : Fin k0_t1_loop.trips, ∀ a, (k0_off133 k0_t1) a + S1x1x16.size a ≤ S4x50x128.size a
  k0_off134_inb : ∀ k0_t1 : Fin k0_t1_loop.trips, ∀ a, (k0_off134 k0_t1) a + S1x1x16.size a ≤ S4x50x128.size a
  k0_off135_inb : ∀ k0_t1 : Fin k0_t1_loop.trips, ∀ a, (k0_off135 k0_t1) a + S1x1x16.size a ≤ S4x50x128.size a
  k0_off136_inb : ∀ k0_t1 : Fin k0_t1_loop.trips, ∀ a, (k0_off136 k0_t1) a + S1x1x16.size a ≤ S4x50x128.size a
  k0_off137_inb : ∀ k0_t1 : Fin k0_t1_loop.trips, ∀ a, (k0_off137 k0_t1) a + S1x1x16.size a ≤ S4x50x128.size a
  k0_off138_inb : ∀ k0_t1 : Fin k0_t1_loop.trips, ∀ a, (k0_off138 k0_t1) a + S1x1x16.size a ≤ S4x50x128.size a
  k0_off139_inb : ∀ k0_t1 : Fin k0_t1_loop.trips, ∀ a, (k0_off139 k0_t1) a + S1x1x16.size a ≤ S4x50x128.size a
  k0_off140_inb : ∀ k0_t1 : Fin k0_t1_loop.trips, ∀ a, (k0_off140 k0_t1) a + S1x1x16.size a ≤ S4x50x128.size a
  k0_off141_inb : ∀ k0_t1 : Fin k0_t1_loop.trips, ∀ a, (k0_off141 k0_t1) a + S1x1x16.size a ≤ S4x50x128.size a
  k0_off142_inb : ∀ k0_t1 : Fin k0_t1_loop.trips, ∀ a, (k0_off142 k0_t1) a + S1x1x16.size a ≤ S4x50x128.size a
  k0_off143_inb : ∀ k0_t1 : Fin k0_t1_loop.trips, ∀ a, (k0_off143 k0_t1) a + S1x1x16.size a ≤ S4x50x128.size a
  k0_off144_inb : ∀ k0_t1 : Fin k0_t1_loop.trips, ∀ a, (k0_off144 k0_t1) a + S1x1x16.size a ≤ S4x50x128.size a
  k0_off145_inb : ∀ k0_t1 : Fin k0_t1_loop.trips, ∀ a, (k0_off145 k0_t1) a + S1x1x16.size a ≤ S4x50x128.size a
  k0_off146_inb : ∀ k0_t1 : Fin k0_t1_loop.trips, ∀ a, (k0_off146 k0_t1) a + S1x1x16.size a ≤ S4x50x128.size a
  k0_off147_inb : ∀ k0_t1 : Fin k0_t1_loop.trips, ∀ a, (k0_off147 k0_t1) a + S1x1x16.size a ≤ S4x50x128.size a
  k0_off148_inb : ∀ k0_t1 : Fin k0_t1_loop.trips, ∀ a, (k0_off148 k0_t1) a + S1x1x16.size a ≤ S4x50x128.size a
  k0_off149_inb : ∀ k0_t1 : Fin k0_t1_loop.trips, ∀ a, (k0_off149 k0_t1) a + S1x1x16.size a ≤ S4x50x128.size a
  k0_off150_inb : ∀ k0_t1 : Fin k0_t1_loop.trips, ∀ a, (k0_off150 k0_t1) a + S1x1x16.size a ≤ S4x50x128.size a
  k0_off151_inb : ∀ k0_t1 : Fin k0_t1_loop.trips, ∀ a, (k0_off151 k0_t1) a + S1x1x16.size a ≤ S4x50x128.size a
  k0_off152_inb : ∀ k0_t1 : Fin k0_t1_loop.trips, ∀ a, (k0_off152 k0_t1) a + S1x1x16.size a ≤ S4x50x128.size a
  k0_off153_inb : ∀ k0_t1 : Fin k0_t1_loop.trips, ∀ a, (k0_off153 k0_t1) a + S1x1x16.size a ≤ S4x50x128.size a
  k0_off154_inb : ∀ k0_t1 : Fin k0_t1_loop.trips, ∀ a, (k0_off154 k0_t1) a + S1x1x16.size a ≤ S4x50x128.size a
  k0_off155_inb : ∀ k0_t1 : Fin k0_t1_loop.trips, ∀ a, (k0_off155 k0_t1) a + S1x1x16.size a ≤ S4x50x128.size a
  k0_off156_inb : ∀ k0_t1 : Fin k0_t1_loop.trips, ∀ a, (k0_off156 k0_t1) a + S1x1x16.size a ≤ S4x50x128.size a
  k0_off157_inb : ∀ k0_t1 : Fin k0_t1_loop.trips, ∀ a, (k0_off157 k0_t1) a + S1x1x16.size a ≤ S4x50x128.size a
  k0_off158_inb : ∀ k0_t1 : Fin k0_t1_loop.trips, ∀ a, (k0_off158 k0_t1) a + S1x1x16.size a ≤ S4x50x128.size a
  k0_off159_inb : ∀ k0_t1 : Fin k0_t1_loop.trips, ∀ a, (k0_off159 k0_t1) a + S1x1x16.size a ≤ S4x50x128.size a
  k0_off160_inb : ∀ k0_t1 : Fin k0_t1_loop.trips, ∀ a, (k0_off160 k0_t1) a + S1x16.size a ≤ S32x128.size a
  k0_off161_inb : ∀ k0_t1 : Fin k0_t1_loop.trips, ∀ a, (k0_off161 k0_t1) a + S1x1x16.size a ≤ S4x50x128.size a
  k0_off162_inb : ∀ k0_t1 : Fin k0_t1_loop.trips, ∀ a, (k0_off162 k0_t1) a + S1x1x16.size a ≤ S4x50x128.size a
  k0_off163_inb : ∀ k0_t1 : Fin k0_t1_loop.trips, ∀ a, (k0_off163 k0_t1) a + S1x1x16.size a ≤ S4x50x128.size a
  k0_off164_inb : ∀ k0_t1 : Fin k0_t1_loop.trips, ∀ a, (k0_off164 k0_t1) a + S1x1x16.size a ≤ S4x50x128.size a
  k0_off165_inb : ∀ k0_t1 : Fin k0_t1_loop.trips, ∀ a, (k0_off165 k0_t1) a + S1x1x16.size a ≤ S4x50x128.size a
  k0_off166_inb : ∀ k0_t1 : Fin k0_t1_loop.trips, ∀ a, (k0_off166 k0_t1) a + S1x1x16.size a ≤ S4x50x128.size a
  k0_off167_inb : ∀ k0_t1 : Fin k0_t1_loop.trips, ∀ a, (k0_off167 k0_t1) a + S1x1x16.size a ≤ S4x50x128.size a
  k0_off168_inb : ∀ k0_t1 : Fin k0_t1_loop.trips, ∀ a, (k0_off168 k0_t1) a + S1x1x16.size a ≤ S4x50x128.size a
  k0_off169_inb : ∀ k0_t1 : Fin k0_t1_loop.trips, ∀ a, (k0_off169 k0_t1) a + S1x1x16.size a ≤ S4x50x128.size a
  k0_off170_inb : ∀ k0_t1 : Fin k0_t1_loop.trips, ∀ a, (k0_off170 k0_t1) a + S1x1x16.size a ≤ S4x50x128.size a
  k0_off171_inb : ∀ k0_t1 : Fin k0_t1_loop.trips, ∀ a, (k0_off171 k0_t1) a + S1x1x16.size a ≤ S4x50x128.size a
  k0_off172_inb : ∀ k0_t1 : Fin k0_t1_loop.trips, ∀ a, (k0_off172 k0_t1) a + S1x1x16.size a ≤ S4x50x128.size a
  k0_off173_inb : ∀ k0_t1 : Fin k0_t1_loop.trips, ∀ a, (k0_off173 k0_t1) a + S1x1x16.size a ≤ S4x50x128.size a
  k0_off174_inb : ∀ k0_t1 : Fin k0_t1_loop.trips, ∀ a, (k0_off174 k0_t1) a + S1x1x16.size a ≤ S4x50x128.size a
  k0_off175_inb : ∀ k0_t1 : Fin k0_t1_loop.trips, ∀ a, (k0_off175 k0_t1) a + S1x1x16.size a ≤ S4x50x128.size a
  k0_off176_inb : ∀ k0_t1 : Fin k0_t1_loop.trips, ∀ a, (k0_off176 k0_t1) a + S1x1x16.size a ≤ S4x50x128.size a
  k0_off177_inb : ∀ k0_t1 : Fin k0_t1_loop.trips, ∀ a, (k0_off177 k0_t1) a + S1x1x16.size a ≤ S4x50x128.size a
  k0_off178_inb : ∀ k0_t1 : Fin k0_t1_loop.trips, ∀ a, (k0_off178 k0_t1) a + S1x1x16.size a ≤ S4x50x128.size a
  k0_off179_inb : ∀ k0_t1 : Fin k0_t1_loop.trips, ∀ a, (k0_off179 k0_t1) a + S1x1x16.size a ≤ S4x50x128.size a
  k0_off180_inb : ∀ k0_t1 : Fin k0_t1_loop.trips, ∀ a, (k0_off180 k0_t1) a + S1x1x16.size a ≤ S4x50x128.size a
  k0_off181_inb : ∀ k0_t1 : Fin k0_t1_loop.trips, ∀ a, (k0_off181 k0_t1) a + S1x1x16.size a ≤ S4x50x128.size a
  k0_off182_inb : ∀ k0_t1 : Fin k0_t1_loop.trips, ∀ a, (k0_off182 k0_t1) a + S1x1x16.size a ≤ S4x50x128.size a
  k0_off183_inb : ∀ k0_t1 : Fin k0_t1_loop.trips, ∀ a, (k0_off183 k0_t1) a + S1x1x16.size a ≤ S4x50x128.size a
  k0_off184_inb : ∀ k0_t1 : Fin k0_t1_loop.trips, ∀ a, (k0_off184 k0_t1) a + S1x1x16.size a ≤ S4x50x128.size a
  k0_off185_inb : ∀ k0_t1 : Fin k0_t1_loop.trips, ∀ a, (k0_off185 k0_t1) a + S1x1x16.size a ≤ S4x50x128.size a
  k0_off186_inb : ∀ k0_t1 : Fin k0_t1_loop.trips, ∀ a, (k0_off186 k0_t1) a + S1x1x16.size a ≤ S4x50x128.size a
  k0_off187_inb : ∀ k0_t1 : Fin k0_t1_loop.trips, ∀ a, (k0_off187 k0_t1) a + S1x1x16.size a ≤ S4x50x128.size a
  k0_off188_inb : ∀ k0_t1 : Fin k0_t1_loop.trips, ∀ a, (k0_off188 k0_t1) a + S1x1x16.size a ≤ S4x50x128.size a
  k0_off189_inb : ∀ k0_t1 : Fin k0_t1_loop.trips, ∀ a, (k0_off189 k0_t1) a + S1x1x16.size a ≤ S4x50x128.size a
  k0_off190_inb : ∀ k0_t1 : Fin k0_t1_loop.trips, ∀ a, (k0_off190 k0_t1) a + S1x1x16.size a ≤ S4x50x128.size a
  k0_off191_inb : ∀ k0_t1 : Fin k0_t1_loop.trips, ∀ a, (k0_off191 k0_t1) a + S1x1x16.size a ≤ S4x50x128.size a
  k0_off192_inb : ∀ k0_t1 : Fin k0_t1_loop.trips, ∀ a, (k0_off192 k0_t1) a + S1x1x16.size a ≤ S4x50x128.size a
  k0_off193_inb : ∀ k0_t1 : Fin k0_t1_loop.trips, ∀ a, (k0_off193 k0_t1) a + S1x1x16.size a ≤ S4x50x128.size a
  k0_off194_inb : ∀ k0_t1 : Fin k0_t1_loop.trips, ∀ a, (k0_off194 k0_t1) a + S1x1x16.size a ≤ S4x50x128.size a
  k0_off195_inb : ∀ k0_t1 : Fin k0_t1_loop.trips, ∀ a, (k0_off195 k0_t1) a + S1x1x16.size a ≤ S4x50x128.size a
  k0_off196_inb : ∀ k0_t1 : Fin k0_t1_loop.trips, ∀ a, (k0_off196 k0_t1) a + S1x1x16.size a ≤ S4x50x128.size a
  k0_off197_inb : ∀ k0_t1 : Fin k0_t1_loop.trips, ∀ a, (k0_off197 k0_t1) a + S1x1x16.size a ≤ S4x50x128.size a
  k0_off198_inb : ∀ k0_t1 : Fin k0_t1_loop.trips, ∀ a, (k0_off198 k0_t1) a + S1x1x16.size a ≤ S4x50x128.size a
  k0_off199_inb : ∀ k0_t1 : Fin k0_t1_loop.trips, ∀ a, (k0_off199 k0_t1) a + S1x1x16.size a ≤ S4x50x128.size a
  k0_off200_inb : ∀ k0_t1 : Fin k0_t1_loop.trips, ∀ a, (k0_off200 k0_t1) a + S1x1x16.size a ≤ S4x50x128.size a
  k0_off201_inb : ∀ k0_t1 : Fin k0_t1_loop.trips, ∀ a, (k0_off201 k0_t1) a + S1x1x16.size a ≤ S4x50x128.size a
  k0_off202_inb : ∀ k0_t1 : Fin k0_t1_loop.trips, ∀ a, (k0_off202 k0_t1) a + S1x1x16.size a ≤ S4x50x128.size a
  k0_off203_inb : ∀ k0_t1 : Fin k0_t1_loop.trips, ∀ a, (k0_off203 k0_t1) a + S1x1x16.size a ≤ S4x50x128.size a
  k0_off204_inb : ∀ k0_t1 : Fin k0_t1_loop.trips, ∀ a, (k0_off204 k0_t1) a + S1x1x16.size a ≤ S4x50x128.size a
  k0_off205_inb : ∀ k0_t1 : Fin k0_t1_loop.trips, ∀ a, (k0_off205 k0_t1) a + S1x1x16.size a ≤ S4x50x128.size a
  k0_off206_inb : ∀ k0_t1 : Fin k0_t1_loop.trips, ∀ a, (k0_off206 k0_t1) a + S1x1x16.size a ≤ S4x50x128.size a
  k0_off207_inb : ∀ k0_t1 : Fin k0_t1_loop.trips, ∀ a, (k0_off207 k0_t1) a + S1x1x16.size a ≤ S4x50x128.size a
  k0_off208_inb : ∀ k0_t1 : Fin k0_t1_loop.trips, ∀ a, (k0_off208 k0_t1) a + S1x1x16.size a ≤ S4x50x128.size a
  k0_off209_inb : ∀ k0_t1 : Fin k0_t1_loop.trips, ∀ a, (k0_off209 k0_t1) a + S1x1x16.size a ≤ S4x50x128.size a
  k0_off210_inb : ∀ k0_t1 : Fin k0_t1_loop.trips, ∀ a, (k0_off210 k0_t1) a + S1x1x16.size a ≤ S4x50x128.size a
  k0_off211_inb : ∀ k0_t1 : Fin k0_t1_loop.trips, ∀ a, (k0_off211 k0_t1) a + S1x16.size a ≤ S32x128.size a
  k0_off212_inb : ∀ k0_t1 : Fin k0_t1_loop.trips, ∀ a, (k0_off212 k0_t1) a + S1x1x16.size a ≤ S4x50x128.size a
  k0_off213_inb : ∀ k0_t1 : Fin k0_t1_loop.trips, ∀ a, (k0_off213 k0_t1) a + S1x1x16.size a ≤ S4x50x128.size a
  k0_off214_inb : ∀ k0_t1 : Fin k0_t1_loop.trips, ∀ a, (k0_off214 k0_t1) a + S1x1x16.size a ≤ S4x50x128.size a
  k0_off215_inb : ∀ k0_t1 : Fin k0_t1_loop.trips, ∀ a, (k0_off215 k0_t1) a + S1x1x16.size a ≤ S4x50x128.size a
  k0_off216_inb : ∀ k0_t1 : Fin k0_t1_loop.trips, ∀ a, (k0_off216 k0_t1) a + S1x1x16.size a ≤ S4x50x128.size a
  k0_off217_inb : ∀ k0_t1 : Fin k0_t1_loop.trips, ∀ a, (k0_off217 k0_t1) a + S1x1x16.size a ≤ S4x50x128.size a
  k0_off218_inb : ∀ k0_t1 : Fin k0_t1_loop.trips, ∀ a, (k0_off218 k0_t1) a + S1x1x16.size a ≤ S4x50x128.size a
  k0_off219_inb : ∀ k0_t1 : Fin k0_t1_loop.trips, ∀ a, (k0_off219 k0_t1) a + S1x1x16.size a ≤ S4x50x128.size a
  k0_off220_inb : ∀ k0_t1 : Fin k0_t1_loop.trips, ∀ a, (k0_off220 k0_t1) a + S1x1x16.size a ≤ S4x50x128.size a
  k0_off221_inb : ∀ k0_t1 : Fin k0_t1_loop.trips, ∀ a, (k0_off221 k0_t1) a + S1x1x16.size a ≤ S4x50x128.size a
  k0_off222_inb : ∀ k0_t1 : Fin k0_t1_loop.trips, ∀ a, (k0_off222 k0_t1) a + S1x1x16.size a ≤ S4x50x128.size a
  k0_off223_inb : ∀ k0_t1 : Fin k0_t1_loop.trips, ∀ a, (k0_off223 k0_t1) a + S1x1x16.size a ≤ S4x50x128.size a
  k0_off224_inb : ∀ k0_t1 : Fin k0_t1_loop.trips, ∀ a, (k0_off224 k0_t1) a + S1x1x16.size a ≤ S4x50x128.size a
  k0_off225_inb : ∀ k0_t1 : Fin k0_t1_loop.trips, ∀ a, (k0_off225 k0_t1) a + S1x1x16.size a ≤ S4x50x128.size a
  k0_off226_inb : ∀ k0_t1 : Fin k0_t1_loop.trips, ∀ a, (k0_off226 k0_t1) a + S1x1x16.size a ≤ S4x50x128.size a
  k0_off227_inb : ∀ k0_t1 : Fin k0_t1_loop.trips, ∀ a, (k0_off227 k0_t1) a + S1x1x16.size a ≤ S4x50x128.size a
  k0_off228_inb : ∀ k0_t1 : Fin k0_t1_loop.trips, ∀ a, (k0_off228 k0_t1) a + S1x1x16.size a ≤ S4x50x128.size a
  k0_off229_inb : ∀ k0_t1 : Fin k0_t1_loop.trips, ∀ a, (k0_off229 k0_t1) a + S1x1x16.size a ≤ S4x50x128.size a
  k0_off230_inb : ∀ k0_t1 : Fin k0_t1_loop.trips, ∀ a, (k0_off230 k0_t1) a + S1x1x16.size a ≤ S4x50x128.size a
  k0_off231_inb : ∀ k0_t1 : Fin k0_t1_loop.trips, ∀ a, (k0_off231 k0_t1) a + S1x1x16.size a ≤ S4x50x128.size a
  k0_off232_inb : ∀ k0_t1 : Fin k0_t1_loop.trips, ∀ a, (k0_off232 k0_t1) a + S1x1x16.size a ≤ S4x50x128.size a
  k0_off233_inb : ∀ k0_t1 : Fin k0_t1_loop.trips, ∀ a, (k0_off233 k0_t1) a + S1x1x16.size a ≤ S4x50x128.size a
  k0_off234_inb : ∀ k0_t1 : Fin k0_t1_loop.trips, ∀ a, (k0_off234 k0_t1) a + S1x1x16.size a ≤ S4x50x128.size a
  k0_off235_inb : ∀ k0_t1 : Fin k0_t1_loop.trips, ∀ a, (k0_off235 k0_t1) a + S1x1x16.size a ≤ S4x50x128.size a
  k0_off236_inb : ∀ k0_t1 : Fin k0_t1_loop.trips, ∀ a, (k0_off236 k0_t1) a + S1x1x16.size a ≤ S4x50x128.size a
  k0_off237_inb : ∀ k0_t1 : Fin k0_t1_loop.trips, ∀ a, (k0_off237 k0_t1) a + S1x1x16.size a ≤ S4x50x128.size a
  k0_off238_inb : ∀ k0_t1 : Fin k0_t1_loop.trips, ∀ a, (k0_off238 k0_t1) a + S1x1x16.size a ≤ S4x50x128.size a
  k0_off239_inb : ∀ k0_t1 : Fin k0_t1_loop.trips, ∀ a, (k0_off239 k0_t1) a + S1x1x16.size a ≤ S4x50x128.size a
  k0_off240_inb : ∀ k0_t1 : Fin k0_t1_loop.trips, ∀ a, (k0_off240 k0_t1) a + S1x1x16.size a ≤ S4x50x128.size a
  k0_off241_inb : ∀ k0_t1 : Fin k0_t1_loop.trips, ∀ a, (k0_off241 k0_t1) a + S1x1x16.size a ≤ S4x50x128.size a
  k0_off242_inb : ∀ k0_t1 : Fin k0_t1_loop.trips, ∀ a, (k0_off242 k0_t1) a + S1x1x16.size a ≤ S4x50x128.size a
  k0_off243_inb : ∀ k0_t1 : Fin k0_t1_loop.trips, ∀ a, (k0_off243 k0_t1) a + S1x1x16.size a ≤ S4x50x128.size a
  k0_off244_inb : ∀ k0_t1 : Fin k0_t1_loop.trips, ∀ a, (k0_off244 k0_t1) a + S1x1x16.size a ≤ S4x50x128.size a
  k0_off245_inb : ∀ k0_t1 : Fin k0_t1_loop.trips, ∀ a, (k0_off245 k0_t1) a + S1x1x16.size a ≤ S4x50x128.size a
  k0_off246_inb : ∀ k0_t1 : Fin k0_t1_loop.trips, ∀ a, (k0_off246 k0_t1) a + S1x1x16.size a ≤ S4x50x128.size a
  k0_off247_inb : ∀ k0_t1 : Fin k0_t1_loop.trips, ∀ a, (k0_off247 k0_t1) a + S1x1x16.size a ≤ S4x50x128.size a
  k0_off248_inb : ∀ k0_t1 : Fin k0_t1_loop.trips, ∀ a, (k0_off248 k0_t1) a + S1x1x16.size a ≤ S4x50x128.size a
  k0_off249_inb : ∀ k0_t1 : Fin k0_t1_loop.trips, ∀ a, (k0_off249 k0_t1) a + S1x1x16.size a ≤ S4x50x128.size a
  k0_off250_inb : ∀ k0_t1 : Fin k0_t1_loop.trips, ∀ a, (k0_off250 k0_t1) a + S1x1x16.size a ≤ S4x50x128.size a
  k0_off251_inb : ∀ k0_t1 : Fin k0_t1_loop.trips, ∀ a, (k0_off251 k0_t1) a + S1x1x16.size a ≤ S4x50x128.size a
  k0_off252_inb : ∀ k0_t1 : Fin k0_t1_loop.trips, ∀ a, (k0_off252 k0_t1) a + S1x1x16.size a ≤ S4x50x128.size a
  k0_off253_inb : ∀ k0_t1 : Fin k0_t1_loop.trips, ∀ a, (k0_off253 k0_t1) a + S1x1x16.size a ≤ S4x50x128.size a
  k0_off254_inb : ∀ k0_t1 : Fin k0_t1_loop.trips, ∀ a, (k0_off254 k0_t1) a + S1x1x16.size a ≤ S4x50x128.size a
  k0_off255_inb : ∀ k0_t1 : Fin k0_t1_loop.trips, ∀ a, (k0_off255 k0_t1) a + S1x1x16.size a ≤ S4x50x128.size a
  k0_off256_inb : ∀ k0_t1 : Fin k0_t1_loop.trips, ∀ a, (k0_off256 k0_t1) a + S1x1x16.size a ≤ S4x50x128.size a
  k0_off257_inb : ∀ k0_t1 : Fin k0_t1_loop.trips, ∀ a, (k0_off257 k0_t1) a + S1x1x16.size a ≤ S4x50x128.size a
  k0_off258_inb : ∀ k0_t1 : Fin k0_t1_loop.trips, ∀ a, (k0_off258 k0_t1) a + S1x1x16.size a ≤ S4x50x128.size a
  k0_off259_inb : ∀ k0_t1 : Fin k0_t1_loop.trips, ∀ a, (k0_off259 k0_t1) a + S1x1x16.size a ≤ S4x50x128.size a
  k0_off260_inb : ∀ k0_t1 : Fin k0_t1_loop.trips, ∀ a, (k0_off260 k0_t1) a + S1x1x16.size a ≤ S4x50x128.size a
  k0_off261_inb : ∀ k0_t1 : Fin k0_t1_loop.trips, ∀ a, (k0_off261 k0_t1) a + S1x1x16.size a ≤ S4x50x128.size a
  k0_off262_inb : ∀ k0_t1 : Fin k0_t1_loop.trips, ∀ a, (k0_off262 k0_t1) a + S1x16.size a ≤ S32x128.size a
  k0_off263_inb : ∀ k0_t1 : Fin k0_t1_loop.trips, ∀ a, (k0_off263 k0_t1) a + S1x1x16.size a ≤ S4x50x128.size a
  k0_off264_inb : ∀ k0_t1 : Fin k0_t1_loop.trips, ∀ a, (k0_off264 k0_t1) a + S1x1x16.size a ≤ S4x50x128.size a
  k0_off265_inb : ∀ k0_t1 : Fin k0_t1_loop.trips, ∀ a, (k0_off265 k0_t1) a + S1x1x16.size a ≤ S4x50x128.size a
  k0_off266_inb : ∀ k0_t1 : Fin k0_t1_loop.trips, ∀ a, (k0_off266 k0_t1) a + S1x1x16.size a ≤ S4x50x128.size a
  k0_off267_inb : ∀ k0_t1 : Fin k0_t1_loop.trips, ∀ a, (k0_off267 k0_t1) a + S1x1x16.size a ≤ S4x50x128.size a
  k0_off268_inb : ∀ k0_t1 : Fin k0_t1_loop.trips, ∀ a, (k0_off268 k0_t1) a + S1x1x16.size a ≤ S4x50x128.size a
  k0_off269_inb : ∀ k0_t1 : Fin k0_t1_loop.trips, ∀ a, (k0_off269 k0_t1) a + S1x1x16.size a ≤ S4x50x128.size a
  k0_off270_inb : ∀ k0_t1 : Fin k0_t1_loop.trips, ∀ a, (k0_off270 k0_t1) a + S1x1x16.size a ≤ S4x50x128.size a
  k0_off271_inb : ∀ k0_t1 : Fin k0_t1_loop.trips, ∀ a, (k0_off271 k0_t1) a + S1x1x16.size a ≤ S4x50x128.size a
  k0_off272_inb : ∀ k0_t1 : Fin k0_t1_loop.trips, ∀ a, (k0_off272 k0_t1) a + S1x1x16.size a ≤ S4x50x128.size a
  k0_off273_inb : ∀ k0_t1 : Fin k0_t1_loop.trips, ∀ a, (k0_off273 k0_t1) a + S1x1x16.size a ≤ S4x50x128.size a
  k0_off274_inb : ∀ k0_t1 : Fin k0_t1_loop.trips, ∀ a, (k0_off274 k0_t1) a + S1x1x16.size a ≤ S4x50x128.size a
  k0_off275_inb : ∀ k0_t1 : Fin k0_t1_loop.trips, ∀ a, (k0_off275 k0_t1) a + S1x1x16.size a ≤ S4x50x128.size a
  k0_off276_inb : ∀ k0_t1 : Fin k0_t1_loop.trips, ∀ a, (k0_off276 k0_t1) a + S1x1x16.size a ≤ S4x50x128.size a
  k0_off277_inb : ∀ k0_t1 : Fin k0_t1_loop.trips, ∀ a, (k0_off277 k0_t1) a + S1x1x16.size a ≤ S4x50x128.size a
  k0_off278_inb : ∀ k0_t1 : Fin k0_t1_loop.trips, ∀ a, (k0_off278 k0_t1) a + S1x1x16.size a ≤ S4x50x128.size a
  k0_off279_inb : ∀ k0_t1 : Fin k0_t1_loop.trips, ∀ a, (k0_off279 k0_t1) a + S1x1x16.size a ≤ S4x50x128.size a
  k0_off280_inb : ∀ k0_t1 : Fin k0_t1_loop.trips, ∀ a, (k0_off280 k0_t1) a + S1x1x16.size a ≤ S4x50x128.size a
  k0_off281_inb : ∀ k0_t1 : Fin k0_t1_loop.trips, ∀ a, (k0_off281 k0_t1) a + S1x1x16.size a ≤ S4x50x128.size a
  k0_off282_inb : ∀ k0_t1 : Fin k0_t1_loop.trips, ∀ a, (k0_off282 k0_t1) a + S1x1x16.size a ≤ S4x50x128.size a
  k0_off283_inb : ∀ k0_t1 : Fin k0_t1_loop.trips, ∀ a, (k0_off283 k0_t1) a + S1x1x16.size a ≤ S4x50x128.size a
  k0_off284_inb : ∀ k0_t1 : Fin k0_t1_loop.trips, ∀ a, (k0_off284 k0_t1) a + S1x1x16.size a ≤ S4x50x128.size a
  k0_off285_inb : ∀ k0_t1 : Fin k0_t1_loop.trips, ∀ a, (k0_off285 k0_t1) a + S1x1x16.size a ≤ S4x50x128.size a
  k0_off286_inb : ∀ k0_t1 : Fin k0_t1_loop.trips, ∀ a, (k0_off286 k0_t1) a + S1x1x16.size a ≤ S4x50x128.size a
  k0_off287_inb : ∀ k0_t1 : Fin k0_t1_loop.trips, ∀ a, (k0_off287 k0_t1) a + S1x1x16.size a ≤ S4x50x128.size a
  k0_off288_inb : ∀ k0_t1 : Fin k0_t1_loop.trips, ∀ a, (k0_off288 k0_t1) a + S1x1x16.size a ≤ S4x50x128.size a
  k0_off289_inb : ∀ k0_t1 : Fin k0_t1_loop.trips, ∀ a, (k0_off289 k0_t1) a + S1x1x16.size a ≤ S4x50x128.size a
  k0_off290_inb : ∀ k0_t1 : Fin k0_t1_loop.trips, ∀ a, (k0_off290 k0_t1) a + S1x1x16.size a ≤ S4x50x128.size a
  k0_off291_inb : ∀ k0_t1 : Fin k0_t1_loop.trips, ∀ a, (k0_off291 k0_t1) a + S1x1x16.size a ≤ S4x50x128.size a
  k0_off292_inb : ∀ k0_t1 : Fin k0_t1_loop.trips, ∀ a, (k0_off292 k0_t1) a + S1x1x16.size a ≤ S4x50x128.size a
  k0_off293_inb : ∀ k0_t1 : Fin k0_t1_loop.trips, ∀ a, (k0_off293 k0_t1) a + S1x1x16.size a ≤ S4x50x128.size a
  k0_off294_inb : ∀ k0_t1 : Fin k0_t1_loop.trips, ∀ a, (k0_off294 k0_t1) a + S1x1x16.size a ≤ S4x50x128.size a
  k0_off295_inb : ∀ k0_t1 : Fin k0_t1_loop.trips, ∀ a, (k0_off295 k0_t1) a + S1x1x16.size a ≤ S4x50x128.size a
  k0_off296_inb : ∀ k0_t1 : Fin k0_t1_loop.trips, ∀ a, (k0_off296 k0_t1) a + S1x1x16.size a ≤ S4x50x128.size a
  k0_off297_inb : ∀ k0_t1 : Fin k0_t1_loop.trips, ∀ a, (k0_off297 k0_t1) a + S1x1x16.size a ≤ S4x50x128.size a
  k0_off298_inb : ∀ k0_t1 : Fin k0_t1_loop.trips, ∀ a, (k0_off298 k0_t1) a + S1x1x16.size a ≤ S4x50x128.size a
  k0_off299_inb : ∀ k0_t1 : Fin k0_t1_loop.trips, ∀ a, (k0_off299 k0_t1) a + S1x1x16.size a ≤ S4x50x128.size a
  k0_off300_inb : ∀ k0_t1 : Fin k0_t1_loop.trips, ∀ a, (k0_off300 k0_t1) a + S1x1x16.size a ≤ S4x50x128.size a
  k0_off301_inb : ∀ k0_t1 : Fin k0_t1_loop.trips, ∀ a, (k0_off301 k0_t1) a + S1x1x16.size a ≤ S4x50x128.size a
  k0_off302_inb : ∀ k0_t1 : Fin k0_t1_loop.trips, ∀ a, (k0_off302 k0_t1) a + S1x1x16.size a ≤ S4x50x128.size a
  k0_off303_inb : ∀ k0_t1 : Fin k0_t1_loop.trips, ∀ a, (k0_off303 k0_t1) a + S1x1x16.size a ≤ S4x50x128.size a
  k0_off304_inb : ∀ k0_t1 : Fin k0_t1_loop.trips, ∀ a, (k0_off304 k0_t1) a + S1x1x16.size a ≤ S4x50x128.size a
  k0_off305_inb : ∀ k0_t1 : Fin k0_t1_loop.trips, ∀ a, (k0_off305 k0_t1) a + S1x1x16.size a ≤ S4x50x128.size a
  k0_off306_inb : ∀ k0_t1 : Fin k0_t1_loop.trips, ∀ a, (k0_off306 k0_t1) a + S1x1x16.size a ≤ S4x50x128.size a
  k0_off307_inb : ∀ k0_t1 : Fin k0_t1_loop.trips, ∀ a, (k0_off307 k0_t1) a + S1x1x16.size a ≤ S4x50x128.size a
  k0_off308_inb : ∀ k0_t1 : Fin k0_t1_loop.trips, ∀ a, (k0_off308 k0_t1) a + S1x1x16.size a ≤ S4x50x128.size a
  k0_off309_inb : ∀ k0_t1 : Fin k0_t1_loop.trips, ∀ a, (k0_off309 k0_t1) a + S1x1x16.size a ≤ S4x50x128.size a
  k0_off310_inb : ∀ k0_t1 : Fin k0_t1_loop.trips, ∀ a, (k0_off310 k0_t1) a + S1x1x16.size a ≤ S4x50x128.size a
  k0_off311_inb : ∀ k0_t1 : Fin k0_t1_loop.trips, ∀ a, (k0_off311 k0_t1) a + S1x1x16.size a ≤ S4x50x128.size a
  k0_off312_inb : ∀ k0_t1 : Fin k0_t1_loop.trips, ∀ a, (k0_off312 k0_t1) a + S1x1x16.size a ≤ S4x50x128.size a
  k0_off313_inb : ∀ k0_t1 : Fin k0_t1_loop.trips, ∀ a, (k0_off313 k0_t1) a + S1x16.size a ≤ S32x128.size a
  k0_off314_inb : ∀ k0_t1 : Fin k0_t1_loop.trips, ∀ a, (k0_off314 k0_t1) a + S1x1x16.size a ≤ S4x50x128.size a
  k0_off315_inb : ∀ k0_t1 : Fin k0_t1_loop.trips, ∀ a, (k0_off315 k0_t1) a + S1x1x16.size a ≤ S4x50x128.size a
  k0_off316_inb : ∀ k0_t1 : Fin k0_t1_loop.trips, ∀ a, (k0_off316 k0_t1) a + S1x1x16.size a ≤ S4x50x128.size a
  k0_off317_inb : ∀ k0_t1 : Fin k0_t1_loop.trips, ∀ a, (k0_off317 k0_t1) a + S1x1x16.size a ≤ S4x50x128.size a
  k0_off318_inb : ∀ k0_t1 : Fin k0_t1_loop.trips, ∀ a, (k0_off318 k0_t1) a + S1x1x16.size a ≤ S4x50x128.size a
  k0_off319_inb : ∀ k0_t1 : Fin k0_t1_loop.trips, ∀ a, (k0_off319 k0_t1) a + S1x1x16.size a ≤ S4x50x128.size a
  k0_off320_inb : ∀ k0_t1 : Fin k0_t1_loop.trips, ∀ a, (k0_off320 k0_t1) a + S1x1x16.size a ≤ S4x50x128.size a
  k0_off321_inb : ∀ k0_t1 : Fin k0_t1_loop.trips, ∀ a, (k0_off321 k0_t1) a + S1x1x16.size a ≤ S4x50x128.size a
  k0_off322_inb : ∀ k0_t1 : Fin k0_t1_loop.trips, ∀ a, (k0_off322 k0_t1) a + S1x1x16.size a ≤ S4x50x128.size a
  k0_off323_inb : ∀ k0_t1 : Fin k0_t1_loop.trips, ∀ a, (k0_off323 k0_t1) a + S1x1x16.size a ≤ S4x50x128.size a
  k0_off324_inb : ∀ k0_t1 : Fin k0_t1_loop.trips, ∀ a, (k0_off324 k0_t1) a + S1x1x16.size a ≤ S4x50x128.size a
  k0_off325_inb : ∀ k0_t1 : Fin k0_t1_loop.trips, ∀ a, (k0_off325 k0_t1) a + S1x1x16.size a ≤ S4x50x128.size a
  k0_off326_inb : ∀ k0_t1 : Fin k0_t1_loop.trips, ∀ a, (k0_off326 k0_t1) a + S1x1x16.size a ≤ S4x50x128.size a
  k0_off327_inb : ∀ k0_t1 : Fin k0_t1_loop.trips, ∀ a, (k0_off327 k0_t1) a + S1x1x16.size a ≤ S4x50x128.size a
  k0_off328_inb : ∀ k0_t1 : Fin k0_t1_loop.trips, ∀ a, (k0_off328 k0_t1) a + S1x1x16.size a ≤ S4x50x128.size a
  k0_off329_inb : ∀ k0_t1 : Fin k0_t1_loop.trips, ∀ a, (k0_off329 k0_t1) a + S1x1x16.size a ≤ S4x50x128.size a
  k0_off330_inb : ∀ k0_t1 : Fin k0_t1_loop.trips, ∀ a, (k0_off330 k0_t1) a + S1x1x16.size a ≤ S4x50x128.size a
  k0_off331_inb : ∀ k0_t1 : Fin k0_t1_loop.trips, ∀ a, (k0_off331 k0_t1) a + S1x1x16.size a ≤ S4x50x128.size a
  k0_off332_inb : ∀ k0_t1 : Fin k0_t1_loop.trips, ∀ a, (k0_off332 k0_t1) a + S1x1x16.size a ≤ S4x50x128.size a
  k0_off333_inb : ∀ k0_t1 : Fin k0_t1_loop.trips, ∀ a, (k0_off333 k0_t1) a + S1x1x16.size a ≤ S4x50x128.size a
  k0_off334_inb : ∀ k0_t1 : Fin k0_t1_loop.trips, ∀ a, (k0_off334 k0_t1) a + S1x1x16.size a ≤ S4x50x128.size a
  k0_off335_inb : ∀ k0_t1 : Fin k0_t1_loop.trips, ∀ a, (k0_off335 k0_t1) a + S1x1x16.size a ≤ S4x50x128.size a
  k0_off336_inb : ∀ k0_t1 : Fin k0_t1_loop.trips, ∀ a, (k0_off336 k0_t1) a + S1x1x16.size a ≤ S4x50x128.size a
  k0_off337_inb : ∀ k0_t1 : Fin k0_t1_loop.trips, ∀ a, (k0_off337 k0_t1) a + S1x1x16.size a ≤ S4x50x128.size a
  k0_off338_inb : ∀ k0_t1 : Fin k0_t1_loop.trips, ∀ a, (k0_off338 k0_t1) a + S1x1x16.size a ≤ S4x50x128.size a
  k0_off339_inb : ∀ k0_t1 : Fin k0_t1_loop.trips, ∀ a, (k0_off339 k0_t1) a + S1x1x16.size a ≤ S4x50x128.size a
  k0_off340_inb : ∀ k0_t1 : Fin k0_t1_loop.trips, ∀ a, (k0_off340 k0_t1) a + S1x1x16.size a ≤ S4x50x128.size a
  k0_off341_inb : ∀ k0_t1 : Fin k0_t1_loop.trips, ∀ a, (k0_off341 k0_t1) a + S1x1x16.size a ≤ S4x50x128.size a
  k0_off342_inb : ∀ k0_t1 : Fin k0_t1_loop.trips, ∀ a, (k0_off342 k0_t1) a + S1x1x16.size a ≤ S4x50x128.size a
  k0_off343_inb : ∀ k0_t1 : Fin k0_t1_loop.trips, ∀ a, (k0_off343 k0_t1) a + S1x1x16.size a ≤ S4x50x128.size a
  k0_off344_inb : ∀ k0_t1 : Fin k0_t1_loop.trips, ∀ a, (k0_off344 k0_t1) a + S1x1x16.size a ≤ S4x50x128.size a
  k0_off345_inb : ∀ k0_t1 : Fin k0_t1_loop.trips, ∀ a, (k0_off345 k0_t1) a + S1x1x16.size a ≤ S4x50x128.size a
  k0_off346_inb : ∀ k0_t1 : Fin k0_t1_loop.trips, ∀ a, (k0_off346 k0_t1) a + S1x1x16.size a ≤ S4x50x128.size a
  k0_off347_inb : ∀ k0_t1 : Fin k0_t1_loop.trips, ∀ a, (k0_off347 k0_t1) a + S1x1x16.size a ≤ S4x50x128.size a
  k0_off348_inb : ∀ k0_t1 : Fin k0_t1_loop.trips, ∀ a, (k0_off348 k0_t1) a + S1x1x16.size a ≤ S4x50x128.size a
  k0_off349_inb : ∀ k0_t1 : Fin k0_t1_loop.trips, ∀ a, (k0_off349 k0_t1) a + S1x1x16.size a ≤ S4x50x128.size a
  k0_off350_inb : ∀ k0_t1 : Fin k0_t1_loop.trips, ∀ a, (k0_off350 k0_t1) a + S1x1x16.size a ≤ S4x50x128.size a
  k0_off351_inb : ∀ k0_t1 : Fin k0_t1_loop.trips, ∀ a, (k0_off351 k0_t1) a + S1x1x16.size a ≤ S4x50x128.size a
  k0_off352_inb : ∀ k0_t1 : Fin k0_t1_loop.trips, ∀ a, (k0_off352 k0_t1) a + S1x1x16.size a ≤ S4x50x128.size a
  k0_off353_inb : ∀ k0_t1 : Fin k0_t1_loop.trips, ∀ a, (k0_off353 k0_t1) a + S1x1x16.size a ≤ S4x50x128.size a
  k0_off354_inb : ∀ k0_t1 : Fin k0_t1_loop.trips, ∀ a, (k0_off354 k0_t1) a + S1x1x16.size a ≤ S4x50x128.size a
  k0_off355_inb : ∀ k0_t1 : Fin k0_t1_loop.trips, ∀ a, (k0_off355 k0_t1) a + S1x1x16.size a ≤ S4x50x128.size a
  k0_off356_inb : ∀ k0_t1 : Fin k0_t1_loop.trips, ∀ a, (k0_off356 k0_t1) a + S1x1x16.size a ≤ S4x50x128.size a
  k0_off357_inb : ∀ k0_t1 : Fin k0_t1_loop.trips, ∀ a, (k0_off357 k0_t1) a + S1x1x16.size a ≤ S4x50x128.size a
  k0_off358_inb : ∀ k0_t1 : Fin k0_t1_loop.trips, ∀ a, (k0_off358 k0_t1) a + S1x1x16.size a ≤ S4x50x128.size a
  k0_off359_inb : ∀ k0_t1 : Fin k0_t1_loop.trips, ∀ a, (k0_off359 k0_t1) a + S1x1x16.size a ≤ S4x50x128.size a
  k0_off360_inb : ∀ k0_t1 : Fin k0_t1_loop.trips, ∀ a, (k0_off360 k0_t1) a + S1x1x16.size a ≤ S4x50x128.size a
  k0_off361_inb : ∀ k0_t1 : Fin k0_t1_loop.trips, ∀ a, (k0_off361 k0_t1) a + S1x1x16.size a ≤ S4x50x128.size a
  k0_off362_inb : ∀ k0_t1 : Fin k0_t1_loop.trips, ∀ a, (k0_off362 k0_t1) a + S1x1x16.size a ≤ S4x50x128.size a
  k0_off363_inb : ∀ k0_t1 : Fin k0_t1_loop.trips, ∀ a, (k0_off363 k0_t1) a + S1x1x16.size a ≤ S4x50x128.size a
  k0_off364_inb : ∀ k0_t1 : Fin k0_t1_loop.trips, ∀ a, (k0_off364 k0_t1) a + S1x16.size a ≤ S32x128.size a
  k0_off365_inb : ∀ k0_t1 : Fin k0_t1_loop.trips, ∀ a, (k0_off365 k0_t1) a + S1x1x16.size a ≤ S4x50x128.size a
  k0_off366_inb : ∀ k0_t1 : Fin k0_t1_loop.trips, ∀ a, (k0_off366 k0_t1) a + S1x1x16.size a ≤ S4x50x128.size a
  k0_off367_inb : ∀ k0_t1 : Fin k0_t1_loop.trips, ∀ a, (k0_off367 k0_t1) a + S1x1x16.size a ≤ S4x50x128.size a
  k0_off368_inb : ∀ k0_t1 : Fin k0_t1_loop.trips, ∀ a, (k0_off368 k0_t1) a + S1x1x16.size a ≤ S4x50x128.size a
  k0_off369_inb : ∀ k0_t1 : Fin k0_t1_loop.trips, ∀ a, (k0_off369 k0_t1) a + S1x1x16.size a ≤ S4x50x128.size a
  k0_off370_inb : ∀ k0_t1 : Fin k0_t1_loop.trips, ∀ a, (k0_off370 k0_t1) a + S1x1x16.size a ≤ S4x50x128.size a
  k0_off371_inb : ∀ k0_t1 : Fin k0_t1_loop.trips, ∀ a, (k0_off371 k0_t1) a + S1x1x16.size a ≤ S4x50x128.size a
  k0_off372_inb : ∀ k0_t1 : Fin k0_t1_loop.trips, ∀ a, (k0_off372 k0_t1) a + S1x1x16.size a ≤ S4x50x128.size a
  k0_off373_inb : ∀ k0_t1 : Fin k0_t1_loop.trips, ∀ a, (k0_off373 k0_t1) a + S1x1x16.size a ≤ S4x50x128.size a
  k0_off374_inb : ∀ k0_t1 : Fin k0_t1_loop.trips, ∀ a, (k0_off374 k0_t1) a + S1x1x16.size a ≤ S4x50x128.size a
  k0_off375_inb : ∀ k0_t1 : Fin k0_t1_loop.trips, ∀ a, (k0_off375 k0_t1) a + S1x1x16.size a ≤ S4x50x128.size a
  k0_off376_inb : ∀ k0_t1 : Fin k0_t1_loop.trips, ∀ a, (k0_off376 k0_t1) a + S1x1x16.size a ≤ S4x50x128.size a
  k0_off377_inb : ∀ k0_t1 : Fin k0_t1_loop.trips, ∀ a, (k0_off377 k0_t1) a + S1x1x16.size a ≤ S4x50x128.size a
  k0_off378_inb : ∀ k0_t1 : Fin k0_t1_loop.trips, ∀ a, (k0_off378 k0_t1) a + S1x1x16.size a ≤ S4x50x128.size a
  k0_off379_inb : ∀ k0_t1 : Fin k0_t1_loop.trips, ∀ a, (k0_off379 k0_t1) a + S1x1x16.size a ≤ S4x50x128.size a
  k0_off380_inb : ∀ k0_t1 : Fin k0_t1_loop.trips, ∀ a, (k0_off380 k0_t1) a + S1x1x16.size a ≤ S4x50x128.size a
  k0_off381_inb : ∀ k0_t1 : Fin k0_t1_loop.trips, ∀ a, (k0_off381 k0_t1) a + S1x1x16.size a ≤ S4x50x128.size a
  k0_off382_inb : ∀ k0_t1 : Fin k0_t1_loop.trips, ∀ a, (k0_off382 k0_t1) a + S1x1x16.size a ≤ S4x50x128.size a
  k0_off383_inb : ∀ k0_t1 : Fin k0_t1_loop.trips, ∀ a, (k0_off383 k0_t1) a + S1x1x16.size a ≤ S4x50x128.size a
  k0_off384_inb : ∀ k0_t1 : Fin k0_t1_loop.trips, ∀ a, (k0_off384 k0_t1) a + S1x1x16.size a ≤ S4x50x128.size a
  k0_off385_inb : ∀ k0_t1 : Fin k0_t1_loop.trips, ∀ a, (k0_off385 k0_t1) a + S1x1x16.size a ≤ S4x50x128.size a
  k0_off386_inb : ∀ k0_t1 : Fin k0_t1_loop.trips, ∀ a, (k0_off386 k0_t1) a + S1x1x16.size a ≤ S4x50x128.size a
  k0_off387_inb : ∀ k0_t1 : Fin k0_t1_loop.trips, ∀ a, (k0_off387 k0_t1) a + S1x1x16.size a ≤ S4x50x128.size a
  k0_off388_inb : ∀ k0_t1 : Fin k0_t1_loop.trips, ∀ a, (k0_off388 k0_t1) a + S1x1x16.size a ≤ S4x50x128.size a
  k0_off389_inb : ∀ k0_t1 : Fin k0_t1_loop.trips, ∀ a, (k0_off389 k0_t1) a + S1x1x16.size a ≤ S4x50x128.size a
  k0_off390_inb : ∀ k0_t1 : Fin k0_t1_loop.trips, ∀ a, (k0_off390 k0_t1) a + S1x1x16.size a ≤ S4x50x128.size a
  k0_off391_inb : ∀ k0_t1 : Fin k0_t1_loop.trips, ∀ a, (k0_off391 k0_t1) a + S1x1x16.size a ≤ S4x50x128.size a
  k0_off392_inb : ∀ k0_t1 : Fin k0_t1_loop.trips, ∀ a, (k0_off392 k0_t1) a + S1x1x16.size a ≤ S4x50x128.size a
  k0_off393_inb : ∀ k0_t1 : Fin k0_t1_loop.trips, ∀ a, (k0_off393 k0_t1) a + S1x1x16.size a ≤ S4x50x128.size a
  k0_off394_inb : ∀ k0_t1 : Fin k0_t1_loop.trips, ∀ a, (k0_off394 k0_t1) a + S1x1x16.size a ≤ S4x50x128.size a
  k0_off395_inb : ∀ k0_t1 : Fin k0_t1_loop.trips, ∀ a, (k0_off395 k0_t1) a + S1x1x16.size a ≤ S4x50x128.size a
  k0_off396_inb : ∀ k0_t1 : Fin k0_t1_loop.trips, ∀ a, (k0_off396 k0_t1) a + S1x1x16.size a ≤ S4x50x128.size a
  k0_off397_inb : ∀ k0_t1 : Fin k0_t1_loop.trips, ∀ a, (k0_off397 k0_t1) a + S1x1x16.size a ≤ S4x50x128.size a
  k0_off398_inb : ∀ k0_t1 : Fin k0_t1_loop.trips, ∀ a, (k0_off398 k0_t1) a + S1x1x16.size a ≤ S4x50x128.size a
  k0_off399_inb : ∀ k0_t1 : Fin k0_t1_loop.trips, ∀ a, (k0_off399 k0_t1) a + S1x1x16.size a ≤ S4x50x128.size a
  k0_off400_inb : ∀ k0_t1 : Fin k0_t1_loop.trips, ∀ a, (k0_off400 k0_t1) a + S1x1x16.size a ≤ S4x50x128.size a
  k0_off401_inb : ∀ k0_t1 : Fin k0_t1_loop.trips, ∀ a, (k0_off401 k0_t1) a + S1x1x16.size a ≤ S4x50x128.size a
  k0_off402_inb : ∀ k0_t1 : Fin k0_t1_loop.trips, ∀ a, (k0_off402 k0_t1) a + S1x1x16.size a ≤ S4x50x128.size a
  k0_off403_inb : ∀ k0_t1 : Fin k0_t1_loop.trips, ∀ a, (k0_off403 k0_t1) a + S1x1x16.size a ≤ S4x50x128.size a
  k0_off404_inb : ∀ k0_t1 : Fin k0_t1_loop.trips, ∀ a, (k0_off404 k0_t1) a + S1x1x16.size a ≤ S4x50x128.size a
  k0_off405_inb : ∀ k0_t1 : Fin k0_t1_loop.trips, ∀ a, (k0_off405 k0_t1) a + S1x1x16.size a ≤ S4x50x128.size a
  k0_off406_inb : ∀ k0_t1 : Fin k0_t1_loop.trips, ∀ a, (k0_off406 k0_t1) a + S1x1x16.size a ≤ S4x50x128.size a
  k0_off407_inb : ∀ k0_t1 : Fin k0_t1_loop.trips, ∀ a, (k0_off407 k0_t1) a + S1x1x16.size a ≤ S4x50x128.size a
  k0_off408_inb : ∀ k0_t1 : Fin k0_t1_loop.trips, ∀ a, (k0_off408 k0_t1) a + S1x1x16.size a ≤ S4x50x128.size a
  k0_off409_inb : ∀ k0_t1 : Fin k0_t1_loop.trips, ∀ a, (k0_off409 k0_t1) a + S1x1x16.size a ≤ S4x50x128.size a
  k0_off410_inb : ∀ k0_t1 : Fin k0_t1_loop.trips, ∀ a, (k0_off410 k0_t1) a + S1x1x16.size a ≤ S4x50x128.size a
  k0_off411_inb : ∀ k0_t1 : Fin k0_t1_loop.trips, ∀ a, (k0_off411 k0_t1) a + S1x1x16.size a ≤ S4x50x128.size a
  k0_off412_inb : ∀ k0_t1 : Fin k0_t1_loop.trips, ∀ a, (k0_off412 k0_t1) a + S1x1x16.size a ≤ S4x50x128.size a
  k0_off413_inb : ∀ k0_t1 : Fin k0_t1_loop.trips, ∀ a, (k0_off413 k0_t1) a + S1x1x16.size a ≤ S4x50x128.size a
  k0_off414_inb : ∀ k0_t1 : Fin k0_t1_loop.trips, ∀ a, (k0_off414 k0_t1) a + S1x1x16.size a ≤ S4x50x128.size a
  k0_off415_inb : ∀ k0_t1 : Fin k0_t1_loop.trips, ∀ a, (k0_off415 k0_t1) a + S1x16.size a ≤ S32x128.size a
  k0_off416_inb : ∀ i : grid0.Coords, ∀ a, (k0_off416 i) a + S32x128.size a ≤ S1024x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x5000.size a ≤ S20x1x5000.size a
  hwx1_2 : ∀ i : grid1.Coords, EltTy.bits .f32 = 32 ∨ (Rect.block (s := S20x1x5000) S1x1x5000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1024.size a ≤ S100000x1024.size a
  hwx1_3 : ∀ i : grid1.Coords, EltTy.bits .f32 = 32 ∨ (Rect.block (s := S100000x1024) S5000x1024.size (cc1_transform_3 i) (hinb1_3 i)).WholeWords (EltTy.packing .f32)

variable [Facts₀]

abbrev cc0_scratch3 : DmaSems sig S4 := SemArray.consecutive 0 S4 hcc0_scratch3
abbrev cc0_scoped0 : DmaSems sig S_ := SemArray.consecutive 4 S_ hcc0_scoped0
abbrev cc0_scoped1 : DmaSems sig S_ := SemArray.consecutive 5 S_ hcc0_scoped1
def dot_S5000x128_S1024x128_S5000x1024_1_1_0_0_n_n : DotDims S5000x128 S1024x128 S5000x1024 where
  lhsContracting := [1]
  rhsContracting := [1]
  lhsNonContracting := [0]
  rhsNonContracting := [0]
  lhsBatch := []
  rhsBatch := []
  wf := dot_S5000x128_S1024x128_S5000x1024_1_1_0_0_n_n_wf

abbrev win1_0 : Pipeline.Window sig grid1 :=
  Pipeline.Window.ofSpec (Memref.whole main_v1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x5000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x50 : Shape := ⟨2, ![1024, 50]⟩
abbrev S100000x128 : Shape := ⟨2, ![100000, 128]⟩
abbrev S128x100000 : Shape := ⟨2, ![128, 100000]⟩
abbrev S100000 : Shape := ⟨1, ![100000]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x128 : Shape := ⟨3, ![1024, 50, 128]⟩
abbrev S1024x128 : Shape := ⟨2, ![1024, 128]⟩
abbrev S1024x100000 : Shape := ⟨2, ![1024, 100000]⟩
abbrev S1x100000 : Shape := ⟨2, ![1, 100000]⟩

abbrev nBuf : Space → Nat
  | .hbm => 36
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S100000x128, .f32⟩
  | .hbm, ⟨2, _⟩ => ⟨S128x100000, .f32⟩
  | .hbm, ⟨3, _⟩ => ⟨S100000, .f32⟩
  | .hbm, ⟨4, _⟩ => ⟨S_, .i32⟩
  | .hbm, ⟨5, _⟩ => ⟨S1024x50, .i32⟩
  | .hbm, ⟨6, _⟩ => ⟨S1024x50, .i1⟩
  | .hbm, ⟨7, _⟩ => ⟨S_, .i32⟩
  | .hbm, ⟨8, _⟩ => ⟨S1024x50, .i32⟩
  | .hbm, ⟨9, _⟩ => ⟨S1024x50, .i32⟩
  | .hbm, ⟨10, _⟩ => ⟨S1024x50, .i32⟩
  | .hbm, ⟨11, _⟩ => ⟨S1024x50x1, .i32⟩
  | .hbm, ⟨12, _⟩ => ⟨S1, .i32⟩
  | .hbm, ⟨13, _⟩ => ⟨S_, .i32⟩
  | .hbm, ⟨14, _⟩ => ⟨S1024x50x1, .i32⟩
  | .hbm, ⟨15, _⟩ => ⟨S1024x50x1, .i1⟩
  | .hbm, ⟨16, _⟩ => ⟨S1x1x1, .i32⟩
  | .hbm, ⟨17, _⟩ => ⟨S1024x50x1, .i32⟩
  | .hbm, ⟨18, _⟩ => ⟨S1024x50x1, .i1⟩
  | .hbm, ⟨19, _⟩ => ⟨S1024x50x1, .i1⟩
  | .hbm, ⟨20, _⟩ => ⟨S_, .i1⟩
  | .hbm, ⟨21, _⟩ => ⟨S1024x50, .i1⟩
  | .hbm, ⟨22, _⟩ => ⟨S1024x50x128, .f32⟩
  | .hbm, ⟨23, _⟩ => ⟨S1024x50x128, .i1⟩
  | .hbm, ⟨24, _⟩ => ⟨S_, .f32⟩
  | .hbm, ⟨25, _⟩ => ⟨S1024x50x128, .f32⟩
  | .hbm, ⟨26, _⟩ => ⟨S1024x50x128, .f32⟩
  | .hbm, ⟨27, _⟩ => ⟨S_, .f32⟩
  | .hbm, ⟨28, _⟩ => ⟨S1024x128, .f32⟩
  | .hbm, ⟨29, _⟩ => ⟨S_, .f32⟩
  | .hbm, ⟨30, _⟩ => ⟨S1024x128, .f32⟩
  | .hbm, ⟨31, _⟩ => ⟨S1024x128, .f32⟩
  | .hbm, ⟨32, _⟩ => ⟨S1024x100000, .f32⟩
  | .hbm, ⟨33, _⟩ => ⟨S1x100000, .f32⟩
  | .hbm, ⟨34, _⟩ => ⟨S1024x100000, .f32⟩
  | .hbm, ⟨35, _⟩ => ⟨S1024x100000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩

abbrev nD : Nat := 1
abbrev τ : Topo := Topo.v7x

variable {F : FTy → Type} [FloatOps F]

class Facts₀ : Prop where
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S_S1024x50x1 : S_.BroadcastsInDim S1024x50x1 (![] : Fin 0 → Fin S1024x50x1.rank)
  bcast_S1_S1x1x1_2 : S1.BroadcastsInDim S1x1x1 (![2] : Fin 1 → Fin S1x1x1.rank)
  bcast_S1x1x1_S1024x50x1_0_1_2 : S1x1x1.BroadcastsInDim S1024x50x1 (![0, 1, 2] : Fin 3 → Fin S1024x50x1.rank)
  reducesTo_S1024x50x1_S1024x50_d2 : S1024x50x1.ReducesTo [2] S1024x50
  h_S_ : 0 < S_.numel
  bcast_S1024x50_S1024x50x128_0_1 : S1024x50.BroadcastsInDim S1024x50x128 (![0, 1] : Fin 2 → Fin S1024x50x128.rank)
  bcast_S_S1024x50x128 : S_.BroadcastsInDim S1024x50x128 (![] : Fin 0 → Fin S1024x50x128.rank)
  reducesTo_S1024x50x128_S1024x128_d1 : S1024x50x128.ReducesTo [1] S1024x128
  bcast_S_S1024x128 : S_.BroadcastsInDim S1024x128 (![] : Fin 0 → Fin S1024x128.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x128_S1024x50x1_S1024x50x128_2_0_n_n_0_2_1128_wf : GatherDims.WF S100000x128 S1024x50x1 S1024x50x128 [2] [0] [] [0] [] 2 ![1, 128]
  dot_S1024x128_S128x100000_S1024x100000_1_0_0_1_n_n_wf : DotDims.WF S1024x128 S128x100000 S1024x100000 [1] [0] [0] [1] [] []

variable [Facts₀]

def gather_S100000x128_S1024x50x1_S1024x50x128_2_0_n_n_0_2_1128 : GatherDims S100000x128 S1024x50x1 S1024x50x128 where
  offsetDims := [2]
  collapsedSliceDims := [0]
  operandBatchingDims := []
  startIndicesBatchingDims := []
  startIndexMap := [0]
  indexVectorDim := 2
  sliceSizes := ![1, 128]
  wf := gather_S100000x128_S1024x50x1_S1024x50x128_2_0_n_n_0_2_1128_wf
def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf

class Facts : Prop extends Facts₀ where

variable [Facts]
-- ==== Proof.ScCommon.lean ====
/-
  The vocabulary shared by the body obligation of the pooling kernel and its launch: the program as the launch theorem
  names it, the three arrays the kernel touches (the index array, the embedding table, the pooled output), how they
  split among the 32 vector subcores — subcore `(c, s)` has worker number `2 s + c` and owns rows
  `[32 w, 32 w + 32)` of the indices and of the output, and a 32nd share of the whole table —, the pooled array as
  the kernel computes it (for every float instance: the fifty looked-up rows summed left to right, times the named
  constant), and what one subcore takes (`goA`) and brings back (`tdA`).
-/
import proofs.«204135_g55705725829175_cont_9to1c4b_393_20_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«204135_g55705725829175_cont_9to1c4b_393_20_alg».proof.Proof.Gen.KernelIdeal
import proofs.«204135_g55705725829175_cont_9to1c4b_393_20_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: any resource algebra that holds the transfers' counters -/

variable {UU : Type} [URA UU] [CountersIn UU]

local notation "𝕄" => MT nD τ sig (HIx 1) (Elt F) ℕ UU ℕ

/-! ## The launch memory and the three arrays -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- What the proof asks of the launch memory: every word of the index array names a row of the table. -/
def IdxOK : Prop := ∀ (d : Dev nD) (j : S1024x50.Idx), (m (iLoc d) j).toNat < 100000

/-! ## Rows by worker -/

theorem idiv : 32 ∣ S1024x50.size 0 := ⟨32, rfl⟩
theorem odiv : 32 ∣ S1024x128.size 0 := ⟨32, rfl⟩
abbrev irow (w : Fin 32) : Rect S1024x50 := Rect.part (s := S1024x50) (a₀ := 0) idiv w
abbrev orow (w : Fin 32) : Rect S1024x128 := Rect.part (s := S1024x128) (a₀ := 0) odiv w
abbrev iRowSet (w : Fin 32) : Finset S1024x50.Idx := ((Memref.whole main_arg0_scv : Memref sig .scVector .hbm S1024x50 .i32).view.slice (irow w)).set
abbrev oRowSet (w : Fin 32) : Finset S1024x128.Idx := ((Memref.whole main_v0_scv : Memref sig .scVector .hbm S1024x128 .f32).view.slice (orow w)).set

theorem bound_zero : grid0.bound 0 = 2 := rfl
theorem bound_one : grid0.bound 1 = 16 := rfl
/-- The worker number of the subcore at coordinates `L`: `2 s + c`. -/
def wid (L : grid0.Coords) : Fin 32 := ⟨2 * (L 1).val + (L 0).val, by
  have h0 : (L 0).val < 2 := (L 0).isLt
  have h1 : (L 1).val < 16 := (L 1).isLt
  omega⟩
abbrev cV (L : grid0.Coords) : Fin τ.nSC := (L 0).castLE hcore0
abbrev jV (L : grid0.Coords) : Fin τ.nSub := (L 1).castLE hsub0

/-! ## Shares of the table: the full share halved five times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Worker `w`'s share of the table. -/
abbrev xq (w : Fin 32) : PosShare TreeShare := leaf 5 fullShare w

/-! ## The pooled array as the kernel computes it, for every float instance -/

section Pool
variable [FloatOps F] [Named F]

/-- Row `n` of the table at column `e` (the row number taken below the table's extent; under `IdxOK` it is). -/
def rowF (emb : FVec F S100000x128 .f32) (n : Nat) (e : Fin 128) : F .f32 :=
  emb (ix2 (⟨n % 100000, Nat.mod_lt _ (by norm_num)⟩ : Fin 100000) e)

/-- The running sum `E 0 + E 1 + … + E n`, associated to the left. -/
def accF (E : Nat → F .f32) : Nat → F .f32
  | 0 => E 0
  | n + 1 => FloatOps.addf (accF E n) (E (n + 1))

/-- One entry of the pooled array: the fifty looked-up rows of batch row `b` summed left to right at column `e`,
    times the named constant. -/
def poolAtF (idx : IVec S1024x50 32) (emb : FVec F S100000x128 .f32) (b : Fin 1024) (e : Fin 128) : F .f32 :=
  FloatOps.mulf (accF (fun c => rowF emb (idx (ix2 b (⟨c % 50, Nat.mod_lt _ (by norm_num)⟩ : Fin 50))).toNat e) 49)
    (Named.named κ "inv_50" (φ := .f32) 0x3CA3D70A#32)

/-- The pooled array over the launch memory. -/
def poolF (d : Dev nD) : Buf (Elt F) (oLoc d) :=
  fun j => poolAtF (m (iLoc d)) (m (xLoc d)) ⟨(j 0).val, idx2_lt0 j⟩ ⟨(j 1).val, idx2_lt1 j⟩

end Pool

/-! ## What one subcore takes and brings back -/

abbrev iRowPts (d : Dev nD) (w : Fin 32) : sProp 𝕄 := iLoc d ↦[iRowSet w]{fullShare} m (iLoc d)
abbrev xShPts (d : Dev nD) (w : Fin 32) : sProp 𝕄 := xLoc d ↦{xq w} m (xLoc d)
abbrev oRowPts (d : Dev nD) (w : Fin 32) (f : Buf (Elt F) (oLoc d)) : sProp 𝕄 := oLoc d ↦[oRowSet w]{fullShare} f

/-- What worker `w` is handed: its rows of the indices, its share of the table, its rows of the output as launched. -/
abbrev goA (d : Dev nD) (w : Fin 32) : sProp 𝕄 := iprop(iRowPts m d w ∗ xShPts m d w ∗ oRowPts d w (m (oLoc d)))
/-- What worker `w` brings back: the same, its rows of the output at the pooled array. -/
abbrev tdA [FloatOps F] [Named F] (d : Dev nD) (w : Fin 32) : sProp 𝕄 := iprop(iRowPts m d w ∗ xShPts m d w ∗ oRowPts d w (poolF m d))

end Cert.Proof.KI

end
-- ==== Proof.ScRegion.lean ====
/-
  The dense projection as a pipelined kernel region: its proof data and body obligation. The region walks twenty blocks
  of 5000 vocabulary rows; at block `t` the body is handed block `t` of the transposed weights (5000 x 128), the
  whole pooled array (1024 x 128, fetched once) and block `t` of the bias (1 x 1 x 5000), and leaves in the output's
  staging buffer the product block plus the bias column — the body's one store, its payload the skeleton's. The data
  are stated over any contents `Ve` of the TensorCore's arrays at the region's entry.
-/
import proofs.«204135_g55705725829175_cont_9to1c4b_393_20_alg».proof.Proof.ScCommon
import proofs.«204135_g55705725829175_cont_9to1c4b_393_20_alg».proof.Proof.Gen.KernelIdeal.Launch
import proofs.«204135_g55705725829175_cont_9to1c4b_393_20_alg».proof.Proof.Gen.KernelIdeal.Points
import Idealize.ShloMosaic.Lib.Pipeline.FrameBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ) (ρ : Dev nD → PrngReg)

open Idealize.ShloMosaic.Pipeline (Dat BodyObligation)
open Idealize.ShloMosaic.TcCoe

variable [FloatOps F] [Named F]

section Region

variable (c : Dev nD) (Ve : (b : Ref sig .tc) → Buf (Elt F) ((c : Thread nD τ).loc b)) (R : Set (SemLoc sig × HIx 1))

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (Ve (Pipeline.arrRef spec1 w))

/-- An input window's current staging buffer holds its block at every point, fetched there or not (unfetched, the block
    index has not moved), for any proof data whose array is the entry contents and whose body leaves the block in place:
    the three input windows in turn. -/
theorem before_in_0_of (dat : Dat τ (Elt F) (HIx 1) ℕ UU ℕ cfg1 c) (hA : dat.A 0 = Ve (Pipeline.arrRef spec1 0))
    (hafter : ∀ t, dat.after 0 t = iblk c Ve 0 t) (t : Fin cfg1.N) (d) : dat.before 0 t d = iblk c Ve 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1_of (dat : Dat τ (Elt F) (HIx 1) ℕ UU ℕ cfg1 c) (hA : dat.A 1 = Ve (Pipeline.arrRef spec1 1))
    (hafter : ∀ t, dat.after 1 t = iblk c Ve 1 t) (t : Fin cfg1.N) (d) : dat.before 1 t d = iblk c Ve 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2_of (dat : Dat τ (Elt F) (HIx 1) ℕ UU ℕ cfg1 c) (hA : dat.A 2 = Ve (Pipeline.arrRef spec1 2))
    (hafter : ∀ t, dat.after 2 t = iblk c Ve 2 t) (t : Fin cfg1.N) (d) : dat.before 2 t d = iblk c Ve 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev r1_0 : Rect S5000x128 := Rect.unit (s := S5000x128) ![0, 0] S5000x128.size inb_S5000x128_S5000x128_0_0
abbrev r1_1 : Rect S1024x128 := Rect.unit (s := S1024x128) ![0, 0] S1024x128.size inb_S1024x128_S1024x128_0_0
abbrev r1_2 : Rect S1x1x5000 := Rect.unit (s := S1x1x5000) ![0, 0, 0] S1x1x5000.size inb_S1x1x5000_S1x1x5000_0_0_0
abbrev r1_3 : Rect S5000x1024 := Rect.unit (s := S5000x1024) ![0, 0] S5000x1024.size inb_S5000x1024_S5000x1024_0_0

/-- The output's staging buffer after the body, from the three input blocks: its one store as a piece. -/
def outBlk (x0 : Vec F S5000x128 .f32) (x1 : Vec F S1024x128 .f32) (x2 : Vec F S1x1x5000 .f32) : Vec F S5000x1024 .f32 :=
  View.canon [⟨r1_3, k1_pay1 (View.ld x0 r1_0) (View.ld x1 r1_1) (View.ld x2 r1_2)⟩]

omit [CountersIn UU] in
/-- The one store covers the buffer. -/
theorem cover_out (p0 : Vec F S5000x1024 .f32) (y : S5000x1024.Idx) :
    ∃ pc ∈ ([⟨r1_3, p0⟩] : List (View.Piece (Elt F) S5000x1024 .f32)), y ∈ pc.1.set :=
  View.cover_of_tiled [⟨r1_3, p0⟩] S5000x1024.size (by rfl) y

set_option maxHeartbeats 1000000 in
/-- The body on whole staging memrefs, the inputs' at read contents and the output's at anything, runs to the
    continuation holding the inputs' as they were and the output's at `outBlk` of them. -/
theorem sound_kernel (E : Set ℕ) (i : grid1.Coords) (arg1 : Memref sig .tc .vmem S5000x128 .f32) (harg1 : arg1.IsWhole) (arg2 : Memref sig .tc .vmem S1024x128 .f32) (harg2 : arg2.IsWhole)
    (arg3 : Memref sig .tc .vmem S1x1x5000 .f32) (harg3 : arg3.IsWhole) (arg4 : Memref sig .tc .vmem S5000x1024 .f32) (harg4 : arg4.IsWhole)
    (x0 : Vec F S5000x128 .f32) (x1 : Vec F S1024x128 .f32) (x2 : Vec F S1x1x5000 .f32) (Kc : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlk x0 x1 x2)) -∗ Kc ⟨⟩))
      ⊢ wp frame (wpE (defs₀ (F := F)) Variants.none c none) E (cc1__matmul_body i arg1 harg1 arg2 harg2 arg3 harg3 arg4 harg4) Kc := by
  simp only [cc1__matmul_body_eq_skeleton]; unfold cc1__matmul_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The region's proof data on core `c`: the arrays as the region finds them; after the body at point `t` each input's
    buffer at its block and the output's at `outBlk` of the three input blocks; no invariant; nothing owed; full shares;
    the waits recorded before the region within `R`. -/
def dat1 : Dat τ (Elt F) (HIx 1) ℕ UU ℕ cfg1 c where
  A w := Ve (Pipeline.arrRef spec1 w)
  after w t := match w with
    | ⟨0, _⟩ => iblk c Ve 0 t
    | ⟨1, _⟩ => iblk c Ve 1 t
    | ⟨2, _⟩ => iblk c Ve 2 t
    | ⟨3, _⟩ => outBlk (iblk c Ve 0 t) (iblk c Ve 1 t) (iblk c Ve 2 t)
  Φ _ := iprop(emp)
  q _ := fullShare
  owed _ := 0
  recorded _ := R

theorem A_eq (w : Fin cfg1.W) : (dat1 (UU := UU) c Ve R).A w = Ve (Pipeline.arrRef spec1 w) := by dsimp only [dat1]
theorem after_0 (t : Fin cfg1.N) : (dat1 (UU := UU) c Ve R).after 0 t = iblk c Ve 0 t := by dsimp only [dat1]
theorem after_1 (t : Fin cfg1.N) : (dat1 (UU := UU) c Ve R).after 1 t = iblk c Ve 1 t := by dsimp only [dat1]
theorem after_2 (t : Fin cfg1.N) : (dat1 (UU := UU) c Ve R).after 2 t = iblk c Ve 2 t := by dsimp only [dat1]
theorem after_3 (t : Fin cfg1.N) : (dat1 (UU := UU) c Ve R).after 3 t = outBlk (iblk c Ve 0 t) (iblk c Ve 1 t) (iblk c Ve 2 t) := by dsimp only [dat1]

theorem before_0 (t : Fin cfg1.N) (d) : (dat1 (UU := UU) c Ve R).before 0 t d = iblk c Ve 0 t :=
  before_in_0_of c Ve (dat1 (UU := UU) c Ve R) (A_eq c Ve R 0) (after_0 c Ve R) t d
theorem before_1 (t : Fin cfg1.N) (d) : (dat1 (UU := UU) c Ve R).before 1 t d = iblk c Ve 1 t :=
  before_in_1_of c Ve (dat1 (UU := UU) c Ve R) (A_eq c Ve R 1) (after_1 c Ve R) t d
theorem before_2 (t : Fin cfg1.N) (d) : (dat1 (UU := UU) c Ve R).before 2 t d = iblk c Ve 2 t :=
  before_in_2_of c Ve (dat1 (UU := UU) c Ve R) (A_eq c Ve R 2) (after_2 c Ve R) t d

/-! ## The body obligation, at a generic point -/

def bodyPre (ι : HIx 1) (t : Fin cfg1.N) : sProp 𝕄 :=
  iprop((dat1 (UU := UU) c Ve R).Φ t.castSucc ∗ (dat1 (UU := UU) c Ve R).owesAt ι t.castSucc
    ∗ (∃ d, owns (c : Thread nD τ) (st1_0 t) fullShare ((dat1 (UU := UU) c Ve R).before 0 t d))
    ∗ (∃ d, owns (c : Thread nD τ) (st1_1 t) fullShare ((dat1 (UU := UU) c Ve R).before 1 t d))
    ∗ (∃ d, owns (c : Thread nD τ) (st1_2 t) fullShare ((dat1 (UU := UU) c Ve R).before 2 t d))
    ∗ (∃ d, owns (c : Thread nD τ) (st1_3 t) fullShare ((dat1 (UU := UU) c Ve R).before 3 t d)))

def bodyPost (ι : HIx 1) (t : Fin cfg1.N) : sProp 𝕄 :=
  iprop((dat1 (UU := UU) c Ve R).Φ t.succ ∗ (dat1 (UU := UU) c Ve R).owesAt ι t.succ
    ∗ owns (c : Thread nD τ) (st1_0 t) fullShare ((dat1 (UU := UU) c Ve R).after 0 t)
    ∗ owns (c : Thread nD τ) (st1_1 t) fullShare ((dat1 (UU := UU) c Ve R).after 1 t)
    ∗ owns (c : Thread nD τ) (st1_2 t) fullShare ((dat1 (UU := UU) c Ve R).after 2 t)
    ∗ owns (c : Thread nD τ) (st1_3 t) fullShare ((dat1 (UU := UU) c Ve R).after 3 t))

theorem sound_body (ι : HIx 1) (t : Fin cfg1.N) :
    bodyPre (UU := UU) c Ve R ι t ⊢ wp frame (wpE (defs₀ (F := F)) Variants.none c none) Set.univ (bodyAt1 t) (fun _ => bodyPost (UU := UU) c Ve R ι t) := by
  unfold bodyPre bodyPost bodyAt1
  simp only [before_0, before_1, before_2]
  rw [show (dat1 (UU := UU) c Ve R).Φ t.succ = (dat1 (UU := UU) c Ve R).Φ t.castSucc from rfl,
    show (dat1 (UU := UU) c Ve R).owesAt ι t.succ = (dat1 (UU := UU) c Ve R).owesAt ι t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk c Ve 0 t) (iblk c Ve 1 t) (iblk c Ve 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (ι : HIx 1) : BodyObligation (dat1 (F := F) (UU := UU) c Ve R) (defs₀ (F := F)) Variants.none ι Set.univ := fun t => by
  rw [bigSep_W1, bigSep_W1]
  exact sound_body c Ve R ι t

end Region

end Cert.Proof.KI

end
-- ==== Proof.ScLaunch1.lean ====
/-
  The pooling kernel's call as the launch theorem takes it: what the handshakes carry (each SparseCore is handed, and
  hands back, exactly its sixteen subcores' parts), the body obligation in the launch theorem's spelling from the
  proof of one subcore's task, and the split of a SparseCore's operands among its subcores (the identity, by the
  choice of what a SparseCore is handed).
-/
import proofs.«204135_g55705725829175_cont_9to1c4b_393_20_alg».proof.Proof.ScCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ) (ρ : Dev nD → PrngReg)

variable [FloatOps F] [Named F]

/-- The worker number of subcore `i` of SparseCore `c` of the call's grid. -/
def widOf (c : Fin ((K (F := F)).nCore 0)) (i : Fin ((K (F := F)).nSub 0)) : Fin 32 := ⟨2 * i.val + c.val, by
  have h0 : c.val < 2 := c.isLt
  have h1 : i.val < 16 := i.isLt
  omega⟩

/-- The one call: a SparseCore takes its sixteen subcores' parts and brings them back, the output rows pooled. -/
def P : (K (F := F)).Pay (nD := nD) (Val := Elt F) (Name := ℕ) (U := UU) where
  st := fun q d c => match q with | 0 => bigSep Finset.univ fun i : Fin ((K (F := F)).nSub 0) => goA (UU := UU) m d (widOf c i)
  dn := fun q d c => match q with | 0 => bigSep Finset.univ fun i : Fin ((K (F := F)).nSub 0) => tdA (UU := UU) m d (widOf c i)
  go := fun q d c i => match q with | 0 => goA (UU := UU) m d (widOf c i)
  td := fun q d c i => match q with | 0 => tdA (UU := UU) m d (widOf c i)
  x := fun _ _ => iprop(emp)

instance P_storable : (P (F := F) (UU := UU) m).IsStorable where
  st q d c := match q with
    | 0 => (inferInstance : BI.Storable (upEmb : UEmb _ 𝕄) (bigSep Finset.univ fun i : Fin ((K (F := F)).nSub 0) => goA (UU := UU) m d (widOf c i)))
  dn q d c := match q with
    | 0 => (inferInstance : BI.Storable (upEmb : UEmb _ 𝕄) (bigSep Finset.univ fun i : Fin ((K (F := F)).nSub 0) => tdA (UU := UU) m d (widOf c i)))
  go q d c i := match q with
    | 0 => (inferInstance : BI.Storable (upEmb : UEmb _ 𝕄) (goA (UU := UU) m d (widOf c i)))
  td q d c i := match q with
    | 0 => (inferInstance : BI.Storable (upEmb : UEmb _ 𝕄) (tdA (UU := UU) m d (widOf c i)))

/-! ## The obligation -/

/-- What the proof of one subcore's task says (proved of the printed body in its own module). -/
def TileBody : Prop :=
  ∀ (hF : (K (F := F)).Facts) (hidx : IdxOK m) (d : Dev nD) (L : grid0.Coords) (O : CellTallies nD τ sig (HIx 1)) (W : Waits sig (HIx 1)) (hO : ∀ g, O g none = 0),
    iprop(levAts (K (F := F)).L (K (F := F)).lev ∗ emp ∗ goA (UU := UU) m d (wid L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_pool_body L (Memref.whole main_arg1_scv) (Memref.isWhole_whole _) (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) cc0_scratch3 cc0_scoped0 cc0_scoped1)
          fun _ => iprop(tdA (UU := UU) m d (wid L) ∗ scopedBufs (V d (cV L) (jV L)) ∗ scopedSems0 (V d (cV L) (jV L)) ∗ ∃ W', ⌜∀ p ∈ W', p ∈ W ∨ p.2 = none⌝ ∗ owes (V d (cV L) (jV L)) O W')

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_pool_body (coordsV c s)
          (Memref.whole main_arg1_scv) (Memref.isWhole_whole _) (Memref.whole main_arg0_scv) (Memref.isWhole_whole _) (Memref.whole main_v0_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1) ⟨⟩ c s := rfl

omit [FloatOps F] [Named F] [CountersIn UU] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hb : TileBody (UU := UU) m) (hF : (K (F := F)).Facts) (hidx : IdxOK m) :
    (K (F := F)).TileObl (D (F := F)) 𝒱 (P (UU := UU) m) v₀ 0 := by
  intro d c i O W hO _ _
  simp only [show (P (UU := UU) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hb hF hidx d (coordsV ⟨_, hci.1⟩ ⟨_, hci.2⟩) O W hO).trans (wp_mono frame _ _ fun _ => obl_post)

/-! ## The split: the identity -/

theorem vecSplit : (K (F := F)).VecSplit' (P (UU := UU) m) 0 := by
  intro d c
  show (bigSep Finset.univ fun i : Fin ((K (F := F)).nSub 0) => goA (UU := UU) m d (widOf c i)) ⊢ |={Set.univ}=> iprop(
      (bigSep Finset.univ fun i : Fin ((K (F := F)).nSub 0) => goA (UU := UU) m d (widOf c i))
      ∗ ((bigSep Finset.univ fun i : Fin ((K (F := F)).nSub 0) => tdA (UU := UU) m d (widOf c i))
          -∗ (bigSep Finset.univ fun i : Fin ((K (F := F)).nSub 0) => tdA (UU := UU) m d (widOf c i))))
  iintro H; imodintro
  isplitl [H]; · iexact H
  iintro H; iexact H

end Cert.Proof.KI

end
-- ==== Proof.ScLaunch2.lean ====
/-
  The launch's resource algebra — the handshakes' rounds, the pipeline's staging cells, the transfers' counters side by
  side — and the dense projection's kernel region as the region rule takes it: entered from the TensorCore's arrays at
  any contents `Ve` with the core owing nothing, left with the four windowed arrays at what the proof data computes
  and every other array untouched.
-/
import proofs.«204135_g55705725829175_cont_9to1c4b_393_20_alg».proof.Proof.ScRegion
import proofs.«204135_g55705725829175_cont_9to1c4b_393_20_alg».proof.Proof.ScLaunch1
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (m : (ℓ : Loc nD τ sig) → Buf (Elt F) ℓ) (ρ : Dev nD → PrngReg)

open Idealize.ShloMosaic.Pipeline (Dat BodyObligation cellOf)
open Idealize.ShloMosaic.TcCoe

/-! ## The resource algebra -/

abbrev UH : Type := URounds (GSem nD τ sig) ℕ
abbrev UP : Type := UR sig nD τ
abbrev UC : Type := UH × (UP × Counters)

local notation "𝕄" => MT nD τ sig (HIx 1) (Elt F) ℕ UC ℕ

abbrev EH : Emb UH (MT nD τ sig (HIx 1) (Elt F) ℕ UC ℕ) := embL
abbrev EP : Emb UP (MT nD τ sig (HIx 1) (Elt F) ℕ UC ℕ) := (Emb.inl : Emb UP (UP × Counters)).trans embR

instance EP_landsIn : (EP (F := F)).LandsIn (upEmb : UEmb _ (MT nD τ sig (HIx 1) (Elt F) ℕ UC ℕ)) := by
  unfold EP; infer_instance

variable [FloatOps F] [Named F]

/-! ## The region -/

abbrev adm : (p : Fin 1) → (pcfgs (F := F) p).Adm := fun p => (cfgs p).toPCfg_adm

section Reg

variable (Ve : (c : Dev nD) → (b : Ref sig .tc) → Buf (Elt F) ((c : Thread nD τ).loc b)) (W₀ : Waits sig (HIx 1))

def pdats : (p : Fin 1) → (c : Dev nD) → Dat τ (Elt F) (HIx 1) ℕ UC ℕ (Pipeline.pin (pcfgs (F := F)) adm p) c
  | 0 => fun c => dat1 (UU := UC) c (Ve c) {p | p ∈ W₀}

/-- The region: the TensorCore's arrays in, the core owing nothing with its recorded waits `W₀`; out, the windowed
    arrays at the proof data's final contents, what the core owes within `W₀` and the staging cells' pairs, and the
    arrays no window stages as they were. -/
def reg1 : Pipeline.RegionSeg (pcfgs (F := F)) adm (pdats Ve W₀) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (UU := UC) c (Ve c) {p | p ∈ W₀} none).loose
  hwaits c := Pipeline.cellsWaits_intro _ (pdats Ve W₀) none 0 c fun w s t => (K (F := F)).mayWait_none _ (fun _ => rfl)
  pre c := iprop(unscopedBufs c (Ve c) ∗ owes (c : Thread nD τ) (0 : CellTallies nD τ sig (HIx 1)) W₀)
  post c := iprop((pdats Ve W₀ 0 c).arrays ((pdats Ve W₀ 0 c).arrAt · (Pipeline.pin (pcfgs (F := F)) adm 0).N)
    ∗ (pdats Ve W₀ 0 c).owesAt none (Fin.last (Pipeline.pin (pcfgs (F := F)) adm 0).N)
    ∗ Pipeline.unscopedRest (Ix := HIx 1) (Name := ℕ) (U := UC) (Lvl := ℕ) spec1 c (Ve c))
  X _ := iprop(emp)
  Y _ := iprop(emp)
  Z c := Pipeline.unscopedRest (Ix := HIx 1) (Name := ℕ) (U := UC) (Lvl := ℕ) spec1 c (Ve c)
  hentry c := by
    rw [Pipeline.ownSems0_none]
    have hsplit := Pipeline.arrays_of_unscopedBufs (pcfgs (F := F)) adm (pdats Ve W₀) launch1.win launch1.arr_whole c
      ((pdats Ve W₀ 0 c).share_full fun _ => rfl) (Ve c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun _ h => Or.inl h
      iexact HO
    isplitr; · iempintro
    iexact Hr
  hin c := by iintro -; iempintro
  hout c := by
    rw [Pipeline.ownSems0_none, scopedRest1_eq]
    iintro -; isplitr; · iempintro
    isplitr <;> iempintro
  hexit c := by
    iintro ⟨Ha, HO, -, Hz⟩
    imodintro
    isplitl [Ha]; · iexact Ha
    isplitl [HO]; · iexact HO
    iexact Hz

end Reg

/-- The pipeline's ghost state on device `d`: its staging cells' rounds and duty tokens. -/
def Gd (d : Dev nD) : sProp 𝕄 :=
  iprop(Pipeline.cellsGhost (Pipeline.pin (pcfgs (F := F)) adm) EP 0 d ∗ Pipeline.toksInit (Pipeline.pin (pcfgs (F := F)) adm) EP 0 d)

end Cert.Proof.KI

end
-- ==== Proof.ScSplit.lean ====
/-
  How the three arrays of the pooling call split among the 32 workers and join again: the index array and the output by
  rows — worker `w` holds rows `[32 w, 32 w + 32)`, the blocks disjoint and covering the array —, the table by shares
  — the full share halved five times —, and the workers of the two SparseCores, sixteen each, are the 32 workers:
  `(c, i) ↦ 2 i + c` is a bijection.
-/
import proofs.«204135_g55705725829175_cont_9to1c4b_393_20_alg».proof.Proof.ScLaunch1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ) (ρ : Dev nD → PrngReg)

variable [FloatOps F] [Named F]

omit [FloatOps F] [Named F] [CountersIn UU] in
theorem iRowSet_eq (w : Fin 32) : iRowSet w = (irow w).set := by
  show ((View.whole (main_arg0_scv : Ref sig .scVector)).slice (irow w)).set = _
  rw [View.set_slice]; exact Finset.map_refl
omit [FloatOps F] [Named F] [CountersIn UU] in
theorem oRowSet_eq (w : Fin 32) : oRowSet w = (orow w).set := by
  show ((View.whole (main_v0_scv : Ref sig .scVector)).slice (orow w)).set = _
  rw [View.set_slice]; exact Finset.map_refl
omit [FloatOps F] [Named F] [CountersIn UU] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] [Named F] [CountersIn UU] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] [Named F] [CountersIn UU] in
theorem irows_cover : (Finset.univ : Finset (Fin 32)).biUnion iRowSet = Finset.univ :=
  (Finset.biUnion_congr rfl fun i _ => iRowSet_eq i).trans (Rect.biUnion_part idiv)
omit [FloatOps F] [Named F] [CountersIn UU] in
theorem orows_cover : (Finset.univ : Finset (Fin 32)).biUnion oRowSet = Finset.univ :=
  (Finset.biUnion_congr rfl fun i _ => oRowSet_eq i).trans (Rect.biUnion_part odiv)

omit [FloatOps F] [Named F] [CountersIn UU] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] [Named F] [CountersIn UU] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-! ## Shares -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit [FloatOps F] [Named F] [CountersIn UU] in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

omit [FloatOps F] [Named F] [CountersIn UU] in
theorem xPts_shares (d : Dev nD) (f : Buf (Elt F) (xLoc d)) :
    (xLoc d ↦{fullShare} f : sProp 𝕄) = bigSep Finset.univ fun w : Fin 32 => xLoc d ↦{xq w} f :=
  pointsTo_leaves Finset.univ f 5 fullShare

/-! ## The workers of the two SparseCores are the 32 workers -/

/-- `(c, i) ↦ 2 i + c`, with inverse `w ↦ (w mod 2, w div 2)`. -/
def widEquiv : Fin ((K (F := F)).nCore 0) × Fin ((K (F := F)).nSub 0) ≃ Fin 32 where
  toFun p := widOf p.1 p.2
  invFun w := (⟨w.val % 2, Nat.mod_lt _ (by norm_num)⟩, ⟨w.val / 2, by have := w.isLt; show _ < 16; omega⟩)
  left_inv p := by
    rcases p with ⟨c, i⟩
    have hc : c.val < 2 := c.isLt
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [CountersIn UU] in
theorem bigSep_workers (Φ : Fin 32 → sProp 𝕄) :
    (bigSep Finset.univ fun c : Fin ((K (F := F)).nCore 0) => bigSep Finset.univ fun i : Fin ((K (F := F)).nSub 0) => Φ (widOf c i))
      = bigSep Finset.univ Φ := by
  rw [bigSep_univ_equiv (widEquiv (F := F)) Φ, bigSep_univ_prod]; rfl

/-- The three arrays whole are every worker's part at once — as launched, -/
theorem go_all (d : Dev nD) :
    (iprop((iLoc d ↦{fullShare} m (iLoc d)) ∗ (xLoc d ↦{fullShare} m (xLoc d)) ∗ oLoc d ↦{fullShare} m (oLoc d)) : sProp 𝕄)
      = bigSep Finset.univ fun c : Fin ((K (F := F)).nCore 0) => (P (UU := UU) m).st 0 d c := by
  show _ = bigSep Finset.univ fun c : Fin ((K (F := F)).nCore 0) => bigSep Finset.univ fun i : Fin ((K (F := F)).nSub 0) => goA (UU := UU) m d (widOf c i)
  rw [bigSep_workers (F := F) (fun w => goA (UU := UU) m d w), bigSep_sep', bigSep_sep', iPts_rows, xPts_shares, oPts_rows]

/-- and with the output pooled. -/
theorem td_all (d : Dev nD) :
    (iprop((iLoc d ↦{fullShare} m (iLoc d)) ∗ (xLoc d ↦{fullShare} m (xLoc d)) ∗ oLoc d ↦{fullShare} poolF m d) : sProp 𝕄)
      = bigSep Finset.univ fun c : Fin ((K (F := F)).nCore 0) => (P (UU := UU) m).dn 0 d c := by
  show _ = bigSep Finset.univ fun c : Fin ((K (F := F)).nCore 0) => bigSep Finset.univ fun i : Fin ((K (F := F)).nSub 0) => tdA (UU := UU) m d (widOf c i)
  rw [bigSep_workers (F := F) (fun w => tdA (UU := UU) m d w), bigSep_sep', bigSep_sep', iPts_rows, xPts_shares, oPts_rows]

end Cert.Proof.KI

end
-- ==== Proof.ScLaunch3.lean ====
/-
  @main on the TensorCore: the pooling call (the three arrays dealt to the 32 workers and gathered again, the output
  pooled), the two host operations that lay the weights and the bias out for the projection (a transpose, a reshape),
  the projection's kernel region, and the transpose of its result. The TensorCore's nine arrays are held whole
  throughout, at a valuation each step updates; the four arguments end at their launch contents and the result array at
  the transpose of what the region leaves.
-/
import proofs.«204135_g55705725829175_cont_9to1c4b_393_20_alg».proof.Proof.ScLaunch2
import proofs.«204135_g55705725829175_cont_9to1c4b_393_20_alg».proof.Proof.ScSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UC ℕ

variable (m : (ℓ : Loc nD τ sig) → Buf (Elt F) ℓ) (ρ : Dev nD → PrngReg)

open Idealize.ShloMosaic.Pipeline (Dat BodyObligation cellOf)
open Idealize.ShloMosaic.TcCoe
open Idealize.ShloMosaic.StableHlo (held held_split held_sdiff_result wp_hlo_within)

variable [FloatOps F] [Named F]

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev opT1 : HloOp τ sig (Elt F) := StableHlo.unary main_arg2 main_v1 ((transpose S100000x128 [1, 0] · transposes_S128x100000_S100000x128_1_0) : (⟨S128x100000, .f32⟩ : BufTy).Contents (Elt F) → (⟨S100000x128, .f32⟩ : BufTy).Contents (Elt F))
abbrev opR : HloOp τ sig (Elt F) := StableHlo.reshape main_arg3 main_v2 rfl shapeCasts_S100000_S20x1x5000
abbrev opT2 : HloOp τ sig (Elt F) := StableHlo.unary main_v3 main_v4 ((transpose S1024x100000 [1, 0] · transposes_S100000x1024_S1024x100000_1_0) : (⟨S100000x1024, .f32⟩ : BufTy).Contents (Elt F) → (⟨S1024x100000, .f32⟩ : BufTy).Contents (Elt F))

/-- The TensorCore's arrays, all unscoped. -/
abbrev S9 : Finset (DevRef τ sig) := {a0', a1', a2', a3', v0', v1', v2', v3', v4'}

abbrev pl (d : Dev nD) (b : DevRef τ sig) (f : Buf (Elt F) ((d, b) : Loc nD τ sig)) : sProp 𝕄 := ((d, b) : Loc nD τ sig) ↦{fullShare} f

omit [FloatOps F] [Named F] in
theorem held_S9 (d : Dev nD) (W : Valuation τ sig (Elt F)) :
    (held (T d) S9 W : sProp 𝕄)
      = iprop(pl d a0' (W a0') ∗ pl d a1' (W a1') ∗ pl d a2' (W a2') ∗ pl d a3' (W a3') ∗ pl d v0' (W v0') ∗ pl d v1' (W v1') ∗ pl d v2' (W v2') ∗ pl d v3' (W v3') ∗ pl d v4' (W v4')) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] [Named F] in
theorem unscopedBufs_eq (d : Dev nD) (W : (b : Ref sig .tc) → Buf (Elt F) ((d.tc : Thread nD τ).loc b)) :
    (unscopedBufs d W : sProp 𝕄)
      = iprop(pl d a0' (W main_arg0) ∗ pl d a1' (W main_arg1) ∗ pl d a2' (W main_arg2) ∗ pl d a3' (W main_arg3) ∗ pl d v0' (W main_v0) ∗ pl d v1' (W main_v1) ∗ pl d v2' (W main_v2) ∗ pl d v3' (W main_v3) ∗ pl d v4' (W main_v4)) := by
  unfold unscopedBufs
  rw [show (Finset.univ.filter fun b : Ref sig .tc => ¬ b.isScoped) = {main_arg0, main_arg1, main_arg2, main_arg3, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## The valuations, step by step -/

/-- As launched; -/
def V0 (d : Dev nD) : Valuation τ sig (Elt F) := fun b => m (d, b)
/-- after the pooling call: the output pooled; -/
def V1 (d : Dev nD) : Valuation τ sig (Elt F) := Function.update (V0 m d) v0' (poolF m d)
/-- after the transpose and the reshape: what the region finds. -/
def V3 (d : Dev nD) : Valuation τ sig (Elt F) := (opR (F := F)).result ((opT1 (F := F)).result (V1 m d))
/-- The region's entry contents, by reference. -/
def Ve (d : Dev nD) (b : Ref sig .tc) : Buf (Elt F) ((d : Thread nD τ).loc b) := V3 m d (Proc.devRef .tc b)
/-- What the region leaves in the output's array (the recorded waits do not enter it). -/
def outT (d : Dev nD) (W : Waits sig (HIx 1)) : Buf (Elt F) ((d : Thread nD τ).loc main_v3) := (pdats (Ve m) W 0 d).arrAt 3 (Pipeline.pin (pcfgs (F := F)) adm 0).N
/-- After the region; -/
def V4 (d : Dev nD) (W : Waits sig (HIx 1)) : Valuation τ sig (Elt F) := Function.update (V3 m d) v3' (outT m d W)
/-- after the last transpose. -/
def V5 (d : Dev nD) (W : Waits sig (HIx 1)) : Valuation τ sig (Elt F) := (opT2 (F := F)).result (V4 m d W)

theorem unscoped_held (d : Dev nD) : (unscopedBufs d (fun b => m ((SparseCore.T d).loc b)) : sProp 𝕄) = held (T d) S9 (V0 m d) := by
  rw [unscopedBufs_eq, held_S9]; rfl

theorem hT1 : (opT1 (F := F)).bufs ⊆ S9 := show ({a2', v1'} : Finset (DevRef τ sig)) ⊆ S9 by decide
theorem hR : (opR (F := F)).bufs ⊆ S9 := show ({a3', v2'} : Finset (DevRef τ sig)) ⊆ S9 by decide
theorem hT2 : (opT2 (F := F)).bufs ⊆ S9 := show ({v3', v4'} : Finset (DevRef τ sig)) ⊆ S9 by decide

theorem V1_of_ne (d : Dev nD) {b : DevRef τ sig} (h : b ≠ v0') : V1 m d b = m (d, b) := Function.update_of_ne h _ _
theorem V1_v0 (d : Dev nD) : V1 m d v0' = poolF m d := Function.update_self _ _ _

theorem V3_of_ne (d : Dev nD) {b : DevRef τ sig} (h1 : b ∉ ({v1'} : Finset (DevRef τ sig))) (h2 : b ∉ ({v2'} : Finset (DevRef τ sig))) : V3 m d b = V1 m d b := by
  unfold V3
  rw [(opR (F := F)).result_of_not_mem _ h2, (opT1 (F := F)).result_of_not_mem _ h1]

theorem V3_a0 (d : Dev nD) : V3 m d a0' = m (d, a0') := (V3_of_ne m d (by decide) (by decide)).trans (V1_of_ne m d (by decide))
theorem V3_a1 (d : Dev nD) : V3 m d a1' = m (d, a1') := (V3_of_ne m d (by decide) (by decide)).trans (V1_of_ne m d (by decide))
theorem V3_a2 (d : Dev nD) : V3 m d a2' = m (d, a2') := (V3_of_ne m d (by decide) (by decide)).trans (V1_of_ne m d (by decide))
theorem V3_a3 (d : Dev nD) : V3 m d a3' = m (d, a3') := (V3_of_ne m d (by decide) (by decide)).trans (V1_of_ne m d (by decide))
theorem V3_v4 (d : Dev nD) : V3 m d v4' = m (d, v4') := (V3_of_ne m d (by decide) (by decide)).trans (V1_of_ne m d (by decide))

theorem V4_of_ne (d : Dev nD) (W : Waits sig (HIx 1)) {b : DevRef τ sig} (h : b ≠ v3') : V4 m d W b = V3 m d b := Function.update_of_ne h _ _
theorem V4_v3 (d : Dev nD) (W : Waits sig (HIx 1)) : V4 m d W v3' = outT m d W := Function.update_self _ _ _
theorem V5_of_ne (d : Dev nD) (W : Waits sig (HIx 1)) {b : DevRef τ sig} (h : b ∉ ({v4'} : Finset (DevRef τ sig))) : V5 m d W b = V4 m d W b := by
  unfold V5; rw [(opT2 (F := F)).result_of_not_mem _ h]

end Cert.Proof.KI

end
-- ==== Proof.ScMain.lean ====
/-
  @main on the TensorCore, run: from what the launch deals the TensorCore and the pipeline's ghost state to its
  handshake state after the one call and the claim's arrays — the four arguments at their launch contents, the result
  array at the transpose of what the projection's region leaves.
-/
import proofs.«204135_g55705725829175_cont_9to1c4b_393_20_alg».proof.Proof.ScLaunch3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UC ℕ

variable (m : (ℓ : Loc nD τ sig) → Buf (Elt F) ℓ) (ρ : Dev nD → PrngReg)

open Idealize.ShloMosaic.Pipeline (Dat BodyObligation cellOf)
open Idealize.ShloMosaic.TcCoe
open Idealize.ShloMosaic.StableHlo (held held_split held_sdiff_result wp_hlo_within)

variable [FloatOps F] [Named F]

omit [FloatOps F] [Named F] in
/-- After its one call the TensorCore owes nothing: its handshake state opened at what it owes, to be closed at any
    recorded waits within the same bound. -/
theorem tcSt_open (d : Dev nD) :
    (K (F := F)).tcSt (EH (F := F)) d 1 ⊢ iprop(∃ W, ⌜(K (F := F)).WBelow (T d) W (8 * 1)⌝ ∗ owes (T d) (0 : CellTallies nD τ sig (HIx 1)) W
       ∗ (∀ W', ⌜(K (F := F)).WBelow (T d) W' (8 * 1)⌝ -∗ owes (T d) (0 : CellTallies nD τ sig (HIx 1)) W' -∗ (K (F := F)).tcSt (EH (F := F)) d 1)) := by
  unfold SparseCore.Cfg.tcSt
  rw [(K (F := F)).Otc_end d (le_refl 1)]
  iintro ⟨⟨%W, %hW, HO⟩, Hrest⟩
  iexists W
  isplitr; · ipureintro; exact hW
  isplitl [HO]; · iexact HO
  iintro %W' %hW' HO'
  isplitl [HO']
  · iexists W'; isplitr; · ipureintro; exact hW'
    iexact HO'
  iexact Hrest

theorem held_V3 (d : Dev nD) : (held (T d) S9 (V3 m d) : sProp 𝕄) = unscopedBufs d (Ve m d) := by
  rw [unscopedBufs_eq, held_S9]; rfl

theorem held_V3' (d : Dev nD) : (held (T d) S9 ((opR (F := F)).result ((opT1 (F := F)).result (V1 m d))) : sProp 𝕄) = unscopedBufs d (Ve m d) :=
  held_V3 m d

theorem pre_eq (d : Dev nD) (W : Waits sig (HIx 1)) :
    ((reg1 (Ve m) W).pre d : sProp 𝕄) = iprop(unscopedBufs d (Ve m d) ∗ owes (d : Thread nD τ) (0 : CellTallies nD τ sig (HIx 1)) W) := rfl

/-- What the region leaves, array by array. -/
theorem post_eq (d : Dev nD) (W : Waits sig (HIx 1)) :
    ((reg1 (Ve m) W).post d : sProp 𝕄)
      = iprop((pl d v1' (V3 m d v1') ∗ pl d v0' (V3 m d v0') ∗ pl d v2' (V3 m d v2') ∗ pl d v3' (outT m d W))
          ∗ (pdats (Ve m) W 0 d).owesAt none (Fin.last (Pipeline.pin (pcfgs (F := F)) adm 0).N)
          ∗ (pl d a0' (V3 m d a0') ∗ pl d a1' (V3 m d a1') ∗ pl d a2' (V3 m d a2') ∗ pl d a3' (V3 m d a3') ∗ pl d v4' (V3 m d v4'))) := by
  show iprop((pdats (Ve m) W 0 d).arrays ((pdats (Ve m) W 0 d).arrAt · (Pipeline.pin (pcfgs (F := F)) adm 0).N) ∗ _ ∗ Pipeline.unscopedRest spec1 d (Ve m d)) = _
  rw [Pipeline.arrays_eq (Pipeline.pin (pcfgs (F := F)) adm) (pdats (Ve m) W) 0 d launch1.arr_whole ((pdats (Ve m) W 0 d).share_full fun _ => rfl), bigSep_W1,
    unscopedRest1_eq, (pdats (Ve m) W 0 d).arrAt_in 0 rfl, (pdats (Ve m) W 0 d).arrAt_in 1 rfl, (pdats (Ve m) W 0 d).arrAt_in 2 rfl]
  rfl

set_option backward.isDefEq.respectTransparency.types false in
/-- A proof about a TensorCore program under the certificate's body table is a proof about it lifted to the extended table. -/
theorem lift_tc (d : Dev nD) {α : Type} (p : Prog (TpuEff nD τ sig (Elt F) (ΛP (F := F)) .tc) α) (Φ : α → sProp 𝕄) :
    wp frame (wpE (D (F := F)) 𝒱 (d : Thread nD τ) none) Set.univ p Φ
      ⊢ wp frame (wpE ((K (F := F)).defs (D (F := F))) 𝒱 (d : Thread nD τ) none) Set.univ (SparseCore.liftProg p) Φ :=
  (K (F := F)).wp_liftProg (D (F := F)) 𝒱 (d : Thread nD τ) Set.univ none p Φ

set_option maxHeartbeats 1000000 in
/-- The projection's region as one step of @main: from the boundary, the region's entry state, the level facts and the
    pipeline's ghost state, the custom call runs to the boundary and the region's exit state. -/
theorem region_step [∀ e, Nonempty (Elt F e)] (d : Dev nD) (W : Waits sig (HIx 1)) (Φ : PUnit.{1} → sProp 𝕄) :
    iprop((iprop(boundary (SparseCore.T d) ∗ (reg1 (Ve m) W).post d) -∗ Φ ⟨⟩) ∗ boundary (SparseCore.T d) ∗ (reg1 (Ve m) W).pre d
        ∗ levAts (K (F := F)).L (K (F := F)).lev ∗ Gd (F := F) d)
      ⊢ wp frame (wpE ((K (F := F)).defs (D (F := F))) 𝒱 (SparseCore.T d) none) Set.univ
          (Prog.lift (.customCall (SparseCore.inner (Pipeline.entry 0)) ())) Φ := by
  have h := Pipeline.RegionSeg.wp (pcfgs (F := F)) adm (pdats (Ve m) W) (none : HIx 1) cellOf_inj EP defs₀ 𝒱₀ (K (F := F)).L (K (F := F)).lev
      (reg1 (Ve m) W) d none (fun u hu => nomatch hu) (fun _ => .ret ⟨⟩) Φ
  have h2 := h.trans (lift_tc (F := F) d _ Φ)
  have e : (iprop(boundary (SparseCore.T d) ∗ (reg1 (Ve m) W).post d) -∗ Φ ⟨⟩ : sProp 𝕄)
      ⊢ (iprop(boundary (d : Thread nD τ) ∗ (reg1 (Ve m) W).post d)
          -∗ wp frame (wpE (D (F := F)) 𝒱 (d : Thread nD τ) none) Set.univ (.ret ⟨⟩) Φ) := by
    iintro Hk H
    rw [wp_ret]; imodintro
    iapply Hk; iexact H
  exact (sep_mono e .rfl).trans h2

/-- What @main leaves the claim: the four arguments at their launch contents, the result array at the last transpose's
    value (for the recorded waits the region was entered with, which do not enter the value). -/
abbrev FIN (d : Dev nD) : sProp 𝕄 :=
  iprop(pl d a0' (m (d, a0')) ∗ pl d a1' (m (d, a1')) ∗ pl d a2' (m (d, a2')) ∗ pl d a3' (m (d, a3')) ∗ ∃ W, pl d v4' (V5 m d W v4'))

set_option maxHeartbeats 1000000 in
/-- @main on device `d`'s TensorCore. -/
theorem hmain [∀ e, Nonempty (Elt F e)] (κ : GSem nD τ sig → ℕ) (d : Dev nD) :
    iprop((K (F := F)).ctx EH (P (UU := UC) m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  ihave Hh := (Entails.of_eq (held_S9 (F := F) d (V0 m d))) $$ Hheld
  icases Hh with ⟨Ha0, Ha1, Ha2, Ha3, Hv0, Hv1, Hv2, Hv3, Hv4⟩
  -- the pooling call: the three arrays to the 32 workers and back
  iapply ((K (F := F)).wp_run (D (F := F)) 𝒱 (EH := EH) (P := P (UU := UC) m) κ d 0) $$ [Hst Ha0 Ha1 Hv0 Hb Ha2 Ha3 Hv1 Hv2 Hv3 Hv4 HG]
  isplitr; · iexact Hctx
  isplitl [Hst]; · iexact Hst
  isplitl [Ha0 Ha1 Hv0]
  · iapply (Entails.of_eq (go_all (F := F) (UU := UC) m d))
    isplitl [Ha0]; · iexact Ha0
    isplitl [Ha1]; · iexact Ha1
    iexact Hv0
  iintro ⟨Hst, Hdn⟩
  ihave Hdn' := (Entails.of_eq (td_all (F := F) (UU := UC) m d).symm) $$ Hdn
  icases Hdn' with ⟨Ha0, Ha1, Hv0⟩
  -- the transpose of the weights
  iapply (wp_hlo_within 𝒱 (SparseCore.T d) none Set.univ (op := opT1) (S := S9) hT1 (V := V1 m d)) $$ [Hb Ha0 Ha1 Ha2 Ha3 Hv0 Hv1 Hv2 Hv3 Hv4]
  · isplitl [Hb]; · iexact Hb
    rw [held_S9, V1_v0, V1_of_ne m d (show a0' ≠ v0' by decide), V1_of_ne m d (show a1' ≠ v0' by decide), V1_of_ne m d (show a2' ≠ v0' by decide),
      V1_of_ne m d (show a3' ≠ v0' by decide), V1_of_ne m d (show v1' ≠ v0' by decide), V1_of_ne m d (show v2' ≠ v0' by decide),
      V1_of_ne m d (show v3' ≠ v0' by decide), V1_of_ne m d (show v4' ≠ v0' by decide)]
    isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    iexact Hv4
  iintro ⟨Hb, Hheld⟩
  rw [wp_ret]; imodintro
  -- the reshape of the bias
  iapply (wp_hlo_within 𝒱 (SparseCore.T d) none Set.univ (op := opR) (S := S9) hR (V := (opT1 (F := F)).result (V1 m d))) $$ [Hb Hheld]
  · isplitl [Hb] <;> iassumption
  iintro ⟨Hb, Hheld⟩
  rw [wp_ret]; imodintro
  -- the projection's region, entered owing nothing
  ihave Hst := (Entails.of_eq (show (K (F := F)).tcSt (EH (F := F)) d ((0 : Fin 1).val + 1) = (K (F := F)).tcSt (EH (F := F)) d 1 from rfl)) $$ Hst
  ihave Ht := (tcSt_open (F := F) d) $$ Hst
  icases Ht with ⟨%W, %hW, HO, Hclose⟩
  ihave Hlev := ((K (F := F)).ctx_levAts κ) $$ Hctx
  ihave Hpre := (Entails.of_eq (held_V3' (F := F) m d)) $$ Hheld
  iapply (region_step (F := F) m d W _) $$ [Hb Hpre HO HG Hclose Hlev]
  isplitl [Hclose]
  swap
  · isplitl [Hb]; · iexact Hb
    isplitl [Hpre HO]
    · iapply (Entails.of_eq (pre_eq (F := F) m d W).symm)
      isplitl [Hpre]; · iexact Hpre
      iexact HO
    isplitl [Hlev]; · iexact Hlev
    iexact HG
  iintro ⟨Hb, Hpost⟩
  ihave Hp := (Entails.of_eq (post_eq (F := F) m d W)) $$ Hpost
  icases Hp with ⟨⟨Hv1, Hv0, Hv2, Hv3⟩, HO, ⟨Ha0, Ha1, Ha2, Ha3, Hv4⟩⟩
  -- the transpose of the result
  iapply (wp_hlo_within 𝒱 (SparseCore.T d) none Set.univ (op := opT2) (S := S9) hT2 (V := V4 m d W)) $$ [Hb Ha0 Ha1 Ha2 Ha3 Hv0 Hv1 Hv2 Hv3 Hv4]
  · isplitl [Hb]; · iexact Hb
    rw [held_S9, V4_v3, V4_of_ne m d W (show a0' ≠ v3' by decide), V4_of_ne m d W (show a1' ≠ v3' by decide), V4_of_ne m d W (show a2' ≠ v3' by decide),
      V4_of_ne m d W (show a3' ≠ v3' by decide), V4_of_ne m d W (show v0' ≠ v3' by decide), V4_of_ne m d W (show v1' ≠ v3' by decide),
      V4_of_ne m d W (show v2' ≠ v3' by decide), V4_of_ne m d W (show v4' ≠ v3' by decide)]
    isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    iexact Hv4
  iintro ⟨Hb, Hheld⟩
  ihave Hh := (Entails.of_eq (held_S9 (F := F) d ((opT2 (F := F)).result (V4 m d W)))) $$ Hheld
  icases Hh with ⟨Ha0, Ha1, Ha2, Ha3, -, -, -, -, Hv4⟩
  rw [wp_ret]; imodintro; imodintro
  isplitl [Hclose HO]
  · unfold Pipeline.Dat.owesAt Pipeline.owesWithin
    icases HO with ⟨%W', %hW', HO⟩
    iapply Hclose $$ [] [HO]
    · ipureintro
      intro p hp
      rcases hW' hp with h | ⟨w, s, rfl⟩
      · exact hW p h
      · exact Nat.zero_le _
    · iexact HO
  have e0 : V5 m d W a0' = m (d, a0') := (V5_of_ne m d W (by decide)).trans ((V4_of_ne m d W (by decide)).trans (V3_a0 m d))
  have e1 : V5 m d W a1' = m (d, a1') := (V5_of_ne m d W (by decide)).trans ((V4_of_ne m d W (by decide)).trans (V3_a1 m d))
  have e2 : V5 m d W a2' = m (d, a2') := (V5_of_ne m d W (by decide)).trans ((V4_of_ne m d W (by decide)).trans (V3_a2 m d))
  have e3 : V5 m d W a3' = m (d, a3') := (V5_of_ne m d W (by decide)).trans ((V4_of_ne m d W (by decide)).trans (V3_a3 m d))
  unfold V5 at e0 e1 e2 e3
  ihave Ha0 := (Entails.of_eq (congrArg (pl (F := F) d a0') e0)) $$ Ha0
  ihave Ha1 := (Entails.of_eq (congrArg (pl (F := F) d a1') e1)) $$ Ha1
  ihave Ha2 := (Entails.of_eq (congrArg (pl (F := F) d a2') e2)) $$ Ha2
  ihave Ha3 := (Entails.of_eq (congrArg (pl (F := F) d a3') e3)) $$ Ha3
  isplitl [Ha0]; · iexact Ha0
  isplitl [Ha1]; · iexact Ha1
  isplitl [Ha2]; · iexact Ha2
  isplitl [Ha3]; · iexact Ha3
  iexists W; iexact Hv4

end Cert.Proof.KI

end
-- ==== Proof.ScGhost.lean ====
/-
  The launch element of the kernel's ghost state: the handshakes' rounds, the dense projection's staging cells and the
  transfers' counters side by side. Owning it splits three ways; the staging cells' part funds, for each device, the
  ghost state and the duty tokens the projection's region is entered with.
-/
import proofs.«204135_g55705725829175_cont_9to1c4b_393_20_alg».proof.Proof.ScLaunch2
import Idealize.ShloMosaic.Lib.Pipeline.Sound
import Idealize.ShloMosaic.Lib.Pipeline.Kit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UC ℕ

variable (m : (ℓ : Loc nD τ sig) → Buf (Elt F) ℓ)

variable [FloatOps F] [Named F]

/-- The launch element: the handshakes' cells and tokens, the staging cells' and their tokens, the counters' unit. -/
def u₀ : UC :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

omit [FloatOps F] [Named F] in
private theorem bigSep_emp' {I : Type} (s : Finset I) : (bigSep s fun _ => iprop(emp)) = (iprop(emp) : sProp 𝕄) := bigSep_emp_const s

/-- Owning the launch element gives the handshakes' element, every device's staging-cell ghost state and tokens, and
    nothing more for the calls' extra parts. -/
theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P (F := F) (UU := UC) m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold Gd
    rw [bigSep_sep']
    isplitl [Hg]
    · rw [show (bigSep Finset.univ fun d : Dev nD => Pipeline.cellsGhost (Pipeline.pin (pcfgs (F := F)) adm) EP 0 d)
          = (bigSep Finset.univ fun d : Dev nD => bigSep Finset.univ fun p : Fin 1 => (Pipeline.cellsGhost (Pipeline.pin (pcfgs (F := F)) adm) EP p d : sProp 𝕄))
          from bigSep_congr fun d _ => (bigSep_univ_of_subsingleton (0 : Fin 1)
            (Φ := fun p : Fin 1 => (Pipeline.cellsGhost (Pipeline.pin (pcfgs (F := F)) adm) EP p d : sProp 𝕄))).symm]
      iexact Hg
    · rw [show (bigSep Finset.univ fun d : Dev nD => Pipeline.toksInit (Pipeline.pin (pcfgs (F := F)) adm) EP 0 d)
          = (bigSep Finset.univ fun d : Dev nD => bigSep Finset.univ fun p : Fin 1 => (Pipeline.toksInit (Pipeline.pin (pcfgs (F := F)) adm) EP p d : sProp 𝕄))
          from bigSep_congr fun d _ => (bigSep_univ_of_subsingleton (0 : Fin 1)
            (Φ := fun p : Fin 1 => (Pipeline.toksInit (Pipeline.pin (pcfgs (F := F)) adm) EP p d : sProp 𝕄))).symm]
      iexact Ht
  rw [show (bigSep Finset.univ fun thr : Thread nD τ => bigSep Finset.univ fun q : Fin 1 => (P (F := F) (UU := UC) m).x q thr) = bigSep Finset.univ fun _ => iprop(emp) from
    bigSep_congr fun _ _ => bigSep_univ_of_subsingleton (0 : Fin 1), bigSep_emp']
  iempintro

end Cert.Proof.KI

end
-- ==== Proof.PreIdx.lean ====
/-
  The precondition, read back on the index array. The predicate is a conjunction whose last conjunct says that
  every entry of the index array, read as a signed word, lies between 0 and 99999; a word in that range reads the
  same unsigned, so every entry names a row of the table.
-/
import proofs.«204135_g55705725829175_cont_9to1c4b_393_20_alg».proof.Pre_input_domain
import proofs.«204135_g55705725829175_cont_9to1c4b_393_20_alg».proof.Proof.Gen.Pre_input_domain
import Idealize.ShloMosaic.Lib.ReduceAll

namespace Cert.PreIdx

open Idealize.ShloMosaic

/-- The rank-0 shape has one index. -/
instance : Subsingleton Cert.Pre_input_domain.S_.Idx := ⟨fun a b => funext fun d => d.elim0⟩

/-- A word that is at least 0 and at most 99999 as a signed number is below 100000 as a natural number. -/
theorem word_lt (v : BitVec 32) (h0 : IntOp.cmpi .sge v 0#32 = 1#1) (h1 : IntOp.cmpi .sle v 99999#32 = 1#1) :
    v.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  have := BitVec.toInt_eq_toNat_cond v
  split at this <;> omega

/-- Under the precondition every entry of the index array names a row of the table. -/
theorem idx_lt {F : FTy → Type} [FloatOps F] [Cert.Pre_input_domain.Facts]
    (a0 : IVec Cert.Pre_input_domain.S1024x50 32) (a1 : FVec F Cert.Pre_input_domain.S100000x128 .f32)
    (a2 : FVec F Cert.Pre_input_domain.S128x100000 .f32) (a3 : FVec F Cert.Pre_input_domain.S100000 .f32)
    (h : Cert.Pre_input_domain.fn (F := F) a0 a1 a2 a3 = fun _ => 1#1) : ∀ j, (a0 j).toNat < 100000 := by
  intro j
  have e := congrFun h (fun d => d.elim0)
  simp only [Cert.Pre_input_domain.fn, Cert.Pre_input_domain.fn_part1] at e
  -- the outer conjunction: the floats' part and the index array's part
  have e2 := (IntOp.andi_eq_one.1 e).2
  -- every entry of the index array's mask is 1
  have e3 := Host.reduce_andi_all _ _ _ _ _ e2 j
  obtain ⟨h0, h1⟩ := IntOp.andi_eq_one.1 e3
  exact word_lt (a0 j) h0 h1

end Cert.PreIdx
-- ==== Proof.ScRun.lean ====
/-
  The idealized kernel's run and what it leaves: every weakly fair execution of the TensorCore's @main beside the
  SparseCores' sequencers and subcores terminates, the four argument arrays end at their launch contents and the result
  array at the transpose of what the projection's region leaves — from the body obligation of one subcore's task, taken
  as a hypothesis here and proved of the printed body in its own module.
-/
import proofs.«204135_g55705725829175_cont_9to1c4b_393_20_alg».proof.Proof.ScMain
import proofs.«204135_g55705725829175_cont_9to1c4b_393_20_alg».proof.Proof.ScGhost
import proofs.«204135_g55705725829175_cont_9to1c4b_393_20_alg».proof.Proof.PreIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UC ℕ

variable (m : (ℓ : Loc nD τ sig) → Buf (Elt F) ℓ) (ρ : Dev nD → PrngReg)

open Idealize.ShloMosaic.Pipeline (Dat BodyObligation cellOf)
open Idealize.ShloMosaic.TcCoe

variable [FloatOps F] [Named F]

omit [Named F] in
/-- The precondition gives what the proof asks of the index array. -/
theorem idxOK_of_pre [Cert.Pre_input_domain.Facts] (h : ∀ c : Dev nD,
    Cert.Pre_input_domain.fn (F := F) (m ((c.tc : Thread nD τ).loc main_arg0)) (m ((c.tc : Thread nD τ).loc main_arg1)) (m ((c.tc : Thread nD τ).loc main_arg2)) (m ((c.tc : Thread nD τ).loc main_arg3)) = fun _ => 1#1) :
    IdxOK m := fun d j => Cert.PreIdx.idx_lt (F := F) _ _ _ _ (h d) j

/-- What the final memory says on device `d`. -/
def fq (d : Dev nD) (s' : Phys nD τ sig (Elt F)) : Prop :=
  (∃ W, s'.mem.mem ((d, v4') : Loc nD τ sig) = V5 m d W v4') ∧ s'.mem.mem ((d, a0') : Loc nD τ sig) = m (d, a0') ∧ s'.mem.mem ((d, a1') : Loc nD τ sig) = m (d, a1')
    ∧ s'.mem.mem ((d, a2') : Loc nD τ sig) = m (d, a2') ∧ s'.mem.mem ((d, a3') : Loc nD τ sig) = m (d, a3')

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, %W, H4⟩, HSI⟩
  ihave H := (persistent_entails_right (SI_pointsTo_agree (st := s') (ℓ := ((d, a0') : Loc nD τ sig)) (I := Finset.univ) (q := fullShare) (f := m (d, a0')))) $$ [HSI H0]
  · isplitl [HSI] <;> iassumption
  icases H with ⟨%h0, HSI, -⟩
  ihave H := (persistent_entails_right (SI_pointsTo_agree (st := s') (ℓ := ((d, a1') : Loc nD τ sig)) (I := Finset.univ) (q := fullShare) (f := m (d, a1')))) $$ [HSI H1]
  · isplitl [HSI] <;> iassumption
  icases H with ⟨%h1, HSI, -⟩
  ihave H := (persistent_entails_right (SI_pointsTo_agree (st := s') (ℓ := ((d, a2') : Loc nD τ sig)) (I := Finset.univ) (q := fullShare) (f := m (d, a2')))) $$ [HSI H2]
  · isplitl [HSI] <;> iassumption
  icases H with ⟨%h2, HSI, -⟩
  ihave H := (persistent_entails_right (SI_pointsTo_agree (st := s') (ℓ := ((d, a3') : Loc nD τ sig)) (I := Finset.univ) (q := fullShare) (f := m (d, a3')))) $$ [HSI H3]
  · isplitl [HSI] <;> iassumption
  icases H with ⟨%h3, HSI, -⟩
  ihave H := (SI_pointsTo_agree (st := s') (ℓ := ((d, v4') : Loc nD τ sig)) (I := Finset.univ) (q := fullShare) (f := V5 m d W v4')) $$ [HSI H4]
  · isplitl [HSI] <;> iassumption
  icases H with %h4
  ipureintro
  exact ⟨⟨W, funext fun i => h4 i (Finset.mem_univ i)⟩, funext fun i => h0 i (Finset.mem_univ i), funext fun i => h1 i (Finset.mem_univ i),
    funext fun i => h2 i (Finset.mem_univ i), funext fun i => h3 i (Finset.mem_univ i)⟩

/-- The run's post: on every device the result array at the last transpose's value and the arguments unchanged. -/
def QC : PUnit × MemSt nD τ sig (Elt F) → Prop := fun r => ∀ c : Dev nD,
  (∃ W, r.2.mem ((c, v4') : Loc nD τ sig) = V5 m c W v4') ∧ r.2.mem ((c, a0') : Loc nD τ sig) = m (c, a0') ∧ r.2.mem ((c, a1') : Loc nD τ sig) = m (c, a1')
    ∧ r.2.mem ((c, a2') : Loc nD τ sig) = m (c, a2') ∧ r.2.mem ((c, a3') : Loc nD τ sig) = m (c, a3')

theorem run_main [∀ e, Nonempty (Elt F e)] (hb : TileBody (UU := UC) m) (hidx : IdxOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (UU := UC) m) facts v₀
    (fun q hq => match q with | 0 => nomatch hq)
    (fun q _ => match q with | 0 => tileObl m hb facts hidx)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

end Cert.Proof.KI

end
-- ==== Proof.Spec.lean ====
/-
  The function both programs compute, stated once over literal shapes and explicit coordinates, at the ideal
  instance (floats are extended reals). For a batch row `b` and a vocabulary column `v`:

    logits b v = (∑ k, pooled b k * w k v) + bias v,     pooled b k = (∑ c, table (idx b c) k) * (1/50)

  the mean over the fifty context positions of the looked-up table rows, projected by the dense layer.
  A row number outside the table reads as zero; under the certificate's precondition every row number is inside it.
-/
import Idealize.ShloMosaic.PureOps.Ideal
import Idealize.ShloMosaic.Lib.ValueIdx

noncomputable section

open scoped BigOperators

namespace Cert.Spec

open Idealize.ShloMosaic Idealize.ShloMosaic.ValueIdx

abbrev SIdx : Shape := ⟨2, ![1024, 50]⟩
abbrev STab : Shape := ⟨2, ![100000, 128]⟩
abbrev SW : Shape := ⟨2, ![128, 100000]⟩
abbrev SB : Shape := ⟨1, ![100000]⟩
abbrev SPool : Shape := ⟨2, ![1024, 128]⟩
abbrev SOut : Shape := ⟨2, ![1024, 100000]⟩

/-- Row `n` of the table at column `e`; zero when `n` names no row. -/
def rowAt (emb : FVec Ideal STab .f32) (n : Nat) (e : Fin 128) : EReal :=
  if h : n < 100000 then emb (ix2 ⟨n, h⟩ e) else 0

/-- The sum over the fifty context positions of batch row `b` of the looked-up rows, at column `e`. -/
def pooledSum (idx : IVec SIdx 32) (emb : FVec Ideal STab .f32) (b : Fin 1024) (e : Fin 128) : EReal :=
  ∑ c : Fin 50, rowAt emb (idx (ix2 b c)).toNat e

/-- The mean-pooled embedding: the sum times the real number 1/50. -/
def pooledAt (idx : IVec SIdx 32) (emb : FVec Ideal STab .f32) (b : Fin 1024) (e : Fin 128) : EReal :=
  pooledSum idx emb b e * ((1 / 50 : ℝ) : EReal)

/-- One logit. -/
def logitAt (idx : IVec SIdx 32) (emb : FVec Ideal STab .f32) (w : FVec Ideal SW .f32) (bias : FVec Ideal SB .f32)
    (b : Fin 1024) (v : Fin 100000) : EReal :=
  (∑ k : Fin 128, pooledAt idx emb b k * w (ix2 k v)) + bias (ix1 v)

/-- The pooled array `[1024, 128]`. -/
def pooled (idx : IVec SIdx 32) (emb : FVec Ideal STab .f32) : FVec Ideal SPool .f32 :=
  fun j => pooledAt idx emb ⟨(j 0).val, idx2_lt0 j⟩ ⟨(j 1).val, idx2_lt1 j⟩

/-- The result array `[1024, 100000]`. -/
def G (idx : IVec SIdx 32) (emb : FVec Ideal STab .f32) (w : FVec Ideal SW .f32) (bias : FVec Ideal SB .f32) :
    FVec Ideal SOut .f32 :=
  fun j => logitAt idx emb w bias ⟨(j 0).val, idx2_lt0 j⟩ ⟨(j 1).val, idx2_lt1 j⟩

end Cert.Spec

end
-- ==== Proof.KValue.lean ====
/-
  The value side of the kernel at the ideal instance (a float is an extended real and every operation is exact),
  index by index and with no program run in it:

  * the pooled array the gather kernel computes — fifty looked-up rows added left to right, times the named
    constant — is the specification's pooled array: a left-to-right running sum over `0 … n` is the sum over
    `Finset.range (n + 1)`, the named constant denotes the real number 1/50, and under the range hypothesis on the
    row numbers "the row number taken below the table's extent" is the row number itself;
  * the projection's payload at an entry `(r, b)` of a block: the product of a `[5000, 128]` block of the
    transposed weights with the `[1024, 128]` pooled array, contracting the last axis of both, plus the block's
    bias read as a column;
  * the host operations around the projection read at an entry: the two transposes and the bias cut into twenty
    rows of five thousand;
  * the join: the entry so obtained is the specification's logit (commutativity of the product under the sum).
-/
import proofs.«204135_g55705725829175_cont_9to1c4b_393_20_alg».proof.Proof.Spec
import proofs.«204135_g55705725829175_cont_9to1c4b_393_20_alg».proof.Proof.ScCommon
import Idealize.ShloMosaic.PureOps.Ideal.Laws
import Idealize.ShloMosaic.PureOps.IdealRules
import Idealize.ShloMosaic.Lib.ValueLayout
import Idealize.ShloMosaic.Lib.Pipeline.Value

noncomputable section

open scoped BigOperators

namespace Cert.KernelIdeal.KValue

open Idealize.ShloMosaic Idealize.ShloMosaic.ValueIdx
open Cert.KernelIdeal Cert.KernelIdeal.Gen

/-! ## The pooled array -/

/-- At the ideal values the left-to-right running sum `E 0 + E 1 + … + E n` is the sum over `0 … n`. -/
theorem accF_ideal (E : Nat → EReal) (n : Nat) :
    Cert.Proof.KI.accF (F := Ideal) E n = ∑ c ∈ Finset.range (n + 1), E c := by
  induction n with
  | zero => rw [Finset.sum_range_one]; rfl
  | succ n ih => rw [Finset.sum_range_succ, ← ih]; rfl

/-- The named reciprocal denotes the real number 1/50 at the ideal values, by the certificate's table. -/
theorem inv_50 : Named.named (F := Ideal) Cert.KernelIdeal.κ "inv_50" (φ := .f32) 0x3CA3D70A#32 = ((1 / 50 : ℝ) : EReal) :=
  IdealRules.named_const.ideal_named_scalar _ _ _ _ rfl

/-- A row number inside the table: the kernel's row (number taken below the extent) is the specification's. -/
theorem rowF_eq_rowAt (emb : FVec Ideal S100000x128 .f32) (n : Nat) (h : n < 100000) (e : Fin 128) :
    Cert.Proof.KI.rowF (F := Ideal) emb n e = Cert.Spec.rowAt emb n e := by
  unfold Cert.Proof.KI.rowF Cert.Spec.rowAt
  rw [dif_pos h]
  exact congrArg (fun q : Fin 100000 => emb (ix2 q e)) (Fin.ext (Nat.mod_eq_of_lt h))

/-- One entry of the pooled array, under the range hypothesis on the row numbers. -/
theorem poolAtF_ideal (idx : IVec S1024x50 32) (emb : FVec Ideal S100000x128 .f32)
    (hidx : ∀ j : S1024x50.Idx, (idx j).toNat < 100000) (b : Fin 1024) (e : Fin 128) :
    Cert.Proof.KI.poolAtF (F := Ideal) idx emb b e = Cert.Spec.pooledAt idx emb b e := by
  unfold Cert.Proof.KI.poolAtF Cert.Spec.pooledAt Cert.Spec.pooledSum
  rw [inv_50, Ideal.mulf_def, accF_ideal, Finset.sum_range]
  refine congrArg (· * ((1 / 50 : ℝ) : EReal)) (Finset.sum_congr rfl fun c _ => ?_)
  have hc : (⟨c.val % 50, Nat.mod_lt _ (by norm_num)⟩ : Fin 50) = c := Fin.ext (Nat.mod_eq_of_lt c.isLt)
  rw [hc]
  exact rowF_eq_rowAt emb _ (hidx _) e

/-- The pooled array the gather kernel computes is the specification's, when every word of the index array names
    a row of the table. -/
theorem poolF_ideal (m : (ℓ : Loc nD τ sig) → Buf (Elt Ideal) ℓ) (h : Cert.Proof.KI.IdxOK m) (d : Dev nD) :
    Cert.Proof.KI.poolF (F := Ideal) m d = Cert.Spec.pooled (m (Cert.Proof.KI.iLoc d)) (m (Cert.Proof.KI.xLoc d)) := by
  funext j
  exact poolAtF_ideal (m (Cert.Proof.KI.iLoc d)) (m (Cert.Proof.KI.xLoc d)) (h d) _ _

/-! ## The projection's payload at an entry -/

/-- A product of an `[m, k]` by an `[n, k]` array contracting the last axis of both (`w` is the record's
    well-formedness, which a program states), accumulated into the zero splat and read at `(a, b)`: the sum over the
    contracted coordinate of the products of the two rows' entries. At the ideal values. -/
theorem matmul_nt_zero_apply {m n k : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, n]` array cast to a column `[n, 1]` reads, at `(i, u)`, the operand at `(0, 0, i)`. -/
theorem shapeCast_11n_n1_apply {α : Type} {n : ℕ} (x : (⟨3, ![1, 1, n]⟩ : Shape).Idx → α)
    (h : (⟨3, ![1, 1, n]⟩ : Shape).ShapeCasts ⟨2, ![n, 1]⟩) (i : Fin n) (u : Fin 1) :
    shapeCast ⟨2, ![n, 1]⟩ x h (ix2 i u) = x (ix3 (0 : Fin 1) (0 : Fin 1) i) :=
  shapeCast_apply x h _ _ (by
    have hu : u.val = 0 := by omega
    rw [Shape.rowMajor_val_three, Shape.rowMajor_val_two]
    show (0 * 1 + 0) * n + i.val = i.val * 1 + u.val
    rw [hu]; omega)

/-- A column `[n, 1]` broadcast along a second axis to `[n, p]` reads, at `(i, j)`, the column's entry `i`. -/
theorem broadcastTo_n1_np_apply {α : Type} {n p : ℕ} (hp : p ≠ 1) (x : (⟨2, ![n, 1]⟩ : Shape).Idx → α)
    (h : (⟨2, ![n, 1]⟩ : Shape).Broadcasts ⟨2, ![n, p]⟩) (i : Fin n) (j : Fin p) :
    broadcastTo ⟨2, ![n, p]⟩ x h (ix2 i j) = x (ix2 i (0 : Fin 1)) :=
  broadcastTo_apply x h _ _ fun a => match a with
    | ⟨0, _⟩ => by
        by_cases hn : n = 1
        · subst hn; show (i : ℕ) = if (1 : ℕ) = 1 then 0 else _; rw [if_pos rfl]; omega
        · show (i : ℕ) = if n = 1 then 0 else (i : ℕ); rw [if_neg hn]
    | ⟨1, _⟩ => by show (0 : ℕ) = if (1 : ℕ) = 1 then 0 else _; rw [if_pos rfl]

/-- The projection's payload at row `r` of the block and batch row `b`: the weights' row `r` against the pooled
    row `b`, plus the block's bias at `r`. -/
theorem k1_pay1_apply (x0 : Vec Ideal S5000x128 .f32) (x1 : Vec Ideal S1024x128 .f32) (x2 : Vec Ideal S1x1x5000 .f32)
    (r : Fin 5000) (b : Fin 1024) :
    Cert.KernelIdeal.Gen.k1_pay1 (F := Ideal) x0 x1 x2 (ix2 r b)
      = (∑ k : Fin 128, x0 (ix2 r k) * x1 (ix2 b k)) + x2 (ix3 0 0 r) := by
  unfold Cert.KernelIdeal.Gen.k1_pay1
  simp only [shapeCast_self]
  rw [addf_apply]
  refine congrArg₂ (· + ·) ?_ ?_
  · exact matmul_nt_zero_apply dot_S5000x128_S1024x128_S5000x1024_1_1_0_0_n_n_wf none x0 x1 r b
  · rw [broadcastTo_n1_np_apply (by norm_num), shapeCast_11n_n1_apply]

/-! ## The host operations around the projection, read at an entry -/

/-- The weights transposed read, at `(v, k)`, the weights at `(k, v)`. -/
theorem wt_apply {α : Type} (w : S128x100000.Idx → α) (h : S128x100000.Transposes [1, 0] S100000x128)
    (v : Fin 100000) (k : Fin 128) :
    transpose S100000x128 [1, 0] w h (ix2 v k) = w (ix2 k v) :=
  transpose_ix2_apply w h v k

/-- The projection's result transposed reads, at `(b, v)`, the result at `(v, b)`. -/
theorem outT_apply {α : Type} (o : S100000x1024.Idx → α) (h : S100000x1024.Transposes [1, 0] S1024x100000)
    (b : Fin 1024) (v : Fin 100000) :
    transpose S1024x100000 [1, 0] o h (ix2 b v) = o (ix2 v b) :=
  transpose_ix2_apply o h b v

/-- Position `5000 t + r` of the bias, for row `t` of twenty and `r` below five thousand. -/
theorem bias_pos_lt (t : Fin 20) (r : Fin 5000) : 5000 * t.val + r.val < 100000 := by
  have := t.isLt; have := r.isLt; omega

/-- The bias cut into twenty rows of five thousand reads, at `(t, 0, r)`, the bias at `5000 t + r`. -/
theorem biasR_apply {α : Type} (bias : S100000.Idx → α) (h : S100000.ShapeCasts S20x1x5000)
    (t : Fin 20) (u : Fin 1) (r : Fin 5000) :
    shapeCast S20x1x5000 bias h (ix3 t u r) = bias (ix1 ⟨5000 * t.val + r.val, bias_pos_lt t r⟩) :=
  shapeCast_apply bias h _ _ (by
    have hu : u.val = 0 := by omega
    rw [Shape.rowMajor_val_three, Shape.rowMajor_val_one]
    show 5000 * t.val + r.val = (t.val * 1 + u.val) * 5000 + r.val
    rw [hu]; omega)

/-! ## The join -/

/-- An entry as the projection leaves it — the transposed weights' row `v` against the pooled row `b`, plus the
    bias at `v` — is the specification's logit: the product commutes under the sum. -/
theorem logit_of_entry (idx : IVec Cert.Spec.SIdx 32) (emb : FVec Ideal Cert.Spec.STab .f32)
    (w : FVec Ideal Cert.Spec.SW .f32) (bias : FVec Ideal Cert.Spec.SB .f32) (v : Fin 100000) (b : Fin 1024) :
    (∑ k : Fin 128, w (ix2 k v) * Cert.Spec.pooledAt idx emb b k) + bias (ix1 v)
      = Cert.Spec.logitAt idx emb w bias b v := by
  unfold Cert.Spec.logitAt
  exact congrArg (· + bias (ix1 v)) (Finset.sum_congr rfl fun k _ => mul_comm _ _)

end Cert.KernelIdeal.KValue

end
-- ==== Proof.KValueJoin.lean ====
/-
  The projection as one function of whole arrays, and its meeting with the specification.

  `outT wt p bR` is the `[100000, 1024]` array whose entry `(v, b)` is the row `v` of `wt` against the row `b` of
  `p`, plus the entry of the cut bias `bR : [20, 1, 5000]` at `(v / 5000, 0, v % 5000)`. Two facts:

  * the payload of block `t` (rows `5000 t … 5000 t + 4999` of `wt`, all of `p`, row `t` of `bR`) at `(r, b)` is
    `outT` at `(5000 t + r, b)`: the blocks are restrictions of the one whole-array function;
  * with `wt` the transposed weights, `p` the specification's pooled array and `bR` the bias cut into twenty rows,
    the transpose of `outT` is the specification's result array.
-/
import proofs.«204135_g55705725829175_cont_9to1c4b_393_20_alg».proof.Proof.KValue

noncomputable section

open scoped BigOperators

namespace Cert.KernelIdeal.KValue

open Idealize.ShloMosaic Idealize.ShloMosaic.ValueIdx
open Cert.KernelIdeal Cert.KernelIdeal.Gen

theorem div_5000_lt (v : Fin 100000) : v.val / 5000 < 20 := by have := v.isLt; omega
theorem mod_5000_lt (v : Fin 100000) : v.val % 5000 < 5000 := Nat.mod_lt _ (by norm_num)

/-- One entry of the projection before the final transpose, by coordinates. -/
def outTAt (wt : FVec Ideal S100000x128 .f32) (p : FVec Ideal S1024x128 .f32) (bR : FVec Ideal S20x1x5000 .f32)
    (v : Fin 100000) (b : Fin 1024) : EReal :=
  (∑ k : Fin 128, wt (ix2 v k) * p (ix2 b k))
    + bR (ix3 (⟨v.val / 5000, div_5000_lt v⟩ : Fin 20) (0 : Fin 1) (⟨v.val % 5000, mod_5000_lt v⟩ : Fin 5000))

/-- The projection before the final transpose, as an array `[100000, 1024]`. -/
def outT (wt : FVec Ideal S100000x128 .f32) (p : FVec Ideal S1024x128 .f32) (bR : FVec Ideal S20x1x5000 .f32) :
    FVec Ideal S100000x1024 .f32 :=
  fun i => outTAt wt p bR ⟨(i 0).val, idx2_lt0 i⟩ ⟨(i 1).val, idx2_lt1 i⟩

theorem outT_ix2 (wt : FVec Ideal S100000x128 .f32) (p : FVec Ideal S1024x128 .f32) (bR : FVec Ideal S20x1x5000 .f32)
    (v : Fin 100000) (b : Fin 1024) : outT wt p bR (ix2 v b) = outTAt wt p bR v b := rfl

/-- Row `5000 t + r` of the whole array, for block `t` of twenty and row `r` of the block. -/
theorem blk_row_lt (t : Fin 20) (r : Fin 5000) : 5000 * t.val + r.val < 100000 := bias_pos_lt t r

/-- The payload of block `t` is block `t` of `outT`: whatever the three loaded blocks are called, if they read the
    whole arrays where block `t`'s rectangles say (`h0`: rows `5000 t + r` of `wt`; `h1`: all of `p`; `h2`: row `t` of
    the cut bias), the payload at `(r, b)` is `outT` at `(5000 t + r, b)`. -/
theorem k1_pay1_block (wt : FVec Ideal S100000x128 .f32) (p : FVec Ideal S1024x128 .f32) (bR : FVec Ideal S20x1x5000 .f32)
    (t : Fin 20) (x0 : Vec Ideal S5000x128 .f32) (x1 : Vec Ideal S1024x128 .f32) (x2 : Vec Ideal S1x1x5000 .f32)
    (h0 : ∀ (r : Fin 5000) (k : Fin 128), x0 (ix2 r k) = wt (ix2 ⟨5000 * t.val + r.val, blk_row_lt t r⟩ k))
    (h1 : ∀ (b : Fin 1024) (k : Fin 128), x1 (ix2 b k) = p (ix2 b k))
    (h2 : ∀ r : Fin 5000, x2 (ix3 0 0 r) = bR (ix3 t 0 r))
    (r : Fin 5000) (b : Fin 1024) :
    Cert.KernelIdeal.Gen.k1_pay1 (F := Ideal) x0 x1 x2 (ix2 r b)
      = outT wt p bR (ix2 ⟨5000 * t.val + r.val, blk_row_lt t r⟩ b) := by
  rw [k1_pay1_apply, outT_ix2]
  unfold outTAt
  have ht : (⟨(5000 * t.val + r.val) / 5000, div_5000_lt ⟨5000 * t.val + r.val, blk_row_lt t r⟩⟩ : Fin 20) = t :=
    Fin.ext (by show (5000 * t.val + r.val) / 5000 = t.val; have := r.isLt; omega)
  have hr : (⟨(5000 * t.val + r.val) % 5000, mod_5000_lt ⟨5000 * t.val + r.val, blk_row_lt t r⟩⟩ : Fin 5000) = r :=
    Fin.ext (by show (5000 * t.val + r.val) % 5000 = r.val; have := r.isLt; omega)
  rw [h2 r]
  refine congrArg₂ (· + ·) (Finset.sum_congr rfl fun k _ => by rw [h0 r k, h1 b k]) ?_
  show bR (ix3 t 0 r) = bR (ix3 _ 0 _)
  rw [ht, hr]

/-- The whole result: with the weights transposed, the specification's pooled array and the bias cut into twenty
    rows of five thousand, the transpose of `outT` is the specification's result array. -/
theorem result_eq_G (idx : IVec Cert.Spec.SIdx 32) (emb : FVec Ideal Cert.Spec.STab .f32)
    (w : FVec Ideal Cert.Spec.SW .f32) (bias : FVec Ideal Cert.Spec.SB .f32)
    (h1 : S128x100000.Transposes [1, 0] S100000x128) (h2 : S100000.ShapeCasts S20x1x5000)
    (h3 : S100000x1024.Transposes [1, 0] S1024x100000) :
    transpose S1024x100000 [1, 0]
        (outT (transpose S100000x128 [1, 0] w h1) (Cert.Spec.pooled idx emb) (shapeCast S20x1x5000 bias h2)) h3
      = Cert.Spec.G idx emb w bias := by
  funext j
  obtain ⟨b, v, rfl⟩ : ∃ (b : Fin 1024) (v : Fin 100000), j = ix2 b v := ⟨j 0, j 1, eq_ix2 j⟩
  rw [outT_apply, outT_ix2]
  unfold outTAt
  rw [biasR_apply]
  have hv : (⟨5000 * (v.val / 5000) + v.val % 5000,
      bias_pos_lt ⟨v.val / 5000, div_5000_lt v⟩ ⟨v.val % 5000, mod_5000_lt v⟩⟩ : Fin 100000) = v :=
    Fin.ext (Nat.div_add_mod v.val 5000)
  rw [hv]
  show _ = Cert.Spec.logitAt idx emb w bias b v
  rw [← logit_of_entry]
  refine congrArg (· + bias (ix1 v)) (Finset.sum_congr rfl fun k _ => ?_)
  rw [wt_apply]
  rfl

end Cert.KernelIdeal.KValue

end
-- ==== Proof.KBlocks.lean ====
/-
  From blocks to the array, for the projection: the output array after the region's twenty write-backs is ONE function
  of the three arrays the region finds — the transposed weights, the pooled array and the bias cut into twenty rows —,
  namely `outT` of them. The printed index maps are decided once over the grid (block `t` of the weights, of the cut
  bias and of the output sits at block index `t`; the pooled array is one block); what point `t` writes back is block
  `t` of `outT` (the payload of the three blocks read where block `t`'s rectangles say); the twenty blocks of 5000
  rows cover the output (row `v` is in block `v / 5000`); hence the final array. With the host operations around the
  region it is the specification's result array.
-/
import proofs.«204135_g55705725829175_cont_9to1c4b_393_20_alg».proof.Proof.ScRegion
import proofs.«204135_g55705725829175_cont_9to1c4b_393_20_alg».proof.Proof.KValueJoin
import Idealize.ShloMosaic.Lib.Pipeline.Value

noncomputable section

open scoped BigOperators

namespace Cert.KernelIdeal.KValue

open Idealize.ShloMosaic Idealize.ShloMosaic.ValueIdx Idealize.ShloMosaic.TcCoe
open Idealize.ShloMosaic.SparseCore.Cfg (HIx)
open Idealize.SL Idealize.SL.RA
open Cert.KernelIdeal Cert.KernelIdeal.Gen
open Cert.Proof.KI

variable {UU : Type} [URA UU] [CountersIn UU]

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: at point `t` the weights', the cut bias's and the output's block
    index is `t` on the leading axis and zero elsewhere; the pooled array's is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 2) = t.val ∧ win1_3.index t (1 : Fin 2) = 0 :=
  (by decide +kernel : ∀ t : Fin grid1.N, _)

/-- A point of the grid as a number below twenty. -/
def pt (t : Fin cfg1.N) : Fin 20 := ⟨t.val, lt_of_lt_of_eq t.isLt N_1⟩

section Region

variable (c : Dev nD) (Ve : (b : Ref sig .tc) → Buf (Elt Ideal) ((c : Thread nD τ).loc b)) (R : Set (SemLoc sig × HIx 1))

omit [URA UU] [CountersIn UU] in
/-- Block `t` of the weights read at `(r, k)` is the weights at row `5000 t + r`. -/
theorem iblk0_apply (t : Fin cfg1.N) (r : Fin 5000) (k : Fin 128) :
    iblk c Ve 0 t (ix2 r k) = Ve main_v1 (ix2 ⟨5000 * (pt t).val + r.val, blk_row_lt (pt t) r⟩ k) := by
  obtain ⟨e0, e1, -⟩ := idx_facts t
  show Ve main_v1 (((cfg1.win 0).blk t).view.emb (ix2 r k)) = _
  refine congrArg (Ve main_v1) (funext fun a => Fin.ext ?_)
  match a with
  | ⟨0, _⟩ => show win1_0.index t (0 : Fin 2) * 5000 + 1 * r.val = 5000 * t.val + r.val; omega
  | ⟨1, _⟩ => show win1_0.index t (1 : Fin 2) * 128 + 1 * k.val = k.val; omega

omit [URA UU] [CountersIn UU] in
/-- The pooled array's one block read at `(b, k)` is the pooled array there. -/
theorem iblk1_apply (t : Fin cfg1.N) (b : Fin 1024) (k : Fin 128) :
    iblk c Ve 1 t (ix2 b k) = Ve main_v0 (ix2 b k) := by
  obtain ⟨-, -, e0, e1, -⟩ := idx_facts t
  show Ve main_v0 (((cfg1.win 1).blk t).view.emb (ix2 b k)) = _
  refine congrArg (Ve main_v0) (funext fun a => Fin.ext ?_)
  match a with
  | ⟨0, _⟩ => show win1_1.index t (0 : Fin 2) * 1024 + 1 * b.val = b.val; omega
  | ⟨1, _⟩ => show win1_1.index t (1 : Fin 2) * 128 + 1 * k.val = k.val; omega

omit [URA UU] [CountersIn UU] in
/-- Block `t` of the cut bias read at `(0, 0, r)` is the cut bias at `(t, 0, r)`. -/
theorem iblk2_apply (t : Fin cfg1.N) (r : Fin 5000) :
    iblk c Ve 2 t (ix3 0 0 r) = Ve main_v2 (ix3 (pt t) 0 r) := by
  obtain ⟨-, -, -, -, e0, e1, e2, -⟩ := idx_facts t
  show Ve main_v2 (((cfg1.win 2).blk t).view.emb (ix3 0 0 r)) = _
  refine congrArg (Ve main_v2) (funext fun a => Fin.ext ?_)
  match a with
  | ⟨0, _⟩ => show win1_2.index t (0 : Fin 3) * 1 + 1 * 0 = t.val; omega
  | ⟨1, _⟩ => show win1_2.index t (1 : Fin 3) * 1 + 1 * 0 = 0; omega
  | ⟨2, _⟩ => show win1_2.index t (2 : Fin 3) * 5000 + 1 * r.val = r.val; omega

/-- What point `t` writes back is block `t` of `outT` of the three arrays as the region finds them. -/
theorem flushed3_eq (t : Fin cfg1.N) :
    (dat1 (F := Ideal) (UU := UU) c Ve R).flushed 3 t
      = ((cfg1.win 3).blk t).view.read (Elt Ideal) (outT (Ve main_v1) (Ve main_v0) (Ve main_v2)) := by
  show (cfg1.win 3).cut (grid1.coords t) ((dat1 (F := Ideal) (UU := UU) c Ve R).after 3 t) = _
  rw [after_3]
  unfold outBlk
  rw [View.canon_unit_zero hz2]
  simp only [View.ld_unit_zero (S := S5000x128) hz2, View.ld_unit_zero (S := S1024x128) hz2, View.ld_unit_zero (S := S1x1x5000) hz3]
  refine funext fun (j : S5000x1024.Idx) => ?_
  obtain ⟨r, b, rfl⟩ : ∃ (r : Fin 5000) (b : Fin 1024), j = ix2 r b := ⟨j 0, j 1, eq_ix2 j⟩
  obtain ⟨-, -, -, -, -, -, -, e0, e1⟩ := idx_facts t
  have hx : (cfg1.win 3).xinj (grid1.coords t) (ix2 r b) = ix2 r b :=
    funext fun a => Fin.ext (by match a with | ⟨0, _⟩ => rfl | ⟨1, _⟩ => rfl)
  have he : ((cfg1.win 3).blk t).view.emb (ix2 r b) = ix2 ⟨5000 * (pt t).val + r.val, blk_row_lt (pt t) r⟩ b := by
    funext a; apply Fin.ext
    match a with
    | ⟨0, _⟩ => show win1_3.index t (0 : Fin 2) * 5000 + 1 * r.val = 5000 * t.val + r.val; omega
    | ⟨1, _⟩ => show win1_3.index t (1 : Fin 2) * 1024 + 1 * b.val = b.val; omega
  show k1_pay1 (iblk c Ve 0 t) (iblk c Ve 1 t) (iblk c Ve 2 t) ((cfg1.win 3).xinj (grid1.coords t) (ix2 r b))
    = outT (Ve main_v1) (Ve main_v0) (Ve main_v2) (((cfg1.win 3).blk t).view.emb (ix2 r b))
  rw [hx, he]
  exact k1_pay1_block (Ve main_v1) (Ve main_v0) (Ve main_v2) (pt t) _ _ _
    (iblk0_apply c Ve t) (iblk1_apply c Ve t) (iblk2_apply c Ve t) r b

omit [URA UU] [CountersIn UU] in
/-- An index of the output is in point `t`'s block iff each coordinate is in the block's range on its axis. -/
theorem mem_blk3 (t : Fin cfg1.N) (i : S100000x1024.Idx) :
    i ∈ ((cfg1.win 3).blk t).view.set ↔ ∀ a : Fin 2, win1_3.index t a * S5000x1024.size a ≤ (i a).val
      ∧ (i a).val < win1_3.index t a * S5000x1024.size a + S5000x1024.size a := by
  show i ∈ ((View.whole main_v3).slice (win1_3.rect t)).set ↔ _
  rw [View.set_slice_whole, Rect.mem_set_unit]
  exact Iff.rfl

omit [URA UU] [CountersIn UU] in
/-- The twenty blocks cover the output: row `v` is in the block of point `v / 5000`, and every point writes back. -/
theorem cover3 (i : S100000x1024.Idx) :
    ∃ t : Fin cfg1.N, (cfg1.win 3).flush t = true ∧ i ∈ ((cfg1.win 3).blk t).view.set := by
  have hi0 : (i 0).val < 100000 := (i 0).isLt
  have hi1 : (i 1).val < 1024 := (i 1).isLt
  have hN : (i 0).val / 5000 < cfg1.N := lt_of_lt_of_eq (by omega) N_1.symm
  refine ⟨⟨(i 0).val / 5000, hN⟩, flush1_3 _, ?_⟩
  obtain ⟨-, -, -, -, -, -, -, e0, e1⟩ := idx_facts ⟨(i 0).val / 5000, hN⟩
  have e0' : win1_3.index ⟨(i 0).val / 5000, hN⟩ (0 : Fin 2) = (i 0).val / 5000 := e0
  rw [mem_blk3]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    omega
  | ⟨1, _⟩ =>
    show win1_3.index ⟨(i 0).val / 5000, hN⟩ (1 : Fin 2) * 1024 ≤ (i 1).val
      ∧ (i 1).val < win1_3.index ⟨(i 0).val / 5000, hN⟩ (1 : Fin 2) * 1024 + 1024
    omega

/-- THE OUTPUT ARRAY after the region: `outT` of the three arrays as the region finds them. -/
theorem out_final_Ve :
    (dat1 (F := Ideal) (UU := UU) c Ve R).arrAt 3 cfg1.N = outT (Ve main_v1) (Ve main_v0) (Ve main_v2) :=
  (dat1 (F := Ideal) (UU := UU) c Ve R).arrAt_eq_of_cover 3 (outT (Ve main_v1) (Ve main_v0) (Ve main_v2))
    (fun t _ => flushed3_eq c Ve R t) cover3

/-- The same with the three arrays named: every entry `(v, b)` is the weights' row `v` against the pooled row `b`,
    plus the cut bias at `(v / 5000, 0, v % 5000)`. -/
theorem out_final (P : FVec Ideal S1024x128 .f32) (W : FVec Ideal S100000x128 .f32) (B : FVec Ideal S20x1x5000 .f32)
    (h0 : Ve main_v1 = W) (h1 : Ve main_v0 = P) (h2 : Ve main_v2 = B) :
    (dat1 (F := Ideal) (UU := UU) c Ve R).arrAt 3 cfg1.N = outT W P B := by
  rw [out_final_Ve, h0, h1, h2]

/-- With the host operations around the region — the weights transposed, the specification's pooled array, the bias
    cut into twenty rows — the output array transposed is the specification's result array. -/
theorem out_final_G (idx : IVec Cert.Spec.SIdx 32) (emb : FVec Ideal Cert.Spec.STab .f32)
    (w : FVec Ideal Cert.Spec.SW .f32) (bias : FVec Ideal Cert.Spec.SB .f32)
    (g1 : S128x100000.Transposes [1, 0] S100000x128) (g2 : S100000.ShapeCasts S20x1x5000)
    (g3 : S100000x1024.Transposes [1, 0] S1024x100000)
    (h0 : Ve main_v1 = transpose S100000x128 [1, 0] w g1) (h1 : Ve main_v0 = Cert.Spec.pooled idx emb)
    (h2 : Ve main_v2 = shapeCast S20x1x5000 bias g2) :
    transpose S1024x100000 [1, 0] ((dat1 (F := Ideal) (UU := UU) c Ve R).arrAt 3 cfg1.N) g3
      = Cert.Spec.G idx emb w bias := by
  rw [out_final c Ve R _ _ _ h0 h1 h2]
  exact result_eq_G idx emb w bias g1 g2 g3

end Region

end Cert.KernelIdeal.KValue

end
-- ==== Proof.ScClaims.lean ====
/-
  The idealized kernel's two claims from its run. The frame: the run with the value forgotten. The value: at the ideal
  instance the result array — the transpose of what the projection's region leaves, over the transposed weights, the
  pooled array and the reshaped bias — is the specification's logits of the four argument arrays: the region's final
  array is one whole-array function of its three inputs, the pooled array is the specification's, and the two
  transposes and the reshape are index equations.
-/
import proofs.«204135_g55705725829175_cont_9to1c4b_393_20_alg».proof.Proof.ScRun
import proofs.«204135_g55705725829175_cont_9to1c4b_393_20_alg».proof.Proof.KBlocks
import proofs.«204135_g55705725829175_cont_9to1c4b_393_20_alg».proof.Proof.KValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UC ℕ

variable (m : (ℓ : Loc nD τ sig) → Buf (Elt F) ℓ) (ρ : Dev nD → PrngReg)

open Idealize.ShloMosaic.Pipeline (Dat BodyObligation cellOf)
open Idealize.ShloMosaic.TcCoe

section Ideal

variable (mI : (ℓ : Loc nD τ sig) → Buf (Elt Ideal) ℓ)

theorem Ve_v1 (c : Dev nD) : Ve (F := Ideal) mI c main_v1 = transpose S100000x128 [1, 0] (mI (c, a2')) transposes_S128x100000_S100000x128_1_0 := by
  show V3 mI c v1' = _
  unfold V3
  rw [StableHlo.reshape_result_ne (r := main_v1) (h := by decide), StableHlo.unary_result, V1_of_ne mI c (show a2' ≠ v0' by decide)]

theorem Ve_v0 (hidx : IdxOK mI) (c : Dev nD) : Ve (F := Ideal) mI c main_v0 = Cert.Spec.pooled (mI (c, a0')) (mI (c, a1')) := by
  show V3 mI c v0' = _
  rw [V3_of_ne mI c (by decide) (by decide), V1_v0]
  exact Cert.KernelIdeal.KValue.poolF_ideal mI hidx c

theorem Ve_v2 (c : Dev nD) : Ve (F := Ideal) mI c main_v2 = shapeCast S20x1x5000 (mI (c, a3')) shapeCasts_S100000_S20x1x5000 := by
  show V3 mI c v2' = _
  unfold V3
  rw [StableHlo.reshape_result, (opT1 (F := Ideal)).result_of_not_mem _ (show a3' ∉ ({v1'} : Finset (DevRef τ sig)) by decide), V1_of_ne mI c (show a3' ≠ v0' by decide)]
  rfl

/-- The result array's final value is the specification's. -/
theorem V5_value (hidx : IdxOK mI) (c : Dev nD) (W : Waits sig (HIx 1)) :
    V5 (F := Ideal) mI c W v4' = Cert.Spec.G (mI (c, a0')) (mI (c, a1')) (mI (c, a2')) (mI (c, a3')) := by
  unfold V5
  rw [StableHlo.unary_result, V4_v3]
  exact Cert.KernelIdeal.KValue.out_final_G (UU := UC) c (Ve mI c) {p | p ∈ W} (mI (c, a0')) (mI (c, a1')) (mI (c, a2')) (mI (c, a3')) _ _ _
    (Ve_v1 mI c) (Ve_v0 mI hidx c) (Ve_v2 mI c)

end Ideal

end Cert.Proof.KI

end
-- ==== Proof.ScBodyDefs.lean ====
import proofs.«204135_g55705725829175_cont_9to1c4b_393_20_alg».proof.Proof.ScCommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

/-! ## The tile's memrefs as the program spells them -/

local notation "xV" => (Memref.whole Cert.KernelIdeal.main_arg1_scv : Memref Cert.KernelIdeal.sig Kind.scVector Space.hbm Cert.KernelIdeal.S100000x128 EltTy.f32)
local notation "iV" => (Memref.whole Cert.KernelIdeal.main_arg0_scv : Memref Cert.KernelIdeal.sig Kind.scVector Space.hbm Cert.KernelIdeal.S1024x50 EltTy.i32)
local notation "oV" => (Memref.whole Cert.KernelIdeal.main_v0_scv : Memref Cert.KernelIdeal.sig Kind.scVector Space.hbm Cert.KernelIdeal.S1024x128 EltTy.f32)
local notation "a5" => (Memref.whole Cert.KernelIdeal.cc0_scratch0 : Memref Cert.KernelIdeal.sig Kind.scVector Space.vmem Cert.KernelIdeal.S32x50 EltTy.i32)
local notation "a6" => (Memref.whole Cert.KernelIdeal.cc0_scratch1 : Memref Cert.KernelIdeal.sig Kind.scVector Space.vmem Cert.KernelIdeal.S4x50x128 EltTy.f32)
local notation "a7" => (Memref.whole Cert.KernelIdeal.cc0_scratch2 : Memref Cert.KernelIdeal.sig Kind.scVector Space.vmem Cert.KernelIdeal.S32x128 EltTy.f32)

section Tile
variable (d : Dev nD) (L : grid0.Coords)

abbrev thr : Thread nD τ := V d (cV L) (jV L)

theorem inb_sem (k : Fin 4) : ∀ a, (![k.val] : Fin 1 → Nat) a + S1.size a ≤ S4.size a := by revert k; decide
/-- Semaphore `k` of the ring, as the program names it. -/
abbrev semM (k : Fin 4) : DmaSems sig S_ := (cc0_scratch3.slice (Rect.unit (s := S4) ![k.val] S1.size (inb_sem k))).squeeze S_ squeezes_S1_S_

abbrev cA : GSem nD τ sig := (thr d L, .dma cc0_scoped0.sem)
abbrev cB : GSem nD τ sig := (thr d L, .dma cc0_scoped1.sem)
abbrev cS (k : Fin 4) : GSem nD τ sig := (thr d L, .dma (semM k).sem)

theorem scoped_dma (s : DmaSem sig) : (SemLoc.dma s : SemLoc sig).isScoped .scVector = true := by revert s; decide

theorem ownSems0_V :
    (ownSems0 (thr d L) : sProp 𝕄)
      = iprop(semVal (cA d L) 0 ∗ semVal (cB d L) 0 ∗ semVal (cS d L 0) 0 ∗ semVal (cS d L 1) 0 ∗ semVal (cS d L 2) 0 ∗ semVal (cS d L 3) 0
          ∗ bigSep (((((((ownCells (thr d L)).erase (cA d L)).erase (cB d L)).erase (cS d L 0)).erase (cS d L 1)).erase (cS d L 2)).erase (cS d L 3)) fun g => semVal g 0) := by
  unfold SparseCore.Cfg.ownSems0
  have hm : ∀ s : DmaSem sig, ((thr d L, SemLoc.dma s) : GSem nD τ sig) ∈ ownCells (thr d L) := fun s =>
    (mem_ownCells (g := (thr d L, SemLoc.dma s))).mpr ⟨rfl, scoped_dma s⟩
  have hne : ∀ s s' : DmaSem sig, s ≠ s' → ((thr d L, SemLoc.dma s) : GSem nD τ sig) ≠ (thr d L, SemLoc.dma s') := by
    intro s s' h e; exact h (by simpa using e)
  rw [SparseCore.bigSep_erase' (hm cc0_scoped0.sem),
    SparseCore.bigSep_erase' (Finset.mem_erase.mpr ⟨hne _ _ (by decide), hm cc0_scoped1.sem⟩),
    SparseCore.bigSep_erase' (Finset.mem_erase.mpr ⟨hne _ _ (by decide), Finset.mem_erase.mpr ⟨hne _ _ (by decide), hm (semM 0).sem⟩⟩),
    SparseCore.bigSep_erase' (Finset.mem_erase.mpr ⟨hne _ _ (by decide), Finset.mem_erase.mpr ⟨hne _ _ (by decide), Finset.mem_erase.mpr ⟨hne _ _ (by decide), hm (semM 1).sem⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), hm (semM 2).sem⟩⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), Finset.mem_erase.mpr ⟨hne _ _ (by decide), hm (semM 3).sem⟩⟩⟩⟩⟩)]

/-- The three scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have hm0 := SparseCore.Cfg.mem_ownRefs_of_owner (p := Proc.scVector (cV L) (jV L)) (b := (Proc.scVector (cV L) (jV L)).devRef cc0_scratch0) rfl
  have hm1 := SparseCore.Cfg.mem_ownRefs_of_owner (p := Proc.scVector (cV L) (jV L)) (b := (Proc.scVector (cV L) (jV L)).devRef cc0_scratch1) rfl
  have hm2 := SparseCore.Cfg.mem_ownRefs_of_owner (p := Proc.scVector (cV L) (jV L)) (b := (Proc.scVector (cV L) (jV L)).devRef cc0_scratch2) rfl
  have hne : ∀ r r' : Ref sig .scVector, r ≠ r' → (Proc.scVector (cV L) (jV L)).devRef r ≠ (Proc.scVector (cV L) (jV L)).devRef r' :=
    fun r r' h e => h (Proc.devRef_injective _ e)
  refine (SparseCore.bigSep_erase' hm0).trans ?_
  rw [SparseCore.bigSep_erase' (Finset.mem_erase.mpr ⟨hne _ _ (by decide), hm1⟩),
    SparseCore.bigSep_erase' (Finset.mem_erase.mpr ⟨hne _ _ (by decide), Finset.mem_erase.mpr ⟨hne _ _ (by decide), hm2⟩⟩)]

abbrev irowK (L : grid0.Coords) : Rect S1024x50 := Rect.unit (s := S1024x50) (k0_off1 L) S32x50.size (k0_off1_inb L)
abbrev orowK (L : grid0.Coords) : Rect S1024x128 := Rect.unit (s := S1024x128) (k0_off416 L) S32x128.size (k0_off416_inb L)
abbrev iRowK (L : grid0.Coords) : Memref sig .scVector .hbm S32x50 .i32 := (iV).slice (irowK L) (fun _ => rfl)
abbrev oRowK (L : grid0.Coords) : Memref sig .scVector .hbm S32x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

theorem irowK_eq : irowK L = irow (wid L) := by
  unfold irowK irow Rect.part Rect.block
  congr 1 <;> funext a
  · rw [k0_off1_eq]
    match a with
    | 0 => simp [Shape.partIx, Shape.partSize, wid]; omega
    | 1 => simp [Shape.partIx, Shape.partSize]
  · match a with
    | 0 => simp [Shape.partSize]
    | 1 => simp [Shape.partSize]
theorem orowK_eq : orowK L = orow (wid L) := by
  unfold orowK orow Rect.part Rect.block
  congr 1 <;> funext a
  · rw [k0_off416_eq]
    match a with
    | 0 => simp [Shape.partIx, Shape.partSize, wid]; omega
    | 1 => simp [Shape.partIx, Shape.partSize]
  · match a with
    | 0 => simp [Shape.partSize]
    | 1 => simp [Shape.partSize]

theorem set_iRowK : (iRowK L).view.set = iRowSet (wid L) := by
  show ((iV).view.slice (irowK L)).set = ((iV).view.slice (irow (wid L))).set
  exact irowK_eq L ▸ rfl
theorem set_oRowK : (oRowK L).view.set = oRowSet (wid L) := by
  show ((oV).view.slice (orowK L)).set = ((oV).view.slice (orow (wid L))).set
  exact orowK_eq L ▸ rfl

theorem pts_iRowK (f : Buf (Elt F) (iLoc d)) :
    ((iRowK L).view.loc (thr d L) ↦[(iRowK L).view.set]{fullShare} f : sProp 𝕄) = iLoc d ↦[iRowSet (wid L)]{fullShare} f := by
  rw [set_iRowK]
theorem pts_oRowK (f : Buf (Elt F) (oLoc d)) :
    ((oRowK L).view.loc (thr d L) ↦[(oRowK L).view.set]{fullShare} f : sProp 𝕄) = oLoc d ↦[oRowSet (wid L)]{fullShare} f := by
  rw [set_oRowK]
theorem pts_xV (q : PosShare TreeShare) (f : Buf (Elt F) (xLoc d)) :
    ((xV).view.loc (thr d L) ↦{q} f : sProp 𝕄) = xLoc d ↦{q} f := rfl
theorem pts_a5 (f : Buf (Elt F) ((thr d L).loc cc0_scratch0)) :
    ((a5).view.loc (thr d L) ↦{fullShare} f : sProp 𝕄) = (thr d L).loc cc0_scratch0 ↦{fullShare} f := rfl
theorem pts_a6 (f : Buf (Elt F) ((thr d L).loc cc0_scratch1)) :
    ((a6).view.loc (thr d L) ↦{fullShare} f : sProp 𝕄) = (thr d L).loc cc0_scratch1 ↦{fullShare} f := rfl
theorem pts_a7 (f : Buf (Elt F) ((thr d L).loc cc0_scratch2)) :
    ((a7).view.loc (thr d L) ↦{fullShare} f : sProp 𝕄) = (thr d L).loc cc0_scratch2 ↦{fullShare} f := rfl

/-! ## The ring by number: slot `n`, offsets row `b`, semaphore `n` -/

theorem inb_slot (n : Nat) (h : n < 4) : ∀ a, (![n, 0, 0] : Fin 3 → Nat) a + S1x50x128.size a ≤ S4x50x128.size a := by
  interval_cases n <;> decide
theorem inb_off (b : Nat) (h : b < 32) : ∀ a, (![b, 0] : Fin 2 → Nat) a + S1x50.size a ≤ S32x50.size a := by
  interval_cases b <;> decide
theorem inb_semN (n : Nat) (h : n < 4) : ∀ a, (![n] : Fin 1 → Nat) a + S1.size a ≤ S4.size a := by
  interval_cases n <;> decide

abbrev slotN (n : Nat) (h : n < 4) : Memref sig .scVector .vmem S50x128 .f32 :=
  ((a6).slice (Rect.unit (s := S4x50x128) ![n, 0, 0] S1x50x128.size (inb_slot n h)) (fun _ => rfl)).squeeze S50x128 squeezes_S1x50x128_S50x128
abbrev offN (b : Nat) (h : b < 32) : Memref sig .scVector .vmem S50 .i32 :=
  ((a5).slice (Rect.unit (s := S32x50) ![b, 0] S1x50.size (inb_off b h)) (fun _ => rfl)).squeeze S50 squeezes_S1x50_S50
abbrev semN (n : Nat) (h : n < 4) : DmaSems sig S_ :=
  (cc0_scratch3.slice (Rect.unit (s := S4) ![n] S1.size (inb_semN n h))).squeeze S_ squeezes_S1_S_

theorem mod4 (b : Nat) : b % 4 < 4 := Nat.mod_lt _ (by norm_num)

/-- Quarter `n` of a share. -/
abbrev sh (q : PosShare TreeShare) (n : Nat) (h : n < 4) : PosShare TreeShare := leaf 2 q ⟨n, h⟩

/-- The tile's block of the index array: what the first copy lands in the index scratch. -/
def idxI : Buf (Elt F) ((thr d L).loc cc0_scratch0) := (iRowK L).view.read (Elt F) (m (iLoc d))

/-- A fixed filler for the row scratch (an element of the table everywhere). -/
def fill6 : Buf (Elt F) ((thr d L).loc cc0_scratch1) := fun _ => m (xLoc d) (ix2 ⟨0, by norm_num⟩ ⟨0, by norm_num⟩)

theorem hin_b (hidx : IdxOK m) (b : Nat) (hb : b < 32) :
    ∀ x, ((offN b hb).view.read (Elt F) (idxI m d L) x).toNat < S100000x128.size gathers_S100000x128_S50x128.axis := by
  intro x
  unfold idxI
  rw [show ∀ j, (offN b hb).view.read (Elt F) ((iRowK L).view.read (Elt F) (m (iLoc d))) j
      = (iRowK L).view.read (Elt F) (m (iLoc d)) ((offN b hb).view.emb j) from fun j => (View.read_apply _ _).trans (cast_eq _ _)]
  rw [show ∀ j, (iRowK L).view.read (Elt F) (m (iLoc d)) j = m (iLoc d) ((iRowK L).view.emb j) from fun j => (View.read_apply _ _).trans (cast_eq _ _)]
  exact hidx d _

/-- The row scratch with gather `b` landed in its slot (the filler elsewhere). -/
def gath (hidx : IdxOK m) (b : Nat) (hb : b < 32) : Buf (Elt F) ((thr d L).loc cc0_scratch1) :=
  (slotN (b % 4) (mod4 b)).view.write (Elt F) (fill6 m d L)
    (SparseCore.gatherPayload gathers_S100000x128_S50x128 ((xAllK).view.read (Elt F) (m (xLoc d)))
      (SparseCore.rows ((offN b hb).view.read (Elt F) (idxI m d L)) rfl (hin_b m d L hidx b hb))) Finset.univ

theorem write_univ_congr {κ : Kind} {sp : Space} {s : Shape} {e : EltTy} (v : View sig κ sp s e) (f g : v.ty.Contents (Elt F)) (w : s.Idx → Elt F e) :
    ∀ i ∈ v.set, v.write (Elt F) f w Finset.univ i = v.write (Elt F) g w Finset.univ i := by
  intro i hi
  obtain ⟨x, -, rfl⟩ := Finset.mem_map.mp hi
  rw [View.write_emb_of_mem _ _ (Finset.mem_univ x), View.write_emb_of_mem _ _ (Finset.mem_univ x)]

section Res
variable (hidx : IdxOK m)

/-- What gather `b` delivers: its slot at the gathered rows, and the shares of the table and of the offsets row it held. -/
def FlyD (b : Nat) (hb : b < 32) : sProp 𝕄 :=
  iprop(((slotN (b % 4) (mod4 b)).view.loc (V d (cV L) (jV L)) ↦[(slotN (b % 4) (mod4 b)).view.set]{fullShare} gath m d L hidx b hb)
    ∗ ((xAllK).view.loc (V d (cV L) (jV L)) ↦[(xAllK).view.set]{sh (xq (wid L)) (b % 4) (mod4 b)} m (xLoc d))
    ∗ ((offN b hb).view.loc (V d (cV L) (jV L)) ↦[(offN b hb).view.set]{sh fullShare (b % 4) (mod4 b)} idxI m d L))

/-- What is left beside a gather in flight: the rest of the slot's shares of the table and of the index scratch. -/
def Rest (b : Nat) (hb : b < 32) : sProp 𝕄 :=
  iprop(((xV).view.loc (V d (cV L) (jV L)) ↦[Finset.univ \ (xAllK).view.set]{sh (xq (wid L)) (b % 4) (mod4 b)} m (xLoc d))
    ∗ ((a5).view.loc (V d (cV L) (jV L)) ↦[Finset.univ \ (offN b hb).view.set]{sh fullShare (b % 4) (mod4 b)} idxI m d L))

/-- Gather `b` in flight on its slot's semaphore. -/
def Fly (b : Nat) (hb : b < 32) : sProp 𝕄 :=
  iprop(Transfers.Flight countersEmb (V d (cV L) (jV L)) (.dma (semN (b % 4) (mod4 b)).sem) (default : HIx 1) (slotN (b % 4) (mod4 b)).view.dmaCredit (FlyD m d L hidx b hb)
    ∗ Rest m d L b hb)

/-- Gather `b` landed: its delivery, the semaphore back at zero, the rests. -/
def Landed (b : Nat) (hb : b < 32) : sProp 𝕄 :=
  iprop(FlyD m d L hidx b hb ∗ semVal (V d (cV L) (jV L), SemLoc.dma (semN (b % 4) (mod4 b)).sem) 0 ∗ Rest m d L b hb)

/-- Slot `n` free: the slot at some contents, its semaphore at zero, its shares of the table and of the index scratch. -/
def Free (n : Nat) (h : n < 4) : sProp 𝕄 :=
  iprop((∃ f, (slotN n h).view.loc (V d (cV L) (jV L)) ↦[(slotN n h).view.set]{fullShare} f)
    ∗ semVal (V d (cV L) (jV L), SemLoc.dma (semN n h).sem) 0
    ∗ ((xV).view.loc (V d (cV L) (jV L)) ↦{sh (xq (wid L)) n h} m (xLoc d))
    ∗ ((a5).view.loc (V d (cV L) (jV L)) ↦{sh fullShare n h} idxI m d L))

end Res

section Steps
variable [FloatOps F] [Named F] (hidx : IdxOK m)

/-- A free slot starts gather `b` (`b % 4` its number): the slot, the semaphore at zero, the slot's share of the table and
    of row `b` of the index scratch go into the stream; back comes the gather in flight. -/
theorem start_gather (b : Nat) (hb : b < 32) {α : Type} {Q : α → sProp 𝕄}
    {k : PUnit → Prog (TpuEff nD τ sig (Elt F) Λ₀ (V d (cV L) (jV L)).2) α}
    {hp hn hsrc he hsp hr} :
    (Free m d L (b % 4) (mod4 b) : sProp 𝕄)
      ⊢ iprop((Fly m d L hidx b hb -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.enqueueIndirectGather hp (xAllK) (slotN (b % 4) (mod4 b)) gathers_S100000x128_S50x128 (offN b hb) hn (semN (b % 4) (mod4 b)).sem hsrc he hsp hr >>= k) Q) := by
  unfold Free Fly Rest
  iintro ⟨⟨%f, Hd⟩, Hv, Hx, H5⟩ Hk
  ihave Hxs := (pointsTo_split_subset (q := sh (xq (wid L)) (b % 4) (mod4 b)) (f := m (xLoc d)) (S := Finset.univ) (Finset.subset_univ (xAllK).view.set)).1 $$ Hx
  icases Hxs with ⟨Hxs, Hxr⟩
  ihave H5s := (pointsTo_split_subset (q := sh fullShare (b % 4) (mod4 b)) (f := idxI m d L) (S := Finset.univ) (Finset.subset_univ (offN b hb).view.set)).1 $$ H5
  icases H5s with ⟨H5s, H5r⟩
  iapply (SparseCore.wp_indirectGatherLocal countersEmb 𝒱₀ (V d (cV L) (jV L)) none (hg := gathers_S100000x128_S50x128) (default : HIx 1)
      (slotN (b % 4) (mod4 b)).view.dmaCredit (SparseCore.sum_rowCredit_eq_dmaCredit _ _ (fun _ => rfl)) (by decide) (hin_b m d L hidx b hb)) $$ [Hxs Hd H5s Hv]
  · isplitl [Hxs]; · iexact Hxs
    isplitl [Hd]; · iexact Hd
    isplitl [H5s]; · iexact H5s
    iexact Hv
  iintro Hfl
  iapply Hk
  isplitl [Hfl]
  · iapply (Transfers.Flight_mono countersEmb (V d (cV L) (jV L)) (D' := FlyD m d L hidx b hb) (by
      unfold FlyD gath
      iintro ⟨Hd, Hs, Ho⟩
      isplitl [Hd]
      · iapply (Entails.of_eq (pointsTo_congr (write_univ_congr (slotN (b % 4) (mod4 b)).view f (fill6 m d L) _))); iexact Hd
      isplitl [Hs] <;> iassumption)) $$ Hfl
  isplitl [Hxr] <;> iassumption

/-- The wait for gather `b` on its slot's semaphore. -/
theorem wait_gather (b : Nat) (hb : b < 32) {α : Type} {Q : α → sProp 𝕄}
    {s' : Shape} {e' : EltTy} {sp sp' : Space} {s : Shape} {e : EltTy} {κ' : Kind}
    {srcw : Memref sig (V d (cV L) (jV L)).2.kind sp' s' e'} {dstw : Memref sig κ' sp s e} {hsrc : srcw.view.WordExact} {hdst : dstw.view.WordExact}
    {k : PUnit → Prog (TpuEff nD τ sig (Elt F) Λ₀ (V d (cV L) (jV L)).2) α}
    (hN : dstw.view.dmaCredit = (slotN (b % 4) (mod4 b)).view.dmaCredit)
    {O : CellTallies nD τ sig (HIx 1)} {W : Waits sig (HIx 1)} :
    (iprop(Fly m d L hidx b hb ∗ owes (V d (cV L) (jV L)) O W ∗ Transfers.MayWaits (V d (cV L) (jV L)) (default : HIx 1) O) : sProp 𝕄)
      ⊢ iprop((iprop(Landed m d L hidx b hb ∗ owes (V d (cV L) (jV L)) O (insert (SemLoc.dma (semN (b % 4) (mod4 b)).sem, (default : HIx 1)) W))
            -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 (semN (b % 4) (mod4 b)).sem srcw dstw hsrc hdst) k) Q) := by
  unfold Fly Landed
  iintro ⟨⟨Hfl, Hr⟩, HO, Hmw⟩ Hk
  iapply (Transfers.wp_waitLocalO countersEmb 𝒱₀ (V d (cV L) (jV L)) none (default : HIx 1) hN) $$ [Hfl HO Hmw]
  · isplitl [Hfl]; · iexact Hfl
    isplitl [HO]; · iexact HO
    iapply (Transfers.MayWaits.elim (SemLoc.dma (semN (b % 4) (mod4 b)).sem)) $$ Hmw
  iintro ⟨HD, Hv, HO⟩
  iapply Hk
  isplitr [HO]; swap; · iexact HO
  isplitl [HD]; · iexact HD
  isplitl [Hv] <;> iassumption

/-- A landed gather's slot is free again. -/
theorem landed_free (b : Nat) (hb : b < 32) : (Landed m d L hidx b hb : sProp 𝕄) ⊢ Free m d L (b % 4) (mod4 b) := by
  unfold Landed FlyD Rest Free
  iintro ⟨⟨Hd, Hxs, H5s⟩, Hv, Hxr, H5r⟩
  isplitl [Hd]; · iexists _; iexact Hd
  isplitl [Hv]; · iexact Hv
  isplitl [Hxs Hxr]
  · iapply (pointsTo_split_subset (q := sh (xq (wid L)) (b % 4) (mod4 b)) (f := m (xLoc d)) (S := Finset.univ) (Finset.subset_univ (xAllK).view.set)).2
    isplitl [Hxs] <;> iassumption
  · iapply (pointsTo_split_subset (q := sh fullShare (b % 4) (mod4 b)) (f := idxI m d L) (S := Finset.univ) (Finset.subset_univ (offN b hb).view.set)).2
    isplitl [H5s] <;> iassumption

end Steps

/-! ## Quarters of a share; the four slots of the row scratch -/

theorem sh0 (q : PosShare TreeShare) : sh q 0 (by norm_num) = q.left.left := by simp [sh, leaf]
theorem sh1 (q : PosShare TreeShare) : sh q 1 (by norm_num) = q.left.right := by simp [sh, leaf]
theorem sh2 (q : PosShare TreeShare) : sh q 2 (by norm_num) = q.right.left := by simp [sh, leaf]
theorem sh3 (q : PosShare TreeShare) : sh q 3 (by norm_num) = q.right.right := by simp [sh, leaf]

theorem pts_quarters {ℓ : Loc nD τ sig} (I : Finset (Idx ℓ)) (f : Buf (Elt F) ℓ) (q : PosShare TreeShare) :
    (ℓ ↦[I]{q} f : sProp 𝕄) ⊣⊢ iprop((ℓ ↦[I]{sh q 0 (by norm_num)} f) ∗ (ℓ ↦[I]{sh q 1 (by norm_num)} f) ∗ (ℓ ↦[I]{sh q 2 (by norm_num)} f) ∗ (ℓ ↦[I]{sh q 3 (by norm_num)} f)) := by
  rw [sh0, sh1, sh2, sh3]
  constructor
  · iintro H
    ihave H := (pointsTo_share (PosShare.mem_left_op_right q)).1 $$ H
    icases H with ⟨Hl, Hr⟩
    ihave Hl := (pointsTo_share (PosShare.mem_left_op_right q.left)).1 $$ Hl
    icases Hl with ⟨Hll, Hlr⟩
    ihave Hr := (pointsTo_share (PosShare.mem_left_op_right q.right)).1 $$ Hr
    icases Hr with ⟨Hrl, Hrr⟩
    isplitl [Hll]; · iexact Hll
    isplitl [Hlr]; · iexact Hlr
    isplitl [Hrl] <;> iassumption
  · iintro ⟨Hll, Hlr, Hrl, Hrr⟩
    iapply (pointsTo_share (PosShare.mem_left_op_right q)).2
    isplitl [Hll Hlr]
    · iapply (pointsTo_share (PosShare.mem_left_op_right q.left)).2
      isplitl [Hll] <;> iassumption
    · iapply (pointsTo_share (PosShare.mem_left_op_right q.right)).2
      isplitl [Hrl] <;> iassumption

theorem sdiv : 4 ∣ S4x50x128.size 0 := ⟨1, rfl⟩
abbrev srow (k : Fin 4) : Rect S4x50x128 := Rect.part (s := S4x50x128) (a₀ := 0) sdiv k
abbrev slotSet (k : Fin 4) : Finset (Idx ((thr d L).loc cc0_scratch1)) := (slotN k.val k.isLt).view.set

theorem slot_rect_eq (k : Fin 4) : Rect.unit (s := S4x50x128) ![k.val, 0, 0] S1x50x128.size (inb_slot k.val k.isLt) = srow k := by
  unfold srow Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem slotSet_eq (k : Fin 4) : slotSet d L k = (srow k).set := by
  show (((a6).view.slice (Rect.unit (s := S4x50x128) ![k.val, 0, 0] S1x50x128.size (inb_slot k.val k.isLt))).reshape S50x128 squeezes_S1x50x128_S50x128.numel_eq).set = _
  rw [View.set_reshape]
  have h1 : ((a6).view.slice (Rect.unit (s := S4x50x128) ![k.val, 0, 0] S1x50x128.size (inb_slot k.val k.isLt))).set = ((a6).view.slice (srow k)).set :=
    slot_rect_eq k ▸ rfl
  refine h1.trans ?_
  show ((View.whole (cc0_scratch1 : Ref sig .scVector)).slice (srow k)).set = _
  rw [View.set_slice]; exact Finset.map_refl

theorem slots_disjoint : ∀ i ∈ (Finset.univ : Finset (Fin 4)), ∀ j ∈ (Finset.univ : Finset (Fin 4)), i ≠ j → Disjoint (slotSet d L i) (slotSet d L j) :=
  fun i _ j _ h => by rw [slotSet_eq, slotSet_eq]; exact Rect.part_disjoint sdiv h
theorem slots_cover : (Finset.univ : Finset (Fin 4)).biUnion (slotSet d L) = Finset.univ :=
  (Finset.biUnion_congr rfl fun i _ => slotSet_eq d L i).trans (Rect.biUnion_part sdiv)

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

theorem a6_slots (f : Buf (Elt F) ((thr d L).loc cc0_scratch1)) :
    ((thr d L).loc cc0_scratch1 ↦{fullShare} f : sProp 𝕄)
      = iprop(((thr d L).loc cc0_scratch1 ↦[slotSet d L 0]{fullShare} f) ∗ ((thr d L).loc cc0_scratch1 ↦[slotSet d L 1]{fullShare} f)
          ∗ ((thr d L).loc cc0_scratch1 ↦[slotSet d L 2]{fullShare} f) ∗ ((thr d L).loc cc0_scratch1 ↦[slotSet d L 3]{fullShare} f)) := by
  rw [← bigSep_fin4 (fun k => ((thr d L).loc cc0_scratch1 ↦[slotSet d L k]{fullShare} f : sProp 𝕄)),
    ← pointsTo_biUnion Finset.univ (ℓ := (thr d L).loc cc0_scratch1) (slotSet d L) (slots_disjoint d L), slots_cover]

theorem a6_join (fs : Fin 4 → Buf (Elt F) ((thr d L).loc cc0_scratch1)) :
    (iprop(((thr d L).loc cc0_scratch1 ↦[slotSet d L 0]{fullShare} fs 0) ∗ ((thr d L).loc cc0_scratch1 ↦[slotSet d L 1]{fullShare} fs 1)
          ∗ ((thr d L).loc cc0_scratch1 ↦[slotSet d L 2]{fullShare} fs 2) ∗ ((thr d L).loc cc0_scratch1 ↦[slotSet d L 3]{fullShare} fs 3)) : sProp 𝕄)
      ⊢ iprop(∃ g, (thr d L).loc cc0_scratch1 ↦{fullShare} g) := by
  rw [← bigSep_fin4 (fun k => ((thr d L).loc cc0_scratch1 ↦[slotSet d L k]{fullShare} fs k : sProp 𝕄))]
  iintro H
  ihave H' := (pointsTo_biUnion_join (ℓ := (thr d L).loc cc0_scratch1) (q := fullShare) (Val := Elt F) Finset.univ (slotSet d L) fs (fs 0) (slots_disjoint d L)) $$ H
  icases H' with ⟨%g, -, Hg⟩
  rw [slots_cover]
  iexists g; iexact Hg

section Inv
variable [FloatOps F] [Named F] (hidx : IdxOK m)

/-- Gather `b` in flight if there is one (`b < 32`), else its slot free. -/
def FlyOrFree (b : Nat) : sProp 𝕄 := if hb : b < 32 then Fly m d L hidx b hb else Free m d L (b % 4) (mod4 b)

theorem FlyOrFree_lt {b : Nat} (hb : b < 32) : (FlyOrFree m d L hidx b : sProp 𝕄) = Fly m d L hidx b hb := dif_pos hb
theorem FlyOrFree_ge {b : Nat} (hb : ¬ b < 32) : (FlyOrFree m d L hidx b : sProp 𝕄) = Free m d L (b % 4) (mod4 b) := dif_neg hb

/-- The pooled scratch before trip `t`: rows below `t` at the pooled array's rows of this tile, the others as at entry. -/
def poolSt (f7 : Buf (Elt F) ((thr d L).loc cc0_scratch2)) (t : Nat) : Buf (Elt F) ((thr d L).loc cc0_scratch2) :=
  fun j => if (j 0).val < t then poolF m d ((oRowK L).view.emb j) else f7 j

/-- The loop's invariant before trip `t`. -/
def inv (f7 : Buf (Elt F) ((thr d L).loc cc0_scratch2)) (O : CellTallies nD τ sig (HIx 1)) (W : Waits sig (HIx 1)) (t : Nat) (_ : PUnit) : sProp 𝕄 :=
  iprop(Transfers.MayWaits (V d (cV L) (jV L)) (default : HIx 1) O
    ∗ FlyOrFree m d L hidx t ∗ FlyOrFree m d L hidx (t + 1) ∗ FlyOrFree m d L hidx (t + 2) ∗ Free m d L ((t + 3) % 4) (mod4 (t + 3))
    ∗ ((a7).view.loc (V d (cV L) (jV L)) ↦{fullShare} poolSt m d L f7 t)
    ∗ ∃ W', ⌜∀ p ∈ W', p ∈ W ∨ p.2 = none⌝ ∗ owes (V d (cV L) (jV L)) O W')

end Inv

section Steps2
variable [FloatOps F] [Named F] (hidx : IdxOK m)

theorem free_intro (n : Nat) (h : n < 4) (f : Buf (Elt F) ((thr d L).loc cc0_scratch1)) :
    (iprop(((slotN n h).view.loc (V d (cV L) (jV L)) ↦[(slotN n h).view.set]{fullShare} f)
      ∗ semVal (V d (cV L) (jV L), SemLoc.dma (semN n h).sem) 0
      ∗ ((xV).view.loc (V d (cV L) (jV L)) ↦{sh (xq (wid L)) n h} m (xLoc d))
      ∗ ((a5).view.loc (V d (cV L) (jV L)) ↦{sh fullShare n h} idxI m d L)) : sProp 𝕄) ⊢ Free m d L n h := by
  unfold Free
  iintro ⟨Hd, Hv, Hx, H5⟩
  isplitl [Hd]; · iexists f; iexact Hd
  isplitl [Hv]; · iexact Hv
  isplitl [Hx] <;> iassumption

theorem poolSt_zero (f7 : Buf (Elt F) ((thr d L).loc cc0_scratch2)) : poolSt m d L f7 0 = f7 := by
  funext j; simp [poolSt]

end Steps2

section Steps3
variable [FloatOps F] [Named F] (hidx : IdxOK m)

theorem cond_iff : ∀ t : Fin k0_t1_loop.trips, k0_cond1 t = 1#1 ↔ t.val + 3 < 32 := by decide +kernel

/-- What a landed gather holds beside its slot. -/
def LRest (b : Nat) (hb : b < 32) : sProp 𝕄 :=
  iprop(((xAllK).view.loc (V d (cV L) (jV L)) ↦[(xAllK).view.set]{sh (xq (wid L)) (b % 4) (mod4 b)} m (xLoc d))
    ∗ ((offN b hb).view.loc (V d (cV L) (jV L)) ↦[(offN b hb).view.set]{sh fullShare (b % 4) (mod4 b)} idxI m d L)
    ∗ semVal (V d (cV L) (jV L), SemLoc.dma (semN (b % 4) (mod4 b)).sem) 0 ∗ Rest m d L b hb)

theorem landed_open (b : Nat) (hb : b < 32) :
    (Landed m d L hidx b hb : sProp 𝕄)
      ⊢ iprop(((slotN (b % 4) (mod4 b)).view.loc (V d (cV L) (jV L)) ↦[(slotN (b % 4) (mod4 b)).view.set]{fullShare} gath m d L hidx b hb) ∗ LRest m d L b hb) := by
  unfold Landed FlyD LRest
  iintro ⟨⟨Hd, Hxs, H5s⟩, Hv, Hr⟩
  isplitl [Hd]; · iexact Hd
  isplitl [Hxs]; · iexact Hxs
  isplitl [H5s]; · iexact H5s
  isplitl [Hv] <;> iassumption

theorem lrest_free (b : Nat) (hb : b < 32) (f : Buf (Elt F) ((thr d L).loc cc0_scratch1)) :
    (iprop(((slotN (b % 4) (mod4 b)).view.loc (V d (cV L) (jV L)) ↦[(slotN (b % 4) (mod4 b)).view.set]{fullShare} f) ∗ LRest m d L b hb) : sProp 𝕄)
      ⊢ Free m d L (b % 4) (mod4 b) := by
  unfold LRest Rest Free
  iintro ⟨Hd, Hxs, H5s, Hv, Hxr, H5r⟩
  isplitl [Hd]; · iexists f; iexact Hd
  isplitl [Hv]; · iexact Hv
  isplitl [Hxs Hxr]
  · iapply (pointsTo_split_subset (q := sh (xq (wid L)) (b % 4) (mod4 b)) (f := m (xLoc d)) (S := Finset.univ) (Finset.subset_univ (xAllK).view.set)).2
    isplitl [Hxs] <;> iassumption
  · iapply (pointsTo_split_subset (q := sh fullShare (b % 4) (mod4 b)) (f := idxI m d L) (S := Finset.univ) (Finset.subset_univ (offN b hb).view.set)).2
    isplitl [H5s] <;> iassumption

/-- `wait_gather` at any spelling of the slot's semaphore. -/
theorem wait_gather' (b : Nat) (hb : b < 32) {α : Type} {Q : α → sProp 𝕄}
    {s' : Shape} {e' : EltTy} {sp sp' : Space} {s : Shape} {e : EltTy} {κ' : Kind} {sem : DmaSem sig}
    {srcw : Memref sig (V d (cV L) (jV L)).2.kind sp' s' e'} {dstw : Memref sig κ' sp s e} {hsrc : srcw.view.WordExact} {hdst : dstw.view.WordExact}
    {k : PUnit → Prog (TpuEff nD τ sig (Elt F) Λ₀ (V d (cV L) (jV L)).2) α}
    (hsem : sem = (semN (b % 4) (mod4 b)).sem)
    (hN : dstw.view.dmaCredit = (slotN (b % 4) (mod4 b)).view.dmaCredit)
    {O : CellTallies nD τ sig (HIx 1)} {W : Waits sig (HIx 1)} :
    (iprop(Fly m d L hidx b hb ∗ owes (V d (cV L) (jV L)) O W ∗ Transfers.MayWaits (V d (cV L) (jV L)) (default : HIx 1) O) : sProp 𝕄)
      ⊢ iprop((iprop(Landed m d L hidx b hb ∗ owes (V d (cV L) (jV L)) O (insert (SemLoc.dma (semN (b % 4) (mod4 b)).sem, (default : HIx 1)) W))
            -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 sem srcw dstw hsrc hdst) k) Q) := by
  subst hsem
  exact wait_gather m d L hidx b hb hN

/-- The gather a trip starts, as the trip spells it (slot, offsets row and semaphore through the trip's own offset
    functions), under the trip's condition. -/
theorem start_gather' (t : Fin k0_t1_loop.trips) (hc : k0_cond1 t = 1#1) (hb : t.val + 3 < 32) {α : Type} {Q : α → sProp 𝕄}
    {k : PUnit → Prog (TpuEff nD τ sig (Elt F) Λ₀ (V d (cV L) (jV L)).2) α}
    {hp hn hsrc he hsp hr} :
    (Free m d L ((t.val + 3) % 4) (mod4 (t.val + 3)) : sProp 𝕄)
      ⊢ iprop((Fly m d L hidx (t.val + 3) hb -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.enqueueIndirectGather hp (xAllK)
                (((a6).slice (Rect.unit (s := S4x50x128) (k0_off5 t) S1x50x128.size (k0_off5_inb t hc)) (fun _ => rfl)).squeeze S50x128 squeezes_S1x50x128_S50x128)
                gathers_S100000x128_S50x128
                (((a5).slice (Rect.unit (s := S32x50) (k0_off6 t) S1x50.size (k0_off6_inb t hc)) (fun _ => rfl)).squeeze S50 squeezes_S1x50_S50)
                hn ((cc0_scratch3.slice (Rect.unit (s := S4) (k0_off7 t) S1.size (k0_off7_inb t hc))).squeeze S_ squeezes_S1_S_).sem hsrc he hsp hr >>= k) Q) := by
  have e1 := Memref.slice_unit_congr (a6) (k0_off5_eq t) (k0_off5_inb t hc) (inb_slot _ (mod4 (t.val + 3))) (fun _ => rfl) (fun _ => rfl)
  have e2 := Memref.slice_unit_congr (a5) (k0_off6_eq t) (k0_off6_inb t hc) (inb_off _ hb) (fun _ => rfl) (fun _ => rfl)
  have e3 := SemArray.slice_unit_congr cc0_scratch3 (k0_off7_eq t) (k0_off7_inb t hc) (inb_semN _ (mod4 (t.val + 3)))
  rw [e1, e2, e3]
  exact start_gather m d L hidx (t.val + 3) hb

end Steps3

section Steps4
variable [FloatOps F] [Named F] (hidx : IdxOK m)

theorem free_open (n : Nat) (h : n < 4) :
    (Free m d L n h : sProp 𝕄) ⊢ iprop((∃ f, (slotN n h).view.loc (V d (cV L) (jV L)) ↦[(slotN n h).view.set]{fullShare} f)
      ∗ semVal (V d (cV L) (jV L), SemLoc.dma (semN n h).sem) 0
      ∗ ((xV).view.loc (V d (cV L) (jV L)) ↦{sh (xq (wid L)) n h} m (xLoc d))
      ∗ ((a5).view.loc (V d (cV L) (jV L)) ↦{sh fullShare n h} idxI m d L)) := by
  unfold Free; exact .rfl

theorem Free_congr {n n' : Nat} (e : n = n') (h : n < 4) (h' : n' < 4) : (Free m d L n h : sProp 𝕄) = Free m d L n' h' := by
  subst e; rfl

/-- The copy-out writes the tile's rows of the pooled array. -/
theorem pool_out (f7 : Buf (Elt F) ((thr d L).loc cc0_scratch2)) (g : Buf (Elt F) (oLoc d)) :
    ∀ i ∈ (oRowK L).view.set,
      (oRowK L).view.writes (Elt F) g [⟨Rect.whole S32x128, (a7).view.read (Elt F) (poolSt m d L f7 32)⟩] i = poolF m d i := by
  intro i hi
  obtain ⟨x, -, rfl⟩ := Finset.mem_map.mp hi
  have h1 := View.read_writes_cons_emb (oRowK L).view g (Rect.whole S32x128) ((a7).view.read (Elt F) (poolSt m d L f7 32)) [] x
  rw [Rect.emb_whole_apply] at h1
  have h2 : (oRowK L).view.read (Elt F) ((oRowK L).view.writes (Elt F) g [⟨Rect.whole S32x128, (a7).view.read (Elt F) (poolSt m d L f7 32)⟩]) x
      = (oRowK L).view.writes (Elt F) g [⟨Rect.whole S32x128, (a7).view.read (Elt F) (poolSt m d L f7 32)⟩] ((oRowK L).view.emb x) :=
    (View.read_apply _ _).trans (cast_eq _ _)
  rw [← h2, h1]
  simp only [Memref.view_whole, View.read_whole]
  unfold poolSt
  have hx : (x 0).val < 32 := (x 0).isLt
  simp only [hx, if_true]

end Steps4
end Tile
end Cert.Proof.KI
end
-- ==== Proof.ScBodyLoad.lean ====
import proofs.«204135_g55705725829175_cont_9to1c4b_393_20_alg».proof.Proof.ScBodyDefs
import Idealize.ShloMosaic.Lib.ValueLayout
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

local notation "xV" => (Memref.whole Cert.KernelIdeal.main_arg1_scv : Memref Cert.KernelIdeal.sig Kind.scVector Space.hbm Cert.KernelIdeal.S100000x128 EltTy.f32)
local notation "iV" => (Memref.whole Cert.KernelIdeal.main_arg0_scv : Memref Cert.KernelIdeal.sig Kind.scVector Space.hbm Cert.KernelIdeal.S1024x50 EltTy.i32)
local notation "oV" => (Memref.whole Cert.KernelIdeal.main_v0_scv : Memref Cert.KernelIdeal.sig Kind.scVector Space.hbm Cert.KernelIdeal.S1024x128 EltTy.f32)
local notation "a5" => (Memref.whole Cert.KernelIdeal.cc0_scratch0 : Memref Cert.KernelIdeal.sig Kind.scVector Space.vmem Cert.KernelIdeal.S32x50 EltTy.i32)
local notation "a6" => (Memref.whole Cert.KernelIdeal.cc0_scratch1 : Memref Cert.KernelIdeal.sig Kind.scVector Space.vmem Cert.KernelIdeal.S4x50x128 EltTy.f32)
local notation "a7" => (Memref.whole Cert.KernelIdeal.cc0_scratch2 : Memref Cert.KernelIdeal.sig Kind.scVector Space.vmem Cert.KernelIdeal.S32x128 EltTy.f32)

section Tile
variable (d : Dev nD) (L : grid0.Coords)

theorem tile_row_lt (b : Fin 32) : 32 * (wid L).val + b.val < 1024 := by
  have := (wid L).isLt; have := b.isLt; omega

theorem slot_emb (n : Fin 4) (c : Fin 50) (e : Fin 128) :
    (slotN n.val n.isLt).view.emb (ix2 c e) = (ix3 n c e : S4x50x128.Idx) := by
  have h1 : (slotN n.val n.isLt).view.emb (ix2 c e)
      = (Rect.unit (s := S4x50x128) ![n.val, 0, 0] S1x50x128.size (inb_slot n.val n.isLt)).emb
          (Shape.reshapeEquiv squeezes_S1x50x128_S50x128.numel_eq (ix2 c e)) := rfl
  rw [h1, reshapeEquiv_ix2_1ab]
  funext a; apply Fin.ext
  match a with
  | ⟨0, _⟩ => show n.val + 1 * 0 = n.val; omega
  | ⟨1, _⟩ => show 0 + 1 * c.val = c.val; omega
  | ⟨2, _⟩ => show 0 + 1 * e.val = e.val; omega

theorem off_emb (b : Fin 32) (c : Fin 50) :
    (offN b.val b.isLt).view.emb (ix1 c) = (ix2 b c : S32x50.Idx) := by
  have h1 : (offN b.val b.isLt).view.emb (ix1 c)
      = (Rect.unit (s := S32x50) ![b.val, 0] S1x50.size (inb_off b.val b.isLt)).emb
          (Shape.reshapeEquiv squeezes_S1x50_S50.numel_eq (ix1 c)) := rfl
  rw [h1]
  have h2 : Shape.reshapeEquiv squeezes_S1x50_S50.numel_eq (ix1 c) = (ix2 (0 : Fin 1) c : S1x50.Idx) :=
    Shape.reshapeEquiv_eq_of_rowMajor _ (by
      rw [Shape.rowMajor_val_two, Shape.rowMajor_val_one]
      show 0 * 50 + c.val = c.val; omega)
  rw [h2]
  funext a; apply Fin.ext
  match a with
  | ⟨0, _⟩ => show b.val + 1 * 0 = b.val; omega
  | ⟨1, _⟩ => show 0 + 1 * c.val = c.val; omega

theorem iRow_emb (b : Fin 32) (c : Fin 50) :
    (iRowK L).view.emb (ix2 b c) = (ix2 ⟨32 * (wid L).val + b.val, tile_row_lt L b⟩ c : S1024x50.Idx) := by
  funext a; apply Fin.ext
  have h := k0_off1_eq L
  match a with
  | ⟨0, _⟩ => show k0_off1 L 0 + 1 * b.val = 32 * (wid L).val + b.val; rw [h]; show 64 * (L 1).val + 32 * (L 0).val + 1 * b.val = 32 * (2 * (L 1).val + (L 0).val) + b.val; omega
  | ⟨1, _⟩ => show k0_off1 L 1 + 1 * c.val = c.val; rw [h]; show 0 + 1 * c.val = c.val; omega

theorem oRow_emb (b : Fin 32) (e : Fin 128) :
    (oRowK L).view.emb (ix2 b e) = (ix2 ⟨32 * (wid L).val + b.val, tile_row_lt L b⟩ e : S1024x128.Idx) := by
  funext a; apply Fin.ext
  have h := k0_off416_eq L
  match a with
  | ⟨0, _⟩ => show k0_off416 L 0 + 1 * b.val = 32 * (wid L).val + b.val; rw [h]; show 64 * (L 1).val + 32 * (L 0).val + 1 * b.val = 32 * (2 * (L 1).val + (L 0).val) + b.val; omega
  | ⟨1, _⟩ => show k0_off416 L 1 + 1 * e.val = e.val; rw [h]; show 0 + 1 * e.val = e.val; omega

theorem xAll_emb (i : S100000x128.Idx) : (xAllK).view.emb i = i := by
  funext a; apply Fin.ext
  match a with
  | ⟨0, _⟩ => show 0 + 1 * (i 0).val = (i 0).val; omega
  | ⟨1, _⟩ => show 0 + 1 * (i 1).val = (i 1).val; omega

variable [FloatOps F] [Named F] (hidx : IdxOK m)

theorem rowMajor_symm_ix1 (c : Fin 50) (k : Fin S50.numel) (hk : k.val = c.val) : S50.rowMajor.symm k = (ix1 c : S50.Idx) := by
  rw [Equiv.symm_apply_eq]
  apply Fin.ext
  rw [hk]
  exact (Shape.rowMajor_val_one (d := ![50]) (ix1 c)).symm

/-- Word `c` of offsets row `b`: the tile's word `(b, c)` of the index array. -/
theorem off_read (b : Fin 32) (c : Fin 50) :
    (offN b.val b.isLt).view.read (Elt F) (idxI m d L) (ix1 c) = m (iLoc d) (ix2 ⟨32 * (wid L).val + b.val, tile_row_lt L b⟩ c) := by
  rw [(View.read_apply _ _).trans (cast_eq _ _), off_emb]
  unfold idxI
  rw [(View.read_apply _ _).trans (cast_eq _ _), iRow_emb]

/-- The row scratch with gather `b` landed, read under its slot at `(c, e)`: the table's row that word `c` of the
    tile's row `b` of the index array names, at column `e`. -/
theorem gath_slot (b : Fin 32) (c : Fin 50) (e : Fin 128) :
    gath m d L hidx b.val b.isLt (ix3 (⟨b.val % 4, mod4 b.val⟩ : Fin 4) c e : S4x50x128.Idx)
      = rowF (m (xLoc d)) (m (iLoc d) (ix2 ⟨32 * (wid L).val + b.val, tile_row_lt L b⟩ c)).toNat e := by
  rw [← slot_emb (⟨b.val % 4, mod4 b.val⟩ : Fin 4) c e]
  unfold gath
  rw [View.write_emb_of_mem _ _ (Finset.mem_univ _)]
  refine (cast_eq _ _).trans ?_
  unfold SparseCore.gatherPayload
  have hlt : (m (iLoc d) (ix2 ⟨32 * (wid L).val + b.val, tile_row_lt L b⟩ c)).toNat < 100000 := hidx d _
  have hi : gathers_S100000x128_S50x128.idx (SparseCore.rows ((offN b.val b.isLt).view.read (Elt F) (idxI m d L)) rfl (hin_b m d L hidx b.val b.isLt)) (ix2 c e)
      = (ix2 ⟨(m (iLoc d) (ix2 ⟨32 * (wid L).val + b.val, tile_row_lt L b⟩ c)).toNat, hlt⟩ e : S100000x128.Idx) := by
    funext a; apply Fin.ext
    match a with
    | ⟨0, _⟩ =>
      have h0 := Shape.Gathers.idx_axis gathers_S100000x128_S50x128 (SparseCore.rows ((offN b.val b.isLt).view.read (Elt F) (idxI m d L)) rfl (hin_b m d L hidx b.val b.isLt)) (ix2 c e)
      refine (congrArg Fin.val h0).trans ?_
      refine (congrArg (fun z => ((offN b.val b.isLt).view.read (Elt F) (idxI m d L) z).toNat) (rowMajor_symm_ix1 c _ rfl)).trans ?_
      rw [off_read]
    | ⟨1, _⟩ => exact Shape.Gathers.idx_of_ne gathers_S100000x128_S50x128 _ (ix2 c e) ⟨1, by decide⟩ (by decide)
  rw [hi, (View.read_apply _ _).trans (cast_eq _ _), xAll_emb]
  unfold rowF
  congr 1
  funext a
  match a with
  | ⟨0, _⟩ => exact Fin.ext (Nat.mod_eq_of_lt hlt).symm
  | ⟨1, _⟩ => rfl

/-- A sixteen-lane load of the row scratch under slot `k % 4`, at row `c` and lane chunk `j`, after gather `k` landed:
    lane `l` is the table's row that word `c` of the tile's row `k` of the index array names, at column `16 j + l`. -/
theorem load_val (k : Nat) (hk : k < 32) (c : Nat) (hc : c < 50) (j : Nat) (hj : j < 8) (o : Fin 3 → Nat) (ho : o = ![k % 4, c, 16 * j])
    (hinb : ∀ a, o a + S1x1x16.size a ≤ S4x50x128.size a) (l : Fin 16) :
    View.readAt (Elt F) (a6).view (Rect.unit (s := S4x50x128) o S1x1x16.size hinb).toLoadRect (gath m d L hidx k hk) (ix3 (0 : Fin 1) (0 : Fin 1) l)
      = rowF (m (xLoc d)) ((m (iLoc d)) (ix2 ⟨32 * (wid L).val + k, tile_row_lt L ⟨k, hk⟩⟩ (⟨c, hc⟩ : Fin 50))).toNat (⟨16 * j + l.val, by have := l.isLt; omega⟩ : Fin 128) := by
  subst ho
  rw [View.readAt_apply, (View.read_apply _ _).trans (cast_eq _ _)]
  have h3 : (a6).view.emb ((Rect.unit (s := S4x50x128) ![k % 4, c, 16 * j] S1x1x16.size hinb).toLoadRect.idx (ix3 (0 : Fin 1) (0 : Fin 1) l))
      = (ix3 (⟨k % 4, mod4 k⟩ : Fin 4) (⟨c, hc⟩ : Fin 50) (⟨16 * j + l.val, by have := l.isLt; omega⟩ : Fin 128) : S4x50x128.Idx) := by
    funext a; apply Fin.ext
    match a with
    | ⟨0, _⟩ => show k % 4 + 1 * 0 = k % 4; omega
    | ⟨1, _⟩ => show c + 1 * 0 = c; omega
    | ⟨2, _⟩ => show 16 * j + 1 * l.val = 16 * j + l.val; omega
  rw [h3]
  exact gath_slot m d L hidx ⟨k, hk⟩ ⟨c, hc⟩ _

/-- The pooled array at a row of the tile's output block. -/
theorem pool_emb (k : Nat) (hk : k < 32) (e : Fin 128) :
    poolF m d ((oRowK L).view.emb (ix2 (⟨k, hk⟩ : Fin 32) e)) = poolAtF (m (iLoc d)) (m (xLoc d)) ⟨32 * (wid L).val + k, tile_row_lt L ⟨k, hk⟩⟩ e := by
  rw [oRow_emb]
  rfl

end Tile
end Cert.Proof.KI
end
-- ==== Proof.KChains.lean ====
/-
  The gather kernel's arithmetic, for every float instance. One trip of its loop handles one batch row: for each of
  the eight chunks of sixteen lanes it loads the fifty looked-up rows' chunk, adds them left to right, multiplies by
  the named constant and stores the sixteen lanes. The printed body cuts this arithmetic into payloads at arbitrary
  places (a running sum carried from one to the next, now and then a single loaded chunk carried beside it); composed
  along one chunk, lane `l` of what is stored is the running sum `E 0 + E 1 + … + E 49` of the fifty loaded values at
  that lane, times the named constant — the pooled array's entry as the kernel computes it.
-/
import proofs.«204135_g55705725829175_cont_9to1c4b_393_20_alg».proof.Proof.ScCommon
import Idealize.ShloMosaic.Lib.ValueLayout
import Idealize.ShloMosaic.Lib.Pipeline.Value

noncomputable section

namespace Cert.KernelIdeal.KValue

open Idealize.ShloMosaic Idealize.ShloMosaic.ValueIdx
open Cert.KernelIdeal Cert.KernelIdeal.Gen
open Cert.Proof.KI (accF rowF poolAtF)

variable {F : FTy → Type} [FloatOps F] [Named F]

/-! ## The operations at an index, for every instance -/

theorem vaddf_apply {s : Shape} {φ : FTy} (a b : FVec F s φ) (i : s.Idx) : addf a b i = FloatOps.addf (a i) (b i) := rfl
theorem vmulf_apply {s : Shape} {φ : FTy} (a b : FVec F s φ) (i : s.Idx) : mulf a b i = FloatOps.mulf (a i) (b i) := rfl

/-- A `[1, 1, n]` array cast to `[n]` reads, at `i`, the operand at `(0, 0, i)`. -/
theorem shapeCast_11n_n_apply {α : Type} {n : ℕ} (x : (⟨3, ![1, 1, n]⟩ : Shape).Idx → α)
    (h : (⟨3, ![1, 1, n]⟩ : Shape).ShapeCasts ⟨1, ![n]⟩) (i : Fin n) :
    shapeCast ⟨1, ![n]⟩ x h (ix1 i) = x (ix3 (0 : Fin 1) (0 : Fin 1) i) :=
  shapeCast_apply x h _ _ (by
    rw [Shape.rowMajor_val_three, Shape.rowMajor_val_one]
    show (0 * 1 + 0) * n + i.val = i.val
    omega)

/-- The running sum's two equations. -/
theorem accF_zero (E : Nat → F .f32) : accF E 0 = E 0 := rfl
theorem accF_succ (E : Nat → F .f32) (n : Nat) : accF E (n + 1) = FloatOps.addf (accF E n) (E (n + 1)) := rfl

/-- The running sum depends only on the terms up to its bound. -/
theorem accF_congr (E E' : Nat → F .f32) (n : Nat) (h : ∀ c, c ≤ n → E c = E' c) : accF E n = accF E' n := by
  induction n with
  | zero => rw [accF_zero, accF_zero, h 0 (Nat.le_refl 0)]
  | succ n ih =>
    rw [accF_succ, accF_succ, ih fun c hc => h c (Nat.le_succ_of_le hc), h (n + 1) (Nat.le_refl _)]

/-! ## The eight chunks of a trip -/

/-- Chunk 0 of a trip: the payloads composed along it, at lane `l`, are the running sum of the fifty loaded
    values at that lane times the named constant. -/
theorem chain0_apply (x : Nat → Vec F S1x1x16 .f32) (l : Fin 16) :
    (k0_pay9 (k0_pay7 (k0_pay6 (k0_pay5 (k0_pay4 (k0_pay3 (k0_pay2 (x 0) (x 1) (x 2) (x 3) (x 4)) (x 5) (x 6) (x 7) (x 8) (x 9) (x 10) (x 11) (x 12)) (x 13) (x 14) (x 15) (x 16) (x 17) (x 18) (x 19) (x 20) (x 21)) (x 22) (x 23) (x 24) (x 25) (x 26) (x 27) (x 28) (x 29)) (x 30) (x 31) (x 32) (x 33) (x 34) (x 35) (x 36) (x 37) (x 38)) (x 39) (x 40) (x 41) (x 42) (x 43) (x 44) (x 45) (x 46)) (k0_pay8 (x 47)) (x 48) (x 49)) (ix2 0 l)
      = FloatOps.mulf (accF (fun c => x c (ix3 0 0 l)) 49) (Named.named κ "inv_50" (φ := .f32) 0x3CA3D70A#32) := by
  unfold k0_pay2 k0_pay3 k0_pay4 k0_pay5 k0_pay6 k0_pay7 k0_pay8 k0_pay9
  simp only [shapeCast_a_1a_apply, shapeCast_11n_n_apply, vaddf_apply, vmulf_apply, broadcast_apply]
  rfl

/-- Chunk 0 against the pooled array: if the fifty loaded values at lane `l` are the fifty looked-up rows of batch
    row `b` at column `e`, what is stored at lane `l` is the pooled array's entry `(b, e)` as the kernel computes it. -/
theorem chain0_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay9 (k0_pay7 (k0_pay6 (k0_pay5 (k0_pay4 (k0_pay3 (k0_pay2 (x 0) (x 1) (x 2) (x 3) (x 4)) (x 5) (x 6) (x 7) (x 8) (x 9) (x 10) (x 11) (x 12)) (x 13) (x 14) (x 15) (x 16) (x 17) (x 18) (x 19) (x 20) (x 21)) (x 22) (x 23) (x 24) (x 25) (x 26) (x 27) (x 28) (x 29)) (x 30) (x 31) (x 32) (x 33) (x 34) (x 35) (x 36) (x 37) (x 38)) (x 39) (x 40) (x 41) (x 42) (x 43) (x 44) (x 45) (x 46)) (k0_pay8 (x 47)) (x 48) (x 49)) (ix2 0 l)
      = poolAtF idx emb b e := by
  rw [chain0_apply, accF_congr _ _ 49 hx]
  rfl

/-- Chunk 1 of a trip: the payloads composed along it, at lane `l`, are the running sum of the fifty loaded
    values at that lane times the named constant. -/
theorem chain1_apply (x : Nat → Vec F S1x1x16 .f32) (l : Fin 16) :
    (k0_pay17 (k0_pay16 (k0_pay15 (k0_pay14 (k0_pay13 (k0_pay11 (k0_pay10 (x 0) (x 1) (x 2) (x 3) (x 4)) (x 5) (x 6) (x 7) (x 8) (x 9) (x 10) (x 11) (x 12)) (k0_pay12 (x 13)) (x 14) (x 15) (x 16) (x 17) (x 18) (x 19) (x 20) (x 21)) (x 22) (x 23) (x 24) (x 25) (x 26) (x 27) (x 28) (x 29) (x 30)) (x 31) (x 32) (x 33) (x 34) (x 35) (x 36) (x 37) (x 38)) (x 39) (x 40) (x 41) (x 42) (x 43) (x 44) (x 45) (x 46) (x 47)) (x 48) (x 49)) (ix2 0 l)
      = FloatOps.mulf (accF (fun c => x c (ix3 0 0 l)) 49) (Named.named κ "inv_50" (φ := .f32) 0x3CA3D70A#32) := by
  unfold k0_pay10 k0_pay11 k0_pay12 k0_pay13 k0_pay14 k0_pay15 k0_pay16 k0_pay17
  simp only [shapeCast_a_1a_apply, shapeCast_11n_n_apply, vaddf_apply, vmulf_apply, broadcast_apply]
  rfl

/-- Chunk 1 against the pooled array: if the fifty loaded values at lane `l` are the fifty looked-up rows of batch
    row `b` at column `e`, what is stored at lane `l` is the pooled array's entry `(b, e)` as the kernel computes it. -/
theorem chain1_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay17 (k0_pay16 (k0_pay15 (k0_pay14 (k0_pay13 (k0_pay11 (k0_pay10 (x 0) (x 1) (x 2) (x 3) (x 4)) (x 5) (x 6) (x 7) (x 8) (x 9) (x 10) (x 11) (x 12)) (k0_pay12 (x 13)) (x 14) (x 15) (x 16) (x 17) (x 18) (x 19) (x 20) (x 21)) (x 22) (x 23) (x 24) (x 25) (x 26) (x 27) (x 28) (x 29) (x 30)) (x 31) (x 32) (x 33) (x 34) (x 35) (x 36) (x 37) (x 38)) (x 39) (x 40) (x 41) (x 42) (x 43) (x 44) (x 45) (x 46) (x 47)) (x 48) (x 49)) (ix2 0 l)
      = poolAtF idx emb b e := by
  rw [chain1_apply, accF_congr _ _ 49 hx]
  rfl

/-- Chunk 2 of a trip: the payloads composed along it, at lane `l`, are the running sum of the fifty loaded
    values at that lane times the named constant. -/
theorem chain2_apply (x : Nat → Vec F S1x1x16 .f32) (l : Fin 16) :
    (k0_pay25 (k0_pay24 (k0_pay22 (k0_pay21 (k0_pay20 (k0_pay19 (k0_pay18 (x 0) (x 1) (x 2) (x 3) (x 4)) (x 5) (x 6) (x 7) (x 8) (x 9) (x 10) (x 11) (x 12) (x 13)) (x 14) (x 15) (x 16) (x 17) (x 18) (x 19) (x 20) (x 21)) (x 22) (x 23) (x 24) (x 25) (x 26) (x 27) (x 28) (x 29) (x 30)) (x 31) (x 32) (x 33) (x 34) (x 35) (x 36) (x 37) (x 38)) (k0_pay23 (x 39)) (x 40) (x 41) (x 42) (x 43) (x 44) (x 45) (x 46) (x 47)) (x 48) (x 49)) (ix2 0 l)
      = FloatOps.mulf (accF (fun c => x c (ix3 0 0 l)) 49) (Named.named κ "inv_50" (φ := .f32) 0x3CA3D70A#32) := by
  unfold k0_pay18 k0_pay19 k0_pay20 k0_pay21 k0_pay22 k0_pay23 k0_pay24 k0_pay25
  simp only [shapeCast_a_1a_apply, shapeCast_11n_n_apply, vaddf_apply, vmulf_apply, broadcast_apply]
  rfl

/-- Chunk 2 against the pooled array: if the fifty loaded values at lane `l` are the fifty looked-up rows of batch
    row `b` at column `e`, what is stored at lane `l` is the pooled array's entry `(b, e)` as the kernel computes it. -/
theorem chain2_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay25 (k0_pay24 (k0_pay22 (k0_pay21 (k0_pay20 (k0_pay19 (k0_pay18 (x 0) (x 1) (x 2) (x 3) (x 4)) (x 5) (x 6) (x 7) (x 8) (x 9) (x 10) (x 11) (x 12) (x 13)) (x 14) (x 15) (x 16) (x 17) (x 18) (x 19) (x 20) (x 21)) (x 22) (x 23) (x 24) (x 25) (x 26) (x 27) (x 28) (x 29) (x 30)) (x 31) (x 32) (x 33) (x 34) (x 35) (x 36) (x 37) (x 38)) (k0_pay23 (x 39)) (x 40) (x 41) (x 42) (x 43) (x 44) (x 45) (x 46) (x 47)) (x 48) (x 49)) (ix2 0 l)
      = poolAtF idx emb b e := by
  rw [chain2_apply, accF_congr _ _ 49 hx]
  rfl

/-- Chunk 3 of a trip: the payloads composed along it, at lane `l`, are the running sum of the fifty loaded
    values at that lane times the named constant. -/
theorem chain3_apply (x : Nat → Vec F S1x1x16 .f32) (l : Fin 16) :
    (k0_pay33 (k0_pay32 (k0_pay31 (k0_pay30 (k0_pay29 (k0_pay28 (k0_pay26 (x 0) (x 1) (x 2) (x 3) (x 4)) (k0_pay27 (x 5)) (x 6) (x 7) (x 8) (x 9) (x 10) (x 11) (x 12) (x 13)) (x 14) (x 15) (x 16) (x 17) (x 18) (x 19) (x 20) (x 21) (x 22)) (x 23) (x 24) (x 25) (x 26) (x 27) (x 28) (x 29) (x 30)) (x 31) (x 32) (x 33) (x 34) (x 35) (x 36) (x 37) (x 38) (x 39)) (x 40) (x 41) (x 42) (x 43) (x 44) (x 45) (x 46) (x 47)) (x 48) (x 49)) (ix2 0 l)
      = FloatOps.mulf (accF (fun c => x c (ix3 0 0 l)) 49) (Named.named κ "inv_50" (φ := .f32) 0x3CA3D70A#32) := by
  unfold k0_pay26 k0_pay27 k0_pay28 k0_pay29 k0_pay30 k0_pay31 k0_pay32 k0_pay33
  simp only [shapeCast_a_1a_apply, shapeCast_11n_n_apply, vaddf_apply, vmulf_apply, broadcast_apply]
  rfl

/-- Chunk 3 against the pooled array: if the fifty loaded values at lane `l` are the fifty looked-up rows of batch
    row `b` at column `e`, what is stored at lane `l` is the pooled array's entry `(b, e)` as the kernel computes it. -/
theorem chain3_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay33 (k0_pay32 (k0_pay31 (k0_pay30 (k0_pay29 (k0_pay28 (k0_pay26 (x 0) (x 1) (x 2) (x 3) (x 4)) (k0_pay27 (x 5)) (x 6) (x 7) (x 8) (x 9) (x 10) (x 11) (x 12) (x 13)) (x 14) (x 15) (x 16) (x 17) (x 18) (x 19) (x 20) (x 21) (x 22)) (x 23) (x 24) (x 25) (x 26) (x 27) (x 28) (x 29) (x 30)) (x 31) (x 32) (x 33) (x 34) (x 35) (x 36) (x 37) (x 38) (x 39)) (x 40) (x 41) (x 42) (x 43) (x 44) (x 45) (x 46) (x 47)) (x 48) (x 49)) (ix2 0 l)
      = poolAtF idx emb b e := by
  rw [chain3_apply, accF_congr _ _ 49 hx]
  rfl

/-- Chunk 4 of a trip: the payloads composed along it, at lane `l`, are the running sum of the fifty loaded
    values at that lane times the named constant. -/
theorem chain4_apply (x : Nat → Vec F S1x1x16 .f32) (l : Fin 16) :
    (k0_pay41 (k0_pay40 (k0_pay39 (k0_pay37 (k0_pay36 (k0_pay35 (k0_pay34 (x 0) (x 1) (x 2) (x 3) (x 4) (x 5)) (x 6) (x 7) (x 8) (x 9) (x 10) (x 11) (x 12) (x 13)) (x 14) (x 15) (x 16) (x 17) (x 18) (x 19) (x 20) (x 21) (x 22)) (x 23) (x 24) (x 25) (x 26) (x 27) (x 28) (x 29) (x 30)) (k0_pay38 (x 31)) (x 32) (x 33) (x 34) (x 35) (x 36) (x 37) (x 38) (x 39)) (x 40) (x 41) (x 42) (x 43) (x 44) (x 45) (x 46) (x 47) (x 48)) (x 49)) (ix2 0 l)
      = FloatOps.mulf (accF (fun c => x c (ix3 0 0 l)) 49) (Named.named κ "inv_50" (φ := .f32) 0x3CA3D70A#32) := by
  unfold k0_pay34 k0_pay35 k0_pay36 k0_pay37 k0_pay38 k0_pay39 k0_pay40 k0_pay41
  simp only [shapeCast_a_1a_apply, shapeCast_11n_n_apply, vaddf_apply, vmulf_apply, broadcast_apply]
  rfl

/-- Chunk 4 against the pooled array: if the fifty loaded values at lane `l` are the fifty looked-up rows of batch
    row `b` at column `e`, what is stored at lane `l` is the pooled array's entry `(b, e)` as the kernel computes it. -/
theorem chain4_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay41 (k0_pay40 (k0_pay39 (k0_pay37 (k0_pay36 (k0_pay35 (k0_pay34 (x 0) (x 1) (x 2) (x 3) (x 4) (x 5)) (x 6) (x 7) (x 8) (x 9) (x 10) (x 11) (x 12) (x 13)) (x 14) (x 15) (x 16) (x 17) (x 18) (x 19) (x 20) (x 21) (x 22)) (x 23) (x 24) (x 25) (x 26) (x 27) (x 28) (x 29) (x 30)) (k0_pay38 (x 31)) (x 32) (x 33) (x 34) (x 35) (x 36) (x 37) (x 38) (x 39)) (x 40) (x 41) (x 42) (x 43) (x 44) (x 45) (x 46) (x 47) (x 48)) (x 49)) (ix2 0 l)
      = poolAtF idx emb b e := by
  rw [chain4_apply, accF_congr _ _ 49 hx]
  rfl

/-- Chunk 5 of a trip: the payloads composed along it, at lane `l`, are the running sum of the fifty loaded
    values at that lane times the named constant. -/
theorem chain5_apply (x : Nat → Vec F S1x1x16 .f32) (l : Fin 16) :
    (k0_pay48 (k0_pay47 (k0_pay46 (k0_pay45 (k0_pay44 (k0_pay43 (k0_pay42 (x 0) (x 1) (x 2) (x 3) (x 4) (x 5)) (x 6) (x 7) (x 8) (x 9) (x 10) (x 11) (x 12) (x 13) (x 14)) (x 15) (x 16) (x 17) (x 18) (x 19) (x 20) (x 21) (x 22)) (x 23) (x 24) (x 25) (x 26) (x 27) (x 28) (x 29) (x 30) (x 31)) (x 32) (x 33) (x 34) (x 35) (x 36) (x 37) (x 38) (x 39)) (x 40) (x 41) (x 42) (x 43) (x 44) (x 45) (x 46) (x 47) (x 48)) (x 49)) (ix2 0 l)
      = FloatOps.mulf (accF (fun c => x c (ix3 0 0 l)) 49) (Named.named κ "inv_50" (φ := .f32) 0x3CA3D70A#32) := by
  unfold k0_pay42 k0_pay43 k0_pay44 k0_pay45 k0_pay46 k0_pay47 k0_pay48
  simp only [shapeCast_a_1a_apply, shapeCast_11n_n_apply, vaddf_apply, vmulf_apply, broadcast_apply]
  rfl

/-- Chunk 5 against the pooled array: if the fifty loaded values at lane `l` are the fifty looked-up rows of batch
    row `b` at column `e`, what is stored at lane `l` is the pooled array's entry `(b, e)` as the kernel computes it. -/
theorem chain5_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay48 (k0_pay47 (k0_pay46 (k0_pay45 (k0_pay44 (k0_pay43 (k0_pay42 (x 0) (x 1) (x 2) (x 3) (x 4) (x 5)) (x 6) (x 7) (x 8) (x 9) (x 10) (x 11) (x 12) (x 13) (x 14)) (x 15) (x 16) (x 17) (x 18) (x 19) (x 20) (x 21) (x 22)) (x 23) (x 24) (x 25) (x 26) (x 27) (x 28) (x 29) (x 30) (x 31)) (x 32) (x 33) (x 34) (x 35) (x 36) (x 37) (x 38) (x 39)) (x 40) (x 41) (x 42) (x 43) (x 44) (x 45) (x 46) (x 47) (x 48)) (x 49)) (ix2 0 l)
      = poolAtF idx emb b e := by
  rw [chain5_apply, accF_congr _ _ 49 hx]
  rfl

/-- Chunk 6 of a trip: the payloads composed along it, at lane `l`, are the running sum of the fifty loaded
    values at that lane times the named constant. -/
theorem chain6_apply (x : Nat → Vec F S1x1x16 .f32) (l : Fin 16) :
    (k0_pay56 (k0_pay55 (k0_pay54 (k0_pay53 (k0_pay51 (k0_pay50 (k0_pay49 (x 0) (x 1) (x 2) (x 3) (x 4) (x 5)) (x 6) (x 7) (x 8) (x 9) (x 10) (x 11) (x 12) (x 13) (x 14)) (x 15) (x 16) (x 17) (x 18) (x 19) (x 20) (x 21) (x 22)) (k0_pay52 (x 23)) (x 24) (x 25) (x 26) (x 27) (x 28) (x 29) (x 30) (x 31)) (x 32) (x 33) (x 34) (x 35) (x 36) (x 37) (x 38) (x 39) (x 40)) (x 41) (x 42) (x 43) (x 44) (x 45) (x 46) (x 47) (x 48)) (x 49)) (ix2 0 l)
      = FloatOps.mulf (accF (fun c => x c (ix3 0 0 l)) 49) (Named.named κ "inv_50" (φ := .f32) 0x3CA3D70A#32) := by
  unfold k0_pay49 k0_pay50 k0_pay51 k0_pay52 k0_pay53 k0_pay54 k0_pay55 k0_pay56
  simp only [shapeCast_a_1a_apply, shapeCast_11n_n_apply, vaddf_apply, vmulf_apply, broadcast_apply]
  rfl

/-- Chunk 6 against the pooled array: if the fifty loaded values at lane `l` are the fifty looked-up rows of batch
    row `b` at column `e`, what is stored at lane `l` is the pooled array's entry `(b, e)` as the kernel computes it. -/
theorem chain6_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay56 (k0_pay55 (k0_pay54 (k0_pay53 (k0_pay51 (k0_pay50 (k0_pay49 (x 0) (x 1) (x 2) (x 3) (x 4) (x 5)) (x 6) (x 7) (x 8) (x 9) (x 10) (x 11) (x 12) (x 13) (x 14)) (x 15) (x 16) (x 17) (x 18) (x 19) (x 20) (x 21) (x 22)) (k0_pay52 (x 23)) (x 24) (x 25) (x 26) (x 27) (x 28) (x 29) (x 30) (x 31)) (x 32) (x 33) (x 34) (x 35) (x 36) (x 37) (x 38) (x 39) (x 40)) (x 41) (x 42) (x 43) (x 44) (x 45) (x 46) (x 47) (x 48)) (x 49)) (ix2 0 l)
      = poolAtF idx emb b e := by
  rw [chain6_apply, accF_congr _ _ 49 hx]
  rfl

/-- Chunk 7 of a trip: the payloads composed along it, at lane `l`, are the running sum of the fifty loaded
    values at that lane times the named constant. -/
theorem chain7_apply (x : Nat → Vec F S1x1x16 .f32) (l : Fin 16) :
    (k0_pay1 (k0_pay62 (k0_pay61 (k0_pay60 (k0_pay59 (k0_pay58 (k0_pay57 (x 0) (x 1) (x 2) (x 3) (x 4) (x 5) (x 6)) (x 7) (x 8) (x 9) (x 10) (x 11) (x 12) (x 13) (x 14)) (x 15) (x 16) (x 17) (x 18) (x 19) (x 20) (x 21) (x 22) (x 23)) (x 24) (x 25) (x 26) (x 27) (x 28) (x 29) (x 30) (x 31)) (x 32) (x 33) (x 34) (x 35) (x 36) (x 37) (x 38) (x 39) (x 40)) (x 41) (x 42) (x 43) (x 44) (x 45) (x 46) (x 47) (x 48)) (k0_pay63 (x 49))) (ix2 0 l)
      = FloatOps.mulf (accF (fun c => x c (ix3 0 0 l)) 49) (Named.named κ "inv_50" (φ := .f32) 0x3CA3D70A#32) := by
  unfold k0_pay57 k0_pay58 k0_pay59 k0_pay60 k0_pay61 k0_pay62 k0_pay63 k0_pay1
  simp only [shapeCast_a_1a_apply, shapeCast_11n_n_apply, vaddf_apply, vmulf_apply, broadcast_apply]
  rfl

/-- Chunk 7 against the pooled array: if the fifty loaded values at lane `l` are the fifty looked-up rows of batch
    row `b` at column `e`, what is stored at lane `l` is the pooled array's entry `(b, e)` as the kernel computes it. -/
theorem chain7_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay1 (k0_pay62 (k0_pay61 (k0_pay60 (k0_pay59 (k0_pay58 (k0_pay57 (x 0) (x 1) (x 2) (x 3) (x 4) (x 5) (x 6)) (x 7) (x 8) (x 9) (x 10) (x 11) (x 12) (x 13) (x 14)) (x 15) (x 16) (x 17) (x 18) (x 19) (x 20) (x 21) (x 22) (x 23)) (x 24) (x 25) (x 26) (x 27) (x 28) (x 29) (x 30) (x 31)) (x 32) (x 33) (x 34) (x 35) (x 36) (x 37) (x 38) (x 39) (x 40)) (x 41) (x 42) (x 43) (x 44) (x 45) (x 46) (x 47) (x 48)) (k0_pay63 (x 49))) (ix2 0 l)
      = poolAtF idx emb b e := by
  rw [chain7_apply, accF_congr _ _ 49 hx]
  rfl

end Cert.KernelIdeal.KValue

end
-- ==== Proof.KChainVars.lean ====
/-
  The eight chunks of a trip again, over fifty loaded vectors named one by one: the form a run of the body meets,
  where each load is its own term.
-/
import proofs.«204135_g55705725829175_cont_9to1c4b_393_20_alg».proof.Proof.KChains

noncomputable section

namespace Cert.KernelIdeal.KValue

open Idealize.ShloMosaic Idealize.ShloMosaic.ValueIdx
open Cert.KernelIdeal Cert.KernelIdeal.Gen
open Cert.Proof.KI (accF rowF poolAtF)

variable {F : FTy → Type} [FloatOps F] [Named F]

/-- Chunk 0 of a trip over fifty loaded vectors named one by one: if at lane `l` they hold `E 0 … E 49`, what is
    stored at lane `l` is the running sum of `E` times the named constant. -/
theorem chain0_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay9 (k0_pay7 (k0_pay6 (k0_pay5 (k0_pay4 (k0_pay3 (k0_pay2 a0 a1 a2 a3 a4) a5 a6 a7 a8 a9 a10 a11 a12) a13 a14 a15 a16 a17 a18 a19 a20 a21) a22 a23 a24 a25 a26 a27 a28 a29) a30 a31 a32 a33 a34 a35 a36 a37 a38) a39 a40 a41 a42 a43 a44 a45 a46) (k0_pay8 a47) a48 a49) (ix2 0 l)
      = FloatOps.mulf (accF E 49) (Named.named κ "inv_50" (φ := .f32) 0x3CA3D70A#32) := by
  unfold k0_pay2 k0_pay3 k0_pay4 k0_pay5 k0_pay6 k0_pay7 k0_pay8 k0_pay9
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 1 of a trip over fifty loaded vectors named one by one: if at lane `l` they hold `E 0 … E 49`, what is
    stored at lane `l` is the running sum of `E` times the named constant. -/
theorem chain1_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay17 (k0_pay16 (k0_pay15 (k0_pay14 (k0_pay13 (k0_pay11 (k0_pay10 a0 a1 a2 a3 a4) a5 a6 a7 a8 a9 a10 a11 a12) (k0_pay12 a13) a14 a15 a16 a17 a18 a19 a20 a21) a22 a23 a24 a25 a26 a27 a28 a29 a30) a31 a32 a33 a34 a35 a36 a37 a38) a39 a40 a41 a42 a43 a44 a45 a46 a47) a48 a49) (ix2 0 l)
      = FloatOps.mulf (accF E 49) (Named.named κ "inv_50" (φ := .f32) 0x3CA3D70A#32) := by
  unfold k0_pay10 k0_pay11 k0_pay12 k0_pay13 k0_pay14 k0_pay15 k0_pay16 k0_pay17
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 2 of a trip over fifty loaded vectors named one by one: if at lane `l` they hold `E 0 … E 49`, what is
    stored at lane `l` is the running sum of `E` times the named constant. -/
theorem chain2_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay25 (k0_pay24 (k0_pay22 (k0_pay21 (k0_pay20 (k0_pay19 (k0_pay18 a0 a1 a2 a3 a4) a5 a6 a7 a8 a9 a10 a11 a12 a13) a14 a15 a16 a17 a18 a19 a20 a21) a22 a23 a24 a25 a26 a27 a28 a29 a30) a31 a32 a33 a34 a35 a36 a37 a38) (k0_pay23 a39) a40 a41 a42 a43 a44 a45 a46 a47) a48 a49) (ix2 0 l)
      = FloatOps.mulf (accF E 49) (Named.named κ "inv_50" (φ := .f32) 0x3CA3D70A#32) := by
  unfold k0_pay18 k0_pay19 k0_pay20 k0_pay21 k0_pay22 k0_pay23 k0_pay24 k0_pay25
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 3 of a trip over fifty loaded vectors named one by one: if at lane `l` they hold `E 0 … E 49`, what is
    stored at lane `l` is the running sum of `E` times the named constant. -/
theorem chain3_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay33 (k0_pay32 (k0_pay31 (k0_pay30 (k0_pay29 (k0_pay28 (k0_pay26 a0 a1 a2 a3 a4) (k0_pay27 a5) a6 a7 a8 a9 a10 a11 a12 a13) a14 a15 a16 a17 a18 a19 a20 a21 a22) a23 a24 a25 a26 a27 a28 a29 a30) a31 a32 a33 a34 a35 a36 a37 a38 a39) a40 a41 a42 a43 a44 a45 a46 a47) a48 a49) (ix2 0 l)
      = FloatOps.mulf (accF E 49) (Named.named κ "inv_50" (φ := .f32) 0x3CA3D70A#32) := by
  unfold k0_pay26 k0_pay27 k0_pay28 k0_pay29 k0_pay30 k0_pay31 k0_pay32 k0_pay33
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 4 of a trip over fifty loaded vectors named one by one: if at lane `l` they hold `E 0 … E 49`, what is
    stored at lane `l` is the running sum of `E` times the named constant. -/
theorem chain4_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay41 (k0_pay40 (k0_pay39 (k0_pay37 (k0_pay36 (k0_pay35 (k0_pay34 a0 a1 a2 a3 a4 a5) a6 a7 a8 a9 a10 a11 a12 a13) a14 a15 a16 a17 a18 a19 a20 a21 a22) a23 a24 a25 a26 a27 a28 a29 a30) (k0_pay38 a31) a32 a33 a34 a35 a36 a37 a38 a39) a40 a41 a42 a43 a44 a45 a46 a47 a48) a49) (ix2 0 l)
      = FloatOps.mulf (accF E 49) (Named.named κ "inv_50" (φ := .f32) 0x3CA3D70A#32) := by
  unfold k0_pay34 k0_pay35 k0_pay36 k0_pay37 k0_pay38 k0_pay39 k0_pay40 k0_pay41
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 5 of a trip over fifty loaded vectors named one by one: if at lane `l` they hold `E 0 … E 49`, what is
    stored at lane `l` is the running sum of `E` times the named constant. -/
theorem chain5_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay48 (k0_pay47 (k0_pay46 (k0_pay45 (k0_pay44 (k0_pay43 (k0_pay42 a0 a1 a2 a3 a4 a5) a6 a7 a8 a9 a10 a11 a12 a13 a14) a15 a16 a17 a18 a19 a20 a21 a22) a23 a24 a25 a26 a27 a28 a29 a30 a31) a32 a33 a34 a35 a36 a37 a38 a39) a40 a41 a42 a43 a44 a45 a46 a47 a48) a49) (ix2 0 l)
      = FloatOps.mulf (accF E 49) (Named.named κ "inv_50" (φ := .f32) 0x3CA3D70A#32) := by
  unfold k0_pay42 k0_pay43 k0_pay44 k0_pay45 k0_pay46 k0_pay47 k0_pay48
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 6 of a trip over fifty loaded vectors named one by one: if at lane `l` they hold `E 0 … E 49`, what is
    stored at lane `l` is the running sum of `E` times the named constant. -/
theorem chain6_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay56 (k0_pay55 (k0_pay54 (k0_pay53 (k0_pay51 (k0_pay50 (k0_pay49 a0 a1 a2 a3 a4 a5) a6 a7 a8 a9 a10 a11 a12 a13 a14) a15 a16 a17 a18 a19 a20 a21 a22) (k0_pay52 a23) a24 a25 a26 a27 a28 a29 a30 a31) a32 a33 a34 a35 a36 a37 a38 a39 a40) a41 a42 a43 a44 a45 a46 a47 a48) a49) (ix2 0 l)
      = FloatOps.mulf (accF E 49) (Named.named κ "inv_50" (φ := .f32) 0x3CA3D70A#32) := by
  unfold k0_pay49 k0_pay50 k0_pay51 k0_pay52 k0_pay53 k0_pay54 k0_pay55 k0_pay56
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 7 of a trip over fifty loaded vectors named one by one: if at lane `l` they hold `E 0 … E 49`, what is
    stored at lane `l` is the running sum of `E` times the named constant. -/
theorem chain7_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay1 (k0_pay62 (k0_pay61 (k0_pay60 (k0_pay59 (k0_pay58 (k0_pay57 a0 a1 a2 a3 a4 a5 a6) a7 a8 a9 a10 a11 a12 a13 a14) a15 a16 a17 a18 a19 a20 a21 a22 a23) a24 a25 a26 a27 a28 a29 a30 a31) a32 a33 a34 a35 a36 a37 a38 a39 a40) a41 a42 a43 a44 a45 a46 a47 a48) (k0_pay63 a49)) (ix2 0 l)
      = FloatOps.mulf (accF E 49) (Named.named κ "inv_50" (φ := .f32) 0x3CA3D70A#32) := by
  unfold k0_pay57 k0_pay58 k0_pay59 k0_pay60 k0_pay61 k0_pay62 k0_pay63 k0_pay1
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

end Cert.KernelIdeal.KValue

end
-- ==== Proof.ScBodyValue.lean ====
/-
  One trip of the gather kernel's loop, on the pooled scratch. The trip's eight stores — sixteen lanes each, at
  offsets `(k, 16 j)` of the scratch, chunk `j`'s payload the printed chain of additions over the fifty loads of the
  landed rows, times the named constant — take the scratch from "rows below `k` hold the pooled array's rows of this
  tile" to the same with `k + 1`. Two halves: the frame (which elements the eight rectangles cover: exactly row `k`,
  column `e` under store `e / 16`), for payloads named anyhow; and the values (each chain at a lane is the running
  sum of the fifty looked-up rows at that column times the constant: the pooled array's entry as the kernel computes
  it), from the loads' values and the chains' arithmetic.
-/
import proofs.«204135_g55705725829175_cont_9to1c4b_393_20_alg».proof.Proof.ScBodyLoad
import proofs.«204135_g55705725829175_cont_9to1c4b_393_20_alg».proof.Proof.KChains
import proofs.«204135_g55705725829175_cont_9to1c4b_393_20_alg».proof.Proof.KChainVars
import Idealize.ShloMosaic.Lib.ValueLayout
import Idealize.ShloMosaic.Lib.Pipeline.Value
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.KernelIdeal.KValue

variable {F : FTy → Type}
variable {UU : Type} [URA UU] [CountersIn UU]

local notation "𝕄" => MT nD τ sig (HIx 1) (Elt F) ℕ UU ℕ

variable (m : (ℓ : Loc nD τ sig) → Buf (Elt F) ℓ)

local notation "xV" => (Memref.whole Cert.KernelIdeal.main_arg1_scv : Memref Cert.KernelIdeal.sig Kind.scVector Space.hbm Cert.KernelIdeal.S100000x128 EltTy.f32)
local notation "iV" => (Memref.whole Cert.KernelIdeal.main_arg0_scv : Memref Cert.KernelIdeal.sig Kind.scVector Space.hbm Cert.KernelIdeal.S1024x50 EltTy.i32)
local notation "oV" => (Memref.whole Cert.KernelIdeal.main_v0_scv : Memref Cert.KernelIdeal.sig Kind.scVector Space.hbm Cert.KernelIdeal.S1024x128 EltTy.f32)
local notation "a5" => (Memref.whole Cert.KernelIdeal.cc0_scratch0 : Memref Cert.KernelIdeal.sig Kind.scVector Space.vmem Cert.KernelIdeal.S32x50 EltTy.i32)
local notation "a6" => (Memref.whole Cert.KernelIdeal.cc0_scratch1 : Memref Cert.KernelIdeal.sig Kind.scVector Space.vmem Cert.KernelIdeal.S4x50x128 EltTy.f32)
local notation "a7" => (Memref.whole Cert.KernelIdeal.cc0_scratch2 : Memref Cert.KernelIdeal.sig Kind.scVector Space.vmem Cert.KernelIdeal.S32x128 EltTy.f32)

section Tile
variable (d : Dev nD) (L : grid0.Coords)

/-! ## One trip's eight stores: the frame -/

theorem lane_lt (j : Fin 8) (l : Fin 16) : 16 * j.val + l.val < 128 := by
  have := j.isLt; have := l.isLt; omega

omit [URA UU] [CountersIn UU] in
/-- The rectangle of chunk `j`'s store in row `k` of the pooled scratch: where its indices sit. -/
theorem piece_emb (k : Fin 32) (j : Fin 8) (o : Fin 2 → Nat) (eo : o = ![k.val, 16 * j.val])
    (inb : ∀ a, o a + S1x16.size a ≤ S32x128.size a) (u : Fin 1) (l : Fin 16) :
    (Rect.unit (s := S32x128) o S1x16.size inb).emb (ix2 u l) = (ix2 k ⟨16 * j.val + l.val, lane_lt j l⟩ : S32x128.Idx) := by
  subst eo
  have hu : u.val = 0 := by omega
  funext a; apply Fin.ext
  match a with
  | ⟨0, _⟩ => show k.val + 1 * u.val = k.val; omega
  | ⟨1, _⟩ => show 16 * j.val + 1 * l.val = 16 * j.val + l.val; omega

omit [URA UU] [CountersIn UU] in
/-- … and which indices it covers. -/
theorem piece_mem (k : Fin 32) (j : Fin 8) (o : Fin 2 → Nat) (eo : o = ![k.val, 16 * j.val])
    (inb : ∀ a, o a + S1x16.size a ≤ S32x128.size a) (y : S32x128.Idx) :
    y ∈ (Rect.unit (s := S32x128) o S1x16.size inb).set ↔ (y 0).val = k.val ∧ 16 * j.val ≤ (y 1).val ∧ (y 1).val < 16 * j.val + 16 := by
  subst eo
  rw [Rect.mem_set_unit]
  constructor
  · intro h
    have h0 := h 0
    have h1 := h 1
    have h0' : k.val ≤ (y 0).val ∧ (y 0).val < k.val + 1 := h0
    have h1' : 16 * j.val ≤ (y 1).val ∧ (y 1).val < 16 * j.val + 16 := h1
    omega
  · rintro ⟨h0, h1, h2⟩ a
    match a with
    | ⟨0, _⟩ => show k.val ≤ (y 0).val ∧ (y 0).val < k.val + 1; omega
    | ⟨1, _⟩ => show 16 * j.val ≤ (y 1).val ∧ (y 1).val < 16 * j.val + 16; omega

variable [FloatOps F] [Named F]

omit [URA UU] [CountersIn UU] in
/-- THE FRAME of one trip. Eight stores of sixteen lanes each through rectangles at offsets `(k, 16 j)`, newest first,
    over the pooled scratch as it stands before trip `k`, leave it as it stands before trip `k + 1` — whatever the
    payloads are called, if payload `j` at lane `l` is the pooled array's entry of the tile's row `k` at column
    `16 j + l`. Rows other than `k` are under no store; row `k` is covered, column `e` by store `e / 16`. -/
theorem pool_frame (f7 : Buf (Elt F) ((thr d L).loc cc0_scratch2)) (k : Fin 32)
    (o7 : Fin 2 → Nat) (o6 : Fin 2 → Nat) (o5 : Fin 2 → Nat) (o4 : Fin 2 → Nat) (o3 : Fin 2 → Nat) (o2 : Fin 2 → Nat) (o1 : Fin 2 → Nat) (o0 : Fin 2 → Nat)
    (e7 : o7 = ![k.val, 16 * (7 : Fin 8).val]) (e6 : o6 = ![k.val, 16 * (6 : Fin 8).val]) (e5 : o5 = ![k.val, 16 * (5 : Fin 8).val]) (e4 : o4 = ![k.val, 16 * (4 : Fin 8).val]) (e3 : o3 = ![k.val, 16 * (3 : Fin 8).val]) (e2 : o2 = ![k.val, 16 * (2 : Fin 8).val]) (e1 : o1 = ![k.val, 16 * (1 : Fin 8).val]) (e0 : o0 = ![k.val, 16 * (0 : Fin 8).val])
    (i7 : ∀ a, o7 a + S1x16.size a ≤ S32x128.size a)
    (i6 : ∀ a, o6 a + S1x16.size a ≤ S32x128.size a)
    (i5 : ∀ a, o5 a + S1x16.size a ≤ S32x128.size a)
    (i4 : ∀ a, o4 a + S1x16.size a ≤ S32x128.size a)
    (i3 : ∀ a, o3 a + S1x16.size a ≤ S32x128.size a)
    (i2 : ∀ a, o2 a + S1x16.size a ≤ S32x128.size a)
    (i1 : ∀ a, o1 a + S1x16.size a ≤ S32x128.size a)
    (i0 : ∀ a, o0 a + S1x16.size a ≤ S32x128.size a)
    (p7 : S1x16.Idx → Elt F .f32) (p6 : S1x16.Idx → Elt F .f32) (p5 : S1x16.Idx → Elt F .f32) (p4 : S1x16.Idx → Elt F .f32) (p3 : S1x16.Idx → Elt F .f32) (p2 : S1x16.Idx → Elt F .f32) (p1 : S1x16.Idx → Elt F .f32) (p0 : S1x16.Idx → Elt F .f32)
    (h7 : ∀ l : Fin 16, p7 (ix2 0 l) = poolF m d ((oRowK L).view.emb (ix2 k ⟨16 * (7 : Fin 8).val + l.val, lane_lt 7 l⟩)))
    (h6 : ∀ l : Fin 16, p6 (ix2 0 l) = poolF m d ((oRowK L).view.emb (ix2 k ⟨16 * (6 : Fin 8).val + l.val, lane_lt 6 l⟩)))
    (h5 : ∀ l : Fin 16, p5 (ix2 0 l) = poolF m d ((oRowK L).view.emb (ix2 k ⟨16 * (5 : Fin 8).val + l.val, lane_lt 5 l⟩)))
    (h4 : ∀ l : Fin 16, p4 (ix2 0 l) = poolF m d ((oRowK L).view.emb (ix2 k ⟨16 * (4 : Fin 8).val + l.val, lane_lt 4 l⟩)))
    (h3 : ∀ l : Fin 16, p3 (ix2 0 l) = poolF m d ((oRowK L).view.emb (ix2 k ⟨16 * (3 : Fin 8).val + l.val, lane_lt 3 l⟩)))
    (h2 : ∀ l : Fin 16, p2 (ix2 0 l) = poolF m d ((oRowK L).view.emb (ix2 k ⟨16 * (2 : Fin 8).val + l.val, lane_lt 2 l⟩)))
    (h1 : ∀ l : Fin 16, p1 (ix2 0 l) = poolF m d ((oRowK L).view.emb (ix2 k ⟨16 * (1 : Fin 8).val + l.val, lane_lt 1 l⟩)))
    (h0 : ∀ l : Fin 16, p0 (ix2 0 l) = poolF m d ((oRowK L).view.emb (ix2 k ⟨16 * (0 : Fin 8).val + l.val, lane_lt 0 l⟩))) :
    (a7).view.writes (Elt F) (poolSt m d L f7 k.val)
        [⟨Rect.unit (s := S32x128) o7 S1x16.size i7, p7⟩,
         ⟨Rect.unit (s := S32x128) o6 S1x16.size i6, p6⟩,
         ⟨Rect.unit (s := S32x128) o5 S1x16.size i5, p5⟩,
         ⟨Rect.unit (s := S32x128) o4 S1x16.size i4, p4⟩,
         ⟨Rect.unit (s := S32x128) o3 S1x16.size i3, p3⟩,
         ⟨Rect.unit (s := S32x128) o2 S1x16.size i2, p2⟩,
         ⟨Rect.unit (s := S32x128) o1 S1x16.size i1, p1⟩,
         ⟨Rect.unit (s := S32x128) o0 S1x16.size i0, p0⟩]
      = poolSt m d L f7 (k.val + 1) := by
  funext y
  have hr : ∀ g : Buf (Elt F) ((thr d L).loc cc0_scratch2), (a7).view.read (Elt F) g = g := fun g => View.read_whole cc0_scratch2 g
  refine Eq.trans (congrFun (hr _).symm y) ?_
  by_cases hy : ((y : S32x128.Idx) 0).val = k.val
  · -- row `k`: covered by the store of its column's chunk
    rw [View.read_writes_apply_of_pieces (a7).view (poolSt m d L f7 k.val) (fun y : S32x128.Idx => poolF m d ((oRowK L).view.emb y))]
    · unfold poolSt
      rw [if_pos (by omega)]
    · intro p hp
      simp only [List.mem_cons, List.not_mem_nil, or_false] at hp
      rcases hp with rfl | rfl | rfl | rfl | rfl | rfl | rfl | rfl
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p7 (ix2 0 l) = poolF m d ((oRowK L).view.emb ((Rect.unit (s := S32x128) o7 S1x16.size i7).emb (ix2 0 l)))
        rw [piece_emb k 7 o7 e7 i7 0 l]; exact h7 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p6 (ix2 0 l) = poolF m d ((oRowK L).view.emb ((Rect.unit (s := S32x128) o6 S1x16.size i6).emb (ix2 0 l)))
        rw [piece_emb k 6 o6 e6 i6 0 l]; exact h6 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p5 (ix2 0 l) = poolF m d ((oRowK L).view.emb ((Rect.unit (s := S32x128) o5 S1x16.size i5).emb (ix2 0 l)))
        rw [piece_emb k 5 o5 e5 i5 0 l]; exact h5 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p4 (ix2 0 l) = poolF m d ((oRowK L).view.emb ((Rect.unit (s := S32x128) o4 S1x16.size i4).emb (ix2 0 l)))
        rw [piece_emb k 4 o4 e4 i4 0 l]; exact h4 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p3 (ix2 0 l) = poolF m d ((oRowK L).view.emb ((Rect.unit (s := S32x128) o3 S1x16.size i3).emb (ix2 0 l)))
        rw [piece_emb k 3 o3 e3 i3 0 l]; exact h3 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p2 (ix2 0 l) = poolF m d ((oRowK L).view.emb ((Rect.unit (s := S32x128) o2 S1x16.size i2).emb (ix2 0 l)))
        rw [piece_emb k 2 o2 e2 i2 0 l]; exact h2 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p1 (ix2 0 l) = poolF m d ((oRowK L).view.emb ((Rect.unit (s := S32x128) o1 S1x16.size i1).emb (ix2 0 l)))
        rw [piece_emb k 1 o1 e1 i1 0 l]; exact h1 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p0 (ix2 0 l) = poolF m d ((oRowK L).view.emb ((Rect.unit (s := S32x128) o0 S1x16.size i0).emb (ix2 0 l)))
        rw [piece_emb k 0 o0 e0 i0 0 l]; exact h0 l
    · have hy1 : ((y : S32x128.Idx) 1).val < 128 := (y 1).isLt
      have hc : (16 * 0 ≤ ((y : S32x128.Idx) 1).val ∧ ((y : S32x128.Idx) 1).val < 16 * 0 + 16)
          ∨ (16 * 1 ≤ ((y : S32x128.Idx) 1).val ∧ ((y : S32x128.Idx) 1).val < 16 * 1 + 16)
          ∨ (16 * 2 ≤ ((y : S32x128.Idx) 1).val ∧ ((y : S32x128.Idx) 1).val < 16 * 2 + 16)
          ∨ (16 * 3 ≤ ((y : S32x128.Idx) 1).val ∧ ((y : S32x128.Idx) 1).val < 16 * 3 + 16)
          ∨ (16 * 4 ≤ ((y : S32x128.Idx) 1).val ∧ ((y : S32x128.Idx) 1).val < 16 * 4 + 16)
          ∨ (16 * 5 ≤ ((y : S32x128.Idx) 1).val ∧ ((y : S32x128.Idx) 1).val < 16 * 5 + 16)
          ∨ (16 * 6 ≤ ((y : S32x128.Idx) 1).val ∧ ((y : S32x128.Idx) 1).val < 16 * 6 + 16)
          ∨ (16 * 7 ≤ ((y : S32x128.Idx) 1).val ∧ ((y : S32x128.Idx) 1).val < 16 * 7 + 16) := by
        omega
      rcases hc with hc | hc | hc | hc | hc | hc | hc | hc
      · exact ⟨⟨Rect.unit (s := S32x128) o0 S1x16.size i0, p0⟩, (List.mem_cons_of_mem _ (List.mem_cons_of_mem _ (List.mem_cons_of_mem _ (List.mem_cons_of_mem _ (List.mem_cons_of_mem _ (List.mem_cons_of_mem _ (List.mem_cons_of_mem _ List.mem_cons_self))))))), (piece_mem k 0 o0 e0 i0 y).mpr ⟨hy, hc.1, hc.2⟩⟩
      · exact ⟨⟨Rect.unit (s := S32x128) o1 S1x16.size i1, p1⟩, (List.mem_cons_of_mem _ (List.mem_cons_of_mem _ (List.mem_cons_of_mem _ (List.mem_cons_of_mem _ (List.mem_cons_of_mem _ (List.mem_cons_of_mem _ List.mem_cons_self)))))), (piece_mem k 1 o1 e1 i1 y).mpr ⟨hy, hc.1, hc.2⟩⟩
      · exact ⟨⟨Rect.unit (s := S32x128) o2 S1x16.size i2, p2⟩, (List.mem_cons_of_mem _ (List.mem_cons_of_mem _ (List.mem_cons_of_mem _ (List.mem_cons_of_mem _ (List.mem_cons_of_mem _ List.mem_cons_self))))), (piece_mem k 2 o2 e2 i2 y).mpr ⟨hy, hc.1, hc.2⟩⟩
      · exact ⟨⟨Rect.unit (s := S32x128) o3 S1x16.size i3, p3⟩, (List.mem_cons_of_mem _ (List.mem_cons_of_mem _ (List.mem_cons_of_mem _ (List.mem_cons_of_mem _ List.mem_cons_self)))), (piece_mem k 3 o3 e3 i3 y).mpr ⟨hy, hc.1, hc.2⟩⟩
      · exact ⟨⟨Rect.unit (s := S32x128) o4 S1x16.size i4, p4⟩, (List.mem_cons_of_mem _ (List.mem_cons_of_mem _ (List.mem_cons_of_mem _ List.mem_cons_self))), (piece_mem k 4 o4 e4 i4 y).mpr ⟨hy, hc.1, hc.2⟩⟩
      · exact ⟨⟨Rect.unit (s := S32x128) o5 S1x16.size i5, p5⟩, (List.mem_cons_of_mem _ (List.mem_cons_of_mem _ List.mem_cons_self)), (piece_mem k 5 o5 e5 i5 y).mpr ⟨hy, hc.1, hc.2⟩⟩
      · exact ⟨⟨Rect.unit (s := S32x128) o6 S1x16.size i6, p6⟩, (List.mem_cons_of_mem _ List.mem_cons_self), (piece_mem k 6 o6 e6 i6 y).mpr ⟨hy, hc.1, hc.2⟩⟩
      · exact ⟨⟨Rect.unit (s := S32x128) o7 S1x16.size i7, p7⟩, List.mem_cons_self, (piece_mem k 7 o7 e7 i7 y).mpr ⟨hy, hc.1, hc.2⟩⟩
  · -- another row: under no store
    rw [View.read_writes_apply_of_forall_not_mem]
    · show poolSt m d L f7 k.val y = poolSt m d L f7 (k.val + 1) y
      unfold poolSt
      by_cases hlt : ((y : S32x128.Idx) 0).val < k.val
      · rw [if_pos hlt, if_pos (by omega)]
      · rw [if_neg hlt, if_neg (by omega)]
    · intro p hp
      simp only [List.mem_cons, List.not_mem_nil, or_false] at hp
      rcases hp with rfl | rfl | rfl | rfl | rfl | rfl | rfl | rfl
      · exact fun hm => hy ((piece_mem k 7 o7 e7 i7 y).mp hm).1
      · exact fun hm => hy ((piece_mem k 6 o6 e6 i6 y).mp hm).1
      · exact fun hm => hy ((piece_mem k 5 o5 e5 i5 y).mp hm).1
      · exact fun hm => hy ((piece_mem k 4 o4 e4 i4 y).mp hm).1
      · exact fun hm => hy ((piece_mem k 3 o3 e3 i3 y).mp hm).1
      · exact fun hm => hy ((piece_mem k 2 o2 e2 i2 y).mp hm).1
      · exact fun hm => hy ((piece_mem k 1 o1 e1 i1 y).mp hm).1
      · exact fun hm => hy ((piece_mem k 0 o0 e0 i0 y).mp hm).1

variable (hidx : IdxOK m)

/-- ONE TRIP of the loop, as a run leaves it: the eight stores of trip `k` — each the printed payload chain of its
    chunk over the fifty loads of the landed rows — take the pooled scratch from its state before trip `k` to its
    state before trip `k + 1`. -/
theorem pool_trip (f7 : Buf (Elt F) ((thr d L).loc cc0_scratch2)) (k : Fin k0_t1_loop.trips) (hk : k.val < 32) :
    (a7).view.writes (Elt F) (poolSt m d L f7 k.val)
        [⟨Rect.unit (s := S32x128) (k0_off415 k) S1x16.size (k0_off415_inb k),
           (k0_pay1 (k0_pay62 (k0_pay61 (k0_pay60 (k0_pay59 (k0_pay58 (k0_pay57 (View.readAt (Elt F) (a6).view (Rect.unit (s := S4x50x128) (k0_off365 k) S1x1x16.size (k0_off365_inb k)).toLoadRect (gath m d L hidx k.val hk)) (View.readAt (Elt F) (a6).view (Rect.unit (s := S4x50x128) (k0_off366 k) S1x1x16.size (k0_off366_inb k)).toLoadRect (gath m d L hidx k.val hk)) (View.readAt (Elt F) (a6).view (Rect.unit (s := S4x50x128) (k0_off367 k) S1x1x16.size (k0_off367_inb k)).toLoadRect (gath m d L hidx k.val hk)) (View.readAt (Elt F) (a6).view (Rect.unit (s := S4x50x128) (k0_off368 k) S1x1x16.size (k0_off368_inb k)).toLoadRect (gath m d L hidx k.val hk)) (View.readAt (Elt F) (a6).view (Rect.unit (s := S4x50x128) (k0_off369 k) S1x1x16.size (k0_off369_inb k)).toLoadRect (gath m d L hidx k.val hk)) (View.readAt (Elt F) (a6).view (Rect.unit (s := S4x50x128) (k0_off370 k) S1x1x16.size (k0_off370_inb k)).toLoadRect (gath m d L hidx k.val hk)) (View.readAt (Elt F) (a6).view (Rect.unit (s := S4x50x128) (k0_off371 k) S1x1x16.size (k0_off371_inb k)).toLoadRect (gath m d L hidx k.val hk))) (View.readAt (Elt F) (a6).view (Rect.unit (s := S4x50x128) (k0_off372 k) S1x1x16.size (k0_off372_inb k)).toLoadRect (gath m d L hidx k.val hk)) (View.readAt (Elt F) (a6).view (Rect.unit (s := S4x50x128) (k0_off373 k) S1x1x16.size (k0_off373_inb k)).toLoadRect (gath m d L hidx k.val hk)) (View.readAt (Elt F) (a6).view (Rect.unit (s := S4x50x128) (k0_off374 k) S1x1x16.size (k0_off374_inb k)).toLoadRect (gath m d L hidx k.val hk)) (View.readAt (Elt F) (a6).view (Rect.unit (s := S4x50x128) (k0_off375 k) S1x1x16.size (k0_off375_inb k)).toLoadRect (gath m d L hidx k.val hk)) (View.readAt (Elt F) (a6).view (Rect.unit (s := S4x50x128) (k0_off376 k) S1x1x16.size (k0_off376_inb k)).toLoadRect (gath m d L hidx k.val hk)) (View.readAt (Elt F) (a6).view (Rect.unit (s := S4x50x128) (k0_off377 k) S1x1x16.size (k0_off377_inb k)).toLoadRect (gath m d L hidx k.val hk)) (View.readAt (Elt F) (a6).view (Rect.unit (s := S4x50x128) (k0_off378 k) S1x1x16.size (k0_off378_inb k)).toLoadRect (gath m d L hidx k.val hk)) (View.readAt (Elt F) (a6).view (Rect.unit (s := S4x50x128) (k0_off379 k) S1x1x16.size (k0_off379_inb k)).toLoadRect (gath m d L hidx k.val hk))) (View.readAt (Elt F) (a6).view (Rect.unit (s := S4x50x128) (k0_off380 k) S1x1x16.size (k0_off380_inb k)).toLoadRect (gath m d L hidx k.val hk)) (View.readAt (Elt F) (a6).view (Rect.unit (s := S4x50x128) (k0_off381 k) S1x1x16.size (k0_off381_inb k)).toLoadRect (gath m d L hidx k.val hk)) (View.readAt (Elt F) (a6).view (Rect.unit (s := S4x50x128) (k0_off382 k) S1x1x16.size (k0_off382_inb k)).toLoadRect (gath m d L hidx k.val hk)) (View.readAt (Elt F) (a6).view (Rect.unit (s := S4x50x128) (k0_off383 k) S1x1x16.size (k0_off383_inb k)).toLoadRect (gath m d L hidx k.val hk)) (View.readAt (Elt F) (a6).view (Rect.unit (s := S4x50x128) (k0_off384 k) S1x1x16.size (k0_off384_inb k)).toLoadRect (gath m d L hidx k.val hk)) (View.readAt (Elt F) (a6).view (Rect.unit (s := S4x50x128) (k0_off385 k) S1x1x16.size (k0_off385_inb k)).toLoadRect (gath m d L hidx k.val hk)) (View.readAt (Elt F) (a6).view (Rect.unit (s := S4x50x128) (k0_off386 k) S1x1x16.size (k0_off386_inb k)).toLoadRect (gath m d L hidx k.val hk)) (View.readAt (Elt F) (a6).view (Rect.unit (s := S4x50x128) (k0_off387 k) S1x1x16.size (k0_off387_inb k)).toLoadRect (gath m d L hidx k.val hk)) (View.readAt (Elt F) (a6).view (Rect.unit (s := S4x50x128) (k0_off388 k) S1x1x16.size (k0_off388_inb k)).toLoadRect (gath m d L hidx k.val hk))) (View.readAt (Elt F) (a6).view (Rect.unit (s := S4x50x128) (k0_off389 k) S1x1x16.size (k0_off389_inb k)).toLoadRect (gath m d L hidx k.val hk)) (View.readAt (Elt F) (a6).view (Rect.unit (s := S4x50x128) (k0_off390 k) S1x1x16.size (k0_off390_inb k)).toLoadRect (gath m d L hidx k.val hk)) (View.readAt (Elt F) (a6).view (Rect.unit (s := S4x50x128) (k0_off391 k) S1x1x16.size (k0_off391_inb k)).toLoadRect (gath m d L hidx k.val hk)) (View.readAt (Elt F) (a6).view (Rect.unit (s := S4x50x128) (k0_off392 k) S1x1x16.size (k0_off392_inb k)).toLoadRect (gath m d L hidx k.val hk)) (View.readAt (Elt F) (a6).view (Rect.unit (s := S4x50x128) (k0_off393 k) S1x1x16.size (k0_off393_inb k)).toLoadRect (gath m d L hidx k.val hk)) (View.readAt (Elt F) (a6).view (Rect.unit (s := S4x50x128) (k0_off394 k) S1x1x16.size (k0_off394_inb k)).toLoadRect (gath m d L hidx k.val hk)) (View.readAt (Elt F) (a6).view (Rect.unit (s := S4x50x128) (k0_off395 k) S1x1x16.size (k0_off395_inb k)).toLoadRect (gath m d L hidx k.val hk)) (View.readAt (Elt F) (a6).view (Rect.unit (s := S4x50x128) (k0_off396 k) S1x1x16.size (k0_off396_inb k)).toLoadRect (gath m d L hidx k.val hk))) (View.readAt (Elt F) (a6).view (Rect.unit (s := S4x50x128) (k0_off397 k) S1x1x16.size (k0_off397_inb k)).toLoadRect (gath m d L hidx k.val hk)) (View.readAt (Elt F) (a6).view (Rect.unit (s := S4x50x128) (k0_off398 k) S1x1x16.size (k0_off398_inb k)).toLoadRect (gath m d L hidx k.val hk)) (View.readAt (Elt F) (a6).view (Rect.unit (s := S4x50x128) (k0_off399 k) S1x1x16.size (k0_off399_inb k)).toLoadRect (gath m d L hidx k.val hk)) (View.readAt (Elt F) (a6).view (Rect.unit (s := S4x50x128) (k0_off400 k) S1x1x16.size (k0_off400_inb k)).toLoadRect (gath m d L hidx k.val hk)) (View.readAt (Elt F) (a6).view (Rect.unit (s := S4x50x128) (k0_off401 k) S1x1x16.size (k0_off401_inb k)).toLoadRect (gath m d L hidx k.val hk)) (View.readAt (Elt F) (a6).view (Rect.unit (s := S4x50x128) (k0_off402 k) S1x1x16.size (k0_off402_inb k)).toLoadRect (gath m d L hidx k.val hk)) (View.readAt (Elt F) (a6).view (Rect.unit (s := S4x50x128) (k0_off403 k) S1x1x16.size (k0_off403_inb k)).toLoadRect (gath m d L hidx k.val hk)) (View.readAt (Elt F) (a6).view (Rect.unit (s := S4x50x128) (k0_off404 k) S1x1x16.size (k0_off404_inb k)).toLoadRect (gath m d L hidx k.val hk)) (View.readAt (Elt F) (a6).view (Rect.unit (s := S4x50x128) (k0_off405 k) S1x1x16.size (k0_off405_inb k)).toLoadRect (gath m d L hidx k.val hk))) (View.readAt (Elt F) (a6).view (Rect.unit (s := S4x50x128) (k0_off406 k) S1x1x16.size (k0_off406_inb k)).toLoadRect (gath m d L hidx k.val hk)) (View.readAt (Elt F) (a6).view (Rect.unit (s := S4x50x128) (k0_off407 k) S1x1x16.size (k0_off407_inb k)).toLoadRect (gath m d L hidx k.val hk)) (View.readAt (Elt F) (a6).view (Rect.unit (s := S4x50x128) (k0_off408 k) S1x1x16.size (k0_off408_inb k)).toLoadRect (gath m d L hidx k.val hk)) (View.readAt (Elt F) (a6).view (Rect.unit (s := S4x50x128) (k0_off409 k) S1x1x16.size (k0_off409_inb k)).toLoadRect (gath m d L hidx k.val hk)) (View.readAt (Elt F) (a6).view (Rect.unit (s := S4x50x128) (k0_off410 k) S1x1x16.size (k0_off410_inb k)).toLoadRect (gath m d L hidx k.val hk)) (View.readAt (Elt F) (a6).view (Rect.unit (s := S4x50x128) (k0_off411 k) S1x1x16.size (k0_off411_inb k)).toLoadRect (gath m d L hidx k.val hk)) (View.readAt (Elt F) (a6).view (Rect.unit (s := S4x50x128) (k0_off412 k) S1x1x16.size (k0_off412_inb k)).toLoadRect (gath m d L hidx k.val hk)) (View.readAt (Elt F) (a6).view (Rect.unit (s := S4x50x128) (k0_off413 k) S1x1x16.size (k0_off413_inb k)).toLoadRect (gath m d L hidx k.val hk))) (k0_pay63 (View.readAt (Elt F) (a6).view (Rect.unit (s := S4x50x128) (k0_off414 k) S1x1x16.size (k0_off414_inb k)).toLoadRect (gath m d L hidx k.val hk))))⟩,
         ⟨Rect.unit (s := S32x128) (k0_off364 k) S1x16.size (k0_off364_inb k),
           (k0_pay56 (k0_pay55 (k0_pay54 (k0_pay53 (k0_pay51 (k0_pay50 (k0_pay49 (View.readAt (Elt F) (a6).view (Rect.unit (s := S4x50x128) (k0_off314 k) S1x1x16.size (k0_off314_inb k)).toLoadRect (gath m d L hidx k.val hk)) (View.readAt (Elt F) (a6).view (Rect.unit (s := S4x50x128) (k0_off315 k) S1x1x16.size (k0_off315_inb k)).toLoadRect (gath m d L hidx k.val hk)) (View.readAt (Elt F) (a6).view (Rect.unit (s := S4x50x128) (k0_off316 k) S1x1x16.size (k0_off316_inb k)).toLoadRect (gath m d L hidx k.val hk)) (View.readAt (Elt F) (a6).view (Rect.unit (s := S4x50x128) (k0_off317 k) S1x1x16.size (k0_off317_inb k)).toLoadRect (gath m d L hidx k.val hk)) (View.readAt (Elt F) (a6).view (Rect.unit (s := S4x50x128) (k0_off318 k) S1x1x16.size (k0_off318_inb k)).toLoadRect (gath m d L hidx k.val hk)) (View.readAt (Elt F) (a6).view (Rect.unit (s := S4x50x128) (k0_off319 k) S1x1x16.size (k0_off319_inb k)).toLoadRect (gath m d L hidx k.val hk))) (View.readAt (Elt F) (a6).view (Rect.unit (s := S4x50x128) (k0_off320 k) S1x1x16.size (k0_off320_inb k)).toLoadRect (gath m d L hidx k.val hk)) (View.readAt (Elt F) (a6).view (Rect.unit (s := S4x50x128) (k0_off321 k) S1x1x16.size (k0_off321_inb k)).toLoadRect (gath m d L hidx k.val hk)) (View.readAt (Elt F) (a6).view (Rect.unit (s := S4x50x128) (k0_off322 k) S1x1x16.size (k0_off322_inb k)).toLoadRect (gath m d L hidx k.val hk)) (View.readAt (Elt F) (a6).view (Rect.unit (s := S4x50x128) (k0_off323 k) S1x1x16.size (k0_off323_inb k)).toLoadRect (gath m d L hidx k.val hk)) (View.readAt (Elt F) (a6).view (Rect.unit (s := S4x50x128) (k0_off324 k) S1x1x16.size (k0_off324_inb k)).toLoadRect (gath m d L hidx k.val hk)) (View.readAt (Elt F) (a6).view (Rect.unit (s := S4x50x128) (k0_off325 k) S1x1x16.size (k0_off325_inb k)).toLoadRect (gath m d L hidx k.val hk)) (View.readAt (Elt F) (a6).view (Rect.unit (s := S4x50x128) (k0_off326 k) S1x1x16.size (k0_off326_inb k)).toLoadRect (gath m d L hidx k.val hk)) (View.readAt (Elt F) (a6).view (Rect.unit (s := S4x50x128) (k0_off327 k) S1x1x16.size (k0_off327_inb k)).toLoadRect (gath m d L hidx k.val hk)) (View.readAt (Elt F) (a6).view (Rect.unit (s := S4x50x128) (k0_off328 k) S1x1x16.size (k0_off328_inb k)).toLoadRect (gath m d L hidx k.val hk))) (View.readAt (Elt F) (a6).view (Rect.unit (s := S4x50x128) (k0_off329 k) S1x1x16.size (k0_off329_inb k)).toLoadRect (gath m d L hidx k.val hk)) (View.readAt (Elt F) (a6).view (Rect.unit (s := S4x50x128) (k0_off330 k) S1x1x16.size (k0_off330_inb k)).toLoadRect (gath m d L hidx k.val hk)) (View.readAt (Elt F) (a6).view (Rect.unit (s := S4x50x128) (k0_off331 k) S1x1x16.size (k0_off331_inb k)).toLoadRect (gath m d L hidx k.val hk)) (View.readAt (Elt F) (a6).view (Rect.unit (s := S4x50x128) (k0_off332 k) S1x1x16.size (k0_off332_inb k)).toLoadRect (gath m d L hidx k.val hk)) (View.readAt (Elt F) (a6).view (Rect.unit (s := S4x50x128) (k0_off333 k) S1x1x16.size (k0_off333_inb k)).toLoadRect (gath m d L hidx k.val hk)) (View.readAt (Elt F) (a6).view (Rect.unit (s := S4x50x128) (k0_off334 k) S1x1x16.size (k0_off334_inb k)).toLoadRect (gath m d L hidx k.val hk)) (View.readAt (Elt F) (a6).view (Rect.unit (s := S4x50x128) (k0_off335 k) S1x1x16.size (k0_off335_inb k)).toLoadRect (gath m d L hidx k.val hk)) (View.readAt (Elt F) (a6).view (Rect.unit (s := S4x50x128) (k0_off336 k) S1x1x16.size (k0_off336_inb k)).toLoadRect (gath m d L hidx k.val hk))) (k0_pay52 (View.readAt (Elt F) (a6).view (Rect.unit (s := S4x50x128) (k0_off337 k) S1x1x16.size (k0_off337_inb k)).toLoadRect (gath m d L hidx k.val hk))) (View.readAt (Elt F) (a6).view (Rect.unit (s := S4x50x128) (k0_off338 k) S1x1x16.size (k0_off338_inb k)).toLoadRect (gath m d L hidx k.val hk)) (View.readAt (Elt F) (a6).view (Rect.unit (s := S4x50x128) (k0_off339 k) S1x1x16.size (k0_off339_inb k)).toLoadRect (gath m d L hidx k.val hk)) (View.readAt (Elt F) (a6).view (Rect.unit (s := S4x50x128) (k0_off340 k) S1x1x16.size (k0_off340_inb k)).toLoadRect (gath m d L hidx k.val hk)) (View.readAt (Elt F) (a6).view (Rect.unit (s := S4x50x128) (k0_off341 k) S1x1x16.size (k0_off341_inb k)).toLoadRect (gath m d L hidx k.val hk)) (View.readAt (Elt F) (a6).view (Rect.unit (s := S4x50x128) (k0_off342 k) S1x1x16.size (k0_off342_inb k)).toLoadRect (gath m d L hidx k.val hk)) (View.readAt (Elt F) (a6).view (Rect.unit (s := S4x50x128) (k0_off343 k) S1x1x16.size (k0_off343_inb k)).toLoadRect (gath m d L hidx k.val hk)) (View.readAt (Elt F) (a6).view (Rect.unit (s := S4x50x128) (k0_off344 k) S1x1x16.size (k0_off344_inb k)).toLoadRect (gath m d L hidx k.val hk)) (View.readAt (Elt F) (a6).view (Rect.unit (s := S4x50x128) (k0_off345 k) S1x1x16.size (k0_off345_inb k)).toLoadRect (gath m d L hidx k.val hk))) (View.readAt (Elt F) (a6).view (Rect.unit (s := S4x50x128) (k0_off346 k) S1x1x16.size (k0_off346_inb k)).toLoadRect (gath m d L hidx k.val hk)) (View.readAt (Elt F) (a6).view (Rect.unit (s := S4x50x128) (k0_off347 k) S1x1x16.size (k0_off347_inb k)).toLoadRect (gath m d L hidx k.val hk)) (View.readAt (Elt F) (a6).view (Rect.unit (s := S4x50x128) (k0_off348 k) S1x1x16.size (k0_off348_inb k)).toLoadRect (gath m d L hidx k.val hk)) (View.readAt (Elt F) (a6).view (Rect.unit (s := S4x50x128) (k0_off349 k) S1x1x16.size (k0_off349_inb k)).toLoadRect (gath m d L hidx k.val hk)) (View.readAt (Elt F) (a6).view (Rect.unit (s := S4x50x128) (k0_off350 k) S1x1x16.size (k0_off350_inb k)).toLoadRect (gath m d L hidx k.val hk)) (View.readAt (Elt F) (a6).view (Rect.unit (s := S4x50x128) (k0_off351 k) S1x1x16.size (k0_off351_inb k)).toLoadRect (gath m d L hidx k.val hk)) (View.readAt (Elt F) (a6).view (Rect.unit (s := S4x50x128) (k0_off352 k) S1x1x16.size (k0_off352_inb k)).toLoadRect (gath m d L hidx k.val hk)) (View.readAt (Elt F) (a6).view (Rect.unit (s := S4x50x128) (k0_off353 k) S1x1x16.size (k0_off353_inb k)).toLoadRect (gath m d L hidx k.val hk)) (View.readAt (Elt F) (a6).view (Rect.unit (s := S4x50x128) (k0_off354 k) S1x1x16.size (k0_off354_inb k)).toLoadRect (gath m d L hidx k.val hk))) (View.readAt (Elt F) (a6).view (Rect.unit (s := S4x50x128) (k0_off355 k) S1x1x16.size (k0_off355_inb k)).toLoadRect (gath m d L hidx k.val hk)) (View.readAt (Elt F) (a6).view (Rect.unit (s := S4x50x128) (k0_off356 k) S1x1x16.size (k0_off356_inb k)).toLoadRect (gath m d L hidx k.val hk)) (View.readAt (Elt F) (a6).view (Rect.unit (s := S4x50x128) (k0_off357 k) S1x1x16.size (k0_off357_inb k)).toLoadRect (gath m d L hidx k.val hk)) (View.readAt (Elt F) (a6).view (Rect.unit (s := S4x50x128) (k0_off358 k) S1x1x16.size (k0_off358_inb k)).toLoadRect (gath m d L hidx k.val hk)) (View.readAt (Elt F) (a6).view (Rect.unit (s := S4x50x128) (k0_off359 k) S1x1x16.size (k0_off359_inb k)).toLoadRect (gath m d L hidx k.val hk)) (View.readAt (Elt F) (a6).view (Rect.unit (s := S4x50x128) (k0_off360 k) S1x1x16.size (k0_off360_inb k)).toLoadRect (gath m d L hidx k.val hk)) (View.readAt (Elt F) (a6).view (Rect.unit (s := S4x50x128) (k0_off361 k) S1x1x16.size (k0_off361_inb k)).toLoadRect (gath m d L hidx k.val hk)) (View.readAt (Elt F) (a6).view (Rect.unit (s := S4x50x128) (k0_off362 k) S1x1x16.size (k0_off362_inb k)).toLoadRect (gath m d L hidx k.val hk))) (View.readAt (Elt F) (a6).view (Rect.unit (s := S4x50x128) (k0_off363 k) S1x1x16.size (k0_off363_inb k)).toLoadRect (gath m d L hidx k.val hk)))⟩,
         ⟨Rect.unit (s := S32x128) (k0_off313 k) S1x16.size (k0_off313_inb k),
           (k0_pay48 (k0_pay47 (k0_pay46 (k0_pay45 (k0_pay44 (k0_pay43 (k0_pay42 (View.readAt (Elt F) (a6).view (Rect.unit (s := S4x50x128) (k0_off263 k) S1x1x16.size (k0_off263_inb k)).toLoadRect (gath m d L hidx k.val hk)) (View.readAt (Elt F) (a6).view (Rect.unit (s := S4x50x128) (k0_off264 k) S1x1x16.size (k0_off264_inb k)).toLoadRect (gath m d L hidx k.val hk)) (View.readAt (Elt F) (a6).view (Rect.unit (s := S4x50x128) (k0_off265 k) S1x1x16.size (k0_off265_inb k)).toLoadRect (gath m d L hidx k.val hk)) (View.readAt (Elt F) (a6).view (Rect.unit (s := S4x50x128) (k0_off266 k) S1x1x16.size (k0_off266_inb k)).toLoadRect (gath m d L hidx k.val hk)) (View.readAt (Elt F) (a6).view (Rect.unit (s := S4x50x128) (k0_off267 k) S1x1x16.size (k0_off267_inb k)).toLoadRect (gath m d L hidx k.val hk)) (View.readAt (Elt F) (a6).view (Rect.unit (s := S4x50x128) (k0_off268 k) S1x1x16.size (k0_off268_inb k)).toLoadRect (gath m d L hidx k.val hk))) (View.readAt (Elt F) (a6).view (Rect.unit (s := S4x50x128) (k0_off269 k) S1x1x16.size (k0_off269_inb k)).toLoadRect (gath m d L hidx k.val hk)) (View.readAt (Elt F) (a6).view (Rect.unit (s := S4x50x128) (k0_off270 k) S1x1x16.size (k0_off270_inb k)).toLoadRect (gath m d L hidx k.val hk)) (View.readAt (Elt F) (a6).view (Rect.unit (s := S4x50x128) (k0_off271 k) S1x1x16.size (k0_off271_inb k)).toLoadRect (gath m d L hidx k.val hk)) (View.readAt (Elt F) (a6).view (Rect.unit (s := S4x50x128) (k0_off272 k) S1x1x16.size (k0_off272_inb k)).toLoadRect (gath m d L hidx k.val hk)) (View.readAt (Elt F) (a6).view (Rect.unit (s := S4x50x128) (k0_off273 k) S1x1x16.size (k0_off273_inb k)).toLoadRect (gath m d L hidx k.val hk)) (View.readAt (Elt F) (a6).view (Rect.unit (s := S4x50x128) (k0_off274 k) S1x1x16.size (k0_off274_inb k)).toLoadRect (gath m d L hidx k.val hk)) (View.readAt (Elt F) (a6).view (Rect.unit (s := S4x50x128) (k0_off275 k) S1x1x16.size (k0_off275_inb k)).toLoadRect (gath m d L hidx k.val hk)) (View.readAt (Elt F) (a6).view (Rect.unit (s := S4x50x128) (k0_off276 k) S1x1x16.size (k0_off276_inb k)).toLoadRect (gath m d L hidx k.val hk)) (View.readAt (Elt F) (a6).view (Rect.unit (s := S4x50x128) (k0_off277 k) S1x1x16.size (k0_off277_inb k)).toLoadRect (gath m d L hidx k.val hk))) (View.readAt (Elt F) (a6).view (Rect.unit (s := S4x50x128) (k0_off278 k) S1x1x16.size (k0_off278_inb k)).toLoadRect (gath m d L hidx k.val hk)) (View.readAt (Elt F) (a6).view (Rect.unit (s := S4x50x128) (k0_off279 k) S1x1x16.size (k0_off279_inb k)).toLoadRect (gath m d L hidx k.val hk)) (View.readAt (Elt F) (a6).view (Rect.unit (s := S4x50x128) (k0_off280 k) S1x1x16.size (k0_off280_inb k)).toLoadRect (gath m d L hidx k.val hk)) (View.readAt (Elt F) (a6).view (Rect.unit (s := S4x50x128) (k0_off281 k) S1x1x16.size (k0_off281_inb k)).toLoadRect (gath m d L hidx k.val hk)) (View.readAt (Elt F) (a6).view (Rect.unit (s := S4x50x128) (k0_off282 k) S1x1x16.size (k0_off282_inb k)).toLoadRect (gath m d L hidx k.val hk)) (View.readAt (Elt F) (a6).view (Rect.unit (s := S4x50x128) (k0_off283 k) S1x1x16.size (k0_off283_inb k)).toLoadRect (gath m d L hidx k.val hk)) (View.readAt (Elt F) (a6).view (Rect.unit (s := S4x50x128) (k0_off284 k) S1x1x16.size (k0_off284_inb k)).toLoadRect (gath m d L hidx k.val hk)) (View.readAt (Elt F) (a6).view (Rect.unit (s := S4x50x128) (k0_off285 k) S1x1x16.size (k0_off285_inb k)).toLoadRect (gath m d L hidx k.val hk))) (View.readAt (Elt F) (a6).view (Rect.unit (s := S4x50x128) (k0_off286 k) S1x1x16.size (k0_off286_inb k)).toLoadRect (gath m d L hidx k.val hk)) (View.readAt (Elt F) (a6).view (Rect.unit (s := S4x50x128) (k0_off287 k) S1x1x16.size (k0_off287_inb k)).toLoadRect (gath m d L hidx k.val hk)) (View.readAt (Elt F) (a6).view (Rect.unit (s := S4x50x128) (k0_off288 k) S1x1x16.size (k0_off288_inb k)).toLoadRect (gath m d L hidx k.val hk)) (View.readAt (Elt F) (a6).view (Rect.unit (s := S4x50x128) (k0_off289 k) S1x1x16.size (k0_off289_inb k)).toLoadRect (gath m d L hidx k.val hk)) (View.readAt (Elt F) (a6).view (Rect.unit (s := S4x50x128) (k0_off290 k) S1x1x16.size (k0_off290_inb k)).toLoadRect (gath m d L hidx k.val hk)) (View.readAt (Elt F) (a6).view (Rect.unit (s := S4x50x128) (k0_off291 k) S1x1x16.size (k0_off291_inb k)).toLoadRect (gath m d L hidx k.val hk)) (View.readAt (Elt F) (a6).view (Rect.unit (s := S4x50x128) (k0_off292 k) S1x1x16.size (k0_off292_inb k)).toLoadRect (gath m d L hidx k.val hk)) (View.readAt (Elt F) (a6).view (Rect.unit (s := S4x50x128) (k0_off293 k) S1x1x16.size (k0_off293_inb k)).toLoadRect (gath m d L hidx k.val hk)) (View.readAt (Elt F) (a6).view (Rect.unit (s := S4x50x128) (k0_off294 k) S1x1x16.size (k0_off294_inb k)).toLoadRect (gath m d L hidx k.val hk))) (View.readAt (Elt F) (a6).view (Rect.unit (s := S4x50x128) (k0_off295 k) S1x1x16.size (k0_off295_inb k)).toLoadRect (gath m d L hidx k.val hk)) (View.readAt (Elt F) (a6).view (Rect.unit (s := S4x50x128) (k0_off296 k) S1x1x16.size (k0_off296_inb k)).toLoadRect (gath m d L hidx k.val hk)) (View.readAt (Elt F) (a6).view (Rect.unit (s := S4x50x128) (k0_off297 k) S1x1x16.size (k0_off297_inb k)).toLoadRect (gath m d L hidx k.val hk)) (View.readAt (Elt F) (a6).view (Rect.unit (s := S4x50x128) (k0_off298 k) S1x1x16.size (k0_off298_inb k)).toLoadRect (gath m d L hidx k.val hk)) (View.readAt (Elt F) (a6).view (Rect.unit (s := S4x50x128) (k0_off299 k) S1x1x16.size (k0_off299_inb k)).toLoadRect (gath m d L hidx k.val hk)) (View.readAt (Elt F) (a6).view (Rect.unit (s := S4x50x128) (k0_off300 k) S1x1x16.size (k0_off300_inb k)).toLoadRect (gath m d L hidx k.val hk)) (View.readAt (Elt F) (a6).view (Rect.unit (s := S4x50x128) (k0_off301 k) S1x1x16.size (k0_off301_inb k)).toLoadRect (gath m d L hidx k.val hk)) (View.readAt (Elt F) (a6).view (Rect.unit (s := S4x50x128) (k0_off302 k) S1x1x16.size (k0_off302_inb k)).toLoadRect (gath m d L hidx k.val hk))) (View.readAt (Elt F) (a6).view (Rect.unit (s := S4x50x128) (k0_off303 k) S1x1x16.size (k0_off303_inb k)).toLoadRect (gath m d L hidx k.val hk)) (View.readAt (Elt F) (a6).view (Rect.unit (s := S4x50x128) (k0_off304 k) S1x1x16.size (k0_off304_inb k)).toLoadRect (gath m d L hidx k.val hk)) (View.readAt (Elt F) (a6).view (Rect.unit (s := S4x50x128) (k0_off305 k) S1x1x16.size (k0_off305_inb k)).toLoadRect (gath m d L hidx k.val hk)) (View.readAt (Elt F) (a6).view (Rect.unit (s := S4x50x128) (k0_off306 k) S1x1x16.size (k0_off306_inb k)).toLoadRect (gath m d L hidx k.val hk)) (View.readAt (Elt F) (a6).view (Rect.unit (s := S4x50x128) (k0_off307 k) S1x1x16.size (k0_off307_inb k)).toLoadRect (gath m d L hidx k.val hk)) (View.readAt (Elt F) (a6).view (Rect.unit (s := S4x50x128) (k0_off308 k) S1x1x16.size (k0_off308_inb k)).toLoadRect (gath m d L hidx k.val hk)) (View.readAt (Elt F) (a6).view (Rect.unit (s := S4x50x128) (k0_off309 k) S1x1x16.size (k0_off309_inb k)).toLoadRect (gath m d L hidx k.val hk)) (View.readAt (Elt F) (a6).view (Rect.unit (s := S4x50x128) (k0_off310 k) S1x1x16.size (k0_off310_inb k)).toLoadRect (gath m d L hidx k.val hk)) (View.readAt (Elt F) (a6).view (Rect.unit (s := S4x50x128) (k0_off311 k) S1x1x16.size (k0_off311_inb k)).toLoadRect (gath m d L hidx k.val hk))) (View.readAt (Elt F) (a6).view (Rect.unit (s := S4x50x128) (k0_off312 k) S1x1x16.size (k0_off312_inb k)).toLoadRect (gath m d L hidx k.val hk)))⟩,
         ⟨Rect.unit (s := S32x128) (k0_off262 k) S1x16.size (k0_off262_inb k),
           (k0_pay41 (k0_pay40 (k0_pay39 (k0_pay37 (k0_pay36 (k0_pay35 (k0_pay34 (View.readAt (Elt F) (a6).view (Rect.unit (s := S4x50x128) (k0_off212 k) S1x1x16.size (k0_off212_inb k)).toLoadRect (gath m d L hidx k.val hk)) (View.readAt (Elt F) (a6).view (Rect.unit (s := S4x50x128) (k0_off213 k) S1x1x16.size (k0_off213_inb k)).toLoadRect (gath m d L hidx k.val hk)) (View.readAt (Elt F) (a6).view (Rect.unit (s := S4x50x128) (k0_off214 k) S1x1x16.size (k0_off214_inb k)).toLoadRect (gath m d L hidx k.val hk)) (View.readAt (Elt F) (a6).view (Rect.unit (s := S4x50x128) (k0_off215 k) S1x1x16.size (k0_off215_inb k)).toLoadRect (gath m d L hidx k.val hk)) (View.readAt (Elt F) (a6).view (Rect.unit (s := S4x50x128) (k0_off216 k) S1x1x16.size (k0_off216_inb k)).toLoadRect (gath m d L hidx k.val hk)) (View.readAt (Elt F) (a6).view (Rect.unit (s := S4x50x128) (k0_off217 k) S1x1x16.size (k0_off217_inb k)).toLoadRect (gath m d L hidx k.val hk))) (View.readAt (Elt F) (a6).view (Rect.unit (s := S4x50x128) (k0_off218 k) S1x1x16.size (k0_off218_inb k)).toLoadRect (gath m d L hidx k.val hk)) (View.readAt (Elt F) (a6).view (Rect.unit (s := S4x50x128) (k0_off219 k) S1x1x16.size (k0_off219_inb k)).toLoadRect (gath m d L hidx k.val hk)) (View.readAt (Elt F) (a6).view (Rect.unit (s := S4x50x128) (k0_off220 k) S1x1x16.size (k0_off220_inb k)).toLoadRect (gath m d L hidx k.val hk)) (View.readAt (Elt F) (a6).view (Rect.unit (s := S4x50x128) (k0_off221 k) S1x1x16.size (k0_off221_inb k)).toLoadRect (gath m d L hidx k.val hk)) (View.readAt (Elt F) (a6).view (Rect.unit (s := S4x50x128) (k0_off222 k) S1x1x16.size (k0_off222_inb k)).toLoadRect (gath m d L hidx k.val hk)) (View.readAt (Elt F) (a6).view (Rect.unit (s := S4x50x128) (k0_off223 k) S1x1x16.size (k0_off223_inb k)).toLoadRect (gath m d L hidx k.val hk)) (View.readAt (Elt F) (a6).view (Rect.unit (s := S4x50x128) (k0_off224 k) S1x1x16.size (k0_off224_inb k)).toLoadRect (gath m d L hidx k.val hk)) (View.readAt (Elt F) (a6).view (Rect.unit (s := S4x50x128) (k0_off225 k) S1x1x16.size (k0_off225_inb k)).toLoadRect (gath m d L hidx k.val hk))) (View.readAt (Elt F) (a6).view (Rect.unit (s := S4x50x128) (k0_off226 k) S1x1x16.size (k0_off226_inb k)).toLoadRect (gath m d L hidx k.val hk)) (View.readAt (Elt F) (a6).view (Rect.unit (s := S4x50x128) (k0_off227 k) S1x1x16.size (k0_off227_inb k)).toLoadRect (gath m d L hidx k.val hk)) (View.readAt (Elt F) (a6).view (Rect.unit (s := S4x50x128) (k0_off228 k) S1x1x16.size (k0_off228_inb k)).toLoadRect (gath m d L hidx k.val hk)) (View.readAt (Elt F) (a6).view (Rect.unit (s := S4x50x128) (k0_off229 k) S1x1x16.size (k0_off229_inb k)).toLoadRect (gath m d L hidx k.val hk)) (View.readAt (Elt F) (a6).view (Rect.unit (s := S4x50x128) (k0_off230 k) S1x1x16.size (k0_off230_inb k)).toLoadRect (gath m d L hidx k.val hk)) (View.readAt (Elt F) (a6).view (Rect.unit (s := S4x50x128) (k0_off231 k) S1x1x16.size (k0_off231_inb k)).toLoadRect (gath m d L hidx k.val hk)) (View.readAt (Elt F) (a6).view (Rect.unit (s := S4x50x128) (k0_off232 k) S1x1x16.size (k0_off232_inb k)).toLoadRect (gath m d L hidx k.val hk)) (View.readAt (Elt F) (a6).view (Rect.unit (s := S4x50x128) (k0_off233 k) S1x1x16.size (k0_off233_inb k)).toLoadRect (gath m d L hidx k.val hk)) (View.readAt (Elt F) (a6).view (Rect.unit (s := S4x50x128) (k0_off234 k) S1x1x16.size (k0_off234_inb k)).toLoadRect (gath m d L hidx k.val hk))) (View.readAt (Elt F) (a6).view (Rect.unit (s := S4x50x128) (k0_off235 k) S1x1x16.size (k0_off235_inb k)).toLoadRect (gath m d L hidx k.val hk)) (View.readAt (Elt F) (a6).view (Rect.unit (s := S4x50x128) (k0_off236 k) S1x1x16.size (k0_off236_inb k)).toLoadRect (gath m d L hidx k.val hk)) (View.readAt (Elt F) (a6).view (Rect.unit (s := S4x50x128) (k0_off237 k) S1x1x16.size (k0_off237_inb k)).toLoadRect (gath m d L hidx k.val hk)) (View.readAt (Elt F) (a6).view (Rect.unit (s := S4x50x128) (k0_off238 k) S1x1x16.size (k0_off238_inb k)).toLoadRect (gath m d L hidx k.val hk)) (View.readAt (Elt F) (a6).view (Rect.unit (s := S4x50x128) (k0_off239 k) S1x1x16.size (k0_off239_inb k)).toLoadRect (gath m d L hidx k.val hk)) (View.readAt (Elt F) (a6).view (Rect.unit (s := S4x50x128) (k0_off240 k) S1x1x16.size (k0_off240_inb k)).toLoadRect (gath m d L hidx k.val hk)) (View.readAt (Elt F) (a6).view (Rect.unit (s := S4x50x128) (k0_off241 k) S1x1x16.size (k0_off241_inb k)).toLoadRect (gath m d L hidx k.val hk)) (View.readAt (Elt F) (a6).view (Rect.unit (s := S4x50x128) (k0_off242 k) S1x1x16.size (k0_off242_inb k)).toLoadRect (gath m d L hidx k.val hk))) (k0_pay38 (View.readAt (Elt F) (a6).view (Rect.unit (s := S4x50x128) (k0_off243 k) S1x1x16.size (k0_off243_inb k)).toLoadRect (gath m d L hidx k.val hk))) (View.readAt (Elt F) (a6).view (Rect.unit (s := S4x50x128) (k0_off244 k) S1x1x16.size (k0_off244_inb k)).toLoadRect (gath m d L hidx k.val hk)) (View.readAt (Elt F) (a6).view (Rect.unit (s := S4x50x128) (k0_off245 k) S1x1x16.size (k0_off245_inb k)).toLoadRect (gath m d L hidx k.val hk)) (View.readAt (Elt F) (a6).view (Rect.unit (s := S4x50x128) (k0_off246 k) S1x1x16.size (k0_off246_inb k)).toLoadRect (gath m d L hidx k.val hk)) (View.readAt (Elt F) (a6).view (Rect.unit (s := S4x50x128) (k0_off247 k) S1x1x16.size (k0_off247_inb k)).toLoadRect (gath m d L hidx k.val hk)) (View.readAt (Elt F) (a6).view (Rect.unit (s := S4x50x128) (k0_off248 k) S1x1x16.size (k0_off248_inb k)).toLoadRect (gath m d L hidx k.val hk)) (View.readAt (Elt F) (a6).view (Rect.unit (s := S4x50x128) (k0_off249 k) S1x1x16.size (k0_off249_inb k)).toLoadRect (gath m d L hidx k.val hk)) (View.readAt (Elt F) (a6).view (Rect.unit (s := S4x50x128) (k0_off250 k) S1x1x16.size (k0_off250_inb k)).toLoadRect (gath m d L hidx k.val hk)) (View.readAt (Elt F) (a6).view (Rect.unit (s := S4x50x128) (k0_off251 k) S1x1x16.size (k0_off251_inb k)).toLoadRect (gath m d L hidx k.val hk))) (View.readAt (Elt F) (a6).view (Rect.unit (s := S4x50x128) (k0_off252 k) S1x1x16.size (k0_off252_inb k)).toLoadRect (gath m d L hidx k.val hk)) (View.readAt (Elt F) (a6).view (Rect.unit (s := S4x50x128) (k0_off253 k) S1x1x16.size (k0_off253_inb k)).toLoadRect (gath m d L hidx k.val hk)) (View.readAt (Elt F) (a6).view (Rect.unit (s := S4x50x128) (k0_off254 k) S1x1x16.size (k0_off254_inb k)).toLoadRect (gath m d L hidx k.val hk)) (View.readAt (Elt F) (a6).view (Rect.unit (s := S4x50x128) (k0_off255 k) S1x1x16.size (k0_off255_inb k)).toLoadRect (gath m d L hidx k.val hk)) (View.readAt (Elt F) (a6).view (Rect.unit (s := S4x50x128) (k0_off256 k) S1x1x16.size (k0_off256_inb k)).toLoadRect (gath m d L hidx k.val hk)) (View.readAt (Elt F) (a6).view (Rect.unit (s := S4x50x128) (k0_off257 k) S1x1x16.size (k0_off257_inb k)).toLoadRect (gath m d L hidx k.val hk)) (View.readAt (Elt F) (a6).view (Rect.unit (s := S4x50x128) (k0_off258 k) S1x1x16.size (k0_off258_inb k)).toLoadRect (gath m d L hidx k.val hk)) (View.readAt (Elt F) (a6).view (Rect.unit (s := S4x50x128) (k0_off259 k) S1x1x16.size (k0_off259_inb k)).toLoadRect (gath m d L hidx k.val hk)) (View.readAt (Elt F) (a6).view (Rect.unit (s := S4x50x128) (k0_off260 k) S1x1x16.size (k0_off260_inb k)).toLoadRect (gath m d L hidx k.val hk))) (View.readAt (Elt F) (a6).view (Rect.unit (s := S4x50x128) (k0_off261 k) S1x1x16.size (k0_off261_inb k)).toLoadRect (gath m d L hidx k.val hk)))⟩,
         ⟨Rect.unit (s := S32x128) (k0_off211 k) S1x16.size (k0_off211_inb k),
           (k0_pay33 (k0_pay32 (k0_pay31 (k0_pay30 (k0_pay29 (k0_pay28 (k0_pay26 (View.readAt (Elt F) (a6).view (Rect.unit (s := S4x50x128) (k0_off161 k) S1x1x16.size (k0_off161_inb k)).toLoadRect (gath m d L hidx k.val hk)) (View.readAt (Elt F) (a6).view (Rect.unit (s := S4x50x128) (k0_off162 k) S1x1x16.size (k0_off162_inb k)).toLoadRect (gath m d L hidx k.val hk)) (View.readAt (Elt F) (a6).view (Rect.unit (s := S4x50x128) (k0_off163 k) S1x1x16.size (k0_off163_inb k)).toLoadRect (gath m d L hidx k.val hk)) (View.readAt (Elt F) (a6).view (Rect.unit (s := S4x50x128) (k0_off164 k) S1x1x16.size (k0_off164_inb k)).toLoadRect (gath m d L hidx k.val hk)) (View.readAt (Elt F) (a6).view (Rect.unit (s := S4x50x128) (k0_off165 k) S1x1x16.size (k0_off165_inb k)).toLoadRect (gath m d L hidx k.val hk))) (k0_pay27 (View.readAt (Elt F) (a6).view (Rect.unit (s := S4x50x128) (k0_off166 k) S1x1x16.size (k0_off166_inb k)).toLoadRect (gath m d L hidx k.val hk))) (View.readAt (Elt F) (a6).view (Rect.unit (s := S4x50x128) (k0_off167 k) S1x1x16.size (k0_off167_inb k)).toLoadRect (gath m d L hidx k.val hk)) (View.readAt (Elt F) (a6).view (Rect.unit (s := S4x50x128) (k0_off168 k) S1x1x16.size (k0_off168_inb k)).toLoadRect (gath m d L hidx k.val hk)) (View.readAt (Elt F) (a6).view (Rect.unit (s := S4x50x128) (k0_off169 k) S1x1x16.size (k0_off169_inb k)).toLoadRect (gath m d L hidx k.val hk)) (View.readAt (Elt F) (a6).view (Rect.unit (s := S4x50x128) (k0_off170 k) S1x1x16.size (k0_off170_inb k)).toLoadRect (gath m d L hidx k.val hk)) (View.readAt (Elt F) (a6).view (Rect.unit (s := S4x50x128) (k0_off171 k) S1x1x16.size (k0_off171_inb k)).toLoadRect (gath m d L hidx k.val hk)) (View.readAt (Elt F) (a6).view (Rect.unit (s := S4x50x128) (k0_off172 k) S1x1x16.size (k0_off172_inb k)).toLoadRect (gath m d L hidx k.val hk)) (View.readAt (Elt F) (a6).view (Rect.unit (s := S4x50x128) (k0_off173 k) S1x1x16.size (k0_off173_inb k)).toLoadRect (gath m d L hidx k.val hk)) (View.readAt (Elt F) (a6).view (Rect.unit (s := S4x50x128) (k0_off174 k) S1x1x16.size (k0_off174_inb k)).toLoadRect (gath m d L hidx k.val hk))) (View.readAt (Elt F) (a6).view (Rect.unit (s := S4x50x128) (k0_off175 k) S1x1x16.size (k0_off175_inb k)).toLoadRect (gath m d L hidx k.val hk)) (View.readAt (Elt F) (a6).view (Rect.unit (s := S4x50x128) (k0_off176 k) S1x1x16.size (k0_off176_inb k)).toLoadRect (gath m d L hidx k.val hk)) (View.readAt (Elt F) (a6).view (Rect.unit (s := S4x50x128) (k0_off177 k) S1x1x16.size (k0_off177_inb k)).toLoadRect (gath m d L hidx k.val hk)) (View.readAt (Elt F) (a6).view (Rect.unit (s := S4x50x128) (k0_off178 k) S1x1x16.size (k0_off178_inb k)).toLoadRect (gath m d L hidx k.val hk)) (View.readAt (Elt F) (a6).view (Rect.unit (s := S4x50x128) (k0_off179 k) S1x1x16.size (k0_off179_inb k)).toLoadRect (gath m d L hidx k.val hk)) (View.readAt (Elt F) (a6).view (Rect.unit (s := S4x50x128) (k0_off180 k) S1x1x16.size (k0_off180_inb k)).toLoadRect (gath m d L hidx k.val hk)) (View.readAt (Elt F) (a6).view (Rect.unit (s := S4x50x128) (k0_off181 k) S1x1x16.size (k0_off181_inb k)).toLoadRect (gath m d L hidx k.val hk)) (View.readAt (Elt F) (a6).view (Rect.unit (s := S4x50x128) (k0_off182 k) S1x1x16.size (k0_off182_inb k)).toLoadRect (gath m d L hidx k.val hk)) (View.readAt (Elt F) (a6).view (Rect.unit (s := S4x50x128) (k0_off183 k) S1x1x16.size (k0_off183_inb k)).toLoadRect (gath m d L hidx k.val hk))) (View.readAt (Elt F) (a6).view (Rect.unit (s := S4x50x128) (k0_off184 k) S1x1x16.size (k0_off184_inb k)).toLoadRect (gath m d L hidx k.val hk)) (View.readAt (Elt F) (a6).view (Rect.unit (s := S4x50x128) (k0_off185 k) S1x1x16.size (k0_off185_inb k)).toLoadRect (gath m d L hidx k.val hk)) (View.readAt (Elt F) (a6).view (Rect.unit (s := S4x50x128) (k0_off186 k) S1x1x16.size (k0_off186_inb k)).toLoadRect (gath m d L hidx k.val hk)) (View.readAt (Elt F) (a6).view (Rect.unit (s := S4x50x128) (k0_off187 k) S1x1x16.size (k0_off187_inb k)).toLoadRect (gath m d L hidx k.val hk)) (View.readAt (Elt F) (a6).view (Rect.unit (s := S4x50x128) (k0_off188 k) S1x1x16.size (k0_off188_inb k)).toLoadRect (gath m d L hidx k.val hk)) (View.readAt (Elt F) (a6).view (Rect.unit (s := S4x50x128) (k0_off189 k) S1x1x16.size (k0_off189_inb k)).toLoadRect (gath m d L hidx k.val hk)) (View.readAt (Elt F) (a6).view (Rect.unit (s := S4x50x128) (k0_off190 k) S1x1x16.size (k0_off190_inb k)).toLoadRect (gath m d L hidx k.val hk)) (View.readAt (Elt F) (a6).view (Rect.unit (s := S4x50x128) (k0_off191 k) S1x1x16.size (k0_off191_inb k)).toLoadRect (gath m d L hidx k.val hk))) (View.readAt (Elt F) (a6).view (Rect.unit (s := S4x50x128) (k0_off192 k) S1x1x16.size (k0_off192_inb k)).toLoadRect (gath m d L hidx k.val hk)) (View.readAt (Elt F) (a6).view (Rect.unit (s := S4x50x128) (k0_off193 k) S1x1x16.size (k0_off193_inb k)).toLoadRect (gath m d L hidx k.val hk)) (View.readAt (Elt F) (a6).view (Rect.unit (s := S4x50x128) (k0_off194 k) S1x1x16.size (k0_off194_inb k)).toLoadRect (gath m d L hidx k.val hk)) (View.readAt (Elt F) (a6).view (Rect.unit (s := S4x50x128) (k0_off195 k) S1x1x16.size (k0_off195_inb k)).toLoadRect (gath m d L hidx k.val hk)) (View.readAt (Elt F) (a6).view (Rect.unit (s := S4x50x128) (k0_off196 k) S1x1x16.size (k0_off196_inb k)).toLoadRect (gath m d L hidx k.val hk)) (View.readAt (Elt F) (a6).view (Rect.unit (s := S4x50x128) (k0_off197 k) S1x1x16.size (k0_off197_inb k)).toLoadRect (gath m d L hidx k.val hk)) (View.readAt (Elt F) (a6).view (Rect.unit (s := S4x50x128) (k0_off198 k) S1x1x16.size (k0_off198_inb k)).toLoadRect (gath m d L hidx k.val hk)) (View.readAt (Elt F) (a6).view (Rect.unit (s := S4x50x128) (k0_off199 k) S1x1x16.size (k0_off199_inb k)).toLoadRect (gath m d L hidx k.val hk)) (View.readAt (Elt F) (a6).view (Rect.unit (s := S4x50x128) (k0_off200 k) S1x1x16.size (k0_off200_inb k)).toLoadRect (gath m d L hidx k.val hk))) (View.readAt (Elt F) (a6).view (Rect.unit (s := S4x50x128) (k0_off201 k) S1x1x16.size (k0_off201_inb k)).toLoadRect (gath m d L hidx k.val hk)) (View.readAt (Elt F) (a6).view (Rect.unit (s := S4x50x128) (k0_off202 k) S1x1x16.size (k0_off202_inb k)).toLoadRect (gath m d L hidx k.val hk)) (View.readAt (Elt F) (a6).view (Rect.unit (s := S4x50x128) (k0_off203 k) S1x1x16.size (k0_off203_inb k)).toLoadRect (gath m d L hidx k.val hk)) (View.readAt (Elt F) (a6).view (Rect.unit (s := S4x50x128) (k0_off204 k) S1x1x16.size (k0_off204_inb k)).toLoadRect (gath m d L hidx k.val hk)) (View.readAt (Elt F) (a6).view (Rect.unit (s := S4x50x128) (k0_off205 k) S1x1x16.size (k0_off205_inb k)).toLoadRect (gath m d L hidx k.val hk)) (View.readAt (Elt F) (a6).view (Rect.unit (s := S4x50x128) (k0_off206 k) S1x1x16.size (k0_off206_inb k)).toLoadRect (gath m d L hidx k.val hk)) (View.readAt (Elt F) (a6).view (Rect.unit (s := S4x50x128) (k0_off207 k) S1x1x16.size (k0_off207_inb k)).toLoadRect (gath m d L hidx k.val hk)) (View.readAt (Elt F) (a6).view (Rect.unit (s := S4x50x128) (k0_off208 k) S1x1x16.size (k0_off208_inb k)).toLoadRect (gath m d L hidx k.val hk))) (View.readAt (Elt F) (a6).view (Rect.unit (s := S4x50x128) (k0_off209 k) S1x1x16.size (k0_off209_inb k)).toLoadRect (gath m d L hidx k.val hk)) (View.readAt (Elt F) (a6).view (Rect.unit (s := S4x50x128) (k0_off210 k) S1x1x16.size (k0_off210_inb k)).toLoadRect (gath m d L hidx k.val hk)))⟩,
         ⟨Rect.unit (s := S32x128) (k0_off160 k) S1x16.size (k0_off160_inb k),
           (k0_pay25 (k0_pay24 (k0_pay22 (k0_pay21 (k0_pay20 (k0_pay19 (k0_pay18 (View.readAt (Elt F) (a6).view (Rect.unit (s := S4x50x128) (k0_off110 k) S1x1x16.size (k0_off110_inb k)).toLoadRect (gath m d L hidx k.val hk)) (View.readAt (Elt F) (a6).view (Rect.unit (s := S4x50x128) (k0_off111 k) S1x1x16.size (k0_off111_inb k)).toLoadRect (gath m d L hidx k.val hk)) (View.readAt (Elt F) (a6).view (Rect.unit (s := S4x50x128) (k0_off112 k) S1x1x16.size (k0_off112_inb k)).toLoadRect (gath m d L hidx k.val hk)) (View.readAt (Elt F) (a6).view (Rect.unit (s := S4x50x128) (k0_off113 k) S1x1x16.size (k0_off113_inb k)).toLoadRect (gath m d L hidx k.val hk)) (View.readAt (Elt F) (a6).view (Rect.unit (s := S4x50x128) (k0_off114 k) S1x1x16.size (k0_off114_inb k)).toLoadRect (gath m d L hidx k.val hk))) (View.readAt (Elt F) (a6).view (Rect.unit (s := S4x50x128) (k0_off115 k) S1x1x16.size (k0_off115_inb k)).toLoadRect (gath m d L hidx k.val hk)) (View.readAt (Elt F) (a6).view (Rect.unit (s := S4x50x128) (k0_off116 k) S1x1x16.size (k0_off116_inb k)).toLoadRect (gath m d L hidx k.val hk)) (View.readAt (Elt F) (a6).view (Rect.unit (s := S4x50x128) (k0_off117 k) S1x1x16.size (k0_off117_inb k)).toLoadRect (gath m d L hidx k.val hk)) (View.readAt (Elt F) (a6).view (Rect.unit (s := S4x50x128) (k0_off118 k) S1x1x16.size (k0_off118_inb k)).toLoadRect (gath m d L hidx k.val hk)) (View.readAt (Elt F) (a6).view (Rect.unit (s := S4x50x128) (k0_off119 k) S1x1x16.size (k0_off119_inb k)).toLoadRect (gath m d L hidx k.val hk)) (View.readAt (Elt F) (a6).view (Rect.unit (s := S4x50x128) (k0_off120 k) S1x1x16.size (k0_off120_inb k)).toLoadRect (gath m d L hidx k.val hk)) (View.readAt (Elt F) (a6).view (Rect.unit (s := S4x50x128) (k0_off121 k) S1x1x16.size (k0_off121_inb k)).toLoadRect (gath m d L hidx k.val hk)) (View.readAt (Elt F) (a6).view (Rect.unit (s := S4x50x128) (k0_off122 k) S1x1x16.size (k0_off122_inb k)).toLoadRect (gath m d L hidx k.val hk)) (View.readAt (Elt F) (a6).view (Rect.unit (s := S4x50x128) (k0_off123 k) S1x1x16.size (k0_off123_inb k)).toLoadRect (gath m d L hidx k.val hk))) (View.readAt (Elt F) (a6).view (Rect.unit (s := S4x50x128) (k0_off124 k) S1x1x16.size (k0_off124_inb k)).toLoadRect (gath m d L hidx k.val hk)) (View.readAt (Elt F) (a6).view (Rect.unit (s := S4x50x128) (k0_off125 k) S1x1x16.size (k0_off125_inb k)).toLoadRect (gath m d L hidx k.val hk)) (View.readAt (Elt F) (a6).view (Rect.unit (s := S4x50x128) (k0_off126 k) S1x1x16.size (k0_off126_inb k)).toLoadRect (gath m d L hidx k.val hk)) (View.readAt (Elt F) (a6).view (Rect.unit (s := S4x50x128) (k0_off127 k) S1x1x16.size (k0_off127_inb k)).toLoadRect (gath m d L hidx k.val hk)) (View.readAt (Elt F) (a6).view (Rect.unit (s := S4x50x128) (k0_off128 k) S1x1x16.size (k0_off128_inb k)).toLoadRect (gath m d L hidx k.val hk)) (View.readAt (Elt F) (a6).view (Rect.unit (s := S4x50x128) (k0_off129 k) S1x1x16.size (k0_off129_inb k)).toLoadRect (gath m d L hidx k.val hk)) (View.readAt (Elt F) (a6).view (Rect.unit (s := S4x50x128) (k0_off130 k) S1x1x16.size (k0_off130_inb k)).toLoadRect (gath m d L hidx k.val hk)) (View.readAt (Elt F) (a6).view (Rect.unit (s := S4x50x128) (k0_off131 k) S1x1x16.size (k0_off131_inb k)).toLoadRect (gath m d L hidx k.val hk))) (View.readAt (Elt F) (a6).view (Rect.unit (s := S4x50x128) (k0_off132 k) S1x1x16.size (k0_off132_inb k)).toLoadRect (gath m d L hidx k.val hk)) (View.readAt (Elt F) (a6).view (Rect.unit (s := S4x50x128) (k0_off133 k) S1x1x16.size (k0_off133_inb k)).toLoadRect (gath m d L hidx k.val hk)) (View.readAt (Elt F) (a6).view (Rect.unit (s := S4x50x128) (k0_off134 k) S1x1x16.size (k0_off134_inb k)).toLoadRect (gath m d L hidx k.val hk)) (View.readAt (Elt F) (a6).view (Rect.unit (s := S4x50x128) (k0_off135 k) S1x1x16.size (k0_off135_inb k)).toLoadRect (gath m d L hidx k.val hk)) (View.readAt (Elt F) (a6).view (Rect.unit (s := S4x50x128) (k0_off136 k) S1x1x16.size (k0_off136_inb k)).toLoadRect (gath m d L hidx k.val hk)) (View.readAt (Elt F) (a6).view (Rect.unit (s := S4x50x128) (k0_off137 k) S1x1x16.size (k0_off137_inb k)).toLoadRect (gath m d L hidx k.val hk)) (View.readAt (Elt F) (a6).view (Rect.unit (s := S4x50x128) (k0_off138 k) S1x1x16.size (k0_off138_inb k)).toLoadRect (gath m d L hidx k.val hk)) (View.readAt (Elt F) (a6).view (Rect.unit (s := S4x50x128) (k0_off139 k) S1x1x16.size (k0_off139_inb k)).toLoadRect (gath m d L hidx k.val hk)) (View.readAt (Elt F) (a6).view (Rect.unit (s := S4x50x128) (k0_off140 k) S1x1x16.size (k0_off140_inb k)).toLoadRect (gath m d L hidx k.val hk))) (View.readAt (Elt F) (a6).view (Rect.unit (s := S4x50x128) (k0_off141 k) S1x1x16.size (k0_off141_inb k)).toLoadRect (gath m d L hidx k.val hk)) (View.readAt (Elt F) (a6).view (Rect.unit (s := S4x50x128) (k0_off142 k) S1x1x16.size (k0_off142_inb k)).toLoadRect (gath m d L hidx k.val hk)) (View.readAt (Elt F) (a6).view (Rect.unit (s := S4x50x128) (k0_off143 k) S1x1x16.size (k0_off143_inb k)).toLoadRect (gath m d L hidx k.val hk)) (View.readAt (Elt F) (a6).view (Rect.unit (s := S4x50x128) (k0_off144 k) S1x1x16.size (k0_off144_inb k)).toLoadRect (gath m d L hidx k.val hk)) (View.readAt (Elt F) (a6).view (Rect.unit (s := S4x50x128) (k0_off145 k) S1x1x16.size (k0_off145_inb k)).toLoadRect (gath m d L hidx k.val hk)) (View.readAt (Elt F) (a6).view (Rect.unit (s := S4x50x128) (k0_off146 k) S1x1x16.size (k0_off146_inb k)).toLoadRect (gath m d L hidx k.val hk)) (View.readAt (Elt F) (a6).view (Rect.unit (s := S4x50x128) (k0_off147 k) S1x1x16.size (k0_off147_inb k)).toLoadRect (gath m d L hidx k.val hk)) (View.readAt (Elt F) (a6).view (Rect.unit (s := S4x50x128) (k0_off148 k) S1x1x16.size (k0_off148_inb k)).toLoadRect (gath m d L hidx k.val hk))) (k0_pay23 (View.readAt (Elt F) (a6).view (Rect.unit (s := S4x50x128) (k0_off149 k) S1x1x16.size (k0_off149_inb k)).toLoadRect (gath m d L hidx k.val hk))) (View.readAt (Elt F) (a6).view (Rect.unit (s := S4x50x128) (k0_off150 k) S1x1x16.size (k0_off150_inb k)).toLoadRect (gath m d L hidx k.val hk)) (View.readAt (Elt F) (a6).view (Rect.unit (s := S4x50x128) (k0_off151 k) S1x1x16.size (k0_off151_inb k)).toLoadRect (gath m d L hidx k.val hk)) (View.readAt (Elt F) (a6).view (Rect.unit (s := S4x50x128) (k0_off152 k) S1x1x16.size (k0_off152_inb k)).toLoadRect (gath m d L hidx k.val hk)) (View.readAt (Elt F) (a6).view (Rect.unit (s := S4x50x128) (k0_off153 k) S1x1x16.size (k0_off153_inb k)).toLoadRect (gath m d L hidx k.val hk)) (View.readAt (Elt F) (a6).view (Rect.unit (s := S4x50x128) (k0_off154 k) S1x1x16.size (k0_off154_inb k)).toLoadRect (gath m d L hidx k.val hk)) (View.readAt (Elt F) (a6).view (Rect.unit (s := S4x50x128) (k0_off155 k) S1x1x16.size (k0_off155_inb k)).toLoadRect (gath m d L hidx k.val hk)) (View.readAt (Elt F) (a6).view (Rect.unit (s := S4x50x128) (k0_off156 k) S1x1x16.size (k0_off156_inb k)).toLoadRect (gath m d L hidx k.val hk)) (View.readAt (Elt F) (a6).view (Rect.unit (s := S4x50x128) (k0_off157 k) S1x1x16.size (k0_off157_inb k)).toLoadRect (gath m d L hidx k.val hk))) (View.readAt (Elt F) (a6).view (Rect.unit (s := S4x50x128) (k0_off158 k) S1x1x16.size (k0_off158_inb k)).toLoadRect (gath m d L hidx k.val hk)) (View.readAt (Elt F) (a6).view (Rect.unit (s := S4x50x128) (k0_off159 k) S1x1x16.size (k0_off159_inb k)).toLoadRect (gath m d L hidx k.val hk)))⟩,
         ⟨Rect.unit (s := S32x128) (k0_off109 k) S1x16.size (k0_off109_inb k),
           (k0_pay17 (k0_pay16 (k0_pay15 (k0_pay14 (k0_pay13 (k0_pay11 (k0_pay10 (View.readAt (Elt F) (a6).view (Rect.unit (s := S4x50x128) (k0_off59 k) S1x1x16.size (k0_off59_inb k)).toLoadRect (gath m d L hidx k.val hk)) (View.readAt (Elt F) (a6).view (Rect.unit (s := S4x50x128) (k0_off60 k) S1x1x16.size (k0_off60_inb k)).toLoadRect (gath m d L hidx k.val hk)) (View.readAt (Elt F) (a6).view (Rect.unit (s := S4x50x128) (k0_off61 k) S1x1x16.size (k0_off61_inb k)).toLoadRect (gath m d L hidx k.val hk)) (View.readAt (Elt F) (a6).view (Rect.unit (s := S4x50x128) (k0_off62 k) S1x1x16.size (k0_off62_inb k)).toLoadRect (gath m d L hidx k.val hk)) (View.readAt (Elt F) (a6).view (Rect.unit (s := S4x50x128) (k0_off63 k) S1x1x16.size (k0_off63_inb k)).toLoadRect (gath m d L hidx k.val hk))) (View.readAt (Elt F) (a6).view (Rect.unit (s := S4x50x128) (k0_off64 k) S1x1x16.size (k0_off64_inb k)).toLoadRect (gath m d L hidx k.val hk)) (View.readAt (Elt F) (a6).view (Rect.unit (s := S4x50x128) (k0_off65 k) S1x1x16.size (k0_off65_inb k)).toLoadRect (gath m d L hidx k.val hk)) (View.readAt (Elt F) (a6).view (Rect.unit (s := S4x50x128) (k0_off66 k) S1x1x16.size (k0_off66_inb k)).toLoadRect (gath m d L hidx k.val hk)) (View.readAt (Elt F) (a6).view (Rect.unit (s := S4x50x128) (k0_off67 k) S1x1x16.size (k0_off67_inb k)).toLoadRect (gath m d L hidx k.val hk)) (View.readAt (Elt F) (a6).view (Rect.unit (s := S4x50x128) (k0_off68 k) S1x1x16.size (k0_off68_inb k)).toLoadRect (gath m d L hidx k.val hk)) (View.readAt (Elt F) (a6).view (Rect.unit (s := S4x50x128) (k0_off69 k) S1x1x16.size (k0_off69_inb k)).toLoadRect (gath m d L hidx k.val hk)) (View.readAt (Elt F) (a6).view (Rect.unit (s := S4x50x128) (k0_off70 k) S1x1x16.size (k0_off70_inb k)).toLoadRect (gath m d L hidx k.val hk)) (View.readAt (Elt F) (a6).view (Rect.unit (s := S4x50x128) (k0_off71 k) S1x1x16.size (k0_off71_inb k)).toLoadRect (gath m d L hidx k.val hk))) (k0_pay12 (View.readAt (Elt F) (a6).view (Rect.unit (s := S4x50x128) (k0_off72 k) S1x1x16.size (k0_off72_inb k)).toLoadRect (gath m d L hidx k.val hk))) (View.readAt (Elt F) (a6).view (Rect.unit (s := S4x50x128) (k0_off73 k) S1x1x16.size (k0_off73_inb k)).toLoadRect (gath m d L hidx k.val hk)) (View.readAt (Elt F) (a6).view (Rect.unit (s := S4x50x128) (k0_off74 k) S1x1x16.size (k0_off74_inb k)).toLoadRect (gath m d L hidx k.val hk)) (View.readAt (Elt F) (a6).view (Rect.unit (s := S4x50x128) (k0_off75 k) S1x1x16.size (k0_off75_inb k)).toLoadRect (gath m d L hidx k.val hk)) (View.readAt (Elt F) (a6).view (Rect.unit (s := S4x50x128) (k0_off76 k) S1x1x16.size (k0_off76_inb k)).toLoadRect (gath m d L hidx k.val hk)) (View.readAt (Elt F) (a6).view (Rect.unit (s := S4x50x128) (k0_off77 k) S1x1x16.size (k0_off77_inb k)).toLoadRect (gath m d L hidx k.val hk)) (View.readAt (Elt F) (a6).view (Rect.unit (s := S4x50x128) (k0_off78 k) S1x1x16.size (k0_off78_inb k)).toLoadRect (gath m d L hidx k.val hk)) (View.readAt (Elt F) (a6).view (Rect.unit (s := S4x50x128) (k0_off79 k) S1x1x16.size (k0_off79_inb k)).toLoadRect (gath m d L hidx k.val hk)) (View.readAt (Elt F) (a6).view (Rect.unit (s := S4x50x128) (k0_off80 k) S1x1x16.size (k0_off80_inb k)).toLoadRect (gath m d L hidx k.val hk))) (View.readAt (Elt F) (a6).view (Rect.unit (s := S4x50x128) (k0_off81 k) S1x1x16.size (k0_off81_inb k)).toLoadRect (gath m d L hidx k.val hk)) (View.readAt (Elt F) (a6).view (Rect.unit (s := S4x50x128) (k0_off82 k) S1x1x16.size (k0_off82_inb k)).toLoadRect (gath m d L hidx k.val hk)) (View.readAt (Elt F) (a6).view (Rect.unit (s := S4x50x128) (k0_off83 k) S1x1x16.size (k0_off83_inb k)).toLoadRect (gath m d L hidx k.val hk)) (View.readAt (Elt F) (a6).view (Rect.unit (s := S4x50x128) (k0_off84 k) S1x1x16.size (k0_off84_inb k)).toLoadRect (gath m d L hidx k.val hk)) (View.readAt (Elt F) (a6).view (Rect.unit (s := S4x50x128) (k0_off85 k) S1x1x16.size (k0_off85_inb k)).toLoadRect (gath m d L hidx k.val hk)) (View.readAt (Elt F) (a6).view (Rect.unit (s := S4x50x128) (k0_off86 k) S1x1x16.size (k0_off86_inb k)).toLoadRect (gath m d L hidx k.val hk)) (View.readAt (Elt F) (a6).view (Rect.unit (s := S4x50x128) (k0_off87 k) S1x1x16.size (k0_off87_inb k)).toLoadRect (gath m d L hidx k.val hk)) (View.readAt (Elt F) (a6).view (Rect.unit (s := S4x50x128) (k0_off88 k) S1x1x16.size (k0_off88_inb k)).toLoadRect (gath m d L hidx k.val hk)) (View.readAt (Elt F) (a6).view (Rect.unit (s := S4x50x128) (k0_off89 k) S1x1x16.size (k0_off89_inb k)).toLoadRect (gath m d L hidx k.val hk))) (View.readAt (Elt F) (a6).view (Rect.unit (s := S4x50x128) (k0_off90 k) S1x1x16.size (k0_off90_inb k)).toLoadRect (gath m d L hidx k.val hk)) (View.readAt (Elt F) (a6).view (Rect.unit (s := S4x50x128) (k0_off91 k) S1x1x16.size (k0_off91_inb k)).toLoadRect (gath m d L hidx k.val hk)) (View.readAt (Elt F) (a6).view (Rect.unit (s := S4x50x128) (k0_off92 k) S1x1x16.size (k0_off92_inb k)).toLoadRect (gath m d L hidx k.val hk)) (View.readAt (Elt F) (a6).view (Rect.unit (s := S4x50x128) (k0_off93 k) S1x1x16.size (k0_off93_inb k)).toLoadRect (gath m d L hidx k.val hk)) (View.readAt (Elt F) (a6).view (Rect.unit (s := S4x50x128) (k0_off94 k) S1x1x16.size (k0_off94_inb k)).toLoadRect (gath m d L hidx k.val hk)) (View.readAt (Elt F) (a6).view (Rect.unit (s := S4x50x128) (k0_off95 k) S1x1x16.size (k0_off95_inb k)).toLoadRect (gath m d L hidx k.val hk)) (View.readAt (Elt F) (a6).view (Rect.unit (s := S4x50x128) (k0_off96 k) S1x1x16.size (k0_off96_inb k)).toLoadRect (gath m d L hidx k.val hk)) (View.readAt (Elt F) (a6).view (Rect.unit (s := S4x50x128) (k0_off97 k) S1x1x16.size (k0_off97_inb k)).toLoadRect (gath m d L hidx k.val hk))) (View.readAt (Elt F) (a6).view (Rect.unit (s := S4x50x128) (k0_off98 k) S1x1x16.size (k0_off98_inb k)).toLoadRect (gath m d L hidx k.val hk)) (View.readAt (Elt F) (a6).view (Rect.unit (s := S4x50x128) (k0_off99 k) S1x1x16.size (k0_off99_inb k)).toLoadRect (gath m d L hidx k.val hk)) (View.readAt (Elt F) (a6).view (Rect.unit (s := S4x50x128) (k0_off100 k) S1x1x16.size (k0_off100_inb k)).toLoadRect (gath m d L hidx k.val hk)) (View.readAt (Elt F) (a6).view (Rect.unit (s := S4x50x128) (k0_off101 k) S1x1x16.size (k0_off101_inb k)).toLoadRect (gath m d L hidx k.val hk)) (View.readAt (Elt F) (a6).view (Rect.unit (s := S4x50x128) (k0_off102 k) S1x1x16.size (k0_off102_inb k)).toLoadRect (gath m d L hidx k.val hk)) (View.readAt (Elt F) (a6).view (Rect.unit (s := S4x50x128) (k0_off103 k) S1x1x16.size (k0_off103_inb k)).toLoadRect (gath m d L hidx k.val hk)) (View.readAt (Elt F) (a6).view (Rect.unit (s := S4x50x128) (k0_off104 k) S1x1x16.size (k0_off104_inb k)).toLoadRect (gath m d L hidx k.val hk)) (View.readAt (Elt F) (a6).view (Rect.unit (s := S4x50x128) (k0_off105 k) S1x1x16.size (k0_off105_inb k)).toLoadRect (gath m d L hidx k.val hk)) (View.readAt (Elt F) (a6).view (Rect.unit (s := S4x50x128) (k0_off106 k) S1x1x16.size (k0_off106_inb k)).toLoadRect (gath m d L hidx k.val hk))) (View.readAt (Elt F) (a6).view (Rect.unit (s := S4x50x128) (k0_off107 k) S1x1x16.size (k0_off107_inb k)).toLoadRect (gath m d L hidx k.val hk)) (View.readAt (Elt F) (a6).view (Rect.unit (s := S4x50x128) (k0_off108 k) S1x1x16.size (k0_off108_inb k)).toLoadRect (gath m d L hidx k.val hk)))⟩,
         ⟨Rect.unit (s := S32x128) (k0_off58 k) S1x16.size (k0_off58_inb k),
           (k0_pay9 (k0_pay7 (k0_pay6 (k0_pay5 (k0_pay4 (k0_pay3 (k0_pay2 (View.readAt (Elt F) (a6).view (Rect.unit (s := S4x50x128) (k0_off8 k) S1x1x16.size (k0_off8_inb k)).toLoadRect (gath m d L hidx k.val hk)) (View.readAt (Elt F) (a6).view (Rect.unit (s := S4x50x128) (k0_off9 k) S1x1x16.size (k0_off9_inb k)).toLoadRect (gath m d L hidx k.val hk)) (View.readAt (Elt F) (a6).view (Rect.unit (s := S4x50x128) (k0_off10 k) S1x1x16.size (k0_off10_inb k)).toLoadRect (gath m d L hidx k.val hk)) (View.readAt (Elt F) (a6).view (Rect.unit (s := S4x50x128) (k0_off11 k) S1x1x16.size (k0_off11_inb k)).toLoadRect (gath m d L hidx k.val hk)) (View.readAt (Elt F) (a6).view (Rect.unit (s := S4x50x128) (k0_off12 k) S1x1x16.size (k0_off12_inb k)).toLoadRect (gath m d L hidx k.val hk))) (View.readAt (Elt F) (a6).view (Rect.unit (s := S4x50x128) (k0_off13 k) S1x1x16.size (k0_off13_inb k)).toLoadRect (gath m d L hidx k.val hk)) (View.readAt (Elt F) (a6).view (Rect.unit (s := S4x50x128) (k0_off14 k) S1x1x16.size (k0_off14_inb k)).toLoadRect (gath m d L hidx k.val hk)) (View.readAt (Elt F) (a6).view (Rect.unit (s := S4x50x128) (k0_off15 k) S1x1x16.size (k0_off15_inb k)).toLoadRect (gath m d L hidx k.val hk)) (View.readAt (Elt F) (a6).view (Rect.unit (s := S4x50x128) (k0_off16 k) S1x1x16.size (k0_off16_inb k)).toLoadRect (gath m d L hidx k.val hk)) (View.readAt (Elt F) (a6).view (Rect.unit (s := S4x50x128) (k0_off17 k) S1x1x16.size (k0_off17_inb k)).toLoadRect (gath m d L hidx k.val hk)) (View.readAt (Elt F) (a6).view (Rect.unit (s := S4x50x128) (k0_off18 k) S1x1x16.size (k0_off18_inb k)).toLoadRect (gath m d L hidx k.val hk)) (View.readAt (Elt F) (a6).view (Rect.unit (s := S4x50x128) (k0_off19 k) S1x1x16.size (k0_off19_inb k)).toLoadRect (gath m d L hidx k.val hk)) (View.readAt (Elt F) (a6).view (Rect.unit (s := S4x50x128) (k0_off20 k) S1x1x16.size (k0_off20_inb k)).toLoadRect (gath m d L hidx k.val hk))) (View.readAt (Elt F) (a6).view (Rect.unit (s := S4x50x128) (k0_off21 k) S1x1x16.size (k0_off21_inb k)).toLoadRect (gath m d L hidx k.val hk)) (View.readAt (Elt F) (a6).view (Rect.unit (s := S4x50x128) (k0_off22 k) S1x1x16.size (k0_off22_inb k)).toLoadRect (gath m d L hidx k.val hk)) (View.readAt (Elt F) (a6).view (Rect.unit (s := S4x50x128) (k0_off23 k) S1x1x16.size (k0_off23_inb k)).toLoadRect (gath m d L hidx k.val hk)) (View.readAt (Elt F) (a6).view (Rect.unit (s := S4x50x128) (k0_off24 k) S1x1x16.size (k0_off24_inb k)).toLoadRect (gath m d L hidx k.val hk)) (View.readAt (Elt F) (a6).view (Rect.unit (s := S4x50x128) (k0_off25 k) S1x1x16.size (k0_off25_inb k)).toLoadRect (gath m d L hidx k.val hk)) (View.readAt (Elt F) (a6).view (Rect.unit (s := S4x50x128) (k0_off26 k) S1x1x16.size (k0_off26_inb k)).toLoadRect (gath m d L hidx k.val hk)) (View.readAt (Elt F) (a6).view (Rect.unit (s := S4x50x128) (k0_off27 k) S1x1x16.size (k0_off27_inb k)).toLoadRect (gath m d L hidx k.val hk)) (View.readAt (Elt F) (a6).view (Rect.unit (s := S4x50x128) (k0_off28 k) S1x1x16.size (k0_off28_inb k)).toLoadRect (gath m d L hidx k.val hk)) (View.readAt (Elt F) (a6).view (Rect.unit (s := S4x50x128) (k0_off29 k) S1x1x16.size (k0_off29_inb k)).toLoadRect (gath m d L hidx k.val hk))) (View.readAt (Elt F) (a6).view (Rect.unit (s := S4x50x128) (k0_off30 k) S1x1x16.size (k0_off30_inb k)).toLoadRect (gath m d L hidx k.val hk)) (View.readAt (Elt F) (a6).view (Rect.unit (s := S4x50x128) (k0_off31 k) S1x1x16.size (k0_off31_inb k)).toLoadRect (gath m d L hidx k.val hk)) (View.readAt (Elt F) (a6).view (Rect.unit (s := S4x50x128) (k0_off32 k) S1x1x16.size (k0_off32_inb k)).toLoadRect (gath m d L hidx k.val hk)) (View.readAt (Elt F) (a6).view (Rect.unit (s := S4x50x128) (k0_off33 k) S1x1x16.size (k0_off33_inb k)).toLoadRect (gath m d L hidx k.val hk)) (View.readAt (Elt F) (a6).view (Rect.unit (s := S4x50x128) (k0_off34 k) S1x1x16.size (k0_off34_inb k)).toLoadRect (gath m d L hidx k.val hk)) (View.readAt (Elt F) (a6).view (Rect.unit (s := S4x50x128) (k0_off35 k) S1x1x16.size (k0_off35_inb k)).toLoadRect (gath m d L hidx k.val hk)) (View.readAt (Elt F) (a6).view (Rect.unit (s := S4x50x128) (k0_off36 k) S1x1x16.size (k0_off36_inb k)).toLoadRect (gath m d L hidx k.val hk)) (View.readAt (Elt F) (a6).view (Rect.unit (s := S4x50x128) (k0_off37 k) S1x1x16.size (k0_off37_inb k)).toLoadRect (gath m d L hidx k.val hk))) (View.readAt (Elt F) (a6).view (Rect.unit (s := S4x50x128) (k0_off38 k) S1x1x16.size (k0_off38_inb k)).toLoadRect (gath m d L hidx k.val hk)) (View.readAt (Elt F) (a6).view (Rect.unit (s := S4x50x128) (k0_off39 k) S1x1x16.size (k0_off39_inb k)).toLoadRect (gath m d L hidx k.val hk)) (View.readAt (Elt F) (a6).view (Rect.unit (s := S4x50x128) (k0_off40 k) S1x1x16.size (k0_off40_inb k)).toLoadRect (gath m d L hidx k.val hk)) (View.readAt (Elt F) (a6).view (Rect.unit (s := S4x50x128) (k0_off41 k) S1x1x16.size (k0_off41_inb k)).toLoadRect (gath m d L hidx k.val hk)) (View.readAt (Elt F) (a6).view (Rect.unit (s := S4x50x128) (k0_off42 k) S1x1x16.size (k0_off42_inb k)).toLoadRect (gath m d L hidx k.val hk)) (View.readAt (Elt F) (a6).view (Rect.unit (s := S4x50x128) (k0_off43 k) S1x1x16.size (k0_off43_inb k)).toLoadRect (gath m d L hidx k.val hk)) (View.readAt (Elt F) (a6).view (Rect.unit (s := S4x50x128) (k0_off44 k) S1x1x16.size (k0_off44_inb k)).toLoadRect (gath m d L hidx k.val hk)) (View.readAt (Elt F) (a6).view (Rect.unit (s := S4x50x128) (k0_off45 k) S1x1x16.size (k0_off45_inb k)).toLoadRect (gath m d L hidx k.val hk)) (View.readAt (Elt F) (a6).view (Rect.unit (s := S4x50x128) (k0_off46 k) S1x1x16.size (k0_off46_inb k)).toLoadRect (gath m d L hidx k.val hk))) (View.readAt (Elt F) (a6).view (Rect.unit (s := S4x50x128) (k0_off47 k) S1x1x16.size (k0_off47_inb k)).toLoadRect (gath m d L hidx k.val hk)) (View.readAt (Elt F) (a6).view (Rect.unit (s := S4x50x128) (k0_off48 k) S1x1x16.size (k0_off48_inb k)).toLoadRect (gath m d L hidx k.val hk)) (View.readAt (Elt F) (a6).view (Rect.unit (s := S4x50x128) (k0_off49 k) S1x1x16.size (k0_off49_inb k)).toLoadRect (gath m d L hidx k.val hk)) (View.readAt (Elt F) (a6).view (Rect.unit (s := S4x50x128) (k0_off50 k) S1x1x16.size (k0_off50_inb k)).toLoadRect (gath m d L hidx k.val hk)) (View.readAt (Elt F) (a6).view (Rect.unit (s := S4x50x128) (k0_off51 k) S1x1x16.size (k0_off51_inb k)).toLoadRect (gath m d L hidx k.val hk)) (View.readAt (Elt F) (a6).view (Rect.unit (s := S4x50x128) (k0_off52 k) S1x1x16.size (k0_off52_inb k)).toLoadRect (gath m d L hidx k.val hk)) (View.readAt (Elt F) (a6).view (Rect.unit (s := S4x50x128) (k0_off53 k) S1x1x16.size (k0_off53_inb k)).toLoadRect (gath m d L hidx k.val hk)) (View.readAt (Elt F) (a6).view (Rect.unit (s := S4x50x128) (k0_off54 k) S1x1x16.size (k0_off54_inb k)).toLoadRect (gath m d L hidx k.val hk))) (k0_pay8 (View.readAt (Elt F) (a6).view (Rect.unit (s := S4x50x128) (k0_off55 k) S1x1x16.size (k0_off55_inb k)).toLoadRect (gath m d L hidx k.val hk))) (View.readAt (Elt F) (a6).view (Rect.unit (s := S4x50x128) (k0_off56 k) S1x1x16.size (k0_off56_inb k)).toLoadRect (gath m d L hidx k.val hk)) (View.readAt (Elt F) (a6).view (Rect.unit (s := S4x50x128) (k0_off57 k) S1x1x16.size (k0_off57_inb k)).toLoadRect (gath m d L hidx k.val hk)))⟩]
      = poolSt m d L f7 (k.val + 1) :=
  pool_frame m d L f7 ⟨k.val, hk⟩
    (k0_off415 k) (k0_off364 k) (k0_off313 k) (k0_off262 k) (k0_off211 k) (k0_off160 k) (k0_off109 k) (k0_off58 k)
    (k0_off415_eq k) (k0_off364_eq k) (k0_off313_eq k) (k0_off262_eq k) (k0_off211_eq k) (k0_off160_eq k) (k0_off109_eq k) (k0_off58_eq k)
    (k0_off415_inb k) (k0_off364_inb k) (k0_off313_inb k) (k0_off262_inb k) (k0_off211_inb k) (k0_off160_inb k) (k0_off109_inb k) (k0_off58_inb k)
    _ _ _ _ _ _ _ _
    (fun l => (chain7_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 7 + l.val, lane_lt 7 l⟩)
        (load_val m d L hidx k.val hk 0 (by decide) 7 (by decide) (k0_off365 k) (k0_off365_eq k) (k0_off365_inb k) l)
        (load_val m d L hidx k.val hk 1 (by decide) 7 (by decide) (k0_off366 k) (k0_off366_eq k) (k0_off366_inb k) l)
        (load_val m d L hidx k.val hk 2 (by decide) 7 (by decide) (k0_off367 k) (k0_off367_eq k) (k0_off367_inb k) l)
        (load_val m d L hidx k.val hk 3 (by decide) 7 (by decide) (k0_off368 k) (k0_off368_eq k) (k0_off368_inb k) l)
        (load_val m d L hidx k.val hk 4 (by decide) 7 (by decide) (k0_off369 k) (k0_off369_eq k) (k0_off369_inb k) l)
        (load_val m d L hidx k.val hk 5 (by decide) 7 (by decide) (k0_off370 k) (k0_off370_eq k) (k0_off370_inb k) l)
        (load_val m d L hidx k.val hk 6 (by decide) 7 (by decide) (k0_off371 k) (k0_off371_eq k) (k0_off371_inb k) l)
        (load_val m d L hidx k.val hk 7 (by decide) 7 (by decide) (k0_off372 k) (k0_off372_eq k) (k0_off372_inb k) l)
        (load_val m d L hidx k.val hk 8 (by decide) 7 (by decide) (k0_off373 k) (k0_off373_eq k) (k0_off373_inb k) l)
        (load_val m d L hidx k.val hk 9 (by decide) 7 (by decide) (k0_off374 k) (k0_off374_eq k) (k0_off374_inb k) l)
        (load_val m d L hidx k.val hk 10 (by decide) 7 (by decide) (k0_off375 k) (k0_off375_eq k) (k0_off375_inb k) l)
        (load_val m d L hidx k.val hk 11 (by decide) 7 (by decide) (k0_off376 k) (k0_off376_eq k) (k0_off376_inb k) l)
        (load_val m d L hidx k.val hk 12 (by decide) 7 (by decide) (k0_off377 k) (k0_off377_eq k) (k0_off377_inb k) l)
        (load_val m d L hidx k.val hk 13 (by decide) 7 (by decide) (k0_off378 k) (k0_off378_eq k) (k0_off378_inb k) l)
        (load_val m d L hidx k.val hk 14 (by decide) 7 (by decide) (k0_off379 k) (k0_off379_eq k) (k0_off379_inb k) l)
        (load_val m d L hidx k.val hk 15 (by decide) 7 (by decide) (k0_off380 k) (k0_off380_eq k) (k0_off380_inb k) l)
        (load_val m d L hidx k.val hk 16 (by decide) 7 (by decide) (k0_off381 k) (k0_off381_eq k) (k0_off381_inb k) l)
        (load_val m d L hidx k.val hk 17 (by decide) 7 (by decide) (k0_off382 k) (k0_off382_eq k) (k0_off382_inb k) l)
        (load_val m d L hidx k.val hk 18 (by decide) 7 (by decide) (k0_off383 k) (k0_off383_eq k) (k0_off383_inb k) l)
        (load_val m d L hidx k.val hk 19 (by decide) 7 (by decide) (k0_off384 k) (k0_off384_eq k) (k0_off384_inb k) l)
        (load_val m d L hidx k.val hk 20 (by decide) 7 (by decide) (k0_off385 k) (k0_off385_eq k) (k0_off385_inb k) l)
        (load_val m d L hidx k.val hk 21 (by decide) 7 (by decide) (k0_off386 k) (k0_off386_eq k) (k0_off386_inb k) l)
        (load_val m d L hidx k.val hk 22 (by decide) 7 (by decide) (k0_off387 k) (k0_off387_eq k) (k0_off387_inb k) l)
        (load_val m d L hidx k.val hk 23 (by decide) 7 (by decide) (k0_off388 k) (k0_off388_eq k) (k0_off388_inb k) l)
        (load_val m d L hidx k.val hk 24 (by decide) 7 (by decide) (k0_off389 k) (k0_off389_eq k) (k0_off389_inb k) l)
        (load_val m d L hidx k.val hk 25 (by decide) 7 (by decide) (k0_off390 k) (k0_off390_eq k) (k0_off390_inb k) l)
        (load_val m d L hidx k.val hk 26 (by decide) 7 (by decide) (k0_off391 k) (k0_off391_eq k) (k0_off391_inb k) l)
        (load_val m d L hidx k.val hk 27 (by decide) 7 (by decide) (k0_off392 k) (k0_off392_eq k) (k0_off392_inb k) l)
        (load_val m d L hidx k.val hk 28 (by decide) 7 (by decide) (k0_off393 k) (k0_off393_eq k) (k0_off393_inb k) l)
        (load_val m d L hidx k.val hk 29 (by decide) 7 (by decide) (k0_off394 k) (k0_off394_eq k) (k0_off394_inb k) l)
        (load_val m d L hidx k.val hk 30 (by decide) 7 (by decide) (k0_off395 k) (k0_off395_eq k) (k0_off395_inb k) l)
        (load_val m d L hidx k.val hk 31 (by decide) 7 (by decide) (k0_off396 k) (k0_off396_eq k) (k0_off396_inb k) l)
        (load_val m d L hidx k.val hk 32 (by decide) 7 (by decide) (k0_off397 k) (k0_off397_eq k) (k0_off397_inb k) l)
        (load_val m d L hidx k.val hk 33 (by decide) 7 (by decide) (k0_off398 k) (k0_off398_eq k) (k0_off398_inb k) l)
        (load_val m d L hidx k.val hk 34 (by decide) 7 (by decide) (k0_off399 k) (k0_off399_eq k) (k0_off399_inb k) l)
        (load_val m d L hidx k.val hk 35 (by decide) 7 (by decide) (k0_off400 k) (k0_off400_eq k) (k0_off400_inb k) l)
        (load_val m d L hidx k.val hk 36 (by decide) 7 (by decide) (k0_off401 k) (k0_off401_eq k) (k0_off401_inb k) l)
        (load_val m d L hidx k.val hk 37 (by decide) 7 (by decide) (k0_off402 k) (k0_off402_eq k) (k0_off402_inb k) l)
        (load_val m d L hidx k.val hk 38 (by decide) 7 (by decide) (k0_off403 k) (k0_off403_eq k) (k0_off403_inb k) l)
        (load_val m d L hidx k.val hk 39 (by decide) 7 (by decide) (k0_off404 k) (k0_off404_eq k) (k0_off404_inb k) l)
        (load_val m d L hidx k.val hk 40 (by decide) 7 (by decide) (k0_off405 k) (k0_off405_eq k) (k0_off405_inb k) l)
        (load_val m d L hidx k.val hk 41 (by decide) 7 (by decide) (k0_off406 k) (k0_off406_eq k) (k0_off406_inb k) l)
        (load_val m d L hidx k.val hk 42 (by decide) 7 (by decide) (k0_off407 k) (k0_off407_eq k) (k0_off407_inb k) l)
        (load_val m d L hidx k.val hk 43 (by decide) 7 (by decide) (k0_off408 k) (k0_off408_eq k) (k0_off408_inb k) l)
        (load_val m d L hidx k.val hk 44 (by decide) 7 (by decide) (k0_off409 k) (k0_off409_eq k) (k0_off409_inb k) l)
        (load_val m d L hidx k.val hk 45 (by decide) 7 (by decide) (k0_off410 k) (k0_off410_eq k) (k0_off410_inb k) l)
        (load_val m d L hidx k.val hk 46 (by decide) 7 (by decide) (k0_off411 k) (k0_off411_eq k) (k0_off411_inb k) l)
        (load_val m d L hidx k.val hk 47 (by decide) 7 (by decide) (k0_off412 k) (k0_off412_eq k) (k0_off412_inb k) l)
        (load_val m d L hidx k.val hk 48 (by decide) 7 (by decide) (k0_off413 k) (k0_off413_eq k) (k0_off413_inb k) l)
        (load_val m d L hidx k.val hk 49 (by decide) 7 (by decide) (k0_off414 k) (k0_off414_eq k) (k0_off414_inb k) l)).trans
      (pool_emb m d L k.val hk ⟨16 * 7 + l.val, lane_lt 7 l⟩).symm)
    (fun l => (chain6_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 6 + l.val, lane_lt 6 l⟩)
        (load_val m d L hidx k.val hk 0 (by decide) 6 (by decide) (k0_off314 k) (k0_off314_eq k) (k0_off314_inb k) l)
        (load_val m d L hidx k.val hk 1 (by decide) 6 (by decide) (k0_off315 k) (k0_off315_eq k) (k0_off315_inb k) l)
        (load_val m d L hidx k.val hk 2 (by decide) 6 (by decide) (k0_off316 k) (k0_off316_eq k) (k0_off316_inb k) l)
        (load_val m d L hidx k.val hk 3 (by decide) 6 (by decide) (k0_off317 k) (k0_off317_eq k) (k0_off317_inb k) l)
        (load_val m d L hidx k.val hk 4 (by decide) 6 (by decide) (k0_off318 k) (k0_off318_eq k) (k0_off318_inb k) l)
        (load_val m d L hidx k.val hk 5 (by decide) 6 (by decide) (k0_off319 k) (k0_off319_eq k) (k0_off319_inb k) l)
        (load_val m d L hidx k.val hk 6 (by decide) 6 (by decide) (k0_off320 k) (k0_off320_eq k) (k0_off320_inb k) l)
        (load_val m d L hidx k.val hk 7 (by decide) 6 (by decide) (k0_off321 k) (k0_off321_eq k) (k0_off321_inb k) l)
        (load_val m d L hidx k.val hk 8 (by decide) 6 (by decide) (k0_off322 k) (k0_off322_eq k) (k0_off322_inb k) l)
        (load_val m d L hidx k.val hk 9 (by decide) 6 (by decide) (k0_off323 k) (k0_off323_eq k) (k0_off323_inb k) l)
        (load_val m d L hidx k.val hk 10 (by decide) 6 (by decide) (k0_off324 k) (k0_off324_eq k) (k0_off324_inb k) l)
        (load_val m d L hidx k.val hk 11 (by decide) 6 (by decide) (k0_off325 k) (k0_off325_eq k) (k0_off325_inb k) l)
        (load_val m d L hidx k.val hk 12 (by decide) 6 (by decide) (k0_off326 k) (k0_off326_eq k) (k0_off326_inb k) l)
        (load_val m d L hidx k.val hk 13 (by decide) 6 (by decide) (k0_off327 k) (k0_off327_eq k) (k0_off327_inb k) l)
        (load_val m d L hidx k.val hk 14 (by decide) 6 (by decide) (k0_off328 k) (k0_off328_eq k) (k0_off328_inb k) l)
        (load_val m d L hidx k.val hk 15 (by decide) 6 (by decide) (k0_off329 k) (k0_off329_eq k) (k0_off329_inb k) l)
        (load_val m d L hidx k.val hk 16 (by decide) 6 (by decide) (k0_off330 k) (k0_off330_eq k) (k0_off330_inb k) l)
        (load_val m d L hidx k.val hk 17 (by decide) 6 (by decide) (k0_off331 k) (k0_off331_eq k) (k0_off331_inb k) l)
        (load_val m d L hidx k.val hk 18 (by decide) 6 (by decide) (k0_off332 k) (k0_off332_eq k) (k0_off332_inb k) l)
        (load_val m d L hidx k.val hk 19 (by decide) 6 (by decide) (k0_off333 k) (k0_off333_eq k) (k0_off333_inb k) l)
        (load_val m d L hidx k.val hk 20 (by decide) 6 (by decide) (k0_off334 k) (k0_off334_eq k) (k0_off334_inb k) l)
        (load_val m d L hidx k.val hk 21 (by decide) 6 (by decide) (k0_off335 k) (k0_off335_eq k) (k0_off335_inb k) l)
        (load_val m d L hidx k.val hk 22 (by decide) 6 (by decide) (k0_off336 k) (k0_off336_eq k) (k0_off336_inb k) l)
        (load_val m d L hidx k.val hk 23 (by decide) 6 (by decide) (k0_off337 k) (k0_off337_eq k) (k0_off337_inb k) l)
        (load_val m d L hidx k.val hk 24 (by decide) 6 (by decide) (k0_off338 k) (k0_off338_eq k) (k0_off338_inb k) l)
        (load_val m d L hidx k.val hk 25 (by decide) 6 (by decide) (k0_off339 k) (k0_off339_eq k) (k0_off339_inb k) l)
        (load_val m d L hidx k.val hk 26 (by decide) 6 (by decide) (k0_off340 k) (k0_off340_eq k) (k0_off340_inb k) l)
        (load_val m d L hidx k.val hk 27 (by decide) 6 (by decide) (k0_off341 k) (k0_off341_eq k) (k0_off341_inb k) l)
        (load_val m d L hidx k.val hk 28 (by decide) 6 (by decide) (k0_off342 k) (k0_off342_eq k) (k0_off342_inb k) l)
        (load_val m d L hidx k.val hk 29 (by decide) 6 (by decide) (k0_off343 k) (k0_off343_eq k) (k0_off343_inb k) l)
        (load_val m d L hidx k.val hk 30 (by decide) 6 (by decide) (k0_off344 k) (k0_off344_eq k) (k0_off344_inb k) l)
        (load_val m d L hidx k.val hk 31 (by decide) 6 (by decide) (k0_off345 k) (k0_off345_eq k) (k0_off345_inb k) l)
        (load_val m d L hidx k.val hk 32 (by decide) 6 (by decide) (k0_off346 k) (k0_off346_eq k) (k0_off346_inb k) l)
        (load_val m d L hidx k.val hk 33 (by decide) 6 (by decide) (k0_off347 k) (k0_off347_eq k) (k0_off347_inb k) l)
        (load_val m d L hidx k.val hk 34 (by decide) 6 (by decide) (k0_off348 k) (k0_off348_eq k) (k0_off348_inb k) l)
        (load_val m d L hidx k.val hk 35 (by decide) 6 (by decide) (k0_off349 k) (k0_off349_eq k) (k0_off349_inb k) l)
        (load_val m d L hidx k.val hk 36 (by decide) 6 (by decide) (k0_off350 k) (k0_off350_eq k) (k0_off350_inb k) l)
        (load_val m d L hidx k.val hk 37 (by decide) 6 (by decide) (k0_off351 k) (k0_off351_eq k) (k0_off351_inb k) l)
        (load_val m d L hidx k.val hk 38 (by decide) 6 (by decide) (k0_off352 k) (k0_off352_eq k) (k0_off352_inb k) l)
        (load_val m d L hidx k.val hk 39 (by decide) 6 (by decide) (k0_off353 k) (k0_off353_eq k) (k0_off353_inb k) l)
        (load_val m d L hidx k.val hk 40 (by decide) 6 (by decide) (k0_off354 k) (k0_off354_eq k) (k0_off354_inb k) l)
        (load_val m d L hidx k.val hk 41 (by decide) 6 (by decide) (k0_off355 k) (k0_off355_eq k) (k0_off355_inb k) l)
        (load_val m d L hidx k.val hk 42 (by decide) 6 (by decide) (k0_off356 k) (k0_off356_eq k) (k0_off356_inb k) l)
        (load_val m d L hidx k.val hk 43 (by decide) 6 (by decide) (k0_off357 k) (k0_off357_eq k) (k0_off357_inb k) l)
        (load_val m d L hidx k.val hk 44 (by decide) 6 (by decide) (k0_off358 k) (k0_off358_eq k) (k0_off358_inb k) l)
        (load_val m d L hidx k.val hk 45 (by decide) 6 (by decide) (k0_off359 k) (k0_off359_eq k) (k0_off359_inb k) l)
        (load_val m d L hidx k.val hk 46 (by decide) 6 (by decide) (k0_off360 k) (k0_off360_eq k) (k0_off360_inb k) l)
        (load_val m d L hidx k.val hk 47 (by decide) 6 (by decide) (k0_off361 k) (k0_off361_eq k) (k0_off361_inb k) l)
        (load_val m d L hidx k.val hk 48 (by decide) 6 (by decide) (k0_off362 k) (k0_off362_eq k) (k0_off362_inb k) l)
        (load_val m d L hidx k.val hk 49 (by decide) 6 (by decide) (k0_off363 k) (k0_off363_eq k) (k0_off363_inb k) l)).trans
      (pool_emb m d L k.val hk ⟨16 * 6 + l.val, lane_lt 6 l⟩).symm)
    (fun l => (chain5_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 5 + l.val, lane_lt 5 l⟩)
        (load_val m d L hidx k.val hk 0 (by decide) 5 (by decide) (k0_off263 k) (k0_off263_eq k) (k0_off263_inb k) l)
        (load_val m d L hidx k.val hk 1 (by decide) 5 (by decide) (k0_off264 k) (k0_off264_eq k) (k0_off264_inb k) l)
        (load_val m d L hidx k.val hk 2 (by decide) 5 (by decide) (k0_off265 k) (k0_off265_eq k) (k0_off265_inb k) l)
        (load_val m d L hidx k.val hk 3 (by decide) 5 (by decide) (k0_off266 k) (k0_off266_eq k) (k0_off266_inb k) l)
        (load_val m d L hidx k.val hk 4 (by decide) 5 (by decide) (k0_off267 k) (k0_off267_eq k) (k0_off267_inb k) l)
        (load_val m d L hidx k.val hk 5 (by decide) 5 (by decide) (k0_off268 k) (k0_off268_eq k) (k0_off268_inb k) l)
        (load_val m d L hidx k.val hk 6 (by decide) 5 (by decide) (k0_off269 k) (k0_off269_eq k) (k0_off269_inb k) l)
        (load_val m d L hidx k.val hk 7 (by decide) 5 (by decide) (k0_off270 k) (k0_off270_eq k) (k0_off270_inb k) l)
        (load_val m d L hidx k.val hk 8 (by decide) 5 (by decide) (k0_off271 k) (k0_off271_eq k) (k0_off271_inb k) l)
        (load_val m d L hidx k.val hk 9 (by decide) 5 (by decide) (k0_off272 k) (k0_off272_eq k) (k0_off272_inb k) l)
        (load_val m d L hidx k.val hk 10 (by decide) 5 (by decide) (k0_off273 k) (k0_off273_eq k) (k0_off273_inb k) l)
        (load_val m d L hidx k.val hk 11 (by decide) 5 (by decide) (k0_off274 k) (k0_off274_eq k) (k0_off274_inb k) l)
        (load_val m d L hidx k.val hk 12 (by decide) 5 (by decide) (k0_off275 k) (k0_off275_eq k) (k0_off275_inb k) l)
        (load_val m d L hidx k.val hk 13 (by decide) 5 (by decide) (k0_off276 k) (k0_off276_eq k) (k0_off276_inb k) l)
        (load_val m d L hidx k.val hk 14 (by decide) 5 (by decide) (k0_off277 k) (k0_off277_eq k) (k0_off277_inb k) l)
        (load_val m d L hidx k.val hk 15 (by decide) 5 (by decide) (k0_off278 k) (k0_off278_eq k) (k0_off278_inb k) l)
        (load_val m d L hidx k.val hk 16 (by decide) 5 (by decide) (k0_off279 k) (k0_off279_eq k) (k0_off279_inb k) l)
        (load_val m d L hidx k.val hk 17 (by decide) 5 (by decide) (k0_off280 k) (k0_off280_eq k) (k0_off280_inb k) l)
        (load_val m d L hidx k.val hk 18 (by decide) 5 (by decide) (k0_off281 k) (k0_off281_eq k) (k0_off281_inb k) l)
        (load_val m d L hidx k.val hk 19 (by decide) 5 (by decide) (k0_off282 k) (k0_off282_eq k) (k0_off282_inb k) l)
        (load_val m d L hidx k.val hk 20 (by decide) 5 (by decide) (k0_off283 k) (k0_off283_eq k) (k0_off283_inb k) l)
        (load_val m d L hidx k.val hk 21 (by decide) 5 (by decide) (k0_off284 k) (k0_off284_eq k) (k0_off284_inb k) l)
        (load_val m d L hidx k.val hk 22 (by decide) 5 (by decide) (k0_off285 k) (k0_off285_eq k) (k0_off285_inb k) l)
        (load_val m d L hidx k.val hk 23 (by decide) 5 (by decide) (k0_off286 k) (k0_off286_eq k) (k0_off286_inb k) l)
        (load_val m d L hidx k.val hk 24 (by decide) 5 (by decide) (k0_off287 k) (k0_off287_eq k) (k0_off287_inb k) l)
        (load_val m d L hidx k.val hk 25 (by decide) 5 (by decide) (k0_off288 k) (k0_off288_eq k) (k0_off288_inb k) l)
        (load_val m d L hidx k.val hk 26 (by decide) 5 (by decide) (k0_off289 k) (k0_off289_eq k) (k0_off289_inb k) l)
        (load_val m d L hidx k.val hk 27 (by decide) 5 (by decide) (k0_off290 k) (k0_off290_eq k) (k0_off290_inb k) l)
        (load_val m d L hidx k.val hk 28 (by decide) 5 (by decide) (k0_off291 k) (k0_off291_eq k) (k0_off291_inb k) l)
        (load_val m d L hidx k.val hk 29 (by decide) 5 (by decide) (k0_off292 k) (k0_off292_eq k) (k0_off292_inb k) l)
        (load_val m d L hidx k.val hk 30 (by decide) 5 (by decide) (k0_off293 k) (k0_off293_eq k) (k0_off293_inb k) l)
        (load_val m d L hidx k.val hk 31 (by decide) 5 (by decide) (k0_off294 k) (k0_off294_eq k) (k0_off294_inb k) l)
        (load_val m d L hidx k.val hk 32 (by decide) 5 (by decide) (k0_off295 k) (k0_off295_eq k) (k0_off295_inb k) l)
        (load_val m d L hidx k.val hk 33 (by decide) 5 (by decide) (k0_off296 k) (k0_off296_eq k) (k0_off296_inb k) l)
        (load_val m d L hidx k.val hk 34 (by decide) 5 (by decide) (k0_off297 k) (k0_off297_eq k) (k0_off297_inb k) l)
        (load_val m d L hidx k.val hk 35 (by decide) 5 (by decide) (k0_off298 k) (k0_off298_eq k) (k0_off298_inb k) l)
        (load_val m d L hidx k.val hk 36 (by decide) 5 (by decide) (k0_off299 k) (k0_off299_eq k) (k0_off299_inb k) l)
        (load_val m d L hidx k.val hk 37 (by decide) 5 (by decide) (k0_off300 k) (k0_off300_eq k) (k0_off300_inb k) l)
        (load_val m d L hidx k.val hk 38 (by decide) 5 (by decide) (k0_off301 k) (k0_off301_eq k) (k0_off301_inb k) l)
        (load_val m d L hidx k.val hk 39 (by decide) 5 (by decide) (k0_off302 k) (k0_off302_eq k) (k0_off302_inb k) l)
        (load_val m d L hidx k.val hk 40 (by decide) 5 (by decide) (k0_off303 k) (k0_off303_eq k) (k0_off303_inb k) l)
        (load_val m d L hidx k.val hk 41 (by decide) 5 (by decide) (k0_off304 k) (k0_off304_eq k) (k0_off304_inb k) l)
        (load_val m d L hidx k.val hk 42 (by decide) 5 (by decide) (k0_off305 k) (k0_off305_eq k) (k0_off305_inb k) l)
        (load_val m d L hidx k.val hk 43 (by decide) 5 (by decide) (k0_off306 k) (k0_off306_eq k) (k0_off306_inb k) l)
        (load_val m d L hidx k.val hk 44 (by decide) 5 (by decide) (k0_off307 k) (k0_off307_eq k) (k0_off307_inb k) l)
        (load_val m d L hidx k.val hk 45 (by decide) 5 (by decide) (k0_off308 k) (k0_off308_eq k) (k0_off308_inb k) l)
        (load_val m d L hidx k.val hk 46 (by decide) 5 (by decide) (k0_off309 k) (k0_off309_eq k) (k0_off309_inb k) l)
        (load_val m d L hidx k.val hk 47 (by decide) 5 (by decide) (k0_off310 k) (k0_off310_eq k) (k0_off310_inb k) l)
        (load_val m d L hidx k.val hk 48 (by decide) 5 (by decide) (k0_off311 k) (k0_off311_eq k) (k0_off311_inb k) l)
        (load_val m d L hidx k.val hk 49 (by decide) 5 (by decide) (k0_off312 k) (k0_off312_eq k) (k0_off312_inb k) l)).trans
      (pool_emb m d L k.val hk ⟨16 * 5 + l.val, lane_lt 5 l⟩).symm)
    (fun l => (chain4_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 4 + l.val, lane_lt 4 l⟩)
        (load_val m d L hidx k.val hk 0 (by decide) 4 (by decide) (k0_off212 k) (k0_off212_eq k) (k0_off212_inb k) l)
        (load_val m d L hidx k.val hk 1 (by decide) 4 (by decide) (k0_off213 k) (k0_off213_eq k) (k0_off213_inb k) l)
        (load_val m d L hidx k.val hk 2 (by decide) 4 (by decide) (k0_off214 k) (k0_off214_eq k) (k0_off214_inb k) l)
        (load_val m d L hidx k.val hk 3 (by decide) 4 (by decide) (k0_off215 k) (k0_off215_eq k) (k0_off215_inb k) l)
        (load_val m d L hidx k.val hk 4 (by decide) 4 (by decide) (k0_off216 k) (k0_off216_eq k) (k0_off216_inb k) l)
        (load_val m d L hidx k.val hk 5 (by decide) 4 (by decide) (k0_off217 k) (k0_off217_eq k) (k0_off217_inb k) l)
        (load_val m d L hidx k.val hk 6 (by decide) 4 (by decide) (k0_off218 k) (k0_off218_eq k) (k0_off218_inb k) l)
        (load_val m d L hidx k.val hk 7 (by decide) 4 (by decide) (k0_off219 k) (k0_off219_eq k) (k0_off219_inb k) l)
        (load_val m d L hidx k.val hk 8 (by decide) 4 (by decide) (k0_off220 k) (k0_off220_eq k) (k0_off220_inb k) l)
        (load_val m d L hidx k.val hk 9 (by decide) 4 (by decide) (k0_off221 k) (k0_off221_eq k) (k0_off221_inb k) l)
        (load_val m d L hidx k.val hk 10 (by decide) 4 (by decide) (k0_off222 k) (k0_off222_eq k) (k0_off222_inb k) l)
        (load_val m d L hidx k.val hk 11 (by decide) 4 (by decide) (k0_off223 k) (k0_off223_eq k) (k0_off223_inb k) l)
        (load_val m d L hidx k.val hk 12 (by decide) 4 (by decide) (k0_off224 k) (k0_off224_eq k) (k0_off224_inb k) l)
        (load_val m d L hidx k.val hk 13 (by decide) 4 (by decide) (k0_off225 k) (k0_off225_eq k) (k0_off225_inb k) l)
        (load_val m d L hidx k.val hk 14 (by decide) 4 (by decide) (k0_off226 k) (k0_off226_eq k) (k0_off226_inb k) l)
        (load_val m d L hidx k.val hk 15 (by decide) 4 (by decide) (k0_off227 k) (k0_off227_eq k) (k0_off227_inb k) l)
        (load_val m d L hidx k.val hk 16 (by decide) 4 (by decide) (k0_off228 k) (k0_off228_eq k) (k0_off228_inb k) l)
        (load_val m d L hidx k.val hk 17 (by decide) 4 (by decide) (k0_off229 k) (k0_off229_eq k) (k0_off229_inb k) l)
        (load_val m d L hidx k.val hk 18 (by decide) 4 (by decide) (k0_off230 k) (k0_off230_eq k) (k0_off230_inb k) l)
        (load_val m d L hidx k.val hk 19 (by decide) 4 (by decide) (k0_off231 k) (k0_off231_eq k) (k0_off231_inb k) l)
        (load_val m d L hidx k.val hk 20 (by decide) 4 (by decide) (k0_off232 k) (k0_off232_eq k) (k0_off232_inb k) l)
        (load_val m d L hidx k.val hk 21 (by decide) 4 (by decide) (k0_off233 k) (k0_off233_eq k) (k0_off233_inb k) l)
        (load_val m d L hidx k.val hk 22 (by decide) 4 (by decide) (k0_off234 k) (k0_off234_eq k) (k0_off234_inb k) l)
        (load_val m d L hidx k.val hk 23 (by decide) 4 (by decide) (k0_off235 k) (k0_off235_eq k) (k0_off235_inb k) l)
        (load_val m d L hidx k.val hk 24 (by decide) 4 (by decide) (k0_off236 k) (k0_off236_eq k) (k0_off236_inb k) l)
        (load_val m d L hidx k.val hk 25 (by decide) 4 (by decide) (k0_off237 k) (k0_off237_eq k) (k0_off237_inb k) l)
        (load_val m d L hidx k.val hk 26 (by decide) 4 (by decide) (k0_off238 k) (k0_off238_eq k) (k0_off238_inb k) l)
        (load_val m d L hidx k.val hk 27 (by decide) 4 (by decide) (k0_off239 k) (k0_off239_eq k) (k0_off239_inb k) l)
        (load_val m d L hidx k.val hk 28 (by decide) 4 (by decide) (k0_off240 k) (k0_off240_eq k) (k0_off240_inb k) l)
        (load_val m d L hidx k.val hk 29 (by decide) 4 (by decide) (k0_off241 k) (k0_off241_eq k) (k0_off241_inb k) l)
        (load_val m d L hidx k.val hk 30 (by decide) 4 (by decide) (k0_off242 k) (k0_off242_eq k) (k0_off242_inb k) l)
        (load_val m d L hidx k.val hk 31 (by decide) 4 (by decide) (k0_off243 k) (k0_off243_eq k) (k0_off243_inb k) l)
        (load_val m d L hidx k.val hk 32 (by decide) 4 (by decide) (k0_off244 k) (k0_off244_eq k) (k0_off244_inb k) l)
        (load_val m d L hidx k.val hk 33 (by decide) 4 (by decide) (k0_off245 k) (k0_off245_eq k) (k0_off245_inb k) l)
        (load_val m d L hidx k.val hk 34 (by decide) 4 (by decide) (k0_off246 k) (k0_off246_eq k) (k0_off246_inb k) l)
        (load_val m d L hidx k.val hk 35 (by decide) 4 (by decide) (k0_off247 k) (k0_off247_eq k) (k0_off247_inb k) l)
        (load_val m d L hidx k.val hk 36 (by decide) 4 (by decide) (k0_off248 k) (k0_off248_eq k) (k0_off248_inb k) l)
        (load_val m d L hidx k.val hk 37 (by decide) 4 (by decide) (k0_off249 k) (k0_off249_eq k) (k0_off249_inb k) l)
        (load_val m d L hidx k.val hk 38 (by decide) 4 (by decide) (k0_off250 k) (k0_off250_eq k) (k0_off250_inb k) l)
        (load_val m d L hidx k.val hk 39 (by decide) 4 (by decide) (k0_off251 k) (k0_off251_eq k) (k0_off251_inb k) l)
        (load_val m d L hidx k.val hk 40 (by decide) 4 (by decide) (k0_off252 k) (k0_off252_eq k) (k0_off252_inb k) l)
        (load_val m d L hidx k.val hk 41 (by decide) 4 (by decide) (k0_off253 k) (k0_off253_eq k) (k0_off253_inb k) l)
        (load_val m d L hidx k.val hk 42 (by decide) 4 (by decide) (k0_off254 k) (k0_off254_eq k) (k0_off254_inb k) l)
        (load_val m d L hidx k.val hk 43 (by decide) 4 (by decide) (k0_off255 k) (k0_off255_eq k) (k0_off255_inb k) l)
        (load_val m d L hidx k.val hk 44 (by decide) 4 (by decide) (k0_off256 k) (k0_off256_eq k) (k0_off256_inb k) l)
        (load_val m d L hidx k.val hk 45 (by decide) 4 (by decide) (k0_off257 k) (k0_off257_eq k) (k0_off257_inb k) l)
        (load_val m d L hidx k.val hk 46 (by decide) 4 (by decide) (k0_off258 k) (k0_off258_eq k) (k0_off258_inb k) l)
        (load_val m d L hidx k.val hk 47 (by decide) 4 (by decide) (k0_off259 k) (k0_off259_eq k) (k0_off259_inb k) l)
        (load_val m d L hidx k.val hk 48 (by decide) 4 (by decide) (k0_off260 k) (k0_off260_eq k) (k0_off260_inb k) l)
        (load_val m d L hidx k.val hk 49 (by decide) 4 (by decide) (k0_off261 k) (k0_off261_eq k) (k0_off261_inb k) l)).trans
      (pool_emb m d L k.val hk ⟨16 * 4 + l.val, lane_lt 4 l⟩).symm)
    (fun l => (chain3_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 3 + l.val, lane_lt 3 l⟩)
        (load_val m d L hidx k.val hk 0 (by decide) 3 (by decide) (k0_off161 k) (k0_off161_eq k) (k0_off161_inb k) l)
        (load_val m d L hidx k.val hk 1 (by decide) 3 (by decide) (k0_off162 k) (k0_off162_eq k) (k0_off162_inb k) l)
        (load_val m d L hidx k.val hk 2 (by decide) 3 (by decide) (k0_off163 k) (k0_off163_eq k) (k0_off163_inb k) l)
        (load_val m d L hidx k.val hk 3 (by decide) 3 (by decide) (k0_off164 k) (k0_off164_eq k) (k0_off164_inb k) l)
        (load_val m d L hidx k.val hk 4 (by decide) 3 (by decide) (k0_off165 k) (k0_off165_eq k) (k0_off165_inb k) l)
        (load_val m d L hidx k.val hk 5 (by decide) 3 (by decide) (k0_off166 k) (k0_off166_eq k) (k0_off166_inb k) l)
        (load_val m d L hidx k.val hk 6 (by decide) 3 (by decide) (k0_off167 k) (k0_off167_eq k) (k0_off167_inb k) l)
        (load_val m d L hidx k.val hk 7 (by decide) 3 (by decide) (k0_off168 k) (k0_off168_eq k) (k0_off168_inb k) l)
        (load_val m d L hidx k.val hk 8 (by decide) 3 (by decide) (k0_off169 k) (k0_off169_eq k) (k0_off169_inb k) l)
        (load_val m d L hidx k.val hk 9 (by decide) 3 (by decide) (k0_off170 k) (k0_off170_eq k) (k0_off170_inb k) l)
        (load_val m d L hidx k.val hk 10 (by decide) 3 (by decide) (k0_off171 k) (k0_off171_eq k) (k0_off171_inb k) l)
        (load_val m d L hidx k.val hk 11 (by decide) 3 (by decide) (k0_off172 k) (k0_off172_eq k) (k0_off172_inb k) l)
        (load_val m d L hidx k.val hk 12 (by decide) 3 (by decide) (k0_off173 k) (k0_off173_eq k) (k0_off173_inb k) l)
        (load_val m d L hidx k.val hk 13 (by decide) 3 (by decide) (k0_off174 k) (k0_off174_eq k) (k0_off174_inb k) l)
        (load_val m d L hidx k.val hk 14 (by decide) 3 (by decide) (k0_off175 k) (k0_off175_eq k) (k0_off175_inb k) l)
        (load_val m d L hidx k.val hk 15 (by decide) 3 (by decide) (k0_off176 k) (k0_off176_eq k) (k0_off176_inb k) l)
        (load_val m d L hidx k.val hk 16 (by decide) 3 (by decide) (k0_off177 k) (k0_off177_eq k) (k0_off177_inb k) l)
        (load_val m d L hidx k.val hk 17 (by decide) 3 (by decide) (k0_off178 k) (k0_off178_eq k) (k0_off178_inb k) l)
        (load_val m d L hidx k.val hk 18 (by decide) 3 (by decide) (k0_off179 k) (k0_off179_eq k) (k0_off179_inb k) l)
        (load_val m d L hidx k.val hk 19 (by decide) 3 (by decide) (k0_off180 k) (k0_off180_eq k) (k0_off180_inb k) l)
        (load_val m d L hidx k.val hk 20 (by decide) 3 (by decide) (k0_off181 k) (k0_off181_eq k) (k0_off181_inb k) l)
        (load_val m d L hidx k.val hk 21 (by decide) 3 (by decide) (k0_off182 k) (k0_off182_eq k) (k0_off182_inb k) l)
        (load_val m d L hidx k.val hk 22 (by decide) 3 (by decide) (k0_off183 k) (k0_off183_eq k) (k0_off183_inb k) l)
        (load_val m d L hidx k.val hk 23 (by decide) 3 (by decide) (k0_off184 k) (k0_off184_eq k) (k0_off184_inb k) l)
        (load_val m d L hidx k.val hk 24 (by decide) 3 (by decide) (k0_off185 k) (k0_off185_eq k) (k0_off185_inb k) l)
        (load_val m d L hidx k.val hk 25 (by decide) 3 (by decide) (k0_off186 k) (k0_off186_eq k) (k0_off186_inb k) l)
        (load_val m d L hidx k.val hk 26 (by decide) 3 (by decide) (k0_off187 k) (k0_off187_eq k) (k0_off187_inb k) l)
        (load_val m d L hidx k.val hk 27 (by decide) 3 (by decide) (k0_off188 k) (k0_off188_eq k) (k0_off188_inb k) l)
        (load_val m d L hidx k.val hk 28 (by decide) 3 (by decide) (k0_off189 k) (k0_off189_eq k) (k0_off189_inb k) l)
        (load_val m d L hidx k.val hk 29 (by decide) 3 (by decide) (k0_off190 k) (k0_off190_eq k) (k0_off190_inb k) l)
        (load_val m d L hidx k.val hk 30 (by decide) 3 (by decide) (k0_off191 k) (k0_off191_eq k) (k0_off191_inb k) l)
        (load_val m d L hidx k.val hk 31 (by decide) 3 (by decide) (k0_off192 k) (k0_off192_eq k) (k0_off192_inb k) l)
        (load_val m d L hidx k.val hk 32 (by decide) 3 (by decide) (k0_off193 k) (k0_off193_eq k) (k0_off193_inb k) l)
        (load_val m d L hidx k.val hk 33 (by decide) 3 (by decide) (k0_off194 k) (k0_off194_eq k) (k0_off194_inb k) l)
        (load_val m d L hidx k.val hk 34 (by decide) 3 (by decide) (k0_off195 k) (k0_off195_eq k) (k0_off195_inb k) l)
        (load_val m d L hidx k.val hk 35 (by decide) 3 (by decide) (k0_off196 k) (k0_off196_eq k) (k0_off196_inb k) l)
        (load_val m d L hidx k.val hk 36 (by decide) 3 (by decide) (k0_off197 k) (k0_off197_eq k) (k0_off197_inb k) l)
        (load_val m d L hidx k.val hk 37 (by decide) 3 (by decide) (k0_off198 k) (k0_off198_eq k) (k0_off198_inb k) l)
        (load_val m d L hidx k.val hk 38 (by decide) 3 (by decide) (k0_off199 k) (k0_off199_eq k) (k0_off199_inb k) l)
        (load_val m d L hidx k.val hk 39 (by decide) 3 (by decide) (k0_off200 k) (k0_off200_eq k) (k0_off200_inb k) l)
        (load_val m d L hidx k.val hk 40 (by decide) 3 (by decide) (k0_off201 k) (k0_off201_eq k) (k0_off201_inb k) l)
        (load_val m d L hidx k.val hk 41 (by decide) 3 (by decide) (k0_off202 k) (k0_off202_eq k) (k0_off202_inb k) l)
        (load_val m d L hidx k.val hk 42 (by decide) 3 (by decide) (k0_off203 k) (k0_off203_eq k) (k0_off203_inb k) l)
        (load_val m d L hidx k.val hk 43 (by decide) 3 (by decide) (k0_off204 k) (k0_off204_eq k) (k0_off204_inb k) l)
        (load_val m d L hidx k.val hk 44 (by decide) 3 (by decide) (k0_off205 k) (k0_off205_eq k) (k0_off205_inb k) l)
        (load_val m d L hidx k.val hk 45 (by decide) 3 (by decide) (k0_off206 k) (k0_off206_eq k) (k0_off206_inb k) l)
        (load_val m d L hidx k.val hk 46 (by decide) 3 (by decide) (k0_off207 k) (k0_off207_eq k) (k0_off207_inb k) l)
        (load_val m d L hidx k.val hk 47 (by decide) 3 (by decide) (k0_off208 k) (k0_off208_eq k) (k0_off208_inb k) l)
        (load_val m d L hidx k.val hk 48 (by decide) 3 (by decide) (k0_off209 k) (k0_off209_eq k) (k0_off209_inb k) l)
        (load_val m d L hidx k.val hk 49 (by decide) 3 (by decide) (k0_off210 k) (k0_off210_eq k) (k0_off210_inb k) l)).trans
      (pool_emb m d L k.val hk ⟨16 * 3 + l.val, lane_lt 3 l⟩).symm)
    (fun l => (chain2_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 2 + l.val, lane_lt 2 l⟩)
        (load_val m d L hidx k.val hk 0 (by decide) 2 (by decide) (k0_off110 k) (k0_off110_eq k) (k0_off110_inb k) l)
        (load_val m d L hidx k.val hk 1 (by decide) 2 (by decide) (k0_off111 k) (k0_off111_eq k) (k0_off111_inb k) l)
        (load_val m d L hidx k.val hk 2 (by decide) 2 (by decide) (k0_off112 k) (k0_off112_eq k) (k0_off112_inb k) l)
        (load_val m d L hidx k.val hk 3 (by decide) 2 (by decide) (k0_off113 k) (k0_off113_eq k) (k0_off113_inb k) l)
        (load_val m d L hidx k.val hk 4 (by decide) 2 (by decide) (k0_off114 k) (k0_off114_eq k) (k0_off114_inb k) l)
        (load_val m d L hidx k.val hk 5 (by decide) 2 (by decide) (k0_off115 k) (k0_off115_eq k) (k0_off115_inb k) l)
        (load_val m d L hidx k.val hk 6 (by decide) 2 (by decide) (k0_off116 k) (k0_off116_eq k) (k0_off116_inb k) l)
        (load_val m d L hidx k.val hk 7 (by decide) 2 (by decide) (k0_off117 k) (k0_off117_eq k) (k0_off117_inb k) l)
        (load_val m d L hidx k.val hk 8 (by decide) 2 (by decide) (k0_off118 k) (k0_off118_eq k) (k0_off118_inb k) l)
        (load_val m d L hidx k.val hk 9 (by decide) 2 (by decide) (k0_off119 k) (k0_off119_eq k) (k0_off119_inb k) l)
        (load_val m d L hidx k.val hk 10 (by decide) 2 (by decide) (k0_off120 k) (k0_off120_eq k) (k0_off120_inb k) l)
        (load_val m d L hidx k.val hk 11 (by decide) 2 (by decide) (k0_off121 k) (k0_off121_eq k) (k0_off121_inb k) l)
        (load_val m d L hidx k.val hk 12 (by decide) 2 (by decide) (k0_off122 k) (k0_off122_eq k) (k0_off122_inb k) l)
        (load_val m d L hidx k.val hk 13 (by decide) 2 (by decide) (k0_off123 k) (k0_off123_eq k) (k0_off123_inb k) l)
        (load_val m d L hidx k.val hk 14 (by decide) 2 (by decide) (k0_off124 k) (k0_off124_eq k) (k0_off124_inb k) l)
        (load_val m d L hidx k.val hk 15 (by decide) 2 (by decide) (k0_off125 k) (k0_off125_eq k) (k0_off125_inb k) l)
        (load_val m d L hidx k.val hk 16 (by decide) 2 (by decide) (k0_off126 k) (k0_off126_eq k) (k0_off126_inb k) l)
        (load_val m d L hidx k.val hk 17 (by decide) 2 (by decide) (k0_off127 k) (k0_off127_eq k) (k0_off127_inb k) l)
        (load_val m d L hidx k.val hk 18 (by decide) 2 (by decide) (k0_off128 k) (k0_off128_eq k) (k0_off128_inb k) l)
        (load_val m d L hidx k.val hk 19 (by decide) 2 (by decide) (k0_off129 k) (k0_off129_eq k) (k0_off129_inb k) l)
        (load_val m d L hidx k.val hk 20 (by decide) 2 (by decide) (k0_off130 k) (k0_off130_eq k) (k0_off130_inb k) l)
        (load_val m d L hidx k.val hk 21 (by decide) 2 (by decide) (k0_off131 k) (k0_off131_eq k) (k0_off131_inb k) l)
        (load_val m d L hidx k.val hk 22 (by decide) 2 (by decide) (k0_off132 k) (k0_off132_eq k) (k0_off132_inb k) l)
        (load_val m d L hidx k.val hk 23 (by decide) 2 (by decide) (k0_off133 k) (k0_off133_eq k) (k0_off133_inb k) l)
        (load_val m d L hidx k.val hk 24 (by decide) 2 (by decide) (k0_off134 k) (k0_off134_eq k) (k0_off134_inb k) l)
        (load_val m d L hidx k.val hk 25 (by decide) 2 (by decide) (k0_off135 k) (k0_off135_eq k) (k0_off135_inb k) l)
        (load_val m d L hidx k.val hk 26 (by decide) 2 (by decide) (k0_off136 k) (k0_off136_eq k) (k0_off136_inb k) l)
        (load_val m d L hidx k.val hk 27 (by decide) 2 (by decide) (k0_off137 k) (k0_off137_eq k) (k0_off137_inb k) l)
        (load_val m d L hidx k.val hk 28 (by decide) 2 (by decide) (k0_off138 k) (k0_off138_eq k) (k0_off138_inb k) l)
        (load_val m d L hidx k.val hk 29 (by decide) 2 (by decide) (k0_off139 k) (k0_off139_eq k) (k0_off139_inb k) l)
        (load_val m d L hidx k.val hk 30 (by decide) 2 (by decide) (k0_off140 k) (k0_off140_eq k) (k0_off140_inb k) l)
        (load_val m d L hidx k.val hk 31 (by decide) 2 (by decide) (k0_off141 k) (k0_off141_eq k) (k0_off141_inb k) l)
        (load_val m d L hidx k.val hk 32 (by decide) 2 (by decide) (k0_off142 k) (k0_off142_eq k) (k0_off142_inb k) l)
        (load_val m d L hidx k.val hk 33 (by decide) 2 (by decide) (k0_off143 k) (k0_off143_eq k) (k0_off143_inb k) l)
        (load_val m d L hidx k.val hk 34 (by decide) 2 (by decide) (k0_off144 k) (k0_off144_eq k) (k0_off144_inb k) l)
        (load_val m d L hidx k.val hk 35 (by decide) 2 (by decide) (k0_off145 k) (k0_off145_eq k) (k0_off145_inb k) l)
        (load_val m d L hidx k.val hk 36 (by decide) 2 (by decide) (k0_off146 k) (k0_off146_eq k) (k0_off146_inb k) l)
        (load_val m d L hidx k.val hk 37 (by decide) 2 (by decide) (k0_off147 k) (k0_off147_eq k) (k0_off147_inb k) l)
        (load_val m d L hidx k.val hk 38 (by decide) 2 (by decide) (k0_off148 k) (k0_off148_eq k) (k0_off148_inb k) l)
        (load_val m d L hidx k.val hk 39 (by decide) 2 (by decide) (k0_off149 k) (k0_off149_eq k) (k0_off149_inb k) l)
        (load_val m d L hidx k.val hk 40 (by decide) 2 (by decide) (k0_off150 k) (k0_off150_eq k) (k0_off150_inb k) l)
        (load_val m d L hidx k.val hk 41 (by decide) 2 (by decide) (k0_off151 k) (k0_off151_eq k) (k0_off151_inb k) l)
        (load_val m d L hidx k.val hk 42 (by decide) 2 (by decide) (k0_off152 k) (k0_off152_eq k) (k0_off152_inb k) l)
        (load_val m d L hidx k.val hk 43 (by decide) 2 (by decide) (k0_off153 k) (k0_off153_eq k) (k0_off153_inb k) l)
        (load_val m d L hidx k.val hk 44 (by decide) 2 (by decide) (k0_off154 k) (k0_off154_eq k) (k0_off154_inb k) l)
        (load_val m d L hidx k.val hk 45 (by decide) 2 (by decide) (k0_off155 k) (k0_off155_eq k) (k0_off155_inb k) l)
        (load_val m d L hidx k.val hk 46 (by decide) 2 (by decide) (k0_off156 k) (k0_off156_eq k) (k0_off156_inb k) l)
        (load_val m d L hidx k.val hk 47 (by decide) 2 (by decide) (k0_off157 k) (k0_off157_eq k) (k0_off157_inb k) l)
        (load_val m d L hidx k.val hk 48 (by decide) 2 (by decide) (k0_off158 k) (k0_off158_eq k) (k0_off158_inb k) l)
        (load_val m d L hidx k.val hk 49 (by decide) 2 (by decide) (k0_off159 k) (k0_off159_eq k) (k0_off159_inb k) l)).trans
      (pool_emb m d L k.val hk ⟨16 * 2 + l.val, lane_lt 2 l⟩).symm)
    (fun l => (chain1_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 1 + l.val, lane_lt 1 l⟩)
        (load_val m d L hidx k.val hk 0 (by decide) 1 (by decide) (k0_off59 k) (k0_off59_eq k) (k0_off59_inb k) l)
        (load_val m d L hidx k.val hk 1 (by decide) 1 (by decide) (k0_off60 k) (k0_off60_eq k) (k0_off60_inb k) l)
        (load_val m d L hidx k.val hk 2 (by decide) 1 (by decide) (k0_off61 k) (k0_off61_eq k) (k0_off61_inb k) l)
        (load_val m d L hidx k.val hk 3 (by decide) 1 (by decide) (k0_off62 k) (k0_off62_eq k) (k0_off62_inb k) l)
        (load_val m d L hidx k.val hk 4 (by decide) 1 (by decide) (k0_off63 k) (k0_off63_eq k) (k0_off63_inb k) l)
        (load_val m d L hidx k.val hk 5 (by decide) 1 (by decide) (k0_off64 k) (k0_off64_eq k) (k0_off64_inb k) l)
        (load_val m d L hidx k.val hk 6 (by decide) 1 (by decide) (k0_off65 k) (k0_off65_eq k) (k0_off65_inb k) l)
        (load_val m d L hidx k.val hk 7 (by decide) 1 (by decide) (k0_off66 k) (k0_off66_eq k) (k0_off66_inb k) l)
        (load_val m d L hidx k.val hk 8 (by decide) 1 (by decide) (k0_off67 k) (k0_off67_eq k) (k0_off67_inb k) l)
        (load_val m d L hidx k.val hk 9 (by decide) 1 (by decide) (k0_off68 k) (k0_off68_eq k) (k0_off68_inb k) l)
        (load_val m d L hidx k.val hk 10 (by decide) 1 (by decide) (k0_off69 k) (k0_off69_eq k) (k0_off69_inb k) l)
        (load_val m d L hidx k.val hk 11 (by decide) 1 (by decide) (k0_off70 k) (k0_off70_eq k) (k0_off70_inb k) l)
        (load_val m d L hidx k.val hk 12 (by decide) 1 (by decide) (k0_off71 k) (k0_off71_eq k) (k0_off71_inb k) l)
        (load_val m d L hidx k.val hk 13 (by decide) 1 (by decide) (k0_off72 k) (k0_off72_eq k) (k0_off72_inb k) l)
        (load_val m d L hidx k.val hk 14 (by decide) 1 (by decide) (k0_off73 k) (k0_off73_eq k) (k0_off73_inb k) l)
        (load_val m d L hidx k.val hk 15 (by decide) 1 (by decide) (k0_off74 k) (k0_off74_eq k) (k0_off74_inb k) l)
        (load_val m d L hidx k.val hk 16 (by decide) 1 (by decide) (k0_off75 k) (k0_off75_eq k) (k0_off75_inb k) l)
        (load_val m d L hidx k.val hk 17 (by decide) 1 (by decide) (k0_off76 k) (k0_off76_eq k) (k0_off76_inb k) l)
        (load_val m d L hidx k.val hk 18 (by decide) 1 (by decide) (k0_off77 k) (k0_off77_eq k) (k0_off77_inb k) l)
        (load_val m d L hidx k.val hk 19 (by decide) 1 (by decide) (k0_off78 k) (k0_off78_eq k) (k0_off78_inb k) l)
        (load_val m d L hidx k.val hk 20 (by decide) 1 (by decide) (k0_off79 k) (k0_off79_eq k) (k0_off79_inb k) l)
        (load_val m d L hidx k.val hk 21 (by decide) 1 (by decide) (k0_off80 k) (k0_off80_eq k) (k0_off80_inb k) l)
        (load_val m d L hidx k.val hk 22 (by decide) 1 (by decide) (k0_off81 k) (k0_off81_eq k) (k0_off81_inb k) l)
        (load_val m d L hidx k.val hk 23 (by decide) 1 (by decide) (k0_off82 k) (k0_off82_eq k) (k0_off82_inb k) l)
        (load_val m d L hidx k.val hk 24 (by decide) 1 (by decide) (k0_off83 k) (k0_off83_eq k) (k0_off83_inb k) l)
        (load_val m d L hidx k.val hk 25 (by decide) 1 (by decide) (k0_off84 k) (k0_off84_eq k) (k0_off84_inb k) l)
        (load_val m d L hidx k.val hk 26 (by decide) 1 (by decide) (k0_off85 k) (k0_off85_eq k) (k0_off85_inb k) l)
        (load_val m d L hidx k.val hk 27 (by decide) 1 (by decide) (k0_off86 k) (k0_off86_eq k) (k0_off86_inb k) l)
        (load_val m d L hidx k.val hk 28 (by decide) 1 (by decide) (k0_off87 k) (k0_off87_eq k) (k0_off87_inb k) l)
        (load_val m d L hidx k.val hk 29 (by decide) 1 (by decide) (k0_off88 k) (k0_off88_eq k) (k0_off88_inb k) l)
        (load_val m d L hidx k.val hk 30 (by decide) 1 (by decide) (k0_off89 k) (k0_off89_eq k) (k0_off89_inb k) l)
        (load_val m d L hidx k.val hk 31 (by decide) 1 (by decide) (k0_off90 k) (k0_off90_eq k) (k0_off90_inb k) l)
        (load_val m d L hidx k.val hk 32 (by decide) 1 (by decide) (k0_off91 k) (k0_off91_eq k) (k0_off91_inb k) l)
        (load_val m d L hidx k.val hk 33 (by decide) 1 (by decide) (k0_off92 k) (k0_off92_eq k) (k0_off92_inb k) l)
        (load_val m d L hidx k.val hk 34 (by decide) 1 (by decide) (k0_off93 k) (k0_off93_eq k) (k0_off93_inb k) l)
        (load_val m d L hidx k.val hk 35 (by decide) 1 (by decide) (k0_off94 k) (k0_off94_eq k) (k0_off94_inb k) l)
        (load_val m d L hidx k.val hk 36 (by decide) 1 (by decide) (k0_off95 k) (k0_off95_eq k) (k0_off95_inb k) l)
        (load_val m d L hidx k.val hk 37 (by decide) 1 (by decide) (k0_off96 k) (k0_off96_eq k) (k0_off96_inb k) l)
        (load_val m d L hidx k.val hk 38 (by decide) 1 (by decide) (k0_off97 k) (k0_off97_eq k) (k0_off97_inb k) l)
        (load_val m d L hidx k.val hk 39 (by decide) 1 (by decide) (k0_off98 k) (k0_off98_eq k) (k0_off98_inb k) l)
        (load_val m d L hidx k.val hk 40 (by decide) 1 (by decide) (k0_off99 k) (k0_off99_eq k) (k0_off99_inb k) l)
        (load_val m d L hidx k.val hk 41 (by decide) 1 (by decide) (k0_off100 k) (k0_off100_eq k) (k0_off100_inb k) l)
        (load_val m d L hidx k.val hk 42 (by decide) 1 (by decide) (k0_off101 k) (k0_off101_eq k) (k0_off101_inb k) l)
        (load_val m d L hidx k.val hk 43 (by decide) 1 (by decide) (k0_off102 k) (k0_off102_eq k) (k0_off102_inb k) l)
        (load_val m d L hidx k.val hk 44 (by decide) 1 (by decide) (k0_off103 k) (k0_off103_eq k) (k0_off103_inb k) l)
        (load_val m d L hidx k.val hk 45 (by decide) 1 (by decide) (k0_off104 k) (k0_off104_eq k) (k0_off104_inb k) l)
        (load_val m d L hidx k.val hk 46 (by decide) 1 (by decide) (k0_off105 k) (k0_off105_eq k) (k0_off105_inb k) l)
        (load_val m d L hidx k.val hk 47 (by decide) 1 (by decide) (k0_off106 k) (k0_off106_eq k) (k0_off106_inb k) l)
        (load_val m d L hidx k.val hk 48 (by decide) 1 (by decide) (k0_off107 k) (k0_off107_eq k) (k0_off107_inb k) l)
        (load_val m d L hidx k.val hk 49 (by decide) 1 (by decide) (k0_off108 k) (k0_off108_eq k) (k0_off108_inb k) l)).trans
      (pool_emb m d L k.val hk ⟨16 * 1 + l.val, lane_lt 1 l⟩).symm)
    (fun l => (chain0_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 0 + l.val, lane_lt 0 l⟩)
        (load_val m d L hidx k.val hk 0 (by decide) 0 (by decide) (k0_off8 k) (k0_off8_eq k) (k0_off8_inb k) l)
        (load_val m d L hidx k.val hk 1 (by decide) 0 (by decide) (k0_off9 k) (k0_off9_eq k) (k0_off9_inb k) l)
        (load_val m d L hidx k.val hk 2 (by decide) 0 (by decide) (k0_off10 k) (k0_off10_eq k) (k0_off10_inb k) l)
        (load_val m d L hidx k.val hk 3 (by decide) 0 (by decide) (k0_off11 k) (k0_off11_eq k) (k0_off11_inb k) l)
        (load_val m d L hidx k.val hk 4 (by decide) 0 (by decide) (k0_off12 k) (k0_off12_eq k) (k0_off12_inb k) l)
        (load_val m d L hidx k.val hk 5 (by decide) 0 (by decide) (k0_off13 k) (k0_off13_eq k) (k0_off13_inb k) l)
        (load_val m d L hidx k.val hk 6 (by decide) 0 (by decide) (k0_off14 k) (k0_off14_eq k) (k0_off14_inb k) l)
        (load_val m d L hidx k.val hk 7 (by decide) 0 (by decide) (k0_off15 k) (k0_off15_eq k) (k0_off15_inb k) l)
        (load_val m d L hidx k.val hk 8 (by decide) 0 (by decide) (k0_off16 k) (k0_off16_eq k) (k0_off16_inb k) l)
        (load_val m d L hidx k.val hk 9 (by decide) 0 (by decide) (k0_off17 k) (k0_off17_eq k) (k0_off17_inb k) l)
        (load_val m d L hidx k.val hk 10 (by decide) 0 (by decide) (k0_off18 k) (k0_off18_eq k) (k0_off18_inb k) l)
        (load_val m d L hidx k.val hk 11 (by decide) 0 (by decide) (k0_off19 k) (k0_off19_eq k) (k0_off19_inb k) l)
        (load_val m d L hidx k.val hk 12 (by decide) 0 (by decide) (k0_off20 k) (k0_off20_eq k) (k0_off20_inb k) l)
        (load_val m d L hidx k.val hk 13 (by decide) 0 (by decide) (k0_off21 k) (k0_off21_eq k) (k0_off21_inb k) l)
        (load_val m d L hidx k.val hk 14 (by decide) 0 (by decide) (k0_off22 k) (k0_off22_eq k) (k0_off22_inb k) l)
        (load_val m d L hidx k.val hk 15 (by decide) 0 (by decide) (k0_off23 k) (k0_off23_eq k) (k0_off23_inb k) l)
        (load_val m d L hidx k.val hk 16 (by decide) 0 (by decide) (k0_off24 k) (k0_off24_eq k) (k0_off24_inb k) l)
        (load_val m d L hidx k.val hk 17 (by decide) 0 (by decide) (k0_off25 k) (k0_off25_eq k) (k0_off25_inb k) l)
        (load_val m d L hidx k.val hk 18 (by decide) 0 (by decide) (k0_off26 k) (k0_off26_eq k) (k0_off26_inb k) l)
        (load_val m d L hidx k.val hk 19 (by decide) 0 (by decide) (k0_off27 k) (k0_off27_eq k) (k0_off27_inb k) l)
        (load_val m d L hidx k.val hk 20 (by decide) 0 (by decide) (k0_off28 k) (k0_off28_eq k) (k0_off28_inb k) l)
        (load_val m d L hidx k.val hk 21 (by decide) 0 (by decide) (k0_off29 k) (k0_off29_eq k) (k0_off29_inb k) l)
        (load_val m d L hidx k.val hk 22 (by decide) 0 (by decide) (k0_off30 k) (k0_off30_eq k) (k0_off30_inb k) l)
        (load_val m d L hidx k.val hk 23 (by decide) 0 (by decide) (k0_off31 k) (k0_off31_eq k) (k0_off31_inb k) l)
        (load_val m d L hidx k.val hk 24 (by decide) 0 (by decide) (k0_off32 k) (k0_off32_eq k) (k0_off32_inb k) l)
        (load_val m d L hidx k.val hk 25 (by decide) 0 (by decide) (k0_off33 k) (k0_off33_eq k) (k0_off33_inb k) l)
        (load_val m d L hidx k.val hk 26 (by decide) 0 (by decide) (k0_off34 k) (k0_off34_eq k) (k0_off34_inb k) l)
        (load_val m d L hidx k.val hk 27 (by decide) 0 (by decide) (k0_off35 k) (k0_off35_eq k) (k0_off35_inb k) l)
        (load_val m d L hidx k.val hk 28 (by decide) 0 (by decide) (k0_off36 k) (k0_off36_eq k) (k0_off36_inb k) l)
        (load_val m d L hidx k.val hk 29 (by decide) 0 (by decide) (k0_off37 k) (k0_off37_eq k) (k0_off37_inb k) l)
        (load_val m d L hidx k.val hk 30 (by decide) 0 (by decide) (k0_off38 k) (k0_off38_eq k) (k0_off38_inb k) l)
        (load_val m d L hidx k.val hk 31 (by decide) 0 (by decide) (k0_off39 k) (k0_off39_eq k) (k0_off39_inb k) l)
        (load_val m d L hidx k.val hk 32 (by decide) 0 (by decide) (k0_off40 k) (k0_off40_eq k) (k0_off40_inb k) l)
        (load_val m d L hidx k.val hk 33 (by decide) 0 (by decide) (k0_off41 k) (k0_off41_eq k) (k0_off41_inb k) l)
        (load_val m d L hidx k.val hk 34 (by decide) 0 (by decide) (k0_off42 k) (k0_off42_eq k) (k0_off42_inb k) l)
        (load_val m d L hidx k.val hk 35 (by decide) 0 (by decide) (k0_off43 k) (k0_off43_eq k) (k0_off43_inb k) l)
        (load_val m d L hidx k.val hk 36 (by decide) 0 (by decide) (k0_off44 k) (k0_off44_eq k) (k0_off44_inb k) l)
        (load_val m d L hidx k.val hk 37 (by decide) 0 (by decide) (k0_off45 k) (k0_off45_eq k) (k0_off45_inb k) l)
        (load_val m d L hidx k.val hk 38 (by decide) 0 (by decide) (k0_off46 k) (k0_off46_eq k) (k0_off46_inb k) l)
        (load_val m d L hidx k.val hk 39 (by decide) 0 (by decide) (k0_off47 k) (k0_off47_eq k) (k0_off47_inb k) l)
        (load_val m d L hidx k.val hk 40 (by decide) 0 (by decide) (k0_off48 k) (k0_off48_eq k) (k0_off48_inb k) l)
        (load_val m d L hidx k.val hk 41 (by decide) 0 (by decide) (k0_off49 k) (k0_off49_eq k) (k0_off49_inb k) l)
        (load_val m d L hidx k.val hk 42 (by decide) 0 (by decide) (k0_off50 k) (k0_off50_eq k) (k0_off50_inb k) l)
        (load_val m d L hidx k.val hk 43 (by decide) 0 (by decide) (k0_off51 k) (k0_off51_eq k) (k0_off51_inb k) l)
        (load_val m d L hidx k.val hk 44 (by decide) 0 (by decide) (k0_off52 k) (k0_off52_eq k) (k0_off52_inb k) l)
        (load_val m d L hidx k.val hk 45 (by decide) 0 (by decide) (k0_off53 k) (k0_off53_eq k) (k0_off53_inb k) l)
        (load_val m d L hidx k.val hk 46 (by decide) 0 (by decide) (k0_off54 k) (k0_off54_eq k) (k0_off54_inb k) l)
        (load_val m d L hidx k.val hk 47 (by decide) 0 (by decide) (k0_off55 k) (k0_off55_eq k) (k0_off55_inb k) l)
        (load_val m d L hidx k.val hk 48 (by decide) 0 (by decide) (k0_off56 k) (k0_off56_eq k) (k0_off56_inb k) l)
        (load_val m d L hidx k.val hk 49 (by decide) 0 (by decide) (k0_off57 k) (k0_off57_eq k) (k0_off57_inb k) l)).trans
      (pool_emb m d L k.val hk ⟨16 * 0 + l.val, lane_lt 0 l⟩).symm)

end Tile
end Cert.Proof.KI
end
-- ==== Proof.ScBody.lean ====
import proofs.«204135_g55705725829175_cont_9to1c4b_393_20_alg».proof.Proof.ScBodyValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

local notation "xV" => (Memref.whole Cert.KernelIdeal.main_arg1_scv : Memref Cert.KernelIdeal.sig Kind.scVector Space.hbm Cert.KernelIdeal.S100000x128 EltTy.f32)
local notation "iV" => (Memref.whole Cert.KernelIdeal.main_arg0_scv : Memref Cert.KernelIdeal.sig Kind.scVector Space.hbm Cert.KernelIdeal.S1024x50 EltTy.i32)
local notation "oV" => (Memref.whole Cert.KernelIdeal.main_v0_scv : Memref Cert.KernelIdeal.sig Kind.scVector Space.hbm Cert.KernelIdeal.S1024x128 EltTy.f32)
local notation "a5" => (Memref.whole Cert.KernelIdeal.cc0_scratch0 : Memref Cert.KernelIdeal.sig Kind.scVector Space.vmem Cert.KernelIdeal.S32x50 EltTy.i32)
local notation "a6" => (Memref.whole Cert.KernelIdeal.cc0_scratch1 : Memref Cert.KernelIdeal.sig Kind.scVector Space.vmem Cert.KernelIdeal.S4x50x128 EltTy.f32)
local notation "a7" => (Memref.whole Cert.KernelIdeal.cc0_scratch2 : Memref Cert.KernelIdeal.sig Kind.scVector Space.vmem Cert.KernelIdeal.S32x128 EltTy.f32)

section Tile
variable (d : Dev nD) (L : grid0.Coords)

variable [FloatOps F] [Named F]

set_option maxHeartbeats 4000000 in
theorem tile_body (hF : (K (F := F)).Facts) (hidx : IdxOK m) (O : CellTallies nD τ sig (HIx 1)) (W : Waits sig (HIx 1)) (hO : ∀ g, O g none = 0) :
    (iprop(levAts (K (F := F)).L (K (F := F)).lev ∗ emp ∗ goA m d (wid L) ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_pool_body L (Memref.whole main_arg1_scv) (Memref.isWhole_whole _) (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) cc0_scratch3 cc0_scoped0 cc0_scoped1)
          fun _ => iprop(tdA m d (wid L) ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0__sc_pool_body_eq_skeleton]; unfold cc0__sc_pool_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%f5, H5⟩, ⟨%f6, H6⟩, ⟨%f7, H7⟩, Hbufs⟩, ⟨HsA, HsB, Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave H5' := (Entails.of_eq (pts_a5 (F := F) d L _).symm) $$ H5
  ihave H6' := (Entails.of_eq (pts_a6 (F := F) d L _).symm) $$ H6
  ihave H7' := (Entails.of_eq (pts_a7 (F := F) d L _).symm) $$ H7
  sl_exec
  -- the index scratch holds the tile's block; quarters of it and of the table share, the four slots of the row scratch
  have e5 : View.write (Elt F) (a5).view f5 (tile_body.sl.dma0 m d L) Finset.univ = idxI m d L :=
    (View.write_whole_univ _ _ _).trans rfl
  ihave H5a := (Entails.of_eq (congrArg (fun g => ((a5).view.loc (V d (cV L) (jV L)) ↦{fullShare} g : sProp 𝕄)) e5)) $$ H5'
  ihave H5q := (pts_quarters (F := F) _ _ _).1 $$ H5a
  icases H5q with ⟨H50, H51, H52, H53⟩
  ihave Hxq := (pts_quarters (F := F) _ _ _).1 $$ Hx'
  icases Hxq with ⟨Hx0, Hx1, Hx2, Hx3⟩
  ihave H6q := (Entails.of_eq (a6_slots (F := F) d L f6)) $$ H6'
  icases H6q with ⟨H60, H61, H62, H63⟩
  ihave HF0 := (free_intro m d L (0 % 4) (mod4 0) f6) $$ [H60 Hs0 Hx0 H50]
  · isplitl [H60]; · iexact H60
    isplitl [Hs0]; · iexact Hs0
    isplitl [Hx0] <;> iassumption
  ihave HF1 := (free_intro m d L (1 % 4) (mod4 1) f6) $$ [H61 Hs1 Hx1 H51]
  · isplitl [H61]; · iexact H61
    isplitl [Hs1]; · iexact Hs1
    isplitl [Hx1] <;> iassumption
  ihave HF2 := (free_intro m d L (2 % 4) (mod4 2) f6) $$ [H62 Hs2 Hx2 H52]
  · isplitl [H62]; · iexact H62
    isplitl [Hs2]; · iexact Hs2
    isplitl [Hx2] <;> iassumption
  ihave HF3 := (free_intro m d L ((0 + 3) % 4) (mod4 (0 + 3)) f6) $$ [H63 Hs3 Hx3 H53]
  · isplitl [H63]; · iexact H63
    isplitl [Hs3]; · iexact Hs3
    isplitl [Hx3] <;> iassumption
  -- the three gathers started before the loop
  iapply (start_gather m d L hidx 0 (by norm_num)) $$ [HF0]; · iexact HF0
  iintro HG0
  sl_exec
  iapply (start_gather m d L hidx 1 (by norm_num)) $$ [HF1]; · iexact HF1
  iintro HG1
  sl_exec
  iapply (start_gather m d L hidx 2 (by norm_num)) $$ [HF2]; · iexact HF2
  iintro HG2
  sl_exec
  sl_for (inv m d L hidx f7 O W) $$ [Hmw HG0 HG1 HG2 HF3 H7' HO]
  case region =>
    intro k acc
    have hk : k.val < 32 := k.isLt
    unfold inv
    iintro ⟨#Hmw, HA, HB, HC, HD, H7, %W', %hW', HO⟩
    ihave HA' := (Entails.of_eq (FlyOrFree_lt m d L hidx hk)) $$ HA
    have hsem : ((cc0_scratch3.slice (Rect.unit (s := S4) (k0_off4 k) S1.size (k0_off4_inb k))).squeeze S_ squeezes_S1_S_).sem = (semN (k.val % 4) (mod4 k.val)).sem := by
      rw [SemArray.slice_unit_congr cc0_scratch3 (k0_off4_eq k) (k0_off4_inb k) (inb_semN _ (mod4 k.val))]
    by_cases hc : k0_cond1 k = 1#1
    · have hk3 : k.val + 3 < 32 := (cond_iff k).mp hc
      sl_exec
      iapply (wait_gather' m d L hidx k.val hk
          (dstw := ((a6).slice (Rect.unit (s := S4x50x128) (k0_off2 k) S1x50x128.size (k0_off2_inb k)) (fun _ => rfl)).squeeze S50x128 squeezes_S1x50x128_S50x128)
          hsem rfl) $$ [HA' HO]
      · isplitl [HA']; · iexact HA'
        isplitl [HO]; · iexact HO
        iexact Hmw
      iintro ⟨HL, HO⟩
      ihave HL' := (landed_open m d L hidx k.val hk) $$ HL
      icases HL' with ⟨Hslot, HLR⟩
      sl_exec
      iapply (start_gather' m d L hidx k hc hk3) $$ [HD]; · iexact HD
      iintro HG3
      sl_exec
      sl_step
      isplitl []; · iexact Hmw
      isplitl [HB]; · iexact HB
      isplitl [HC]; · iapply (Entails.of_eq (congrArg (fun t => (FlyOrFree m d L hidx t : sProp 𝕄)) (by omega : k.val + 2 = k.val + 1 + 1))); iexact HC
      isplitl [HG3]
      · iapply (Entails.of_eq ((congrArg (fun t => (FlyOrFree m d L hidx t : sProp 𝕄)) (by omega : k.val + 1 + 2 = k.val + 3)).trans (FlyOrFree_lt m d L hidx hk3)).symm); iexact HG3
      isplitl [Hslot HLR]
      · iapply (Entails.of_eq (Free_congr m d L (by omega : k.val % 4 = (k.val + 1 + 3) % 4) (mod4 _) (mod4 _)))
        iapply (lrest_free m d L k.val hk _); isplitl [Hslot] <;> iassumption
      isplitl [H7]
      · iapply (Entails.of_eq (congrArg (fun g => ((a7).view.loc (V d (cV L) (jV L)) ↦{fullShare} g : sProp 𝕄)) (?_ : _ = poolSt m d L f7 (k.val + 1))))
        swap; · iexact H7
        exact pool_trip m d L hidx f7 k hk
      iexists _; isplitr
      swap; · iexact HO
      ipureintro; intro p hp
      rcases Finset.mem_insert.mp hp with hp | hp; · exact .inr (hp ▸ rfl)
      exact hW' p hp
    · have hk3 : ¬ k.val + 1 + 2 < 32 := fun h => hc ((cond_iff k).mpr (by omega))
      sl_exec
      iapply (wait_gather' m d L hidx k.val hk
          (dstw := ((a6).slice (Rect.unit (s := S4x50x128) (k0_off2 k) S1x50x128.size (k0_off2_inb k)) (fun _ => rfl)).squeeze S50x128 squeezes_S1x50x128_S50x128)
          hsem rfl) $$ [HA' HO]
      · isplitl [HA']; · iexact HA'
        isplitl [HO]; · iexact HO
        iexact Hmw
      iintro ⟨HL, HO⟩
      ihave HL' := (landed_open m d L hidx k.val hk) $$ HL
      icases HL' with ⟨Hslot, HLR⟩
      sl_exec
      sl_step
      isplitl []; · iexact Hmw
      isplitl [HB]; · iexact HB
      isplitl [HC]; · iapply (Entails.of_eq (congrArg (fun t => (FlyOrFree m d L hidx t : sProp 𝕄)) (by omega : k.val + 2 = k.val + 1 + 1))); iexact HC
      isplitl [HD]
      · iapply (Entails.of_eq ((Free_congr m d L (by omega : (k.val + 3) % 4 = (k.val + 1 + 2) % 4) (mod4 _) (mod4 _)).trans (FlyOrFree_ge m d L hidx hk3).symm)); iexact HD
      isplitl [Hslot HLR]
      · iapply (Entails.of_eq (Free_congr m d L (by omega : k.val % 4 = (k.val + 1 + 3) % 4) (mod4 _) (mod4 _)))
        iapply (lrest_free m d L k.val hk _); isplitl [Hslot] <;> iassumption
      isplitl [H7]
      · iapply (Entails.of_eq (congrArg (fun g => ((a7).view.loc (V d (cV L) (jV L)) ↦{fullShare} g : sProp 𝕄)) (?_ : _ = poolSt m d L f7 (k.val + 1))))
        swap; · iexact H7
        exact pool_trip m d L hidx f7 k hk
      iexists _; isplitr
      swap; · iexact HO
      ipureintro; intro p hp
      rcases Finset.mem_insert.mp hp with hp | hp; · exact .inr (hp ▸ rfl)
      exact hW' p hp
  · unfold inv
    isplitl [Hmw]; · iexact Hmw
    isplitl [HG0]; · rw [FlyOrFree_lt m d L hidx (by norm_num : 0 < 32)]; iexact HG0
    isplitl [HG1]; · rw [FlyOrFree_lt m d L hidx (by norm_num : 0 + 1 < 32)]; iexact HG1
    isplitl [HG2]; · rw [FlyOrFree_lt m d L hidx (by norm_num : 0 + 2 < 32)]; iexact HG2
    isplitl [HF3]; · iexact HF3
    isplitl [H7']; · rw [poolSt_zero]; iexact H7'
    iexists _; isplitr
    swap; · iexact HO
    ipureintro; intro p hp
    rcases Finset.mem_insert.mp hp with hp | hp; · exact .inr (hp ▸ rfl)
    exact .inl hp
  iintro %_ HI
  unfold inv
  icases HI with ⟨-, HA, HB, HC, HD, H7, %W', %hW', HO⟩
  have ht : Scf.trips k0_t1_loop.lb k0_t1_loop.ub k0_t1_loop.st = 32 := rfl
  ihave HA := (Entails.of_eq ((congrArg (fun t => (FlyOrFree m d L hidx t : sProp 𝕄)) ht).trans (FlyOrFree_ge m d L hidx (b := 32) (by norm_num)))) $$ HA
  ihave HB := (Entails.of_eq ((congrArg (fun t => (FlyOrFree m d L hidx (t + 1) : sProp 𝕄)) ht).trans (FlyOrFree_ge m d L hidx (b := 32 + 1) (by norm_num)))) $$ HB
  ihave HC := (Entails.of_eq ((congrArg (fun t => (FlyOrFree m d L hidx (t + 2) : sProp 𝕄)) ht).trans (FlyOrFree_ge m d L hidx (b := 32 + 2) (by norm_num)))) $$ HC
  ihave H7 := (Entails.of_eq (congrArg (fun t => ((a7).view.loc (V d (cV L) (jV L)) ↦{fullShare} poolSt m d L f7 t : sProp 𝕄)) ht)) $$ H7
  ihave HA := (free_open m d L _ _) $$ HA
  icases HA with ⟨⟨%g0, H60⟩, Hs0, Hx0, H50⟩
  ihave HB := (free_open m d L _ _) $$ HB
  icases HB with ⟨⟨%g1, H61⟩, Hs1, Hx1, H51⟩
  ihave HC := (free_open m d L _ _) $$ HC
  icases HC with ⟨⟨%g2, H62⟩, Hs2, Hx2, H52⟩
  ihave HD := (Entails.of_eq (Free_congr m d L (n' := 3) (by rw [ht]) (mod4 _) (by norm_num))) $$ HD
  ihave HD := (free_open m d L _ _) $$ HD
  icases HD with ⟨⟨%g3, H63⟩, Hs3, Hx3, H53⟩
  ihave Hx := (pts_quarters (F := F) (ℓ := xLoc d) Finset.univ (m (xLoc d)) (xq (wid L))).2 $$ [Hx0 Hx1 Hx2 Hx3]
  · isplitl [Hx0]; · iexact Hx0
    isplitl [Hx1]; · iexact Hx1
    isplitl [Hx2]; · iexact Hx2
    iexact Hx3
  ihave H5 := (pts_quarters (F := F) (ℓ := (thr d L).loc cc0_scratch0) Finset.univ (idxI m d L) fullShare).2 $$ [H50 H51 H52 H53]
  · isplitl [H50]; · iexact H50
    isplitl [H51]; · iexact H51
    isplitl [H52]; · iexact H52
    iexact H53
  ihave H6 := (a6_join (F := F) d L (fun k => match k with | 0 => g0 | 1 => g1 | 2 => g2 | 3 => g3)) $$ [H60 H61 H62 H63]
  · isplitl [H60]; · iexact H60
    isplitl [H61]; · iexact H61
    isplitl [H62]; · iexact H62
    iexact H63
  icases H6 with ⟨%g6, H6⟩
  sl_exec
  sl_step
  isplitl [Hi' Hx Ho']
  · isplitl [Hi']; · iapply (Entails.of_eq (pts_iRowK (F := F) d L _)); iexact Hi'
    isplitl [Hx]; · iexact Hx
    iapply (Entails.of_eq (pts_oRowK (F := F) d L _))
    iapply (Entails.of_eq (pointsTo_congr (pool_out m d L f7 (m (oLoc d))))); iexact Ho'
  isplitl [H5 H6 H7 Hbufs]
  · isplitl [H5]; · iexists _; iexact H5
    isplitl [H6]; · iexists _; iexact H6
    isplitl [H7]; · iexists _; iexact H7
    iexact Hbufs
  isplitl [HsA HsB Hs0 Hs1 Hs2 Hs3 Hsems]
  · isplitl [HsA]; · iexact HsA
    isplitl [HsB]; · iexact HsB
    isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  exact hW' p hp

end Tile
end Cert.Proof.KI
end
-- ==== Proof.ScCommonB.lean ====
/-
  The vocabulary shared by the body obligation of the pooling kernel and its launch: the program as the launch theorem
  names it, the three arrays the kernel touches (the index array, the embedding table, the pooled output), how they
  split among the 32 vector subcores — subcore `(c, s)` has worker number `2 s + c` and owns rows
  `[32 w, 32 w + 32)` of the indices and of the output, and a 32nd share of the whole table —, the pooled array as
  the kernel computes it (for every float instance: the fifty looked-up rows summed left to right, times the
  constant), and what one subcore takes (`goA`) and brings back (`tdA`).
-/
import proofs.«204135_g55705725829175_cont_9to1c4b_393_20_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«204135_g55705725829175_cont_9to1c4b_393_20_alg».proof.Proof.Gen.Kernel
import proofs.«204135_g55705725829175_cont_9to1c4b_393_20_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: any resource algebra that holds the transfers' counters -/

variable {UU : Type} [URA UU] [CountersIn UU]

local notation "𝕄" => MT nD τ sig (HIx 1) (Elt F) ℕ UU ℕ

/-! ## The launch memory and the three arrays -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- What the proof asks of the launch memory: every word of the index array names a row of the table. -/
def IdxOK : Prop := ∀ (d : Dev nD) (j : S1024x50.Idx), (m (iLoc d) j).toNat < 100000

/-! ## Rows by worker -/

theorem idiv : 32 ∣ S1024x50.size 0 := ⟨32, rfl⟩
theorem odiv : 32 ∣ S1024x128.size 0 := ⟨32, rfl⟩
abbrev irow (w : Fin 32) : Rect S1024x50 := Rect.part (s := S1024x50) (a₀ := 0) idiv w
abbrev orow (w : Fin 32) : Rect S1024x128 := Rect.part (s := S1024x128) (a₀ := 0) odiv w
abbrev iRowSet (w : Fin 32) : Finset S1024x50.Idx := ((Memref.whole main_arg0_scv : Memref sig .scVector .hbm S1024x50 .i32).view.slice (irow w)).set
abbrev oRowSet (w : Fin 32) : Finset S1024x128.Idx := ((Memref.whole main_v0_scv : Memref sig .scVector .hbm S1024x128 .f32).view.slice (orow w)).set

theorem bound_zero : grid0.bound 0 = 2 := rfl
theorem bound_one : grid0.bound 1 = 16 := rfl
/-- The worker number of the subcore at coordinates `L`: `2 s + c`. -/
def wid (L : grid0.Coords) : Fin 32 := ⟨2 * (L 1).val + (L 0).val, by
  have h0 : (L 0).val < 2 := (L 0).isLt
  have h1 : (L 1).val < 16 := (L 1).isLt
  omega⟩
abbrev cV (L : grid0.Coords) : Fin τ.nSC := (L 0).castLE hcore0
abbrev jV (L : grid0.Coords) : Fin τ.nSub := (L 1).castLE hsub0

/-! ## Shares of the table: the full share halved five times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- Worker `w`'s share of the table. -/
abbrev xq (w : Fin 32) : PosShare TreeShare := leaf 5 fullShare w

/-! ## The pooled array as the kernel computes it, for every float instance -/

section Pool
variable [FloatOps F]

/-- Row `n` of the table at column `e` (the row number taken below the table's extent; under `IdxOK` it is). -/
def rowF (emb : FVec F S100000x128 .f32) (n : Nat) (e : Fin 128) : F .f32 :=
  emb (ix2 (⟨n % 100000, Nat.mod_lt _ (by norm_num)⟩ : Fin 100000) e)

/-- The running sum `E 0 + E 1 + … + E n`, associated to the left. -/
def accF (E : Nat → F .f32) : Nat → F .f32
  | 0 => E 0
  | n + 1 => FloatOps.addf (accF E n) (E (n + 1))

/-- One entry of the pooled array: the fifty looked-up rows of batch row `b` summed left to right at column `e`,
    times the constant. -/
def poolAtF (idx : IVec S1024x50 32) (emb : FVec F S100000x128 .f32) (b : Fin 1024) (e : Fin 128) : F .f32 :=
  FloatOps.mulf (accF (fun c => rowF emb (idx (ix2 b (⟨c % 50, Nat.mod_lt _ (by norm_num)⟩ : Fin 50))).toNat e) 49)
    (Scalar.ofBits .f32 0x3CA3D70A#32)

/-- The pooled array over the launch memory. -/
def poolF (d : Dev nD) : Buf (Elt F) (oLoc d) :=
  fun j => poolAtF (m (iLoc d)) (m (xLoc d)) ⟨(j 0).val, idx2_lt0 j⟩ ⟨(j 1).val, idx2_lt1 j⟩

end Pool

/-! ## What one subcore takes and brings back -/

abbrev iRowPts (d : Dev nD) (w : Fin 32) : sProp 𝕄 := iLoc d ↦[iRowSet w]{fullShare} m (iLoc d)
abbrev xShPts (d : Dev nD) (w : Fin 32) : sProp 𝕄 := xLoc d ↦{xq w} m (xLoc d)
abbrev oRowPts (d : Dev nD) (w : Fin 32) (f : Buf (Elt F) (oLoc d)) : sProp 𝕄 := oLoc d ↦[oRowSet w]{fullShare} f

/-- What worker `w` is handed: its rows of the indices, its share of the table, its rows of the output as launched. -/
abbrev goA (d : Dev nD) (w : Fin 32) : sProp 𝕄 := iprop(iRowPts m d w ∗ xShPts m d w ∗ oRowPts d w (m (oLoc d)))
/-- What worker `w` brings back: the same, its rows of the output at the pooled array. -/
abbrev tdA [FloatOps F] (d : Dev nD) (w : Fin 32) : sProp 𝕄 := iprop(iRowPts m d w ∗ xShPts m d w ∗ oRowPts d w (poolF m d))

end Cert.Proof.KB

end
-- ==== Proof.ScRegionB.lean ====
/-
  The dense projection as a pipelined kernel region: its proof data and body obligation. The region walks twenty blocks
  of 5000 vocabulary rows; at block `t` the body is handed block `t` of the transposed weights (5000 x 128), the
  whole pooled array (1024 x 128, fetched once) and block `t` of the bias (1 x 1 x 5000), and leaves in the output's
  staging buffer the product block plus the bias column — the body's one store, its payload the skeleton's. The data
  are stated over any contents `Ve` of the TensorCore's arrays at the region's entry.
-/
import proofs.«204135_g55705725829175_cont_9to1c4b_393_20_alg».proof.Proof.ScCommonB
import proofs.«204135_g55705725829175_cont_9to1c4b_393_20_alg».proof.Proof.Gen.Kernel.Launch
import proofs.«204135_g55705725829175_cont_9to1c4b_393_20_alg».proof.Proof.Gen.Kernel.Points
import Idealize.ShloMosaic.Lib.Pipeline.FrameBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ) (ρ : Dev nD → PrngReg)

open Idealize.ShloMosaic.Pipeline (Dat BodyObligation)
open Idealize.ShloMosaic.TcCoe

variable [FloatOps F]

section Region

variable (c : Dev nD) (Ve : (b : Ref sig .tc) → Buf (Elt F) ((c : Thread nD τ).loc b)) (R : Set (SemLoc sig × HIx 1))

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (Ve (Pipeline.arrRef spec1 w))

/-- An input window's current staging buffer holds its block at every point, fetched there or not (unfetched, the block
    index has not moved), for any proof data whose array is the entry contents and whose body leaves the block in place:
    the three input windows in turn. -/
theorem before_in_0_of (dat : Dat τ (Elt F) (HIx 1) ℕ UU ℕ cfg1 c) (hA : dat.A 0 = Ve (Pipeline.arrRef spec1 0))
    (hafter : ∀ t, dat.after 0 t = iblk c Ve 0 t) (t : Fin cfg1.N) (d) : dat.before 0 t d = iblk c Ve 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1_of (dat : Dat τ (Elt F) (HIx 1) ℕ UU ℕ cfg1 c) (hA : dat.A 1 = Ve (Pipeline.arrRef spec1 1))
    (hafter : ∀ t, dat.after 1 t = iblk c Ve 1 t) (t : Fin cfg1.N) (d) : dat.before 1 t d = iblk c Ve 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2_of (dat : Dat τ (Elt F) (HIx 1) ℕ UU ℕ cfg1 c) (hA : dat.A 2 = Ve (Pipeline.arrRef spec1 2))
    (hafter : ∀ t, dat.after 2 t = iblk c Ve 2 t) (t : Fin cfg1.N) (d) : dat.before 2 t d = iblk c Ve 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev r1_0 : Rect S5000x128 := Rect.unit (s := S5000x128) ![0, 0] S5000x128.size inb_S5000x128_S5000x128_0_0
abbrev r1_1 : Rect S1024x128 := Rect.unit (s := S1024x128) ![0, 0] S1024x128.size inb_S1024x128_S1024x128_0_0
abbrev r1_2 : Rect S1x1x5000 := Rect.unit (s := S1x1x5000) ![0, 0, 0] S1x1x5000.size inb_S1x1x5000_S1x1x5000_0_0_0
abbrev r1_3 : Rect S5000x1024 := Rect.unit (s := S5000x1024) ![0, 0] S5000x1024.size inb_S5000x1024_S5000x1024_0_0

/-- The output's staging buffer after the body, from the three input blocks: its one store as a piece. -/
def outBlk (x0 : Vec F S5000x128 .f32) (x1 : Vec F S1024x128 .f32) (x2 : Vec F S1x1x5000 .f32) : Vec F S5000x1024 .f32 :=
  View.canon [⟨r1_3, k1_pay1 (View.ld x0 r1_0) (View.ld x1 r1_1) (View.ld x2 r1_2)⟩]

omit [CountersIn UU] in
/-- The one store covers the buffer. -/
theorem cover_out (p0 : Vec F S5000x1024 .f32) (y : S5000x1024.Idx) :
    ∃ pc ∈ ([⟨r1_3, p0⟩] : List (View.Piece (Elt F) S5000x1024 .f32)), y ∈ pc.1.set :=
  View.cover_of_tiled [⟨r1_3, p0⟩] S5000x1024.size (by rfl) y

set_option maxHeartbeats 1000000 in
/-- The body on whole staging memrefs, the inputs' at read contents and the output's at anything, runs to the
    continuation holding the inputs' as they were and the output's at `outBlk` of them. -/
theorem sound_kernel (E : Set ℕ) (i : grid1.Coords) (arg1 : Memref sig .tc .vmem S5000x128 .f32) (harg1 : arg1.IsWhole) (arg2 : Memref sig .tc .vmem S1024x128 .f32) (harg2 : arg2.IsWhole)
    (arg3 : Memref sig .tc .vmem S1x1x5000 .f32) (harg3 : arg3.IsWhole) (arg4 : Memref sig .tc .vmem S5000x1024 .f32) (harg4 : arg4.IsWhole)
    (x0 : Vec F S5000x128 .f32) (x1 : Vec F S1024x128 .f32) (x2 : Vec F S1x1x5000 .f32) (Kc : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outBlk x0 x1 x2)) -∗ Kc ⟨⟩))
      ⊢ wp frame (wpE (defs₀ (F := F)) Variants.none c none) E (cc1__matmul_body i arg1 harg1 arg2 harg2 arg3 harg3 arg4 harg4) Kc := by
  simp only [cc1__matmul_body_eq_skeleton]; unfold cc1__matmul_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The region's proof data on core `c`: the arrays as the region finds them; after the body at point `t` each input's
    buffer at its block and the output's at `outBlk` of the three input blocks; no invariant; nothing owed; full shares;
    the waits recorded before the region within `R`. -/
def dat1 : Dat τ (Elt F) (HIx 1) ℕ UU ℕ cfg1 c where
  A w := Ve (Pipeline.arrRef spec1 w)
  after w t := match w with
    | ⟨0, _⟩ => iblk c Ve 0 t
    | ⟨1, _⟩ => iblk c Ve 1 t
    | ⟨2, _⟩ => iblk c Ve 2 t
    | ⟨3, _⟩ => outBlk (iblk c Ve 0 t) (iblk c Ve 1 t) (iblk c Ve 2 t)
  Φ _ := iprop(emp)
  q _ := fullShare
  owed _ := 0
  recorded _ := R

theorem A_eq (w : Fin cfg1.W) : (dat1 (UU := UU) c Ve R).A w = Ve (Pipeline.arrRef spec1 w) := by dsimp only [dat1]
theorem after_0 (t : Fin cfg1.N) : (dat1 (UU := UU) c Ve R).after 0 t = iblk c Ve 0 t := by dsimp only [dat1]
theorem after_1 (t : Fin cfg1.N) : (dat1 (UU := UU) c Ve R).after 1 t = iblk c Ve 1 t := by dsimp only [dat1]
theorem after_2 (t : Fin cfg1.N) : (dat1 (UU := UU) c Ve R).after 2 t = iblk c Ve 2 t := by dsimp only [dat1]
theorem after_3 (t : Fin cfg1.N) : (dat1 (UU := UU) c Ve R).after 3 t = outBlk (iblk c Ve 0 t) (iblk c Ve 1 t) (iblk c Ve 2 t) := by dsimp only [dat1]

theorem before_0 (t : Fin cfg1.N) (d) : (dat1 (UU := UU) c Ve R).before 0 t d = iblk c Ve 0 t :=
  before_in_0_of c Ve (dat1 (UU := UU) c Ve R) (A_eq c Ve R 0) (after_0 c Ve R) t d
theorem before_1 (t : Fin cfg1.N) (d) : (dat1 (UU := UU) c Ve R).before 1 t d = iblk c Ve 1 t :=
  before_in_1_of c Ve (dat1 (UU := UU) c Ve R) (A_eq c Ve R 1) (after_1 c Ve R) t d
theorem before_2 (t : Fin cfg1.N) (d) : (dat1 (UU := UU) c Ve R).before 2 t d = iblk c Ve 2 t :=
  before_in_2_of c Ve (dat1 (UU := UU) c Ve R) (A_eq c Ve R 2) (after_2 c Ve R) t d

/-! ## The body obligation, at a generic point -/

def bodyPre (ι : HIx 1) (t : Fin cfg1.N) : sProp 𝕄 :=
  iprop((dat1 (UU := UU) c Ve R).Φ t.castSucc ∗ (dat1 (UU := UU) c Ve R).owesAt ι t.castSucc
    ∗ (∃ d, owns (c : Thread nD τ) (st1_0 t) fullShare ((dat1 (UU := UU) c Ve R).before 0 t d))
    ∗ (∃ d, owns (c : Thread nD τ) (st1_1 t) fullShare ((dat1 (UU := UU) c Ve R).before 1 t d))
    ∗ (∃ d, owns (c : Thread nD τ) (st1_2 t) fullShare ((dat1 (UU := UU) c Ve R).before 2 t d))
    ∗ (∃ d, owns (c : Thread nD τ) (st1_3 t) fullShare ((dat1 (UU := UU) c Ve R).before 3 t d)))

def bodyPost (ι : HIx 1) (t : Fin cfg1.N) : sProp 𝕄 :=
  iprop((dat1 (UU := UU) c Ve R).Φ t.succ ∗ (dat1 (UU := UU) c Ve R).owesAt ι t.succ
    ∗ owns (c : Thread nD τ) (st1_0 t) fullShare ((dat1 (UU := UU) c Ve R).after 0 t)
    ∗ owns (c : Thread nD τ) (st1_1 t) fullShare ((dat1 (UU := UU) c Ve R).after 1 t)
    ∗ owns (c : Thread nD τ) (st1_2 t) fullShare ((dat1 (UU := UU) c Ve R).after 2 t)
    ∗ owns (c : Thread nD τ) (st1_3 t) fullShare ((dat1 (UU := UU) c Ve R).after 3 t))

theorem sound_body (ι : HIx 1) (t : Fin cfg1.N) :
    bodyPre (UU := UU) c Ve R ι t ⊢ wp frame (wpE (defs₀ (F := F)) Variants.none c none) Set.univ (bodyAt1 t) (fun _ => bodyPost (UU := UU) c Ve R ι t) := by
  unfold bodyPre bodyPost bodyAt1
  simp only [before_0, before_1, before_2]
  rw [show (dat1 (UU := UU) c Ve R).Φ t.succ = (dat1 (UU := UU) c Ve R).Φ t.castSucc from rfl,
    show (dat1 (UU := UU) c Ve R).owesAt ι t.succ = (dat1 (UU := UU) c Ve R).owesAt ι t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk c Ve 0 t) (iblk c Ve 1 t) (iblk c Ve 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (ι : HIx 1) : BodyObligation (dat1 (F := F) (UU := UU) c Ve R) (defs₀ (F := F)) Variants.none ι Set.univ := fun t => by
  rw [bigSep_W1, bigSep_W1]
  exact sound_body c Ve R ι t

end Region

end Cert.Proof.KB

end
-- ==== Proof.ScLaunch1B.lean ====
/-
  The pooling kernel's call as the launch theorem takes it: what the handshakes carry (each SparseCore is handed, and
  hands back, exactly its sixteen subcores' parts), the body obligation in the launch theorem's spelling from the
  proof of one subcore's task, and the split of a SparseCore's operands among its subcores (the identity, by the
  choice of what a SparseCore is handed).
-/
import proofs.«204135_g55705725829175_cont_9to1c4b_393_20_alg».proof.Proof.ScCommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ) (ρ : Dev nD → PrngReg)

variable [FloatOps F]

/-- The worker number of subcore `i` of SparseCore `c` of the call's grid. -/
def widOf (c : Fin ((K (F := F)).nCore 0)) (i : Fin ((K (F := F)).nSub 0)) : Fin 32 := ⟨2 * i.val + c.val, by
  have h0 : c.val < 2 := c.isLt
  have h1 : i.val < 16 := i.isLt
  omega⟩

/-- The one call: a SparseCore takes its sixteen subcores' parts and brings them back, the output rows pooled. -/
def P : (K (F := F)).Pay (nD := nD) (Val := Elt F) (Name := ℕ) (U := UU) where
  st := fun q d c => match q with | 0 => bigSep Finset.univ fun i : Fin ((K (F := F)).nSub 0) => goA (UU := UU) m d (widOf c i)
  dn := fun q d c => match q with | 0 => bigSep Finset.univ fun i : Fin ((K (F := F)).nSub 0) => tdA (UU := UU) m d (widOf c i)
  go := fun q d c i => match q with | 0 => goA (UU := UU) m d (widOf c i)
  td := fun q d c i => match q with | 0 => tdA (UU := UU) m d (widOf c i)
  x := fun _ _ => iprop(emp)

instance P_storable : (P (F := F) (UU := UU) m).IsStorable where
  st q d c := match q with
    | 0 => (inferInstance : BI.Storable (upEmb : UEmb _ 𝕄) (bigSep Finset.univ fun i : Fin ((K (F := F)).nSub 0) => goA (UU := UU) m d (widOf c i)))
  dn q d c := match q with
    | 0 => (inferInstance : BI.Storable (upEmb : UEmb _ 𝕄) (bigSep Finset.univ fun i : Fin ((K (F := F)).nSub 0) => tdA (UU := UU) m d (widOf c i)))
  go q d c i := match q with
    | 0 => (inferInstance : BI.Storable (upEmb : UEmb _ 𝕄) (goA (UU := UU) m d (widOf c i)))
  td q d c i := match q with
    | 0 => (inferInstance : BI.Storable (upEmb : UEmb _ 𝕄) (tdA (UU := UU) m d (widOf c i)))

/-! ## The obligation -/

/-- What the proof of one subcore's task says (proved of the printed body in its own module). -/
def TileBody : Prop :=
  ∀ (hF : (K (F := F)).Facts) (hidx : IdxOK m) (d : Dev nD) (L : grid0.Coords) (O : CellTallies nD τ sig (HIx 1)) (W : Waits sig (HIx 1)) (hO : ∀ g, O g none = 0),
    iprop(levAts (K (F := F)).L (K (F := F)).lev ∗ emp ∗ goA (UU := UU) m d (wid L) ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_pool_body L (Memref.whole main_arg1_scv) (Memref.isWhole_whole _) (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) cc0_scratch3 cc0_scoped0 cc0_scoped1)
          fun _ => iprop(tdA (UU := UU) m d (wid L) ∗ scopedBufs (V d (cV L) (jV L)) ∗ scopedSems0 (V d (cV L) (jV L)) ∗ ∃ W', ⌜∀ p ∈ W', p ∈ W ∨ p.2 = none⌝ ∗ owes (V d (cV L) (jV L)) O W')

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_pool_body (coordsV c s)
          (Memref.whole main_arg1_scv) (Memref.isWhole_whole _) (Memref.whole main_arg0_scv) (Memref.isWhole_whole _) (Memref.whole main_v0_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1) ⟨⟩ c s := rfl

omit [FloatOps F] [CountersIn UU] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hb : TileBody (UU := UU) m) (hF : (K (F := F)).Facts) (hidx : IdxOK m) :
    (K (F := F)).TileObl (D (F := F)) 𝒱 (P (UU := UU) m) v₀ 0 := by
  intro d c i O W hO _ _
  simp only [show (P (UU := UU) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hb hF hidx d (coordsV ⟨_, hci.1⟩ ⟨_, hci.2⟩) O W hO).trans (wp_mono frame _ _ fun _ => obl_post)

/-! ## The split: the identity -/

theorem vecSplit : (K (F := F)).VecSplit' (P (UU := UU) m) 0 := by
  intro d c
  show (bigSep Finset.univ fun i : Fin ((K (F := F)).nSub 0) => goA (UU := UU) m d (widOf c i)) ⊢ |={Set.univ}=> iprop(
      (bigSep Finset.univ fun i : Fin ((K (F := F)).nSub 0) => goA (UU := UU) m d (widOf c i))
      ∗ ((bigSep Finset.univ fun i : Fin ((K (F := F)).nSub 0) => tdA (UU := UU) m d (widOf c i))
          -∗ (bigSep Finset.univ fun i : Fin ((K (F := F)).nSub 0) => tdA (UU := UU) m d (widOf c i))))
  iintro H; imodintro
  isplitl [H]; · iexact H
  iintro H; iexact H

end Cert.Proof.KB

end
-- ==== Proof.ScLaunch2B.lean ====
/-
  The launch's resource algebra — the handshakes' rounds, the pipeline's staging cells, the transfers' counters side by
  side — and the dense projection's kernel region as the region rule takes it: entered from the TensorCore's arrays at
  any contents `Ve` with the core owing nothing, left with the four windowed arrays at what the proof data computes
  and every other array untouched.
-/
import proofs.«204135_g55705725829175_cont_9to1c4b_393_20_alg».proof.Proof.ScRegionB
import proofs.«204135_g55705725829175_cont_9to1c4b_393_20_alg».proof.Proof.ScLaunch1B
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (m : (ℓ : Loc nD τ sig) → Buf (Elt F) ℓ) (ρ : Dev nD → PrngReg)

open Idealize.ShloMosaic.Pipeline (Dat BodyObligation cellOf)
open Idealize.ShloMosaic.TcCoe

/-! ## The resource algebra -/

abbrev UH : Type := URounds (GSem nD τ sig) ℕ
abbrev UP : Type := UR sig nD τ
abbrev UC : Type := UH × (UP × Counters)

local notation "𝕄" => MT nD τ sig (HIx 1) (Elt F) ℕ UC ℕ

abbrev EH : Emb UH (MT nD τ sig (HIx 1) (Elt F) ℕ UC ℕ) := embL
abbrev EP : Emb UP (MT nD τ sig (HIx 1) (Elt F) ℕ UC ℕ) := (Emb.inl : Emb UP (UP × Counters)).trans embR

instance EP_landsIn : (EP (F := F)).LandsIn (upEmb : UEmb _ (MT nD τ sig (HIx 1) (Elt F) ℕ UC ℕ)) := by
  unfold EP; infer_instance

variable [FloatOps F]

/-! ## The region -/

abbrev adm : (p : Fin 1) → (pcfgs (F := F) p).Adm := fun p => (cfgs p).toPCfg_adm

section Reg

variable (Ve : (c : Dev nD) → (b : Ref sig .tc) → Buf (Elt F) ((c : Thread nD τ).loc b)) (W₀ : Waits sig (HIx 1))

def pdats : (p : Fin 1) → (c : Dev nD) → Dat τ (Elt F) (HIx 1) ℕ UC ℕ (Pipeline.pin (pcfgs (F := F)) adm p) c
  | 0 => fun c => dat1 (UU := UC) c (Ve c) {p | p ∈ W₀}

/-- The region: the TensorCore's arrays in, the core owing nothing with its recorded waits `W₀`; out, the windowed
    arrays at the proof data's final contents, what the core owes within `W₀` and the staging cells' pairs, and the
    arrays no window stages as they were. -/
def reg1 : Pipeline.RegionSeg (pcfgs (F := F)) adm (pdats Ve W₀) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation (UU := UC) c (Ve c) {p | p ∈ W₀} none).loose
  hwaits c := Pipeline.cellsWaits_intro _ (pdats Ve W₀) none 0 c fun w s t => (K (F := F)).mayWait_none _ (fun _ => rfl)
  pre c := iprop(unscopedBufs c (Ve c) ∗ owes (c : Thread nD τ) (0 : CellTallies nD τ sig (HIx 1)) W₀)
  post c := iprop((pdats Ve W₀ 0 c).arrays ((pdats Ve W₀ 0 c).arrAt · (Pipeline.pin (pcfgs (F := F)) adm 0).N)
    ∗ (pdats Ve W₀ 0 c).owesAt none (Fin.last (Pipeline.pin (pcfgs (F := F)) adm 0).N)
    ∗ Pipeline.unscopedRest (Ix := HIx 1) (Name := ℕ) (U := UC) (Lvl := ℕ) spec1 c (Ve c))
  X _ := iprop(emp)
  Y _ := iprop(emp)
  Z c := Pipeline.unscopedRest (Ix := HIx 1) (Name := ℕ) (U := UC) (Lvl := ℕ) spec1 c (Ve c)
  hentry c := by
    rw [Pipeline.ownSems0_none]
    have hsplit := Pipeline.arrays_of_unscopedBufs (pcfgs (F := F)) adm (pdats Ve W₀) launch1.win launch1.arr_whole c
      ((pdats Ve W₀ 0 c).share_full fun _ => rfl) (Ve c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W₀; isplitr; · ipureintro; exact fun _ h => Or.inl h
      iexact HO
    isplitr; · iempintro
    iexact Hr
  hin c := by iintro -; iempintro
  hout c := by
    rw [Pipeline.ownSems0_none, scopedRest1_eq]
    iintro -; isplitr; · iempintro
    isplitr <;> iempintro
  hexit c := by
    iintro ⟨Ha, HO, -, Hz⟩
    imodintro
    isplitl [Ha]; · iexact Ha
    isplitl [HO]; · iexact HO
    iexact Hz

end Reg

/-- The pipeline's ghost state on device `d`: its staging cells' rounds and duty tokens. -/
def Gd (d : Dev nD) : sProp 𝕄 :=
  iprop(Pipeline.cellsGhost (Pipeline.pin (pcfgs (F := F)) adm) EP 0 d ∗ Pipeline.toksInit (Pipeline.pin (pcfgs (F := F)) adm) EP 0 d)

end Cert.Proof.KB

end
-- ==== Proof.ScSplitB.lean ====
/-
  How the three arrays of the pooling call split among the 32 workers and join again: the index array and the output by
  rows — worker `w` holds rows `[32 w, 32 w + 32)`, the blocks disjoint and covering the array —, the table by shares
  — the full share halved five times —, and the workers of the two SparseCores, sixteen each, are the 32 workers:
  `(c, i) ↦ 2 i + c` is a bijection.
-/
import proofs.«204135_g55705725829175_cont_9to1c4b_393_20_alg».proof.Proof.ScLaunch1B

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ) (ρ : Dev nD → PrngReg)

variable [FloatOps F]

omit [FloatOps F] [CountersIn UU] in
theorem iRowSet_eq (w : Fin 32) : iRowSet w = (irow w).set := by
  show ((View.whole (main_arg0_scv : Ref sig .scVector)).slice (irow w)).set = _
  rw [View.set_slice]; exact Finset.map_refl
omit [FloatOps F] [CountersIn UU] in
theorem oRowSet_eq (w : Fin 32) : oRowSet w = (orow w).set := by
  show ((View.whole (main_v0_scv : Ref sig .scVector)).slice (orow w)).set = _
  rw [View.set_slice]; exact Finset.map_refl
omit [FloatOps F] [CountersIn UU] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] [CountersIn UU] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] [CountersIn UU] in
theorem irows_cover : (Finset.univ : Finset (Fin 32)).biUnion iRowSet = Finset.univ :=
  (Finset.biUnion_congr rfl fun i _ => iRowSet_eq i).trans (Rect.biUnion_part idiv)
omit [FloatOps F] [CountersIn UU] in
theorem orows_cover : (Finset.univ : Finset (Fin 32)).biUnion oRowSet = Finset.univ :=
  (Finset.biUnion_congr rfl fun i _ => oRowSet_eq i).trans (Rect.biUnion_part odiv)

omit [FloatOps F] [CountersIn UU] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]; try rfl
omit [FloatOps F] [CountersIn UU] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-! ## Shares -/

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit [FloatOps F] [CountersIn UU] in
/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

omit [FloatOps F] [CountersIn UU] in
theorem xPts_shares (d : Dev nD) (f : Buf (Elt F) (xLoc d)) :
    (xLoc d ↦{fullShare} f : sProp 𝕄) = bigSep Finset.univ fun w : Fin 32 => xLoc d ↦{xq w} f :=
  pointsTo_leaves Finset.univ f 5 fullShare

/-! ## The workers of the two SparseCores are the 32 workers -/

/-- `(c, i) ↦ 2 i + c`, with inverse `w ↦ (w mod 2, w div 2)`. -/
def widEquiv : Fin ((K (F := F)).nCore 0) × Fin ((K (F := F)).nSub 0) ≃ Fin 32 where
  toFun p := widOf p.1 p.2
  invFun w := (⟨w.val % 2, Nat.mod_lt _ (by norm_num)⟩, ⟨w.val / 2, by have := w.isLt; show _ < 16; omega⟩)
  left_inv p := by
    rcases p with ⟨c, i⟩
    have hc : c.val < 2 := c.isLt
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [CountersIn UU] in
theorem bigSep_workers (Φ : Fin 32 → sProp 𝕄) :
    (bigSep Finset.univ fun c : Fin ((K (F := F)).nCore 0) => bigSep Finset.univ fun i : Fin ((K (F := F)).nSub 0) => Φ (widOf c i))
      = bigSep Finset.univ Φ := by
  rw [bigSep_univ_equiv (widEquiv (F := F)) Φ, bigSep_univ_prod]; rfl

/-- The three arrays whole are every worker's part at once — as launched, -/
theorem go_all (d : Dev nD) :
    (iprop((iLoc d ↦{fullShare} m (iLoc d)) ∗ (xLoc d ↦{fullShare} m (xLoc d)) ∗ oLoc d ↦{fullShare} m (oLoc d)) : sProp 𝕄)
      = bigSep Finset.univ fun c : Fin ((K (F := F)).nCore 0) => (P (UU := UU) m).st 0 d c := by
  show _ = bigSep Finset.univ fun c : Fin ((K (F := F)).nCore 0) => bigSep Finset.univ fun i : Fin ((K (F := F)).nSub 0) => goA (UU := UU) m d (widOf c i)
  rw [bigSep_workers (F := F) (fun w => goA (UU := UU) m d w), bigSep_sep', bigSep_sep', iPts_rows, xPts_shares, oPts_rows]

/-- and with the output pooled. -/
theorem td_all (d : Dev nD) :
    (iprop((iLoc d ↦{fullShare} m (iLoc d)) ∗ (xLoc d ↦{fullShare} m (xLoc d)) ∗ oLoc d ↦{fullShare} poolF m d) : sProp 𝕄)
      = bigSep Finset.univ fun c : Fin ((K (F := F)).nCore 0) => (P (UU := UU) m).dn 0 d c := by
  show _ = bigSep Finset.univ fun c : Fin ((K (F := F)).nCore 0) => bigSep Finset.univ fun i : Fin ((K (F := F)).nSub 0) => tdA (UU := UU) m d (widOf c i)
  rw [bigSep_workers (F := F) (fun w => tdA (UU := UU) m d w), bigSep_sep', bigSep_sep', iPts_rows, xPts_shares, oPts_rows]

end Cert.Proof.KB

end
-- ==== Proof.ScLaunch3B.lean ====
/-
  @main on the TensorCore: the pooling call (the three arrays dealt to the 32 workers and gathered again, the output
  pooled), the two host operations that lay the weights and the bias out for the projection (a transpose, a reshape),
  the projection's kernel region, and the transpose of its result. The TensorCore's nine arrays are held whole
  throughout, at a valuation each step updates; the four arguments end at their launch contents and the result array at
  the transpose of what the region leaves.
-/
import proofs.«204135_g55705725829175_cont_9to1c4b_393_20_alg».proof.Proof.ScLaunch2B
import proofs.«204135_g55705725829175_cont_9to1c4b_393_20_alg».proof.Proof.ScSplitB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UC ℕ

variable (m : (ℓ : Loc nD τ sig) → Buf (Elt F) ℓ) (ρ : Dev nD → PrngReg)

open Idealize.ShloMosaic.Pipeline (Dat BodyObligation cellOf)
open Idealize.ShloMosaic.TcCoe
open Idealize.ShloMosaic.StableHlo (held held_split held_sdiff_result wp_hlo_within)

variable [FloatOps F]

/-! ## The TensorCore's arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

abbrev opT1 : HloOp τ sig (Elt F) := StableHlo.unary main_arg2 main_v1 ((transpose S100000x128 [1, 0] · transposes_S128x100000_S100000x128_1_0) : (⟨S128x100000, .f32⟩ : BufTy).Contents (Elt F) → (⟨S100000x128, .f32⟩ : BufTy).Contents (Elt F))
abbrev opR : HloOp τ sig (Elt F) := StableHlo.reshape main_arg3 main_v2 rfl shapeCasts_S100000_S20x1x5000
abbrev opT2 : HloOp τ sig (Elt F) := StableHlo.unary main_v3 main_v4 ((transpose S1024x100000 [1, 0] · transposes_S100000x1024_S1024x100000_1_0) : (⟨S100000x1024, .f32⟩ : BufTy).Contents (Elt F) → (⟨S1024x100000, .f32⟩ : BufTy).Contents (Elt F))

/-- The TensorCore's arrays, all unscoped. -/
abbrev S9 : Finset (DevRef τ sig) := {a0', a1', a2', a3', v0', v1', v2', v3', v4'}

abbrev pl (d : Dev nD) (b : DevRef τ sig) (f : Buf (Elt F) ((d, b) : Loc nD τ sig)) : sProp 𝕄 := ((d, b) : Loc nD τ sig) ↦{fullShare} f

omit [FloatOps F] in
theorem held_S9 (d : Dev nD) (W : Valuation τ sig (Elt F)) :
    (held (T d) S9 W : sProp 𝕄)
      = iprop(pl d a0' (W a0') ∗ pl d a1' (W a1') ∗ pl d a2' (W a2') ∗ pl d a3' (W a3') ∗ pl d v0' (W v0') ∗ pl d v1' (W v1') ∗ pl d v2' (W v2') ∗ pl d v3' (W v3') ∗ pl d v4' (W v4')) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(pl d a0' (W main_arg0) ∗ pl d a1' (W main_arg1) ∗ pl d a2' (W main_arg2) ∗ pl d a3' (W main_arg3) ∗ pl d v0' (W main_v0) ∗ pl d v1' (W main_v1) ∗ pl d v2' (W main_v2) ∗ pl d v3' (W main_v3) ∗ pl d v4' (W main_v4)) := by
  unfold unscopedBufs
  rw [show (Finset.univ.filter fun b : Ref sig .tc => ¬ b.isScoped) = {main_arg0, main_arg1, main_arg2, main_arg3, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## The valuations, step by step -/

/-- As launched; -/
def V0 (d : Dev nD) : Valuation τ sig (Elt F) := fun b => m (d, b)
/-- after the pooling call: the output pooled; -/
def V1 (d : Dev nD) : Valuation τ sig (Elt F) := Function.update (V0 m d) v0' (poolF m d)
/-- after the transpose and the reshape: what the region finds. -/
def V3 (d : Dev nD) : Valuation τ sig (Elt F) := (opR (F := F)).result ((opT1 (F := F)).result (V1 m d))
/-- The region's entry contents, by reference. -/
def Ve (d : Dev nD) (b : Ref sig .tc) : Buf (Elt F) ((d : Thread nD τ).loc b) := V3 m d (Proc.devRef .tc b)
/-- What the region leaves in the output's array (the recorded waits do not enter it). -/
def outT (d : Dev nD) (W : Waits sig (HIx 1)) : Buf (Elt F) ((d : Thread nD τ).loc main_v3) := (pdats (Ve m) W 0 d).arrAt 3 (Pipeline.pin (pcfgs (F := F)) adm 0).N
/-- After the region; -/
def V4 (d : Dev nD) (W : Waits sig (HIx 1)) : Valuation τ sig (Elt F) := Function.update (V3 m d) v3' (outT m d W)
/-- after the last transpose. -/
def V5 (d : Dev nD) (W : Waits sig (HIx 1)) : Valuation τ sig (Elt F) := (opT2 (F := F)).result (V4 m d W)

theorem unscoped_held (d : Dev nD) : (unscopedBufs d (fun b => m ((SparseCore.T d).loc b)) : sProp 𝕄) = held (T d) S9 (V0 m d) := by
  rw [unscopedBufs_eq, held_S9]; rfl

theorem hT1 : (opT1 (F := F)).bufs ⊆ S9 := show ({a2', v1'} : Finset (DevRef τ sig)) ⊆ S9 by decide
theorem hR : (opR (F := F)).bufs ⊆ S9 := show ({a3', v2'} : Finset (DevRef τ sig)) ⊆ S9 by decide
theorem hT2 : (opT2 (F := F)).bufs ⊆ S9 := show ({v3', v4'} : Finset (DevRef τ sig)) ⊆ S9 by decide

theorem V1_of_ne (d : Dev nD) {b : DevRef τ sig} (h : b ≠ v0') : V1 m d b = m (d, b) := Function.update_of_ne h _ _
theorem V1_v0 (d : Dev nD) : V1 m d v0' = poolF m d := Function.update_self _ _ _

theorem V3_of_ne (d : Dev nD) {b : DevRef τ sig} (h1 : b ∉ ({v1'} : Finset (DevRef τ sig))) (h2 : b ∉ ({v2'} : Finset (DevRef τ sig))) : V3 m d b = V1 m d b := by
  unfold V3
  rw [(opR (F := F)).result_of_not_mem _ h2, (opT1 (F := F)).result_of_not_mem _ h1]

theorem V3_a0 (d : Dev nD) : V3 m d a0' = m (d, a0') := (V3_of_ne m d (by decide) (by decide)).trans (V1_of_ne m d (by decide))
theorem V3_a1 (d : Dev nD) : V3 m d a1' = m (d, a1') := (V3_of_ne m d (by decide) (by decide)).trans (V1_of_ne m d (by decide))
theorem V3_a2 (d : Dev nD) : V3 m d a2' = m (d, a2') := (V3_of_ne m d (by decide) (by decide)).trans (V1_of_ne m d (by decide))
theorem V3_a3 (d : Dev nD) : V3 m d a3' = m (d, a3') := (V3_of_ne m d (by decide) (by decide)).trans (V1_of_ne m d (by decide))
theorem V3_v4 (d : Dev nD) : V3 m d v4' = m (d, v4') := (V3_of_ne m d (by decide) (by decide)).trans (V1_of_ne m d (by decide))

theorem V4_of_ne (d : Dev nD) (W : Waits sig (HIx 1)) {b : DevRef τ sig} (h : b ≠ v3') : V4 m d W b = V3 m d b := Function.update_of_ne h _ _
theorem V4_v3 (d : Dev nD) (W : Waits sig (HIx 1)) : V4 m d W v3' = outT m d W := Function.update_self _ _ _
theorem V5_of_ne (d : Dev nD) (W : Waits sig (HIx 1)) {b : DevRef τ sig} (h : b ∉ ({v4'} : Finset (DevRef τ sig))) : V5 m d W b = V4 m d W b := by
  unfold V5; rw [(opT2 (F := F)).result_of_not_mem _ h]

end Cert.Proof.KB

end
-- ==== Proof.ScMainB.lean ====
/-
  @main on the TensorCore, run: from what the launch deals the TensorCore and the pipeline's ghost state to its
  handshake state after the one call and the claim's arrays — the four arguments at their launch contents, the result
  array at the transpose of what the projection's region leaves.
-/
import proofs.«204135_g55705725829175_cont_9to1c4b_393_20_alg».proof.Proof.ScLaunch3B

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UC ℕ

variable (m : (ℓ : Loc nD τ sig) → Buf (Elt F) ℓ) (ρ : Dev nD → PrngReg)

open Idealize.ShloMosaic.Pipeline (Dat BodyObligation cellOf)
open Idealize.ShloMosaic.TcCoe
open Idealize.ShloMosaic.StableHlo (held held_split held_sdiff_result wp_hlo_within)

variable [FloatOps F]

omit [FloatOps F] in
/-- After its one call the TensorCore owes nothing: its handshake state opened at what it owes, to be closed at any
    recorded waits within the same bound. -/
theorem tcSt_open (d : Dev nD) :
    (K (F := F)).tcSt (EH (F := F)) d 1 ⊢ iprop(∃ W, ⌜(K (F := F)).WBelow (T d) W (8 * 1)⌝ ∗ owes (T d) (0 : CellTallies nD τ sig (HIx 1)) W
       ∗ (∀ W', ⌜(K (F := F)).WBelow (T d) W' (8 * 1)⌝ -∗ owes (T d) (0 : CellTallies nD τ sig (HIx 1)) W' -∗ (K (F := F)).tcSt (EH (F := F)) d 1)) := by
  unfold SparseCore.Cfg.tcSt
  rw [(K (F := F)).Otc_end d (le_refl 1)]
  iintro ⟨⟨%W, %hW, HO⟩, Hrest⟩
  iexists W
  isplitr; · ipureintro; exact hW
  isplitl [HO]; · iexact HO
  iintro %W' %hW' HO'
  isplitl [HO']
  · iexists W'; isplitr; · ipureintro; exact hW'
    iexact HO'
  iexact Hrest

theorem held_V3 (d : Dev nD) : (held (T d) S9 (V3 m d) : sProp 𝕄) = unscopedBufs d (Ve m d) := by
  rw [unscopedBufs_eq, held_S9]; rfl

theorem held_V3' (d : Dev nD) : (held (T d) S9 ((opR (F := F)).result ((opT1 (F := F)).result (V1 m d))) : sProp 𝕄) = unscopedBufs d (Ve m d) :=
  held_V3 m d

theorem pre_eq (d : Dev nD) (W : Waits sig (HIx 1)) :
    ((reg1 (Ve m) W).pre d : sProp 𝕄) = iprop(unscopedBufs d (Ve m d) ∗ owes (d : Thread nD τ) (0 : CellTallies nD τ sig (HIx 1)) W) := rfl

/-- What the region leaves, array by array. -/
theorem post_eq (d : Dev nD) (W : Waits sig (HIx 1)) :
    ((reg1 (Ve m) W).post d : sProp 𝕄)
      = iprop((pl d v1' (V3 m d v1') ∗ pl d v0' (V3 m d v0') ∗ pl d v2' (V3 m d v2') ∗ pl d v3' (outT m d W))
          ∗ (pdats (Ve m) W 0 d).owesAt none (Fin.last (Pipeline.pin (pcfgs (F := F)) adm 0).N)
          ∗ (pl d a0' (V3 m d a0') ∗ pl d a1' (V3 m d a1') ∗ pl d a2' (V3 m d a2') ∗ pl d a3' (V3 m d a3') ∗ pl d v4' (V3 m d v4'))) := by
  show iprop((pdats (Ve m) W 0 d).arrays ((pdats (Ve m) W 0 d).arrAt · (Pipeline.pin (pcfgs (F := F)) adm 0).N) ∗ _ ∗ Pipeline.unscopedRest spec1 d (Ve m d)) = _
  rw [Pipeline.arrays_eq (Pipeline.pin (pcfgs (F := F)) adm) (pdats (Ve m) W) 0 d launch1.arr_whole ((pdats (Ve m) W 0 d).share_full fun _ => rfl), bigSep_W1,
    unscopedRest1_eq, (pdats (Ve m) W 0 d).arrAt_in 0 rfl, (pdats (Ve m) W 0 d).arrAt_in 1 rfl, (pdats (Ve m) W 0 d).arrAt_in 2 rfl]
  rfl

set_option backward.isDefEq.respectTransparency.types false in
/-- A proof about a TensorCore program under the certificate's body table is a proof about it lifted to the extended table. -/
theorem lift_tc (d : Dev nD) {α : Type} (p : Prog (TpuEff nD τ sig (Elt F) (ΛP (F := F)) .tc) α) (Φ : α → sProp 𝕄) :
    wp frame (wpE (D (F := F)) 𝒱 (d : Thread nD τ) none) Set.univ p Φ
      ⊢ wp frame (wpE ((K (F := F)).defs (D (F := F))) 𝒱 (d : Thread nD τ) none) Set.univ (SparseCore.liftProg p) Φ :=
  (K (F := F)).wp_liftProg (D (F := F)) 𝒱 (d : Thread nD τ) Set.univ none p Φ

set_option maxHeartbeats 1000000 in
/-- The projection's region as one step of @main: from the boundary, the region's entry state, the level facts and the
    pipeline's ghost state, the custom call runs to the boundary and the region's exit state. -/
theorem region_step [∀ e, Nonempty (Elt F e)] (d : Dev nD) (W : Waits sig (HIx 1)) (Φ : PUnit.{1} → sProp 𝕄) :
    iprop((iprop(boundary (SparseCore.T d) ∗ (reg1 (Ve m) W).post d) -∗ Φ ⟨⟩) ∗ boundary (SparseCore.T d) ∗ (reg1 (Ve m) W).pre d
        ∗ levAts (K (F := F)).L (K (F := F)).lev ∗ Gd (F := F) d)
      ⊢ wp frame (wpE ((K (F := F)).defs (D (F := F))) 𝒱 (SparseCore.T d) none) Set.univ
          (Prog.lift (.customCall (SparseCore.inner (Pipeline.entry 0)) ())) Φ := by
  have h := Pipeline.RegionSeg.wp (pcfgs (F := F)) adm (pdats (Ve m) W) (none : HIx 1) cellOf_inj EP defs₀ 𝒱₀ (K (F := F)).L (K (F := F)).lev
      (reg1 (Ve m) W) d none (fun u hu => nomatch hu) (fun _ => .ret ⟨⟩) Φ
  have h2 := h.trans (lift_tc (F := F) d _ Φ)
  have e : (iprop(boundary (SparseCore.T d) ∗ (reg1 (Ve m) W).post d) -∗ Φ ⟨⟩ : sProp 𝕄)
      ⊢ (iprop(boundary (d : Thread nD τ) ∗ (reg1 (Ve m) W).post d)
          -∗ wp frame (wpE (D (F := F)) 𝒱 (d : Thread nD τ) none) Set.univ (.ret ⟨⟩) Φ) := by
    iintro Hk H
    rw [wp_ret]; imodintro
    iapply Hk; iexact H
  exact (sep_mono e .rfl).trans h2

/-- What @main leaves the claim: the four arguments at their launch contents, the result array at the last transpose's
    value (for the recorded waits the region was entered with, which do not enter the value). -/
abbrev FIN (d : Dev nD) : sProp 𝕄 :=
  iprop(pl d a0' (m (d, a0')) ∗ pl d a1' (m (d, a1')) ∗ pl d a2' (m (d, a2')) ∗ pl d a3' (m (d, a3')) ∗ ∃ W, pl d v4' (V5 m d W v4'))

set_option maxHeartbeats 1000000 in
/-- @main on device `d`'s TensorCore. -/
theorem hmain [∀ e, Nonempty (Elt F e)] (κ : GSem nD τ sig → ℕ) (d : Dev nD) :
    iprop((K (F := F)).ctx EH (P (UU := UC) m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  ihave Hh := (Entails.of_eq (held_S9 (F := F) d (V0 m d))) $$ Hheld
  icases Hh with ⟨Ha0, Ha1, Ha2, Ha3, Hv0, Hv1, Hv2, Hv3, Hv4⟩
  -- the pooling call: the three arrays to the 32 workers and back
  iapply ((K (F := F)).wp_run (D (F := F)) 𝒱 (EH := EH) (P := P (UU := UC) m) κ d 0) $$ [Hst Ha0 Ha1 Hv0 Hb Ha2 Ha3 Hv1 Hv2 Hv3 Hv4 HG]
  isplitr; · iexact Hctx
  isplitl [Hst]; · iexact Hst
  isplitl [Ha0 Ha1 Hv0]
  · iapply (Entails.of_eq (go_all (F := F) (UU := UC) m d))
    isplitl [Ha0]; · iexact Ha0
    isplitl [Ha1]; · iexact Ha1
    iexact Hv0
  iintro ⟨Hst, Hdn⟩
  ihave Hdn' := (Entails.of_eq (td_all (F := F) (UU := UC) m d).symm) $$ Hdn
  icases Hdn' with ⟨Ha0, Ha1, Hv0⟩
  -- the transpose of the weights
  iapply (wp_hlo_within 𝒱 (SparseCore.T d) none Set.univ (op := opT1) (S := S9) hT1 (V := V1 m d)) $$ [Hb Ha0 Ha1 Ha2 Ha3 Hv0 Hv1 Hv2 Hv3 Hv4]
  · isplitl [Hb]; · iexact Hb
    rw [held_S9, V1_v0, V1_of_ne m d (show a0' ≠ v0' by decide), V1_of_ne m d (show a1' ≠ v0' by decide), V1_of_ne m d (show a2' ≠ v0' by decide),
      V1_of_ne m d (show a3' ≠ v0' by decide), V1_of_ne m d (show v1' ≠ v0' by decide), V1_of_ne m d (show v2' ≠ v0' by decide),
      V1_of_ne m d (show v3' ≠ v0' by decide), V1_of_ne m d (show v4' ≠ v0' by decide)]
    isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    iexact Hv4
  iintro ⟨Hb, Hheld⟩
  rw [wp_ret]; imodintro
  -- the reshape of the bias
  iapply (wp_hlo_within 𝒱 (SparseCore.T d) none Set.univ (op := opR) (S := S9) hR (V := (opT1 (F := F)).result (V1 m d))) $$ [Hb Hheld]
  · isplitl [Hb] <;> iassumption
  iintro ⟨Hb, Hheld⟩
  rw [wp_ret]; imodintro
  -- the projection's region, entered owing nothing
  ihave Hst := (Entails.of_eq (show (K (F := F)).tcSt (EH (F := F)) d ((0 : Fin 1).val + 1) = (K (F := F)).tcSt (EH (F := F)) d 1 from rfl)) $$ Hst
  ihave Ht := (tcSt_open (F := F) d) $$ Hst
  icases Ht with ⟨%W, %hW, HO, Hclose⟩
  ihave Hlev := ((K (F := F)).ctx_levAts κ) $$ Hctx
  ihave Hpre := (Entails.of_eq (held_V3' (F := F) m d)) $$ Hheld
  iapply (region_step (F := F) m d W _) $$ [Hb Hpre HO HG Hclose Hlev]
  isplitl [Hclose]
  swap
  · isplitl [Hb]; · iexact Hb
    isplitl [Hpre HO]
    · iapply (Entails.of_eq (pre_eq (F := F) m d W).symm)
      isplitl [Hpre]; · iexact Hpre
      iexact HO
    isplitl [Hlev]; · iexact Hlev
    iexact HG
  iintro ⟨Hb, Hpost⟩
  ihave Hp := (Entails.of_eq (post_eq (F := F) m d W)) $$ Hpost
  icases Hp with ⟨⟨Hv1, Hv0, Hv2, Hv3⟩, HO, ⟨Ha0, Ha1, Ha2, Ha3, Hv4⟩⟩
  -- the transpose of the result
  iapply (wp_hlo_within 𝒱 (SparseCore.T d) none Set.univ (op := opT2) (S := S9) hT2 (V := V4 m d W)) $$ [Hb Ha0 Ha1 Ha2 Ha3 Hv0 Hv1 Hv2 Hv3 Hv4]
  · isplitl [Hb]; · iexact Hb
    rw [held_S9, V4_v3, V4_of_ne m d W (show a0' ≠ v3' by decide), V4_of_ne m d W (show a1' ≠ v3' by decide), V4_of_ne m d W (show a2' ≠ v3' by decide),
      V4_of_ne m d W (show a3' ≠ v3' by decide), V4_of_ne m d W (show v0' ≠ v3' by decide), V4_of_ne m d W (show v1' ≠ v3' by decide),
      V4_of_ne m d W (show v2' ≠ v3' by decide), V4_of_ne m d W (show v4' ≠ v3' by decide)]
    isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    iexact Hv4
  iintro ⟨Hb, Hheld⟩
  ihave Hh := (Entails.of_eq (held_S9 (F := F) d ((opT2 (F := F)).result (V4 m d W)))) $$ Hheld
  icases Hh with ⟨Ha0, Ha1, Ha2, Ha3, -, -, -, -, Hv4⟩
  rw [wp_ret]; imodintro; imodintro
  isplitl [Hclose HO]
  · unfold Pipeline.Dat.owesAt Pipeline.owesWithin
    icases HO with ⟨%W', %hW', HO⟩
    iapply Hclose $$ [] [HO]
    · ipureintro
      intro p hp
      rcases hW' hp with h | ⟨w, s, rfl⟩
      · exact hW p h
      · exact Nat.zero_le _
    · iexact HO
  have e0 : V5 m d W a0' = m (d, a0') := (V5_of_ne m d W (by decide)).trans ((V4_of_ne m d W (by decide)).trans (V3_a0 m d))
  have e1 : V5 m d W a1' = m (d, a1') := (V5_of_ne m d W (by decide)).trans ((V4_of_ne m d W (by decide)).trans (V3_a1 m d))
  have e2 : V5 m d W a2' = m (d, a2') := (V5_of_ne m d W (by decide)).trans ((V4_of_ne m d W (by decide)).trans (V3_a2 m d))
  have e3 : V5 m d W a3' = m (d, a3') := (V5_of_ne m d W (by decide)).trans ((V4_of_ne m d W (by decide)).trans (V3_a3 m d))
  unfold V5 at e0 e1 e2 e3
  ihave Ha0 := (Entails.of_eq (congrArg (pl (F := F) d a0') e0)) $$ Ha0
  ihave Ha1 := (Entails.of_eq (congrArg (pl (F := F) d a1') e1)) $$ Ha1
  ihave Ha2 := (Entails.of_eq (congrArg (pl (F := F) d a2') e2)) $$ Ha2
  ihave Ha3 := (Entails.of_eq (congrArg (pl (F := F) d a3') e3)) $$ Ha3
  isplitl [Ha0]; · iexact Ha0
  isplitl [Ha1]; · iexact Ha1
  isplitl [Ha2]; · iexact Ha2
  isplitl [Ha3]; · iexact Ha3
  iexists W; iexact Hv4

end Cert.Proof.KB

end
-- ==== Proof.ScGhostB.lean ====
/-
  The launch element of the kernel's ghost state: the handshakes' rounds, the dense projection's staging cells and the
  transfers' counters side by side. Owning it splits three ways; the staging cells' part funds, for each device, the
  ghost state and the duty tokens the projection's region is entered with.
-/
import proofs.«204135_g55705725829175_cont_9to1c4b_393_20_alg».proof.Proof.ScLaunch2B
import Idealize.ShloMosaic.Lib.Pipeline.Sound
import Idealize.ShloMosaic.Lib.Pipeline.Kit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UC ℕ

variable (m : (ℓ : Loc nD τ sig) → Buf (Elt F) ℓ)

variable [FloatOps F]

/-- The launch element: the handshakes' cells and tokens, the staging cells' and their tokens, the counters' unit. -/
def u₀ : UC :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

omit [FloatOps F] in
private theorem bigSep_emp' {I : Type} (s : Finset I) : (bigSep s fun _ => iprop(emp)) = (iprop(emp) : sProp 𝕄) := bigSep_emp_const s

/-- Owning the launch element gives the handshakes' element, every device's staging-cell ghost state and tokens, and
    nothing more for the calls' extra parts. -/
theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P (F := F) (UU := UC) m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold Gd
    rw [bigSep_sep']
    isplitl [Hg]
    · rw [show (bigSep Finset.univ fun d : Dev nD => Pipeline.cellsGhost (Pipeline.pin (pcfgs (F := F)) adm) EP 0 d)
          = (bigSep Finset.univ fun d : Dev nD => bigSep Finset.univ fun p : Fin 1 => (Pipeline.cellsGhost (Pipeline.pin (pcfgs (F := F)) adm) EP p d : sProp 𝕄))
          from bigSep_congr fun d _ => (bigSep_univ_of_subsingleton (0 : Fin 1)
            (Φ := fun p : Fin 1 => (Pipeline.cellsGhost (Pipeline.pin (pcfgs (F := F)) adm) EP p d : sProp 𝕄))).symm]
      iexact Hg
    · rw [show (bigSep Finset.univ fun d : Dev nD => Pipeline.toksInit (Pipeline.pin (pcfgs (F := F)) adm) EP 0 d)
          = (bigSep Finset.univ fun d : Dev nD => bigSep Finset.univ fun p : Fin 1 => (Pipeline.toksInit (Pipeline.pin (pcfgs (F := F)) adm) EP p d : sProp 𝕄))
          from bigSep_congr fun d _ => (bigSep_univ_of_subsingleton (0 : Fin 1)
            (Φ := fun p : Fin 1 => (Pipeline.toksInit (Pipeline.pin (pcfgs (F := F)) adm) EP p d : sProp 𝕄))).symm]
      iexact Ht
  rw [show (bigSep Finset.univ fun thr : Thread nD τ => bigSep Finset.univ fun q : Fin 1 => (P (F := F) (UU := UC) m).x q thr) = bigSep Finset.univ fun _ => iprop(emp) from
    bigSep_congr fun _ _ => bigSep_univ_of_subsingleton (0 : Fin 1), bigSep_emp']
  iempintro

end Cert.Proof.KB

end
-- ==== Proof.ScRunB.lean ====
/-
  The idealized kernel's run and what it leaves: every weakly fair execution of the TensorCore's @main beside the
  SparseCores' sequencers and subcores terminates, the four argument arrays end at their launch contents and the result
  array at the transpose of what the projection's region leaves — from the body obligation of one subcore's task, taken
  as a hypothesis here and proved of the printed body in its own module.
-/
import proofs.«204135_g55705725829175_cont_9to1c4b_393_20_alg».proof.Proof.ScMainB
import proofs.«204135_g55705725829175_cont_9to1c4b_393_20_alg».proof.Proof.ScGhostB
import proofs.«204135_g55705725829175_cont_9to1c4b_393_20_alg».proof.Proof.PreIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
local notation "𝕄" => MT nD τ sig (HIx 1) (Elt F) ℕ UC ℕ

variable (m : (ℓ : Loc nD τ sig) → Buf (Elt F) ℓ) (ρ : Dev nD → PrngReg)

open Idealize.ShloMosaic.Pipeline (Dat BodyObligation cellOf)
open Idealize.ShloMosaic.TcCoe

variable [FloatOps F]

/-- The precondition gives what the proof asks of the index array. -/
theorem idxOK_of_pre [Cert.Pre_input_domain.Facts] (h : ∀ c : Dev nD,
    Cert.Pre_input_domain.fn (F := F) (m ((c.tc : Thread nD τ).loc main_arg0)) (m ((c.tc : Thread nD τ).loc main_arg1)) (m ((c.tc : Thread nD τ).loc main_arg2)) (m ((c.tc : Thread nD τ).loc main_arg3)) = fun _ => 1#1) :
    IdxOK m := fun d j => Cert.PreIdx.idx_lt (F := F) _ _ _ _ (h d) j

/-- What the final memory says on device `d`. -/
def fq (d : Dev nD) (s' : Phys nD τ sig (Elt F)) : Prop :=
  (∃ W, s'.mem.mem ((d, v4') : Loc nD τ sig) = V5 m d W v4') ∧ s'.mem.mem ((d, a0') : Loc nD τ sig) = m (d, a0') ∧ s'.mem.mem ((d, a1') : Loc nD τ sig) = m (d, a1')
    ∧ s'.mem.mem ((d, a2') : Loc nD τ sig) = m (d, a2') ∧ s'.mem.mem ((d, a3') : Loc nD τ sig) = m (d, a3')

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, %W, H4⟩, HSI⟩
  ihave H := (persistent_entails_right (SI_pointsTo_agree (st := s') (ℓ := ((d, a0') : Loc nD τ sig)) (I := Finset.univ) (q := fullShare) (f := m (d, a0')))) $$ [HSI H0]
  · isplitl [HSI] <;> iassumption
  icases H with ⟨%h0, HSI, -⟩
  ihave H := (persistent_entails_right (SI_pointsTo_agree (st := s') (ℓ := ((d, a1') : Loc nD τ sig)) (I := Finset.univ) (q := fullShare) (f := m (d, a1')))) $$ [HSI H1]
  · isplitl [HSI] <;> iassumption
  icases H with ⟨%h1, HSI, -⟩
  ihave H := (persistent_entails_right (SI_pointsTo_agree (st := s') (ℓ := ((d, a2') : Loc nD τ sig)) (I := Finset.univ) (q := fullShare) (f := m (d, a2')))) $$ [HSI H2]
  · isplitl [HSI] <;> iassumption
  icases H with ⟨%h2, HSI, -⟩
  ihave H := (persistent_entails_right (SI_pointsTo_agree (st := s') (ℓ := ((d, a3') : Loc nD τ sig)) (I := Finset.univ) (q := fullShare) (f := m (d, a3')))) $$ [HSI H3]
  · isplitl [HSI] <;> iassumption
  icases H with ⟨%h3, HSI, -⟩
  ihave H := (SI_pointsTo_agree (st := s') (ℓ := ((d, v4') : Loc nD τ sig)) (I := Finset.univ) (q := fullShare) (f := V5 m d W v4')) $$ [HSI H4]
  · isplitl [HSI] <;> iassumption
  icases H with %h4
  ipureintro
  exact ⟨⟨W, funext fun i => h4 i (Finset.mem_univ i)⟩, funext fun i => h0 i (Finset.mem_univ i), funext fun i => h1 i (Finset.mem_univ i),
    funext fun i => h2 i (Finset.mem_univ i), funext fun i => h3 i (Finset.mem_univ i)⟩

/-- The run's post: on every device the result array at the last transpose's value and the arguments unchanged. -/
def QC : PUnit × MemSt nD τ sig (Elt F) → Prop := fun r => ∀ c : Dev nD,
  (∃ W, r.2.mem ((c, v4') : Loc nD τ sig) = V5 m c W v4') ∧ r.2.mem ((c, a0') : Loc nD τ sig) = m (c, a0') ∧ r.2.mem ((c, a1') : Loc nD τ sig) = m (c, a1')
    ∧ r.2.mem ((c, a2') : Loc nD τ sig) = m (c, a2') ∧ r.2.mem ((c, a3') : Loc nD τ sig) = m (c, a3')

theorem run_main [∀ e, Nonempty (Elt F e)] (hb : TileBody (UU := UC) m) (hidx : IdxOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (UU := UC) m) facts v₀
    (fun q hq => match q with | 0 => nomatch hq)
    (fun q _ => match q with | 0 => tileObl m hb facts hidx)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h => h)

end Cert.Proof.KB

end
-- ==== Proof.ScBodyDefsB.lean ====
import proofs.«204135_g55705725829175_cont_9to1c4b_393_20_alg».proof.Proof.ScCommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

/-! ## The tile's memrefs as the program spells them -/

local notation "xV" => (Memref.whole Cert.Kernel.main_arg1_scv : Memref Cert.Kernel.sig Kind.scVector Space.hbm Cert.Kernel.S100000x128 EltTy.f32)
local notation "iV" => (Memref.whole Cert.Kernel.main_arg0_scv : Memref Cert.Kernel.sig Kind.scVector Space.hbm Cert.Kernel.S1024x50 EltTy.i32)
local notation "oV" => (Memref.whole Cert.Kernel.main_v0_scv : Memref Cert.Kernel.sig Kind.scVector Space.hbm Cert.Kernel.S1024x128 EltTy.f32)
local notation "a5" => (Memref.whole Cert.Kernel.cc0_scratch0 : Memref Cert.Kernel.sig Kind.scVector Space.vmem Cert.Kernel.S32x50 EltTy.i32)
local notation "a6" => (Memref.whole Cert.Kernel.cc0_scratch1 : Memref Cert.Kernel.sig Kind.scVector Space.vmem Cert.Kernel.S4x50x128 EltTy.f32)
local notation "a7" => (Memref.whole Cert.Kernel.cc0_scratch2 : Memref Cert.Kernel.sig Kind.scVector Space.vmem Cert.Kernel.S32x128 EltTy.f32)

section Tile
variable (d : Dev nD) (L : grid0.Coords)

abbrev thr : Thread nD τ := V d (cV L) (jV L)

theorem inb_sem (k : Fin 4) : ∀ a, (![k.val] : Fin 1 → Nat) a + S1.size a ≤ S4.size a := by revert k; decide
/-- Semaphore `k` of the ring, as the program names it. -/
abbrev semM (k : Fin 4) : DmaSems sig S_ := (cc0_scratch3.slice (Rect.unit (s := S4) ![k.val] S1.size (inb_sem k))).squeeze S_ squeezes_S1_S_

abbrev cA : GSem nD τ sig := (thr d L, .dma cc0_scoped0.sem)
abbrev cB : GSem nD τ sig := (thr d L, .dma cc0_scoped1.sem)
abbrev cS (k : Fin 4) : GSem nD τ sig := (thr d L, .dma (semM k).sem)

theorem scoped_dma (s : DmaSem sig) : (SemLoc.dma s : SemLoc sig).isScoped .scVector = true := by revert s; decide

theorem ownSems0_V :
    (ownSems0 (thr d L) : sProp 𝕄)
      = iprop(semVal (cA d L) 0 ∗ semVal (cB d L) 0 ∗ semVal (cS d L 0) 0 ∗ semVal (cS d L 1) 0 ∗ semVal (cS d L 2) 0 ∗ semVal (cS d L 3) 0
          ∗ bigSep (((((((ownCells (thr d L)).erase (cA d L)).erase (cB d L)).erase (cS d L 0)).erase (cS d L 1)).erase (cS d L 2)).erase (cS d L 3)) fun g => semVal g 0) := by
  unfold SparseCore.Cfg.ownSems0
  have hm : ∀ s : DmaSem sig, ((thr d L, SemLoc.dma s) : GSem nD τ sig) ∈ ownCells (thr d L) := fun s =>
    (mem_ownCells (g := (thr d L, SemLoc.dma s))).mpr ⟨rfl, scoped_dma s⟩
  have hne : ∀ s s' : DmaSem sig, s ≠ s' → ((thr d L, SemLoc.dma s) : GSem nD τ sig) ≠ (thr d L, SemLoc.dma s') := by
    intro s s' h e; exact h (by simpa using e)
  rw [SparseCore.bigSep_erase' (hm cc0_scoped0.sem),
    SparseCore.bigSep_erase' (Finset.mem_erase.mpr ⟨hne _ _ (by decide), hm cc0_scoped1.sem⟩),
    SparseCore.bigSep_erase' (Finset.mem_erase.mpr ⟨hne _ _ (by decide), Finset.mem_erase.mpr ⟨hne _ _ (by decide), hm (semM 0).sem⟩⟩),
    SparseCore.bigSep_erase' (Finset.mem_erase.mpr ⟨hne _ _ (by decide), Finset.mem_erase.mpr ⟨hne _ _ (by decide), Finset.mem_erase.mpr ⟨hne _ _ (by decide), hm (semM 1).sem⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), hm (semM 2).sem⟩⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), Finset.mem_erase.mpr ⟨hne _ _ (by decide), hm (semM 3).sem⟩⟩⟩⟩⟩)]

/-- The three scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  have hm0 := SparseCore.Cfg.mem_ownRefs_of_owner (p := Proc.scVector (cV L) (jV L)) (b := (Proc.scVector (cV L) (jV L)).devRef cc0_scratch0) rfl
  have hm1 := SparseCore.Cfg.mem_ownRefs_of_owner (p := Proc.scVector (cV L) (jV L)) (b := (Proc.scVector (cV L) (jV L)).devRef cc0_scratch1) rfl
  have hm2 := SparseCore.Cfg.mem_ownRefs_of_owner (p := Proc.scVector (cV L) (jV L)) (b := (Proc.scVector (cV L) (jV L)).devRef cc0_scratch2) rfl
  have hne : ∀ r r' : Ref sig .scVector, r ≠ r' → (Proc.scVector (cV L) (jV L)).devRef r ≠ (Proc.scVector (cV L) (jV L)).devRef r' :=
    fun r r' h e => h (Proc.devRef_injective _ e)
  refine (SparseCore.bigSep_erase' hm0).trans ?_
  rw [SparseCore.bigSep_erase' (Finset.mem_erase.mpr ⟨hne _ _ (by decide), hm1⟩),
    SparseCore.bigSep_erase' (Finset.mem_erase.mpr ⟨hne _ _ (by decide), Finset.mem_erase.mpr ⟨hne _ _ (by decide), hm2⟩⟩)]

abbrev irowK (L : grid0.Coords) : Rect S1024x50 := Rect.unit (s := S1024x50) (k0_off1 L) S32x50.size (k0_off1_inb L)
abbrev orowK (L : grid0.Coords) : Rect S1024x128 := Rect.unit (s := S1024x128) (k0_off416 L) S32x128.size (k0_off416_inb L)
abbrev iRowK (L : grid0.Coords) : Memref sig .scVector .hbm S32x50 .i32 := (iV).slice (irowK L) (fun _ => rfl)
abbrev oRowK (L : grid0.Coords) : Memref sig .scVector .hbm S32x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

theorem irowK_eq : irowK L = irow (wid L) := by
  unfold irowK irow Rect.part Rect.block
  congr 1 <;> funext a
  · rw [k0_off1_eq]
    match a with
    | 0 => simp [Shape.partIx, Shape.partSize, wid]; omega
    | 1 => simp [Shape.partIx, Shape.partSize]
  · match a with
    | 0 => simp [Shape.partSize]
    | 1 => simp [Shape.partSize]
theorem orowK_eq : orowK L = orow (wid L) := by
  unfold orowK orow Rect.part Rect.block
  congr 1 <;> funext a
  · rw [k0_off416_eq]
    match a with
    | 0 => simp [Shape.partIx, Shape.partSize, wid]; omega
    | 1 => simp [Shape.partIx, Shape.partSize]
  · match a with
    | 0 => simp [Shape.partSize]
    | 1 => simp [Shape.partSize]

theorem set_iRowK : (iRowK L).view.set = iRowSet (wid L) := by
  show ((iV).view.slice (irowK L)).set = ((iV).view.slice (irow (wid L))).set
  exact irowK_eq L ▸ rfl
theorem set_oRowK : (oRowK L).view.set = oRowSet (wid L) := by
  show ((oV).view.slice (orowK L)).set = ((oV).view.slice (orow (wid L))).set
  exact orowK_eq L ▸ rfl

theorem pts_iRowK (f : Buf (Elt F) (iLoc d)) :
    ((iRowK L).view.loc (thr d L) ↦[(iRowK L).view.set]{fullShare} f : sProp 𝕄) = iLoc d ↦[iRowSet (wid L)]{fullShare} f := by
  rw [set_iRowK]
theorem pts_oRowK (f : Buf (Elt F) (oLoc d)) :
    ((oRowK L).view.loc (thr d L) ↦[(oRowK L).view.set]{fullShare} f : sProp 𝕄) = oLoc d ↦[oRowSet (wid L)]{fullShare} f := by
  rw [set_oRowK]
theorem pts_xV (q : PosShare TreeShare) (f : Buf (Elt F) (xLoc d)) :
    ((xV).view.loc (thr d L) ↦{q} f : sProp 𝕄) = xLoc d ↦{q} f := rfl
theorem pts_a5 (f : Buf (Elt F) ((thr d L).loc cc0_scratch0)) :
    ((a5).view.loc (thr d L) ↦{fullShare} f : sProp 𝕄) = (thr d L).loc cc0_scratch0 ↦{fullShare} f := rfl
theorem pts_a6 (f : Buf (Elt F) ((thr d L).loc cc0_scratch1)) :
    ((a6).view.loc (thr d L) ↦{fullShare} f : sProp 𝕄) = (thr d L).loc cc0_scratch1 ↦{fullShare} f := rfl
theorem pts_a7 (f : Buf (Elt F) ((thr d L).loc cc0_scratch2)) :
    ((a7).view.loc (thr d L) ↦{fullShare} f : sProp 𝕄) = (thr d L).loc cc0_scratch2 ↦{fullShare} f := rfl

/-! ## The ring by number: slot `n`, offsets row `b`, semaphore `n` -/

theorem inb_slot (n : Nat) (h : n < 4) : ∀ a, (![n, 0, 0] : Fin 3 → Nat) a + S1x50x128.size a ≤ S4x50x128.size a := by
  interval_cases n <;> decide
theorem inb_off (b : Nat) (h : b < 32) : ∀ a, (![b, 0] : Fin 2 → Nat) a + S1x50.size a ≤ S32x50.size a := by
  interval_cases b <;> decide
theorem inb_semN (n : Nat) (h : n < 4) : ∀ a, (![n] : Fin 1 → Nat) a + S1.size a ≤ S4.size a := by
  interval_cases n <;> decide

abbrev slotN (n : Nat) (h : n < 4) : Memref sig .scVector .vmem S50x128 .f32 :=
  ((a6).slice (Rect.unit (s := S4x50x128) ![n, 0, 0] S1x50x128.size (inb_slot n h)) (fun _ => rfl)).squeeze S50x128 squeezes_S1x50x128_S50x128
abbrev offN (b : Nat) (h : b < 32) : Memref sig .scVector .vmem S50 .i32 :=
  ((a5).slice (Rect.unit (s := S32x50) ![b, 0] S1x50.size (inb_off b h)) (fun _ => rfl)).squeeze S50 squeezes_S1x50_S50
abbrev semN (n : Nat) (h : n < 4) : DmaSems sig S_ :=
  (cc0_scratch3.slice (Rect.unit (s := S4) ![n] S1.size (inb_semN n h))).squeeze S_ squeezes_S1_S_

theorem mod4 (b : Nat) : b % 4 < 4 := Nat.mod_lt _ (by norm_num)

/-- Quarter `n` of a share. -/
abbrev sh (q : PosShare TreeShare) (n : Nat) (h : n < 4) : PosShare TreeShare := leaf 2 q ⟨n, h⟩

/-- The tile's block of the index array: what the first copy lands in the index scratch. -/
def idxI : Buf (Elt F) ((thr d L).loc cc0_scratch0) := (iRowK L).view.read (Elt F) (m (iLoc d))

/-- A fixed filler for the row scratch (an element of the table everywhere). -/
def fill6 : Buf (Elt F) ((thr d L).loc cc0_scratch1) := fun _ => m (xLoc d) (ix2 ⟨0, by norm_num⟩ ⟨0, by norm_num⟩)

theorem hin_b (hidx : IdxOK m) (b : Nat) (hb : b < 32) :
    ∀ x, ((offN b hb).view.read (Elt F) (idxI m d L) x).toNat < S100000x128.size gathers_S100000x128_S50x128.axis := by
  intro x
  unfold idxI
  rw [show ∀ j, (offN b hb).view.read (Elt F) ((iRowK L).view.read (Elt F) (m (iLoc d))) j
      = (iRowK L).view.read (Elt F) (m (iLoc d)) ((offN b hb).view.emb j) from fun j => (View.read_apply _ _).trans (cast_eq _ _)]
  rw [show ∀ j, (iRowK L).view.read (Elt F) (m (iLoc d)) j = m (iLoc d) ((iRowK L).view.emb j) from fun j => (View.read_apply _ _).trans (cast_eq _ _)]
  exact hidx d _

/-- The row scratch with gather `b` landed in its slot (the filler elsewhere). -/
def gath (hidx : IdxOK m) (b : Nat) (hb : b < 32) : Buf (Elt F) ((thr d L).loc cc0_scratch1) :=
  (slotN (b % 4) (mod4 b)).view.write (Elt F) (fill6 m d L)
    (SparseCore.gatherPayload gathers_S100000x128_S50x128 ((xAllK).view.read (Elt F) (m (xLoc d)))
      (SparseCore.rows ((offN b hb).view.read (Elt F) (idxI m d L)) rfl (hin_b m d L hidx b hb))) Finset.univ

theorem write_univ_congr {κ : Kind} {sp : Space} {s : Shape} {e : EltTy} (v : View sig κ sp s e) (f g : v.ty.Contents (Elt F)) (w : s.Idx → Elt F e) :
    ∀ i ∈ v.set, v.write (Elt F) f w Finset.univ i = v.write (Elt F) g w Finset.univ i := by
  intro i hi
  obtain ⟨x, -, rfl⟩ := Finset.mem_map.mp hi
  rw [View.write_emb_of_mem _ _ (Finset.mem_univ x), View.write_emb_of_mem _ _ (Finset.mem_univ x)]

section Res
variable (hidx : IdxOK m)

/-- What gather `b` delivers: its slot at the gathered rows, and the shares of the table and of the offsets row it held. -/
def FlyD (b : Nat) (hb : b < 32) : sProp 𝕄 :=
  iprop(((slotN (b % 4) (mod4 b)).view.loc (V d (cV L) (jV L)) ↦[(slotN (b % 4) (mod4 b)).view.set]{fullShare} gath m d L hidx b hb)
    ∗ ((xAllK).view.loc (V d (cV L) (jV L)) ↦[(xAllK).view.set]{sh (xq (wid L)) (b % 4) (mod4 b)} m (xLoc d))
    ∗ ((offN b hb).view.loc (V d (cV L) (jV L)) ↦[(offN b hb).view.set]{sh fullShare (b % 4) (mod4 b)} idxI m d L))

/-- What is left beside a gather in flight: the rest of the slot's shares of the table and of the index scratch. -/
def Rest (b : Nat) (hb : b < 32) : sProp 𝕄 :=
  iprop(((xV).view.loc (V d (cV L) (jV L)) ↦[Finset.univ \ (xAllK).view.set]{sh (xq (wid L)) (b % 4) (mod4 b)} m (xLoc d))
    ∗ ((a5).view.loc (V d (cV L) (jV L)) ↦[Finset.univ \ (offN b hb).view.set]{sh fullShare (b % 4) (mod4 b)} idxI m d L))

/-- Gather `b` in flight on its slot's semaphore. -/
def Fly (b : Nat) (hb : b < 32) : sProp 𝕄 :=
  iprop(Transfers.Flight countersEmb (V d (cV L) (jV L)) (.dma (semN (b % 4) (mod4 b)).sem) (default : HIx 1) (slotN (b % 4) (mod4 b)).view.dmaCredit (FlyD m d L hidx b hb)
    ∗ Rest m d L b hb)

/-- Gather `b` landed: its delivery, the semaphore back at zero, the rests. -/
def Landed (b : Nat) (hb : b < 32) : sProp 𝕄 :=
  iprop(FlyD m d L hidx b hb ∗ semVal (V d (cV L) (jV L), SemLoc.dma (semN (b % 4) (mod4 b)).sem) 0 ∗ Rest m d L b hb)

/-- Slot `n` free: the slot at some contents, its semaphore at zero, its shares of the table and of the index scratch. -/
def Free (n : Nat) (h : n < 4) : sProp 𝕄 :=
  iprop((∃ f, (slotN n h).view.loc (V d (cV L) (jV L)) ↦[(slotN n h).view.set]{fullShare} f)
    ∗ semVal (V d (cV L) (jV L), SemLoc.dma (semN n h).sem) 0
    ∗ ((xV).view.loc (V d (cV L) (jV L)) ↦{sh (xq (wid L)) n h} m (xLoc d))
    ∗ ((a5).view.loc (V d (cV L) (jV L)) ↦{sh fullShare n h} idxI m d L))

end Res

section Steps
variable [FloatOps F] (hidx : IdxOK m)

/-- A free slot starts gather `b` (`b % 4` its number): the slot, the semaphore at zero, the slot's share of the table and
    of row `b` of the index scratch go into the stream; back comes the gather in flight. -/
theorem start_gather (b : Nat) (hb : b < 32) {α : Type} {Q : α → sProp 𝕄}
    {k : PUnit → Prog (TpuEff nD τ sig (Elt F) Λ₀ (V d (cV L) (jV L)).2) α}
    {hp hn hsrc he hsp hr} :
    (Free m d L (b % 4) (mod4 b) : sProp 𝕄)
      ⊢ iprop((Fly m d L hidx b hb -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.enqueueIndirectGather hp (xAllK) (slotN (b % 4) (mod4 b)) gathers_S100000x128_S50x128 (offN b hb) hn (semN (b % 4) (mod4 b)).sem hsrc he hsp hr >>= k) Q) := by
  unfold Free Fly Rest
  iintro ⟨⟨%f, Hd⟩, Hv, Hx, H5⟩ Hk
  ihave Hxs := (pointsTo_split_subset (q := sh (xq (wid L)) (b % 4) (mod4 b)) (f := m (xLoc d)) (S := Finset.univ) (Finset.subset_univ (xAllK).view.set)).1 $$ Hx
  icases Hxs with ⟨Hxs, Hxr⟩
  ihave H5s := (pointsTo_split_subset (q := sh fullShare (b % 4) (mod4 b)) (f := idxI m d L) (S := Finset.univ) (Finset.subset_univ (offN b hb).view.set)).1 $$ H5
  icases H5s with ⟨H5s, H5r⟩
  iapply (SparseCore.wp_indirectGatherLocal countersEmb 𝒱₀ (V d (cV L) (jV L)) none (hg := gathers_S100000x128_S50x128) (default : HIx 1)
      (slotN (b % 4) (mod4 b)).view.dmaCredit (SparseCore.sum_rowCredit_eq_dmaCredit _ _ (fun _ => rfl)) (by decide) (hin_b m d L hidx b hb)) $$ [Hxs Hd H5s Hv]
  · isplitl [Hxs]; · iexact Hxs
    isplitl [Hd]; · iexact Hd
    isplitl [H5s]; · iexact H5s
    iexact Hv
  iintro Hfl
  iapply Hk
  isplitl [Hfl]
  · iapply (Transfers.Flight_mono countersEmb (V d (cV L) (jV L)) (D' := FlyD m d L hidx b hb) (by
      unfold FlyD gath
      iintro ⟨Hd, Hs, Ho⟩
      isplitl [Hd]
      · iapply (Entails.of_eq (pointsTo_congr (write_univ_congr (slotN (b % 4) (mod4 b)).view f (fill6 m d L) _))); iexact Hd
      isplitl [Hs] <;> iassumption)) $$ Hfl
  isplitl [Hxr] <;> iassumption

/-- The wait for gather `b` on its slot's semaphore. -/
theorem wait_gather (b : Nat) (hb : b < 32) {α : Type} {Q : α → sProp 𝕄}
    {s' : Shape} {e' : EltTy} {sp sp' : Space} {s : Shape} {e : EltTy} {κ' : Kind}
    {srcw : Memref sig (V d (cV L) (jV L)).2.kind sp' s' e'} {dstw : Memref sig κ' sp s e} {hsrc : srcw.view.WordExact} {hdst : dstw.view.WordExact}
    {k : PUnit → Prog (TpuEff nD τ sig (Elt F) Λ₀ (V d (cV L) (jV L)).2) α}
    (hN : dstw.view.dmaCredit = (slotN (b % 4) (mod4 b)).view.dmaCredit)
    {O : CellTallies nD τ sig (HIx 1)} {W : Waits sig (HIx 1)} :
    (iprop(Fly m d L hidx b hb ∗ owes (V d (cV L) (jV L)) O W ∗ Transfers.MayWaits (V d (cV L) (jV L)) (default : HIx 1) O) : sProp 𝕄)
      ⊢ iprop((iprop(Landed m d L hidx b hb ∗ owes (V d (cV L) (jV L)) O (insert (SemLoc.dma (semN (b % 4) (mod4 b)).sem, (default : HIx 1)) W))
            -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 (semN (b % 4) (mod4 b)).sem srcw dstw hsrc hdst) k) Q) := by
  unfold Fly Landed
  iintro ⟨⟨Hfl, Hr⟩, HO, Hmw⟩ Hk
  iapply (Transfers.wp_waitLocalO countersEmb 𝒱₀ (V d (cV L) (jV L)) none (default : HIx 1) hN) $$ [Hfl HO Hmw]
  · isplitl [Hfl]; · iexact Hfl
    isplitl [HO]; · iexact HO
    iapply (Transfers.MayWaits.elim (SemLoc.dma (semN (b % 4) (mod4 b)).sem)) $$ Hmw
  iintro ⟨HD, Hv, HO⟩
  iapply Hk
  isplitr [HO]; swap; · iexact HO
  isplitl [HD]; · iexact HD
  isplitl [Hv] <;> iassumption

/-- A landed gather's slot is free again. -/
theorem landed_free (b : Nat) (hb : b < 32) : (Landed m d L hidx b hb : sProp 𝕄) ⊢ Free m d L (b % 4) (mod4 b) := by
  unfold Landed FlyD Rest Free
  iintro ⟨⟨Hd, Hxs, H5s⟩, Hv, Hxr, H5r⟩
  isplitl [Hd]; · iexists _; iexact Hd
  isplitl [Hv]; · iexact Hv
  isplitl [Hxs Hxr]
  · iapply (pointsTo_split_subset (q := sh (xq (wid L)) (b % 4) (mod4 b)) (f := m (xLoc d)) (S := Finset.univ) (Finset.subset_univ (xAllK).view.set)).2
    isplitl [Hxs] <;> iassumption
  · iapply (pointsTo_split_subset (q := sh fullShare (b % 4) (mod4 b)) (f := idxI m d L) (S := Finset.univ) (Finset.subset_univ (offN b hb).view.set)).2
    isplitl [H5s] <;> iassumption

end Steps

/-! ## Quarters of a share; the four slots of the row scratch -/

theorem sh0 (q : PosShare TreeShare) : sh q 0 (by norm_num) = q.left.left := by simp [sh, leaf]
theorem sh1 (q : PosShare TreeShare) : sh q 1 (by norm_num) = q.left.right := by simp [sh, leaf]
theorem sh2 (q : PosShare TreeShare) : sh q 2 (by norm_num) = q.right.left := by simp [sh, leaf]
theorem sh3 (q : PosShare TreeShare) : sh q 3 (by norm_num) = q.right.right := by simp [sh, leaf]

theorem pts_quarters {ℓ : Loc nD τ sig} (I : Finset (Idx ℓ)) (f : Buf (Elt F) ℓ) (q : PosShare TreeShare) :
    (ℓ ↦[I]{q} f : sProp 𝕄) ⊣⊢ iprop((ℓ ↦[I]{sh q 0 (by norm_num)} f) ∗ (ℓ ↦[I]{sh q 1 (by norm_num)} f) ∗ (ℓ ↦[I]{sh q 2 (by norm_num)} f) ∗ (ℓ ↦[I]{sh q 3 (by norm_num)} f)) := by
  rw [sh0, sh1, sh2, sh3]
  constructor
  · iintro H
    ihave H := (pointsTo_share (PosShare.mem_left_op_right q)).1 $$ H
    icases H with ⟨Hl, Hr⟩
    ihave Hl := (pointsTo_share (PosShare.mem_left_op_right q.left)).1 $$ Hl
    icases Hl with ⟨Hll, Hlr⟩
    ihave Hr := (pointsTo_share (PosShare.mem_left_op_right q.right)).1 $$ Hr
    icases Hr with ⟨Hrl, Hrr⟩
    isplitl [Hll]; · iexact Hll
    isplitl [Hlr]; · iexact Hlr
    isplitl [Hrl] <;> iassumption
  · iintro ⟨Hll, Hlr, Hrl, Hrr⟩
    iapply (pointsTo_share (PosShare.mem_left_op_right q)).2
    isplitl [Hll Hlr]
    · iapply (pointsTo_share (PosShare.mem_left_op_right q.left)).2
      isplitl [Hll] <;> iassumption
    · iapply (pointsTo_share (PosShare.mem_left_op_right q.right)).2
      isplitl [Hrl] <;> iassumption

theorem sdiv : 4 ∣ S4x50x128.size 0 := ⟨1, rfl⟩
abbrev srow (k : Fin 4) : Rect S4x50x128 := Rect.part (s := S4x50x128) (a₀ := 0) sdiv k
abbrev slotSet (k : Fin 4) : Finset (Idx ((thr d L).loc cc0_scratch1)) := (slotN k.val k.isLt).view.set

theorem slot_rect_eq (k : Fin 4) : Rect.unit (s := S4x50x128) ![k.val, 0, 0] S1x50x128.size (inb_slot k.val k.isLt) = srow k := by
  unfold srow Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem slotSet_eq (k : Fin 4) : slotSet d L k = (srow k).set := by
  show (((a6).view.slice (Rect.unit (s := S4x50x128) ![k.val, 0, 0] S1x50x128.size (inb_slot k.val k.isLt))).reshape S50x128 squeezes_S1x50x128_S50x128.numel_eq).set = _
  rw [View.set_reshape]
  have h1 : ((a6).view.slice (Rect.unit (s := S4x50x128) ![k.val, 0, 0] S1x50x128.size (inb_slot k.val k.isLt))).set = ((a6).view.slice (srow k)).set :=
    slot_rect_eq k ▸ rfl
  refine h1.trans ?_
  show ((View.whole (cc0_scratch1 : Ref sig .scVector)).slice (srow k)).set = _
  rw [View.set_slice]; exact Finset.map_refl

theorem slots_disjoint : ∀ i ∈ (Finset.univ : Finset (Fin 4)), ∀ j ∈ (Finset.univ : Finset (Fin 4)), i ≠ j → Disjoint (slotSet d L i) (slotSet d L j) :=
  fun i _ j _ h => by rw [slotSet_eq, slotSet_eq]; exact Rect.part_disjoint sdiv h
theorem slots_cover : (Finset.univ : Finset (Fin 4)).biUnion (slotSet d L) = Finset.univ :=
  (Finset.biUnion_congr rfl fun i _ => slotSet_eq d L i).trans (Rect.biUnion_part sdiv)

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

theorem a6_slots (f : Buf (Elt F) ((thr d L).loc cc0_scratch1)) :
    ((thr d L).loc cc0_scratch1 ↦{fullShare} f : sProp 𝕄)
      = iprop(((thr d L).loc cc0_scratch1 ↦[slotSet d L 0]{fullShare} f) ∗ ((thr d L).loc cc0_scratch1 ↦[slotSet d L 1]{fullShare} f)
          ∗ ((thr d L).loc cc0_scratch1 ↦[slotSet d L 2]{fullShare} f) ∗ ((thr d L).loc cc0_scratch1 ↦[slotSet d L 3]{fullShare} f)) := by
  rw [← bigSep_fin4 (fun k => ((thr d L).loc cc0_scratch1 ↦[slotSet d L k]{fullShare} f : sProp 𝕄)),
    ← pointsTo_biUnion Finset.univ (ℓ := (thr d L).loc cc0_scratch1) (slotSet d L) (slots_disjoint d L), slots_cover]

theorem a6_join (fs : Fin 4 → Buf (Elt F) ((thr d L).loc cc0_scratch1)) :
    (iprop(((thr d L).loc cc0_scratch1 ↦[slotSet d L 0]{fullShare} fs 0) ∗ ((thr d L).loc cc0_scratch1 ↦[slotSet d L 1]{fullShare} fs 1)
          ∗ ((thr d L).loc cc0_scratch1 ↦[slotSet d L 2]{fullShare} fs 2) ∗ ((thr d L).loc cc0_scratch1 ↦[slotSet d L 3]{fullShare} fs 3)) : sProp 𝕄)
      ⊢ iprop(∃ g, (thr d L).loc cc0_scratch1 ↦{fullShare} g) := by
  rw [← bigSep_fin4 (fun k => ((thr d L).loc cc0_scratch1 ↦[slotSet d L k]{fullShare} fs k : sProp 𝕄))]
  iintro H
  ihave H' := (pointsTo_biUnion_join (ℓ := (thr d L).loc cc0_scratch1) (q := fullShare) (Val := Elt F) Finset.univ (slotSet d L) fs (fs 0) (slots_disjoint d L)) $$ H
  icases H' with ⟨%g, -, Hg⟩
  rw [slots_cover]
  iexists g; iexact Hg

section Inv
variable [FloatOps F] (hidx : IdxOK m)

/-- Gather `b` in flight if there is one (`b < 32`), else its slot free. -/
def FlyOrFree (b : Nat) : sProp 𝕄 := if hb : b < 32 then Fly m d L hidx b hb else Free m d L (b % 4) (mod4 b)

theorem FlyOrFree_lt {b : Nat} (hb : b < 32) : (FlyOrFree m d L hidx b : sProp 𝕄) = Fly m d L hidx b hb := dif_pos hb
theorem FlyOrFree_ge {b : Nat} (hb : ¬ b < 32) : (FlyOrFree m d L hidx b : sProp 𝕄) = Free m d L (b % 4) (mod4 b) := dif_neg hb

/-- The pooled scratch before trip `t`: rows below `t` at the pooled array's rows of this tile, the others as at entry. -/
def poolSt (f7 : Buf (Elt F) ((thr d L).loc cc0_scratch2)) (t : Nat) : Buf (Elt F) ((thr d L).loc cc0_scratch2) :=
  fun j => if (j 0).val < t then poolF m d ((oRowK L).view.emb j) else f7 j

/-- The loop's invariant before trip `t`. -/
def inv (f7 : Buf (Elt F) ((thr d L).loc cc0_scratch2)) (O : CellTallies nD τ sig (HIx 1)) (W : Waits sig (HIx 1)) (t : Nat) (_ : PUnit) : sProp 𝕄 :=
  iprop(Transfers.MayWaits (V d (cV L) (jV L)) (default : HIx 1) O
    ∗ FlyOrFree m d L hidx t ∗ FlyOrFree m d L hidx (t + 1) ∗ FlyOrFree m d L hidx (t + 2) ∗ Free m d L ((t + 3) % 4) (mod4 (t + 3))
    ∗ ((a7).view.loc (V d (cV L) (jV L)) ↦{fullShare} poolSt m d L f7 t)
    ∗ ∃ W', ⌜∀ p ∈ W', p ∈ W ∨ p.2 = none⌝ ∗ owes (V d (cV L) (jV L)) O W')

end Inv

section Steps2
variable [FloatOps F] (hidx : IdxOK m)

theorem free_intro (n : Nat) (h : n < 4) (f : Buf (Elt F) ((thr d L).loc cc0_scratch1)) :
    (iprop(((slotN n h).view.loc (V d (cV L) (jV L)) ↦[(slotN n h).view.set]{fullShare} f)
      ∗ semVal (V d (cV L) (jV L), SemLoc.dma (semN n h).sem) 0
      ∗ ((xV).view.loc (V d (cV L) (jV L)) ↦{sh (xq (wid L)) n h} m (xLoc d))
      ∗ ((a5).view.loc (V d (cV L) (jV L)) ↦{sh fullShare n h} idxI m d L)) : sProp 𝕄) ⊢ Free m d L n h := by
  unfold Free
  iintro ⟨Hd, Hv, Hx, H5⟩
  isplitl [Hd]; · iexists f; iexact Hd
  isplitl [Hv]; · iexact Hv
  isplitl [Hx] <;> iassumption

theorem poolSt_zero (f7 : Buf (Elt F) ((thr d L).loc cc0_scratch2)) : poolSt m d L f7 0 = f7 := by
  funext j; simp [poolSt]

end Steps2

section Steps3
variable [FloatOps F] (hidx : IdxOK m)

theorem cond_iff : ∀ t : Fin k0_t1_loop.trips, k0_cond1 t = 1#1 ↔ t.val + 3 < 32 := by decide +kernel

/-- What a landed gather holds beside its slot. -/
def LRest (b : Nat) (hb : b < 32) : sProp 𝕄 :=
  iprop(((xAllK).view.loc (V d (cV L) (jV L)) ↦[(xAllK).view.set]{sh (xq (wid L)) (b % 4) (mod4 b)} m (xLoc d))
    ∗ ((offN b hb).view.loc (V d (cV L) (jV L)) ↦[(offN b hb).view.set]{sh fullShare (b % 4) (mod4 b)} idxI m d L)
    ∗ semVal (V d (cV L) (jV L), SemLoc.dma (semN (b % 4) (mod4 b)).sem) 0 ∗ Rest m d L b hb)

theorem landed_open (b : Nat) (hb : b < 32) :
    (Landed m d L hidx b hb : sProp 𝕄)
      ⊢ iprop(((slotN (b % 4) (mod4 b)).view.loc (V d (cV L) (jV L)) ↦[(slotN (b % 4) (mod4 b)).view.set]{fullShare} gath m d L hidx b hb) ∗ LRest m d L b hb) := by
  unfold Landed FlyD LRest
  iintro ⟨⟨Hd, Hxs, H5s⟩, Hv, Hr⟩
  isplitl [Hd]; · iexact Hd
  isplitl [Hxs]; · iexact Hxs
  isplitl [H5s]; · iexact H5s
  isplitl [Hv] <;> iassumption

theorem lrest_free (b : Nat) (hb : b < 32) (f : Buf (Elt F) ((thr d L).loc cc0_scratch1)) :
    (iprop(((slotN (b % 4) (mod4 b)).view.loc (V d (cV L) (jV L)) ↦[(slotN (b % 4) (mod4 b)).view.set]{fullShare} f) ∗ LRest m d L b hb) : sProp 𝕄)
      ⊢ Free m d L (b % 4) (mod4 b) := by
  unfold LRest Rest Free
  iintro ⟨Hd, Hxs, H5s, Hv, Hxr, H5r⟩
  isplitl [Hd]; · iexists f; iexact Hd
  isplitl [Hv]; · iexact Hv
  isplitl [Hxs Hxr]
  · iapply (pointsTo_split_subset (q := sh (xq (wid L)) (b % 4) (mod4 b)) (f := m (xLoc d)) (S := Finset.univ) (Finset.subset_univ (xAllK).view.set)).2
    isplitl [Hxs] <;> iassumption
  · iapply (pointsTo_split_subset (q := sh fullShare (b % 4) (mod4 b)) (f := idxI m d L) (S := Finset.univ) (Finset.subset_univ (offN b hb).view.set)).2
    isplitl [H5s] <;> iassumption

/-- `wait_gather` at any spelling of the slot's semaphore. -/
theorem wait_gather' (b : Nat) (hb : b < 32) {α : Type} {Q : α → sProp 𝕄}
    {s' : Shape} {e' : EltTy} {sp sp' : Space} {s : Shape} {e : EltTy} {κ' : Kind} {sem : DmaSem sig}
    {srcw : Memref sig (V d (cV L) (jV L)).2.kind sp' s' e'} {dstw : Memref sig κ' sp s e} {hsrc : srcw.view.WordExact} {hdst : dstw.view.WordExact}
    {k : PUnit → Prog (TpuEff nD τ sig (Elt F) Λ₀ (V d (cV L) (jV L)).2) α}
    (hsem : sem = (semN (b % 4) (mod4 b)).sem)
    (hN : dstw.view.dmaCredit = (slotN (b % 4) (mod4 b)).view.dmaCredit)
    {O : CellTallies nD τ sig (HIx 1)} {W : Waits sig (HIx 1)} :
    (iprop(Fly m d L hidx b hb ∗ owes (V d (cV L) (jV L)) O W ∗ Transfers.MayWaits (V d (cV L) (jV L)) (default : HIx 1) O) : sProp 𝕄)
      ⊢ iprop((iprop(Landed m d L hidx b hb ∗ owes (V d (cV L) (jV L)) O (insert (SemLoc.dma (semN (b % 4) (mod4 b)).sem, (default : HIx 1)) W))
            -∗ wp frame (wpE (defs₀ (F := F)) 𝒱₀ (V d (cV L) (jV L)) none) Set.univ (k ⟨⟩) Q)
          -∗ wp frame (wpE (defs₀ (F := F)) 𝒱₀ (V d (cV L) (jV L)) none) Set.univ (.op (.waitDma2 sem srcw dstw hsrc hdst) k) Q) := by
  subst hsem
  exact wait_gather m d L hidx b hb hN

/-- The gather a trip starts, as the trip spells it (slot, offsets row and semaphore through the trip's own offset
    functions), under the trip's condition. -/
theorem start_gather' (t : Fin k0_t1_loop.trips) (hc : k0_cond1 t = 1#1) (hb : t.val + 3 < 32) {α : Type} {Q : α → sProp 𝕄}
    {k : PUnit → Prog (TpuEff nD τ sig (Elt F) Λ₀ (V d (cV L) (jV L)).2) α}
    {hp hn hsrc he hsp hr} :
    (Free m d L ((t.val + 3) % 4) (mod4 (t.val + 3)) : sProp 𝕄)
      ⊢ iprop((Fly m d L hidx (t.val + 3) hb -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.enqueueIndirectGather hp (xAllK)
                (((a6).slice (Rect.unit (s := S4x50x128) (k0_off5 t) S1x50x128.size (k0_off5_inb t hc)) (fun _ => rfl)).squeeze S50x128 squeezes_S1x50x128_S50x128)
                gathers_S100000x128_S50x128
                (((a5).slice (Rect.unit (s := S32x50) (k0_off6 t) S1x50.size (k0_off6_inb t hc)) (fun _ => rfl)).squeeze S50 squeezes_S1x50_S50)
                hn ((cc0_scratch3.slice (Rect.unit (s := S4) (k0_off7 t) S1.size (k0_off7_inb t hc))).squeeze S_ squeezes_S1_S_).sem hsrc he hsp hr >>= k) Q) := by
  have e1 := Memref.slice_unit_congr (a6) (k0_off5_eq t) (k0_off5_inb t hc) (inb_slot _ (mod4 (t.val + 3))) (fun _ => rfl) (fun _ => rfl)
  have e2 := Memref.slice_unit_congr (a5) (k0_off6_eq t) (k0_off6_inb t hc) (inb_off _ hb) (fun _ => rfl) (fun _ => rfl)
  have e3 := SemArray.slice_unit_congr cc0_scratch3 (k0_off7_eq t) (k0_off7_inb t hc) (inb_semN _ (mod4 (t.val + 3)))
  rw [e1, e2, e3]
  exact start_gather m d L hidx (t.val + 3) hb

end Steps3

section Steps4
variable [FloatOps F] (hidx : IdxOK m)

theorem free_open (n : Nat) (h : n < 4) :
    (Free m d L n h : sProp 𝕄) ⊢ iprop((∃ f, (slotN n h).view.loc (V d (cV L) (jV L)) ↦[(slotN n h).view.set]{fullShare} f)
      ∗ semVal (V d (cV L) (jV L), SemLoc.dma (semN n h).sem) 0
      ∗ ((xV).view.loc (V d (cV L) (jV L)) ↦{sh (xq (wid L)) n h} m (xLoc d))
      ∗ ((a5).view.loc (V d (cV L) (jV L)) ↦{sh fullShare n h} idxI m d L)) := by
  unfold Free; exact .rfl

theorem Free_congr {n n' : Nat} (e : n = n') (h : n < 4) (h' : n' < 4) : (Free m d L n h : sProp 𝕄) = Free m d L n' h' := by
  subst e; rfl

/-- The copy-out writes the tile's rows of the pooled array. -/
theorem pool_out (f7 : Buf (Elt F) ((thr d L).loc cc0_scratch2)) (g : Buf (Elt F) (oLoc d)) :
    ∀ i ∈ (oRowK L).view.set,
      (oRowK L).view.writes (Elt F) g [⟨Rect.whole S32x128, (a7).view.read (Elt F) (poolSt m d L f7 32)⟩] i = poolF m d i := by
  intro i hi
  obtain ⟨x, -, rfl⟩ := Finset.mem_map.mp hi
  have h1 := View.read_writes_cons_emb (oRowK L).view g (Rect.whole S32x128) ((a7).view.read (Elt F) (poolSt m d L f7 32)) [] x
  rw [Rect.emb_whole_apply] at h1
  have h2 : (oRowK L).view.read (Elt F) ((oRowK L).view.writes (Elt F) g [⟨Rect.whole S32x128, (a7).view.read (Elt F) (poolSt m d L f7 32)⟩]) x
      = (oRowK L).view.writes (Elt F) g [⟨Rect.whole S32x128, (a7).view.read (Elt F) (poolSt m d L f7 32)⟩] ((oRowK L).view.emb x) :=
    (View.read_apply _ _).trans (cast_eq _ _)
  rw [← h2, h1]
  simp only [Memref.view_whole, View.read_whole]
  unfold poolSt
  have hx : (x 0).val < 32 := (x 0).isLt
  simp only [hx, if_true]

end Steps4
end Tile
end Cert.Proof.KB
end
-- ==== Proof.ScBodyLoadB.lean ====
import proofs.«204135_g55705725829175_cont_9to1c4b_393_20_alg».proof.Proof.ScBodyDefsB
import Idealize.ShloMosaic.Lib.ValueLayout
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

local notation "xV" => (Memref.whole Cert.Kernel.main_arg1_scv : Memref Cert.Kernel.sig Kind.scVector Space.hbm Cert.Kernel.S100000x128 EltTy.f32)
local notation "iV" => (Memref.whole Cert.Kernel.main_arg0_scv : Memref Cert.Kernel.sig Kind.scVector Space.hbm Cert.Kernel.S1024x50 EltTy.i32)
local notation "oV" => (Memref.whole Cert.Kernel.main_v0_scv : Memref Cert.Kernel.sig Kind.scVector Space.hbm Cert.Kernel.S1024x128 EltTy.f32)
local notation "a5" => (Memref.whole Cert.Kernel.cc0_scratch0 : Memref Cert.Kernel.sig Kind.scVector Space.vmem Cert.Kernel.S32x50 EltTy.i32)
local notation "a6" => (Memref.whole Cert.Kernel.cc0_scratch1 : Memref Cert.Kernel.sig Kind.scVector Space.vmem Cert.Kernel.S4x50x128 EltTy.f32)
local notation "a7" => (Memref.whole Cert.Kernel.cc0_scratch2 : Memref Cert.Kernel.sig Kind.scVector Space.vmem Cert.Kernel.S32x128 EltTy.f32)

section Tile
variable (d : Dev nD) (L : grid0.Coords)

theorem tile_row_lt (b : Fin 32) : 32 * (wid L).val + b.val < 1024 := by
  have := (wid L).isLt; have := b.isLt; omega

theorem slot_emb (n : Fin 4) (c : Fin 50) (e : Fin 128) :
    (slotN n.val n.isLt).view.emb (ix2 c e) = (ix3 n c e : S4x50x128.Idx) := by
  have h1 : (slotN n.val n.isLt).view.emb (ix2 c e)
      = (Rect.unit (s := S4x50x128) ![n.val, 0, 0] S1x50x128.size (inb_slot n.val n.isLt)).emb
          (Shape.reshapeEquiv squeezes_S1x50x128_S50x128.numel_eq (ix2 c e)) := rfl
  rw [h1, reshapeEquiv_ix2_1ab]
  funext a; apply Fin.ext
  match a with
  | ⟨0, _⟩ => show n.val + 1 * 0 = n.val; omega
  | ⟨1, _⟩ => show 0 + 1 * c.val = c.val; omega
  | ⟨2, _⟩ => show 0 + 1 * e.val = e.val; omega

theorem off_emb (b : Fin 32) (c : Fin 50) :
    (offN b.val b.isLt).view.emb (ix1 c) = (ix2 b c : S32x50.Idx) := by
  have h1 : (offN b.val b.isLt).view.emb (ix1 c)
      = (Rect.unit (s := S32x50) ![b.val, 0] S1x50.size (inb_off b.val b.isLt)).emb
          (Shape.reshapeEquiv squeezes_S1x50_S50.numel_eq (ix1 c)) := rfl
  rw [h1]
  have h2 : Shape.reshapeEquiv squeezes_S1x50_S50.numel_eq (ix1 c) = (ix2 (0 : Fin 1) c : S1x50.Idx) :=
    Shape.reshapeEquiv_eq_of_rowMajor _ (by
      rw [Shape.rowMajor_val_two, Shape.rowMajor_val_one]
      show 0 * 50 + c.val = c.val; omega)
  rw [h2]
  funext a; apply Fin.ext
  match a with
  | ⟨0, _⟩ => show b.val + 1 * 0 = b.val; omega
  | ⟨1, _⟩ => show 0 + 1 * c.val = c.val; omega

theorem iRow_emb (b : Fin 32) (c : Fin 50) :
    (iRowK L).view.emb (ix2 b c) = (ix2 ⟨32 * (wid L).val + b.val, tile_row_lt L b⟩ c : S1024x50.Idx) := by
  funext a; apply Fin.ext
  have h := k0_off1_eq L
  match a with
  | ⟨0, _⟩ => show k0_off1 L 0 + 1 * b.val = 32 * (wid L).val + b.val; rw [h]; show 64 * (L 1).val + 32 * (L 0).val + 1 * b.val = 32 * (2 * (L 1).val + (L 0).val) + b.val; omega
  | ⟨1, _⟩ => show k0_off1 L 1 + 1 * c.val = c.val; rw [h]; show 0 + 1 * c.val = c.val; omega

theorem oRow_emb (b : Fin 32) (e : Fin 128) :
    (oRowK L).view.emb (ix2 b e) = (ix2 ⟨32 * (wid L).val + b.val, tile_row_lt L b⟩ e : S1024x128.Idx) := by
  funext a; apply Fin.ext
  have h := k0_off416_eq L
  match a with
  | ⟨0, _⟩ => show k0_off416 L 0 + 1 * b.val = 32 * (wid L).val + b.val; rw [h]; show 64 * (L 1).val + 32 * (L 0).val + 1 * b.val = 32 * (2 * (L 1).val + (L 0).val) + b.val; omega
  | ⟨1, _⟩ => show k0_off416 L 1 + 1 * e.val = e.val; rw [h]; show 0 + 1 * e.val = e.val; omega

theorem xAll_emb (i : S100000x128.Idx) : (xAllK).view.emb i = i := by
  funext a; apply Fin.ext
  match a with
  | ⟨0, _⟩ => show 0 + 1 * (i 0).val = (i 0).val; omega
  | ⟨1, _⟩ => show 0 + 1 * (i 1).val = (i 1).val; omega

variable [FloatOps F] (hidx : IdxOK m)

theorem rowMajor_symm_ix1 (c : Fin 50) (k : Fin S50.numel) (hk : k.val = c.val) : S50.rowMajor.symm k = (ix1 c : S50.Idx) := by
  rw [Equiv.symm_apply_eq]
  apply Fin.ext
  rw [hk]
  exact (Shape.rowMajor_val_one (d := ![50]) (ix1 c)).symm

/-- Word `c` of offsets row `b`: the tile's word `(b, c)` of the index array. -/
theorem off_read (b : Fin 32) (c : Fin 50) :
    (offN b.val b.isLt).view.read (Elt F) (idxI m d L) (ix1 c) = m (iLoc d) (ix2 ⟨32 * (wid L).val + b.val, tile_row_lt L b⟩ c) := by
  rw [(View.read_apply _ _).trans (cast_eq _ _), off_emb]
  unfold idxI
  rw [(View.read_apply _ _).trans (cast_eq _ _), iRow_emb]

/-- The row scratch with gather `b` landed, read under its slot at `(c, e)`: the table's row that word `c` of the
    tile's row `b` of the index array names, at column `e`. -/
theorem gath_slot (b : Fin 32) (c : Fin 50) (e : Fin 128) :
    gath m d L hidx b.val b.isLt (ix3 (⟨b.val % 4, mod4 b.val⟩ : Fin 4) c e : S4x50x128.Idx)
      = rowF (m (xLoc d)) (m (iLoc d) (ix2 ⟨32 * (wid L).val + b.val, tile_row_lt L b⟩ c)).toNat e := by
  rw [← slot_emb (⟨b.val % 4, mod4 b.val⟩ : Fin 4) c e]
  unfold gath
  rw [View.write_emb_of_mem _ _ (Finset.mem_univ _)]
  refine (cast_eq _ _).trans ?_
  unfold SparseCore.gatherPayload
  have hlt : (m (iLoc d) (ix2 ⟨32 * (wid L).val + b.val, tile_row_lt L b⟩ c)).toNat < 100000 := hidx d _
  have hi : gathers_S100000x128_S50x128.idx (SparseCore.rows ((offN b.val b.isLt).view.read (Elt F) (idxI m d L)) rfl (hin_b m d L hidx b.val b.isLt)) (ix2 c e)
      = (ix2 ⟨(m (iLoc d) (ix2 ⟨32 * (wid L).val + b.val, tile_row_lt L b⟩ c)).toNat, hlt⟩ e : S100000x128.Idx) := by
    funext a; apply Fin.ext
    match a with
    | ⟨0, _⟩ =>
      have h0 := Shape.Gathers.idx_axis gathers_S100000x128_S50x128 (SparseCore.rows ((offN b.val b.isLt).view.read (Elt F) (idxI m d L)) rfl (hin_b m d L hidx b.val b.isLt)) (ix2 c e)
      refine (congrArg Fin.val h0).trans ?_
      refine (congrArg (fun z => ((offN b.val b.isLt).view.read (Elt F) (idxI m d L) z).toNat) (rowMajor_symm_ix1 c _ rfl)).trans ?_
      rw [off_read]
    | ⟨1, _⟩ => exact Shape.Gathers.idx_of_ne gathers_S100000x128_S50x128 _ (ix2 c e) ⟨1, by decide⟩ (by decide)
  rw [hi, (View.read_apply _ _).trans (cast_eq _ _), xAll_emb]
  unfold rowF
  congr 1
  funext a
  match a with
  | ⟨0, _⟩ => exact Fin.ext (Nat.mod_eq_of_lt hlt).symm
  | ⟨1, _⟩ => rfl

/-- A sixteen-lane load of the row scratch under slot `k % 4`, at row `c` and lane chunk `j`, after gather `k` landed:
    lane `l` is the table's row that word `c` of the tile's row `k` of the index array names, at column `16 j + l`. -/
theorem load_val (k : Nat) (hk : k < 32) (c : Nat) (hc : c < 50) (j : Nat) (hj : j < 8) (o : Fin 3 → Nat) (ho : o = ![k % 4, c, 16 * j])
    (hinb : ∀ a, o a + S1x1x16.size a ≤ S4x50x128.size a) (l : Fin 16) :
    View.readAt (Elt F) (a6).view (Rect.unit (s := S4x50x128) o S1x1x16.size hinb).toLoadRect (gath m d L hidx k hk) (ix3 (0 : Fin 1) (0 : Fin 1) l)
      = rowF (m (xLoc d)) ((m (iLoc d)) (ix2 ⟨32 * (wid L).val + k, tile_row_lt L ⟨k, hk⟩⟩ (⟨c, hc⟩ : Fin 50))).toNat (⟨16 * j + l.val, by have := l.isLt; omega⟩ : Fin 128) := by
  subst ho
  rw [View.readAt_apply, (View.read_apply _ _).trans (cast_eq _ _)]
  have h3 : (a6).view.emb ((Rect.unit (s := S4x50x128) ![k % 4, c, 16 * j] S1x1x16.size hinb).toLoadRect.idx (ix3 (0 : Fin 1) (0 : Fin 1) l))
      = (ix3 (⟨k % 4, mod4 k⟩ : Fin 4) (⟨c, hc⟩ : Fin 50) (⟨16 * j + l.val, by have := l.isLt; omega⟩ : Fin 128) : S4x50x128.Idx) := by
    funext a; apply Fin.ext
    match a with
    | ⟨0, _⟩ => show k % 4 + 1 * 0 = k % 4; omega
    | ⟨1, _⟩ => show c + 1 * 0 = c; omega
    | ⟨2, _⟩ => show 16 * j + 1 * l.val = 16 * j + l.val; omega
  rw [h3]
  exact gath_slot m d L hidx ⟨k, hk⟩ ⟨c, hc⟩ _

/-- The pooled array at a row of the tile's output block. -/
theorem pool_emb (k : Nat) (hk : k < 32) (e : Fin 128) :
    poolF m d ((oRowK L).view.emb (ix2 (⟨k, hk⟩ : Fin 32) e)) = poolAtF (m (iLoc d)) (m (xLoc d)) ⟨32 * (wid L).val + k, tile_row_lt L ⟨k, hk⟩⟩ e := by
  rw [oRow_emb]
  rfl

end Tile
end Cert.Proof.KB
end
-- ==== Proof.KChainsB.lean ====
/-
  The gather kernel's arithmetic, for every float instance. One trip of its loop handles one batch row: for each of
  the eight chunks of sixteen lanes it loads the fifty looked-up rows' chunk, adds them left to right, multiplies by
  the constant and stores the sixteen lanes. The printed body cuts this arithmetic into payloads at arbitrary
  places (a running sum carried from one to the next, now and then a single loaded chunk carried beside it); composed
  along one chunk, lane `l` of what is stored is the running sum `E 0 + E 1 + … + E 49` of the fifty loaded values at
  that lane, times the constant — the pooled array's entry as the kernel computes it.
-/
import proofs.«204135_g55705725829175_cont_9to1c4b_393_20_alg».proof.Proof.ScCommonB
import Idealize.ShloMosaic.Lib.ValueLayout
import Idealize.ShloMosaic.Lib.Pipeline.Value

noncomputable section

namespace Cert.Kernel.KValue

open Idealize.ShloMosaic Idealize.ShloMosaic.ValueIdx
open Cert.Kernel Cert.Kernel.Gen
open Cert.Proof.KB (accF rowF poolAtF)

variable {F : FTy → Type} [FloatOps F]

/-! ## The operations at an index, for every instance -/

theorem vaddf_apply {s : Shape} {φ : FTy} (a b : FVec F s φ) (i : s.Idx) : addf a b i = FloatOps.addf (a i) (b i) := rfl
theorem vmulf_apply {s : Shape} {φ : FTy} (a b : FVec F s φ) (i : s.Idx) : mulf a b i = FloatOps.mulf (a i) (b i) := rfl

/-- A `[1, 1, n]` array cast to `[n]` reads, at `i`, the operand at `(0, 0, i)`. -/
theorem shapeCast_11n_n_apply {α : Type} {n : ℕ} (x : (⟨3, ![1, 1, n]⟩ : Shape).Idx → α)
    (h : (⟨3, ![1, 1, n]⟩ : Shape).ShapeCasts ⟨1, ![n]⟩) (i : Fin n) :
    shapeCast ⟨1, ![n]⟩ x h (ix1 i) = x (ix3 (0 : Fin 1) (0 : Fin 1) i) :=
  shapeCast_apply x h _ _ (by
    rw [Shape.rowMajor_val_three, Shape.rowMajor_val_one]
    show (0 * 1 + 0) * n + i.val = i.val
    omega)

/-- The running sum's two equations. -/
theorem accF_zero (E : Nat → F .f32) : accF E 0 = E 0 := rfl
theorem accF_succ (E : Nat → F .f32) (n : Nat) : accF E (n + 1) = FloatOps.addf (accF E n) (E (n + 1)) := rfl

/-- The running sum depends only on the terms up to its bound. -/
theorem accF_congr (E E' : Nat → F .f32) (n : Nat) (h : ∀ c, c ≤ n → E c = E' c) : accF E n = accF E' n := by
  induction n with
  | zero => rw [accF_zero, accF_zero, h 0 (Nat.le_refl 0)]
  | succ n ih =>
    rw [accF_succ, accF_succ, ih fun c hc => h c (Nat.le_succ_of_le hc), h (n + 1) (Nat.le_refl _)]

/-! ## The eight chunks of a trip -/

/-- Chunk 0 of a trip: the payloads composed along it, at lane `l`, are the running sum of the fifty loaded
    values at that lane times the constant. -/
theorem chain0_apply (x : Nat → Vec F S1x1x16 .f32) (l : Fin 16) :
    (k0_pay9 (k0_pay7 (k0_pay6 (k0_pay5 (k0_pay4 (k0_pay3 (k0_pay2 (x 0) (x 1) (x 2) (x 3) (x 4)) (x 5) (x 6) (x 7) (x 8) (x 9) (x 10) (x 11) (x 12)) (x 13) (x 14) (x 15) (x 16) (x 17) (x 18) (x 19) (x 20) (x 21)) (x 22) (x 23) (x 24) (x 25) (x 26) (x 27) (x 28) (x 29)) (x 30) (x 31) (x 32) (x 33) (x 34) (x 35) (x 36) (x 37) (x 38)) (x 39) (x 40) (x 41) (x 42) (x 43) (x 44) (x 45) (x 46)) (k0_pay8 (x 47)) (x 48) (x 49)) (ix2 0 l)
      = FloatOps.mulf (accF (fun c => x c (ix3 0 0 l)) 49) (Scalar.ofBits .f32 0x3CA3D70A#32) := by
  unfold k0_pay2 k0_pay3 k0_pay4 k0_pay5 k0_pay6 k0_pay7 k0_pay8 k0_pay9
  simp only [shapeCast_a_1a_apply, shapeCast_11n_n_apply, vaddf_apply, vmulf_apply, broadcast_apply]
  rfl

/-- Chunk 0 against the pooled array: if the fifty loaded values at lane `l` are the fifty looked-up rows of batch
    row `b` at column `e`, what is stored at lane `l` is the pooled array's entry `(b, e)` as the kernel computes it. -/
theorem chain0_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay9 (k0_pay7 (k0_pay6 (k0_pay5 (k0_pay4 (k0_pay3 (k0_pay2 (x 0) (x 1) (x 2) (x 3) (x 4)) (x 5) (x 6) (x 7) (x 8) (x 9) (x 10) (x 11) (x 12)) (x 13) (x 14) (x 15) (x 16) (x 17) (x 18) (x 19) (x 20) (x 21)) (x 22) (x 23) (x 24) (x 25) (x 26) (x 27) (x 28) (x 29)) (x 30) (x 31) (x 32) (x 33) (x 34) (x 35) (x 36) (x 37) (x 38)) (x 39) (x 40) (x 41) (x 42) (x 43) (x 44) (x 45) (x 46)) (k0_pay8 (x 47)) (x 48) (x 49)) (ix2 0 l)
      = poolAtF idx emb b e := by
  rw [chain0_apply, accF_congr _ _ 49 hx]
  rfl

/-- Chunk 1 of a trip: the payloads composed along it, at lane `l`, are the running sum of the fifty loaded
    values at that lane times the constant. -/
theorem chain1_apply (x : Nat → Vec F S1x1x16 .f32) (l : Fin 16) :
    (k0_pay17 (k0_pay16 (k0_pay15 (k0_pay14 (k0_pay13 (k0_pay11 (k0_pay10 (x 0) (x 1) (x 2) (x 3) (x 4)) (x 5) (x 6) (x 7) (x 8) (x 9) (x 10) (x 11) (x 12)) (k0_pay12 (x 13)) (x 14) (x 15) (x 16) (x 17) (x 18) (x 19) (x 20) (x 21)) (x 22) (x 23) (x 24) (x 25) (x 26) (x 27) (x 28) (x 29) (x 30)) (x 31) (x 32) (x 33) (x 34) (x 35) (x 36) (x 37) (x 38)) (x 39) (x 40) (x 41) (x 42) (x 43) (x 44) (x 45) (x 46) (x 47)) (x 48) (x 49)) (ix2 0 l)
      = FloatOps.mulf (accF (fun c => x c (ix3 0 0 l)) 49) (Scalar.ofBits .f32 0x3CA3D70A#32) := by
  unfold k0_pay10 k0_pay11 k0_pay12 k0_pay13 k0_pay14 k0_pay15 k0_pay16 k0_pay17
  simp only [shapeCast_a_1a_apply, shapeCast_11n_n_apply, vaddf_apply, vmulf_apply, broadcast_apply]
  rfl

/-- Chunk 1 against the pooled array: if the fifty loaded values at lane `l` are the fifty looked-up rows of batch
    row `b` at column `e`, what is stored at lane `l` is the pooled array's entry `(b, e)` as the kernel computes it. -/
theorem chain1_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay17 (k0_pay16 (k0_pay15 (k0_pay14 (k0_pay13 (k0_pay11 (k0_pay10 (x 0) (x 1) (x 2) (x 3) (x 4)) (x 5) (x 6) (x 7) (x 8) (x 9) (x 10) (x 11) (x 12)) (k0_pay12 (x 13)) (x 14) (x 15) (x 16) (x 17) (x 18) (x 19) (x 20) (x 21)) (x 22) (x 23) (x 24) (x 25) (x 26) (x 27) (x 28) (x 29) (x 30)) (x 31) (x 32) (x 33) (x 34) (x 35) (x 36) (x 37) (x 38)) (x 39) (x 40) (x 41) (x 42) (x 43) (x 44) (x 45) (x 46) (x 47)) (x 48) (x 49)) (ix2 0 l)
      = poolAtF idx emb b e := by
  rw [chain1_apply, accF_congr _ _ 49 hx]
  rfl

/-- Chunk 2 of a trip: the payloads composed along it, at lane `l`, are the running sum of the fifty loaded
    values at that lane times the constant. -/
theorem chain2_apply (x : Nat → Vec F S1x1x16 .f32) (l : Fin 16) :
    (k0_pay25 (k0_pay24 (k0_pay22 (k0_pay21 (k0_pay20 (k0_pay19 (k0_pay18 (x 0) (x 1) (x 2) (x 3) (x 4)) (x 5) (x 6) (x 7) (x 8) (x 9) (x 10) (x 11) (x 12) (x 13)) (x 14) (x 15) (x 16) (x 17) (x 18) (x 19) (x 20) (x 21)) (x 22) (x 23) (x 24) (x 25) (x 26) (x 27) (x 28) (x 29) (x 30)) (x 31) (x 32) (x 33) (x 34) (x 35) (x 36) (x 37) (x 38)) (k0_pay23 (x 39)) (x 40) (x 41) (x 42) (x 43) (x 44) (x 45) (x 46) (x 47)) (x 48) (x 49)) (ix2 0 l)
      = FloatOps.mulf (accF (fun c => x c (ix3 0 0 l)) 49) (Scalar.ofBits .f32 0x3CA3D70A#32) := by
  unfold k0_pay18 k0_pay19 k0_pay20 k0_pay21 k0_pay22 k0_pay23 k0_pay24 k0_pay25
  simp only [shapeCast_a_1a_apply, shapeCast_11n_n_apply, vaddf_apply, vmulf_apply, broadcast_apply]
  rfl

/-- Chunk 2 against the pooled array: if the fifty loaded values at lane `l` are the fifty looked-up rows of batch
    row `b` at column `e`, what is stored at lane `l` is the pooled array's entry `(b, e)` as the kernel computes it. -/
theorem chain2_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay25 (k0_pay24 (k0_pay22 (k0_pay21 (k0_pay20 (k0_pay19 (k0_pay18 (x 0) (x 1) (x 2) (x 3) (x 4)) (x 5) (x 6) (x 7) (x 8) (x 9) (x 10) (x 11) (x 12) (x 13)) (x 14) (x 15) (x 16) (x 17) (x 18) (x 19) (x 20) (x 21)) (x 22) (x 23) (x 24) (x 25) (x 26) (x 27) (x 28) (x 29) (x 30)) (x 31) (x 32) (x 33) (x 34) (x 35) (x 36) (x 37) (x 38)) (k0_pay23 (x 39)) (x 40) (x 41) (x 42) (x 43) (x 44) (x 45) (x 46) (x 47)) (x 48) (x 49)) (ix2 0 l)
      = poolAtF idx emb b e := by
  rw [chain2_apply, accF_congr _ _ 49 hx]
  rfl

/-- Chunk 3 of a trip: the payloads composed along it, at lane `l`, are the running sum of the fifty loaded
    values at that lane times the constant. -/
theorem chain3_apply (x : Nat → Vec F S1x1x16 .f32) (l : Fin 16) :
    (k0_pay33 (k0_pay32 (k0_pay31 (k0_pay30 (k0_pay29 (k0_pay28 (k0_pay26 (x 0) (x 1) (x 2) (x 3) (x 4)) (k0_pay27 (x 5)) (x 6) (x 7) (x 8) (x 9) (x 10) (x 11) (x 12) (x 13)) (x 14) (x 15) (x 16) (x 17) (x 18) (x 19) (x 20) (x 21) (x 22)) (x 23) (x 24) (x 25) (x 26) (x 27) (x 28) (x 29) (x 30)) (x 31) (x 32) (x 33) (x 34) (x 35) (x 36) (x 37) (x 38) (x 39)) (x 40) (x 41) (x 42) (x 43) (x 44) (x 45) (x 46) (x 47)) (x 48) (x 49)) (ix2 0 l)
      = FloatOps.mulf (accF (fun c => x c (ix3 0 0 l)) 49) (Scalar.ofBits .f32 0x3CA3D70A#32) := by
  unfold k0_pay26 k0_pay27 k0_pay28 k0_pay29 k0_pay30 k0_pay31 k0_pay32 k0_pay33
  simp only [shapeCast_a_1a_apply, shapeCast_11n_n_apply, vaddf_apply, vmulf_apply, broadcast_apply]
  rfl

/-- Chunk 3 against the pooled array: if the fifty loaded values at lane `l` are the fifty looked-up rows of batch
    row `b` at column `e`, what is stored at lane `l` is the pooled array's entry `(b, e)` as the kernel computes it. -/
theorem chain3_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay33 (k0_pay32 (k0_pay31 (k0_pay30 (k0_pay29 (k0_pay28 (k0_pay26 (x 0) (x 1) (x 2) (x 3) (x 4)) (k0_pay27 (x 5)) (x 6) (x 7) (x 8) (x 9) (x 10) (x 11) (x 12) (x 13)) (x 14) (x 15) (x 16) (x 17) (x 18) (x 19) (x 20) (x 21) (x 22)) (x 23) (x 24) (x 25) (x 26) (x 27) (x 28) (x 29) (x 30)) (x 31) (x 32) (x 33) (x 34) (x 35) (x 36) (x 37) (x 38) (x 39)) (x 40) (x 41) (x 42) (x 43) (x 44) (x 45) (x 46) (x 47)) (x 48) (x 49)) (ix2 0 l)
      = poolAtF idx emb b e := by
  rw [chain3_apply, accF_congr _ _ 49 hx]
  rfl

/-- Chunk 4 of a trip: the payloads composed along it, at lane `l`, are the running sum of the fifty loaded
    values at that lane times the constant. -/
theorem chain4_apply (x : Nat → Vec F S1x1x16 .f32) (l : Fin 16) :
    (k0_pay41 (k0_pay40 (k0_pay39 (k0_pay37 (k0_pay36 (k0_pay35 (k0_pay34 (x 0) (x 1) (x 2) (x 3) (x 4) (x 5)) (x 6) (x 7) (x 8) (x 9) (x 10) (x 11) (x 12) (x 13)) (x 14) (x 15) (x 16) (x 17) (x 18) (x 19) (x 20) (x 21) (x 22)) (x 23) (x 24) (x 25) (x 26) (x 27) (x 28) (x 29) (x 30)) (k0_pay38 (x 31)) (x 32) (x 33) (x 34) (x 35) (x 36) (x 37) (x 38) (x 39)) (x 40) (x 41) (x 42) (x 43) (x 44) (x 45) (x 46) (x 47) (x 48)) (x 49)) (ix2 0 l)
      = FloatOps.mulf (accF (fun c => x c (ix3 0 0 l)) 49) (Scalar.ofBits .f32 0x3CA3D70A#32) := by
  unfold k0_pay34 k0_pay35 k0_pay36 k0_pay37 k0_pay38 k0_pay39 k0_pay40 k0_pay41
  simp only [shapeCast_a_1a_apply, shapeCast_11n_n_apply, vaddf_apply, vmulf_apply, broadcast_apply]
  rfl

/-- Chunk 4 against the pooled array: if the fifty loaded values at lane `l` are the fifty looked-up rows of batch
    row `b` at column `e`, what is stored at lane `l` is the pooled array's entry `(b, e)` as the kernel computes it. -/
theorem chain4_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay41 (k0_pay40 (k0_pay39 (k0_pay37 (k0_pay36 (k0_pay35 (k0_pay34 (x 0) (x 1) (x 2) (x 3) (x 4) (x 5)) (x 6) (x 7) (x 8) (x 9) (x 10) (x 11) (x 12) (x 13)) (x 14) (x 15) (x 16) (x 17) (x 18) (x 19) (x 20) (x 21) (x 22)) (x 23) (x 24) (x 25) (x 26) (x 27) (x 28) (x 29) (x 30)) (k0_pay38 (x 31)) (x 32) (x 33) (x 34) (x 35) (x 36) (x 37) (x 38) (x 39)) (x 40) (x 41) (x 42) (x 43) (x 44) (x 45) (x 46) (x 47) (x 48)) (x 49)) (ix2 0 l)
      = poolAtF idx emb b e := by
  rw [chain4_apply, accF_congr _ _ 49 hx]
  rfl

/-- Chunk 5 of a trip: the payloads composed along it, at lane `l`, are the running sum of the fifty loaded
    values at that lane times the constant. -/
theorem chain5_apply (x : Nat → Vec F S1x1x16 .f32) (l : Fin 16) :
    (k0_pay48 (k0_pay47 (k0_pay46 (k0_pay45 (k0_pay44 (k0_pay43 (k0_pay42 (x 0) (x 1) (x 2) (x 3) (x 4) (x 5)) (x 6) (x 7) (x 8) (x 9) (x 10) (x 11) (x 12) (x 13) (x 14)) (x 15) (x 16) (x 17) (x 18) (x 19) (x 20) (x 21) (x 22)) (x 23) (x 24) (x 25) (x 26) (x 27) (x 28) (x 29) (x 30) (x 31)) (x 32) (x 33) (x 34) (x 35) (x 36) (x 37) (x 38) (x 39)) (x 40) (x 41) (x 42) (x 43) (x 44) (x 45) (x 46) (x 47) (x 48)) (x 49)) (ix2 0 l)
      = FloatOps.mulf (accF (fun c => x c (ix3 0 0 l)) 49) (Scalar.ofBits .f32 0x3CA3D70A#32) := by
  unfold k0_pay42 k0_pay43 k0_pay44 k0_pay45 k0_pay46 k0_pay47 k0_pay48
  simp only [shapeCast_a_1a_apply, shapeCast_11n_n_apply, vaddf_apply, vmulf_apply, broadcast_apply]
  rfl

/-- Chunk 5 against the pooled array: if the fifty loaded values at lane `l` are the fifty looked-up rows of batch
    row `b` at column `e`, what is stored at lane `l` is the pooled array's entry `(b, e)` as the kernel computes it. -/
theorem chain5_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay48 (k0_pay47 (k0_pay46 (k0_pay45 (k0_pay44 (k0_pay43 (k0_pay42 (x 0) (x 1) (x 2) (x 3) (x 4) (x 5)) (x 6) (x 7) (x 8) (x 9) (x 10) (x 11) (x 12) (x 13) (x 14)) (x 15) (x 16) (x 17) (x 18) (x 19) (x 20) (x 21) (x 22)) (x 23) (x 24) (x 25) (x 26) (x 27) (x 28) (x 29) (x 30) (x 31)) (x 32) (x 33) (x 34) (x 35) (x 36) (x 37) (x 38) (x 39)) (x 40) (x 41) (x 42) (x 43) (x 44) (x 45) (x 46) (x 47) (x 48)) (x 49)) (ix2 0 l)
      = poolAtF idx emb b e := by
  rw [chain5_apply, accF_congr _ _ 49 hx]
  rfl

/-- Chunk 6 of a trip: the payloads composed along it, at lane `l`, are the running sum of the fifty loaded
    values at that lane times the constant. -/
theorem chain6_apply (x : Nat → Vec F S1x1x16 .f32) (l : Fin 16) :
    (k0_pay56 (k0_pay55 (k0_pay54 (k0_pay53 (k0_pay51 (k0_pay50 (k0_pay49 (x 0) (x 1) (x 2) (x 3) (x 4) (x 5)) (x 6) (x 7) (x 8) (x 9) (x 10) (x 11) (x 12) (x 13) (x 14)) (x 15) (x 16) (x 17) (x 18) (x 19) (x 20) (x 21) (x 22)) (k0_pay52 (x 23)) (x 24) (x 25) (x 26) (x 27) (x 28) (x 29) (x 30) (x 31)) (x 32) (x 33) (x 34) (x 35) (x 36) (x 37) (x 38) (x 39) (x 40)) (x 41) (x 42) (x 43) (x 44) (x 45) (x 46) (x 47) (x 48)) (x 49)) (ix2 0 l)
      = FloatOps.mulf (accF (fun c => x c (ix3 0 0 l)) 49) (Scalar.ofBits .f32 0x3CA3D70A#32) := by
  unfold k0_pay49 k0_pay50 k0_pay51 k0_pay52 k0_pay53 k0_pay54 k0_pay55 k0_pay56
  simp only [shapeCast_a_1a_apply, shapeCast_11n_n_apply, vaddf_apply, vmulf_apply, broadcast_apply]
  rfl

/-- Chunk 6 against the pooled array: if the fifty loaded values at lane `l` are the fifty looked-up rows of batch
    row `b` at column `e`, what is stored at lane `l` is the pooled array's entry `(b, e)` as the kernel computes it. -/
theorem chain6_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay56 (k0_pay55 (k0_pay54 (k0_pay53 (k0_pay51 (k0_pay50 (k0_pay49 (x 0) (x 1) (x 2) (x 3) (x 4) (x 5)) (x 6) (x 7) (x 8) (x 9) (x 10) (x 11) (x 12) (x 13) (x 14)) (x 15) (x 16) (x 17) (x 18) (x 19) (x 20) (x 21) (x 22)) (k0_pay52 (x 23)) (x 24) (x 25) (x 26) (x 27) (x 28) (x 29) (x 30) (x 31)) (x 32) (x 33) (x 34) (x 35) (x 36) (x 37) (x 38) (x 39) (x 40)) (x 41) (x 42) (x 43) (x 44) (x 45) (x 46) (x 47) (x 48)) (x 49)) (ix2 0 l)
      = poolAtF idx emb b e := by
  rw [chain6_apply, accF_congr _ _ 49 hx]
  rfl

/-- Chunk 7 of a trip: the payloads composed along it, at lane `l`, are the running sum of the fifty loaded
    values at that lane times the constant. -/
theorem chain7_apply (x : Nat → Vec F S1x1x16 .f32) (l : Fin 16) :
    (k0_pay1 (k0_pay62 (k0_pay61 (k0_pay60 (k0_pay59 (k0_pay58 (k0_pay57 (x 0) (x 1) (x 2) (x 3) (x 4) (x 5) (x 6)) (x 7) (x 8) (x 9) (x 10) (x 11) (x 12) (x 13) (x 14)) (x 15) (x 16) (x 17) (x 18) (x 19) (x 20) (x 21) (x 22) (x 23)) (x 24) (x 25) (x 26) (x 27) (x 28) (x 29) (x 30) (x 31)) (x 32) (x 33) (x 34) (x 35) (x 36) (x 37) (x 38) (x 39) (x 40)) (x 41) (x 42) (x 43) (x 44) (x 45) (x 46) (x 47) (x 48)) (k0_pay63 (x 49))) (ix2 0 l)
      = FloatOps.mulf (accF (fun c => x c (ix3 0 0 l)) 49) (Scalar.ofBits .f32 0x3CA3D70A#32) := by
  unfold k0_pay57 k0_pay58 k0_pay59 k0_pay60 k0_pay61 k0_pay62 k0_pay63 k0_pay1
  simp only [shapeCast_a_1a_apply, shapeCast_11n_n_apply, vaddf_apply, vmulf_apply, broadcast_apply]
  rfl

/-- Chunk 7 against the pooled array: if the fifty loaded values at lane `l` are the fifty looked-up rows of batch
    row `b` at column `e`, what is stored at lane `l` is the pooled array's entry `(b, e)` as the kernel computes it. -/
theorem chain7_pool (idx : IVec S1024x50 32) (emb : FVec F S100000x128 .f32) (b : Fin 1024) (e : Fin 128)
    (x : Nat → Vec F S1x1x16 .f32) (l : Fin 16)
    (hx : ∀ c, c ≤ 49 → x c (ix3 0 0 l) = rowF emb (idx (ix2 b (⟨c % 50, Nat.mod_lt _ (by norm_num)⟩ : Fin 50))).toNat e) :
    (k0_pay1 (k0_pay62 (k0_pay61 (k0_pay60 (k0_pay59 (k0_pay58 (k0_pay57 (x 0) (x 1) (x 2) (x 3) (x 4) (x 5) (x 6)) (x 7) (x 8) (x 9) (x 10) (x 11) (x 12) (x 13) (x 14)) (x 15) (x 16) (x 17) (x 18) (x 19) (x 20) (x 21) (x 22) (x 23)) (x 24) (x 25) (x 26) (x 27) (x 28) (x 29) (x 30) (x 31)) (x 32) (x 33) (x 34) (x 35) (x 36) (x 37) (x 38) (x 39) (x 40)) (x 41) (x 42) (x 43) (x 44) (x 45) (x 46) (x 47) (x 48)) (k0_pay63 (x 49))) (ix2 0 l)
      = poolAtF idx emb b e := by
  rw [chain7_apply, accF_congr _ _ 49 hx]
  rfl

end Cert.Kernel.KValue

end
-- ==== Proof.KChainVarsB.lean ====
/-
  The eight chunks of a trip again, over fifty loaded vectors named one by one: the form a run of the body meets,
  where each load is its own term.
-/
import proofs.«204135_g55705725829175_cont_9to1c4b_393_20_alg».proof.Proof.KChainsB

noncomputable section

namespace Cert.Kernel.KValue

open Idealize.ShloMosaic Idealize.ShloMosaic.ValueIdx
open Cert.Kernel Cert.Kernel.Gen
open Cert.Proof.KB (accF rowF poolAtF)

variable {F : FTy → Type} [FloatOps F]

/-- Chunk 0 of a trip over fifty loaded vectors named one by one: if at lane `l` they hold `E 0 … E 49`, what is
    stored at lane `l` is the running sum of `E` times the constant. -/
theorem chain0_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay9 (k0_pay7 (k0_pay6 (k0_pay5 (k0_pay4 (k0_pay3 (k0_pay2 a0 a1 a2 a3 a4) a5 a6 a7 a8 a9 a10 a11 a12) a13 a14 a15 a16 a17 a18 a19 a20 a21) a22 a23 a24 a25 a26 a27 a28 a29) a30 a31 a32 a33 a34 a35 a36 a37 a38) a39 a40 a41 a42 a43 a44 a45 a46) (k0_pay8 a47) a48 a49) (ix2 0 l)
      = FloatOps.mulf (accF E 49) (Scalar.ofBits .f32 0x3CA3D70A#32) := by
  unfold k0_pay2 k0_pay3 k0_pay4 k0_pay5 k0_pay6 k0_pay7 k0_pay8 k0_pay9
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 1 of a trip over fifty loaded vectors named one by one: if at lane `l` they hold `E 0 … E 49`, what is
    stored at lane `l` is the running sum of `E` times the constant. -/
theorem chain1_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay17 (k0_pay16 (k0_pay15 (k0_pay14 (k0_pay13 (k0_pay11 (k0_pay10 a0 a1 a2 a3 a4) a5 a6 a7 a8 a9 a10 a11 a12) (k0_pay12 a13) a14 a15 a16 a17 a18 a19 a20 a21) a22 a23 a24 a25 a26 a27 a28 a29 a30) a31 a32 a33 a34 a35 a36 a37 a38) a39 a40 a41 a42 a43 a44 a45 a46 a47) a48 a49) (ix2 0 l)
      = FloatOps.mulf (accF E 49) (Scalar.ofBits .f32 0x3CA3D70A#32) := by
  unfold k0_pay10 k0_pay11 k0_pay12 k0_pay13 k0_pay14 k0_pay15 k0_pay16 k0_pay17
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 2 of a trip over fifty loaded vectors named one by one: if at lane `l` they hold `E 0 … E 49`, what is
    stored at lane `l` is the running sum of `E` times the constant. -/
theorem chain2_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay25 (k0_pay24 (k0_pay22 (k0_pay21 (k0_pay20 (k0_pay19 (k0_pay18 a0 a1 a2 a3 a4) a5 a6 a7 a8 a9 a10 a11 a12 a13) a14 a15 a16 a17 a18 a19 a20 a21) a22 a23 a24 a25 a26 a27 a28 a29 a30) a31 a32 a33 a34 a35 a36 a37 a38) (k0_pay23 a39) a40 a41 a42 a43 a44 a45 a46 a47) a48 a49) (ix2 0 l)
      = FloatOps.mulf (accF E 49) (Scalar.ofBits .f32 0x3CA3D70A#32) := by
  unfold k0_pay18 k0_pay19 k0_pay20 k0_pay21 k0_pay22 k0_pay23 k0_pay24 k0_pay25
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 3 of a trip over fifty loaded vectors named one by one: if at lane `l` they hold `E 0 … E 49`, what is
    stored at lane `l` is the running sum of `E` times the constant. -/
theorem chain3_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay33 (k0_pay32 (k0_pay31 (k0_pay30 (k0_pay29 (k0_pay28 (k0_pay26 a0 a1 a2 a3 a4) (k0_pay27 a5) a6 a7 a8 a9 a10 a11 a12 a13) a14 a15 a16 a17 a18 a19 a20 a21 a22) a23 a24 a25 a26 a27 a28 a29 a30) a31 a32 a33 a34 a35 a36 a37 a38 a39) a40 a41 a42 a43 a44 a45 a46 a47) a48 a49) (ix2 0 l)
      = FloatOps.mulf (accF E 49) (Scalar.ofBits .f32 0x3CA3D70A#32) := by
  unfold k0_pay26 k0_pay27 k0_pay28 k0_pay29 k0_pay30 k0_pay31 k0_pay32 k0_pay33
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 4 of a trip over fifty loaded vectors named one by one: if at lane `l` they hold `E 0 … E 49`, what is
    stored at lane `l` is the running sum of `E` times the constant. -/
theorem chain4_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay41 (k0_pay40 (k0_pay39 (k0_pay37 (k0_pay36 (k0_pay35 (k0_pay34 a0 a1 a2 a3 a4 a5) a6 a7 a8 a9 a10 a11 a12 a13) a14 a15 a16 a17 a18 a19 a20 a21 a22) a23 a24 a25 a26 a27 a28 a29 a30) (k0_pay38 a31) a32 a33 a34 a35 a36 a37 a38 a39) a40 a41 a42 a43 a44 a45 a46 a47 a48) a49) (ix2 0 l)
      = FloatOps.mulf (accF E 49) (Scalar.ofBits .f32 0x3CA3D70A#32) := by
  unfold k0_pay34 k0_pay35 k0_pay36 k0_pay37 k0_pay38 k0_pay39 k0_pay40 k0_pay41
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 5 of a trip over fifty loaded vectors named one by one: if at lane `l` they hold `E 0 … E 49`, what is
    stored at lane `l` is the running sum of `E` times the constant. -/
theorem chain5_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay48 (k0_pay47 (k0_pay46 (k0_pay45 (k0_pay44 (k0_pay43 (k0_pay42 a0 a1 a2 a3 a4 a5) a6 a7 a8 a9 a10 a11 a12 a13 a14) a15 a16 a17 a18 a19 a20 a21 a22) a23 a24 a25 a26 a27 a28 a29 a30 a31) a32 a33 a34 a35 a36 a37 a38 a39) a40 a41 a42 a43 a44 a45 a46 a47 a48) a49) (ix2 0 l)
      = FloatOps.mulf (accF E 49) (Scalar.ofBits .f32 0x3CA3D70A#32) := by
  unfold k0_pay42 k0_pay43 k0_pay44 k0_pay45 k0_pay46 k0_pay47 k0_pay48
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 6 of a trip over fifty loaded vectors named one by one: if at lane `l` they hold `E 0 … E 49`, what is
    stored at lane `l` is the running sum of `E` times the constant. -/
theorem chain6_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay56 (k0_pay55 (k0_pay54 (k0_pay53 (k0_pay51 (k0_pay50 (k0_pay49 a0 a1 a2 a3 a4 a5) a6 a7 a8 a9 a10 a11 a12 a13 a14) a15 a16 a17 a18 a19 a20 a21 a22) (k0_pay52 a23) a24 a25 a26 a27 a28 a29 a30 a31) a32 a33 a34 a35 a36 a37 a38 a39 a40) a41 a42 a43 a44 a45 a46 a47 a48) a49) (ix2 0 l)
      = FloatOps.mulf (accF E 49) (Scalar.ofBits .f32 0x3CA3D70A#32) := by
  unfold k0_pay49 k0_pay50 k0_pay51 k0_pay52 k0_pay53 k0_pay54 k0_pay55 k0_pay56
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

/-- Chunk 7 of a trip over fifty loaded vectors named one by one: if at lane `l` they hold `E 0 … E 49`, what is
    stored at lane `l` is the running sum of `E` times the constant. -/
theorem chain7_vars {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 : Vec F S1x1x16 .f32} (l : Fin 16) (E : Nat → F .f32)
    (h0 : a0 (ix3 0 0 l) = E 0) (h1 : a1 (ix3 0 0 l) = E 1) (h2 : a2 (ix3 0 0 l) = E 2) (h3 : a3 (ix3 0 0 l) = E 3) (h4 : a4 (ix3 0 0 l) = E 4)
    (h5 : a5 (ix3 0 0 l) = E 5) (h6 : a6 (ix3 0 0 l) = E 6) (h7 : a7 (ix3 0 0 l) = E 7) (h8 : a8 (ix3 0 0 l) = E 8) (h9 : a9 (ix3 0 0 l) = E 9)
    (h10 : a10 (ix3 0 0 l) = E 10) (h11 : a11 (ix3 0 0 l) = E 11) (h12 : a12 (ix3 0 0 l) = E 12) (h13 : a13 (ix3 0 0 l) = E 13) (h14 : a14 (ix3 0 0 l) = E 14)
    (h15 : a15 (ix3 0 0 l) = E 15) (h16 : a16 (ix3 0 0 l) = E 16) (h17 : a17 (ix3 0 0 l) = E 17) (h18 : a18 (ix3 0 0 l) = E 18) (h19 : a19 (ix3 0 0 l) = E 19)
    (h20 : a20 (ix3 0 0 l) = E 20) (h21 : a21 (ix3 0 0 l) = E 21) (h22 : a22 (ix3 0 0 l) = E 22) (h23 : a23 (ix3 0 0 l) = E 23) (h24 : a24 (ix3 0 0 l) = E 24)
    (h25 : a25 (ix3 0 0 l) = E 25) (h26 : a26 (ix3 0 0 l) = E 26) (h27 : a27 (ix3 0 0 l) = E 27) (h28 : a28 (ix3 0 0 l) = E 28) (h29 : a29 (ix3 0 0 l) = E 29)
    (h30 : a30 (ix3 0 0 l) = E 30) (h31 : a31 (ix3 0 0 l) = E 31) (h32 : a32 (ix3 0 0 l) = E 32) (h33 : a33 (ix3 0 0 l) = E 33) (h34 : a34 (ix3 0 0 l) = E 34)
    (h35 : a35 (ix3 0 0 l) = E 35) (h36 : a36 (ix3 0 0 l) = E 36) (h37 : a37 (ix3 0 0 l) = E 37) (h38 : a38 (ix3 0 0 l) = E 38) (h39 : a39 (ix3 0 0 l) = E 39)
    (h40 : a40 (ix3 0 0 l) = E 40) (h41 : a41 (ix3 0 0 l) = E 41) (h42 : a42 (ix3 0 0 l) = E 42) (h43 : a43 (ix3 0 0 l) = E 43) (h44 : a44 (ix3 0 0 l) = E 44)
    (h45 : a45 (ix3 0 0 l) = E 45) (h46 : a46 (ix3 0 0 l) = E 46) (h47 : a47 (ix3 0 0 l) = E 47) (h48 : a48 (ix3 0 0 l) = E 48) (h49 : a49 (ix3 0 0 l) = E 49) :
    (k0_pay1 (k0_pay62 (k0_pay61 (k0_pay60 (k0_pay59 (k0_pay58 (k0_pay57 a0 a1 a2 a3 a4 a5 a6) a7 a8 a9 a10 a11 a12 a13 a14) a15 a16 a17 a18 a19 a20 a21 a22 a23) a24 a25 a26 a27 a28 a29 a30 a31) a32 a33 a34 a35 a36 a37 a38 a39 a40) a41 a42 a43 a44 a45 a46 a47 a48) (k0_pay63 a49)) (ix2 0 l)
      = FloatOps.mulf (accF E 49) (Scalar.ofBits .f32 0x3CA3D70A#32) := by
  unfold k0_pay57 k0_pay58 k0_pay59 k0_pay60 k0_pay61 k0_pay62 k0_pay63 k0_pay1
  simp only [shapeCast_a_1a_apply, shapeCast_11n_n_apply, vaddf_apply, vmulf_apply, broadcast_apply]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49]
  rfl

end Cert.Kernel.KValue

end
-- ==== Proof.ScBodyValueB.lean ====
/-
  One trip of the gather kernel's loop, on the pooled scratch. The trip's eight stores — sixteen lanes each, at
  offsets `(k, 16 j)` of the scratch, chunk `j`'s payload the printed chain of additions over the fifty loads of the
  landed rows, times the constant — take the scratch from "rows below `k` hold the pooled array's rows of this
  tile" to the same with `k + 1`. Two halves: the frame (which elements the eight rectangles cover: exactly row `k`,
  column `e` under store `e / 16`), for payloads named anyhow; and the values (each chain at a lane is the running
  sum of the fifty looked-up rows at that column times the constant: the pooled array's entry as the kernel computes
  it), from the loads' values and the chains' arithmetic.
-/
import proofs.«204135_g55705725829175_cont_9to1c4b_393_20_alg».proof.Proof.ScBodyLoadB
import proofs.«204135_g55705725829175_cont_9to1c4b_393_20_alg».proof.Proof.KChainsB
import proofs.«204135_g55705725829175_cont_9to1c4b_393_20_alg».proof.Proof.KChainVarsB
import Idealize.ShloMosaic.Lib.ValueLayout
import Idealize.ShloMosaic.Lib.Pipeline.Value
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Kernel.KValue

variable {F : FTy → Type}
variable {UU : Type} [URA UU] [CountersIn UU]

local notation "𝕄" => MT nD τ sig (HIx 1) (Elt F) ℕ UU ℕ

variable (m : (ℓ : Loc nD τ sig) → Buf (Elt F) ℓ)

local notation "xV" => (Memref.whole Cert.Kernel.main_arg1_scv : Memref Cert.Kernel.sig Kind.scVector Space.hbm Cert.Kernel.S100000x128 EltTy.f32)
local notation "iV" => (Memref.whole Cert.Kernel.main_arg0_scv : Memref Cert.Kernel.sig Kind.scVector Space.hbm Cert.Kernel.S1024x50 EltTy.i32)
local notation "oV" => (Memref.whole Cert.Kernel.main_v0_scv : Memref Cert.Kernel.sig Kind.scVector Space.hbm Cert.Kernel.S1024x128 EltTy.f32)
local notation "a5" => (Memref.whole Cert.Kernel.cc0_scratch0 : Memref Cert.Kernel.sig Kind.scVector Space.vmem Cert.Kernel.S32x50 EltTy.i32)
local notation "a6" => (Memref.whole Cert.Kernel.cc0_scratch1 : Memref Cert.Kernel.sig Kind.scVector Space.vmem Cert.Kernel.S4x50x128 EltTy.f32)
local notation "a7" => (Memref.whole Cert.Kernel.cc0_scratch2 : Memref Cert.Kernel.sig Kind.scVector Space.vmem Cert.Kernel.S32x128 EltTy.f32)

section Tile
variable (d : Dev nD) (L : grid0.Coords)

/-! ## One trip's eight stores: the frame -/

theorem lane_lt (j : Fin 8) (l : Fin 16) : 16 * j.val + l.val < 128 := by
  have := j.isLt; have := l.isLt; omega

omit [URA UU] [CountersIn UU] in
/-- The rectangle of chunk `j`'s store in row `k` of the pooled scratch: where its indices sit. -/
theorem piece_emb (k : Fin 32) (j : Fin 8) (o : Fin 2 → Nat) (eo : o = ![k.val, 16 * j.val])
    (inb : ∀ a, o a + S1x16.size a ≤ S32x128.size a) (u : Fin 1) (l : Fin 16) :
    (Rect.unit (s := S32x128) o S1x16.size inb).emb (ix2 u l) = (ix2 k ⟨16 * j.val + l.val, lane_lt j l⟩ : S32x128.Idx) := by
  subst eo
  have hu : u.val = 0 := by omega
  funext a; apply Fin.ext
  match a with
  | ⟨0, _⟩ => show k.val + 1 * u.val = k.val; omega
  | ⟨1, _⟩ => show 16 * j.val + 1 * l.val = 16 * j.val + l.val; omega

omit [URA UU] [CountersIn UU] in
/-- … and which indices it covers. -/
theorem piece_mem (k : Fin 32) (j : Fin 8) (o : Fin 2 → Nat) (eo : o = ![k.val, 16 * j.val])
    (inb : ∀ a, o a + S1x16.size a ≤ S32x128.size a) (y : S32x128.Idx) :
    y ∈ (Rect.unit (s := S32x128) o S1x16.size inb).set ↔ (y 0).val = k.val ∧ 16 * j.val ≤ (y 1).val ∧ (y 1).val < 16 * j.val + 16 := by
  subst eo
  rw [Rect.mem_set_unit]
  constructor
  · intro h
    have h0 := h 0
    have h1 := h 1
    have h0' : k.val ≤ (y 0).val ∧ (y 0).val < k.val + 1 := h0
    have h1' : 16 * j.val ≤ (y 1).val ∧ (y 1).val < 16 * j.val + 16 := h1
    omega
  · rintro ⟨h0, h1, h2⟩ a
    match a with
    | ⟨0, _⟩ => show k.val ≤ (y 0).val ∧ (y 0).val < k.val + 1; omega
    | ⟨1, _⟩ => show 16 * j.val ≤ (y 1).val ∧ (y 1).val < 16 * j.val + 16; omega

variable [FloatOps F]

omit [URA UU] [CountersIn UU] in
/-- THE FRAME of one trip. Eight stores of sixteen lanes each through rectangles at offsets `(k, 16 j)`, newest first,
    over the pooled scratch as it stands before trip `k`, leave it as it stands before trip `k + 1` — whatever the
    payloads are called, if payload `j` at lane `l` is the pooled array's entry of the tile's row `k` at column
    `16 j + l`. Rows other than `k` are under no store; row `k` is covered, column `e` by store `e / 16`. -/
theorem pool_frame (f7 : Buf (Elt F) ((thr d L).loc cc0_scratch2)) (k : Fin 32)
    (o7 : Fin 2 → Nat) (o6 : Fin 2 → Nat) (o5 : Fin 2 → Nat) (o4 : Fin 2 → Nat) (o3 : Fin 2 → Nat) (o2 : Fin 2 → Nat) (o1 : Fin 2 → Nat) (o0 : Fin 2 → Nat)
    (e7 : o7 = ![k.val, 16 * (7 : Fin 8).val]) (e6 : o6 = ![k.val, 16 * (6 : Fin 8).val]) (e5 : o5 = ![k.val, 16 * (5 : Fin 8).val]) (e4 : o4 = ![k.val, 16 * (4 : Fin 8).val]) (e3 : o3 = ![k.val, 16 * (3 : Fin 8).val]) (e2 : o2 = ![k.val, 16 * (2 : Fin 8).val]) (e1 : o1 = ![k.val, 16 * (1 : Fin 8).val]) (e0 : o0 = ![k.val, 16 * (0 : Fin 8).val])
    (i7 : ∀ a, o7 a + S1x16.size a ≤ S32x128.size a)
    (i6 : ∀ a, o6 a + S1x16.size a ≤ S32x128.size a)
    (i5 : ∀ a, o5 a + S1x16.size a ≤ S32x128.size a)
    (i4 : ∀ a, o4 a + S1x16.size a ≤ S32x128.size a)
    (i3 : ∀ a, o3 a + S1x16.size a ≤ S32x128.size a)
    (i2 : ∀ a, o2 a + S1x16.size a ≤ S32x128.size a)
    (i1 : ∀ a, o1 a + S1x16.size a ≤ S32x128.size a)
    (i0 : ∀ a, o0 a + S1x16.size a ≤ S32x128.size a)
    (p7 : S1x16.Idx → Elt F .f32) (p6 : S1x16.Idx → Elt F .f32) (p5 : S1x16.Idx → Elt F .f32) (p4 : S1x16.Idx → Elt F .f32) (p3 : S1x16.Idx → Elt F .f32) (p2 : S1x16.Idx → Elt F .f32) (p1 : S1x16.Idx → Elt F .f32) (p0 : S1x16.Idx → Elt F .f32)
    (h7 : ∀ l : Fin 16, p7 (ix2 0 l) = poolF m d ((oRowK L).view.emb (ix2 k ⟨16 * (7 : Fin 8).val + l.val, lane_lt 7 l⟩)))
    (h6 : ∀ l : Fin 16, p6 (ix2 0 l) = poolF m d ((oRowK L).view.emb (ix2 k ⟨16 * (6 : Fin 8).val + l.val, lane_lt 6 l⟩)))
    (h5 : ∀ l : Fin 16, p5 (ix2 0 l) = poolF m d ((oRowK L).view.emb (ix2 k ⟨16 * (5 : Fin 8).val + l.val, lane_lt 5 l⟩)))
    (h4 : ∀ l : Fin 16, p4 (ix2 0 l) = poolF m d ((oRowK L).view.emb (ix2 k ⟨16 * (4 : Fin 8).val + l.val, lane_lt 4 l⟩)))
    (h3 : ∀ l : Fin 16, p3 (ix2 0 l) = poolF m d ((oRowK L).view.emb (ix2 k ⟨16 * (3 : Fin 8).val + l.val, lane_lt 3 l⟩)))
    (h2 : ∀ l : Fin 16, p2 (ix2 0 l) = poolF m d ((oRowK L).view.emb (ix2 k ⟨16 * (2 : Fin 8).val + l.val, lane_lt 2 l⟩)))
    (h1 : ∀ l : Fin 16, p1 (ix2 0 l) = poolF m d ((oRowK L).view.emb (ix2 k ⟨16 * (1 : Fin 8).val + l.val, lane_lt 1 l⟩)))
    (h0 : ∀ l : Fin 16, p0 (ix2 0 l) = poolF m d ((oRowK L).view.emb (ix2 k ⟨16 * (0 : Fin 8).val + l.val, lane_lt 0 l⟩))) :
    (a7).view.writes (Elt F) (poolSt m d L f7 k.val)
        [⟨Rect.unit (s := S32x128) o7 S1x16.size i7, p7⟩,
         ⟨Rect.unit (s := S32x128) o6 S1x16.size i6, p6⟩,
         ⟨Rect.unit (s := S32x128) o5 S1x16.size i5, p5⟩,
         ⟨Rect.unit (s := S32x128) o4 S1x16.size i4, p4⟩,
         ⟨Rect.unit (s := S32x128) o3 S1x16.size i3, p3⟩,
         ⟨Rect.unit (s := S32x128) o2 S1x16.size i2, p2⟩,
         ⟨Rect.unit (s := S32x128) o1 S1x16.size i1, p1⟩,
         ⟨Rect.unit (s := S32x128) o0 S1x16.size i0, p0⟩]
      = poolSt m d L f7 (k.val + 1) := by
  funext y
  have hr : ∀ g : Buf (Elt F) ((thr d L).loc cc0_scratch2), (a7).view.read (Elt F) g = g := fun g => View.read_whole cc0_scratch2 g
  refine Eq.trans (congrFun (hr _).symm y) ?_
  by_cases hy : ((y : S32x128.Idx) 0).val = k.val
  · -- row `k`: covered by the store of its column's chunk
    rw [View.read_writes_apply_of_pieces (a7).view (poolSt m d L f7 k.val) (fun y : S32x128.Idx => poolF m d ((oRowK L).view.emb y))]
    · unfold poolSt
      rw [if_pos (by omega)]
    · intro p hp
      simp only [List.mem_cons, List.not_mem_nil, or_false] at hp
      rcases hp with rfl | rfl | rfl | rfl | rfl | rfl | rfl | rfl
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p7 (ix2 0 l) = poolF m d ((oRowK L).view.emb ((Rect.unit (s := S32x128) o7 S1x16.size i7).emb (ix2 0 l)))
        rw [piece_emb k 7 o7 e7 i7 0 l]; exact h7 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p6 (ix2 0 l) = poolF m d ((oRowK L).view.emb ((Rect.unit (s := S32x128) o6 S1x16.size i6).emb (ix2 0 l)))
        rw [piece_emb k 6 o6 e6 i6 0 l]; exact h6 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p5 (ix2 0 l) = poolF m d ((oRowK L).view.emb ((Rect.unit (s := S32x128) o5 S1x16.size i5).emb (ix2 0 l)))
        rw [piece_emb k 5 o5 e5 i5 0 l]; exact h5 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p4 (ix2 0 l) = poolF m d ((oRowK L).view.emb ((Rect.unit (s := S32x128) o4 S1x16.size i4).emb (ix2 0 l)))
        rw [piece_emb k 4 o4 e4 i4 0 l]; exact h4 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p3 (ix2 0 l) = poolF m d ((oRowK L).view.emb ((Rect.unit (s := S32x128) o3 S1x16.size i3).emb (ix2 0 l)))
        rw [piece_emb k 3 o3 e3 i3 0 l]; exact h3 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p2 (ix2 0 l) = poolF m d ((oRowK L).view.emb ((Rect.unit (s := S32x128) o2 S1x16.size i2).emb (ix2 0 l)))
        rw [piece_emb k 2 o2 e2 i2 0 l]; exact h2 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p1 (ix2 0 l) = poolF m d ((oRowK L).view.emb ((Rect.unit (s := S32x128) o1 S1x16.size i1).emb (ix2 0 l)))
        rw [piece_emb k 1 o1 e1 i1 0 l]; exact h1 l
      · intro x
        obtain ⟨u, l, rfl⟩ : ∃ (u : Fin 1) (l : Fin 16), (x : S1x16.Idx) = ix2 u l := ⟨x 0, x 1, eq_ix2 x⟩
        have hu : u = 0 := Fin.ext (by omega)
        subst hu
        show p0 (ix2 0 l) = poolF m d ((oRowK L).view.emb ((Rect.unit (s := S32x128) o0 S1x16.size i0).emb (ix2 0 l)))
        rw [piece_emb k 0 o0 e0 i0 0 l]; exact h0 l
    · have hy1 : ((y : S32x128.Idx) 1).val < 128 := (y 1).isLt
      have hc : (16 * 0 ≤ ((y : S32x128.Idx) 1).val ∧ ((y : S32x128.Idx) 1).val < 16 * 0 + 16)
          ∨ (16 * 1 ≤ ((y : S32x128.Idx) 1).val ∧ ((y : S32x128.Idx) 1).val < 16 * 1 + 16)
          ∨ (16 * 2 ≤ ((y : S32x128.Idx) 1).val ∧ ((y : S32x128.Idx) 1).val < 16 * 2 + 16)
          ∨ (16 * 3 ≤ ((y : S32x128.Idx) 1).val ∧ ((y : S32x128.Idx) 1).val < 16 * 3 + 16)
          ∨ (16 * 4 ≤ ((y : S32x128.Idx) 1).val ∧ ((y : S32x128.Idx) 1).val < 16 * 4 + 16)
          ∨ (16 * 5 ≤ ((y : S32x128.Idx) 1).val ∧ ((y : S32x128.Idx) 1).val < 16 * 5 + 16)
          ∨ (16 * 6 ≤ ((y : S32x128.Idx) 1).val ∧ ((y : S32x128.Idx) 1).val < 16 * 6 + 16)
          ∨ (16 * 7 ≤ ((y : S32x128.Idx) 1).val ∧ ((y : S32x128.Idx) 1).val < 16 * 7 + 16) := by
        omega
      rcases hc with hc | hc | hc | hc | hc | hc | hc | hc
      · exact ⟨⟨Rect.unit (s := S32x128) o0 S1x16.size i0, p0⟩, (List.mem_cons_of_mem _ (List.mem_cons_of_mem _ (List.mem_cons_of_mem _ (List.mem_cons_of_mem _ (List.mem_cons_of_mem _ (List.mem_cons_of_mem _ (List.mem_cons_of_mem _ List.mem_cons_self))))))), (piece_mem k 0 o0 e0 i0 y).mpr ⟨hy, hc.1, hc.2⟩⟩
      · exact ⟨⟨Rect.unit (s := S32x128) o1 S1x16.size i1, p1⟩, (List.mem_cons_of_mem _ (List.mem_cons_of_mem _ (List.mem_cons_of_mem _ (List.mem_cons_of_mem _ (List.mem_cons_of_mem _ (List.mem_cons_of_mem _ List.mem_cons_self)))))), (piece_mem k 1 o1 e1 i1 y).mpr ⟨hy, hc.1, hc.2⟩⟩
      · exact ⟨⟨Rect.unit (s := S32x128) o2 S1x16.size i2, p2⟩, (List.mem_cons_of_mem _ (List.mem_cons_of_mem _ (List.mem_cons_of_mem _ (List.mem_cons_of_mem _ (List.mem_cons_of_mem _ List.mem_cons_self))))), (piece_mem k 2 o2 e2 i2 y).mpr ⟨hy, hc.1, hc.2⟩⟩
      · exact ⟨⟨Rect.unit (s := S32x128) o3 S1x16.size i3, p3⟩, (List.mem_cons_of_mem _ (List.mem_cons_of_mem _ (List.mem_cons_of_mem _ (List.mem_cons_of_mem _ List.mem_cons_self)))), (piece_mem k 3 o3 e3 i3 y).mpr ⟨hy, hc.1, hc.2⟩⟩
      · exact ⟨⟨Rect.unit (s := S32x128) o4 S1x16.size i4, p4⟩, (List.mem_cons_of_mem _ (List.mem_cons_of_mem _ (List.mem_cons_of_mem _ List.mem_cons_self))), (piece_mem k 4 o4 e4 i4 y).mpr ⟨hy, hc.1, hc.2⟩⟩
      · exact ⟨⟨Rect.unit (s := S32x128) o5 S1x16.size i5, p5⟩, (List.mem_cons_of_mem _ (List.mem_cons_of_mem _ List.mem_cons_self)), (piece_mem k 5 o5 e5 i5 y).mpr ⟨hy, hc.1, hc.2⟩⟩
      · exact ⟨⟨Rect.unit (s := S32x128) o6 S1x16.size i6, p6⟩, (List.mem_cons_of_mem _ List.mem_cons_self), (piece_mem k 6 o6 e6 i6 y).mpr ⟨hy, hc.1, hc.2⟩⟩
      · exact ⟨⟨Rect.unit (s := S32x128) o7 S1x16.size i7, p7⟩, List.mem_cons_self, (piece_mem k 7 o7 e7 i7 y).mpr ⟨hy, hc.1, hc.2⟩⟩
  · -- another row: under no store
    rw [View.read_writes_apply_of_forall_not_mem]
    · show poolSt m d L f7 k.val y = poolSt m d L f7 (k.val + 1) y
      unfold poolSt
      by_cases hlt : ((y : S32x128.Idx) 0).val < k.val
      · rw [if_pos hlt, if_pos (by omega)]
      · rw [if_neg hlt, if_neg (by omega)]
    · intro p hp
      simp only [List.mem_cons, List.not_mem_nil, or_false] at hp
      rcases hp with rfl | rfl | rfl | rfl | rfl | rfl | rfl | rfl
      · exact fun hm => hy ((piece_mem k 7 o7 e7 i7 y).mp hm).1
      · exact fun hm => hy ((piece_mem k 6 o6 e6 i6 y).mp hm).1
      · exact fun hm => hy ((piece_mem k 5 o5 e5 i5 y).mp hm).1
      · exact fun hm => hy ((piece_mem k 4 o4 e4 i4 y).mp hm).1
      · exact fun hm => hy ((piece_mem k 3 o3 e3 i3 y).mp hm).1
      · exact fun hm => hy ((piece_mem k 2 o2 e2 i2 y).mp hm).1
      · exact fun hm => hy ((piece_mem k 1 o1 e1 i1 y).mp hm).1
      · exact fun hm => hy ((piece_mem k 0 o0 e0 i0 y).mp hm).1

variable (hidx : IdxOK m)

/-- ONE TRIP of the loop, as a run leaves it: the eight stores of trip `k` — each the printed payload chain of its
    chunk over the fifty loads of the landed rows — take the pooled scratch from its state before trip `k` to its
    state before trip `k + 1`. -/
theorem pool_trip (f7 : Buf (Elt F) ((thr d L).loc cc0_scratch2)) (k : Fin k0_t1_loop.trips) (hk : k.val < 32) :
    (a7).view.writes (Elt F) (poolSt m d L f7 k.val)
        [⟨Rect.unit (s := S32x128) (k0_off415 k) S1x16.size (k0_off415_inb k),
           (k0_pay1 (k0_pay62 (k0_pay61 (k0_pay60 (k0_pay59 (k0_pay58 (k0_pay57 (View.readAt (Elt F) (a6).view (Rect.unit (s := S4x50x128) (k0_off365 k) S1x1x16.size (k0_off365_inb k)).toLoadRect (gath m d L hidx k.val hk)) (View.readAt (Elt F) (a6).view (Rect.unit (s := S4x50x128) (k0_off366 k) S1x1x16.size (k0_off366_inb k)).toLoadRect (gath m d L hidx k.val hk)) (View.readAt (Elt F) (a6).view (Rect.unit (s := S4x50x128) (k0_off367 k) S1x1x16.size (k0_off367_inb k)).toLoadRect (gath m d L hidx k.val hk)) (View.readAt (Elt F) (a6).view (Rect.unit (s := S4x50x128) (k0_off368 k) S1x1x16.size (k0_off368_inb k)).toLoadRect (gath m d L hidx k.val hk)) (View.readAt (Elt F) (a6).view (Rect.unit (s := S4x50x128) (k0_off369 k) S1x1x16.size (k0_off369_inb k)).toLoadRect (gath m d L hidx k.val hk)) (View.readAt (Elt F) (a6).view (Rect.unit (s := S4x50x128) (k0_off370 k) S1x1x16.size (k0_off370_inb k)).toLoadRect (gath m d L hidx k.val hk)) (View.readAt (Elt F) (a6).view (Rect.unit (s := S4x50x128) (k0_off371 k) S1x1x16.size (k0_off371_inb k)).toLoadRect (gath m d L hidx k.val hk))) (View.readAt (Elt F) (a6).view (Rect.unit (s := S4x50x128) (k0_off372 k) S1x1x16.size (k0_off372_inb k)).toLoadRect (gath m d L hidx k.val hk)) (View.readAt (Elt F) (a6).view (Rect.unit (s := S4x50x128) (k0_off373 k) S1x1x16.size (k0_off373_inb k)).toLoadRect (gath m d L hidx k.val hk)) (View.readAt (Elt F) (a6).view (Rect.unit (s := S4x50x128) (k0_off374 k) S1x1x16.size (k0_off374_inb k)).toLoadRect (gath m d L hidx k.val hk)) (View.readAt (Elt F) (a6).view (Rect.unit (s := S4x50x128) (k0_off375 k) S1x1x16.size (k0_off375_inb k)).toLoadRect (gath m d L hidx k.val hk)) (View.readAt (Elt F) (a6).view (Rect.unit (s := S4x50x128) (k0_off376 k) S1x1x16.size (k0_off376_inb k)).toLoadRect (gath m d L hidx k.val hk)) (View.readAt (Elt F) (a6).view (Rect.unit (s := S4x50x128) (k0_off377 k) S1x1x16.size (k0_off377_inb k)).toLoadRect (gath m d L hidx k.val hk)) (View.readAt (Elt F) (a6).view (Rect.unit (s := S4x50x128) (k0_off378 k) S1x1x16.size (k0_off378_inb k)).toLoadRect (gath m d L hidx k.val hk)) (View.readAt (Elt F) (a6).view (Rect.unit (s := S4x50x128) (k0_off379 k) S1x1x16.size (k0_off379_inb k)).toLoadRect (gath m d L hidx k.val hk))) (View.readAt (Elt F) (a6).view (Rect.unit (s := S4x50x128) (k0_off380 k) S1x1x16.size (k0_off380_inb k)).toLoadRect (gath m d L hidx k.val hk)) (View.readAt (Elt F) (a6).view (Rect.unit (s := S4x50x128) (k0_off381 k) S1x1x16.size (k0_off381_inb k)).toLoadRect (gath m d L hidx k.val hk)) (View.readAt (Elt F) (a6).view (Rect.unit (s := S4x50x128) (k0_off382 k) S1x1x16.size (k0_off382_inb k)).toLoadRect (gath m d L hidx k.val hk)) (View.readAt (Elt F) (a6).view (Rect.unit (s := S4x50x128) (k0_off383 k) S1x1x16.size (k0_off383_inb k)).toLoadRect (gath m d L hidx k.val hk)) (View.readAt (Elt F) (a6).view (Rect.unit (s := S4x50x128) (k0_off384 k) S1x1x16.size (k0_off384_inb k)).toLoadRect (gath m d L hidx k.val hk)) (View.readAt (Elt F) (a6).view (Rect.unit (s := S4x50x128) (k0_off385 k) S1x1x16.size (k0_off385_inb k)).toLoadRect (gath m d L hidx k.val hk)) (View.readAt (Elt F) (a6).view (Rect.unit (s := S4x50x128) (k0_off386 k) S1x1x16.size (k0_off386_inb k)).toLoadRect (gath m d L hidx k.val hk)) (View.readAt (Elt F) (a6).view (Rect.unit (s := S4x50x128) (k0_off387 k) S1x1x16.size (k0_off387_inb k)).toLoadRect (gath m d L hidx k.val hk)) (View.readAt (Elt F) (a6).view (Rect.unit (s := S4x50x128) (k0_off388 k) S1x1x16.size (k0_off388_inb k)).toLoadRect (gath m d L hidx k.val hk))) (View.readAt (Elt F) (a6).view (Rect.unit (s := S4x50x128) (k0_off389 k) S1x1x16.size (k0_off389_inb k)).toLoadRect (gath m d L hidx k.val hk)) (View.readAt (Elt F) (a6).view (Rect.unit (s := S4x50x128) (k0_off390 k) S1x1x16.size (k0_off390_inb k)).toLoadRect (gath m d L hidx k.val hk)) (View.readAt (Elt F) (a6).view (Rect.unit (s := S4x50x128) (k0_off391 k) S1x1x16.size (k0_off391_inb k)).toLoadRect (gath m d L hidx k.val hk)) (View.readAt (Elt F) (a6).view (Rect.unit (s := S4x50x128) (k0_off392 k) S1x1x16.size (k0_off392_inb k)).toLoadRect (gath m d L hidx k.val hk)) (View.readAt (Elt F) (a6).view (Rect.unit (s := S4x50x128) (k0_off393 k) S1x1x16.size (k0_off393_inb k)).toLoadRect (gath m d L hidx k.val hk)) (View.readAt (Elt F) (a6).view (Rect.unit (s := S4x50x128) (k0_off394 k) S1x1x16.size (k0_off394_inb k)).toLoadRect (gath m d L hidx k.val hk)) (View.readAt (Elt F) (a6).view (Rect.unit (s := S4x50x128) (k0_off395 k) S1x1x16.size (k0_off395_inb k)).toLoadRect (gath m d L hidx k.val hk)) (View.readAt (Elt F) (a6).view (Rect.unit (s := S4x50x128) (k0_off396 k) S1x1x16.size (k0_off396_inb k)).toLoadRect (gath m d L hidx k.val hk))) (View.readAt (Elt F) (a6).view (Rect.unit (s := S4x50x128) (k0_off397 k) S1x1x16.size (k0_off397_inb k)).toLoadRect (gath m d L hidx k.val hk)) (View.readAt (Elt F) (a6).view (Rect.unit (s := S4x50x128) (k0_off398 k) S1x1x16.size (k0_off398_inb k)).toLoadRect (gath m d L hidx k.val hk)) (View.readAt (Elt F) (a6).view (Rect.unit (s := S4x50x128) (k0_off399 k) S1x1x16.size (k0_off399_inb k)).toLoadRect (gath m d L hidx k.val hk)) (View.readAt (Elt F) (a6).view (Rect.unit (s := S4x50x128) (k0_off400 k) S1x1x16.size (k0_off400_inb k)).toLoadRect (gath m d L hidx k.val hk)) (View.readAt (Elt F) (a6).view (Rect.unit (s := S4x50x128) (k0_off401 k) S1x1x16.size (k0_off401_inb k)).toLoadRect (gath m d L hidx k.val hk)) (View.readAt (Elt F) (a6).view (Rect.unit (s := S4x50x128) (k0_off402 k) S1x1x16.size (k0_off402_inb k)).toLoadRect (gath m d L hidx k.val hk)) (View.readAt (Elt F) (a6).view (Rect.unit (s := S4x50x128) (k0_off403 k) S1x1x16.size (k0_off403_inb k)).toLoadRect (gath m d L hidx k.val hk)) (View.readAt (Elt F) (a6).view (Rect.unit (s := S4x50x128) (k0_off404 k) S1x1x16.size (k0_off404_inb k)).toLoadRect (gath m d L hidx k.val hk)) (View.readAt (Elt F) (a6).view (Rect.unit (s := S4x50x128) (k0_off405 k) S1x1x16.size (k0_off405_inb k)).toLoadRect (gath m d L hidx k.val hk))) (View.readAt (Elt F) (a6).view (Rect.unit (s := S4x50x128) (k0_off406 k) S1x1x16.size (k0_off406_inb k)).toLoadRect (gath m d L hidx k.val hk)) (View.readAt (Elt F) (a6).view (Rect.unit (s := S4x50x128) (k0_off407 k) S1x1x16.size (k0_off407_inb k)).toLoadRect (gath m d L hidx k.val hk)) (View.readAt (Elt F) (a6).view (Rect.unit (s := S4x50x128) (k0_off408 k) S1x1x16.size (k0_off408_inb k)).toLoadRect (gath m d L hidx k.val hk)) (View.readAt (Elt F) (a6).view (Rect.unit (s := S4x50x128) (k0_off409 k) S1x1x16.size (k0_off409_inb k)).toLoadRect (gath m d L hidx k.val hk)) (View.readAt (Elt F) (a6).view (Rect.unit (s := S4x50x128) (k0_off410 k) S1x1x16.size (k0_off410_inb k)).toLoadRect (gath m d L hidx k.val hk)) (View.readAt (Elt F) (a6).view (Rect.unit (s := S4x50x128) (k0_off411 k) S1x1x16.size (k0_off411_inb k)).toLoadRect (gath m d L hidx k.val hk)) (View.readAt (Elt F) (a6).view (Rect.unit (s := S4x50x128) (k0_off412 k) S1x1x16.size (k0_off412_inb k)).toLoadRect (gath m d L hidx k.val hk)) (View.readAt (Elt F) (a6).view (Rect.unit (s := S4x50x128) (k0_off413 k) S1x1x16.size (k0_off413_inb k)).toLoadRect (gath m d L hidx k.val hk))) (k0_pay63 (View.readAt (Elt F) (a6).view (Rect.unit (s := S4x50x128) (k0_off414 k) S1x1x16.size (k0_off414_inb k)).toLoadRect (gath m d L hidx k.val hk))))⟩,
         ⟨Rect.unit (s := S32x128) (k0_off364 k) S1x16.size (k0_off364_inb k),
           (k0_pay56 (k0_pay55 (k0_pay54 (k0_pay53 (k0_pay51 (k0_pay50 (k0_pay49 (View.readAt (Elt F) (a6).view (Rect.unit (s := S4x50x128) (k0_off314 k) S1x1x16.size (k0_off314_inb k)).toLoadRect (gath m d L hidx k.val hk)) (View.readAt (Elt F) (a6).view (Rect.unit (s := S4x50x128) (k0_off315 k) S1x1x16.size (k0_off315_inb k)).toLoadRect (gath m d L hidx k.val hk)) (View.readAt (Elt F) (a6).view (Rect.unit (s := S4x50x128) (k0_off316 k) S1x1x16.size (k0_off316_inb k)).toLoadRect (gath m d L hidx k.val hk)) (View.readAt (Elt F) (a6).view (Rect.unit (s := S4x50x128) (k0_off317 k) S1x1x16.size (k0_off317_inb k)).toLoadRect (gath m d L hidx k.val hk)) (View.readAt (Elt F) (a6).view (Rect.unit (s := S4x50x128) (k0_off318 k) S1x1x16.size (k0_off318_inb k)).toLoadRect (gath m d L hidx k.val hk)) (View.readAt (Elt F) (a6).view (Rect.unit (s := S4x50x128) (k0_off319 k) S1x1x16.size (k0_off319_inb k)).toLoadRect (gath m d L hidx k.val hk))) (View.readAt (Elt F) (a6).view (Rect.unit (s := S4x50x128) (k0_off320 k) S1x1x16.size (k0_off320_inb k)).toLoadRect (gath m d L hidx k.val hk)) (View.readAt (Elt F) (a6).view (Rect.unit (s := S4x50x128) (k0_off321 k) S1x1x16.size (k0_off321_inb k)).toLoadRect (gath m d L hidx k.val hk)) (View.readAt (Elt F) (a6).view (Rect.unit (s := S4x50x128) (k0_off322 k) S1x1x16.size (k0_off322_inb k)).toLoadRect (gath m d L hidx k.val hk)) (View.readAt (Elt F) (a6).view (Rect.unit (s := S4x50x128) (k0_off323 k) S1x1x16.size (k0_off323_inb k)).toLoadRect (gath m d L hidx k.val hk)) (View.readAt (Elt F) (a6).view (Rect.unit (s := S4x50x128) (k0_off324 k) S1x1x16.size (k0_off324_inb k)).toLoadRect (gath m d L hidx k.val hk)) (View.readAt (Elt F) (a6).view (Rect.unit (s := S4x50x128) (k0_off325 k) S1x1x16.size (k0_off325_inb k)).toLoadRect (gath m d L hidx k.val hk)) (View.readAt (Elt F) (a6).view (Rect.unit (s := S4x50x128) (k0_off326 k) S1x1x16.size (k0_off326_inb k)).toLoadRect (gath m d L hidx k.val hk)) (View.readAt (Elt F) (a6).view (Rect.unit (s := S4x50x128) (k0_off327 k) S1x1x16.size (k0_off327_inb k)).toLoadRect (gath m d L hidx k.val hk)) (View.readAt (Elt F) (a6).view (Rect.unit (s := S4x50x128) (k0_off328 k) S1x1x16.size (k0_off328_inb k)).toLoadRect (gath m d L hidx k.val hk))) (View.readAt (Elt F) (a6).view (Rect.unit (s := S4x50x128) (k0_off329 k) S1x1x16.size (k0_off329_inb k)).toLoadRect (gath m d L hidx k.val hk)) (View.readAt (Elt F) (a6).view (Rect.unit (s := S4x50x128) (k0_off330 k) S1x1x16.size (k0_off330_inb k)).toLoadRect (gath m d L hidx k.val hk)) (View.readAt (Elt F) (a6).view (Rect.unit (s := S4x50x128) (k0_off331 k) S1x1x16.size (k0_off331_inb k)).toLoadRect (gath m d L hidx k.val hk)) (View.readAt (Elt F) (a6).view (Rect.unit (s := S4x50x128) (k0_off332 k) S1x1x16.size (k0_off332_inb k)).toLoadRect (gath m d L hidx k.val hk)) (View.readAt (Elt F) (a6).view (Rect.unit (s := S4x50x128) (k0_off333 k) S1x1x16.size (k0_off333_inb k)).toLoadRect (gath m d L hidx k.val hk)) (View.readAt (Elt F) (a6).view (Rect.unit (s := S4x50x128) (k0_off334 k) S1x1x16.size (k0_off334_inb k)).toLoadRect (gath m d L hidx k.val hk)) (View.readAt (Elt F) (a6).view (Rect.unit (s := S4x50x128) (k0_off335 k) S1x1x16.size (k0_off335_inb k)).toLoadRect (gath m d L hidx k.val hk)) (View.readAt (Elt F) (a6).view (Rect.unit (s := S4x50x128) (k0_off336 k) S1x1x16.size (k0_off336_inb k)).toLoadRect (gath m d L hidx k.val hk))) (k0_pay52 (View.readAt (Elt F) (a6).view (Rect.unit (s := S4x50x128) (k0_off337 k) S1x1x16.size (k0_off337_inb k)).toLoadRect (gath m d L hidx k.val hk))) (View.readAt (Elt F) (a6).view (Rect.unit (s := S4x50x128) (k0_off338 k) S1x1x16.size (k0_off338_inb k)).toLoadRect (gath m d L hidx k.val hk)) (View.readAt (Elt F) (a6).view (Rect.unit (s := S4x50x128) (k0_off339 k) S1x1x16.size (k0_off339_inb k)).toLoadRect (gath m d L hidx k.val hk)) (View.readAt (Elt F) (a6).view (Rect.unit (s := S4x50x128) (k0_off340 k) S1x1x16.size (k0_off340_inb k)).toLoadRect (gath m d L hidx k.val hk)) (View.readAt (Elt F) (a6).view (Rect.unit (s := S4x50x128) (k0_off341 k) S1x1x16.size (k0_off341_inb k)).toLoadRect (gath m d L hidx k.val hk)) (View.readAt (Elt F) (a6).view (Rect.unit (s := S4x50x128) (k0_off342 k) S1x1x16.size (k0_off342_inb k)).toLoadRect (gath m d L hidx k.val hk)) (View.readAt (Elt F) (a6).view (Rect.unit (s := S4x50x128) (k0_off343 k) S1x1x16.size (k0_off343_inb k)).toLoadRect (gath m d L hidx k.val hk)) (View.readAt (Elt F) (a6).view (Rect.unit (s := S4x50x128) (k0_off344 k) S1x1x16.size (k0_off344_inb k)).toLoadRect (gath m d L hidx k.val hk)) (View.readAt (Elt F) (a6).view (Rect.unit (s := S4x50x128) (k0_off345 k) S1x1x16.size (k0_off345_inb k)).toLoadRect (gath m d L hidx k.val hk))) (View.readAt (Elt F) (a6).view (Rect.unit (s := S4x50x128) (k0_off346 k) S1x1x16.size (k0_off346_inb k)).toLoadRect (gath m d L hidx k.val hk)) (View.readAt (Elt F) (a6).view (Rect.unit (s := S4x50x128) (k0_off347 k) S1x1x16.size (k0_off347_inb k)).toLoadRect (gath m d L hidx k.val hk)) (View.readAt (Elt F) (a6).view (Rect.unit (s := S4x50x128) (k0_off348 k) S1x1x16.size (k0_off348_inb k)).toLoadRect (gath m d L hidx k.val hk)) (View.readAt (Elt F) (a6).view (Rect.unit (s := S4x50x128) (k0_off349 k) S1x1x16.size (k0_off349_inb k)).toLoadRect (gath m d L hidx k.val hk)) (View.readAt (Elt F) (a6).view (Rect.unit (s := S4x50x128) (k0_off350 k) S1x1x16.size (k0_off350_inb k)).toLoadRect (gath m d L hidx k.val hk)) (View.readAt (Elt F) (a6).view (Rect.unit (s := S4x50x128) (k0_off351 k) S1x1x16.size (k0_off351_inb k)).toLoadRect (gath m d L hidx k.val hk)) (View.readAt (Elt F) (a6).view (Rect.unit (s := S4x50x128) (k0_off352 k) S1x1x16.size (k0_off352_inb k)).toLoadRect (gath m d L hidx k.val hk)) (View.readAt (Elt F) (a6).view (Rect.unit (s := S4x50x128) (k0_off353 k) S1x1x16.size (k0_off353_inb k)).toLoadRect (gath m d L hidx k.val hk)) (View.readAt (Elt F) (a6).view (Rect.unit (s := S4x50x128) (k0_off354 k) S1x1x16.size (k0_off354_inb k)).toLoadRect (gath m d L hidx k.val hk))) (View.readAt (Elt F) (a6).view (Rect.unit (s := S4x50x128) (k0_off355 k) S1x1x16.size (k0_off355_inb k)).toLoadRect (gath m d L hidx k.val hk)) (View.readAt (Elt F) (a6).view (Rect.unit (s := S4x50x128) (k0_off356 k) S1x1x16.size (k0_off356_inb k)).toLoadRect (gath m d L hidx k.val hk)) (View.readAt (Elt F) (a6).view (Rect.unit (s := S4x50x128) (k0_off357 k) S1x1x16.size (k0_off357_inb k)).toLoadRect (gath m d L hidx k.val hk)) (View.readAt (Elt F) (a6).view (Rect.unit (s := S4x50x128) (k0_off358 k) S1x1x16.size (k0_off358_inb k)).toLoadRect (gath m d L hidx k.val hk)) (View.readAt (Elt F) (a6).view (Rect.unit (s := S4x50x128) (k0_off359 k) S1x1x16.size (k0_off359_inb k)).toLoadRect (gath m d L hidx k.val hk)) (View.readAt (Elt F) (a6).view (Rect.unit (s := S4x50x128) (k0_off360 k) S1x1x16.size (k0_off360_inb k)).toLoadRect (gath m d L hidx k.val hk)) (View.readAt (Elt F) (a6).view (Rect.unit (s := S4x50x128) (k0_off361 k) S1x1x16.size (k0_off361_inb k)).toLoadRect (gath m d L hidx k.val hk)) (View.readAt (Elt F) (a6).view (Rect.unit (s := S4x50x128) (k0_off362 k) S1x1x16.size (k0_off362_inb k)).toLoadRect (gath m d L hidx k.val hk))) (View.readAt (Elt F) (a6).view (Rect.unit (s := S4x50x128) (k0_off363 k) S1x1x16.size (k0_off363_inb k)).toLoadRect (gath m d L hidx k.val hk)))⟩,
         ⟨Rect.unit (s := S32x128) (k0_off313 k) S1x16.size (k0_off313_inb k),
           (k0_pay48 (k0_pay47 (k0_pay46 (k0_pay45 (k0_pay44 (k0_pay43 (k0_pay42 (View.readAt (Elt F) (a6).view (Rect.unit (s := S4x50x128) (k0_off263 k) S1x1x16.size (k0_off263_inb k)).toLoadRect (gath m d L hidx k.val hk)) (View.readAt (Elt F) (a6).view (Rect.unit (s := S4x50x128) (k0_off264 k) S1x1x16.size (k0_off264_inb k)).toLoadRect (gath m d L hidx k.val hk)) (View.readAt (Elt F) (a6).view (Rect.unit (s := S4x50x128) (k0_off265 k) S1x1x16.size (k0_off265_inb k)).toLoadRect (gath m d L hidx k.val hk)) (View.readAt (Elt F) (a6).view (Rect.unit (s := S4x50x128) (k0_off266 k) S1x1x16.size (k0_off266_inb k)).toLoadRect (gath m d L hidx k.val hk)) (View.readAt (Elt F) (a6).view (Rect.unit (s := S4x50x128) (k0_off267 k) S1x1x16.size (k0_off267_inb k)).toLoadRect (gath m d L hidx k.val hk)) (View.readAt (Elt F) (a6).view (Rect.unit (s := S4x50x128) (k0_off268 k) S1x1x16.size (k0_off268_inb k)).toLoadRect (gath m d L hidx k.val hk))) (View.readAt (Elt F) (a6).view (Rect.unit (s := S4x50x128) (k0_off269 k) S1x1x16.size (k0_off269_inb k)).toLoadRect (gath m d L hidx k.val hk)) (View.readAt (Elt F) (a6).view (Rect.unit (s := S4x50x128) (k0_off270 k) S1x1x16.size (k0_off270_inb k)).toLoadRect (gath m d L hidx k.val hk)) (View.readAt (Elt F) (a6).view (Rect.unit (s := S4x50x128) (k0_off271 k) S1x1x16.size (k0_off271_inb k)).toLoadRect (gath m d L hidx k.val hk)) (View.readAt (Elt F) (a6).view (Rect.unit (s := S4x50x128) (k0_off272 k) S1x1x16.size (k0_off272_inb k)).toLoadRect (gath m d L hidx k.val hk)) (View.readAt (Elt F) (a6).view (Rect.unit (s := S4x50x128) (k0_off273 k) S1x1x16.size (k0_off273_inb k)).toLoadRect (gath m d L hidx k.val hk)) (View.readAt (Elt F) (a6).view (Rect.unit (s := S4x50x128) (k0_off274 k) S1x1x16.size (k0_off274_inb k)).toLoadRect (gath m d L hidx k.val hk)) (View.readAt (Elt F) (a6).view (Rect.unit (s := S4x50x128) (k0_off275 k) S1x1x16.size (k0_off275_inb k)).toLoadRect (gath m d L hidx k.val hk)) (View.readAt (Elt F) (a6).view (Rect.unit (s := S4x50x128) (k0_off276 k) S1x1x16.size (k0_off276_inb k)).toLoadRect (gath m d L hidx k.val hk)) (View.readAt (Elt F) (a6).view (Rect.unit (s := S4x50x128) (k0_off277 k) S1x1x16.size (k0_off277_inb k)).toLoadRect (gath m d L hidx k.val hk))) (View.readAt (Elt F) (a6).view (Rect.unit (s := S4x50x128) (k0_off278 k) S1x1x16.size (k0_off278_inb k)).toLoadRect (gath m d L hidx k.val hk)) (View.readAt (Elt F) (a6).view (Rect.unit (s := S4x50x128) (k0_off279 k) S1x1x16.size (k0_off279_inb k)).toLoadRect (gath m d L hidx k.val hk)) (View.readAt (Elt F) (a6).view (Rect.unit (s := S4x50x128) (k0_off280 k) S1x1x16.size (k0_off280_inb k)).toLoadRect (gath m d L hidx k.val hk)) (View.readAt (Elt F) (a6).view (Rect.unit (s := S4x50x128) (k0_off281 k) S1x1x16.size (k0_off281_inb k)).toLoadRect (gath m d L hidx k.val hk)) (View.readAt (Elt F) (a6).view (Rect.unit (s := S4x50x128) (k0_off282 k) S1x1x16.size (k0_off282_inb k)).toLoadRect (gath m d L hidx k.val hk)) (View.readAt (Elt F) (a6).view (Rect.unit (s := S4x50x128) (k0_off283 k) S1x1x16.size (k0_off283_inb k)).toLoadRect (gath m d L hidx k.val hk)) (View.readAt (Elt F) (a6).view (Rect.unit (s := S4x50x128) (k0_off284 k) S1x1x16.size (k0_off284_inb k)).toLoadRect (gath m d L hidx k.val hk)) (View.readAt (Elt F) (a6).view (Rect.unit (s := S4x50x128) (k0_off285 k) S1x1x16.size (k0_off285_inb k)).toLoadRect (gath m d L hidx k.val hk))) (View.readAt (Elt F) (a6).view (Rect.unit (s := S4x50x128) (k0_off286 k) S1x1x16.size (k0_off286_inb k)).toLoadRect (gath m d L hidx k.val hk)) (View.readAt (Elt F) (a6).view (Rect.unit (s := S4x50x128) (k0_off287 k) S1x1x16.size (k0_off287_inb k)).toLoadRect (gath m d L hidx k.val hk)) (View.readAt (Elt F) (a6).view (Rect.unit (s := S4x50x128) (k0_off288 k) S1x1x16.size (k0_off288_inb k)).toLoadRect (gath m d L hidx k.val hk)) (View.readAt (Elt F) (a6).view (Rect.unit (s := S4x50x128) (k0_off289 k) S1x1x16.size (k0_off289_inb k)).toLoadRect (gath m d L hidx k.val hk)) (View.readAt (Elt F) (a6).view (Rect.unit (s := S4x50x128) (k0_off290 k) S1x1x16.size (k0_off290_inb k)).toLoadRect (gath m d L hidx k.val hk)) (View.readAt (Elt F) (a6).view (Rect.unit (s := S4x50x128) (k0_off291 k) S1x1x16.size (k0_off291_inb k)).toLoadRect (gath m d L hidx k.val hk)) (View.readAt (Elt F) (a6).view (Rect.unit (s := S4x50x128) (k0_off292 k) S1x1x16.size (k0_off292_inb k)).toLoadRect (gath m d L hidx k.val hk)) (View.readAt (Elt F) (a6).view (Rect.unit (s := S4x50x128) (k0_off293 k) S1x1x16.size (k0_off293_inb k)).toLoadRect (gath m d L hidx k.val hk)) (View.readAt (Elt F) (a6).view (Rect.unit (s := S4x50x128) (k0_off294 k) S1x1x16.size (k0_off294_inb k)).toLoadRect (gath m d L hidx k.val hk))) (View.readAt (Elt F) (a6).view (Rect.unit (s := S4x50x128) (k0_off295 k) S1x1x16.size (k0_off295_inb k)).toLoadRect (gath m d L hidx k.val hk)) (View.readAt (Elt F) (a6).view (Rect.unit (s := S4x50x128) (k0_off296 k) S1x1x16.size (k0_off296_inb k)).toLoadRect (gath m d L hidx k.val hk)) (View.readAt (Elt F) (a6).view (Rect.unit (s := S4x50x128) (k0_off297 k) S1x1x16.size (k0_off297_inb k)).toLoadRect (gath m d L hidx k.val hk)) (View.readAt (Elt F) (a6).view (Rect.unit (s := S4x50x128) (k0_off298 k) S1x1x16.size (k0_off298_inb k)).toLoadRect (gath m d L hidx k.val hk)) (View.readAt (Elt F) (a6).view (Rect.unit (s := S4x50x128) (k0_off299 k) S1x1x16.size (k0_off299_inb k)).toLoadRect (gath m d L hidx k.val hk)) (View.readAt (Elt F) (a6).view (Rect.unit (s := S4x50x128) (k0_off300 k) S1x1x16.size (k0_off300_inb k)).toLoadRect (gath m d L hidx k.val hk)) (View.readAt (Elt F) (a6).view (Rect.unit (s := S4x50x128) (k0_off301 k) S1x1x16.size (k0_off301_inb k)).toLoadRect (gath m d L hidx k.val hk)) (View.readAt (Elt F) (a6).view (Rect.unit (s := S4x50x128) (k0_off302 k) S1x1x16.size (k0_off302_inb k)).toLoadRect (gath m d L hidx k.val hk))) (View.readAt (Elt F) (a6).view (Rect.unit (s := S4x50x128) (k0_off303 k) S1x1x16.size (k0_off303_inb k)).toLoadRect (gath m d L hidx k.val hk)) (View.readAt (Elt F) (a6).view (Rect.unit (s := S4x50x128) (k0_off304 k) S1x1x16.size (k0_off304_inb k)).toLoadRect (gath m d L hidx k.val hk)) (View.readAt (Elt F) (a6).view (Rect.unit (s := S4x50x128) (k0_off305 k) S1x1x16.size (k0_off305_inb k)).toLoadRect (gath m d L hidx k.val hk)) (View.readAt (Elt F) (a6).view (Rect.unit (s := S4x50x128) (k0_off306 k) S1x1x16.size (k0_off306_inb k)).toLoadRect (gath m d L hidx k.val hk)) (View.readAt (Elt F) (a6).view (Rect.unit (s := S4x50x128) (k0_off307 k) S1x1x16.size (k0_off307_inb k)).toLoadRect (gath m d L hidx k.val hk)) (View.readAt (Elt F) (a6).view (Rect.unit (s := S4x50x128) (k0_off308 k) S1x1x16.size (k0_off308_inb k)).toLoadRect (gath m d L hidx k.val hk)) (View.readAt (Elt F) (a6).view (Rect.unit (s := S4x50x128) (k0_off309 k) S1x1x16.size (k0_off309_inb k)).toLoadRect (gath m d L hidx k.val hk)) (View.readAt (Elt F) (a6).view (Rect.unit (s := S4x50x128) (k0_off310 k) S1x1x16.size (k0_off310_inb k)).toLoadRect (gath m d L hidx k.val hk)) (View.readAt (Elt F) (a6).view (Rect.unit (s := S4x50x128) (k0_off311 k) S1x1x16.size (k0_off311_inb k)).toLoadRect (gath m d L hidx k.val hk))) (View.readAt (Elt F) (a6).view (Rect.unit (s := S4x50x128) (k0_off312 k) S1x1x16.size (k0_off312_inb k)).toLoadRect (gath m d L hidx k.val hk)))⟩,
         ⟨Rect.unit (s := S32x128) (k0_off262 k) S1x16.size (k0_off262_inb k),
           (k0_pay41 (k0_pay40 (k0_pay39 (k0_pay37 (k0_pay36 (k0_pay35 (k0_pay34 (View.readAt (Elt F) (a6).view (Rect.unit (s := S4x50x128) (k0_off212 k) S1x1x16.size (k0_off212_inb k)).toLoadRect (gath m d L hidx k.val hk)) (View.readAt (Elt F) (a6).view (Rect.unit (s := S4x50x128) (k0_off213 k) S1x1x16.size (k0_off213_inb k)).toLoadRect (gath m d L hidx k.val hk)) (View.readAt (Elt F) (a6).view (Rect.unit (s := S4x50x128) (k0_off214 k) S1x1x16.size (k0_off214_inb k)).toLoadRect (gath m d L hidx k.val hk)) (View.readAt (Elt F) (a6).view (Rect.unit (s := S4x50x128) (k0_off215 k) S1x1x16.size (k0_off215_inb k)).toLoadRect (gath m d L hidx k.val hk)) (View.readAt (Elt F) (a6).view (Rect.unit (s := S4x50x128) (k0_off216 k) S1x1x16.size (k0_off216_inb k)).toLoadRect (gath m d L hidx k.val hk)) (View.readAt (Elt F) (a6).view (Rect.unit (s := S4x50x128) (k0_off217 k) S1x1x16.size (k0_off217_inb k)).toLoadRect (gath m d L hidx k.val hk))) (View.readAt (Elt F) (a6).view (Rect.unit (s := S4x50x128) (k0_off218 k) S1x1x16.size (k0_off218_inb k)).toLoadRect (gath m d L hidx k.val hk)) (View.readAt (Elt F) (a6).view (Rect.unit (s := S4x50x128) (k0_off219 k) S1x1x16.size (k0_off219_inb k)).toLoadRect (gath m d L hidx k.val hk)) (View.readAt (Elt F) (a6).view (Rect.unit (s := S4x50x128) (k0_off220 k) S1x1x16.size (k0_off220_inb k)).toLoadRect (gath m d L hidx k.val hk)) (View.readAt (Elt F) (a6).view (Rect.unit (s := S4x50x128) (k0_off221 k) S1x1x16.size (k0_off221_inb k)).toLoadRect (gath m d L hidx k.val hk)) (View.readAt (Elt F) (a6).view (Rect.unit (s := S4x50x128) (k0_off222 k) S1x1x16.size (k0_off222_inb k)).toLoadRect (gath m d L hidx k.val hk)) (View.readAt (Elt F) (a6).view (Rect.unit (s := S4x50x128) (k0_off223 k) S1x1x16.size (k0_off223_inb k)).toLoadRect (gath m d L hidx k.val hk)) (View.readAt (Elt F) (a6).view (Rect.unit (s := S4x50x128) (k0_off224 k) S1x1x16.size (k0_off224_inb k)).toLoadRect (gath m d L hidx k.val hk)) (View.readAt (Elt F) (a6).view (Rect.unit (s := S4x50x128) (k0_off225 k) S1x1x16.size (k0_off225_inb k)).toLoadRect (gath m d L hidx k.val hk))) (View.readAt (Elt F) (a6).view (Rect.unit (s := S4x50x128) (k0_off226 k) S1x1x16.size (k0_off226_inb k)).toLoadRect (gath m d L hidx k.val hk)) (View.readAt (Elt F) (a6).view (Rect.unit (s := S4x50x128) (k0_off227 k) S1x1x16.size (k0_off227_inb k)).toLoadRect (gath m d L hidx k.val hk)) (View.readAt (Elt F) (a6).view (Rect.unit (s := S4x50x128) (k0_off228 k) S1x1x16.size (k0_off228_inb k)).toLoadRect (gath m d L hidx k.val hk)) (View.readAt (Elt F) (a6).view (Rect.unit (s := S4x50x128) (k0_off229 k) S1x1x16.size (k0_off229_inb k)).toLoadRect (gath m d L hidx k.val hk)) (View.readAt (Elt F) (a6).view (Rect.unit (s := S4x50x128) (k0_off230 k) S1x1x16.size (k0_off230_inb k)).toLoadRect (gath m d L hidx k.val hk)) (View.readAt (Elt F) (a6).view (Rect.unit (s := S4x50x128) (k0_off231 k) S1x1x16.size (k0_off231_inb k)).toLoadRect (gath m d L hidx k.val hk)) (View.readAt (Elt F) (a6).view (Rect.unit (s := S4x50x128) (k0_off232 k) S1x1x16.size (k0_off232_inb k)).toLoadRect (gath m d L hidx k.val hk)) (View.readAt (Elt F) (a6).view (Rect.unit (s := S4x50x128) (k0_off233 k) S1x1x16.size (k0_off233_inb k)).toLoadRect (gath m d L hidx k.val hk)) (View.readAt (Elt F) (a6).view (Rect.unit (s := S4x50x128) (k0_off234 k) S1x1x16.size (k0_off234_inb k)).toLoadRect (gath m d L hidx k.val hk))) (View.readAt (Elt F) (a6).view (Rect.unit (s := S4x50x128) (k0_off235 k) S1x1x16.size (k0_off235_inb k)).toLoadRect (gath m d L hidx k.val hk)) (View.readAt (Elt F) (a6).view (Rect.unit (s := S4x50x128) (k0_off236 k) S1x1x16.size (k0_off236_inb k)).toLoadRect (gath m d L hidx k.val hk)) (View.readAt (Elt F) (a6).view (Rect.unit (s := S4x50x128) (k0_off237 k) S1x1x16.size (k0_off237_inb k)).toLoadRect (gath m d L hidx k.val hk)) (View.readAt (Elt F) (a6).view (Rect.unit (s := S4x50x128) (k0_off238 k) S1x1x16.size (k0_off238_inb k)).toLoadRect (gath m d L hidx k.val hk)) (View.readAt (Elt F) (a6).view (Rect.unit (s := S4x50x128) (k0_off239 k) S1x1x16.size (k0_off239_inb k)).toLoadRect (gath m d L hidx k.val hk)) (View.readAt (Elt F) (a6).view (Rect.unit (s := S4x50x128) (k0_off240 k) S1x1x16.size (k0_off240_inb k)).toLoadRect (gath m d L hidx k.val hk)) (View.readAt (Elt F) (a6).view (Rect.unit (s := S4x50x128) (k0_off241 k) S1x1x16.size (k0_off241_inb k)).toLoadRect (gath m d L hidx k.val hk)) (View.readAt (Elt F) (a6).view (Rect.unit (s := S4x50x128) (k0_off242 k) S1x1x16.size (k0_off242_inb k)).toLoadRect (gath m d L hidx k.val hk))) (k0_pay38 (View.readAt (Elt F) (a6).view (Rect.unit (s := S4x50x128) (k0_off243 k) S1x1x16.size (k0_off243_inb k)).toLoadRect (gath m d L hidx k.val hk))) (View.readAt (Elt F) (a6).view (Rect.unit (s := S4x50x128) (k0_off244 k) S1x1x16.size (k0_off244_inb k)).toLoadRect (gath m d L hidx k.val hk)) (View.readAt (Elt F) (a6).view (Rect.unit (s := S4x50x128) (k0_off245 k) S1x1x16.size (k0_off245_inb k)).toLoadRect (gath m d L hidx k.val hk)) (View.readAt (Elt F) (a6).view (Rect.unit (s := S4x50x128) (k0_off246 k) S1x1x16.size (k0_off246_inb k)).toLoadRect (gath m d L hidx k.val hk)) (View.readAt (Elt F) (a6).view (Rect.unit (s := S4x50x128) (k0_off247 k) S1x1x16.size (k0_off247_inb k)).toLoadRect (gath m d L hidx k.val hk)) (View.readAt (Elt F) (a6).view (Rect.unit (s := S4x50x128) (k0_off248 k) S1x1x16.size (k0_off248_inb k)).toLoadRect (gath m d L hidx k.val hk)) (View.readAt (Elt F) (a6).view (Rect.unit (s := S4x50x128) (k0_off249 k) S1x1x16.size (k0_off249_inb k)).toLoadRect (gath m d L hidx k.val hk)) (View.readAt (Elt F) (a6).view (Rect.unit (s := S4x50x128) (k0_off250 k) S1x1x16.size (k0_off250_inb k)).toLoadRect (gath m d L hidx k.val hk)) (View.readAt (Elt F) (a6).view (Rect.unit (s := S4x50x128) (k0_off251 k) S1x1x16.size (k0_off251_inb k)).toLoadRect (gath m d L hidx k.val hk))) (View.readAt (Elt F) (a6).view (Rect.unit (s := S4x50x128) (k0_off252 k) S1x1x16.size (k0_off252_inb k)).toLoadRect (gath m d L hidx k.val hk)) (View.readAt (Elt F) (a6).view (Rect.unit (s := S4x50x128) (k0_off253 k) S1x1x16.size (k0_off253_inb k)).toLoadRect (gath m d L hidx k.val hk)) (View.readAt (Elt F) (a6).view (Rect.unit (s := S4x50x128) (k0_off254 k) S1x1x16.size (k0_off254_inb k)).toLoadRect (gath m d L hidx k.val hk)) (View.readAt (Elt F) (a6).view (Rect.unit (s := S4x50x128) (k0_off255 k) S1x1x16.size (k0_off255_inb k)).toLoadRect (gath m d L hidx k.val hk)) (View.readAt (Elt F) (a6).view (Rect.unit (s := S4x50x128) (k0_off256 k) S1x1x16.size (k0_off256_inb k)).toLoadRect (gath m d L hidx k.val hk)) (View.readAt (Elt F) (a6).view (Rect.unit (s := S4x50x128) (k0_off257 k) S1x1x16.size (k0_off257_inb k)).toLoadRect (gath m d L hidx k.val hk)) (View.readAt (Elt F) (a6).view (Rect.unit (s := S4x50x128) (k0_off258 k) S1x1x16.size (k0_off258_inb k)).toLoadRect (gath m d L hidx k.val hk)) (View.readAt (Elt F) (a6).view (Rect.unit (s := S4x50x128) (k0_off259 k) S1x1x16.size (k0_off259_inb k)).toLoadRect (gath m d L hidx k.val hk)) (View.readAt (Elt F) (a6).view (Rect.unit (s := S4x50x128) (k0_off260 k) S1x1x16.size (k0_off260_inb k)).toLoadRect (gath m d L hidx k.val hk))) (View.readAt (Elt F) (a6).view (Rect.unit (s := S4x50x128) (k0_off261 k) S1x1x16.size (k0_off261_inb k)).toLoadRect (gath m d L hidx k.val hk)))⟩,
         ⟨Rect.unit (s := S32x128) (k0_off211 k) S1x16.size (k0_off211_inb k),
           (k0_pay33 (k0_pay32 (k0_pay31 (k0_pay30 (k0_pay29 (k0_pay28 (k0_pay26 (View.readAt (Elt F) (a6).view (Rect.unit (s := S4x50x128) (k0_off161 k) S1x1x16.size (k0_off161_inb k)).toLoadRect (gath m d L hidx k.val hk)) (View.readAt (Elt F) (a6).view (Rect.unit (s := S4x50x128) (k0_off162 k) S1x1x16.size (k0_off162_inb k)).toLoadRect (gath m d L hidx k.val hk)) (View.readAt (Elt F) (a6).view (Rect.unit (s := S4x50x128) (k0_off163 k) S1x1x16.size (k0_off163_inb k)).toLoadRect (gath m d L hidx k.val hk)) (View.readAt (Elt F) (a6).view (Rect.unit (s := S4x50x128) (k0_off164 k) S1x1x16.size (k0_off164_inb k)).toLoadRect (gath m d L hidx k.val hk)) (View.readAt (Elt F) (a6).view (Rect.unit (s := S4x50x128) (k0_off165 k) S1x1x16.size (k0_off165_inb k)).toLoadRect (gath m d L hidx k.val hk))) (k0_pay27 (View.readAt (Elt F) (a6).view (Rect.unit (s := S4x50x128) (k0_off166 k) S1x1x16.size (k0_off166_inb k)).toLoadRect (gath m d L hidx k.val hk))) (View.readAt (Elt F) (a6).view (Rect.unit (s := S4x50x128) (k0_off167 k) S1x1x16.size (k0_off167_inb k)).toLoadRect (gath m d L hidx k.val hk)) (View.readAt (Elt F) (a6).view (Rect.unit (s := S4x50x128) (k0_off168 k) S1x1x16.size (k0_off168_inb k)).toLoadRect (gath m d L hidx k.val hk)) (View.readAt (Elt F) (a6).view (Rect.unit (s := S4x50x128) (k0_off169 k) S1x1x16.size (k0_off169_inb k)).toLoadRect (gath m d L hidx k.val hk)) (View.readAt (Elt F) (a6).view (Rect.unit (s := S4x50x128) (k0_off170 k) S1x1x16.size (k0_off170_inb k)).toLoadRect (gath m d L hidx k.val hk)) (View.readAt (Elt F) (a6).view (Rect.unit (s := S4x50x128) (k0_off171 k) S1x1x16.size (k0_off171_inb k)).toLoadRect (gath m d L hidx k.val hk)) (View.readAt (Elt F) (a6).view (Rect.unit (s := S4x50x128) (k0_off172 k) S1x1x16.size (k0_off172_inb k)).toLoadRect (gath m d L hidx k.val hk)) (View.readAt (Elt F) (a6).view (Rect.unit (s := S4x50x128) (k0_off173 k) S1x1x16.size (k0_off173_inb k)).toLoadRect (gath m d L hidx k.val hk)) (View.readAt (Elt F) (a6).view (Rect.unit (s := S4x50x128) (k0_off174 k) S1x1x16.size (k0_off174_inb k)).toLoadRect (gath m d L hidx k.val hk))) (View.readAt (Elt F) (a6).view (Rect.unit (s := S4x50x128) (k0_off175 k) S1x1x16.size (k0_off175_inb k)).toLoadRect (gath m d L hidx k.val hk)) (View.readAt (Elt F) (a6).view (Rect.unit (s := S4x50x128) (k0_off176 k) S1x1x16.size (k0_off176_inb k)).toLoadRect (gath m d L hidx k.val hk)) (View.readAt (Elt F) (a6).view (Rect.unit (s := S4x50x128) (k0_off177 k) S1x1x16.size (k0_off177_inb k)).toLoadRect (gath m d L hidx k.val hk)) (View.readAt (Elt F) (a6).view (Rect.unit (s := S4x50x128) (k0_off178 k) S1x1x16.size (k0_off178_inb k)).toLoadRect (gath m d L hidx k.val hk)) (View.readAt (Elt F) (a6).view (Rect.unit (s := S4x50x128) (k0_off179 k) S1x1x16.size (k0_off179_inb k)).toLoadRect (gath m d L hidx k.val hk)) (View.readAt (Elt F) (a6).view (Rect.unit (s := S4x50x128) (k0_off180 k) S1x1x16.size (k0_off180_inb k)).toLoadRect (gath m d L hidx k.val hk)) (View.readAt (Elt F) (a6).view (Rect.unit (s := S4x50x128) (k0_off181 k) S1x1x16.size (k0_off181_inb k)).toLoadRect (gath m d L hidx k.val hk)) (View.readAt (Elt F) (a6).view (Rect.unit (s := S4x50x128) (k0_off182 k) S1x1x16.size (k0_off182_inb k)).toLoadRect (gath m d L hidx k.val hk)) (View.readAt (Elt F) (a6).view (Rect.unit (s := S4x50x128) (k0_off183 k) S1x1x16.size (k0_off183_inb k)).toLoadRect (gath m d L hidx k.val hk))) (View.readAt (Elt F) (a6).view (Rect.unit (s := S4x50x128) (k0_off184 k) S1x1x16.size (k0_off184_inb k)).toLoadRect (gath m d L hidx k.val hk)) (View.readAt (Elt F) (a6).view (Rect.unit (s := S4x50x128) (k0_off185 k) S1x1x16.size (k0_off185_inb k)).toLoadRect (gath m d L hidx k.val hk)) (View.readAt (Elt F) (a6).view (Rect.unit (s := S4x50x128) (k0_off186 k) S1x1x16.size (k0_off186_inb k)).toLoadRect (gath m d L hidx k.val hk)) (View.readAt (Elt F) (a6).view (Rect.unit (s := S4x50x128) (k0_off187 k) S1x1x16.size (k0_off187_inb k)).toLoadRect (gath m d L hidx k.val hk)) (View.readAt (Elt F) (a6).view (Rect.unit (s := S4x50x128) (k0_off188 k) S1x1x16.size (k0_off188_inb k)).toLoadRect (gath m d L hidx k.val hk)) (View.readAt (Elt F) (a6).view (Rect.unit (s := S4x50x128) (k0_off189 k) S1x1x16.size (k0_off189_inb k)).toLoadRect (gath m d L hidx k.val hk)) (View.readAt (Elt F) (a6).view (Rect.unit (s := S4x50x128) (k0_off190 k) S1x1x16.size (k0_off190_inb k)).toLoadRect (gath m d L hidx k.val hk)) (View.readAt (Elt F) (a6).view (Rect.unit (s := S4x50x128) (k0_off191 k) S1x1x16.size (k0_off191_inb k)).toLoadRect (gath m d L hidx k.val hk))) (View.readAt (Elt F) (a6).view (Rect.unit (s := S4x50x128) (k0_off192 k) S1x1x16.size (k0_off192_inb k)).toLoadRect (gath m d L hidx k.val hk)) (View.readAt (Elt F) (a6).view (Rect.unit (s := S4x50x128) (k0_off193 k) S1x1x16.size (k0_off193_inb k)).toLoadRect (gath m d L hidx k.val hk)) (View.readAt (Elt F) (a6).view (Rect.unit (s := S4x50x128) (k0_off194 k) S1x1x16.size (k0_off194_inb k)).toLoadRect (gath m d L hidx k.val hk)) (View.readAt (Elt F) (a6).view (Rect.unit (s := S4x50x128) (k0_off195 k) S1x1x16.size (k0_off195_inb k)).toLoadRect (gath m d L hidx k.val hk)) (View.readAt (Elt F) (a6).view (Rect.unit (s := S4x50x128) (k0_off196 k) S1x1x16.size (k0_off196_inb k)).toLoadRect (gath m d L hidx k.val hk)) (View.readAt (Elt F) (a6).view (Rect.unit (s := S4x50x128) (k0_off197 k) S1x1x16.size (k0_off197_inb k)).toLoadRect (gath m d L hidx k.val hk)) (View.readAt (Elt F) (a6).view (Rect.unit (s := S4x50x128) (k0_off198 k) S1x1x16.size (k0_off198_inb k)).toLoadRect (gath m d L hidx k.val hk)) (View.readAt (Elt F) (a6).view (Rect.unit (s := S4x50x128) (k0_off199 k) S1x1x16.size (k0_off199_inb k)).toLoadRect (gath m d L hidx k.val hk)) (View.readAt (Elt F) (a6).view (Rect.unit (s := S4x50x128) (k0_off200 k) S1x1x16.size (k0_off200_inb k)).toLoadRect (gath m d L hidx k.val hk))) (View.readAt (Elt F) (a6).view (Rect.unit (s := S4x50x128) (k0_off201 k) S1x1x16.size (k0_off201_inb k)).toLoadRect (gath m d L hidx k.val hk)) (View.readAt (Elt F) (a6).view (Rect.unit (s := S4x50x128) (k0_off202 k) S1x1x16.size (k0_off202_inb k)).toLoadRect (gath m d L hidx k.val hk)) (View.readAt (Elt F) (a6).view (Rect.unit (s := S4x50x128) (k0_off203 k) S1x1x16.size (k0_off203_inb k)).toLoadRect (gath m d L hidx k.val hk)) (View.readAt (Elt F) (a6).view (Rect.unit (s := S4x50x128) (k0_off204 k) S1x1x16.size (k0_off204_inb k)).toLoadRect (gath m d L hidx k.val hk)) (View.readAt (Elt F) (a6).view (Rect.unit (s := S4x50x128) (k0_off205 k) S1x1x16.size (k0_off205_inb k)).toLoadRect (gath m d L hidx k.val hk)) (View.readAt (Elt F) (a6).view (Rect.unit (s := S4x50x128) (k0_off206 k) S1x1x16.size (k0_off206_inb k)).toLoadRect (gath m d L hidx k.val hk)) (View.readAt (Elt F) (a6).view (Rect.unit (s := S4x50x128) (k0_off207 k) S1x1x16.size (k0_off207_inb k)).toLoadRect (gath m d L hidx k.val hk)) (View.readAt (Elt F) (a6).view (Rect.unit (s := S4x50x128) (k0_off208 k) S1x1x16.size (k0_off208_inb k)).toLoadRect (gath m d L hidx k.val hk))) (View.readAt (Elt F) (a6).view (Rect.unit (s := S4x50x128) (k0_off209 k) S1x1x16.size (k0_off209_inb k)).toLoadRect (gath m d L hidx k.val hk)) (View.readAt (Elt F) (a6).view (Rect.unit (s := S4x50x128) (k0_off210 k) S1x1x16.size (k0_off210_inb k)).toLoadRect (gath m d L hidx k.val hk)))⟩,
         ⟨Rect.unit (s := S32x128) (k0_off160 k) S1x16.size (k0_off160_inb k),
           (k0_pay25 (k0_pay24 (k0_pay22 (k0_pay21 (k0_pay20 (k0_pay19 (k0_pay18 (View.readAt (Elt F) (a6).view (Rect.unit (s := S4x50x128) (k0_off110 k) S1x1x16.size (k0_off110_inb k)).toLoadRect (gath m d L hidx k.val hk)) (View.readAt (Elt F) (a6).view (Rect.unit (s := S4x50x128) (k0_off111 k) S1x1x16.size (k0_off111_inb k)).toLoadRect (gath m d L hidx k.val hk)) (View.readAt (Elt F) (a6).view (Rect.unit (s := S4x50x128) (k0_off112 k) S1x1x16.size (k0_off112_inb k)).toLoadRect (gath m d L hidx k.val hk)) (View.readAt (Elt F) (a6).view (Rect.unit (s := S4x50x128) (k0_off113 k) S1x1x16.size (k0_off113_inb k)).toLoadRect (gath m d L hidx k.val hk)) (View.readAt (Elt F) (a6).view (Rect.unit (s := S4x50x128) (k0_off114 k) S1x1x16.size (k0_off114_inb k)).toLoadRect (gath m d L hidx k.val hk))) (View.readAt (Elt F) (a6).view (Rect.unit (s := S4x50x128) (k0_off115 k) S1x1x16.size (k0_off115_inb k)).toLoadRect (gath m d L hidx k.val hk)) (View.readAt (Elt F) (a6).view (Rect.unit (s := S4x50x128) (k0_off116 k) S1x1x16.size (k0_off116_inb k)).toLoadRect (gath m d L hidx k.val hk)) (View.readAt (Elt F) (a6).view (Rect.unit (s := S4x50x128) (k0_off117 k) S1x1x16.size (k0_off117_inb k)).toLoadRect (gath m d L hidx k.val hk)) (View.readAt (Elt F) (a6).view (Rect.unit (s := S4x50x128) (k0_off118 k) S1x1x16.size (k0_off118_inb k)).toLoadRect (gath m d L hidx k.val hk)) (View.readAt (Elt F) (a6).view (Rect.unit (s := S4x50x128) (k0_off119 k) S1x1x16.size (k0_off119_inb k)).toLoadRect (gath m d L hidx k.val hk)) (View.readAt (Elt F) (a6).view (Rect.unit (s := S4x50x128) (k0_off120 k) S1x1x16.size (k0_off120_inb k)).toLoadRect (gath m d L hidx k.val hk)) (View.readAt (Elt F) (a6).view (Rect.unit (s := S4x50x128) (k0_off121 k) S1x1x16.size (k0_off121_inb k)).toLoadRect (gath m d L hidx k.val hk)) (View.readAt (Elt F) (a6).view (Rect.unit (s := S4x50x128) (k0_off122 k) S1x1x16.size (k0_off122_inb k)).toLoadRect (gath m d L hidx k.val hk)) (View.readAt (Elt F) (a6).view (Rect.unit (s := S4x50x128) (k0_off123 k) S1x1x16.size (k0_off123_inb k)).toLoadRect (gath m d L hidx k.val hk))) (View.readAt (Elt F) (a6).view (Rect.unit (s := S4x50x128) (k0_off124 k) S1x1x16.size (k0_off124_inb k)).toLoadRect (gath m d L hidx k.val hk)) (View.readAt (Elt F) (a6).view (Rect.unit (s := S4x50x128) (k0_off125 k) S1x1x16.size (k0_off125_inb k)).toLoadRect (gath m d L hidx k.val hk)) (View.readAt (Elt F) (a6).view (Rect.unit (s := S4x50x128) (k0_off126 k) S1x1x16.size (k0_off126_inb k)).toLoadRect (gath m d L hidx k.val hk)) (View.readAt (Elt F) (a6).view (Rect.unit (s := S4x50x128) (k0_off127 k) S1x1x16.size (k0_off127_inb k)).toLoadRect (gath m d L hidx k.val hk)) (View.readAt (Elt F) (a6).view (Rect.unit (s := S4x50x128) (k0_off128 k) S1x1x16.size (k0_off128_inb k)).toLoadRect (gath m d L hidx k.val hk)) (View.readAt (Elt F) (a6).view (Rect.unit (s := S4x50x128) (k0_off129 k) S1x1x16.size (k0_off129_inb k)).toLoadRect (gath m d L hidx k.val hk)) (View.readAt (Elt F) (a6).view (Rect.unit (s := S4x50x128) (k0_off130 k) S1x1x16.size (k0_off130_inb k)).toLoadRect (gath m d L hidx k.val hk)) (View.readAt (Elt F) (a6).view (Rect.unit (s := S4x50x128) (k0_off131 k) S1x1x16.size (k0_off131_inb k)).toLoadRect (gath m d L hidx k.val hk))) (View.readAt (Elt F) (a6).view (Rect.unit (s := S4x50x128) (k0_off132 k) S1x1x16.size (k0_off132_inb k)).toLoadRect (gath m d L hidx k.val hk)) (View.readAt (Elt F) (a6).view (Rect.unit (s := S4x50x128) (k0_off133 k) S1x1x16.size (k0_off133_inb k)).toLoadRect (gath m d L hidx k.val hk)) (View.readAt (Elt F) (a6).view (Rect.unit (s := S4x50x128) (k0_off134 k) S1x1x16.size (k0_off134_inb k)).toLoadRect (gath m d L hidx k.val hk)) (View.readAt (Elt F) (a6).view (Rect.unit (s := S4x50x128) (k0_off135 k) S1x1x16.size (k0_off135_inb k)).toLoadRect (gath m d L hidx k.val hk)) (View.readAt (Elt F) (a6).view (Rect.unit (s := S4x50x128) (k0_off136 k) S1x1x16.size (k0_off136_inb k)).toLoadRect (gath m d L hidx k.val hk)) (View.readAt (Elt F) (a6).view (Rect.unit (s := S4x50x128) (k0_off137 k) S1x1x16.size (k0_off137_inb k)).toLoadRect (gath m d L hidx k.val hk)) (View.readAt (Elt F) (a6).view (Rect.unit (s := S4x50x128) (k0_off138 k) S1x1x16.size (k0_off138_inb k)).toLoadRect (gath m d L hidx k.val hk)) (View.readAt (Elt F) (a6).view (Rect.unit (s := S4x50x128) (k0_off139 k) S1x1x16.size (k0_off139_inb k)).toLoadRect (gath m d L hidx k.val hk)) (View.readAt (Elt F) (a6).view (Rect.unit (s := S4x50x128) (k0_off140 k) S1x1x16.size (k0_off140_inb k)).toLoadRect (gath m d L hidx k.val hk))) (View.readAt (Elt F) (a6).view (Rect.unit (s := S4x50x128) (k0_off141 k) S1x1x16.size (k0_off141_inb k)).toLoadRect (gath m d L hidx k.val hk)) (View.readAt (Elt F) (a6).view (Rect.unit (s := S4x50x128) (k0_off142 k) S1x1x16.size (k0_off142_inb k)).toLoadRect (gath m d L hidx k.val hk)) (View.readAt (Elt F) (a6).view (Rect.unit (s := S4x50x128) (k0_off143 k) S1x1x16.size (k0_off143_inb k)).toLoadRect (gath m d L hidx k.val hk)) (View.readAt (Elt F) (a6).view (Rect.unit (s := S4x50x128) (k0_off144 k) S1x1x16.size (k0_off144_inb k)).toLoadRect (gath m d L hidx k.val hk)) (View.readAt (Elt F) (a6).view (Rect.unit (s := S4x50x128) (k0_off145 k) S1x1x16.size (k0_off145_inb k)).toLoadRect (gath m d L hidx k.val hk)) (View.readAt (Elt F) (a6).view (Rect.unit (s := S4x50x128) (k0_off146 k) S1x1x16.size (k0_off146_inb k)).toLoadRect (gath m d L hidx k.val hk)) (View.readAt (Elt F) (a6).view (Rect.unit (s := S4x50x128) (k0_off147 k) S1x1x16.size (k0_off147_inb k)).toLoadRect (gath m d L hidx k.val hk)) (View.readAt (Elt F) (a6).view (Rect.unit (s := S4x50x128) (k0_off148 k) S1x1x16.size (k0_off148_inb k)).toLoadRect (gath m d L hidx k.val hk))) (k0_pay23 (View.readAt (Elt F) (a6).view (Rect.unit (s := S4x50x128) (k0_off149 k) S1x1x16.size (k0_off149_inb k)).toLoadRect (gath m d L hidx k.val hk))) (View.readAt (Elt F) (a6).view (Rect.unit (s := S4x50x128) (k0_off150 k) S1x1x16.size (k0_off150_inb k)).toLoadRect (gath m d L hidx k.val hk)) (View.readAt (Elt F) (a6).view (Rect.unit (s := S4x50x128) (k0_off151 k) S1x1x16.size (k0_off151_inb k)).toLoadRect (gath m d L hidx k.val hk)) (View.readAt (Elt F) (a6).view (Rect.unit (s := S4x50x128) (k0_off152 k) S1x1x16.size (k0_off152_inb k)).toLoadRect (gath m d L hidx k.val hk)) (View.readAt (Elt F) (a6).view (Rect.unit (s := S4x50x128) (k0_off153 k) S1x1x16.size (k0_off153_inb k)).toLoadRect (gath m d L hidx k.val hk)) (View.readAt (Elt F) (a6).view (Rect.unit (s := S4x50x128) (k0_off154 k) S1x1x16.size (k0_off154_inb k)).toLoadRect (gath m d L hidx k.val hk)) (View.readAt (Elt F) (a6).view (Rect.unit (s := S4x50x128) (k0_off155 k) S1x1x16.size (k0_off155_inb k)).toLoadRect (gath m d L hidx k.val hk)) (View.readAt (Elt F) (a6).view (Rect.unit (s := S4x50x128) (k0_off156 k) S1x1x16.size (k0_off156_inb k)).toLoadRect (gath m d L hidx k.val hk)) (View.readAt (Elt F) (a6).view (Rect.unit (s := S4x50x128) (k0_off157 k) S1x1x16.size (k0_off157_inb k)).toLoadRect (gath m d L hidx k.val hk))) (View.readAt (Elt F) (a6).view (Rect.unit (s := S4x50x128) (k0_off158 k) S1x1x16.size (k0_off158_inb k)).toLoadRect (gath m d L hidx k.val hk)) (View.readAt (Elt F) (a6).view (Rect.unit (s := S4x50x128) (k0_off159 k) S1x1x16.size (k0_off159_inb k)).toLoadRect (gath m d L hidx k.val hk)))⟩,
         ⟨Rect.unit (s := S32x128) (k0_off109 k) S1x16.size (k0_off109_inb k),
           (k0_pay17 (k0_pay16 (k0_pay15 (k0_pay14 (k0_pay13 (k0_pay11 (k0_pay10 (View.readAt (Elt F) (a6).view (Rect.unit (s := S4x50x128) (k0_off59 k) S1x1x16.size (k0_off59_inb k)).toLoadRect (gath m d L hidx k.val hk)) (View.readAt (Elt F) (a6).view (Rect.unit (s := S4x50x128) (k0_off60 k) S1x1x16.size (k0_off60_inb k)).toLoadRect (gath m d L hidx k.val hk)) (View.readAt (Elt F) (a6).view (Rect.unit (s := S4x50x128) (k0_off61 k) S1x1x16.size (k0_off61_inb k)).toLoadRect (gath m d L hidx k.val hk)) (View.readAt (Elt F) (a6).view (Rect.unit (s := S4x50x128) (k0_off62 k) S1x1x16.size (k0_off62_inb k)).toLoadRect (gath m d L hidx k.val hk)) (View.readAt (Elt F) (a6).view (Rect.unit (s := S4x50x128) (k0_off63 k) S1x1x16.size (k0_off63_inb k)).toLoadRect (gath m d L hidx k.val hk))) (View.readAt (Elt F) (a6).view (Rect.unit (s := S4x50x128) (k0_off64 k) S1x1x16.size (k0_off64_inb k)).toLoadRect (gath m d L hidx k.val hk)) (View.readAt (Elt F) (a6).view (Rect.unit (s := S4x50x128) (k0_off65 k) S1x1x16.size (k0_off65_inb k)).toLoadRect (gath m d L hidx k.val hk)) (View.readAt (Elt F) (a6).view (Rect.unit (s := S4x50x128) (k0_off66 k) S1x1x16.size (k0_off66_inb k)).toLoadRect (gath m d L hidx k.val hk)) (View.readAt (Elt F) (a6).view (Rect.unit (s := S4x50x128) (k0_off67 k) S1x1x16.size (k0_off67_inb k)).toLoadRect (gath m d L hidx k.val hk)) (View.readAt (Elt F) (a6).view (Rect.unit (s := S4x50x128) (k0_off68 k) S1x1x16.size (k0_off68_inb k)).toLoadRect (gath m d L hidx k.val hk)) (View.readAt (Elt F) (a6).view (Rect.unit (s := S4x50x128) (k0_off69 k) S1x1x16.size (k0_off69_inb k)).toLoadRect (gath m d L hidx k.val hk)) (View.readAt (Elt F) (a6).view (Rect.unit (s := S4x50x128) (k0_off70 k) S1x1x16.size (k0_off70_inb k)).toLoadRect (gath m d L hidx k.val hk)) (View.readAt (Elt F) (a6).view (Rect.unit (s := S4x50x128) (k0_off71 k) S1x1x16.size (k0_off71_inb k)).toLoadRect (gath m d L hidx k.val hk))) (k0_pay12 (View.readAt (Elt F) (a6).view (Rect.unit (s := S4x50x128) (k0_off72 k) S1x1x16.size (k0_off72_inb k)).toLoadRect (gath m d L hidx k.val hk))) (View.readAt (Elt F) (a6).view (Rect.unit (s := S4x50x128) (k0_off73 k) S1x1x16.size (k0_off73_inb k)).toLoadRect (gath m d L hidx k.val hk)) (View.readAt (Elt F) (a6).view (Rect.unit (s := S4x50x128) (k0_off74 k) S1x1x16.size (k0_off74_inb k)).toLoadRect (gath m d L hidx k.val hk)) (View.readAt (Elt F) (a6).view (Rect.unit (s := S4x50x128) (k0_off75 k) S1x1x16.size (k0_off75_inb k)).toLoadRect (gath m d L hidx k.val hk)) (View.readAt (Elt F) (a6).view (Rect.unit (s := S4x50x128) (k0_off76 k) S1x1x16.size (k0_off76_inb k)).toLoadRect (gath m d L hidx k.val hk)) (View.readAt (Elt F) (a6).view (Rect.unit (s := S4x50x128) (k0_off77 k) S1x1x16.size (k0_off77_inb k)).toLoadRect (gath m d L hidx k.val hk)) (View.readAt (Elt F) (a6).view (Rect.unit (s := S4x50x128) (k0_off78 k) S1x1x16.size (k0_off78_inb k)).toLoadRect (gath m d L hidx k.val hk)) (View.readAt (Elt F) (a6).view (Rect.unit (s := S4x50x128) (k0_off79 k) S1x1x16.size (k0_off79_inb k)).toLoadRect (gath m d L hidx k.val hk)) (View.readAt (Elt F) (a6).view (Rect.unit (s := S4x50x128) (k0_off80 k) S1x1x16.size (k0_off80_inb k)).toLoadRect (gath m d L hidx k.val hk))) (View.readAt (Elt F) (a6).view (Rect.unit (s := S4x50x128) (k0_off81 k) S1x1x16.size (k0_off81_inb k)).toLoadRect (gath m d L hidx k.val hk)) (View.readAt (Elt F) (a6).view (Rect.unit (s := S4x50x128) (k0_off82 k) S1x1x16.size (k0_off82_inb k)).toLoadRect (gath m d L hidx k.val hk)) (View.readAt (Elt F) (a6).view (Rect.unit (s := S4x50x128) (k0_off83 k) S1x1x16.size (k0_off83_inb k)).toLoadRect (gath m d L hidx k.val hk)) (View.readAt (Elt F) (a6).view (Rect.unit (s := S4x50x128) (k0_off84 k) S1x1x16.size (k0_off84_inb k)).toLoadRect (gath m d L hidx k.val hk)) (View.readAt (Elt F) (a6).view (Rect.unit (s := S4x50x128) (k0_off85 k) S1x1x16.size (k0_off85_inb k)).toLoadRect (gath m d L hidx k.val hk)) (View.readAt (Elt F) (a6).view (Rect.unit (s := S4x50x128) (k0_off86 k) S1x1x16.size (k0_off86_inb k)).toLoadRect (gath m d L hidx k.val hk)) (View.readAt (Elt F) (a6).view (Rect.unit (s := S4x50x128) (k0_off87 k) S1x1x16.size (k0_off87_inb k)).toLoadRect (gath m d L hidx k.val hk)) (View.readAt (Elt F) (a6).view (Rect.unit (s := S4x50x128) (k0_off88 k) S1x1x16.size (k0_off88_inb k)).toLoadRect (gath m d L hidx k.val hk)) (View.readAt (Elt F) (a6).view (Rect.unit (s := S4x50x128) (k0_off89 k) S1x1x16.size (k0_off89_inb k)).toLoadRect (gath m d L hidx k.val hk))) (View.readAt (Elt F) (a6).view (Rect.unit (s := S4x50x128) (k0_off90 k) S1x1x16.size (k0_off90_inb k)).toLoadRect (gath m d L hidx k.val hk)) (View.readAt (Elt F) (a6).view (Rect.unit (s := S4x50x128) (k0_off91 k) S1x1x16.size (k0_off91_inb k)).toLoadRect (gath m d L hidx k.val hk)) (View.readAt (Elt F) (a6).view (Rect.unit (s := S4x50x128) (k0_off92 k) S1x1x16.size (k0_off92_inb k)).toLoadRect (gath m d L hidx k.val hk)) (View.readAt (Elt F) (a6).view (Rect.unit (s := S4x50x128) (k0_off93 k) S1x1x16.size (k0_off93_inb k)).toLoadRect (gath m d L hidx k.val hk)) (View.readAt (Elt F) (a6).view (Rect.unit (s := S4x50x128) (k0_off94 k) S1x1x16.size (k0_off94_inb k)).toLoadRect (gath m d L hidx k.val hk)) (View.readAt (Elt F) (a6).view (Rect.unit (s := S4x50x128) (k0_off95 k) S1x1x16.size (k0_off95_inb k)).toLoadRect (gath m d L hidx k.val hk)) (View.readAt (Elt F) (a6).view (Rect.unit (s := S4x50x128) (k0_off96 k) S1x1x16.size (k0_off96_inb k)).toLoadRect (gath m d L hidx k.val hk)) (View.readAt (Elt F) (a6).view (Rect.unit (s := S4x50x128) (k0_off97 k) S1x1x16.size (k0_off97_inb k)).toLoadRect (gath m d L hidx k.val hk))) (View.readAt (Elt F) (a6).view (Rect.unit (s := S4x50x128) (k0_off98 k) S1x1x16.size (k0_off98_inb k)).toLoadRect (gath m d L hidx k.val hk)) (View.readAt (Elt F) (a6).view (Rect.unit (s := S4x50x128) (k0_off99 k) S1x1x16.size (k0_off99_inb k)).toLoadRect (gath m d L hidx k.val hk)) (View.readAt (Elt F) (a6).view (Rect.unit (s := S4x50x128) (k0_off100 k) S1x1x16.size (k0_off100_inb k)).toLoadRect (gath m d L hidx k.val hk)) (View.readAt (Elt F) (a6).view (Rect.unit (s := S4x50x128) (k0_off101 k) S1x1x16.size (k0_off101_inb k)).toLoadRect (gath m d L hidx k.val hk)) (View.readAt (Elt F) (a6).view (Rect.unit (s := S4x50x128) (k0_off102 k) S1x1x16.size (k0_off102_inb k)).toLoadRect (gath m d L hidx k.val hk)) (View.readAt (Elt F) (a6).view (Rect.unit (s := S4x50x128) (k0_off103 k) S1x1x16.size (k0_off103_inb k)).toLoadRect (gath m d L hidx k.val hk)) (View.readAt (Elt F) (a6).view (Rect.unit (s := S4x50x128) (k0_off104 k) S1x1x16.size (k0_off104_inb k)).toLoadRect (gath m d L hidx k.val hk)) (View.readAt (Elt F) (a6).view (Rect.unit (s := S4x50x128) (k0_off105 k) S1x1x16.size (k0_off105_inb k)).toLoadRect (gath m d L hidx k.val hk)) (View.readAt (Elt F) (a6).view (Rect.unit (s := S4x50x128) (k0_off106 k) S1x1x16.size (k0_off106_inb k)).toLoadRect (gath m d L hidx k.val hk))) (View.readAt (Elt F) (a6).view (Rect.unit (s := S4x50x128) (k0_off107 k) S1x1x16.size (k0_off107_inb k)).toLoadRect (gath m d L hidx k.val hk)) (View.readAt (Elt F) (a6).view (Rect.unit (s := S4x50x128) (k0_off108 k) S1x1x16.size (k0_off108_inb k)).toLoadRect (gath m d L hidx k.val hk)))⟩,
         ⟨Rect.unit (s := S32x128) (k0_off58 k) S1x16.size (k0_off58_inb k),
           (k0_pay9 (k0_pay7 (k0_pay6 (k0_pay5 (k0_pay4 (k0_pay3 (k0_pay2 (View.readAt (Elt F) (a6).view (Rect.unit (s := S4x50x128) (k0_off8 k) S1x1x16.size (k0_off8_inb k)).toLoadRect (gath m d L hidx k.val hk)) (View.readAt (Elt F) (a6).view (Rect.unit (s := S4x50x128) (k0_off9 k) S1x1x16.size (k0_off9_inb k)).toLoadRect (gath m d L hidx k.val hk)) (View.readAt (Elt F) (a6).view (Rect.unit (s := S4x50x128) (k0_off10 k) S1x1x16.size (k0_off10_inb k)).toLoadRect (gath m d L hidx k.val hk)) (View.readAt (Elt F) (a6).view (Rect.unit (s := S4x50x128) (k0_off11 k) S1x1x16.size (k0_off11_inb k)).toLoadRect (gath m d L hidx k.val hk)) (View.readAt (Elt F) (a6).view (Rect.unit (s := S4x50x128) (k0_off12 k) S1x1x16.size (k0_off12_inb k)).toLoadRect (gath m d L hidx k.val hk))) (View.readAt (Elt F) (a6).view (Rect.unit (s := S4x50x128) (k0_off13 k) S1x1x16.size (k0_off13_inb k)).toLoadRect (gath m d L hidx k.val hk)) (View.readAt (Elt F) (a6).view (Rect.unit (s := S4x50x128) (k0_off14 k) S1x1x16.size (k0_off14_inb k)).toLoadRect (gath m d L hidx k.val hk)) (View.readAt (Elt F) (a6).view (Rect.unit (s := S4x50x128) (k0_off15 k) S1x1x16.size (k0_off15_inb k)).toLoadRect (gath m d L hidx k.val hk)) (View.readAt (Elt F) (a6).view (Rect.unit (s := S4x50x128) (k0_off16 k) S1x1x16.size (k0_off16_inb k)).toLoadRect (gath m d L hidx k.val hk)) (View.readAt (Elt F) (a6).view (Rect.unit (s := S4x50x128) (k0_off17 k) S1x1x16.size (k0_off17_inb k)).toLoadRect (gath m d L hidx k.val hk)) (View.readAt (Elt F) (a6).view (Rect.unit (s := S4x50x128) (k0_off18 k) S1x1x16.size (k0_off18_inb k)).toLoadRect (gath m d L hidx k.val hk)) (View.readAt (Elt F) (a6).view (Rect.unit (s := S4x50x128) (k0_off19 k) S1x1x16.size (k0_off19_inb k)).toLoadRect (gath m d L hidx k.val hk)) (View.readAt (Elt F) (a6).view (Rect.unit (s := S4x50x128) (k0_off20 k) S1x1x16.size (k0_off20_inb k)).toLoadRect (gath m d L hidx k.val hk))) (View.readAt (Elt F) (a6).view (Rect.unit (s := S4x50x128) (k0_off21 k) S1x1x16.size (k0_off21_inb k)).toLoadRect (gath m d L hidx k.val hk)) (View.readAt (Elt F) (a6).view (Rect.unit (s := S4x50x128) (k0_off22 k) S1x1x16.size (k0_off22_inb k)).toLoadRect (gath m d L hidx k.val hk)) (View.readAt (Elt F) (a6).view (Rect.unit (s := S4x50x128) (k0_off23 k) S1x1x16.size (k0_off23_inb k)).toLoadRect (gath m d L hidx k.val hk)) (View.readAt (Elt F) (a6).view (Rect.unit (s := S4x50x128) (k0_off24 k) S1x1x16.size (k0_off24_inb k)).toLoadRect (gath m d L hidx k.val hk)) (View.readAt (Elt F) (a6).view (Rect.unit (s := S4x50x128) (k0_off25 k) S1x1x16.size (k0_off25_inb k)).toLoadRect (gath m d L hidx k.val hk)) (View.readAt (Elt F) (a6).view (Rect.unit (s := S4x50x128) (k0_off26 k) S1x1x16.size (k0_off26_inb k)).toLoadRect (gath m d L hidx k.val hk)) (View.readAt (Elt F) (a6).view (Rect.unit (s := S4x50x128) (k0_off27 k) S1x1x16.size (k0_off27_inb k)).toLoadRect (gath m d L hidx k.val hk)) (View.readAt (Elt F) (a6).view (Rect.unit (s := S4x50x128) (k0_off28 k) S1x1x16.size (k0_off28_inb k)).toLoadRect (gath m d L hidx k.val hk)) (View.readAt (Elt F) (a6).view (Rect.unit (s := S4x50x128) (k0_off29 k) S1x1x16.size (k0_off29_inb k)).toLoadRect (gath m d L hidx k.val hk))) (View.readAt (Elt F) (a6).view (Rect.unit (s := S4x50x128) (k0_off30 k) S1x1x16.size (k0_off30_inb k)).toLoadRect (gath m d L hidx k.val hk)) (View.readAt (Elt F) (a6).view (Rect.unit (s := S4x50x128) (k0_off31 k) S1x1x16.size (k0_off31_inb k)).toLoadRect (gath m d L hidx k.val hk)) (View.readAt (Elt F) (a6).view (Rect.unit (s := S4x50x128) (k0_off32 k) S1x1x16.size (k0_off32_inb k)).toLoadRect (gath m d L hidx k.val hk)) (View.readAt (Elt F) (a6).view (Rect.unit (s := S4x50x128) (k0_off33 k) S1x1x16.size (k0_off33_inb k)).toLoadRect (gath m d L hidx k.val hk)) (View.readAt (Elt F) (a6).view (Rect.unit (s := S4x50x128) (k0_off34 k) S1x1x16.size (k0_off34_inb k)).toLoadRect (gath m d L hidx k.val hk)) (View.readAt (Elt F) (a6).view (Rect.unit (s := S4x50x128) (k0_off35 k) S1x1x16.size (k0_off35_inb k)).toLoadRect (gath m d L hidx k.val hk)) (View.readAt (Elt F) (a6).view (Rect.unit (s := S4x50x128) (k0_off36 k) S1x1x16.size (k0_off36_inb k)).toLoadRect (gath m d L hidx k.val hk)) (View.readAt (Elt F) (a6).view (Rect.unit (s := S4x50x128) (k0_off37 k) S1x1x16.size (k0_off37_inb k)).toLoadRect (gath m d L hidx k.val hk))) (View.readAt (Elt F) (a6).view (Rect.unit (s := S4x50x128) (k0_off38 k) S1x1x16.size (k0_off38_inb k)).toLoadRect (gath m d L hidx k.val hk)) (View.readAt (Elt F) (a6).view (Rect.unit (s := S4x50x128) (k0_off39 k) S1x1x16.size (k0_off39_inb k)).toLoadRect (gath m d L hidx k.val hk)) (View.readAt (Elt F) (a6).view (Rect.unit (s := S4x50x128) (k0_off40 k) S1x1x16.size (k0_off40_inb k)).toLoadRect (gath m d L hidx k.val hk)) (View.readAt (Elt F) (a6).view (Rect.unit (s := S4x50x128) (k0_off41 k) S1x1x16.size (k0_off41_inb k)).toLoadRect (gath m d L hidx k.val hk)) (View.readAt (Elt F) (a6).view (Rect.unit (s := S4x50x128) (k0_off42 k) S1x1x16.size (k0_off42_inb k)).toLoadRect (gath m d L hidx k.val hk)) (View.readAt (Elt F) (a6).view (Rect.unit (s := S4x50x128) (k0_off43 k) S1x1x16.size (k0_off43_inb k)).toLoadRect (gath m d L hidx k.val hk)) (View.readAt (Elt F) (a6).view (Rect.unit (s := S4x50x128) (k0_off44 k) S1x1x16.size (k0_off44_inb k)).toLoadRect (gath m d L hidx k.val hk)) (View.readAt (Elt F) (a6).view (Rect.unit (s := S4x50x128) (k0_off45 k) S1x1x16.size (k0_off45_inb k)).toLoadRect (gath m d L hidx k.val hk)) (View.readAt (Elt F) (a6).view (Rect.unit (s := S4x50x128) (k0_off46 k) S1x1x16.size (k0_off46_inb k)).toLoadRect (gath m d L hidx k.val hk))) (View.readAt (Elt F) (a6).view (Rect.unit (s := S4x50x128) (k0_off47 k) S1x1x16.size (k0_off47_inb k)).toLoadRect (gath m d L hidx k.val hk)) (View.readAt (Elt F) (a6).view (Rect.unit (s := S4x50x128) (k0_off48 k) S1x1x16.size (k0_off48_inb k)).toLoadRect (gath m d L hidx k.val hk)) (View.readAt (Elt F) (a6).view (Rect.unit (s := S4x50x128) (k0_off49 k) S1x1x16.size (k0_off49_inb k)).toLoadRect (gath m d L hidx k.val hk)) (View.readAt (Elt F) (a6).view (Rect.unit (s := S4x50x128) (k0_off50 k) S1x1x16.size (k0_off50_inb k)).toLoadRect (gath m d L hidx k.val hk)) (View.readAt (Elt F) (a6).view (Rect.unit (s := S4x50x128) (k0_off51 k) S1x1x16.size (k0_off51_inb k)).toLoadRect (gath m d L hidx k.val hk)) (View.readAt (Elt F) (a6).view (Rect.unit (s := S4x50x128) (k0_off52 k) S1x1x16.size (k0_off52_inb k)).toLoadRect (gath m d L hidx k.val hk)) (View.readAt (Elt F) (a6).view (Rect.unit (s := S4x50x128) (k0_off53 k) S1x1x16.size (k0_off53_inb k)).toLoadRect (gath m d L hidx k.val hk)) (View.readAt (Elt F) (a6).view (Rect.unit (s := S4x50x128) (k0_off54 k) S1x1x16.size (k0_off54_inb k)).toLoadRect (gath m d L hidx k.val hk))) (k0_pay8 (View.readAt (Elt F) (a6).view (Rect.unit (s := S4x50x128) (k0_off55 k) S1x1x16.size (k0_off55_inb k)).toLoadRect (gath m d L hidx k.val hk))) (View.readAt (Elt F) (a6).view (Rect.unit (s := S4x50x128) (k0_off56 k) S1x1x16.size (k0_off56_inb k)).toLoadRect (gath m d L hidx k.val hk)) (View.readAt (Elt F) (a6).view (Rect.unit (s := S4x50x128) (k0_off57 k) S1x1x16.size (k0_off57_inb k)).toLoadRect (gath m d L hidx k.val hk)))⟩]
      = poolSt m d L f7 (k.val + 1) :=
  pool_frame m d L f7 ⟨k.val, hk⟩
    (k0_off415 k) (k0_off364 k) (k0_off313 k) (k0_off262 k) (k0_off211 k) (k0_off160 k) (k0_off109 k) (k0_off58 k)
    (k0_off415_eq k) (k0_off364_eq k) (k0_off313_eq k) (k0_off262_eq k) (k0_off211_eq k) (k0_off160_eq k) (k0_off109_eq k) (k0_off58_eq k)
    (k0_off415_inb k) (k0_off364_inb k) (k0_off313_inb k) (k0_off262_inb k) (k0_off211_inb k) (k0_off160_inb k) (k0_off109_inb k) (k0_off58_inb k)
    _ _ _ _ _ _ _ _
    (fun l => (chain7_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 7 + l.val, lane_lt 7 l⟩)
        (load_val m d L hidx k.val hk 0 (by decide) 7 (by decide) (k0_off365 k) (k0_off365_eq k) (k0_off365_inb k) l)
        (load_val m d L hidx k.val hk 1 (by decide) 7 (by decide) (k0_off366 k) (k0_off366_eq k) (k0_off366_inb k) l)
        (load_val m d L hidx k.val hk 2 (by decide) 7 (by decide) (k0_off367 k) (k0_off367_eq k) (k0_off367_inb k) l)
        (load_val m d L hidx k.val hk 3 (by decide) 7 (by decide) (k0_off368 k) (k0_off368_eq k) (k0_off368_inb k) l)
        (load_val m d L hidx k.val hk 4 (by decide) 7 (by decide) (k0_off369 k) (k0_off369_eq k) (k0_off369_inb k) l)
        (load_val m d L hidx k.val hk 5 (by decide) 7 (by decide) (k0_off370 k) (k0_off370_eq k) (k0_off370_inb k) l)
        (load_val m d L hidx k.val hk 6 (by decide) 7 (by decide) (k0_off371 k) (k0_off371_eq k) (k0_off371_inb k) l)
        (load_val m d L hidx k.val hk 7 (by decide) 7 (by decide) (k0_off372 k) (k0_off372_eq k) (k0_off372_inb k) l)
        (load_val m d L hidx k.val hk 8 (by decide) 7 (by decide) (k0_off373 k) (k0_off373_eq k) (k0_off373_inb k) l)
        (load_val m d L hidx k.val hk 9 (by decide) 7 (by decide) (k0_off374 k) (k0_off374_eq k) (k0_off374_inb k) l)
        (load_val m d L hidx k.val hk 10 (by decide) 7 (by decide) (k0_off375 k) (k0_off375_eq k) (k0_off375_inb k) l)
        (load_val m d L hidx k.val hk 11 (by decide) 7 (by decide) (k0_off376 k) (k0_off376_eq k) (k0_off376_inb k) l)
        (load_val m d L hidx k.val hk 12 (by decide) 7 (by decide) (k0_off377 k) (k0_off377_eq k) (k0_off377_inb k) l)
        (load_val m d L hidx k.val hk 13 (by decide) 7 (by decide) (k0_off378 k) (k0_off378_eq k) (k0_off378_inb k) l)
        (load_val m d L hidx k.val hk 14 (by decide) 7 (by decide) (k0_off379 k) (k0_off379_eq k) (k0_off379_inb k) l)
        (load_val m d L hidx k.val hk 15 (by decide) 7 (by decide) (k0_off380 k) (k0_off380_eq k) (k0_off380_inb k) l)
        (load_val m d L hidx k.val hk 16 (by decide) 7 (by decide) (k0_off381 k) (k0_off381_eq k) (k0_off381_inb k) l)
        (load_val m d L hidx k.val hk 17 (by decide) 7 (by decide) (k0_off382 k) (k0_off382_eq k) (k0_off382_inb k) l)
        (load_val m d L hidx k.val hk 18 (by decide) 7 (by decide) (k0_off383 k) (k0_off383_eq k) (k0_off383_inb k) l)
        (load_val m d L hidx k.val hk 19 (by decide) 7 (by decide) (k0_off384 k) (k0_off384_eq k) (k0_off384_inb k) l)
        (load_val m d L hidx k.val hk 20 (by decide) 7 (by decide) (k0_off385 k) (k0_off385_eq k) (k0_off385_inb k) l)
        (load_val m d L hidx k.val hk 21 (by decide) 7 (by decide) (k0_off386 k) (k0_off386_eq k) (k0_off386_inb k) l)
        (load_val m d L hidx k.val hk 22 (by decide) 7 (by decide) (k0_off387 k) (k0_off387_eq k) (k0_off387_inb k) l)
        (load_val m d L hidx k.val hk 23 (by decide) 7 (by decide) (k0_off388 k) (k0_off388_eq k) (k0_off388_inb k) l)
        (load_val m d L hidx k.val hk 24 (by decide) 7 (by decide) (k0_off389 k) (k0_off389_eq k) (k0_off389_inb k) l)
        (load_val m d L hidx k.val hk 25 (by decide) 7 (by decide) (k0_off390 k) (k0_off390_eq k) (k0_off390_inb k) l)
        (load_val m d L hidx k.val hk 26 (by decide) 7 (by decide) (k0_off391 k) (k0_off391_eq k) (k0_off391_inb k) l)
        (load_val m d L hidx k.val hk 27 (by decide) 7 (by decide) (k0_off392 k) (k0_off392_eq k) (k0_off392_inb k) l)
        (load_val m d L hidx k.val hk 28 (by decide) 7 (by decide) (k0_off393 k) (k0_off393_eq k) (k0_off393_inb k) l)
        (load_val m d L hidx k.val hk 29 (by decide) 7 (by decide) (k0_off394 k) (k0_off394_eq k) (k0_off394_inb k) l)
        (load_val m d L hidx k.val hk 30 (by decide) 7 (by decide) (k0_off395 k) (k0_off395_eq k) (k0_off395_inb k) l)
        (load_val m d L hidx k.val hk 31 (by decide) 7 (by decide) (k0_off396 k) (k0_off396_eq k) (k0_off396_inb k) l)
        (load_val m d L hidx k.val hk 32 (by decide) 7 (by decide) (k0_off397 k) (k0_off397_eq k) (k0_off397_inb k) l)
        (load_val m d L hidx k.val hk 33 (by decide) 7 (by decide) (k0_off398 k) (k0_off398_eq k) (k0_off398_inb k) l)
        (load_val m d L hidx k.val hk 34 (by decide) 7 (by decide) (k0_off399 k) (k0_off399_eq k) (k0_off399_inb k) l)
        (load_val m d L hidx k.val hk 35 (by decide) 7 (by decide) (k0_off400 k) (k0_off400_eq k) (k0_off400_inb k) l)
        (load_val m d L hidx k.val hk 36 (by decide) 7 (by decide) (k0_off401 k) (k0_off401_eq k) (k0_off401_inb k) l)
        (load_val m d L hidx k.val hk 37 (by decide) 7 (by decide) (k0_off402 k) (k0_off402_eq k) (k0_off402_inb k) l)
        (load_val m d L hidx k.val hk 38 (by decide) 7 (by decide) (k0_off403 k) (k0_off403_eq k) (k0_off403_inb k) l)
        (load_val m d L hidx k.val hk 39 (by decide) 7 (by decide) (k0_off404 k) (k0_off404_eq k) (k0_off404_inb k) l)
        (load_val m d L hidx k.val hk 40 (by decide) 7 (by decide) (k0_off405 k) (k0_off405_eq k) (k0_off405_inb k) l)
        (load_val m d L hidx k.val hk 41 (by decide) 7 (by decide) (k0_off406 k) (k0_off406_eq k) (k0_off406_inb k) l)
        (load_val m d L hidx k.val hk 42 (by decide) 7 (by decide) (k0_off407 k) (k0_off407_eq k) (k0_off407_inb k) l)
        (load_val m d L hidx k.val hk 43 (by decide) 7 (by decide) (k0_off408 k) (k0_off408_eq k) (k0_off408_inb k) l)
        (load_val m d L hidx k.val hk 44 (by decide) 7 (by decide) (k0_off409 k) (k0_off409_eq k) (k0_off409_inb k) l)
        (load_val m d L hidx k.val hk 45 (by decide) 7 (by decide) (k0_off410 k) (k0_off410_eq k) (k0_off410_inb k) l)
        (load_val m d L hidx k.val hk 46 (by decide) 7 (by decide) (k0_off411 k) (k0_off411_eq k) (k0_off411_inb k) l)
        (load_val m d L hidx k.val hk 47 (by decide) 7 (by decide) (k0_off412 k) (k0_off412_eq k) (k0_off412_inb k) l)
        (load_val m d L hidx k.val hk 48 (by decide) 7 (by decide) (k0_off413 k) (k0_off413_eq k) (k0_off413_inb k) l)
        (load_val m d L hidx k.val hk 49 (by decide) 7 (by decide) (k0_off414 k) (k0_off414_eq k) (k0_off414_inb k) l)).trans
      (pool_emb m d L k.val hk ⟨16 * 7 + l.val, lane_lt 7 l⟩).symm)
    (fun l => (chain6_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 6 + l.val, lane_lt 6 l⟩)
        (load_val m d L hidx k.val hk 0 (by decide) 6 (by decide) (k0_off314 k) (k0_off314_eq k) (k0_off314_inb k) l)
        (load_val m d L hidx k.val hk 1 (by decide) 6 (by decide) (k0_off315 k) (k0_off315_eq k) (k0_off315_inb k) l)
        (load_val m d L hidx k.val hk 2 (by decide) 6 (by decide) (k0_off316 k) (k0_off316_eq k) (k0_off316_inb k) l)
        (load_val m d L hidx k.val hk 3 (by decide) 6 (by decide) (k0_off317 k) (k0_off317_eq k) (k0_off317_inb k) l)
        (load_val m d L hidx k.val hk 4 (by decide) 6 (by decide) (k0_off318 k) (k0_off318_eq k) (k0_off318_inb k) l)
        (load_val m d L hidx k.val hk 5 (by decide) 6 (by decide) (k0_off319 k) (k0_off319_eq k) (k0_off319_inb k) l)
        (load_val m d L hidx k.val hk 6 (by decide) 6 (by decide) (k0_off320 k) (k0_off320_eq k) (k0_off320_inb k) l)
        (load_val m d L hidx k.val hk 7 (by decide) 6 (by decide) (k0_off321 k) (k0_off321_eq k) (k0_off321_inb k) l)
        (load_val m d L hidx k.val hk 8 (by decide) 6 (by decide) (k0_off322 k) (k0_off322_eq k) (k0_off322_inb k) l)
        (load_val m d L hidx k.val hk 9 (by decide) 6 (by decide) (k0_off323 k) (k0_off323_eq k) (k0_off323_inb k) l)
        (load_val m d L hidx k.val hk 10 (by decide) 6 (by decide) (k0_off324 k) (k0_off324_eq k) (k0_off324_inb k) l)
        (load_val m d L hidx k.val hk 11 (by decide) 6 (by decide) (k0_off325 k) (k0_off325_eq k) (k0_off325_inb k) l)
        (load_val m d L hidx k.val hk 12 (by decide) 6 (by decide) (k0_off326 k) (k0_off326_eq k) (k0_off326_inb k) l)
        (load_val m d L hidx k.val hk 13 (by decide) 6 (by decide) (k0_off327 k) (k0_off327_eq k) (k0_off327_inb k) l)
        (load_val m d L hidx k.val hk 14 (by decide) 6 (by decide) (k0_off328 k) (k0_off328_eq k) (k0_off328_inb k) l)
        (load_val m d L hidx k.val hk 15 (by decide) 6 (by decide) (k0_off329 k) (k0_off329_eq k) (k0_off329_inb k) l)
        (load_val m d L hidx k.val hk 16 (by decide) 6 (by decide) (k0_off330 k) (k0_off330_eq k) (k0_off330_inb k) l)
        (load_val m d L hidx k.val hk 17 (by decide) 6 (by decide) (k0_off331 k) (k0_off331_eq k) (k0_off331_inb k) l)
        (load_val m d L hidx k.val hk 18 (by decide) 6 (by decide) (k0_off332 k) (k0_off332_eq k) (k0_off332_inb k) l)
        (load_val m d L hidx k.val hk 19 (by decide) 6 (by decide) (k0_off333 k) (k0_off333_eq k) (k0_off333_inb k) l)
        (load_val m d L hidx k.val hk 20 (by decide) 6 (by decide) (k0_off334 k) (k0_off334_eq k) (k0_off334_inb k) l)
        (load_val m d L hidx k.val hk 21 (by decide) 6 (by decide) (k0_off335 k) (k0_off335_eq k) (k0_off335_inb k) l)
        (load_val m d L hidx k.val hk 22 (by decide) 6 (by decide) (k0_off336 k) (k0_off336_eq k) (k0_off336_inb k) l)
        (load_val m d L hidx k.val hk 23 (by decide) 6 (by decide) (k0_off337 k) (k0_off337_eq k) (k0_off337_inb k) l)
        (load_val m d L hidx k.val hk 24 (by decide) 6 (by decide) (k0_off338 k) (k0_off338_eq k) (k0_off338_inb k) l)
        (load_val m d L hidx k.val hk 25 (by decide) 6 (by decide) (k0_off339 k) (k0_off339_eq k) (k0_off339_inb k) l)
        (load_val m d L hidx k.val hk 26 (by decide) 6 (by decide) (k0_off340 k) (k0_off340_eq k) (k0_off340_inb k) l)
        (load_val m d L hidx k.val hk 27 (by decide) 6 (by decide) (k0_off341 k) (k0_off341_eq k) (k0_off341_inb k) l)
        (load_val m d L hidx k.val hk 28 (by decide) 6 (by decide) (k0_off342 k) (k0_off342_eq k) (k0_off342_inb k) l)
        (load_val m d L hidx k.val hk 29 (by decide) 6 (by decide) (k0_off343 k) (k0_off343_eq k) (k0_off343_inb k) l)
        (load_val m d L hidx k.val hk 30 (by decide) 6 (by decide) (k0_off344 k) (k0_off344_eq k) (k0_off344_inb k) l)
        (load_val m d L hidx k.val hk 31 (by decide) 6 (by decide) (k0_off345 k) (k0_off345_eq k) (k0_off345_inb k) l)
        (load_val m d L hidx k.val hk 32 (by decide) 6 (by decide) (k0_off346 k) (k0_off346_eq k) (k0_off346_inb k) l)
        (load_val m d L hidx k.val hk 33 (by decide) 6 (by decide) (k0_off347 k) (k0_off347_eq k) (k0_off347_inb k) l)
        (load_val m d L hidx k.val hk 34 (by decide) 6 (by decide) (k0_off348 k) (k0_off348_eq k) (k0_off348_inb k) l)
        (load_val m d L hidx k.val hk 35 (by decide) 6 (by decide) (k0_off349 k) (k0_off349_eq k) (k0_off349_inb k) l)
        (load_val m d L hidx k.val hk 36 (by decide) 6 (by decide) (k0_off350 k) (k0_off350_eq k) (k0_off350_inb k) l)
        (load_val m d L hidx k.val hk 37 (by decide) 6 (by decide) (k0_off351 k) (k0_off351_eq k) (k0_off351_inb k) l)
        (load_val m d L hidx k.val hk 38 (by decide) 6 (by decide) (k0_off352 k) (k0_off352_eq k) (k0_off352_inb k) l)
        (load_val m d L hidx k.val hk 39 (by decide) 6 (by decide) (k0_off353 k) (k0_off353_eq k) (k0_off353_inb k) l)
        (load_val m d L hidx k.val hk 40 (by decide) 6 (by decide) (k0_off354 k) (k0_off354_eq k) (k0_off354_inb k) l)
        (load_val m d L hidx k.val hk 41 (by decide) 6 (by decide) (k0_off355 k) (k0_off355_eq k) (k0_off355_inb k) l)
        (load_val m d L hidx k.val hk 42 (by decide) 6 (by decide) (k0_off356 k) (k0_off356_eq k) (k0_off356_inb k) l)
        (load_val m d L hidx k.val hk 43 (by decide) 6 (by decide) (k0_off357 k) (k0_off357_eq k) (k0_off357_inb k) l)
        (load_val m d L hidx k.val hk 44 (by decide) 6 (by decide) (k0_off358 k) (k0_off358_eq k) (k0_off358_inb k) l)
        (load_val m d L hidx k.val hk 45 (by decide) 6 (by decide) (k0_off359 k) (k0_off359_eq k) (k0_off359_inb k) l)
        (load_val m d L hidx k.val hk 46 (by decide) 6 (by decide) (k0_off360 k) (k0_off360_eq k) (k0_off360_inb k) l)
        (load_val m d L hidx k.val hk 47 (by decide) 6 (by decide) (k0_off361 k) (k0_off361_eq k) (k0_off361_inb k) l)
        (load_val m d L hidx k.val hk 48 (by decide) 6 (by decide) (k0_off362 k) (k0_off362_eq k) (k0_off362_inb k) l)
        (load_val m d L hidx k.val hk 49 (by decide) 6 (by decide) (k0_off363 k) (k0_off363_eq k) (k0_off363_inb k) l)).trans
      (pool_emb m d L k.val hk ⟨16 * 6 + l.val, lane_lt 6 l⟩).symm)
    (fun l => (chain5_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 5 + l.val, lane_lt 5 l⟩)
        (load_val m d L hidx k.val hk 0 (by decide) 5 (by decide) (k0_off263 k) (k0_off263_eq k) (k0_off263_inb k) l)
        (load_val m d L hidx k.val hk 1 (by decide) 5 (by decide) (k0_off264 k) (k0_off264_eq k) (k0_off264_inb k) l)
        (load_val m d L hidx k.val hk 2 (by decide) 5 (by decide) (k0_off265 k) (k0_off265_eq k) (k0_off265_inb k) l)
        (load_val m d L hidx k.val hk 3 (by decide) 5 (by decide) (k0_off266 k) (k0_off266_eq k) (k0_off266_inb k) l)
        (load_val m d L hidx k.val hk 4 (by decide) 5 (by decide) (k0_off267 k) (k0_off267_eq k) (k0_off267_inb k) l)
        (load_val m d L hidx k.val hk 5 (by decide) 5 (by decide) (k0_off268 k) (k0_off268_eq k) (k0_off268_inb k) l)
        (load_val m d L hidx k.val hk 6 (by decide) 5 (by decide) (k0_off269 k) (k0_off269_eq k) (k0_off269_inb k) l)
        (load_val m d L hidx k.val hk 7 (by decide) 5 (by decide) (k0_off270 k) (k0_off270_eq k) (k0_off270_inb k) l)
        (load_val m d L hidx k.val hk 8 (by decide) 5 (by decide) (k0_off271 k) (k0_off271_eq k) (k0_off271_inb k) l)
        (load_val m d L hidx k.val hk 9 (by decide) 5 (by decide) (k0_off272 k) (k0_off272_eq k) (k0_off272_inb k) l)
        (load_val m d L hidx k.val hk 10 (by decide) 5 (by decide) (k0_off273 k) (k0_off273_eq k) (k0_off273_inb k) l)
        (load_val m d L hidx k.val hk 11 (by decide) 5 (by decide) (k0_off274 k) (k0_off274_eq k) (k0_off274_inb k) l)
        (load_val m d L hidx k.val hk 12 (by decide) 5 (by decide) (k0_off275 k) (k0_off275_eq k) (k0_off275_inb k) l)
        (load_val m d L hidx k.val hk 13 (by decide) 5 (by decide) (k0_off276 k) (k0_off276_eq k) (k0_off276_inb k) l)
        (load_val m d L hidx k.val hk 14 (by decide) 5 (by decide) (k0_off277 k) (k0_off277_eq k) (k0_off277_inb k) l)
        (load_val m d L hidx k.val hk 15 (by decide) 5 (by decide) (k0_off278 k) (k0_off278_eq k) (k0_off278_inb k) l)
        (load_val m d L hidx k.val hk 16 (by decide) 5 (by decide) (k0_off279 k) (k0_off279_eq k) (k0_off279_inb k) l)
        (load_val m d L hidx k.val hk 17 (by decide) 5 (by decide) (k0_off280 k) (k0_off280_eq k) (k0_off280_inb k) l)
        (load_val m d L hidx k.val hk 18 (by decide) 5 (by decide) (k0_off281 k) (k0_off281_eq k) (k0_off281_inb k) l)
        (load_val m d L hidx k.val hk 19 (by decide) 5 (by decide) (k0_off282 k) (k0_off282_eq k) (k0_off282_inb k) l)
        (load_val m d L hidx k.val hk 20 (by decide) 5 (by decide) (k0_off283 k) (k0_off283_eq k) (k0_off283_inb k) l)
        (load_val m d L hidx k.val hk 21 (by decide) 5 (by decide) (k0_off284 k) (k0_off284_eq k) (k0_off284_inb k) l)
        (load_val m d L hidx k.val hk 22 (by decide) 5 (by decide) (k0_off285 k) (k0_off285_eq k) (k0_off285_inb k) l)
        (load_val m d L hidx k.val hk 23 (by decide) 5 (by decide) (k0_off286 k) (k0_off286_eq k) (k0_off286_inb k) l)
        (load_val m d L hidx k.val hk 24 (by decide) 5 (by decide) (k0_off287 k) (k0_off287_eq k) (k0_off287_inb k) l)
        (load_val m d L hidx k.val hk 25 (by decide) 5 (by decide) (k0_off288 k) (k0_off288_eq k) (k0_off288_inb k) l)
        (load_val m d L hidx k.val hk 26 (by decide) 5 (by decide) (k0_off289 k) (k0_off289_eq k) (k0_off289_inb k) l)
        (load_val m d L hidx k.val hk 27 (by decide) 5 (by decide) (k0_off290 k) (k0_off290_eq k) (k0_off290_inb k) l)
        (load_val m d L hidx k.val hk 28 (by decide) 5 (by decide) (k0_off291 k) (k0_off291_eq k) (k0_off291_inb k) l)
        (load_val m d L hidx k.val hk 29 (by decide) 5 (by decide) (k0_off292 k) (k0_off292_eq k) (k0_off292_inb k) l)
        (load_val m d L hidx k.val hk 30 (by decide) 5 (by decide) (k0_off293 k) (k0_off293_eq k) (k0_off293_inb k) l)
        (load_val m d L hidx k.val hk 31 (by decide) 5 (by decide) (k0_off294 k) (k0_off294_eq k) (k0_off294_inb k) l)
        (load_val m d L hidx k.val hk 32 (by decide) 5 (by decide) (k0_off295 k) (k0_off295_eq k) (k0_off295_inb k) l)
        (load_val m d L hidx k.val hk 33 (by decide) 5 (by decide) (k0_off296 k) (k0_off296_eq k) (k0_off296_inb k) l)
        (load_val m d L hidx k.val hk 34 (by decide) 5 (by decide) (k0_off297 k) (k0_off297_eq k) (k0_off297_inb k) l)
        (load_val m d L hidx k.val hk 35 (by decide) 5 (by decide) (k0_off298 k) (k0_off298_eq k) (k0_off298_inb k) l)
        (load_val m d L hidx k.val hk 36 (by decide) 5 (by decide) (k0_off299 k) (k0_off299_eq k) (k0_off299_inb k) l)
        (load_val m d L hidx k.val hk 37 (by decide) 5 (by decide) (k0_off300 k) (k0_off300_eq k) (k0_off300_inb k) l)
        (load_val m d L hidx k.val hk 38 (by decide) 5 (by decide) (k0_off301 k) (k0_off301_eq k) (k0_off301_inb k) l)
        (load_val m d L hidx k.val hk 39 (by decide) 5 (by decide) (k0_off302 k) (k0_off302_eq k) (k0_off302_inb k) l)
        (load_val m d L hidx k.val hk 40 (by decide) 5 (by decide) (k0_off303 k) (k0_off303_eq k) (k0_off303_inb k) l)
        (load_val m d L hidx k.val hk 41 (by decide) 5 (by decide) (k0_off304 k) (k0_off304_eq k) (k0_off304_inb k) l)
        (load_val m d L hidx k.val hk 42 (by decide) 5 (by decide) (k0_off305 k) (k0_off305_eq k) (k0_off305_inb k) l)
        (load_val m d L hidx k.val hk 43 (by decide) 5 (by decide) (k0_off306 k) (k0_off306_eq k) (k0_off306_inb k) l)
        (load_val m d L hidx k.val hk 44 (by decide) 5 (by decide) (k0_off307 k) (k0_off307_eq k) (k0_off307_inb k) l)
        (load_val m d L hidx k.val hk 45 (by decide) 5 (by decide) (k0_off308 k) (k0_off308_eq k) (k0_off308_inb k) l)
        (load_val m d L hidx k.val hk 46 (by decide) 5 (by decide) (k0_off309 k) (k0_off309_eq k) (k0_off309_inb k) l)
        (load_val m d L hidx k.val hk 47 (by decide) 5 (by decide) (k0_off310 k) (k0_off310_eq k) (k0_off310_inb k) l)
        (load_val m d L hidx k.val hk 48 (by decide) 5 (by decide) (k0_off311 k) (k0_off311_eq k) (k0_off311_inb k) l)
        (load_val m d L hidx k.val hk 49 (by decide) 5 (by decide) (k0_off312 k) (k0_off312_eq k) (k0_off312_inb k) l)).trans
      (pool_emb m d L k.val hk ⟨16 * 5 + l.val, lane_lt 5 l⟩).symm)
    (fun l => (chain4_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 4 + l.val, lane_lt 4 l⟩)
        (load_val m d L hidx k.val hk 0 (by decide) 4 (by decide) (k0_off212 k) (k0_off212_eq k) (k0_off212_inb k) l)
        (load_val m d L hidx k.val hk 1 (by decide) 4 (by decide) (k0_off213 k) (k0_off213_eq k) (k0_off213_inb k) l)
        (load_val m d L hidx k.val hk 2 (by decide) 4 (by decide) (k0_off214 k) (k0_off214_eq k) (k0_off214_inb k) l)
        (load_val m d L hidx k.val hk 3 (by decide) 4 (by decide) (k0_off215 k) (k0_off215_eq k) (k0_off215_inb k) l)
        (load_val m d L hidx k.val hk 4 (by decide) 4 (by decide) (k0_off216 k) (k0_off216_eq k) (k0_off216_inb k) l)
        (load_val m d L hidx k.val hk 5 (by decide) 4 (by decide) (k0_off217 k) (k0_off217_eq k) (k0_off217_inb k) l)
        (load_val m d L hidx k.val hk 6 (by decide) 4 (by decide) (k0_off218 k) (k0_off218_eq k) (k0_off218_inb k) l)
        (load_val m d L hidx k.val hk 7 (by decide) 4 (by decide) (k0_off219 k) (k0_off219_eq k) (k0_off219_inb k) l)
        (load_val m d L hidx k.val hk 8 (by decide) 4 (by decide) (k0_off220 k) (k0_off220_eq k) (k0_off220_inb k) l)
        (load_val m d L hidx k.val hk 9 (by decide) 4 (by decide) (k0_off221 k) (k0_off221_eq k) (k0_off221_inb k) l)
        (load_val m d L hidx k.val hk 10 (by decide) 4 (by decide) (k0_off222 k) (k0_off222_eq k) (k0_off222_inb k) l)
        (load_val m d L hidx k.val hk 11 (by decide) 4 (by decide) (k0_off223 k) (k0_off223_eq k) (k0_off223_inb k) l)
        (load_val m d L hidx k.val hk 12 (by decide) 4 (by decide) (k0_off224 k) (k0_off224_eq k) (k0_off224_inb k) l)
        (load_val m d L hidx k.val hk 13 (by decide) 4 (by decide) (k0_off225 k) (k0_off225_eq k) (k0_off225_inb k) l)
        (load_val m d L hidx k.val hk 14 (by decide) 4 (by decide) (k0_off226 k) (k0_off226_eq k) (k0_off226_inb k) l)
        (load_val m d L hidx k.val hk 15 (by decide) 4 (by decide) (k0_off227 k) (k0_off227_eq k) (k0_off227_inb k) l)
        (load_val m d L hidx k.val hk 16 (by decide) 4 (by decide) (k0_off228 k) (k0_off228_eq k) (k0_off228_inb k) l)
        (load_val m d L hidx k.val hk 17 (by decide) 4 (by decide) (k0_off229 k) (k0_off229_eq k) (k0_off229_inb k) l)
        (load_val m d L hidx k.val hk 18 (by decide) 4 (by decide) (k0_off230 k) (k0_off230_eq k) (k0_off230_inb k) l)
        (load_val m d L hidx k.val hk 19 (by decide) 4 (by decide) (k0_off231 k) (k0_off231_eq k) (k0_off231_inb k) l)
        (load_val m d L hidx k.val hk 20 (by decide) 4 (by decide) (k0_off232 k) (k0_off232_eq k) (k0_off232_inb k) l)
        (load_val m d L hidx k.val hk 21 (by decide) 4 (by decide) (k0_off233 k) (k0_off233_eq k) (k0_off233_inb k) l)
        (load_val m d L hidx k.val hk 22 (by decide) 4 (by decide) (k0_off234 k) (k0_off234_eq k) (k0_off234_inb k) l)
        (load_val m d L hidx k.val hk 23 (by decide) 4 (by decide) (k0_off235 k) (k0_off235_eq k) (k0_off235_inb k) l)
        (load_val m d L hidx k.val hk 24 (by decide) 4 (by decide) (k0_off236 k) (k0_off236_eq k) (k0_off236_inb k) l)
        (load_val m d L hidx k.val hk 25 (by decide) 4 (by decide) (k0_off237 k) (k0_off237_eq k) (k0_off237_inb k) l)
        (load_val m d L hidx k.val hk 26 (by decide) 4 (by decide) (k0_off238 k) (k0_off238_eq k) (k0_off238_inb k) l)
        (load_val m d L hidx k.val hk 27 (by decide) 4 (by decide) (k0_off239 k) (k0_off239_eq k) (k0_off239_inb k) l)
        (load_val m d L hidx k.val hk 28 (by decide) 4 (by decide) (k0_off240 k) (k0_off240_eq k) (k0_off240_inb k) l)
        (load_val m d L hidx k.val hk 29 (by decide) 4 (by decide) (k0_off241 k) (k0_off241_eq k) (k0_off241_inb k) l)
        (load_val m d L hidx k.val hk 30 (by decide) 4 (by decide) (k0_off242 k) (k0_off242_eq k) (k0_off242_inb k) l)
        (load_val m d L hidx k.val hk 31 (by decide) 4 (by decide) (k0_off243 k) (k0_off243_eq k) (k0_off243_inb k) l)
        (load_val m d L hidx k.val hk 32 (by decide) 4 (by decide) (k0_off244 k) (k0_off244_eq k) (k0_off244_inb k) l)
        (load_val m d L hidx k.val hk 33 (by decide) 4 (by decide) (k0_off245 k) (k0_off245_eq k) (k0_off245_inb k) l)
        (load_val m d L hidx k.val hk 34 (by decide) 4 (by decide) (k0_off246 k) (k0_off246_eq k) (k0_off246_inb k) l)
        (load_val m d L hidx k.val hk 35 (by decide) 4 (by decide) (k0_off247 k) (k0_off247_eq k) (k0_off247_inb k) l)
        (load_val m d L hidx k.val hk 36 (by decide) 4 (by decide) (k0_off248 k) (k0_off248_eq k) (k0_off248_inb k) l)
        (load_val m d L hidx k.val hk 37 (by decide) 4 (by decide) (k0_off249 k) (k0_off249_eq k) (k0_off249_inb k) l)
        (load_val m d L hidx k.val hk 38 (by decide) 4 (by decide) (k0_off250 k) (k0_off250_eq k) (k0_off250_inb k) l)
        (load_val m d L hidx k.val hk 39 (by decide) 4 (by decide) (k0_off251 k) (k0_off251_eq k) (k0_off251_inb k) l)
        (load_val m d L hidx k.val hk 40 (by decide) 4 (by decide) (k0_off252 k) (k0_off252_eq k) (k0_off252_inb k) l)
        (load_val m d L hidx k.val hk 41 (by decide) 4 (by decide) (k0_off253 k) (k0_off253_eq k) (k0_off253_inb k) l)
        (load_val m d L hidx k.val hk 42 (by decide) 4 (by decide) (k0_off254 k) (k0_off254_eq k) (k0_off254_inb k) l)
        (load_val m d L hidx k.val hk 43 (by decide) 4 (by decide) (k0_off255 k) (k0_off255_eq k) (k0_off255_inb k) l)
        (load_val m d L hidx k.val hk 44 (by decide) 4 (by decide) (k0_off256 k) (k0_off256_eq k) (k0_off256_inb k) l)
        (load_val m d L hidx k.val hk 45 (by decide) 4 (by decide) (k0_off257 k) (k0_off257_eq k) (k0_off257_inb k) l)
        (load_val m d L hidx k.val hk 46 (by decide) 4 (by decide) (k0_off258 k) (k0_off258_eq k) (k0_off258_inb k) l)
        (load_val m d L hidx k.val hk 47 (by decide) 4 (by decide) (k0_off259 k) (k0_off259_eq k) (k0_off259_inb k) l)
        (load_val m d L hidx k.val hk 48 (by decide) 4 (by decide) (k0_off260 k) (k0_off260_eq k) (k0_off260_inb k) l)
        (load_val m d L hidx k.val hk 49 (by decide) 4 (by decide) (k0_off261 k) (k0_off261_eq k) (k0_off261_inb k) l)).trans
      (pool_emb m d L k.val hk ⟨16 * 4 + l.val, lane_lt 4 l⟩).symm)
    (fun l => (chain3_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 3 + l.val, lane_lt 3 l⟩)
        (load_val m d L hidx k.val hk 0 (by decide) 3 (by decide) (k0_off161 k) (k0_off161_eq k) (k0_off161_inb k) l)
        (load_val m d L hidx k.val hk 1 (by decide) 3 (by decide) (k0_off162 k) (k0_off162_eq k) (k0_off162_inb k) l)
        (load_val m d L hidx k.val hk 2 (by decide) 3 (by decide) (k0_off163 k) (k0_off163_eq k) (k0_off163_inb k) l)
        (load_val m d L hidx k.val hk 3 (by decide) 3 (by decide) (k0_off164 k) (k0_off164_eq k) (k0_off164_inb k) l)
        (load_val m d L hidx k.val hk 4 (by decide) 3 (by decide) (k0_off165 k) (k0_off165_eq k) (k0_off165_inb k) l)
        (load_val m d L hidx k.val hk 5 (by decide) 3 (by decide) (k0_off166 k) (k0_off166_eq k) (k0_off166_inb k) l)
        (load_val m d L hidx k.val hk 6 (by decide) 3 (by decide) (k0_off167 k) (k0_off167_eq k) (k0_off167_inb k) l)
        (load_val m d L hidx k.val hk 7 (by decide) 3 (by decide) (k0_off168 k) (k0_off168_eq k) (k0_off168_inb k) l)
        (load_val m d L hidx k.val hk 8 (by decide) 3 (by decide) (k0_off169 k) (k0_off169_eq k) (k0_off169_inb k) l)
        (load_val m d L hidx k.val hk 9 (by decide) 3 (by decide) (k0_off170 k) (k0_off170_eq k) (k0_off170_inb k) l)
        (load_val m d L hidx k.val hk 10 (by decide) 3 (by decide) (k0_off171 k) (k0_off171_eq k) (k0_off171_inb k) l)
        (load_val m d L hidx k.val hk 11 (by decide) 3 (by decide) (k0_off172 k) (k0_off172_eq k) (k0_off172_inb k) l)
        (load_val m d L hidx k.val hk 12 (by decide) 3 (by decide) (k0_off173 k) (k0_off173_eq k) (k0_off173_inb k) l)
        (load_val m d L hidx k.val hk 13 (by decide) 3 (by decide) (k0_off174 k) (k0_off174_eq k) (k0_off174_inb k) l)
        (load_val m d L hidx k.val hk 14 (by decide) 3 (by decide) (k0_off175 k) (k0_off175_eq k) (k0_off175_inb k) l)
        (load_val m d L hidx k.val hk 15 (by decide) 3 (by decide) (k0_off176 k) (k0_off176_eq k) (k0_off176_inb k) l)
        (load_val m d L hidx k.val hk 16 (by decide) 3 (by decide) (k0_off177 k) (k0_off177_eq k) (k0_off177_inb k) l)
        (load_val m d L hidx k.val hk 17 (by decide) 3 (by decide) (k0_off178 k) (k0_off178_eq k) (k0_off178_inb k) l)
        (load_val m d L hidx k.val hk 18 (by decide) 3 (by decide) (k0_off179 k) (k0_off179_eq k) (k0_off179_inb k) l)
        (load_val m d L hidx k.val hk 19 (by decide) 3 (by decide) (k0_off180 k) (k0_off180_eq k) (k0_off180_inb k) l)
        (load_val m d L hidx k.val hk 20 (by decide) 3 (by decide) (k0_off181 k) (k0_off181_eq k) (k0_off181_inb k) l)
        (load_val m d L hidx k.val hk 21 (by decide) 3 (by decide) (k0_off182 k) (k0_off182_eq k) (k0_off182_inb k) l)
        (load_val m d L hidx k.val hk 22 (by decide) 3 (by decide) (k0_off183 k) (k0_off183_eq k) (k0_off183_inb k) l)
        (load_val m d L hidx k.val hk 23 (by decide) 3 (by decide) (k0_off184 k) (k0_off184_eq k) (k0_off184_inb k) l)
        (load_val m d L hidx k.val hk 24 (by decide) 3 (by decide) (k0_off185 k) (k0_off185_eq k) (k0_off185_inb k) l)
        (load_val m d L hidx k.val hk 25 (by decide) 3 (by decide) (k0_off186 k) (k0_off186_eq k) (k0_off186_inb k) l)
        (load_val m d L hidx k.val hk 26 (by decide) 3 (by decide) (k0_off187 k) (k0_off187_eq k) (k0_off187_inb k) l)
        (load_val m d L hidx k.val hk 27 (by decide) 3 (by decide) (k0_off188 k) (k0_off188_eq k) (k0_off188_inb k) l)
        (load_val m d L hidx k.val hk 28 (by decide) 3 (by decide) (k0_off189 k) (k0_off189_eq k) (k0_off189_inb k) l)
        (load_val m d L hidx k.val hk 29 (by decide) 3 (by decide) (k0_off190 k) (k0_off190_eq k) (k0_off190_inb k) l)
        (load_val m d L hidx k.val hk 30 (by decide) 3 (by decide) (k0_off191 k) (k0_off191_eq k) (k0_off191_inb k) l)
        (load_val m d L hidx k.val hk 31 (by decide) 3 (by decide) (k0_off192 k) (k0_off192_eq k) (k0_off192_inb k) l)
        (load_val m d L hidx k.val hk 32 (by decide) 3 (by decide) (k0_off193 k) (k0_off193_eq k) (k0_off193_inb k) l)
        (load_val m d L hidx k.val hk 33 (by decide) 3 (by decide) (k0_off194 k) (k0_off194_eq k) (k0_off194_inb k) l)
        (load_val m d L hidx k.val hk 34 (by decide) 3 (by decide) (k0_off195 k) (k0_off195_eq k) (k0_off195_inb k) l)
        (load_val m d L hidx k.val hk 35 (by decide) 3 (by decide) (k0_off196 k) (k0_off196_eq k) (k0_off196_inb k) l)
        (load_val m d L hidx k.val hk 36 (by decide) 3 (by decide) (k0_off197 k) (k0_off197_eq k) (k0_off197_inb k) l)
        (load_val m d L hidx k.val hk 37 (by decide) 3 (by decide) (k0_off198 k) (k0_off198_eq k) (k0_off198_inb k) l)
        (load_val m d L hidx k.val hk 38 (by decide) 3 (by decide) (k0_off199 k) (k0_off199_eq k) (k0_off199_inb k) l)
        (load_val m d L hidx k.val hk 39 (by decide) 3 (by decide) (k0_off200 k) (k0_off200_eq k) (k0_off200_inb k) l)
        (load_val m d L hidx k.val hk 40 (by decide) 3 (by decide) (k0_off201 k) (k0_off201_eq k) (k0_off201_inb k) l)
        (load_val m d L hidx k.val hk 41 (by decide) 3 (by decide) (k0_off202 k) (k0_off202_eq k) (k0_off202_inb k) l)
        (load_val m d L hidx k.val hk 42 (by decide) 3 (by decide) (k0_off203 k) (k0_off203_eq k) (k0_off203_inb k) l)
        (load_val m d L hidx k.val hk 43 (by decide) 3 (by decide) (k0_off204 k) (k0_off204_eq k) (k0_off204_inb k) l)
        (load_val m d L hidx k.val hk 44 (by decide) 3 (by decide) (k0_off205 k) (k0_off205_eq k) (k0_off205_inb k) l)
        (load_val m d L hidx k.val hk 45 (by decide) 3 (by decide) (k0_off206 k) (k0_off206_eq k) (k0_off206_inb k) l)
        (load_val m d L hidx k.val hk 46 (by decide) 3 (by decide) (k0_off207 k) (k0_off207_eq k) (k0_off207_inb k) l)
        (load_val m d L hidx k.val hk 47 (by decide) 3 (by decide) (k0_off208 k) (k0_off208_eq k) (k0_off208_inb k) l)
        (load_val m d L hidx k.val hk 48 (by decide) 3 (by decide) (k0_off209 k) (k0_off209_eq k) (k0_off209_inb k) l)
        (load_val m d L hidx k.val hk 49 (by decide) 3 (by decide) (k0_off210 k) (k0_off210_eq k) (k0_off210_inb k) l)).trans
      (pool_emb m d L k.val hk ⟨16 * 3 + l.val, lane_lt 3 l⟩).symm)
    (fun l => (chain2_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 2 + l.val, lane_lt 2 l⟩)
        (load_val m d L hidx k.val hk 0 (by decide) 2 (by decide) (k0_off110 k) (k0_off110_eq k) (k0_off110_inb k) l)
        (load_val m d L hidx k.val hk 1 (by decide) 2 (by decide) (k0_off111 k) (k0_off111_eq k) (k0_off111_inb k) l)
        (load_val m d L hidx k.val hk 2 (by decide) 2 (by decide) (k0_off112 k) (k0_off112_eq k) (k0_off112_inb k) l)
        (load_val m d L hidx k.val hk 3 (by decide) 2 (by decide) (k0_off113 k) (k0_off113_eq k) (k0_off113_inb k) l)
        (load_val m d L hidx k.val hk 4 (by decide) 2 (by decide) (k0_off114 k) (k0_off114_eq k) (k0_off114_inb k) l)
        (load_val m d L hidx k.val hk 5 (by decide) 2 (by decide) (k0_off115 k) (k0_off115_eq k) (k0_off115_inb k) l)
        (load_val m d L hidx k.val hk 6 (by decide) 2 (by decide) (k0_off116 k) (k0_off116_eq k) (k0_off116_inb k) l)
        (load_val m d L hidx k.val hk 7 (by decide) 2 (by decide) (k0_off117 k) (k0_off117_eq k) (k0_off117_inb k) l)
        (load_val m d L hidx k.val hk 8 (by decide) 2 (by decide) (k0_off118 k) (k0_off118_eq k) (k0_off118_inb k) l)
        (load_val m d L hidx k.val hk 9 (by decide) 2 (by decide) (k0_off119 k) (k0_off119_eq k) (k0_off119_inb k) l)
        (load_val m d L hidx k.val hk 10 (by decide) 2 (by decide) (k0_off120 k) (k0_off120_eq k) (k0_off120_inb k) l)
        (load_val m d L hidx k.val hk 11 (by decide) 2 (by decide) (k0_off121 k) (k0_off121_eq k) (k0_off121_inb k) l)
        (load_val m d L hidx k.val hk 12 (by decide) 2 (by decide) (k0_off122 k) (k0_off122_eq k) (k0_off122_inb k) l)
        (load_val m d L hidx k.val hk 13 (by decide) 2 (by decide) (k0_off123 k) (k0_off123_eq k) (k0_off123_inb k) l)
        (load_val m d L hidx k.val hk 14 (by decide) 2 (by decide) (k0_off124 k) (k0_off124_eq k) (k0_off124_inb k) l)
        (load_val m d L hidx k.val hk 15 (by decide) 2 (by decide) (k0_off125 k) (k0_off125_eq k) (k0_off125_inb k) l)
        (load_val m d L hidx k.val hk 16 (by decide) 2 (by decide) (k0_off126 k) (k0_off126_eq k) (k0_off126_inb k) l)
        (load_val m d L hidx k.val hk 17 (by decide) 2 (by decide) (k0_off127 k) (k0_off127_eq k) (k0_off127_inb k) l)
        (load_val m d L hidx k.val hk 18 (by decide) 2 (by decide) (k0_off128 k) (k0_off128_eq k) (k0_off128_inb k) l)
        (load_val m d L hidx k.val hk 19 (by decide) 2 (by decide) (k0_off129 k) (k0_off129_eq k) (k0_off129_inb k) l)
        (load_val m d L hidx k.val hk 20 (by decide) 2 (by decide) (k0_off130 k) (k0_off130_eq k) (k0_off130_inb k) l)
        (load_val m d L hidx k.val hk 21 (by decide) 2 (by decide) (k0_off131 k) (k0_off131_eq k) (k0_off131_inb k) l)
        (load_val m d L hidx k.val hk 22 (by decide) 2 (by decide) (k0_off132 k) (k0_off132_eq k) (k0_off132_inb k) l)
        (load_val m d L hidx k.val hk 23 (by decide) 2 (by decide) (k0_off133 k) (k0_off133_eq k) (k0_off133_inb k) l)
        (load_val m d L hidx k.val hk 24 (by decide) 2 (by decide) (k0_off134 k) (k0_off134_eq k) (k0_off134_inb k) l)
        (load_val m d L hidx k.val hk 25 (by decide) 2 (by decide) (k0_off135 k) (k0_off135_eq k) (k0_off135_inb k) l)
        (load_val m d L hidx k.val hk 26 (by decide) 2 (by decide) (k0_off136 k) (k0_off136_eq k) (k0_off136_inb k) l)
        (load_val m d L hidx k.val hk 27 (by decide) 2 (by decide) (k0_off137 k) (k0_off137_eq k) (k0_off137_inb k) l)
        (load_val m d L hidx k.val hk 28 (by decide) 2 (by decide) (k0_off138 k) (k0_off138_eq k) (k0_off138_inb k) l)
        (load_val m d L hidx k.val hk 29 (by decide) 2 (by decide) (k0_off139 k) (k0_off139_eq k) (k0_off139_inb k) l)
        (load_val m d L hidx k.val hk 30 (by decide) 2 (by decide) (k0_off140 k) (k0_off140_eq k) (k0_off140_inb k) l)
        (load_val m d L hidx k.val hk 31 (by decide) 2 (by decide) (k0_off141 k) (k0_off141_eq k) (k0_off141_inb k) l)
        (load_val m d L hidx k.val hk 32 (by decide) 2 (by decide) (k0_off142 k) (k0_off142_eq k) (k0_off142_inb k) l)
        (load_val m d L hidx k.val hk 33 (by decide) 2 (by decide) (k0_off143 k) (k0_off143_eq k) (k0_off143_inb k) l)
        (load_val m d L hidx k.val hk 34 (by decide) 2 (by decide) (k0_off144 k) (k0_off144_eq k) (k0_off144_inb k) l)
        (load_val m d L hidx k.val hk 35 (by decide) 2 (by decide) (k0_off145 k) (k0_off145_eq k) (k0_off145_inb k) l)
        (load_val m d L hidx k.val hk 36 (by decide) 2 (by decide) (k0_off146 k) (k0_off146_eq k) (k0_off146_inb k) l)
        (load_val m d L hidx k.val hk 37 (by decide) 2 (by decide) (k0_off147 k) (k0_off147_eq k) (k0_off147_inb k) l)
        (load_val m d L hidx k.val hk 38 (by decide) 2 (by decide) (k0_off148 k) (k0_off148_eq k) (k0_off148_inb k) l)
        (load_val m d L hidx k.val hk 39 (by decide) 2 (by decide) (k0_off149 k) (k0_off149_eq k) (k0_off149_inb k) l)
        (load_val m d L hidx k.val hk 40 (by decide) 2 (by decide) (k0_off150 k) (k0_off150_eq k) (k0_off150_inb k) l)
        (load_val m d L hidx k.val hk 41 (by decide) 2 (by decide) (k0_off151 k) (k0_off151_eq k) (k0_off151_inb k) l)
        (load_val m d L hidx k.val hk 42 (by decide) 2 (by decide) (k0_off152 k) (k0_off152_eq k) (k0_off152_inb k) l)
        (load_val m d L hidx k.val hk 43 (by decide) 2 (by decide) (k0_off153 k) (k0_off153_eq k) (k0_off153_inb k) l)
        (load_val m d L hidx k.val hk 44 (by decide) 2 (by decide) (k0_off154 k) (k0_off154_eq k) (k0_off154_inb k) l)
        (load_val m d L hidx k.val hk 45 (by decide) 2 (by decide) (k0_off155 k) (k0_off155_eq k) (k0_off155_inb k) l)
        (load_val m d L hidx k.val hk 46 (by decide) 2 (by decide) (k0_off156 k) (k0_off156_eq k) (k0_off156_inb k) l)
        (load_val m d L hidx k.val hk 47 (by decide) 2 (by decide) (k0_off157 k) (k0_off157_eq k) (k0_off157_inb k) l)
        (load_val m d L hidx k.val hk 48 (by decide) 2 (by decide) (k0_off158 k) (k0_off158_eq k) (k0_off158_inb k) l)
        (load_val m d L hidx k.val hk 49 (by decide) 2 (by decide) (k0_off159 k) (k0_off159_eq k) (k0_off159_inb k) l)).trans
      (pool_emb m d L k.val hk ⟨16 * 2 + l.val, lane_lt 2 l⟩).symm)
    (fun l => (chain1_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 1 + l.val, lane_lt 1 l⟩)
        (load_val m d L hidx k.val hk 0 (by decide) 1 (by decide) (k0_off59 k) (k0_off59_eq k) (k0_off59_inb k) l)
        (load_val m d L hidx k.val hk 1 (by decide) 1 (by decide) (k0_off60 k) (k0_off60_eq k) (k0_off60_inb k) l)
        (load_val m d L hidx k.val hk 2 (by decide) 1 (by decide) (k0_off61 k) (k0_off61_eq k) (k0_off61_inb k) l)
        (load_val m d L hidx k.val hk 3 (by decide) 1 (by decide) (k0_off62 k) (k0_off62_eq k) (k0_off62_inb k) l)
        (load_val m d L hidx k.val hk 4 (by decide) 1 (by decide) (k0_off63 k) (k0_off63_eq k) (k0_off63_inb k) l)
        (load_val m d L hidx k.val hk 5 (by decide) 1 (by decide) (k0_off64 k) (k0_off64_eq k) (k0_off64_inb k) l)
        (load_val m d L hidx k.val hk 6 (by decide) 1 (by decide) (k0_off65 k) (k0_off65_eq k) (k0_off65_inb k) l)
        (load_val m d L hidx k.val hk 7 (by decide) 1 (by decide) (k0_off66 k) (k0_off66_eq k) (k0_off66_inb k) l)
        (load_val m d L hidx k.val hk 8 (by decide) 1 (by decide) (k0_off67 k) (k0_off67_eq k) (k0_off67_inb k) l)
        (load_val m d L hidx k.val hk 9 (by decide) 1 (by decide) (k0_off68 k) (k0_off68_eq k) (k0_off68_inb k) l)
        (load_val m d L hidx k.val hk 10 (by decide) 1 (by decide) (k0_off69 k) (k0_off69_eq k) (k0_off69_inb k) l)
        (load_val m d L hidx k.val hk 11 (by decide) 1 (by decide) (k0_off70 k) (k0_off70_eq k) (k0_off70_inb k) l)
        (load_val m d L hidx k.val hk 12 (by decide) 1 (by decide) (k0_off71 k) (k0_off71_eq k) (k0_off71_inb k) l)
        (load_val m d L hidx k.val hk 13 (by decide) 1 (by decide) (k0_off72 k) (k0_off72_eq k) (k0_off72_inb k) l)
        (load_val m d L hidx k.val hk 14 (by decide) 1 (by decide) (k0_off73 k) (k0_off73_eq k) (k0_off73_inb k) l)
        (load_val m d L hidx k.val hk 15 (by decide) 1 (by decide) (k0_off74 k) (k0_off74_eq k) (k0_off74_inb k) l)
        (load_val m d L hidx k.val hk 16 (by decide) 1 (by decide) (k0_off75 k) (k0_off75_eq k) (k0_off75_inb k) l)
        (load_val m d L hidx k.val hk 17 (by decide) 1 (by decide) (k0_off76 k) (k0_off76_eq k) (k0_off76_inb k) l)
        (load_val m d L hidx k.val hk 18 (by decide) 1 (by decide) (k0_off77 k) (k0_off77_eq k) (k0_off77_inb k) l)
        (load_val m d L hidx k.val hk 19 (by decide) 1 (by decide) (k0_off78 k) (k0_off78_eq k) (k0_off78_inb k) l)
        (load_val m d L hidx k.val hk 20 (by decide) 1 (by decide) (k0_off79 k) (k0_off79_eq k) (k0_off79_inb k) l)
        (load_val m d L hidx k.val hk 21 (by decide) 1 (by decide) (k0_off80 k) (k0_off80_eq k) (k0_off80_inb k) l)
        (load_val m d L hidx k.val hk 22 (by decide) 1 (by decide) (k0_off81 k) (k0_off81_eq k) (k0_off81_inb k) l)
        (load_val m d L hidx k.val hk 23 (by decide) 1 (by decide) (k0_off82 k) (k0_off82_eq k) (k0_off82_inb k) l)
        (load_val m d L hidx k.val hk 24 (by decide) 1 (by decide) (k0_off83 k) (k0_off83_eq k) (k0_off83_inb k) l)
        (load_val m d L hidx k.val hk 25 (by decide) 1 (by decide) (k0_off84 k) (k0_off84_eq k) (k0_off84_inb k) l)
        (load_val m d L hidx k.val hk 26 (by decide) 1 (by decide) (k0_off85 k) (k0_off85_eq k) (k0_off85_inb k) l)
        (load_val m d L hidx k.val hk 27 (by decide) 1 (by decide) (k0_off86 k) (k0_off86_eq k) (k0_off86_inb k) l)
        (load_val m d L hidx k.val hk 28 (by decide) 1 (by decide) (k0_off87 k) (k0_off87_eq k) (k0_off87_inb k) l)
        (load_val m d L hidx k.val hk 29 (by decide) 1 (by decide) (k0_off88 k) (k0_off88_eq k) (k0_off88_inb k) l)
        (load_val m d L hidx k.val hk 30 (by decide) 1 (by decide) (k0_off89 k) (k0_off89_eq k) (k0_off89_inb k) l)
        (load_val m d L hidx k.val hk 31 (by decide) 1 (by decide) (k0_off90 k) (k0_off90_eq k) (k0_off90_inb k) l)
        (load_val m d L hidx k.val hk 32 (by decide) 1 (by decide) (k0_off91 k) (k0_off91_eq k) (k0_off91_inb k) l)
        (load_val m d L hidx k.val hk 33 (by decide) 1 (by decide) (k0_off92 k) (k0_off92_eq k) (k0_off92_inb k) l)
        (load_val m d L hidx k.val hk 34 (by decide) 1 (by decide) (k0_off93 k) (k0_off93_eq k) (k0_off93_inb k) l)
        (load_val m d L hidx k.val hk 35 (by decide) 1 (by decide) (k0_off94 k) (k0_off94_eq k) (k0_off94_inb k) l)
        (load_val m d L hidx k.val hk 36 (by decide) 1 (by decide) (k0_off95 k) (k0_off95_eq k) (k0_off95_inb k) l)
        (load_val m d L hidx k.val hk 37 (by decide) 1 (by decide) (k0_off96 k) (k0_off96_eq k) (k0_off96_inb k) l)
        (load_val m d L hidx k.val hk 38 (by decide) 1 (by decide) (k0_off97 k) (k0_off97_eq k) (k0_off97_inb k) l)
        (load_val m d L hidx k.val hk 39 (by decide) 1 (by decide) (k0_off98 k) (k0_off98_eq k) (k0_off98_inb k) l)
        (load_val m d L hidx k.val hk 40 (by decide) 1 (by decide) (k0_off99 k) (k0_off99_eq k) (k0_off99_inb k) l)
        (load_val m d L hidx k.val hk 41 (by decide) 1 (by decide) (k0_off100 k) (k0_off100_eq k) (k0_off100_inb k) l)
        (load_val m d L hidx k.val hk 42 (by decide) 1 (by decide) (k0_off101 k) (k0_off101_eq k) (k0_off101_inb k) l)
        (load_val m d L hidx k.val hk 43 (by decide) 1 (by decide) (k0_off102 k) (k0_off102_eq k) (k0_off102_inb k) l)
        (load_val m d L hidx k.val hk 44 (by decide) 1 (by decide) (k0_off103 k) (k0_off103_eq k) (k0_off103_inb k) l)
        (load_val m d L hidx k.val hk 45 (by decide) 1 (by decide) (k0_off104 k) (k0_off104_eq k) (k0_off104_inb k) l)
        (load_val m d L hidx k.val hk 46 (by decide) 1 (by decide) (k0_off105 k) (k0_off105_eq k) (k0_off105_inb k) l)
        (load_val m d L hidx k.val hk 47 (by decide) 1 (by decide) (k0_off106 k) (k0_off106_eq k) (k0_off106_inb k) l)
        (load_val m d L hidx k.val hk 48 (by decide) 1 (by decide) (k0_off107 k) (k0_off107_eq k) (k0_off107_inb k) l)
        (load_val m d L hidx k.val hk 49 (by decide) 1 (by decide) (k0_off108 k) (k0_off108_eq k) (k0_off108_inb k) l)).trans
      (pool_emb m d L k.val hk ⟨16 * 1 + l.val, lane_lt 1 l⟩).symm)
    (fun l => (chain0_vars l
        (fun c => rowF (m (xLoc d)) ((m (iLoc d)) (ix2 ⟨32 * (wid L).val + k.val, tile_row_lt L ⟨k.val, hk⟩⟩ (⟨c % 50, Nat.mod_lt _ (by norm_num)⟩ : Fin 50))).toNat ⟨16 * 0 + l.val, lane_lt 0 l⟩)
        (load_val m d L hidx k.val hk 0 (by decide) 0 (by decide) (k0_off8 k) (k0_off8_eq k) (k0_off8_inb k) l)
        (load_val m d L hidx k.val hk 1 (by decide) 0 (by decide) (k0_off9 k) (k0_off9_eq k) (k0_off9_inb k) l)
        (load_val m d L hidx k.val hk 2 (by decide) 0 (by decide) (k0_off10 k) (k0_off10_eq k) (k0_off10_inb k) l)
        (load_val m d L hidx k.val hk 3 (by decide) 0 (by decide) (k0_off11 k) (k0_off11_eq k) (k0_off11_inb k) l)
        (load_val m d L hidx k.val hk 4 (by decide) 0 (by decide) (k0_off12 k) (k0_off12_eq k) (k0_off12_inb k) l)
        (load_val m d L hidx k.val hk 5 (by decide) 0 (by decide) (k0_off13 k) (k0_off13_eq k) (k0_off13_inb k) l)
        (load_val m d L hidx k.val hk 6 (by decide) 0 (by decide) (k0_off14 k) (k0_off14_eq k) (k0_off14_inb k) l)
        (load_val m d L hidx k.val hk 7 (by decide) 0 (by decide) (k0_off15 k) (k0_off15_eq k) (k0_off15_inb k) l)
        (load_val m d L hidx k.val hk 8 (by decide) 0 (by decide) (k0_off16 k) (k0_off16_eq k) (k0_off16_inb k) l)
        (load_val m d L hidx k.val hk 9 (by decide) 0 (by decide) (k0_off17 k) (k0_off17_eq k) (k0_off17_inb k) l)
        (load_val m d L hidx k.val hk 10 (by decide) 0 (by decide) (k0_off18 k) (k0_off18_eq k) (k0_off18_inb k) l)
        (load_val m d L hidx k.val hk 11 (by decide) 0 (by decide) (k0_off19 k) (k0_off19_eq k) (k0_off19_inb k) l)
        (load_val m d L hidx k.val hk 12 (by decide) 0 (by decide) (k0_off20 k) (k0_off20_eq k) (k0_off20_inb k) l)
        (load_val m d L hidx k.val hk 13 (by decide) 0 (by decide) (k0_off21 k) (k0_off21_eq k) (k0_off21_inb k) l)
        (load_val m d L hidx k.val hk 14 (by decide) 0 (by decide) (k0_off22 k) (k0_off22_eq k) (k0_off22_inb k) l)
        (load_val m d L hidx k.val hk 15 (by decide) 0 (by decide) (k0_off23 k) (k0_off23_eq k) (k0_off23_inb k) l)
        (load_val m d L hidx k.val hk 16 (by decide) 0 (by decide) (k0_off24 k) (k0_off24_eq k) (k0_off24_inb k) l)
        (load_val m d L hidx k.val hk 17 (by decide) 0 (by decide) (k0_off25 k) (k0_off25_eq k) (k0_off25_inb k) l)
        (load_val m d L hidx k.val hk 18 (by decide) 0 (by decide) (k0_off26 k) (k0_off26_eq k) (k0_off26_inb k) l)
        (load_val m d L hidx k.val hk 19 (by decide) 0 (by decide) (k0_off27 k) (k0_off27_eq k) (k0_off27_inb k) l)
        (load_val m d L hidx k.val hk 20 (by decide) 0 (by decide) (k0_off28 k) (k0_off28_eq k) (k0_off28_inb k) l)
        (load_val m d L hidx k.val hk 21 (by decide) 0 (by decide) (k0_off29 k) (k0_off29_eq k) (k0_off29_inb k) l)
        (load_val m d L hidx k.val hk 22 (by decide) 0 (by decide) (k0_off30 k) (k0_off30_eq k) (k0_off30_inb k) l)
        (load_val m d L hidx k.val hk 23 (by decide) 0 (by decide) (k0_off31 k) (k0_off31_eq k) (k0_off31_inb k) l)
        (load_val m d L hidx k.val hk 24 (by decide) 0 (by decide) (k0_off32 k) (k0_off32_eq k) (k0_off32_inb k) l)
        (load_val m d L hidx k.val hk 25 (by decide) 0 (by decide) (k0_off33 k) (k0_off33_eq k) (k0_off33_inb k) l)
        (load_val m d L hidx k.val hk 26 (by decide) 0 (by decide) (k0_off34 k) (k0_off34_eq k) (k0_off34_inb k) l)
        (load_val m d L hidx k.val hk 27 (by decide) 0 (by decide) (k0_off35 k) (k0_off35_eq k) (k0_off35_inb k) l)
        (load_val m d L hidx k.val hk 28 (by decide) 0 (by decide) (k0_off36 k) (k0_off36_eq k) (k0_off36_inb k) l)
        (load_val m d L hidx k.val hk 29 (by decide) 0 (by decide) (k0_off37 k) (k0_off37_eq k) (k0_off37_inb k) l)
        (load_val m d L hidx k.val hk 30 (by decide) 0 (by decide) (k0_off38 k) (k0_off38_eq k) (k0_off38_inb k) l)
        (load_val m d L hidx k.val hk 31 (by decide) 0 (by decide) (k0_off39 k) (k0_off39_eq k) (k0_off39_inb k) l)
        (load_val m d L hidx k.val hk 32 (by decide) 0 (by decide) (k0_off40 k) (k0_off40_eq k) (k0_off40_inb k) l)
        (load_val m d L hidx k.val hk 33 (by decide) 0 (by decide) (k0_off41 k) (k0_off41_eq k) (k0_off41_inb k) l)
        (load_val m d L hidx k.val hk 34 (by decide) 0 (by decide) (k0_off42 k) (k0_off42_eq k) (k0_off42_inb k) l)
        (load_val m d L hidx k.val hk 35 (by decide) 0 (by decide) (k0_off43 k) (k0_off43_eq k) (k0_off43_inb k) l)
        (load_val m d L hidx k.val hk 36 (by decide) 0 (by decide) (k0_off44 k) (k0_off44_eq k) (k0_off44_inb k) l)
        (load_val m d L hidx k.val hk 37 (by decide) 0 (by decide) (k0_off45 k) (k0_off45_eq k) (k0_off45_inb k) l)
        (load_val m d L hidx k.val hk 38 (by decide) 0 (by decide) (k0_off46 k) (k0_off46_eq k) (k0_off46_inb k) l)
        (load_val m d L hidx k.val hk 39 (by decide) 0 (by decide) (k0_off47 k) (k0_off47_eq k) (k0_off47_inb k) l)
        (load_val m d L hidx k.val hk 40 (by decide) 0 (by decide) (k0_off48 k) (k0_off48_eq k) (k0_off48_inb k) l)
        (load_val m d L hidx k.val hk 41 (by decide) 0 (by decide) (k0_off49 k) (k0_off49_eq k) (k0_off49_inb k) l)
        (load_val m d L hidx k.val hk 42 (by decide) 0 (by decide) (k0_off50 k) (k0_off50_eq k) (k0_off50_inb k) l)
        (load_val m d L hidx k.val hk 43 (by decide) 0 (by decide) (k0_off51 k) (k0_off51_eq k) (k0_off51_inb k) l)
        (load_val m d L hidx k.val hk 44 (by decide) 0 (by decide) (k0_off52 k) (k0_off52_eq k) (k0_off52_inb k) l)
        (load_val m d L hidx k.val hk 45 (by decide) 0 (by decide) (k0_off53 k) (k0_off53_eq k) (k0_off53_inb k) l)
        (load_val m d L hidx k.val hk 46 (by decide) 0 (by decide) (k0_off54 k) (k0_off54_eq k) (k0_off54_inb k) l)
        (load_val m d L hidx k.val hk 47 (by decide) 0 (by decide) (k0_off55 k) (k0_off55_eq k) (k0_off55_inb k) l)
        (load_val m d L hidx k.val hk 48 (by decide) 0 (by decide) (k0_off56 k) (k0_off56_eq k) (k0_off56_inb k) l)
        (load_val m d L hidx k.val hk 49 (by decide) 0 (by decide) (k0_off57 k) (k0_off57_eq k) (k0_off57_inb k) l)).trans
      (pool_emb m d L k.val hk ⟨16 * 0 + l.val, lane_lt 0 l⟩).symm)

end Tile
end Cert.Proof.KB
end
-- ==== Proof.ScBodyB.lean ====
import proofs.«204135_g55705725829175_cont_9to1c4b_393_20_alg».proof.Proof.ScBodyValueB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {UU : Type} [URA UU] [CountersIn UU]

local notation "𝕄" => MT nD τ sig (HIx 1) (Elt F) ℕ UU ℕ

variable (m : (ℓ : Loc nD τ sig) → Buf (Elt F) ℓ)

local notation "xV" => (Memref.whole Cert.Kernel.main_arg1_scv : Memref Cert.Kernel.sig Kind.scVector Space.hbm Cert.Kernel.S100000x128 EltTy.f32)
local notation "iV" => (Memref.whole Cert.Kernel.main_arg0_scv : Memref Cert.Kernel.sig Kind.scVector Space.hbm Cert.Kernel.S1024x50 EltTy.i32)
local notation "oV" => (Memref.whole Cert.Kernel.main_v0_scv : Memref Cert.Kernel.sig Kind.scVector Space.hbm Cert.Kernel.S1024x128 EltTy.f32)
local notation "a5" => (Memref.whole Cert.Kernel.cc0_scratch0 : Memref Cert.Kernel.sig Kind.scVector Space.vmem Cert.Kernel.S32x50 EltTy.i32)
local notation "a6" => (Memref.whole Cert.Kernel.cc0_scratch1 : Memref Cert.Kernel.sig Kind.scVector Space.vmem Cert.Kernel.S4x50x128 EltTy.f32)
local notation "a7" => (Memref.whole Cert.Kernel.cc0_scratch2 : Memref Cert.Kernel.sig Kind.scVector Space.vmem Cert.Kernel.S32x128 EltTy.f32)

section Tile
variable (d : Dev nD) (L : grid0.Coords)

variable [FloatOps F]

set_option maxHeartbeats 4000000 in
theorem tile_body (hF : (K (F := F)).Facts) (hidx : IdxOK m) (O : CellTallies nD τ sig (HIx 1)) (W : Waits sig (HIx 1)) (hO : ∀ g, O g none = 0) :
    (iprop(levAts (K (F := F)).L (K (F := F)).lev ∗ emp ∗ goA m d (wid L) ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_pool_body L (Memref.whole main_arg1_scv) (Memref.isWhole_whole _) (Memref.whole main_arg0_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) cc0_scratch3 cc0_scoped0 cc0_scoped1)
          fun _ => iprop(tdA m d (wid L) ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0__sc_pool_body_eq_skeleton]; unfold cc0__sc_pool_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%f5, H5⟩, ⟨%f6, H6⟩, ⟨%f7, H7⟩, Hbufs⟩, ⟨HsA, HsB, Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave H5' := (Entails.of_eq (pts_a5 (F := F) d L _).symm) $$ H5
  ihave H6' := (Entails.of_eq (pts_a6 (F := F) d L _).symm) $$ H6
  ihave H7' := (Entails.of_eq (pts_a7 (F := F) d L _).symm) $$ H7
  sl_exec
  -- the index scratch holds the tile's block; quarters of it and of the table share, the four slots of the row scratch
  have e5 : View.write (Elt F) (a5).view f5 (tile_body.sl.dma0 m d L) Finset.univ = idxI m d L :=
    (View.write_whole_univ _ _ _).trans rfl
  ihave H5a := (Entails.of_eq (congrArg (fun g => ((a5).view.loc (V d (cV L) (jV L)) ↦{fullShare} g : sProp 𝕄)) e5)) $$ H5'
  ihave H5q := (pts_quarters (F := F) _ _ _).1 $$ H5a
  icases H5q with ⟨H50, H51, H52, H53⟩
  ihave Hxq := (pts_quarters (F := F) _ _ _).1 $$ Hx'
  icases Hxq with ⟨Hx0, Hx1, Hx2, Hx3⟩
  ihave H6q := (Entails.of_eq (a6_slots (F := F) d L f6)) $$ H6'
  icases H6q with ⟨H60, H61, H62, H63⟩
  ihave HF0 := (free_intro m d L (0 % 4) (mod4 0) f6) $$ [H60 Hs0 Hx0 H50]
  · isplitl [H60]; · iexact H60
    isplitl [Hs0]; · iexact Hs0
    isplitl [Hx0] <;> iassumption
  ihave HF1 := (free_intro m d L (1 % 4) (mod4 1) f6) $$ [H61 Hs1 Hx1 H51]
  · isplitl [H61]; · iexact H61
    isplitl [Hs1]; · iexact Hs1
    isplitl [Hx1] <;> iassumption
  ihave HF2 := (free_intro m d L (2 % 4) (mod4 2) f6) $$ [H62 Hs2 Hx2 H52]
  · isplitl [H62]; · iexact H62
    isplitl [Hs2]; · iexact Hs2
    isplitl [Hx2] <;> iassumption
  ihave HF3 := (free_intro m d L ((0 + 3) % 4) (mod4 (0 + 3)) f6) $$ [H63 Hs3 Hx3 H53]
  · isplitl [H63]; · iexact H63
    isplitl [Hs3]; · iexact Hs3
    isplitl [Hx3] <;> iassumption
  -- the three gathers started before the loop
  iapply (start_gather m d L hidx 0 (by norm_num)) $$ [HF0]; · iexact HF0
  iintro HG0
  sl_exec
  iapply (start_gather m d L hidx 1 (by norm_num)) $$ [HF1]; · iexact HF1
  iintro HG1
  sl_exec
  iapply (start_gather m d L hidx 2 (by norm_num)) $$ [HF2]; · iexact HF2
  iintro HG2
  sl_exec
  sl_for (inv m d L hidx f7 O W) $$ [Hmw HG0 HG1 HG2 HF3 H7' HO]
  case region =>
    intro k acc
    have hk : k.val < 32 := k.isLt
    unfold inv
    iintro ⟨#Hmw, HA, HB, HC, HD, H7, %W', %hW', HO⟩
    ihave HA' := (Entails.of_eq (FlyOrFree_lt m d L hidx hk)) $$ HA
    have hsem : ((cc0_scratch3.slice (Rect.unit (s := S4) (k0_off4 k) S1.size (k0_off4_inb k))).squeeze S_ squeezes_S1_S_).sem = (semN (k.val % 4) (mod4 k.val)).sem := by
      rw [SemArray.slice_unit_congr cc0_scratch3 (k0_off4_eq k) (k0_off4_inb k) (inb_semN _ (mod4 k.val))]
    by_cases hc : k0_cond1 k = 1#1
    · have hk3 : k.val + 3 < 32 := (cond_iff k).mp hc
      sl_exec
      iapply (wait_gather' m d L hidx k.val hk
          (dstw := ((a6).slice (Rect.unit (s := S4x50x128) (k0_off2 k) S1x50x128.size (k0_off2_inb k)) (fun _ => rfl)).squeeze S50x128 squeezes_S1x50x128_S50x128)
          hsem rfl) $$ [HA' HO]
      · isplitl [HA']; · iexact HA'
        isplitl [HO]; · iexact HO
        iexact Hmw
      iintro ⟨HL, HO⟩
      ihave HL' := (landed_open m d L hidx k.val hk) $$ HL
      icases HL' with ⟨Hslot, HLR⟩
      sl_exec
      iapply (start_gather' m d L hidx k hc hk3) $$ [HD]; · iexact HD
      iintro HG3
      sl_exec
      sl_step
      isplitl []; · iexact Hmw
      isplitl [HB]; · iexact HB
      isplitl [HC]; · iapply (Entails.of_eq (congrArg (fun t => (FlyOrFree m d L hidx t : sProp 𝕄)) (by omega : k.val + 2 = k.val + 1 + 1))); iexact HC
      isplitl [HG3]
      · iapply (Entails.of_eq ((congrArg (fun t => (FlyOrFree m d L hidx t : sProp 𝕄)) (by omega : k.val + 1 + 2 = k.val + 3)).trans (FlyOrFree_lt m d L hidx hk3)).symm); iexact HG3
      isplitl [Hslot HLR]
      · iapply (Entails.of_eq (Free_congr m d L (by omega : k.val % 4 = (k.val + 1 + 3) % 4) (mod4 _) (mod4 _)))
        iapply (lrest_free m d L k.val hk _); isplitl [Hslot] <;> iassumption
      isplitl [H7]
      · iapply (Entails.of_eq (congrArg (fun g => ((a7).view.loc (V d (cV L) (jV L)) ↦{fullShare} g : sProp 𝕄)) (?_ : _ = poolSt m d L f7 (k.val + 1))))
        swap; · iexact H7
        exact pool_trip m d L hidx f7 k hk
      iexists _; isplitr
      swap; · iexact HO
      ipureintro; intro p hp
      rcases Finset.mem_insert.mp hp with hp | hp; · exact .inr (hp ▸ rfl)
      exact hW' p hp
    · have hk3 : ¬ k.val + 1 + 2 < 32 := fun h => hc ((cond_iff k).mpr (by omega))
      sl_exec
      iapply (wait_gather' m d L hidx k.val hk
          (dstw := ((a6).slice (Rect.unit (s := S4x50x128) (k0_off2 k) S1x50x128.size (k0_off2_inb k)) (fun _ => rfl)).squeeze S50x128 squeezes_S1x50x128_S50x128)
          hsem rfl) $$ [HA' HO]
      · isplitl [HA']; · iexact HA'
        isplitl [HO]; · iexact HO
        iexact Hmw
      iintro ⟨HL, HO⟩
      ihave HL' := (landed_open m d L hidx k.val hk) $$ HL
      icases HL' with ⟨Hslot, HLR⟩
      sl_exec
      sl_step
      isplitl []; · iexact Hmw
      isplitl [HB]; · iexact HB
      isplitl [HC]; · iapply (Entails.of_eq (congrArg (fun t => (FlyOrFree m d L hidx t : sProp 𝕄)) (by omega : k.val + 2 = k.val + 1 + 1))); iexact HC
      isplitl [HD]
      · iapply (Entails.of_eq ((Free_congr m d L (by omega : (k.val + 3) % 4 = (k.val + 1 + 2) % 4) (mod4 _) (mod4 _)).trans (FlyOrFree_ge m d L hidx hk3).symm)); iexact HD
      isplitl [Hslot HLR]
      · iapply (Entails.of_eq (Free_congr m d L (by omega : k.val % 4 = (k.val + 1 + 3) % 4) (mod4 _) (mod4 _)))
        iapply (lrest_free m d L k.val hk _); isplitl [Hslot] <;> iassumption
      isplitl [H7]
      · iapply (Entails.of_eq (congrArg (fun g => ((a7).view.loc (V d (cV L) (jV L)) ↦{fullShare} g : sProp 𝕄)) (?_ : _ = poolSt m d L f7 (k.val + 1))))
        swap; · iexact H7
        exact pool_trip m d L hidx f7 k hk
      iexists _; isplitr
      swap; · iexact HO
      ipureintro; intro p hp
      rcases Finset.mem_insert.mp hp with hp | hp; · exact .inr (hp ▸ rfl)
      exact hW' p hp
  · unfold inv
    isplitl [Hmw]; · iexact Hmw
    isplitl [HG0]; · rw [FlyOrFree_lt m d L hidx (by norm_num : 0 < 32)]; iexact HG0
    isplitl [HG1]; · rw [FlyOrFree_lt m d L hidx (by norm_num : 0 + 1 < 32)]; iexact HG1
    isplitl [HG2]; · rw [FlyOrFree_lt m d L hidx (by norm_num : 0 + 2 < 32)]; iexact HG2
    isplitl [HF3]; · iexact HF3
    isplitl [H7']; · rw [poolSt_zero]; iexact H7'
    iexists _; isplitr
    swap; · iexact HO
    ipureintro; intro p hp
    rcases Finset.mem_insert.mp hp with hp | hp; · exact .inr (hp ▸ rfl)
    exact .inl hp
  iintro %_ HI
  unfold inv
  icases HI with ⟨-, HA, HB, HC, HD, H7, %W', %hW', HO⟩
  have ht : Scf.trips k0_t1_loop.lb k0_t1_loop.ub k0_t1_loop.st = 32 := rfl
  ihave HA := (Entails.of_eq ((congrArg (fun t => (FlyOrFree m d L hidx t : sProp 𝕄)) ht).trans (FlyOrFree_ge m d L hidx (b := 32) (by norm_num)))) $$ HA
  ihave HB := (Entails.of_eq ((congrArg (fun t => (FlyOrFree m d L hidx (t + 1) : sProp 𝕄)) ht).trans (FlyOrFree_ge m d L hidx (b := 32 + 1) (by norm_num)))) $$ HB
  ihave HC := (Entails.of_eq ((congrArg (fun t => (FlyOrFree m d L hidx (t + 2) : sProp 𝕄)) ht).trans (FlyOrFree_ge m d L hidx (b := 32 + 2) (by norm_num)))) $$ HC
  ihave H7 := (Entails.of_eq (congrArg (fun t => ((a7).view.loc (V d (cV L) (jV L)) ↦{fullShare} poolSt m d L f7 t : sProp 𝕄)) ht)) $$ H7
  ihave HA := (free_open m d L _ _) $$ HA
  icases HA with ⟨⟨%g0, H60⟩, Hs0, Hx0, H50⟩
  ihave HB := (free_open m d L _ _) $$ HB
  icases HB with ⟨⟨%g1, H61⟩, Hs1, Hx1, H51⟩
  ihave HC := (free_open m d L _ _) $$ HC
  icases HC with ⟨⟨%g2, H62⟩, Hs2, Hx2, H52⟩
  ihave HD := (Entails.of_eq (Free_congr m d L (n' := 3) (by rw [ht]) (mod4 _) (by norm_num))) $$ HD
  ihave HD := (free_open m d L _ _) $$ HD
  icases HD with ⟨⟨%g3, H63⟩, Hs3, Hx3, H53⟩
  ihave Hx := (pts_quarters (F := F) (ℓ := xLoc d) Finset.univ (m (xLoc d)) (xq (wid L))).2 $$ [Hx0 Hx1 Hx2 Hx3]
  · isplitl [Hx0]; · iexact Hx0
    isplitl [Hx1]; · iexact Hx1
    isplitl [Hx2]; · iexact Hx2
    iexact Hx3
  ihave H5 := (pts_quarters (F := F) (ℓ := (thr d L).loc cc0_scratch0) Finset.univ (idxI m d L) fullShare).2 $$ [H50 H51 H52 H53]
  · isplitl [H50]; · iexact H50
    isplitl [H51]; · iexact H51
    isplitl [H52]; · iexact H52
    iexact H53
  ihave H6 := (a6_join (F := F) d L (fun k => match k with | 0 => g0 | 1 => g1 | 2 => g2 | 3 => g3)) $$ [H60 H61 H62 H63]
  · isplitl [H60]; · iexact H60
    isplitl [H61]; · iexact H61
    isplitl [H62]; · iexact H62
    iexact H63
  icases H6 with ⟨%g6, H6⟩
  sl_exec
  sl_step
  isplitl [Hi' Hx Ho']
  · isplitl [Hi']; · iapply (Entails.of_eq (pts_iRowK (F := F) d L _)); iexact Hi'
    isplitl [Hx]; · iexact Hx
    iapply (Entails.of_eq (pts_oRowK (F := F) d L _))
    iapply (Entails.of_eq (pointsTo_congr (pool_out m d L f7 (m (oLoc d))))); iexact Ho'
  isplitl [H5 H6 H7 Hbufs]
  · isplitl [H5]; · iexists _; iexact H5
    isplitl [H6]; · iexists _; iexact H6
    isplitl [H7]; · iexists _; iexact H7
    iexact Hbufs
  isplitl [HsA HsB Hs0 Hs1 Hs2 Hs3 Hsems]
  · isplitl [HsA]; · iexact HsA
    isplitl [HsB]; · iexact HsB
    isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  exact hW' p hp

end Tile
end Cert.Proof.KB
end
-- ==== Proof.RefTerm.lean ====
/-
  The reference's operations composed into one term of its four arguments: the take in fill mode (a negative
  row number wrapped by adding the table's height, the gather of the rows, and a mask that replaces a row whose
  number is still outside the table by the not-a-number constant), the sum over the fifty context positions, the
  quotient by fifty, the projection by the dense layer and the addition of the bias.
-/
import proofs.«204135_g55705725829175_cont_9to1c4b_393_20_alg».proof.ReferenceIdeal

noncomputable section

namespace Cert.ReferenceIdeal.RefValue

open Cert.ReferenceIdeal Cert.ReferenceIdeal.Facts₀ Idealize.ShloMosaic

variable {F : FTy → Type} [FloatOps F] [Cert.ReferenceIdeal.Facts]

/-- The row numbers after the wrap: a negative one has the table's height added. -/
def wrapped (idx : IVec S1024x50 32) : IVec S1024x50 32 :=
  select (cmpi .slt idx (broadcastInDim S1024x50 ![] bcast_S_S1024x50 (constantI S_ 32 0#32)))
    (addi idx (broadcastInDim S1024x50 ![] bcast_S_S1024x50 (constantI S_ 32 100000#32))) idx

/-- The gather's start indices: the wrapped row numbers with a trailing axis of extent one. -/
def starts (idx : IVec S1024x50 32) : IVec S1024x50x1 32 :=
  broadcastInDim S1024x50x1 ![0, 1] bcast_S1024x50_S1024x50x1_0_1 (wrapped idx)

/-- The mask of the positions whose wrapped row number lies inside the table. -/
def inside (idx : IVec S1024x50 32) : IVec S1024x50 1 :=
  Host.reduce IntOp.andi
    (andi (cmpi .sge (starts idx) (broadcastInDim S1024x50x1 ![] bcast_S_S1024x50x1 (constantI S_ 32 0#32)))
      (cmpi .sle (starts idx)
        (broadcastInDim S1024x50x1 ![0, 1, 2] bcast_S1x1x1_S1024x50x1_0_1_2
          (broadcastInDim S1x1x1 ![2] bcast_S1_S1x1x1_2 (constantI S1 32 99999#32)))))
    (constantI S_ 1 1#1) reducesTo_S1024x50x1_S1024x50_d2 h_S_

/-- The looked-up rows, `[1024, 50, 128]`. -/
def taken (idx : IVec S1024x50 32) (emb : FVec F S100000x128 .f32) : FVec F S1024x50x128 .f32 :=
  select (broadcastInDim S1024x50x128 ![0, 1] bcast_S1024x50_S1024x50x128_0_1 (inside idx))
    (Host.gather gather_S100000x128_S1024x50x1_S1024x50x128_2_0_n_n_0_2_1128 emb (starts idx))
    (broadcastInDim S1024x50x128 ![] bcast_S_S1024x50x128 (constant S_ .f32 0x7FC00000#32))

/-- The mean over the context positions, `[1024, 128]`. -/
def meaned (idx : IVec S1024x50 32) (emb : FVec F S100000x128 .f32) : FVec F S1024x128 .f32 :=
  Host.divf (Host.reduceAdd (taken idx emb) (constant S_ .f32 0x00000000#32) reducesTo_S1024x50x128_S1024x128_d1 h_S_)
    (broadcastInDim S1024x128 ![] bcast_S_S1024x128 (constant S_ .f32 0x42480000#32))

/-- The reference's result as a term of its arguments, `[1024, 100000]`. -/
def refTerm (idx : IVec S1024x50 32) (emb : FVec F S100000x128 .f32) (w : FVec F S128x100000 .f32)
    (bias : FVec F S100000 .f32) : FVec F S1024x100000 .f32 :=
  addf (Host.dotGeneral dot_S1024x128_S128x100000_S1024x100000_1_0_0_1_n_n none (meaned idx emb) w)
    (broadcastInDim S1024x100000 ![0, 1] bcast_S1x100000_S1024x100000_0_1
      (broadcastInDim S1x100000 ![1] bcast_S100000_S1x100000_1 bias))

end Cert.ReferenceIdeal.RefValue

end
-- ==== Proof.RefOps.lean ====
/-
  The reference's @main as a straight line of its thirty-two operations (the take's and the where's listed at
  their call sites over the call's buffers), and its run: every weakly fair execution terminates with the result
  buffer at the operations' composed term of the arguments' launch contents and the arguments unchanged.
-/
import proofs.«204135_g55705725829175_cont_9to1c4b_393_20_alg».proof.Proof.RefTerm
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- @main's thirty-two operations, in order: the take's twenty-three (the where's select the seventh), then
    the sum, the quotient, the projection and the bias. -/
abbrev ops : List (HloOp τ sig (Elt F)) :=
  [ TRef.nullary main_call0.c (constantI S_ 32 0#32),
    TRef.unary main_call0.c main_call0.v0 (broadcastInDim S1024x50 ![] bcast_S_S1024x50),
    TRef.binary (.of main_arg0) main_call0.v0 main_call0.v1 (cmpi .slt),
    TRef.nullary main_call0.c_0 (constantI S_ 32 100000#32),
    TRef.unary main_call0.c_0 main_call0.v2 (broadcastInDim S1024x50 ![] bcast_S_S1024x50),
    TRef.binary (.of main_arg0) main_call0.v2 main_call0.v3 addi,
    TRef.ternary main_call0.v1 main_call0.v3 (.of main_arg0) main_call0.call0.v0 select,
    TRef.unary main_call0.call0.v0 main_call0.v5 (broadcastInDim S1024x50x1 ![0, 1] bcast_S1024x50_S1024x50x1_0_1),
    TRef.nullary main_call0.c_1 (constantI S1 32 99999#32),
    TRef.nullary main_call0.c_2 (constantI S_ 32 0#32),
    TRef.unary main_call0.c_2 main_call0.v6 (broadcastInDim S1024x50x1 ![] bcast_S_S1024x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x50x1 ![0, 1, 2] bcast_S1x1x1_S1024x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x50x1_S1024x50_d2 h_S_),
    TRef.binary (.of main_arg1) main_call0.v5 main_call0.v13 (fun x i => Host.gather gather_S100000x128_S1024x50x1_S1024x50x128_2_0_n_n_0_2_1128 x i),
    TRef.unary main_call0.v12 main_call0.v14 (broadcastInDim S1024x50x128 ![0, 1] bcast_S1024x50_S1024x50x128_0_1),
    TRef.nullary main_call0.cst (constant S_ .f32 0x7FC00000#32),
    TRef.unary main_call0.cst main_call0.v15 (broadcastInDim S1024x50x128 ![] bcast_S_S1024x50x128),
    TRef.ternary main_call0.v14 main_call0.v13 main_call0.v15 main_call0.v16 select,
    nullary main_cst (constant S_ .f32 0x00000000#32),
    binary main_v0 main_cst main_v1 ((fun x v => Host.reduceAdd x v reducesTo_S1024x50x128_S1024x128_d1 h_S_) : (⟨S1024x50x128, .f32⟩ : BufTy).Contents (Elt F) → (⟨S_, .f32⟩ : BufTy).Contents (Elt F) → (⟨S1024x128, .f32⟩ : BufTy).Contents (Elt F)),
    nullary main_cst_0 (constant S_ .f32 0x42480000#32),
    unary main_cst_0 main_v2 (broadcastInDim S1024x128 ![] bcast_S_S1024x128 : (⟨S_, .f32⟩ : BufTy).Contents (Elt F) → (⟨S1024x128, .f32⟩ : BufTy).Contents (Elt F)),
    binary main_v1 main_v2 main_v3 (Host.divf : (⟨S1024x128, .f32⟩ : BufTy).Contents (Elt F) → (⟨S1024x128, .f32⟩ : BufTy).Contents (Elt F) → (⟨S1024x128, .f32⟩ : BufTy).Contents (Elt F)),
    binary main_v3 main_arg2 main_v4 ((fun l r => Host.dotGeneral dot_S1024x128_S128x100000_S1024x100000_1_0_0_1_n_n none l r) : (⟨S1024x128, .f32⟩ : BufTy).Contents (Elt F) → (⟨S128x100000, .f32⟩ : BufTy).Contents (Elt F) → (⟨S1024x100000, .f32⟩ : BufTy).Contents (Elt F)),
    unary main_arg3 main_v5 (broadcastInDim S1x100000 ![1] bcast_S100000_S1x100000_1 : (⟨S100000, .f32⟩ : BufTy).Contents (Elt F) → (⟨S1x100000, .f32⟩ : BufTy).Contents (Elt F)),
    unary main_v5 main_v6 (broadcastInDim S1024x100000 ![0, 1] bcast_S1x100000_S1024x100000_0_1 : (⟨S1x100000, .f32⟩ : BufTy).Contents (Elt F) → (⟨S1024x100000, .f32⟩ : BufTy).Contents (Elt F)),
    binary main_v4 main_v6 main_v7 (addf : (⟨S1024x100000, .f32⟩ : BufTy).Contents (Elt F) → (⟨S1024x100000, .f32⟩ : BufTy).Contents (Elt F) → (⟨S1024x100000, .f32⟩ : BufTy).Contents (Elt F)) ]

set_option maxRecDepth 1024 in
/-- @main is that straight line: the two functions' definitions unfolded at their calls and the records at
    their fields, both sides are one chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub .., binary_bufs_sub ..,
    unary_bufs_sub .., unary_bufs_sub .., binary_bufs_sub ..⟩

/-- From any memory with zero counters every weakly fair execution of @main terminates, and every final state has
    each buffer at the fold of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather Host.reduceAdd Host.divf in
/-- The fold at the result buffer is the composed term: each operation's result read at its own buffer is its
    function's value, at any other buffer what was there. -/
theorem out_eq (V : Valuation τ sig (Elt F)) :
    after ops V (main_v7 : DevRef τ sig)
      = refTerm (F := F) (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- The run with the result at the composed term of the arguments' launch contents, the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = refTerm (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v7).trans (out_eq _), (h c main_arg0).trans (arg0_eq _),
      (h c main_arg1).trans (arg1_eq _), (h c main_arg2).trans (arg2_eq _), (h c main_arg3).trans (arg3_eq _)⟩)
    (run_main m ρ)

end Cert.ReferenceIdeal.RefValue

end
-- ==== Proof.RefValue.lean ====
/-
  The reference's composed term read at an index: under the hypothesis that every row number names a row of the
  table, the wrap leaves the row numbers as they are, the mask is all ones, the gather reads the named row, and
  the result at batch row b and vocabulary column v is the specification's logit.
-/
import proofs.«204135_g55705725829175_cont_9to1c4b_393_20_alg».proof.Proof.RefTerm
import proofs.«204135_g55705725829175_cont_9to1c4b_393_20_alg».proof.Proof.Spec
import Idealize.ShloMosaic.Lib.ValueIdx
import Idealize.ShloMosaic.Lib.IdealHost
import Idealize.ShloMosaic.Lib.Pipeline.Value
import Idealize.ShloMosaic.Lib.KernelVsHost
import Idealize.ShloMosaic.Lib.Affine
import Idealize.ShloMosaic.PureOps.Ideal.Laws
import Idealize.ShloMosaic.Lib.StackMember

noncomputable section

open scoped BigOperators

namespace Cert.ReferenceIdeal.RefValue

open Cert.ReferenceIdeal Cert.ReferenceIdeal.Facts₀ Idealize.ShloMosaic Idealize.ShloMosaic.ValueIdx

variable [Cert.ReferenceIdeal.Facts]

/-! ## Words -/

/-- A word below 100000 read signed is the same number. -/
theorem toInt_of_lt (v : BitVec 32) (h : v.toNat < 100000) : v.toInt = (v.toNat : Int) :=
  BitVec.toInt_eq_toNat_of_lt (by omega)

/-- A left fold by `and` from 1 over ones is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-! ## The take -/

/-- No row number is negative, so the wrap changes nothing. -/
theorem wrapped_eq (idx : IVec S1024x50 32) (hidx : ∀ j, (idx j).toNat < 100000) : wrapped idx = idx := by
  funext j
  show Scalar.select (IntOp.cmpi .slt (idx j) 0#32) (IntOp.addi (idx j) 100000#32) (idx j) = idx j
  have hn : ¬IntOp.cmpi .slt (idx j) 0#32 = 1#1 := by
    rw [IntOp.cmpi_slt, toInt_of_lt _ (hidx j), show (0#32 : BitVec 32).toInt = 0 from by decide]
    omega
  exact if_neg hn

/-- The start index at position (b, c) is the row number there. -/
theorem starts_apply (idx : IVec S1024x50 32) (b : Fin 1024) (c : Fin 50) (z : Fin 1) :
    starts idx (ix3 b c z) = wrapped idx (ix2 b c) := by
  refine broadcastInDim_apply ![0, 1] _ _ (ix3 b c z) (ix2 b c) ?_
  intro a
  match a with
  | ⟨0, _⟩ => rfl
  | ⟨1, _⟩ => rfl

/-- Every row number lies inside the table, so the mask is all ones. -/
theorem inside_eq (idx : IVec S1024x50 32) (hidx : ∀ j, (idx j).toNat < 100000) : inside idx = fun _ => 1#1 := by
  funext j
  unfold inside
  rw [Host.reduce_eq_foldl]
  refine foldl_andi_ones _ _ fun i _ => ?_
  obtain ⟨b, c, z, rfl⟩ : ∃ (b : Fin 1024) (c : Fin 50) (z : Fin 1), i = ix3 b c z := ⟨i 0, i 1, i 2, eq_ix3 i⟩
  show IntOp.andi (IntOp.cmpi .sge (starts idx (ix3 b c z)) 0#32) (IntOp.cmpi .sle (starts idx (ix3 b c z)) 99999#32) = 1#1
  rw [starts_apply, wrapped_eq idx hidx, IntOp.andi_eq_one, IntOp.cmpi_sge, IntOp.cmpi_sle, toInt_of_lt _ (hidx _),
    show (0#32 : BitVec 32).toInt = 0 from by decide, show (99999#32 : BitVec 32).toInt = 99999 from by decide]
  have := hidx (ix2 b c)
  omega

/-- The gather read at (b, c, e): the table at the row the start index names, read signed and clamped into the
    table, and column e. -/
theorem gather_apply {α : Type} (emb : S100000x128.Idx → α) (st : IVec S1024x50x1 32) (b : Fin 1024) (c : Fin 50) (e : Fin 128) :
    Host.gather gather_S100000x128_S1024x50x1_S1024x50x128_2_0_n_n_0_2_1128 emb st (ix3 b c e)
      = emb (ix2 (⟨min (st (ix3 b c (0 : Fin 1))).toInt.toNat 99999, by omega⟩ : Fin 100000) e) := by
  unfold Host.gather
  refine congrArg emb (funext fun a => Fin.ext ?_)
  match a with
  | ⟨0, _⟩ =>
    show GatherDims.start _ (ix3 b c e) st 0 + GatherDims.batchCoord _ (ix3 b c e) 0 + GatherDims.offCoord _ (ix3 b c e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S100000x128.rank) ∈ (gather_S100000x128_S1024x50x1_S1024x50x128_2_0_n_n_0_2_1128).startIndexMap
      from List.mem_singleton.mpr rfl)]
    have hsi : GatherDims.siIdx gather_S100000x128_S1024x50x1_S1024x50x128_2_0_n_n_0_2_1128 (ix3 b c e)
        ⟨List.idxOf (0 : Fin 2) (gather_S100000x128_S1024x50x1_S1024x50x128_2_0_n_n_0_2_1128).startIndexMap,
          List.idxOf_lt_length_iff.2 (List.mem_singleton.mpr rfl)⟩ = ix3 b c (0 : Fin 1) := by
      funext b'; refine Fin.ext ?_
      match b' with
      | ⟨0, _⟩ => rfl
      | ⟨1, _⟩ => rfl
      | ⟨2, _⟩ => rfl
    rw [hsi]
    rfl
  | ⟨1, _⟩ =>
    show GatherDims.start _ (ix3 b c e) st 1 + GatherDims.batchCoord _ (ix3 b c e) 1 + GatherDims.offCoord _ (ix3 b c e) 1 = e.val
    rw [GatherDims.batchCoord_eq_zero _ _ _ List.not_mem_nil]
    unfold GatherDims.start
    rw [dif_neg (show (1 : Fin S100000x128.rank) ∉ (gather_S100000x128_S1024x50x1_S1024x50x128_2_0_n_n_0_2_1128).startIndexMap
      from fun h => absurd (List.mem_singleton.mp h) (by decide))]
    simp only [Nat.add_zero, Nat.zero_add]
    rfl

/-- The looked-up rows at (b, c, e): the table's row numbered by the index array's entry at (b, c), column e. -/
theorem taken_apply (idx : IVec S1024x50 32) (emb : FVec Ideal S100000x128 .f32) (hidx : ∀ j, (idx j).toNat < 100000)
    (b : Fin 1024) (c : Fin 50) (e : Fin 128) :
    taken idx emb (ix3 b c e) = Cert.Spec.rowAt emb (idx (ix2 b c)).toNat e := by
  unfold taken
  rw [inside_eq idx hidx]
  show Scalar.select 1#1 (Host.gather gather_S100000x128_S1024x50x1_S1024x50x128_2_0_n_n_0_2_1128 emb (starts idx) (ix3 b c e)) _ = _
  have hs : starts idx (ix3 b c (0 : Fin 1)) = idx (ix2 b c) := by rw [starts_apply, wrapped_eq idx hidx]
  rw [select_one, gather_apply]
  unfold Cert.Spec.rowAt
  rw [dif_pos (hidx _)]
  refine congrArg (fun r : Fin 100000 => emb (ix2 r e)) (Fin.ext ?_)
  show min (starts idx (ix3 b c (0 : Fin 1))).toInt.toNat 99999 = (idx (ix2 b c)).toNat
  have h1 := hidx (ix2 b c)
  rw [hs, toInt_of_lt _ h1, Int.toNat_natCast]
  omega

/-! ## The mean -/

/-- The pattern `0x42480000` is the real number fifty. -/
theorem ofBits_fifty : Ideal.ofBits .f32 0x42480000#32 = ((50 : ℝ) : EReal) := by
  simp [Ideal.ofBits, Ideal.ieee, -EReal.coe_mul]; norm_num

/-- The index of the sum's term: the reduced index (b, e) with the context position c inserted on the middle axis. -/
theorem lift_apply (h : S1024x50x128.Reduces [1] S1024x128) (b : Fin 1024) (c : Fin 50) (e : Fin 128) :
    h.lift (ix2 b e) c = ix3 b c e := by
  funext a; refine Fin.ext ?_
  match a with
  | ⟨0, _⟩ => rfl
  | ⟨1, _⟩ => rfl
  | ⟨2, _⟩ => rfl

/-- The mean at (b, e) is the specification's pooled entry. -/
theorem meaned_apply (idx : IVec S1024x50 32) (emb : FVec Ideal S100000x128 .f32) (hidx : ∀ j, (idx j).toNat < 100000)
    (b : Fin 1024) (e : Fin 128) :
    meaned idx emb (ix2 b e) = Cert.Spec.pooledAt idx emb b e := by
  have hR : S1024x50x128.Reduces [1] S1024x128 := by decide
  show Ideal.div (Ideal.hostReduceAdd reducesTo_S1024x50x128_S1024x128_d1 (taken idx emb) (Ideal.ofBits .f32 0x00000000#32) (ix2 b e))
    (Ideal.ofBits .f32 0x42480000#32) = _
  rw [ofBits_fifty, Ideal.div_coe (by norm_num), Ideal.hostReduceAdd_single _ hR, Ideal.ofBits_zero_f32, zero_add]
  unfold Cert.Spec.pooledAt Cert.Spec.pooledSum
  refine congrArg (· * (((1 / 50 : ℝ) : ℝ) : EReal)) ?_
  refine Finset.sum_congr rfl fun c _ => ?_
  exact (congrArg (taken idx emb) (lift_apply hR b c e)).trans (taken_apply idx emb hidx b c e)

/-! ## The projection and the bias -/

/-- The bias broadcast to a row and down the rows, read at (b, v), is the bias at v. -/
theorem bias_apply (bias : FVec Ideal S100000 .f32) (b : Fin 1024) (v : Fin 100000) :
    broadcastInDim S1024x100000 ![0, 1] bcast_S1x100000_S1024x100000_0_1
      (broadcastInDim S1x100000 ![1] bcast_S100000_S1x100000_1 bias) (ix2 b v) = bias (ix1 v) := by
  rw [broadcastInDim_oneRow_apply]
  refine broadcastInDim_apply ![1] _ bias (ix2 (0 : Fin 1) v) (ix1 v) ?_
  intro a
  match a with
  | ⟨0, _⟩ => rfl

/-- The reference's term at (b, v) is the specification's logit. -/
theorem refTerm_apply (idx : IVec S1024x50 32) (emb : FVec Ideal S100000x128 .f32) (w : FVec Ideal S128x100000 .f32)
    (bias : FVec Ideal S100000 .f32) (hidx : ∀ j, (idx j).toNat < 100000) (b : Fin 1024) (v : Fin 100000) :
    refTerm idx emb w bias (ix2 b v) = Cert.Spec.logitAt idx emb w bias b v := by
  show Host.dotGeneral (DotDims.plain 1024 128 100000) none (meaned idx emb) w (ix2 b v)
    + broadcastInDim S1024x100000 ![0, 1] bcast_S1x100000_S1024x100000_0_1
        (broadcastInDim S1x100000 ![1] bcast_S100000_S1x100000_1 bias) (ix2 b v) = _
  rw [StackMember.dotGeneral_plain_apply, bias_apply]
  unfold Cert.Spec.logitAt
  refine congrArg (· + bias (ix1 v)) ?_
  refine Finset.sum_congr rfl fun k _ => ?_
  rw [meaned_apply idx emb hidx]

/-- Under the hypothesis that every row number names a row of the table, the reference's term is the
    specification's array. -/
theorem refTerm_eq_G (idx : IVec S1024x50 32) (emb : FVec Ideal S100000x128 .f32) (w : FVec Ideal S128x100000 .f32)
    (bias : FVec Ideal S100000 .f32) (hidx : ∀ j, (idx j).toNat < 100000) :
    refTerm idx emb w bias = Cert.Spec.G idx emb w bias := by
  funext j
  obtain ⟨b, v, rfl⟩ : ∃ (b : Fin 1024) (v : Fin 100000), j = ix2 b v := ⟨j 0, j 1, eq_ix2 j⟩
  exact refTerm_apply idx emb w bias hidx b v

end Cert.ReferenceIdeal.RefValue

end
-- ==== Proof.RefRun.lean ====
/-
  The reference's run against the specification: from any memory whose index array names only rows of the table,
  every weakly fair execution of the reference terminates with its result buffer at the specification's array of the
  argument arrays and the arguments unchanged.
-/
import proofs.«204135_g55705725829175_cont_9to1c4b_393_20_alg».proof.Proof.RefOps
import proofs.«204135_g55705725829175_cont_9to1c4b_393_20_alg».proof.Proof.RefValue

noncomputable section

namespace Cert.ReferenceIdeal.RefValue

open Idealize.ShloMosaic Idealize.ShloMosaic.TcCoe Idealize.SL.Sem

theorem run [Cert.ReferenceIdeal.Facts] (m : (ℓ : Loc Cert.ReferenceIdeal.nD Cert.ReferenceIdeal.τ Cert.ReferenceIdeal.sig) → Buf (Elt Ideal) ℓ) (g : Dev Cert.ReferenceIdeal.nD → PrngReg)
    (hidx : ∀ (c : Dev Cert.ReferenceIdeal.nD) j, ((m ((c.tc : Thread Cert.ReferenceIdeal.nD Cert.ReferenceIdeal.τ).loc Cert.ReferenceIdeal.main_arg0)) j).toNat < 100000) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v7)
        = Cert.Spec.G (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (refTerm_eq_G _ _ _ _ (hidx c)), (h c).2⟩)
    (run_term (F := Ideal) m g)

end Cert.ReferenceIdeal.RefValue

end
-- ==== Proof.RefFrame.lean ====
/-
  The reference's claims from its run: under the precondition every row number names a row of the table, so the
  run against the specification applies; dropping the result's conjunct leaves the frame claim.
-/
import proofs.«204135_g55705725829175_cont_9to1c4b_393_20_alg».proof.Defs
import proofs.«204135_g55705725829175_cont_9to1c4b_393_20_alg».proof.Proof.RefRun
import proofs.«204135_g55705725829175_cont_9to1c4b_393_20_alg».proof.Proof.PreIdx

noncomputable section

namespace Cert.ReferenceIdeal.RefValue

open Idealize.ShloMosaic Idealize.ShloMosaic.TcCoe Idealize.SL.Sem

/-- Under the precondition, the run with the result at the specification's array and the arguments unchanged. -/
theorem run_pre [Cert.ReferenceIdeal.Facts] [Cert.Pre_input_domain.Facts]
    (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v7)
        = Cert.Spec.G (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  run m g fun c => Cert.PreIdx.idx_lt (F := Ideal) _ _ _ _ (hpre c)

/-- The reference runs and its argument arrays end unchanged. -/
theorem frame [Cert.ReferenceIdeal.Facts] [Cert.Pre_input_domain.Facts] : Cert.frame_ReferenceIdeal := fun m g hpre =>
  (θ_run (Cert.ReferenceIdeal.defs (F := Ideal)) _ _).mono (fun _ h c => (h c).2) (run_pre m g hpre)

end Cert.ReferenceIdeal.RefValue

end
-- ==== Proof.Final.lean ====
/-
  The five claims assembled. Both kernel programs — the one printed word for word and its idealization — run to the end
  with their arguments unchanged: the run of @main beside the SparseCores' threads, from the proof of one subcore's
  pooling task, the split of the three arrays among the 32 subcores, the projection's kernel region and the host
  operations around it; the two differ only in how the constant 1/50 is spelt, so one text serves both. The reference
  runs by its operations read in order. The idealization's one rewrite — the f32 constant nearest 1/50 read as the real
  number 1/50, at each of the eight lane chunks — is the named-constant rule's statement. And at the ideal instance the
  two programs compute one function of the four argument arrays: the mean over the fifty context positions of the
  looked-up table rows, projected by the dense layer.
-/
import proofs.«204135_g55705725829175_cont_9to1c4b_393_20_alg».proof.Defs
import proofs.«204135_g55705725829175_cont_9to1c4b_393_20_alg».proof.Proof.Gen.Kernel
import proofs.«204135_g55705725829175_cont_9to1c4b_393_20_alg».proof.Proof.Gen.KernelIdeal
import proofs.«204135_g55705725829175_cont_9to1c4b_393_20_alg».proof.Proof.Gen.ReferenceIdeal
import proofs.«204135_g55705725829175_cont_9to1c4b_393_20_alg».proof.Proof.Gen.Pre_input_domain
import proofs.«204135_g55705725829175_cont_9to1c4b_393_20_alg».proof.Proof.ScClaims
import proofs.«204135_g55705725829175_cont_9to1c4b_393_20_alg».proof.Proof.ScBody
import proofs.«204135_g55705725829175_cont_9to1c4b_393_20_alg».proof.Proof.ScRunB
import proofs.«204135_g55705725829175_cont_9to1c4b_393_20_alg».proof.Proof.ScBodyB
import proofs.«204135_g55705725829175_cont_9to1c4b_393_20_alg».proof.Proof.RefFrame

noncomputable section

namespace Cert.Proof.Final

open Idealize.ShloMosaic Idealize.SL.Sem

/-- The printed kernel runs and keeps its arguments. -/
theorem frame_K : Cert.frame_Kernel := fun m ρ hpre =>
  (θ_run Cert.Kernel.defs _ _).mono (fun _ h c => ⟨(h c).2.1, (h c).2.2.1, (h c).2.2.2.1, (h c).2.2.2.2⟩)
    (Cert.Proof.KB.run_main (F := Bits) m ρ (fun hF hidx d L O W hO => Cert.Proof.KB.tile_body (UU := Cert.Proof.KB.UC) m d L hF hidx O W hO)
      (Cert.Proof.KB.idxOK_of_pre m hpre))

/-- The idealized kernel runs and keeps its arguments. -/
theorem frame_KI : Cert.frame_KernelIdeal := fun m ρ hpre =>
  (θ_run Cert.KernelIdeal.defs _ _).mono (fun _ h c => ⟨(h c).2.1, (h c).2.2.1, (h c).2.2.2.1, (h c).2.2.2.2⟩)
    (Cert.Proof.KI.run_main (F := Ideal) m ρ (fun hF hidx d L O W hO => Cert.Proof.KI.tile_body (UU := Cert.Proof.KI.UC) m d L hF hidx O W hO)
      (Cert.Proof.KI.idxOK_of_pre m hpre))

/-- The constant the kernel multiplies the fifty-row sum by denotes the real number 1/50 at the ideal instance, by the
    certificate's table: the rule's statement, once per lane chunk. -/
theorem preserves : Cert.preserves_Kernel_KernelIdeal :=
  have h := IdealRules.named_const.statement Cert.KernelIdeal.κ "inv_50" .f32 0x3CA3D70A#32 ((1 / 50 : ℝ) : EReal) rfl
  ⟨h, h, h, h, h, h, h, h⟩

/-- At the ideal instance the kernel's result array and the reference's are the specification's logits of the same four
    argument arrays. -/
theorem algebraic : Cert.algebraic_KernelIdeal_ReferenceIdeal := by
  intro m g m' g' hpre hagree
  have hidx : Cert.Proof.KI.IdxOK m := Cert.Proof.KI.idxOK_of_pre m hpre
  have hidx' : ∀ (c : Dev Cert.ReferenceIdeal.nD) j,
      ((m' ((c.tc : Thread Cert.ReferenceIdeal.nD Cert.ReferenceIdeal.τ).loc Cert.ReferenceIdeal.main_arg0)) j).toNat < 100000 := fun c j => by
    rw [(hagree c).1]; exact hidx c j
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_)
      (Cert.Proof.KI.run_main (F := Ideal) m g (fun hF hidx d L O W hO => Cert.Proof.KI.tile_body (UU := Cert.Proof.KI.UC) m d L hF hidx O W hO) hidx)
    obtain ⟨⟨W, hv⟩, h0, h1, h2, h3⟩ := h c
    exact ⟨hv.trans (Cert.Proof.KI.V5_value m hidx c W), h0, h1, h2, h3⟩
  · refine (θ_run Cert.ReferenceIdeal.defs _ _).mono (fun r h c => ?_) (Cert.ReferenceIdeal.RefValue.run m' g' hidx')
    obtain ⟨hv, h0, h1, h2, h3⟩ := h c
    refine ⟨?_, h0, h1, h2, h3⟩
    rw [hv, (hagree c).1, (hagree c).2.1, (hagree c).2.2.1, (hagree c).2.2.2]

end Cert.Proof.Final

end
-- ==== Proof.lean ====
/-
  The certificate's claim: the three frames, the idealization's one rewrite, and the equality of the idealized kernel
  with the reference at the ideal instance — each proved in the modules imported here (the kernel's run: the pooling
  task on a SparseCore subcore, the launch and the projection's region; the reference's run; the value: both compute
  the mean-pooled embedding projected by the dense layer).
-/
import proofs.«204135_g55705725829175_cont_9to1c4b_393_20_alg».proof.Defs
import proofs.«204135_g55705725829175_cont_9to1c4b_393_20_alg».proof.Proof.Gen.Kernel
import proofs.«204135_g55705725829175_cont_9to1c4b_393_20_alg».proof.Proof.Gen.Kernel.Skeleton
import proofs.«204135_g55705725829175_cont_9to1c4b_393_20_alg».proof.Proof.Gen.Kernel.Launch
import proofs.«204135_g55705725829175_cont_9to1c4b_393_20_alg».proof.Proof.Gen.Kernel.Points
import proofs.«204135_g55705725829175_cont_9to1c4b_393_20_alg».proof.Proof.Gen.KernelIdeal
import proofs.«204135_g55705725829175_cont_9to1c4b_393_20_alg».proof.Proof.Gen.KernelIdeal.Skeleton
import proofs.«204135_g55705725829175_cont_9to1c4b_393_20_alg».proof.Proof.Gen.KernelIdeal.Launch
import proofs.«204135_g55705725829175_cont_9to1c4b_393_20_alg».proof.Proof.Gen.KernelIdeal.Points
import proofs.«204135_g55705725829175_cont_9to1c4b_393_20_alg».proof.Proof.Gen.ReferenceIdeal
import proofs.«204135_g55705725829175_cont_9to1c4b_393_20_alg».proof.Proof.Gen.Pre_input_domain
import proofs.«204135_g55705725829175_cont_9to1c4b_393_20_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Cert.Proof.Final.frame_K, Cert.Proof.Final.frame_KI, Cert.ReferenceIdeal.RefValue.frame, Cert.Proof.Final.preserves, Cert.Proof.Final.algebraic⟩

end Cert.Proof

end
